-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)) →
    ∃ (v0 : (c : Dev Cert.KernelIdeal.nD) → Buf (Elt Ideal) ((c.tc : Thread Cert.KernelIdeal.nD Cert.KernelIdeal.τ).loc Cert.KernelIdeal.main_v488)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v488) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v748) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S2x600000 : Shape := ⟨2, ![2, 600000]⟩
abbrev S8x128 : Shape := ⟨2, ![8, 128]⟩
abbrev S1x128 : Shape := ⟨2, ![1, 128]⟩
abbrev S5 : Shape := ⟨1, ![5]⟩
abbrev S5x128x256 : Shape := ⟨3, ![5, 128, 256]⟩
abbrev S5x256 : Shape := ⟨2, ![5, 256]⟩
abbrev S5x256x128 : Shape := ⟨3, ![5, 256, 128]⟩
abbrev S5x128 : Shape := ⟨2, ![5, 128]⟩
abbrev S4x128x256 : Shape := ⟨3, ![4, 128, 256]⟩
abbrev S4x256 : Shape := ⟨2, ![4, 256]⟩
abbrev S4x256x128 : Shape := ⟨3, ![4, 256, 128]⟩
abbrev S4x128 : Shape := ⟨2, ![4, 128]⟩
abbrev S_ : Shape := ⟨0, ![]⟩

class Facts : Prop where
  bcast_S_S8x128 : S_.BroadcastsInDim S8x128 (![] : Fin 0 → Fin S8x128.rank)
  reducesTo_S8x128_S_d0_1 : S8x128.ReducesTo [0, 1] S_
  h_S_ : 0 < S_.numel
  bcast_S_S1x128 : S_.BroadcastsInDim S1x128 (![] : Fin 0 → Fin S1x128.rank)
  reducesTo_S1x128_S_d0_1 : S1x128.ReducesTo [0, 1] S_
  bcast_S_S5 : S_.BroadcastsInDim S5 (![] : Fin 0 → Fin S5.rank)
  reducesTo_S5_S_d0 : S5.ReducesTo [0] S_
  bcast_S_S5x128x256 : S_.BroadcastsInDim S5x128x256 (![] : Fin 0 → Fin S5x128x256.rank)
  reducesTo_S5x128x256_S_d0_1_2 : S5x128x256.ReducesTo [0, 1, 2] S_
  bcast_S_S5x256 : S_.BroadcastsInDim S5x256 (![] : Fin 0 → Fin S5x256.rank)
  reducesTo_S5x256_S_d0_1 : S5x256.ReducesTo [0, 1] S_
  bcast_S_S5x256x128 : S_.BroadcastsInDim S5x256x128 (![] : Fin 0 → Fin S5x256x128.rank)
  reducesTo_S5x256x128_S_d0_1_2 : S5x256x128.ReducesTo [0, 1, 2] S_
  bcast_S_S5x128 : S_.BroadcastsInDim S5x128 (![] : Fin 0 → Fin S5x128.rank)
  reducesTo_S5x128_S_d0_1 : S5x128.ReducesTo [0, 1] S_
  bcast_S_S4x128x256 : S_.BroadcastsInDim S4x128x256 (![] : Fin 0 → Fin S4x128x256.rank)
  reducesTo_S4x128x256_S_d0_1_2 : S4x128x256.ReducesTo [0, 1, 2] S_
  bcast_S_S4x256 : S_.BroadcastsInDim S4x256 (![] : Fin 0 → Fin S4x256.rank)
  reducesTo_S4x256_S_d0_1 : S4x256.ReducesTo [0, 1] S_
  bcast_S_S4x256x128 : S_.BroadcastsInDim S4x256x128 (![] : Fin 0 → Fin S4x256x128.rank)
  reducesTo_S4x256x128_S_d0_1_2 : S4x256x128.ReducesTo [0, 1, 2] S_
  bcast_S_S4x128 : S_.BroadcastsInDim S4x128 (![] : Fin 0 → Fin S4x128.rank)
  reducesTo_S4x128_S_d0_1 : S4x128.ReducesTo [0, 1] S_

variable [Facts]

def fn_part7 {F : FTy → Type} [FloatOps F] (main_arg28 : FVec F S4x128 .f32) (main_arg29 : FVec F S4x128 .f32) (main_v118 : IVec S_ 1) (main_v119 : FVec F S4x128 .f32) : IVec S_ 1 :=
  let main_cst_46 : FVec F S_ .f32 := constant S_ .f32 0x7F800000#32
  let main_v120 : FVec F S4x128 .f32 := broadcastInDim S4x128 ![] bcast_S_S4x128 main_cst_46
  let main_v121 : IVec S4x128 1 := cmpf .olt main_v119 main_v120
  let main_c_47 : IVec S_ 1 := constantI S_ 1 1#1
  let main_v122 : IVec S_ 1 := (fun x v => Host.reduce IntOp.andi x v reducesTo_S4x128_S_d0_1 h_S_) main_v121 main_c_47
  let main_v123 : IVec S_ 1 := andi main_v118 main_v122
  let main_v124 : FVec F S4x128 .f32 := Host.absf main_arg28
  let main_cst_48 : FVec F S_ .f32 := constant S_ .f32 0x7F800000#32
  let main_v125 : FVec F S4x128 .f32 := broadcastInDim S4x128 ![] bcast_S_S4x128 main_cst_48
  let main_v126 : IVec S4x128 1 := cmpf .olt main_v124 main_v125
  let main_c_49 : IVec S_ 1 := constantI S_ 1 1#1
  let main_v127 : IVec S_ 1 := (fun x v => Host.reduce IntOp.andi x v reducesTo_S4x128_S_d0_1 h_S_) main_v126 main_c_49
  let main_v128 : IVec S_ 1 := andi main_v123 main_v127
  let main_v129 : FVec F S4x128 .f32 := Host.absf main_arg29
  let main_cst_50 : FVec F S_ .f32 := constant S_ .f32 0x7F800000#32
  let main_v130 : FVec F S4x128 .f32 := broadcastInDim S4x128 ![] bcast_S_S4x128 main_cst_50
  let main_v131 : IVec S4x128 1 := cmpf .olt main_v129 main_v130
  let main_c_51 : IVec S_ 1 := constantI S_ 1 1#1
  let main_v132 : IVec S_ 1 := (fun x v => Host.reduce IntOp.andi x v reducesTo_S4x128_S_d0_1 h_S_) main_v131 main_c_51
  let main_v133 : IVec S_ 1 := andi main_v128 main_v132
  main_v133

def fn_part6 {F : FTy → Type} [FloatOps F] (main_arg24 : FVec F S4x256x128 .f32) (main_arg25 : FVec F S4x128 .f32) (main_arg26 : FVec F S4x128 .f32) (main_arg27 : FVec F S4x128 .f32) (main_arg28 : FVec F S4x128 .f32) (main_arg29 : FVec F S4x128 .f32) (main_v98 : IVec S_ 1) (main_v101 : IVec S4x256 1) (main_c_39 : IVec S_ 1) : IVec S_ 1 :=
  let main_v102 : IVec S_ 1 := (fun x v => Host.reduce IntOp.andi x v reducesTo_S4x256_S_d0_1 h_S_) main_v101 main_c_39
  let main_v103 : IVec S_ 1 := andi main_v98 main_v102
  let main_v104 : FVec F S4x256x128 .f32 := Host.absf main_arg24
  let main_cst_40 : FVec F S_ .f32 := constant S_ .f32 0x7F800000#32
  let main_v105 : FVec F S4x256x128 .f32 := broadcastInDim S4x256x128 ![] bcast_S_S4x256x128 main_cst_40
  let main_v106 : IVec S4x256x128 1 := cmpf .olt main_v104 main_v105
  let main_c_41 : IVec S_ 1 := constantI S_ 1 1#1
  let main_v107 : IVec S_ 1 := (fun x v => Host.reduce IntOp.andi x v reducesTo_S4x256x128_S_d0_1_2 h_S_) main_v106 main_c_41
  let main_v108 : IVec S_ 1 := andi main_v103 main_v107
  let main_v109 : FVec F S4x128 .f32 := Host.absf main_arg25
  let main_cst_42 : FVec F S_ .f32 := constant S_ .f32 0x7F800000#32
  let main_v110 : FVec F S4x128 .f32 := broadcastInDim S4x128 ![] bcast_S_S4x128 main_cst_42
  let main_v111 : IVec S4x128 1 := cmpf .olt main_v109 main_v110
  let main_c_43 : IVec S_ 1 := constantI S_ 1 1#1
  let main_v112 : IVec S_ 1 := (fun x v => Host.reduce IntOp.andi x v reducesTo_S4x128_S_d0_1 h_S_) main_v111 main_c_43
  let main_v113 : IVec S_ 1 := andi main_v108 main_v112
  let main_v114 : FVec F S4x128 .f32 := Host.absf main_arg26
  let main_cst_44 : FVec F S_ .f32 := constant S_ .f32 0x7F800000#32
  let main_v115 : FVec F S4x128 .f32 := broadcastInDim S4x128 ![] bcast_S_S4x128 main_cst_44
  let main_v116 : IVec S4x128 1 := cmpf .olt main_v114 main_v115
  let main_c_45 : IVec S_ 1 := constantI S_ 1 1#1
  let main_v117 : IVec S_ 1 := (fun x v => Host.reduce IntOp.andi x v reducesTo_S4x128_S_d0_1 h_S_) main_v116 main_c_45
  let main_v118 : IVec S_ 1 := andi main_v113 main_v117
  let main_v119 : FVec F S4x128 .f32 := Host.absf main_arg27
  fn_part7 (F := F) main_arg28 main_arg29 main_v118 main_v119

def fn_part5 {F : FTy → Type} [FloatOps F] (main_arg21 : FVec F S4x256 .f32) (main_arg22 : FVec F S4x256 .f32) (main_arg23 : FVec F S4x256 .f32) (main_arg24 : FVec F S4x256x128 .f32) (main_arg25 : FVec F S4x128 .f32) (main_arg26 : FVec F S4x128 .f32) (main_arg27 : FVec F S4x128 .f32) (main_arg28 : FVec F S4x128 .f32) (main_arg29 : FVec F S4x128 .f32) (main_v83 : IVec S_ 1) (main_v84 : FVec F S4x256 .f32) (main_cst_32 : FVec F S_ .f32) : IVec S_ 1 :=
  let main_v85 : FVec F S4x256 .f32 := broadcastInDim S4x256 ![] bcast_S_S4x256 main_cst_32
  let main_v86 : IVec S4x256 1 := cmpf .olt main_v84 main_v85
  let main_c_33 : IVec S_ 1 := constantI S_ 1 1#1
  let main_v87 : IVec S_ 1 := (fun x v => Host.reduce IntOp.andi x v reducesTo_S4x256_S_d0_1 h_S_) main_v86 main_c_33
  let main_v88 : IVec S_ 1 := andi main_v83 main_v87
  let main_v89 : FVec F S4x256 .f32 := Host.absf main_arg21
  let main_cst_34 : FVec F S_ .f32 := constant S_ .f32 0x7F800000#32
  let main_v90 : FVec F S4x256 .f32 := broadcastInDim S4x256 ![] bcast_S_S4x256 main_cst_34
  let main_v91 : IVec S4x256 1 := cmpf .olt main_v89 main_v90
  let main_c_35 : IVec S_ 1 := constantI S_ 1 1#1
  let main_v92 : IVec S_ 1 := (fun x v => Host.reduce IntOp.andi x v reducesTo_S4x256_S_d0_1 h_S_) main_v91 main_c_35
  let main_v93 : IVec S_ 1 := andi main_v88 main_v92
  let main_v94 : FVec F S4x256 .f32 := Host.absf main_arg22
  let main_cst_36 : FVec F S_ .f32 := constant S_ .f32 0x7F800000#32
  let main_v95 : FVec F S4x256 .f32 := broadcastInDim S4x256 ![] bcast_S_S4x256 main_cst_36
  let main_v96 : IVec S4x256 1 := cmpf .olt main_v94 main_v95
  let main_c_37 : IVec S_ 1 := constantI S_ 1 1#1
  let main_v97 : IVec S_ 1 := (fun x v => Host.reduce IntOp.andi x v reducesTo_S4x256_S_d0_1 h_S_) main_v96 main_c_37
  let main_v98 : IVec S_ 1 := andi main_v93 main_v97
  let main_v99 : FVec F S4x256 .f32 := Host.absf main_arg23
  let main_cst_38 : FVec F S_ .f32 := constant S_ .f32 0x7F800000#32
  let main_v100 : FVec F S4x256 .f32 := broadcastInDim S4x256 ![] bcast_S_S4x256 main_cst_38
  let main_v101 : IVec S4x256 1 := cmpf .olt main_v99 main_v100
  let main_c_39 : IVec S_ 1 := constantI S_ 1 1#1
  fn_part6 (F := F) main_arg24 main_arg25 main_arg26 main_arg27 main_arg28 main_arg29 main_v98 main_v101 main_c_39

def fn_part4 {F : FTy → Type} [FloatOps F] (main_arg17 : FVec F S5x128 .f32) (main_arg18 : FVec F S4x128x256 .f32) (main_arg19 : FVec F S4x256 .f32) (main_arg20 : FVec F S4x256 .f32) (main_arg21 : FVec F S4x256 .f32) (main_arg22 : FVec F S4x256 .f32) (main_arg23 : FVec F S4x256 .f32) (main_arg24 : FVec F S4x256x128 .f32) (main_arg25 : FVec F S4x128 .f32) (main_arg26 : FVec F S4x128 .f32) (main_arg27 : FVec F S4x128 .f32) (main_arg28 : FVec F S4x128 .f32) (main_arg29 : FVec F S4x128 .f32) (main_v63 : IVec S_ 1) (main_v67 : IVec S_ 1) : IVec S_ 1 :=
  let main_v68 : IVec S_ 1 := andi main_v63 main_v67
  let main_v69 : FVec F S5x128 .f32 := Host.absf main_arg17
  let main_cst_26 : FVec F S_ .f32 := constant S_ .f32 0x7F800000#32
  let main_v70 : FVec F S5x128 .f32 := broadcastInDim S5x128 ![] bcast_S_S5x128 main_cst_26
  let main_v71 : IVec S5x128 1 := cmpf .olt main_v69 main_v70
  let main_c_27 : IVec S_ 1 := constantI S_ 1 1#1
  let main_v72 : IVec S_ 1 := (fun x v => Host.reduce IntOp.andi x v reducesTo_S5x128_S_d0_1 h_S_) main_v71 main_c_27
  let main_v73 : IVec S_ 1 := andi main_v68 main_v72
  let main_v74 : FVec F S4x128x256 .f32 := Host.absf main_arg18
  let main_cst_28 : FVec F S_ .f32 := constant S_ .f32 0x7F800000#32
  let main_v75 : FVec F S4x128x256 .f32 := broadcastInDim S4x128x256 ![] bcast_S_S4x128x256 main_cst_28
  let main_v76 : IVec S4x128x256 1 := cmpf .olt main_v74 main_v75
  let main_c_29 : IVec S_ 1 := constantI S_ 1 1#1
  let main_v77 : IVec S_ 1 := (fun x v => Host.reduce IntOp.andi x v reducesTo_S4x128x256_S_d0_1_2 h_S_) main_v76 main_c_29
  let main_v78 : IVec S_ 1 := andi main_v73 main_v77
  let main_v79 : FVec F S4x256 .f32 := Host.absf main_arg19
  let main_cst_30 : FVec F S_ .f32 := constant S_ .f32 0x7F800000#32
  let main_v80 : FVec F S4x256 .f32 := broadcastInDim S4x256 ![] bcast_S_S4x256 main_cst_30
  let main_v81 : IVec S4x256 1 := cmpf .olt main_v79 main_v80
  let main_c_31 : IVec S_ 1 := constantI S_ 1 1#1
  let main_v82 : IVec S_ 1 := (fun x v => Host.reduce IntOp.andi x v reducesTo_S4x256_S_d0_1 h_S_) main_v81 main_c_31
  let main_v83 : IVec S_ 1 := andi main_v78 main_v82
  let main_v84 : FVec F S4x256 .f32 := Host.absf main_arg20
  let main_cst_32 : FVec F S_ .f32 := constant S_ .f32 0x7F800000#32
  fn_part5 (F := F) main_arg21 main_arg22 main_arg23 main_arg24 main_arg25 main_arg26 main_arg27 main_arg28 main_arg29 main_v83 main_v84 main_cst_32

def fn_part3 {F : FTy → Type} [FloatOps F] (main_arg14 : FVec F S5x128 .f32) (main_arg15 : FVec F S5x128 .f32) (main_arg16 : FVec F S5x128 .f32) (main_arg17 : FVec F S5x128 .f32) (main_arg18 : FVec F S4x128x256 .f32) (main_arg19 : FVec F S4x256 .f32) (main_arg20 : FVec F S4x256 .f32) (main_arg21 : FVec F S4x256 .f32) (main_arg22 : FVec F S4x256 .f32) (main_arg23 : FVec F S4x256 .f32) (main_arg24 : FVec F S4x256x128 .f32) (main_arg25 : FVec F S4x128 .f32) (main_arg26 : FVec F S4x128 .f32) (main_arg27 : FVec F S4x128 .f32) (main_arg28 : FVec F S4x128 .f32) (main_arg29 : FVec F S4x128 .f32) (main_v48 : IVec S_ 1) (main_v49 : FVec F S5x128 .f32) (main_v50 : FVec F S5x128 .f32) : IVec S_ 1 :=
  let main_v51 : IVec S5x128 1 := cmpf .olt main_v49 main_v50
  let main_c_19 : IVec S_ 1 := constantI S_ 1 1#1
  let main_v52 : IVec S_ 1 := (fun x v => Host.reduce IntOp.andi x v reducesTo_S5x128_S_d0_1 h_S_) main_v51 main_c_19
  let main_v53 : IVec S_ 1 := andi main_v48 main_v52
  let main_v54 : FVec F S5x128 .f32 := Host.absf main_arg14
  let main_cst_20 : FVec F S_ .f32 := constant S_ .f32 0x7F800000#32
  let main_v55 : FVec F S5x128 .f32 := broadcastInDim S5x128 ![] bcast_S_S5x128 main_cst_20
  let main_v56 : IVec S5x128 1 := cmpf .olt main_v54 main_v55
  let main_c_21 : IVec S_ 1 := constantI S_ 1 1#1
  let main_v57 : IVec S_ 1 := (fun x v => Host.reduce IntOp.andi x v reducesTo_S5x128_S_d0_1 h_S_) main_v56 main_c_21
  let main_v58 : IVec S_ 1 := andi main_v53 main_v57
  let main_v59 : FVec F S5x128 .f32 := Host.absf main_arg15
  let main_cst_22 : FVec F S_ .f32 := constant S_ .f32 0x7F800000#32
  let main_v60 : FVec F S5x128 .f32 := broadcastInDim S5x128 ![] bcast_S_S5x128 main_cst_22
  let main_v61 : IVec S5x128 1 := cmpf .olt main_v59 main_v60
  let main_c_23 : IVec S_ 1 := constantI S_ 1 1#1
  let main_v62 : IVec S_ 1 := (fun x v => Host.reduce IntOp.andi x v reducesTo_S5x128_S_d0_1 h_S_) main_v61 main_c_23
  let main_v63 : IVec S_ 1 := andi main_v58 main_v62
  let main_v64 : FVec F S5x128 .f32 := Host.absf main_arg16
  let main_cst_24 : FVec F S_ .f32 := constant S_ .f32 0x7F800000#32
  let main_v65 : FVec F S5x128 .f32 := broadcastInDim S5x128 ![] bcast_S_S5x128 main_cst_24
  let main_v66 : IVec S5x128 1 := cmpf .olt main_v64 main_v65
  let main_c_25 : IVec S_ 1 := constantI S_ 1 1#1
  let main_v67 : IVec S_ 1 := (fun x v => Host.reduce IntOp.andi x v reducesTo_S5x128_S_d0_1 h_S_) main_v66 main_c_25
  fn_part4 (F := F) main_arg17 main_arg18 main_arg19 main_arg20 main_arg21 main_arg22 main_arg23 main_arg24 main_arg25 main_arg26 main_arg27 main_arg28 main_arg29 main_v63 main_v67

def fn_part2 {F : FTy → Type} [FloatOps F] (main_arg10 : FVec F S5x256 .f32) (main_arg11 : FVec F S5x256 .f32) (main_arg12 : FVec F S5x256x128 .f32) (main_arg13 : FVec F S5x128 .f32) (main_arg14 : FVec F S5x128 .f32) (main_arg15 : FVec F S5x128 .f32) (main_arg16 : FVec F S5x128 .f32) (main_arg17 : FVec F S5x128 .f32) (main_arg18 : FVec F S4x128x256 .f32) (main_arg19 : FVec F S4x256 .f32) (main_arg20 : FVec F S4x256 .f32) (main_arg21 : FVec F S4x256 .f32) (main_arg22 : FVec F S4x256 .f32) (main_arg23 : FVec F S4x256 .f32) (main_arg24 : FVec F S4x256x128 .f32) (main_arg25 : FVec F S4x128 .f32) (main_arg26 : FVec F S4x128 .f32) (main_arg27 : FVec F S4x128 .f32) (main_arg28 : FVec F S4x128 .f32) (main_arg29 : FVec F S4x128 .f32) (main_v33 : IVec S_ 1) : IVec S_ 1 :=
  let main_v34 : FVec F S5x256 .f32 := Host.absf main_arg10
  let main_cst_12 : FVec F S_ .f32 := constant S_ .f32 0x7F800000#32
  let main_v35 : FVec F S5x256 .f32 := broadcastInDim S5x256 ![] bcast_S_S5x256 main_cst_12
  let main_v36 : IVec S5x256 1 := cmpf .olt main_v34 main_v35
  let main_c_13 : IVec S_ 1 := constantI S_ 1 1#1
  let main_v37 : IVec S_ 1 := (fun x v => Host.reduce IntOp.andi x v reducesTo_S5x256_S_d0_1 h_S_) main_v36 main_c_13
  let main_v38 : IVec S_ 1 := andi main_v33 main_v37
  let main_v39 : FVec F S5x256 .f32 := Host.absf main_arg11
  let main_cst_14 : FVec F S_ .f32 := constant S_ .f32 0x7F800000#32
  let main_v40 : FVec F S5x256 .f32 := broadcastInDim S5x256 ![] bcast_S_S5x256 main_cst_14
  let main_v41 : IVec S5x256 1 := cmpf .olt main_v39 main_v40
  let main_c_15 : IVec S_ 1 := constantI S_ 1 1#1
  let main_v42 : IVec S_ 1 := (fun x v => Host.reduce IntOp.andi x v reducesTo_S5x256_S_d0_1 h_S_) main_v41 main_c_15
  let main_v43 : IVec S_ 1 := andi main_v38 main_v42
  let main_v44 : FVec F S5x256x128 .f32 := Host.absf main_arg12
  let main_cst_16 : FVec F S_ .f32 := constant S_ .f32 0x7F800000#32
  let main_v45 : FVec F S5x256x128 .f32 := broadcastInDim S5x256x128 ![] bcast_S_S5x256x128 main_cst_16
  let main_v46 : IVec S5x256x128 1 := cmpf .olt main_v44 main_v45
  let main_c_17 : IVec S_ 1 := constantI S_ 1 1#1
  let main_v47 : IVec S_ 1 := (fun x v => Host.reduce IntOp.andi x v reducesTo_S5x256x128_S_d0_1_2 h_S_) main_v46 main_c_17
  let main_v48 : IVec S_ 1 := andi main_v43 main_v47
  let main_v49 : FVec F S5x128 .f32 := Host.absf main_arg13
  let main_cst_18 : FVec F S_ .f32 := constant S_ .f32 0x7F800000#32
  let main_v50 : FVec F S5x128 .f32 := broadcastInDim S5x128 ![] bcast_S_S5x128 main_cst_18
  fn_part3 (F := F) main_arg14 main_arg15 main_arg16 main_arg17 main_arg18 main_arg19 main_arg20 main_arg21 main_arg22 main_arg23 main_arg24 main_arg25 main_arg26 main_arg27 main_arg28 main_arg29 main_v48 main_v49 main_v50

def fn_part1 {F : FTy → Type} [FloatOps F] (main_arg7 : FVec F S5x256 .f32) (main_arg8 : FVec F S5x256 .f32) (main_arg9 : FVec F S5x256 .f32) (main_arg10 : FVec F S5x256 .f32) (main_arg11 : FVec F S5x256 .f32) (main_arg12 : FVec F S5x256x128 .f32) (main_arg13 : FVec F S5x128 .f32) (main_arg14 : FVec F S5x128 .f32) (main_arg15 : FVec F S5x128 .f32) (main_arg16 : FVec F S5x128 .f32) (main_arg17 : FVec F S5x128 .f32) (main_arg18 : FVec F S4x128x256 .f32) (main_arg19 : FVec F S4x256 .f32) (main_arg20 : FVec F S4x256 .f32) (main_arg21 : FVec F S4x256 .f32) (main_arg22 : FVec F S4x256 .f32) (main_arg23 : FVec F S4x256 .f32) (main_arg24 : FVec F S4x256x128 .f32) (main_arg25 : FVec F S4x128 .f32) (main_arg26 : FVec F S4x128 .f32) (main_arg27 : FVec F S4x128 .f32) (main_arg28 : FVec F S4x128 .f32) (main_arg29 : FVec F S4x128 .f32) (main_v13 : IVec S_ 1) (main_v16 : IVec S5x128x256 1) : IVec S_ 1 :=
  let main_c_5 : IVec S_ 1 := constantI S_ 1 1#1
  let main_v17 : IVec S_ 1 := (fun x v => Host.reduce IntOp.andi x v reducesTo_S5x128x256_S_d0_1_2 h_S_) main_v16 main_c_5
  let main_v18 : IVec S_ 1 := andi main_v13 main_v17
  let main_v19 : FVec F S5x256 .f32 := Host.absf main_arg7
  let main_cst_6 : FVec F S_ .f32 := constant S_ .f32 0x7F800000#32
  let main_v20 : FVec F S5x256 .f32 := broadcastInDim S5x256 ![] bcast_S_S5x256 main_cst_6
  let main_v21 : IVec S5x256 1 := cmpf .olt main_v19 main_v20
  let main_c_7 : IVec S_ 1 := constantI S_ 1 1#1
  let main_v22 : IVec S_ 1 := (fun x v => Host.reduce IntOp.andi x v reducesTo_S5x256_S_d0_1 h_S_) main_v21 main_c_7
  let main_v23 : IVec S_ 1 := andi main_v18 main_v22
  let main_v24 : FVec F S5x256 .f32 := Host.absf main_arg8
  let main_cst_8 : FVec F S_ .f32 := constant S_ .f32 0x7F800000#32
  let main_v25 : FVec F S5x256 .f32 := broadcastInDim S5x256 ![] bcast_S_S5x256 main_cst_8
  let main_v26 : IVec S5x256 1 := cmpf .olt main_v24 main_v25
  let main_c_9 : IVec S_ 1 := constantI S_ 1 1#1
  let main_v27 : IVec S_ 1 := (fun x v => Host.reduce IntOp.andi x v reducesTo_S5x256_S_d0_1 h_S_) main_v26 main_c_9
  let main_v28 : IVec S_ 1 := andi main_v23 main_v27
  let main_v29 : FVec F S5x256 .f32 := Host.absf main_arg9
  let main_cst_10 : FVec F S_ .f32 := constant S_ .f32 0x7F800000#32
  let main_v30 : FVec F S5x256 .f32 := broadcastInDim S5x256 ![] bcast_S_S5x256 main_cst_10
  let main_v31 : IVec S5x256 1 := cmpf .olt main_v29 main_v30
  let main_c_11 : IVec S_ 1 := constantI S_ 1 1#1
  let main_v32 : IVec S_ 1 := (fun x v => Host.reduce IntOp.andi x v reducesTo_S5x256_S_d0_1 h_S_) main_v31 main_c_11
  let main_v33 : IVec S_ 1 := andi main_v28 main_v32
  fn_part2 (F := F) main_arg10 main_arg11 main_arg12 main_arg13 main_arg14 main_arg15 main_arg16 main_arg17 main_arg18 main_arg19 main_arg20 main_arg21 main_arg22 main_arg23 main_arg24 main_arg25 main_arg26 main_arg27 main_arg28 main_arg29 main_v33

def fn {F : FTy → Type} [FloatOps F] (main_arg0 : IVec S100000 32) (main_arg1 : IVec S2x600000 32) (main_arg2 : IVec S100000 32) (main_arg3 : FVec F S8x128 .f32) (main_arg4 : FVec F S1x128 .f32) (main_arg5 : FVec F S5 .f32) (main_arg6 : FVec F S5x128x256 .f32) (main_arg7 : FVec F S5x256 .f32) (main_arg8 : FVec F S5x256 .f32) (main_arg9 : FVec F S5x256 .f32) (main_arg10 : FVec F S5x256 .f32) (main_arg11 : FVec F S5x256 .f32) (main_arg12 : FVec F S5x256x128 .f32) (main_arg13 : FVec F S5x128 .f32) (main_arg14 : FVec F S5x128 .f32) (main_arg15 : FVec F S5x128 .f32) (main_arg16 : FVec F S5x128 .f32) (main_arg17 : FVec F S5x128 .f32) (main_arg18 : FVec F S4x128x256 .f32) (main_arg19 : FVec F S4x256 .f32) (main_arg20 : FVec F S4x256 .f32) (main_arg21 : FVec F S4x256 .f32) (main_arg22 : FVec F S4x256 .f32) (main_arg23 : FVec F S4x256 .f32) (main_arg24 : FVec F S4x256x128 .f32) (main_arg25 : FVec F S4x128 .f32) (main_arg26 : FVec F S4x128 .f32) (main_arg27 : FVec F S4x128 .f32) (main_arg28 : FVec F S4x128 .f32) (main_arg29 : FVec F S4x128 .f32) : IVec S_ 1 :=
  let main_v0 : FVec F S8x128 .f32 := Host.absf main_arg3
  let main_cst : FVec F S_ .f32 := constant S_ .f32 0x7F800000#32
  let main_v1 : FVec F S8x128 .f32 := broadcastInDim S8x128 ![] bcast_S_S8x128 main_cst
  let main_v2 : IVec S8x128 1 := cmpf .olt main_v0 main_v1
  let main_c : IVec S_ 1 := constantI S_ 1 1#1
  let main_v3 : IVec S_ 1 := (fun x v => Host.reduce IntOp.andi x v reducesTo_S8x128_S_d0_1 h_S_) main_v2 main_c
  let main_v4 : FVec F S1x128 .f32 := Host.absf main_arg4
  let main_cst_0 : FVec F S_ .f32 := constant S_ .f32 0x7F800000#32
  let main_v5 : FVec F S1x128 .f32 := broadcastInDim S1x128 ![] bcast_S_S1x128 main_cst_0
  let main_v6 : IVec S1x128 1 := cmpf .olt main_v4 main_v5
  let main_c_1 : IVec S_ 1 := constantI S_ 1 1#1
  let main_v7 : IVec S_ 1 := (fun x v => Host.reduce IntOp.andi x v reducesTo_S1x128_S_d0_1 h_S_) main_v6 main_c_1
  let main_v8 : IVec S_ 1 := andi main_v3 main_v7
  let main_v9 : FVec F S5 .f32 := Host.absf main_arg5
  let main_cst_2 : FVec F S_ .f32 := constant S_ .f32 0x7F800000#32
  let main_v10 : FVec F S5 .f32 := broadcastInDim S5 ![] bcast_S_S5 main_cst_2
  let main_v11 : IVec S5 1 := cmpf .olt main_v9 main_v10
  let main_c_3 : IVec S_ 1 := constantI S_ 1 1#1
  let main_v12 : IVec S_ 1 := (fun x v => Host.reduce IntOp.andi x v reducesTo_S5_S_d0 h_S_) main_v11 main_c_3
  let main_v13 : IVec S_ 1 := andi main_v8 main_v12
  let main_v14 : FVec F S5x128x256 .f32 := Host.absf main_arg6
  let main_cst_4 : FVec F S_ .f32 := constant S_ .f32 0x7F800000#32
  let main_v15 : FVec F S5x128x256 .f32 := broadcastInDim S5x128x256 ![] bcast_S_S5x128x256 main_cst_4
  let main_v16 : IVec S5x128x256 1 := cmpf .olt main_v14 main_v15
  fn_part1 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_v13 main_v16
-- ==== Kernel.lean ====
abbrev S100000 : Shape := ⟨1, ![100000]⟩
abbrev S2x600000 : Shape := ⟨2, ![2, 600000]⟩
abbrev S8x128 : Shape := ⟨2, ![8, 128]⟩
abbrev S1x128 : Shape := ⟨2, ![1, 128]⟩
abbrev S5 : Shape := ⟨1, ![5]⟩
abbrev S5x128x256 : Shape := ⟨3, ![5, 128, 256]⟩
abbrev S5x256 : Shape := ⟨2, ![5, 256]⟩
abbrev S5x256x128 : Shape := ⟨3, ![5, 256, 128]⟩
abbrev S5x128 : Shape := ⟨2, ![5, 128]⟩
abbrev S4x128x256 : Shape := ⟨3, ![4, 128, 256]⟩
abbrev S4x256 : Shape := ⟨2, ![4, 256]⟩
abbrev S4x256x128 : Shape := ⟨3, ![4, 256, 128]⟩
abbrev S4x128 : Shape := ⟨2, ![4, 128]⟩
abbrev S1x600000 : Shape := ⟨2, ![1, 600000]⟩
abbrev S600000 : Shape := ⟨1, ![600000]⟩
abbrev S128 : Shape := ⟨1, ![128]⟩
abbrev S512x128 : Shape := ⟨2, ![512, 128]⟩
abbrev S_ : Shape := ⟨0, ![]⟩
abbrev S100000x1 : Shape := ⟨2, ![100000, 1]⟩
abbrev S100000x128 : Shape := ⟨2, ![100000, 128]⟩
abbrev S600000x1 : Shape := ⟨2, ![600000, 1]⟩
abbrev S600000x128 : Shape := ⟨2, ![600000, 128]⟩
abbrev S1 : Shape := ⟨1, ![1]⟩
abbrev S1x128x256 : Shape := ⟨3, ![1, 128, 256]⟩
abbrev S128x256 : Shape := ⟨2, ![128, 256]⟩
abbrev S1x256 : Shape := ⟨2, ![1, 256]⟩
abbrev S256 : Shape := ⟨1, ![256]⟩
abbrev S1x256x128 : Shape := ⟨3, ![1, 256, 128]⟩
abbrev S256x128 : Shape := ⟨2, ![256, 128]⟩
abbrev S2000x128 : Shape := ⟨2, ![2000, 128]⟩
abbrev S2000x256 : Shape := ⟨2, ![2000, 256]⟩
abbrev S512x256 : Shape := ⟨2, ![512, 256]⟩

abbrev nBuf : Space → Nat
  | .hbm => 565
  | .vmem => 136
  | .smem => 0
  | _ => 0

abbrev hbmTy0_0 (i : Nat) : BufTy := match i % 128 with
  | 0 => ⟨S100000, .i32⟩
  | 1 => ⟨S2x600000, .i32⟩
  | 2 => ⟨S100000, .i32⟩
  | 3 => ⟨S8x128, .f32⟩
  | 4 => ⟨S1x128, .f32⟩
  | 5 => ⟨S5, .f32⟩
  | 6 => ⟨S5x128x256, .f32⟩
  | 7 => ⟨S5x256, .f32⟩
  | 8 => ⟨S5x256, .f32⟩
  | 9 => ⟨S5x256, .f32⟩
  | 10 => ⟨S5x256, .f32⟩
  | 11 => ⟨S5x256, .f32⟩
  | 12 => ⟨S5x256x128, .f32⟩
  | 13 => ⟨S5x128, .f32⟩
  | 14 => ⟨S5x128, .f32⟩
  | 15 => ⟨S5x128, .f32⟩
  | 16 => ⟨S5x128, .f32⟩
  | 17 => ⟨S5x128, .f32⟩
  | 18 => ⟨S4x128x256, .f32⟩
  | 19 => ⟨S4x256, .f32⟩
  | 20 => ⟨S4x256, .f32⟩
  | 21 => ⟨S4x256, .f32⟩
  | 22 => ⟨S4x256, .f32⟩
  | 23 => ⟨S4x256, .f32⟩
  | 24 => ⟨S4x256x128, .f32⟩
  | 25 => ⟨S4x128, .f32⟩
  | 26 => ⟨S4x128, .f32⟩
  | 27 => ⟨S4x128, .f32⟩
  | 28 => ⟨S4x128, .f32⟩
  | 29 => ⟨S4x128, .f32⟩
  | 30 => ⟨S1x600000, .i32⟩
  | 31 => ⟨S600000, .i32⟩
  | 32 => ⟨S1x600000, .i32⟩
  | 33 => ⟨S600000, .i32⟩
  | 34 => ⟨S128, .f32⟩
  | 35 => ⟨S512x128, .f32⟩
  | 36 => ⟨S_, .i32⟩
  | 37 => ⟨S100000, .i32⟩
  | 38 => ⟨S100000, .i1⟩
  | 39 => ⟨S_, .i32⟩
  | 40 => ⟨S100000, .i32⟩
  | 41 => ⟨S100000, .i32⟩
  | 42 => ⟨S100000, .i32⟩
  | 43 => ⟨S100000x1, .i32⟩
  | 44 => ⟨S100000x128, .f32⟩
  | 45 => ⟨S_, .i32⟩
  | 46 => ⟨S100000, .i32⟩
  | 47 => ⟨S100000, .i1⟩
  | 48 => ⟨S_, .i32⟩
  | 49 => ⟨S100000, .i32⟩
  | 50 => ⟨S100000, .i32⟩
  | 51 => ⟨S100000, .i32⟩
  | 52 => ⟨S100000x1, .i32⟩
  | 53 => ⟨S100000x128, .f32⟩
  | 54 => ⟨S100000x128, .f32⟩
  | 55 => ⟨S_, .f32⟩
  | 56 => ⟨S100000x128, .f32⟩
  | 57 => ⟨S_, .i32⟩
  | 58 => ⟨S600000, .i32⟩
  | 59 => ⟨S600000, .i1⟩
  | 60 => ⟨S_, .i32⟩
  | 61 => ⟨S600000, .i32⟩
  | 62 => ⟨S600000, .i32⟩
  | 63 => ⟨S600000, .i32⟩
  | 64 => ⟨S600000x1, .i32⟩
  | 65 => ⟨S600000x128, .f32⟩
  | 66 => ⟨S_, .i32⟩
  | 67 => ⟨S600000, .i32⟩
  | 68 => ⟨S600000, .i1⟩
  | 69 => ⟨S_, .i32⟩
  | 70 => ⟨S600000, .i32⟩
  | 71 => ⟨S600000, .i32⟩
  | 72 => ⟨S600000, .i32⟩
  | 73 => ⟨S600000x1, .i32⟩
  | 74 => ⟨S100000x128, .f32⟩
  | 75 => ⟨S1, .f32⟩
  | 76 => ⟨S_, .f32⟩
  | 77 => ⟨S_, .f32⟩
  | 78 => ⟨S_, .f32⟩
  | 79 => ⟨S100000x128, .f32⟩
  | 80 => ⟨S100000x128, .f32⟩
  | 81 => ⟨S100000x128, .f32⟩
  | 82 => ⟨S1x128x256, .f32⟩
  | 83 => ⟨S128x256, .f32⟩
  | 84 => ⟨S1x256, .f32⟩
  | 85 => ⟨S256, .f32⟩
  | 86 => ⟨S1x256, .f32⟩
  | 87 => ⟨S256, .f32⟩
  | 88 => ⟨S1x256, .f32⟩
  | 89 => ⟨S256, .f32⟩
  | 90 => ⟨S1x256, .f32⟩
  | 91 => ⟨S256, .f32⟩
  | 92 => ⟨S1x256, .f32⟩
  | 93 => ⟨S256, .f32⟩
  | 94 => ⟨S1x256x128, .f32⟩
  | 95 => ⟨S256x128, .f32⟩
  | 96 => ⟨S1x128, .f32⟩
  | 97 => ⟨S128, .f32⟩
  | 98 => ⟨S1x128, .f32⟩
  | 99 => ⟨S128, .f32⟩
  | 100 => ⟨S1x128, .f32⟩
  | 101 => ⟨S128, .f32⟩
  | 102 => ⟨S1x128, .f32⟩
  | 103 => ⟨S128, .f32⟩
  | 104 => ⟨S1x128, .f32⟩
  | 105 => ⟨S128, .f32⟩
  | 106 => ⟨S1x256, .f32⟩
  | 107 => ⟨S1x256, .f32⟩
  | 108 => ⟨S1x256, .f32⟩
  | 109 => ⟨S1x256, .f32⟩
  | 110 => ⟨S1x256, .f32⟩
  | 111 => ⟨S1x128, .f32⟩
  | 112 => ⟨S1x128, .f32⟩
  | 113 => ⟨S1x128, .f32⟩
  | 114 => ⟨S1x128, .f32⟩
  | 115 => ⟨S1x128, .f32⟩
  | 116 => ⟨S100000x128, .f32⟩
  | 117 => ⟨S_, .f32⟩
  | 118 => ⟨S512x128, .f32⟩
  | 119 => ⟨S100000x1, .i32⟩
  | 120 => ⟨S512x128, .f32⟩
  | 121 => ⟨S512x128, .f32⟩
  | 122 => ⟨S1x128x256, .f32⟩
  | 123 => ⟨S128x256, .f32⟩
  | 124 => ⟨S1x256, .f32⟩
  | 125 => ⟨S256, .f32⟩
  | 126 => ⟨S1x256, .f32⟩
  | 127 => ⟨S256, .f32⟩
  | _ => ⟨S100000, .i32⟩

abbrev hbmTy0_1 (i : Nat) : BufTy := match i % 128 with
  | 0 => ⟨S1x256, .f32⟩
  | 1 => ⟨S256, .f32⟩
  | 2 => ⟨S1x256, .f32⟩
  | 3 => ⟨S256, .f32⟩
  | 4 => ⟨S1x256, .f32⟩
  | 5 => ⟨S256, .f32⟩
  | 6 => ⟨S1x256x128, .f32⟩
  | 7 => ⟨S256x128, .f32⟩
  | 8 => ⟨S1x128, .f32⟩
  | 9 => ⟨S128, .f32⟩
  | 10 => ⟨S1x128, .f32⟩
  | 11 => ⟨S128, .f32⟩
  | 12 => ⟨S1x128, .f32⟩
  | 13 => ⟨S128, .f32⟩
  | 14 => ⟨S1x128, .f32⟩
  | 15 => ⟨S128, .f32⟩
  | 16 => ⟨S1x128, .f32⟩
  | 17 => ⟨S128, .f32⟩
  | 18 => ⟨S1x256, .f32⟩
  | 19 => ⟨S1x256, .f32⟩
  | 20 => ⟨S1x256, .f32⟩
  | 21 => ⟨S1x256, .f32⟩
  | 22 => ⟨S1x256, .f32⟩
  | 23 => ⟨S1x128, .f32⟩
  | 24 => ⟨S1x128, .f32⟩
  | 25 => ⟨S1x128, .f32⟩
  | 26 => ⟨S1x128, .f32⟩
  | 27 => ⟨S1x128, .f32⟩
  | 28 => ⟨S512x128, .f32⟩
  | 29 => ⟨S_, .i32⟩
  | 30 => ⟨S100000, .i32⟩
  | 31 => ⟨S100000, .i1⟩
  | 32 => ⟨S_, .i32⟩
  | 33 => ⟨S100000, .i32⟩
  | 34 => ⟨S100000, .i32⟩
  | 35 => ⟨S100000, .i32⟩
  | 36 => ⟨S100000x1, .i32⟩
  | 37 => ⟨S100000x128, .f32⟩
  | 38 => ⟨S100000x128, .f32⟩
  | 39 => ⟨S_, .f32⟩
  | 40 => ⟨S100000x128, .f32⟩
  | 41 => ⟨S_, .i32⟩
  | 42 => ⟨S600000, .i32⟩
  | 43 => ⟨S600000, .i1⟩
  | 44 => ⟨S_, .i32⟩
  | 45 => ⟨S600000, .i32⟩
  | 46 => ⟨S600000, .i32⟩
  | 47 => ⟨S600000, .i32⟩
  | 48 => ⟨S600000x1, .i32⟩
  | 49 => ⟨S600000x128, .f32⟩
  | 50 => ⟨S_, .i32⟩
  | 51 => ⟨S600000, .i32⟩
  | 52 => ⟨S600000, .i1⟩
  | 53 => ⟨S_, .i32⟩
  | 54 => ⟨S600000, .i32⟩
  | 55 => ⟨S600000, .i32⟩
  | 56 => ⟨S600000, .i32⟩
  | 57 => ⟨S600000x1, .i32⟩
  | 58 => ⟨S100000x128, .f32⟩
  | 59 => ⟨S1, .f32⟩
  | 60 => ⟨S_, .f32⟩
  | 61 => ⟨S_, .f32⟩
  | 62 => ⟨S_, .f32⟩
  | 63 => ⟨S100000x128, .f32⟩
  | 64 => ⟨S100000x128, .f32⟩
  | 65 => ⟨S100000x128, .f32⟩
  | 66 => ⟨S1x128x256, .f32⟩
  | 67 => ⟨S128x256, .f32⟩
  | 68 => ⟨S1x256, .f32⟩
  | 69 => ⟨S256, .f32⟩
  | 70 => ⟨S1x256, .f32⟩
  | 71 => ⟨S256, .f32⟩
  | 72 => ⟨S1x256, .f32⟩
  | 73 => ⟨S256, .f32⟩
  | 74 => ⟨S1x256, .f32⟩
  | 75 => ⟨S256, .f32⟩
  | 76 => ⟨S1x256, .f32⟩
  | 77 => ⟨S256, .f32⟩
  | 78 => ⟨S1x256x128, .f32⟩
  | 79 => ⟨S256x128, .f32⟩
  | 80 => ⟨S1x128, .f32⟩
  | 81 => ⟨S128, .f32⟩
  | 82 => ⟨S1x128, .f32⟩
  | 83 => ⟨S128, .f32⟩
  | 84 => ⟨S1x128, .f32⟩
  | 85 => ⟨S128, .f32⟩
  | 86 => ⟨S1x128, .f32⟩
  | 87 => ⟨S128, .f32⟩
  | 88 => ⟨S1x128, .f32⟩
  | 89 => ⟨S128, .f32⟩
  | 90 => ⟨S1x256, .f32⟩
  | 91 => ⟨S1x256, .f32⟩
  | 92 => ⟨S1x256, .f32⟩
  | 93 => ⟨S1x256, .f32⟩
  | 94 => ⟨S1x256, .f32⟩
  | 95 => ⟨S1x128, .f32⟩
  | 96 => ⟨S1x128, .f32⟩
  | 97 => ⟨S1x128, .f32⟩
  | 98 => ⟨S1x128, .f32⟩
  | 99 => ⟨S1x128, .f32⟩
  | 100 => ⟨S100000x128, .f32⟩
  | 101 => ⟨S_, .f32⟩
  | 102 => ⟨S512x128, .f32⟩
  | 103 => ⟨S100000x1, .i32⟩
  | 104 => ⟨S512x128, .f32⟩
  | 105 => ⟨S512x128, .f32⟩
  | 106 => ⟨S1x128x256, .f32⟩
  | 107 => ⟨S128x256, .f32⟩
  | 108 => ⟨S1x256, .f32⟩
  | 109 => ⟨S256, .f32⟩
  | 110 => ⟨S1x256, .f32⟩
  | 111 => ⟨S256, .f32⟩
  | 112 => ⟨S1x256, .f32⟩
  | 113 => ⟨S256, .f32⟩
  | 114 => ⟨S1x256, .f32⟩
  | 115 => ⟨S256, .f32⟩
  | 116 => ⟨S1x256, .f32⟩
  | 117 => ⟨S256, .f32⟩
  | 118 => ⟨S1x256x128, .f32⟩
  | 119 => ⟨S256x128, .f32⟩
  | 120 => ⟨S1x128, .f32⟩
  | 121 => ⟨S128, .f32⟩
  | 122 => ⟨S1x128, .f32⟩
  | 123 => ⟨S128, .f32⟩
  | 124 => ⟨S1x128, .f32⟩
  | 125 => ⟨S128, .f32⟩
  | 126 => ⟨S1x128, .f32⟩
  | 127 => ⟨S128, .f32⟩
  | _ => ⟨S100000, .i32⟩

abbrev hbmTy0_2 (i : Nat) : BufTy := match i % 128 with
  | 0 => ⟨S1x128, .f32⟩
  | 1 => ⟨S128, .f32⟩
  | 2 => ⟨S1x256, .f32⟩
  | 3 => ⟨S1x256, .f32⟩
  | 4 => ⟨S1x256, .f32⟩
  | 5 => ⟨S1x256, .f32⟩
  | 6 => ⟨S1x256, .f32⟩
  | 7 => ⟨S1x128, .f32⟩
  | 8 => ⟨S1x128, .f32⟩
  | 9 => ⟨S1x128, .f32⟩
  | 10 => ⟨S1x128, .f32⟩
  | 11 => ⟨S1x128, .f32⟩
  | 12 => ⟨S512x128, .f32⟩
  | 13 => ⟨S_, .i32⟩
  | 14 => ⟨S100000, .i32⟩
  | 15 => ⟨S100000, .i1⟩
  | 16 => ⟨S_, .i32⟩
  | 17 => ⟨S100000, .i32⟩
  | 18 => ⟨S100000, .i32⟩
  | 19 => ⟨S100000, .i32⟩
  | 20 => ⟨S100000x1, .i32⟩
  | 21 => ⟨S100000x128, .f32⟩
  | 22 => ⟨S100000x128, .f32⟩
  | 23 => ⟨S_, .f32⟩
  | 24 => ⟨S100000x128, .f32⟩
  | 25 => ⟨S_, .i32⟩
  | 26 => ⟨S600000, .i32⟩
  | 27 => ⟨S600000, .i1⟩
  | 28 => ⟨S_, .i32⟩
  | 29 => ⟨S600000, .i32⟩
  | 30 => ⟨S600000, .i32⟩
  | 31 => ⟨S600000, .i32⟩
  | 32 => ⟨S600000x1, .i32⟩
  | 33 => ⟨S600000x128, .f32⟩
  | 34 => ⟨S_, .i32⟩
  | 35 => ⟨S600000, .i32⟩
  | 36 => ⟨S600000, .i1⟩
  | 37 => ⟨S_, .i32⟩
  | 38 => ⟨S600000, .i32⟩
  | 39 => ⟨S600000, .i32⟩
  | 40 => ⟨S600000, .i32⟩
  | 41 => ⟨S600000x1, .i32⟩
  | 42 => ⟨S100000x128, .f32⟩
  | 43 => ⟨S1, .f32⟩
  | 44 => ⟨S_, .f32⟩
  | 45 => ⟨S_, .f32⟩
  | 46 => ⟨S_, .f32⟩
  | 47 => ⟨S100000x128, .f32⟩
  | 48 => ⟨S100000x128, .f32⟩
  | 49 => ⟨S100000x128, .f32⟩
  | 50 => ⟨S1x128x256, .f32⟩
  | 51 => ⟨S128x256, .f32⟩
  | 52 => ⟨S1x256, .f32⟩
  | 53 => ⟨S256, .f32⟩
  | 54 => ⟨S1x256, .f32⟩
  | 55 => ⟨S256, .f32⟩
  | 56 => ⟨S1x256, .f32⟩
  | 57 => ⟨S256, .f32⟩
  | 58 => ⟨S1x256, .f32⟩
  | 59 => ⟨S256, .f32⟩
  | 60 => ⟨S1x256, .f32⟩
  | 61 => ⟨S256, .f32⟩
  | 62 => ⟨S1x256x128, .f32⟩
  | 63 => ⟨S256x128, .f32⟩
  | 64 => ⟨S1x128, .f32⟩
  | 65 => ⟨S128, .f32⟩
  | 66 => ⟨S1x128, .f32⟩
  | 67 => ⟨S128, .f32⟩
  | 68 => ⟨S1x128, .f32⟩
  | 69 => ⟨S128, .f32⟩
  | 70 => ⟨S1x128, .f32⟩
  | 71 => ⟨S128, .f32⟩
  | 72 => ⟨S1x128, .f32⟩
  | 73 => ⟨S128, .f32⟩
  | 74 => ⟨S1x256, .f32⟩
  | 75 => ⟨S1x256, .f32⟩
  | 76 => ⟨S1x256, .f32⟩
  | 77 => ⟨S1x256, .f32⟩
  | 78 => ⟨S1x256, .f32⟩
  | 79 => ⟨S1x128, .f32⟩
  | 80 => ⟨S1x128, .f32⟩
  | 81 => ⟨S1x128, .f32⟩
  | 82 => ⟨S1x128, .f32⟩
  | 83 => ⟨S1x128, .f32⟩
  | 84 => ⟨S100000x128, .f32⟩
  | 85 => ⟨S_, .f32⟩
  | 86 => ⟨S512x128, .f32⟩
  | 87 => ⟨S100000x1, .i32⟩
  | 88 => ⟨S512x128, .f32⟩
  | 89 => ⟨S512x128, .f32⟩
  | 90 => ⟨S1x128x256, .f32⟩
  | 91 => ⟨S128x256, .f32⟩
  | 92 => ⟨S1x256, .f32⟩
  | 93 => ⟨S256, .f32⟩
  | 94 => ⟨S1x256, .f32⟩
  | 95 => ⟨S256, .f32⟩
  | 96 => ⟨S1x256, .f32⟩
  | 97 => ⟨S256, .f32⟩
  | 98 => ⟨S1x256, .f32⟩
  | 99 => ⟨S256, .f32⟩
  | 100 => ⟨S1x256, .f32⟩
  | 101 => ⟨S256, .f32⟩
  | 102 => ⟨S1x256x128, .f32⟩
  | 103 => ⟨S256x128, .f32⟩
  | 104 => ⟨S1x128, .f32⟩
  | 105 => ⟨S128, .f32⟩
  | 106 => ⟨S1x128, .f32⟩
  | 107 => ⟨S128, .f32⟩
  | 108 => ⟨S1x128, .f32⟩
  | 109 => ⟨S128, .f32⟩
  | 110 => ⟨S1x128, .f32⟩
  | 111 => ⟨S128, .f32⟩
  | 112 => ⟨S1x128, .f32⟩
  | 113 => ⟨S128, .f32⟩
  | 114 => ⟨S1x256, .f32⟩
  | 115 => ⟨S1x256, .f32⟩
  | 116 => ⟨S1x256, .f32⟩
  | 117 => ⟨S1x256, .f32⟩
  | 118 => ⟨S1x256, .f32⟩
  | 119 => ⟨S1x128, .f32⟩
  | 120 => ⟨S1x128, .f32⟩
  | 121 => ⟨S1x128, .f32⟩
  | 122 => ⟨S1x128, .f32⟩
  | 123 => ⟨S1x128, .f32⟩
  | 124 => ⟨S512x128, .f32⟩
  | 125 => ⟨S_, .i32⟩
  | 126 => ⟨S100000, .i32⟩
  | 127 => ⟨S100000, .i1⟩
  | _ => ⟨S100000, .i32⟩

abbrev hbmTy0_3 (i : Nat) : BufTy := match i % 128 with
  | 0 => ⟨S_, .i32⟩
  | 1 => ⟨S100000, .i32⟩
  | 2 => ⟨S100000, .i32⟩
  | 3 => ⟨S100000, .i32⟩
  | 4 => ⟨S100000x1, .i32⟩
  | 5 => ⟨S100000x128, .f32⟩
  | 6 => ⟨S100000x128, .f32⟩
  | 7 => ⟨S_, .f32⟩
  | 8 => ⟨S100000x128, .f32⟩
  | 9 => ⟨S_, .i32⟩
  | 10 => ⟨S600000, .i32⟩
  | 11 => ⟨S600000, .i1⟩
  | 12 => ⟨S_, .i32⟩
  | 13 => ⟨S600000, .i32⟩
  | 14 => ⟨S600000, .i32⟩
  | 15 => ⟨S600000, .i32⟩
  | 16 => ⟨S600000x1, .i32⟩
  | 17 => ⟨S600000x128, .f32⟩
  | 18 => ⟨S_, .i32⟩
  | 19 => ⟨S600000, .i32⟩
  | 20 => ⟨S600000, .i1⟩
  | 21 => ⟨S_, .i32⟩
  | 22 => ⟨S600000, .i32⟩
  | 23 => ⟨S600000, .i32⟩
  | 24 => ⟨S600000, .i32⟩
  | 25 => ⟨S600000x1, .i32⟩
  | 26 => ⟨S100000x128, .f32⟩
  | 27 => ⟨S1, .f32⟩
  | 28 => ⟨S_, .f32⟩
  | 29 => ⟨S_, .f32⟩
  | 30 => ⟨S_, .f32⟩
  | 31 => ⟨S100000x128, .f32⟩
  | 32 => ⟨S100000x128, .f32⟩
  | 33 => ⟨S100000x128, .f32⟩
  | 34 => ⟨S1x128x256, .f32⟩
  | 35 => ⟨S128x256, .f32⟩
  | 36 => ⟨S1x256, .f32⟩
  | 37 => ⟨S256, .f32⟩
  | 38 => ⟨S1x256, .f32⟩
  | 39 => ⟨S256, .f32⟩
  | 40 => ⟨S1x256, .f32⟩
  | 41 => ⟨S256, .f32⟩
  | 42 => ⟨S1x256, .f32⟩
  | 43 => ⟨S256, .f32⟩
  | 44 => ⟨S1x256, .f32⟩
  | 45 => ⟨S256, .f32⟩
  | 46 => ⟨S1x256x128, .f32⟩
  | 47 => ⟨S256x128, .f32⟩
  | 48 => ⟨S1x128, .f32⟩
  | 49 => ⟨S128, .f32⟩
  | 50 => ⟨S1x128, .f32⟩
  | 51 => ⟨S128, .f32⟩
  | 52 => ⟨S1x128, .f32⟩
  | 53 => ⟨S128, .f32⟩
  | 54 => ⟨S1x128, .f32⟩
  | 55 => ⟨S128, .f32⟩
  | 56 => ⟨S1x128, .f32⟩
  | 57 => ⟨S128, .f32⟩
  | 58 => ⟨S1x256, .f32⟩
  | 59 => ⟨S1x256, .f32⟩
  | 60 => ⟨S1x256, .f32⟩
  | 61 => ⟨S1x256, .f32⟩
  | 62 => ⟨S1x256, .f32⟩
  | 63 => ⟨S1x128, .f32⟩
  | 64 => ⟨S1x128, .f32⟩
  | 65 => ⟨S1x128, .f32⟩
  | 66 => ⟨S1x128, .f32⟩
  | 67 => ⟨S1x128, .f32⟩
  | 68 => ⟨S100000x128, .f32⟩
  | 69 => ⟨S_, .f32⟩
  | 70 => ⟨S512x128, .f32⟩
  | 71 => ⟨S100000x1, .i32⟩
  | 72 => ⟨S512x128, .f32⟩
  | 73 => ⟨S512x128, .f32⟩
  | 74 => ⟨S1x128x256, .f32⟩
  | 75 => ⟨S128x256, .f32⟩
  | 76 => ⟨S1x256, .f32⟩
  | 77 => ⟨S256, .f32⟩
  | 78 => ⟨S1x256, .f32⟩
  | 79 => ⟨S256, .f32⟩
  | 80 => ⟨S1x256, .f32⟩
  | 81 => ⟨S256, .f32⟩
  | 82 => ⟨S1x256, .f32⟩
  | 83 => ⟨S256, .f32⟩
  | 84 => ⟨S1x256, .f32⟩
  | 85 => ⟨S256, .f32⟩
  | 86 => ⟨S1x256x128, .f32⟩
  | 87 => ⟨S256x128, .f32⟩
  | 88 => ⟨S1x128, .f32⟩
  | 89 => ⟨S128, .f32⟩
  | 90 => ⟨S1x128, .f32⟩
  | 91 => ⟨S128, .f32⟩
  | 92 => ⟨S1x128, .f32⟩
  | 93 => ⟨S128, .f32⟩
  | 94 => ⟨S1x128, .f32⟩
  | 95 => ⟨S128, .f32⟩
  | 96 => ⟨S1x128, .f32⟩
  | 97 => ⟨S128, .f32⟩
  | 98 => ⟨S1x256, .f32⟩
  | 99 => ⟨S1x256, .f32⟩
  | 100 => ⟨S1x256, .f32⟩
  | 101 => ⟨S1x256, .f32⟩
  | 102 => ⟨S1x256, .f32⟩
  | 103 => ⟨S1x128, .f32⟩
  | 104 => ⟨S1x128, .f32⟩
  | 105 => ⟨S1x128, .f32⟩
  | 106 => ⟨S1x128, .f32⟩
  | 107 => ⟨S1x128, .f32⟩
  | 108 => ⟨S512x128, .f32⟩
  | 109 => ⟨S_, .i32⟩
  | 110 => ⟨S100000, .i32⟩
  | 111 => ⟨S100000, .i1⟩
  | 112 => ⟨S_, .i32⟩
  | 113 => ⟨S100000, .i32⟩
  | 114 => ⟨S100000, .i32⟩
  | 115 => ⟨S100000, .i32⟩
  | 116 => ⟨S100000x1, .i32⟩
  | 117 => ⟨S100000x128, .f32⟩
  | 118 => ⟨S100000x128, .f32⟩
  | 119 => ⟨S_, .f32⟩
  | 120 => ⟨S100000x128, .f32⟩
  | 121 => ⟨S_, .i32⟩
  | 122 => ⟨S600000, .i32⟩
  | 123 => ⟨S600000, .i1⟩
  | 124 => ⟨S_, .i32⟩
  | 125 => ⟨S600000, .i32⟩
  | 126 => ⟨S600000, .i32⟩
  | 127 => ⟨S600000, .i32⟩
  | _ => ⟨S100000, .i32⟩

abbrev hbmTy0_4 (i : Nat) : BufTy := match i % 128 with
  | 0 => ⟨S600000x1, .i32⟩
  | 1 => ⟨S600000x128, .f32⟩
  | 2 => ⟨S_, .i32⟩
  | 3 => ⟨S600000, .i32⟩
  | 4 => ⟨S600000, .i1⟩
  | 5 => ⟨S_, .i32⟩
  | 6 => ⟨S600000, .i32⟩
  | 7 => ⟨S600000, .i32⟩
  | 8 => ⟨S600000, .i32⟩
  | 9 => ⟨S600000x1, .i32⟩
  | 10 => ⟨S100000x128, .f32⟩
  | 11 => ⟨S1, .f32⟩
  | 12 => ⟨S_, .f32⟩
  | 13 => ⟨S_, .f32⟩
  | 14 => ⟨S_, .f32⟩
  | 15 => ⟨S100000x128, .f32⟩
  | 16 => ⟨S100000x128, .f32⟩
  | 17 => ⟨S100000x128, .f32⟩
  | 18 => ⟨S1x128x256, .f32⟩
  | 19 => ⟨S128x256, .f32⟩
  | 20 => ⟨S1x256, .f32⟩
  | 21 => ⟨S256, .f32⟩
  | 22 => ⟨S1x256, .f32⟩
  | 23 => ⟨S256, .f32⟩
  | 24 => ⟨S1x256, .f32⟩
  | 25 => ⟨S256, .f32⟩
  | 26 => ⟨S1x256, .f32⟩
  | 27 => ⟨S256, .f32⟩
  | 28 => ⟨S1x256, .f32⟩
  | 29 => ⟨S256, .f32⟩
  | 30 => ⟨S1x256x128, .f32⟩
  | 31 => ⟨S256x128, .f32⟩
  | 32 => ⟨S1x128, .f32⟩
  | 33 => ⟨S128, .f32⟩
  | 34 => ⟨S1x128, .f32⟩
  | 35 => ⟨S128, .f32⟩
  | 36 => ⟨S1x128, .f32⟩
  | 37 => ⟨S128, .f32⟩
  | 38 => ⟨S1x128, .f32⟩
  | 39 => ⟨S128, .f32⟩
  | 40 => ⟨S1x128, .f32⟩
  | 41 => ⟨S128, .f32⟩
  | 42 => ⟨S1x256, .f32⟩
  | 43 => ⟨S1x256, .f32⟩
  | 44 => ⟨S1x256, .f32⟩
  | 45 => ⟨S1x256, .f32⟩
  | 46 => ⟨S1x256, .f32⟩
  | 47 => ⟨S1x128, .f32⟩
  | 48 => ⟨S1x128, .f32⟩
  | 49 => ⟨S1x128, .f32⟩
  | 50 => ⟨S1x128, .f32⟩
  | 51 => ⟨S1x128, .f32⟩
  | 52 => ⟨S100000x128, .f32⟩
  | _ => ⟨S100000, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S100000, .i32⟩

abbrev vmemTy0_0 (i : Nat) : BufTy := match i % 128 with
  | 0 => ⟨S2000x128, .f32⟩
  | 1 => ⟨S2000x128, .f32⟩
  | 2 => ⟨S128x256, .f32⟩
  | 3 => ⟨S1x256, .f32⟩
  | 4 => ⟨S1x256, .f32⟩
  | 5 => ⟨S1x256, .f32⟩
  | 6 => ⟨S1x256, .f32⟩
  | 7 => ⟨S1x256, .f32⟩
  | 8 => ⟨S256x128, .f32⟩
  | 9 => ⟨S1x128, .f32⟩
  | 10 => ⟨S1x128, .f32⟩
  | 11 => ⟨S1x128, .f32⟩
  | 12 => ⟨S1x128, .f32⟩
  | 13 => ⟨S1x128, .f32⟩
  | 14 => ⟨S2000x128, .f32⟩
  | 15 => ⟨S2000x128, .f32⟩
  | 16 => ⟨S512x128, .f32⟩
  | 17 => ⟨S128x256, .f32⟩
  | 18 => ⟨S1x256, .f32⟩
  | 19 => ⟨S1x256, .f32⟩
  | 20 => ⟨S1x256, .f32⟩
  | 21 => ⟨S1x256, .f32⟩
  | 22 => ⟨S1x256, .f32⟩
  | 23 => ⟨S256x128, .f32⟩
  | 24 => ⟨S1x128, .f32⟩
  | 25 => ⟨S1x128, .f32⟩
  | 26 => ⟨S1x128, .f32⟩
  | 27 => ⟨S1x128, .f32⟩
  | 28 => ⟨S1x128, .f32⟩
  | 29 => ⟨S512x128, .f32⟩
  | 30 => ⟨S2000x128, .f32⟩
  | 31 => ⟨S2000x128, .f32⟩
  | 32 => ⟨S128x256, .f32⟩
  | 33 => ⟨S1x256, .f32⟩
  | 34 => ⟨S1x256, .f32⟩
  | 35 => ⟨S1x256, .f32⟩
  | 36 => ⟨S1x256, .f32⟩
  | 37 => ⟨S1x256, .f32⟩
  | 38 => ⟨S256x128, .f32⟩
  | 39 => ⟨S1x128, .f32⟩
  | 40 => ⟨S1x128, .f32⟩
  | 41 => ⟨S1x128, .f32⟩
  | 42 => ⟨S1x128, .f32⟩
  | 43 => ⟨S1x128, .f32⟩
  | 44 => ⟨S2000x128, .f32⟩
  | 45 => ⟨S2000x128, .f32⟩
  | 46 => ⟨S512x128, .f32⟩
  | 47 => ⟨S128x256, .f32⟩
  | 48 => ⟨S1x256, .f32⟩
  | 49 => ⟨S1x256, .f32⟩
  | 50 => ⟨S1x256, .f32⟩
  | 51 => ⟨S1x256, .f32⟩
  | 52 => ⟨S1x256, .f32⟩
  | 53 => ⟨S256x128, .f32⟩
  | 54 => ⟨S1x128, .f32⟩
  | 55 => ⟨S1x128, .f32⟩
  | 56 => ⟨S1x128, .f32⟩
  | 57 => ⟨S1x128, .f32⟩
  | 58 => ⟨S1x128, .f32⟩
  | 59 => ⟨S512x128, .f32⟩
  | 60 => ⟨S2000x128, .f32⟩
  | 61 => ⟨S2000x128, .f32⟩
  | 62 => ⟨S128x256, .f32⟩
  | 63 => ⟨S1x256, .f32⟩
  | 64 => ⟨S1x256, .f32⟩
  | 65 => ⟨S1x256, .f32⟩
  | 66 => ⟨S1x256, .f32⟩
  | 67 => ⟨S1x256, .f32⟩
  | 68 => ⟨S256x128, .f32⟩
  | 69 => ⟨S1x128, .f32⟩
  | 70 => ⟨S1x128, .f32⟩
  | 71 => ⟨S1x128, .f32⟩
  | 72 => ⟨S1x128, .f32⟩
  | 73 => ⟨S1x128, .f32⟩
  | 74 => ⟨S2000x128, .f32⟩
  | 75 => ⟨S2000x128, .f32⟩
  | 76 => ⟨S512x128, .f32⟩
  | 77 => ⟨S128x256, .f32⟩
  | 78 => ⟨S1x256, .f32⟩
  | 79 => ⟨S1x256, .f32⟩
  | 80 => ⟨S1x256, .f32⟩
  | 81 => ⟨S1x256, .f32⟩
  | 82 => ⟨S1x256, .f32⟩
  | 83 => ⟨S256x128, .f32⟩
  | 84 => ⟨S1x128, .f32⟩
  | 85 => ⟨S1x128, .f32⟩
  | 86 => ⟨S1x128, .f32⟩
  | 87 => ⟨S1x128, .f32⟩
  | 88 => ⟨S1x128, .f32⟩
  | 89 => ⟨S512x128, .f32⟩
  | 90 => ⟨S2000x128, .f32⟩
  | 91 => ⟨S2000x128, .f32⟩
  | 92 => ⟨S128x256, .f32⟩
  | 93 => ⟨S1x256, .f32⟩
  | 94 => ⟨S1x256, .f32⟩
  | 95 => ⟨S1x256, .f32⟩
  | 96 => ⟨S1x256, .f32⟩
  | 97 => ⟨S1x256, .f32⟩
  | 98 => ⟨S256x128, .f32⟩
  | 99 => ⟨S1x128, .f32⟩
  | 100 => ⟨S1x128, .f32⟩
  | 101 => ⟨S1x128, .f32⟩
  | 102 => ⟨S1x128, .f32⟩
  | 103 => ⟨S1x128, .f32⟩
  | 104 => ⟨S2000x128, .f32⟩
  | 105 => ⟨S2000x128, .f32⟩
  | 106 => ⟨S512x128, .f32⟩
  | 107 => ⟨S128x256, .f32⟩
  | 108 => ⟨S1x256, .f32⟩
  | 109 => ⟨S1x256, .f32⟩
  | 110 => ⟨S1x256, .f32⟩
  | 111 => ⟨S1x256, .f32⟩
  | 112 => ⟨S1x256, .f32⟩
  | 113 => ⟨S256x128, .f32⟩
  | 114 => ⟨S1x128, .f32⟩
  | 115 => ⟨S1x128, .f32⟩
  | 116 => ⟨S1x128, .f32⟩
  | 117 => ⟨S1x128, .f32⟩
  | 118 => ⟨S1x128, .f32⟩
  | 119 => ⟨S512x128, .f32⟩
  | 120 => ⟨S2000x128, .f32⟩
  | 121 => ⟨S2000x128, .f32⟩
  | 122 => ⟨S128x256, .f32⟩
  | 123 => ⟨S1x256, .f32⟩
  | 124 => ⟨S1x256, .f32⟩
  | 125 => ⟨S1x256, .f32⟩
  | 126 => ⟨S1x256, .f32⟩
  | 127 => ⟨S1x256, .f32⟩
  | _ => ⟨S100000, .i32⟩

abbrev vmemTy0_1 (i : Nat) : BufTy := match i % 128 with
  | 0 => ⟨S256x128, .f32⟩
  | 1 => ⟨S1x128, .f32⟩
  | 2 => ⟨S1x128, .f32⟩
  | 3 => ⟨S1x128, .f32⟩
  | 4 => ⟨S1x128, .f32⟩
  | 5 => ⟨S1x128, .f32⟩
  | 6 => ⟨S2000x128, .f32⟩
  | 7 => ⟨S2000x128, .f32⟩
  | _ => ⟨S100000, .i32⟩

abbrev vmemTy (i : Nat) : BufTy := match i / 128 with
  | 0 => vmemTy0_0 i
  | 1 => vmemTy0_1 i
  | _ => ⟨S100000, .i32⟩

abbrev bufTy : (tb : Table) → Fin (tcTables nBuf tb) → BufTy
  | .hbm, ⟨i, _⟩ => hbmTy i
  | .local _ .vmem, ⟨i, _⟩ => vmemTy i
  | _, _ => ⟨S100000, .i32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 136 → Bool
  | ⟨i, _⟩ => dmaSemScopedAt i

abbrev sig : RefSig :=
  ofTc nBuf bufTy 0 136 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_c : Ref sig .tc := ⟨.hbm, 36, rfl⟩
abbrev main_v6 : Ref sig .tc := ⟨.hbm, 37, rfl⟩
abbrev main_v7 : Ref sig .tc := ⟨.hbm, 38, rfl⟩
abbrev main_c_0 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_c_1 : Ref sig .tc := ⟨.hbm, 45, rfl⟩
abbrev main_v13 : Ref sig .tc := ⟨.hbm, 46, rfl⟩
abbrev main_v14 : Ref sig .tc := ⟨.hbm, 47, rfl⟩
abbrev main_c_2 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_cst : Ref sig .tc := ⟨.hbm, 55, rfl⟩
abbrev main_v21 : Ref sig .tc := ⟨.hbm, 56, rfl⟩
abbrev main_c_3 : Ref sig .tc := ⟨.hbm, 57, rfl⟩
abbrev main_v22 : Ref sig .tc := ⟨.hbm, 58, rfl⟩
abbrev main_v23 : Ref sig .tc := ⟨.hbm, 59, rfl⟩
abbrev main_c_4 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_c_5 : Ref sig .tc := ⟨.hbm, 66, rfl⟩
abbrev main_v29 : Ref sig .tc := ⟨.hbm, 67, rfl⟩
abbrev main_v30 : Ref sig .tc := ⟨.hbm, 68, rfl⟩
abbrev main_c_6 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_cst_7 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_cst_8 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_c_9 : Ref sig .tc := ⟨.hbm, 157, rfl⟩
abbrev main_v116 : Ref sig .tc := ⟨.hbm, 158, rfl⟩
abbrev main_v117 : Ref sig .tc := ⟨.hbm, 159, rfl⟩
abbrev main_c_10 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_cst_11 : Ref sig .tc := ⟨.hbm, 167, rfl⟩
abbrev main_v124 : Ref sig .tc := ⟨.hbm, 168, rfl⟩
abbrev main_c_12 : Ref sig .tc := ⟨.hbm, 169, rfl⟩
abbrev main_v125 : Ref sig .tc := ⟨.hbm, 170, rfl⟩
abbrev main_v126 : Ref sig .tc := ⟨.hbm, 171, rfl⟩
abbrev main_c_13 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_c_14 : Ref sig .tc := ⟨.hbm, 178, rfl⟩
abbrev main_v132 : Ref sig .tc := ⟨.hbm, 179, rfl⟩
abbrev main_v133 : Ref sig .tc := ⟨.hbm, 180, rfl⟩
abbrev main_c_15 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_cst_16 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩
abbrev main_v157 : Ref sig .tc := ⟨.hbm, 206, rfl⟩
abbrev main_v158 : Ref sig .tc := ⟨.hbm, 207, rfl⟩
abbrev main_v159 : Ref sig .tc := ⟨.hbm, 208, rfl⟩
abbrev main_v160 : Ref sig .tc := ⟨.hbm, 209, rfl⟩
abbrev main_v161 : Ref sig .tc := ⟨.hbm, 210, rfl⟩
abbrev main_v162 : Ref sig .tc := ⟨.hbm, 211, rfl⟩
abbrev main_v163 : Ref sig .tc := ⟨.hbm, 212, rfl⟩
abbrev main_v164 : Ref sig .tc := ⟨.hbm, 213, rfl⟩
abbrev main_v165 : Ref sig .tc := ⟨.hbm, 214, rfl⟩
abbrev main_v166 : Ref sig .tc := ⟨.hbm, 215, rfl⟩
abbrev main_v167 : Ref sig .tc := ⟨.hbm, 216, rfl⟩
abbrev main_v168 : Ref sig .tc := ⟨.hbm, 217, rfl⟩
abbrev main_v169 : Ref sig .tc := ⟨.hbm, 218, rfl⟩
abbrev main_v170 : Ref sig .tc := ⟨.hbm, 219, rfl⟩
abbrev main_v171 : Ref sig .tc := ⟨.hbm, 220, rfl⟩
abbrev main_v172 : Ref sig .tc := ⟨.hbm, 221, rfl⟩
abbrev main_v173 : Ref sig .tc := ⟨.hbm, 222, rfl⟩
abbrev main_v174 : Ref sig .tc := ⟨.hbm, 223, rfl⟩
abbrev main_v175 : Ref sig .tc := ⟨.hbm, 224, rfl⟩
abbrev main_v176 : Ref sig .tc := ⟨.hbm, 225, rfl⟩
abbrev main_v177 : Ref sig .tc := ⟨.hbm, 226, rfl⟩
abbrev main_v178 : Ref sig .tc := ⟨.hbm, 227, rfl⟩
abbrev main_v179 : Ref sig .tc := ⟨.hbm, 228, rfl⟩
abbrev main_cst_17 : Ref sig .tc := ⟨.hbm, 229, rfl⟩
abbrev main_v180 : Ref sig .tc := ⟨.hbm, 230, rfl⟩
abbrev main_v181 : Ref sig .tc := ⟨.hbm, 231, rfl⟩
abbrev main_v182 : Ref sig .tc := ⟨.hbm, 232, rfl⟩
abbrev main_v183 : Ref sig .tc := ⟨.hbm, 233, rfl⟩
abbrev main_v184 : Ref sig .tc := ⟨.hbm, 234, rfl⟩
abbrev main_v185 : Ref sig .tc := ⟨.hbm, 235, rfl⟩
abbrev main_v186 : Ref sig .tc := ⟨.hbm, 236, rfl⟩
abbrev main_v187 : Ref sig .tc := ⟨.hbm, 237, rfl⟩
abbrev main_v188 : Ref sig .tc := ⟨.hbm, 238, rfl⟩
abbrev main_v189 : Ref sig .tc := ⟨.hbm, 239, rfl⟩
abbrev main_v190 : Ref sig .tc := ⟨.hbm, 240, rfl⟩
abbrev main_v191 : Ref sig .tc := ⟨.hbm, 241, rfl⟩
abbrev main_v192 : Ref sig .tc := ⟨.hbm, 242, rfl⟩
abbrev main_v193 : Ref sig .tc := ⟨.hbm, 243, rfl⟩
abbrev main_v194 : Ref sig .tc := ⟨.hbm, 244, rfl⟩
abbrev main_v195 : Ref sig .tc := ⟨.hbm, 245, rfl⟩
abbrev main_v196 : Ref sig .tc := ⟨.hbm, 246, rfl⟩
abbrev main_v197 : Ref sig .tc := ⟨.hbm, 247, rfl⟩
abbrev main_v198 : Ref sig .tc := ⟨.hbm, 248, rfl⟩
abbrev main_v199 : Ref sig .tc := ⟨.hbm, 249, rfl⟩
abbrev main_v200 : Ref sig .tc := ⟨.hbm, 250, rfl⟩
abbrev main_v201 : Ref sig .tc := ⟨.hbm, 251, rfl⟩
abbrev main_v202 : Ref sig .tc := ⟨.hbm, 252, rfl⟩
abbrev main_v203 : Ref sig .tc := ⟨.hbm, 253, rfl⟩
abbrev main_v204 : Ref sig .tc := ⟨.hbm, 254, rfl⟩
abbrev main_v205 : Ref sig .tc := ⟨.hbm, 255, rfl⟩
abbrev main_v206 : Ref sig .tc := ⟨.hbm, 256, rfl⟩
abbrev main_v207 : Ref sig .tc := ⟨.hbm, 257, rfl⟩
abbrev main_v208 : Ref sig .tc := ⟨.hbm, 258, rfl⟩
abbrev main_v209 : Ref sig .tc := ⟨.hbm, 259, rfl⟩
abbrev main_v210 : Ref sig .tc := ⟨.hbm, 260, rfl⟩
abbrev main_v211 : Ref sig .tc := ⟨.hbm, 261, rfl⟩
abbrev main_v212 : Ref sig .tc := ⟨.hbm, 262, rfl⟩
abbrev main_v213 : Ref sig .tc := ⟨.hbm, 263, rfl⟩
abbrev main_v214 : Ref sig .tc := ⟨.hbm, 264, rfl⟩
abbrev main_v215 : Ref sig .tc := ⟨.hbm, 265, rfl⟩
abbrev main_v216 : Ref sig .tc := ⟨.hbm, 266, rfl⟩
abbrev main_v217 : Ref sig .tc := ⟨.hbm, 267, rfl⟩
abbrev main_v218 : Ref sig .tc := ⟨.hbm, 268, rfl⟩
abbrev main_c_18 : Ref sig .tc := ⟨.hbm, 269, rfl⟩
abbrev main_v219 : Ref sig .tc := ⟨.hbm, 270, rfl⟩
abbrev main_v220 : Ref sig .tc := ⟨.hbm, 271, rfl⟩
abbrev main_c_19 : Ref sig .tc := ⟨.hbm, 272, rfl⟩
abbrev main_v221 : Ref sig .tc := ⟨.hbm, 273, rfl⟩
abbrev main_v222 : Ref sig .tc := ⟨.hbm, 274, rfl⟩
abbrev main_v223 : Ref sig .tc := ⟨.hbm, 275, rfl⟩
abbrev main_v224 : Ref sig .tc := ⟨.hbm, 276, rfl⟩
abbrev main_v225 : Ref sig .tc := ⟨.hbm, 277, rfl⟩
abbrev main_v226 : Ref sig .tc := ⟨.hbm, 278, rfl⟩
abbrev main_cst_20 : Ref sig .tc := ⟨.hbm, 279, rfl⟩
abbrev main_v227 : Ref sig .tc := ⟨.hbm, 280, rfl⟩
abbrev main_c_21 : Ref sig .tc := ⟨.hbm, 281, rfl⟩
abbrev main_v228 : Ref sig .tc := ⟨.hbm, 282, rfl⟩
abbrev main_v229 : Ref sig .tc := ⟨.hbm, 283, rfl⟩
abbrev main_c_22 : Ref sig .tc := ⟨.hbm, 284, rfl⟩
abbrev main_v230 : Ref sig .tc := ⟨.hbm, 285, rfl⟩
abbrev main_v231 : Ref sig .tc := ⟨.hbm, 286, rfl⟩
abbrev main_v232 : Ref sig .tc := ⟨.hbm, 287, rfl⟩
abbrev main_v233 : Ref sig .tc := ⟨.hbm, 288, rfl⟩
abbrev main_v234 : Ref sig .tc := ⟨.hbm, 289, rfl⟩
abbrev main_c_23 : Ref sig .tc := ⟨.hbm, 290, rfl⟩
abbrev main_v235 : Ref sig .tc := ⟨.hbm, 291, rfl⟩
abbrev main_v236 : Ref sig .tc := ⟨.hbm, 292, rfl⟩
abbrev main_c_24 : Ref sig .tc := ⟨.hbm, 293, rfl⟩
abbrev main_v237 : Ref sig .tc := ⟨.hbm, 294, rfl⟩
abbrev main_v238 : Ref sig .tc := ⟨.hbm, 295, rfl⟩
abbrev main_v239 : Ref sig .tc := ⟨.hbm, 296, rfl⟩
abbrev main_v240 : Ref sig .tc := ⟨.hbm, 297, rfl⟩
abbrev main_v241 : Ref sig .tc := ⟨.hbm, 298, rfl⟩
abbrev main_v242 : Ref sig .tc := ⟨.hbm, 299, rfl⟩
abbrev main_v243 : Ref sig .tc := ⟨.hbm, 300, rfl⟩
abbrev main_cst_25 : Ref sig .tc := ⟨.hbm, 301, rfl⟩
abbrev main_v244 : Ref sig .tc := ⟨.hbm, 302, rfl⟩
abbrev main_v245 : Ref sig .tc := ⟨.hbm, 303, rfl⟩
abbrev main_v246 : Ref sig .tc := ⟨.hbm, 304, rfl⟩
abbrev main_v247 : Ref sig .tc := ⟨.hbm, 305, rfl⟩
abbrev main_v248 : Ref sig .tc := ⟨.hbm, 306, rfl⟩
abbrev main_v249 : Ref sig .tc := ⟨.hbm, 307, rfl⟩
abbrev main_v250 : Ref sig .tc := ⟨.hbm, 308, rfl⟩
abbrev main_v251 : Ref sig .tc := ⟨.hbm, 309, rfl⟩
abbrev main_v252 : Ref sig .tc := ⟨.hbm, 310, rfl⟩
abbrev main_v253 : Ref sig .tc := ⟨.hbm, 311, rfl⟩
abbrev main_v254 : Ref sig .tc := ⟨.hbm, 312, rfl⟩
abbrev main_v255 : Ref sig .tc := ⟨.hbm, 313, rfl⟩
abbrev main_v256 : Ref sig .tc := ⟨.hbm, 314, rfl⟩
abbrev main_v257 : Ref sig .tc := ⟨.hbm, 315, rfl⟩
abbrev main_v258 : Ref sig .tc := ⟨.hbm, 316, rfl⟩
abbrev main_v259 : Ref sig .tc := ⟨.hbm, 317, rfl⟩
abbrev main_v260 : Ref sig .tc := ⟨.hbm, 318, rfl⟩
abbrev main_v261 : Ref sig .tc := ⟨.hbm, 319, rfl⟩
abbrev main_v262 : Ref sig .tc := ⟨.hbm, 320, rfl⟩
abbrev main_v263 : Ref sig .tc := ⟨.hbm, 321, rfl⟩
abbrev main_v264 : Ref sig .tc := ⟨.hbm, 322, rfl⟩
abbrev main_v265 : Ref sig .tc := ⟨.hbm, 323, rfl⟩
abbrev main_v266 : Ref sig .tc := ⟨.hbm, 324, rfl⟩
abbrev main_v267 : Ref sig .tc := ⟨.hbm, 325, rfl⟩
abbrev main_v268 : Ref sig .tc := ⟨.hbm, 326, rfl⟩
abbrev main_v269 : Ref sig .tc := ⟨.hbm, 327, rfl⟩
abbrev main_v270 : Ref sig .tc := ⟨.hbm, 328, rfl⟩
abbrev main_v271 : Ref sig .tc := ⟨.hbm, 329, rfl⟩
abbrev main_v272 : Ref sig .tc := ⟨.hbm, 330, rfl⟩
abbrev main_v273 : Ref sig .tc := ⟨.hbm, 331, rfl⟩
abbrev main_v274 : Ref sig .tc := ⟨.hbm, 332, rfl⟩
abbrev main_v275 : Ref sig .tc := ⟨.hbm, 333, rfl⟩
abbrev main_v276 : Ref sig .tc := ⟨.hbm, 334, rfl⟩
abbrev main_v277 : Ref sig .tc := ⟨.hbm, 335, rfl⟩
abbrev main_v278 : Ref sig .tc := ⟨.hbm, 336, rfl⟩
abbrev main_v279 : Ref sig .tc := ⟨.hbm, 337, rfl⟩
abbrev main_v280 : Ref sig .tc := ⟨.hbm, 338, rfl⟩
abbrev main_v281 : Ref sig .tc := ⟨.hbm, 339, rfl⟩
abbrev main_v282 : Ref sig .tc := ⟨.hbm, 340, rfl⟩
abbrev main_cst_26 : Ref sig .tc := ⟨.hbm, 341, rfl⟩
abbrev main_v283 : Ref sig .tc := ⟨.hbm, 342, rfl⟩
abbrev main_v284 : Ref sig .tc := ⟨.hbm, 343, rfl⟩
abbrev main_v285 : Ref sig .tc := ⟨.hbm, 344, rfl⟩
abbrev main_v286 : Ref sig .tc := ⟨.hbm, 345, rfl⟩
abbrev main_v287 : Ref sig .tc := ⟨.hbm, 346, rfl⟩
abbrev main_v288 : Ref sig .tc := ⟨.hbm, 347, rfl⟩
abbrev main_v289 : Ref sig .tc := ⟨.hbm, 348, rfl⟩
abbrev main_v290 : Ref sig .tc := ⟨.hbm, 349, rfl⟩
abbrev main_v291 : Ref sig .tc := ⟨.hbm, 350, rfl⟩
abbrev main_v292 : Ref sig .tc := ⟨.hbm, 351, rfl⟩
abbrev main_v293 : Ref sig .tc := ⟨.hbm, 352, rfl⟩
abbrev main_v294 : Ref sig .tc := ⟨.hbm, 353, rfl⟩
abbrev main_v295 : Ref sig .tc := ⟨.hbm, 354, rfl⟩
abbrev main_v296 : Ref sig .tc := ⟨.hbm, 355, rfl⟩
abbrev main_v297 : Ref sig .tc := ⟨.hbm, 356, rfl⟩
abbrev main_v298 : Ref sig .tc := ⟨.hbm, 357, rfl⟩
abbrev main_v299 : Ref sig .tc := ⟨.hbm, 358, rfl⟩
abbrev main_v300 : Ref sig .tc := ⟨.hbm, 359, rfl⟩
abbrev main_v301 : Ref sig .tc := ⟨.hbm, 360, rfl⟩
abbrev main_v302 : Ref sig .tc := ⟨.hbm, 361, rfl⟩
abbrev main_v303 : Ref sig .tc := ⟨.hbm, 362, rfl⟩
abbrev main_v304 : Ref sig .tc := ⟨.hbm, 363, rfl⟩
abbrev main_v305 : Ref sig .tc := ⟨.hbm, 364, rfl⟩
abbrev main_v306 : Ref sig .tc := ⟨.hbm, 365, rfl⟩
abbrev main_v307 : Ref sig .tc := ⟨.hbm, 366, rfl⟩
abbrev main_v308 : Ref sig .tc := ⟨.hbm, 367, rfl⟩
abbrev main_v309 : Ref sig .tc := ⟨.hbm, 368, rfl⟩
abbrev main_v310 : Ref sig .tc := ⟨.hbm, 369, rfl⟩
abbrev main_v311 : Ref sig .tc := ⟨.hbm, 370, rfl⟩
abbrev main_v312 : Ref sig .tc := ⟨.hbm, 371, rfl⟩
abbrev main_v313 : Ref sig .tc := ⟨.hbm, 372, rfl⟩
abbrev main_v314 : Ref sig .tc := ⟨.hbm, 373, rfl⟩
abbrev main_v315 : Ref sig .tc := ⟨.hbm, 374, rfl⟩
abbrev main_v316 : Ref sig .tc := ⟨.hbm, 375, rfl⟩
abbrev main_v317 : Ref sig .tc := ⟨.hbm, 376, rfl⟩
abbrev main_v318 : Ref sig .tc := ⟨.hbm, 377, rfl⟩
abbrev main_v319 : Ref sig .tc := ⟨.hbm, 378, rfl⟩
abbrev main_v320 : Ref sig .tc := ⟨.hbm, 379, rfl⟩
abbrev main_v321 : Ref sig .tc := ⟨.hbm, 380, rfl⟩
abbrev main_c_27 : Ref sig .tc := ⟨.hbm, 381, rfl⟩
abbrev main_v322 : Ref sig .tc := ⟨.hbm, 382, rfl⟩
abbrev main_v323 : Ref sig .tc := ⟨.hbm, 383, rfl⟩
abbrev main_c_28 : Ref sig .tc := ⟨.hbm, 384, rfl⟩
abbrev main_v324 : Ref sig .tc := ⟨.hbm, 385, rfl⟩
abbrev main_v325 : Ref sig .tc := ⟨.hbm, 386, rfl⟩
abbrev main_v326 : Ref sig .tc := ⟨.hbm, 387, rfl⟩
abbrev main_v327 : Ref sig .tc := ⟨.hbm, 388, rfl⟩
abbrev main_v328 : Ref sig .tc := ⟨.hbm, 389, rfl⟩
abbrev main_v329 : Ref sig .tc := ⟨.hbm, 390, rfl⟩
abbrev main_cst_29 : Ref sig .tc := ⟨.hbm, 391, rfl⟩
abbrev main_v330 : Ref sig .tc := ⟨.hbm, 392, rfl⟩
abbrev main_c_30 : Ref sig .tc := ⟨.hbm, 393, rfl⟩
abbrev main_v331 : Ref sig .tc := ⟨.hbm, 394, rfl⟩
abbrev main_v332 : Ref sig .tc := ⟨.hbm, 395, rfl⟩
abbrev main_c_31 : Ref sig .tc := ⟨.hbm, 396, rfl⟩
abbrev main_v333 : Ref sig .tc := ⟨.hbm, 397, rfl⟩
abbrev main_v334 : Ref sig .tc := ⟨.hbm, 398, rfl⟩
abbrev main_v335 : Ref sig .tc := ⟨.hbm, 399, rfl⟩
abbrev main_v336 : Ref sig .tc := ⟨.hbm, 400, rfl⟩
abbrev main_v337 : Ref sig .tc := ⟨.hbm, 401, rfl⟩
abbrev main_c_32 : Ref sig .tc := ⟨.hbm, 402, rfl⟩
abbrev main_v338 : Ref sig .tc := ⟨.hbm, 403, rfl⟩
abbrev main_v339 : Ref sig .tc := ⟨.hbm, 404, rfl⟩
abbrev main_c_33 : Ref sig .tc := ⟨.hbm, 405, rfl⟩
abbrev main_v340 : Ref sig .tc := ⟨.hbm, 406, rfl⟩
abbrev main_v341 : Ref sig .tc := ⟨.hbm, 407, rfl⟩
abbrev main_v342 : Ref sig .tc := ⟨.hbm, 408, rfl⟩
abbrev main_v343 : Ref sig .tc := ⟨.hbm, 409, rfl⟩
abbrev main_v344 : Ref sig .tc := ⟨.hbm, 410, rfl⟩
abbrev main_v345 : Ref sig .tc := ⟨.hbm, 411, rfl⟩
abbrev main_v346 : Ref sig .tc := ⟨.hbm, 412, rfl⟩
abbrev main_cst_34 : Ref sig .tc := ⟨.hbm, 413, rfl⟩
abbrev main_v347 : Ref sig .tc := ⟨.hbm, 414, rfl⟩
abbrev main_v348 : Ref sig .tc := ⟨.hbm, 415, rfl⟩
abbrev main_v349 : Ref sig .tc := ⟨.hbm, 416, rfl⟩
abbrev main_v350 : Ref sig .tc := ⟨.hbm, 417, rfl⟩
abbrev main_v351 : Ref sig .tc := ⟨.hbm, 418, rfl⟩
abbrev main_v352 : Ref sig .tc := ⟨.hbm, 419, rfl⟩
abbrev main_v353 : Ref sig .tc := ⟨.hbm, 420, rfl⟩
abbrev main_v354 : Ref sig .tc := ⟨.hbm, 421, rfl⟩
abbrev main_v355 : Ref sig .tc := ⟨.hbm, 422, rfl⟩
abbrev main_v356 : Ref sig .tc := ⟨.hbm, 423, rfl⟩
abbrev main_v357 : Ref sig .tc := ⟨.hbm, 424, rfl⟩
abbrev main_v358 : Ref sig .tc := ⟨.hbm, 425, rfl⟩
abbrev main_v359 : Ref sig .tc := ⟨.hbm, 426, rfl⟩
abbrev main_v360 : Ref sig .tc := ⟨.hbm, 427, rfl⟩
abbrev main_v361 : Ref sig .tc := ⟨.hbm, 428, rfl⟩
abbrev main_v362 : Ref sig .tc := ⟨.hbm, 429, rfl⟩
abbrev main_v363 : Ref sig .tc := ⟨.hbm, 430, rfl⟩
abbrev main_v364 : Ref sig .tc := ⟨.hbm, 431, rfl⟩
abbrev main_v365 : Ref sig .tc := ⟨.hbm, 432, rfl⟩
abbrev main_v366 : Ref sig .tc := ⟨.hbm, 433, rfl⟩
abbrev main_v367 : Ref sig .tc := ⟨.hbm, 434, rfl⟩
abbrev main_v368 : Ref sig .tc := ⟨.hbm, 435, rfl⟩
abbrev main_v369 : Ref sig .tc := ⟨.hbm, 436, rfl⟩
abbrev main_v370 : Ref sig .tc := ⟨.hbm, 437, rfl⟩
abbrev main_v371 : Ref sig .tc := ⟨.hbm, 438, rfl⟩
abbrev main_v372 : Ref sig .tc := ⟨.hbm, 439, rfl⟩
abbrev main_v373 : Ref sig .tc := ⟨.hbm, 440, rfl⟩
abbrev main_v374 : Ref sig .tc := ⟨.hbm, 441, rfl⟩
abbrev main_v375 : Ref sig .tc := ⟨.hbm, 442, rfl⟩
abbrev main_v376 : Ref sig .tc := ⟨.hbm, 443, rfl⟩
abbrev main_v377 : Ref sig .tc := ⟨.hbm, 444, rfl⟩
abbrev main_v378 : Ref sig .tc := ⟨.hbm, 445, rfl⟩
abbrev main_v379 : Ref sig .tc := ⟨.hbm, 446, rfl⟩
abbrev main_v380 : Ref sig .tc := ⟨.hbm, 447, rfl⟩
abbrev main_v381 : Ref sig .tc := ⟨.hbm, 448, rfl⟩
abbrev main_v382 : Ref sig .tc := ⟨.hbm, 449, rfl⟩
abbrev main_v383 : Ref sig .tc := ⟨.hbm, 450, rfl⟩
abbrev main_v384 : Ref sig .tc := ⟨.hbm, 451, rfl⟩
abbrev main_v385 : Ref sig .tc := ⟨.hbm, 452, rfl⟩
abbrev main_cst_35 : Ref sig .tc := ⟨.hbm, 453, rfl⟩
abbrev main_v386 : Ref sig .tc := ⟨.hbm, 454, rfl⟩
abbrev main_v387 : Ref sig .tc := ⟨.hbm, 455, rfl⟩
abbrev main_v388 : Ref sig .tc := ⟨.hbm, 456, rfl⟩
abbrev main_v389 : Ref sig .tc := ⟨.hbm, 457, rfl⟩
abbrev main_v390 : Ref sig .tc := ⟨.hbm, 458, rfl⟩
abbrev main_v391 : Ref sig .tc := ⟨.hbm, 459, rfl⟩
abbrev main_v392 : Ref sig .tc := ⟨.hbm, 460, rfl⟩
abbrev main_v393 : Ref sig .tc := ⟨.hbm, 461, rfl⟩
abbrev main_v394 : Ref sig .tc := ⟨.hbm, 462, rfl⟩
abbrev main_v395 : Ref sig .tc := ⟨.hbm, 463, rfl⟩
abbrev main_v396 : Ref sig .tc := ⟨.hbm, 464, rfl⟩
abbrev main_v397 : Ref sig .tc := ⟨.hbm, 465, rfl⟩
abbrev main_v398 : Ref sig .tc := ⟨.hbm, 466, rfl⟩
abbrev main_v399 : Ref sig .tc := ⟨.hbm, 467, rfl⟩
abbrev main_v400 : Ref sig .tc := ⟨.hbm, 468, rfl⟩
abbrev main_v401 : Ref sig .tc := ⟨.hbm, 469, rfl⟩
abbrev main_v402 : Ref sig .tc := ⟨.hbm, 470, rfl⟩
abbrev main_v403 : Ref sig .tc := ⟨.hbm, 471, rfl⟩
abbrev main_v404 : Ref sig .tc := ⟨.hbm, 472, rfl⟩
abbrev main_v405 : Ref sig .tc := ⟨.hbm, 473, rfl⟩
abbrev main_v406 : Ref sig .tc := ⟨.hbm, 474, rfl⟩
abbrev main_v407 : Ref sig .tc := ⟨.hbm, 475, rfl⟩
abbrev main_v408 : Ref sig .tc := ⟨.hbm, 476, rfl⟩
abbrev main_v409 : Ref sig .tc := ⟨.hbm, 477, rfl⟩
abbrev main_v410 : Ref sig .tc := ⟨.hbm, 478, rfl⟩
abbrev main_v411 : Ref sig .tc := ⟨.hbm, 479, rfl⟩
abbrev main_v412 : Ref sig .tc := ⟨.hbm, 480, rfl⟩
abbrev main_v413 : Ref sig .tc := ⟨.hbm, 481, rfl⟩
abbrev main_v414 : Ref sig .tc := ⟨.hbm, 482, rfl⟩
abbrev main_v415 : Ref sig .tc := ⟨.hbm, 483, rfl⟩
abbrev main_v416 : Ref sig .tc := ⟨.hbm, 484, rfl⟩
abbrev main_v417 : Ref sig .tc := ⟨.hbm, 485, rfl⟩
abbrev main_v418 : Ref sig .tc := ⟨.hbm, 486, rfl⟩
abbrev main_v419 : Ref sig .tc := ⟨.hbm, 487, rfl⟩
abbrev main_v420 : Ref sig .tc := ⟨.hbm, 488, rfl⟩
abbrev main_v421 : Ref sig .tc := ⟨.hbm, 489, rfl⟩
abbrev main_v422 : Ref sig .tc := ⟨.hbm, 490, rfl⟩
abbrev main_v423 : Ref sig .tc := ⟨.hbm, 491, rfl⟩
abbrev main_v424 : Ref sig .tc := ⟨.hbm, 492, rfl⟩
abbrev main_c_36 : Ref sig .tc := ⟨.hbm, 493, rfl⟩
abbrev main_v425 : Ref sig .tc := ⟨.hbm, 494, rfl⟩
abbrev main_v426 : Ref sig .tc := ⟨.hbm, 495, rfl⟩
abbrev main_c_37 : Ref sig .tc := ⟨.hbm, 496, rfl⟩
abbrev main_v427 : Ref sig .tc := ⟨.hbm, 497, rfl⟩
abbrev main_v428 : Ref sig .tc := ⟨.hbm, 498, rfl⟩
abbrev main_v429 : Ref sig .tc := ⟨.hbm, 499, rfl⟩
abbrev main_v430 : Ref sig .tc := ⟨.hbm, 500, rfl⟩
abbrev main_v431 : Ref sig .tc := ⟨.hbm, 501, rfl⟩
abbrev main_v432 : Ref sig .tc := ⟨.hbm, 502, rfl⟩
abbrev main_cst_38 : Ref sig .tc := ⟨.hbm, 503, rfl⟩
abbrev main_v433 : Ref sig .tc := ⟨.hbm, 504, rfl⟩
abbrev main_c_39 : Ref sig .tc := ⟨.hbm, 505, rfl⟩
abbrev main_v434 : Ref sig .tc := ⟨.hbm, 506, rfl⟩
abbrev main_v435 : Ref sig .tc := ⟨.hbm, 507, rfl⟩
abbrev main_c_40 : Ref sig .tc := ⟨.hbm, 508, rfl⟩
abbrev main_v436 : Ref sig .tc := ⟨.hbm, 509, rfl⟩
abbrev main_v437 : Ref sig .tc := ⟨.hbm, 510, rfl⟩
abbrev main_v438 : Ref sig .tc := ⟨.hbm, 511, rfl⟩
abbrev main_v439 : Ref sig .tc := ⟨.hbm, 512, rfl⟩
abbrev main_v440 : Ref sig .tc := ⟨.hbm, 513, rfl⟩
abbrev main_c_41 : Ref sig .tc := ⟨.hbm, 514, rfl⟩
abbrev main_v441 : Ref sig .tc := ⟨.hbm, 515, rfl⟩
abbrev main_v442 : Ref sig .tc := ⟨.hbm, 516, rfl⟩
abbrev main_c_42 : Ref sig .tc := ⟨.hbm, 517, rfl⟩
abbrev main_v443 : Ref sig .tc := ⟨.hbm, 518, rfl⟩
abbrev main_v444 : Ref sig .tc := ⟨.hbm, 519, rfl⟩
abbrev main_v445 : Ref sig .tc := ⟨.hbm, 520, rfl⟩
abbrev main_v446 : Ref sig .tc := ⟨.hbm, 521, rfl⟩
abbrev main_v447 : Ref sig .tc := ⟨.hbm, 522, rfl⟩
abbrev main_v448 : Ref sig .tc := ⟨.hbm, 523, rfl⟩
abbrev main_v449 : Ref sig .tc := ⟨.hbm, 524, rfl⟩
abbrev main_cst_43 : Ref sig .tc := ⟨.hbm, 525, rfl⟩
abbrev main_v450 : Ref sig .tc := ⟨.hbm, 526, rfl⟩
abbrev main_v451 : Ref sig .tc := ⟨.hbm, 527, rfl⟩
abbrev main_v452 : Ref sig .tc := ⟨.hbm, 528, rfl⟩
abbrev main_v453 : Ref sig .tc := ⟨.hbm, 529, rfl⟩
abbrev main_v454 : Ref sig .tc := ⟨.hbm, 530, rfl⟩
abbrev main_v455 : Ref sig .tc := ⟨.hbm, 531, rfl⟩
abbrev main_v456 : Ref sig .tc := ⟨.hbm, 532, rfl⟩
abbrev main_v457 : Ref sig .tc := ⟨.hbm, 533, rfl⟩
abbrev main_v458 : Ref sig .tc := ⟨.hbm, 534, rfl⟩
abbrev main_v459 : Ref sig .tc := ⟨.hbm, 535, rfl⟩
abbrev main_v460 : Ref sig .tc := ⟨.hbm, 536, rfl⟩
abbrev main_v461 : Ref sig .tc := ⟨.hbm, 537, rfl⟩
abbrev main_v462 : Ref sig .tc := ⟨.hbm, 538, rfl⟩
abbrev main_v463 : Ref sig .tc := ⟨.hbm, 539, rfl⟩
abbrev main_v464 : Ref sig .tc := ⟨.hbm, 540, rfl⟩
abbrev main_v465 : Ref sig .tc := ⟨.hbm, 541, rfl⟩
abbrev main_v466 : Ref sig .tc := ⟨.hbm, 542, rfl⟩
abbrev main_v467 : Ref sig .tc := ⟨.hbm, 543, rfl⟩
abbrev main_v468 : Ref sig .tc := ⟨.hbm, 544, rfl⟩
abbrev main_v469 : Ref sig .tc := ⟨.hbm, 545, rfl⟩
abbrev main_v470 : Ref sig .tc := ⟨.hbm, 546, rfl⟩
abbrev main_v471 : Ref sig .tc := ⟨.hbm, 547, rfl⟩
abbrev main_v472 : Ref sig .tc := ⟨.hbm, 548, rfl⟩
abbrev main_v473 : Ref sig .tc := ⟨.hbm, 549, rfl⟩
abbrev main_v474 : Ref sig .tc := ⟨.hbm, 550, rfl⟩
abbrev main_v475 : Ref sig .tc := ⟨.hbm, 551, rfl⟩
abbrev main_v476 : Ref sig .tc := ⟨.hbm, 552, rfl⟩
abbrev main_v477 : Ref sig .tc := ⟨.hbm, 553, rfl⟩
abbrev main_v478 : Ref sig .tc := ⟨.hbm, 554, rfl⟩
abbrev main_v479 : Ref sig .tc := ⟨.hbm, 555, rfl⟩
abbrev main_v480 : Ref sig .tc := ⟨.hbm, 556, rfl⟩
abbrev main_v481 : Ref sig .tc := ⟨.hbm, 557, rfl⟩
abbrev main_v482 : Ref sig .tc := ⟨.hbm, 558, rfl⟩
abbrev main_v483 : Ref sig .tc := ⟨.hbm, 559, rfl⟩
abbrev main_v484 : Ref sig .tc := ⟨.hbm, 560, rfl⟩
abbrev main_v485 : Ref sig .tc := ⟨.hbm, 561, rfl⟩
abbrev main_v486 : Ref sig .tc := ⟨.hbm, 562, rfl⟩
abbrev main_v487 : Ref sig .tc := ⟨.hbm, 563, rfl⟩
abbrev main_v488 : Ref sig .tc := ⟨.hbm, 564, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc1_stg0_0 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg9_0 : Ref sig .tc := ⟨.vmem, 25, rfl⟩
abbrev cc1_stg10_0 : Ref sig .tc := ⟨.vmem, 26, rfl⟩
abbrev cc1_stg11_0 : Ref sig .tc := ⟨.vmem, 27, rfl⟩
abbrev cc1_stg12_0 : Ref sig .tc := ⟨.vmem, 28, rfl⟩
abbrev cc1_stg13_0 : Ref sig .tc := ⟨.vmem, 29, rfl⟩
abbrev cc2_stg0_0 : Ref sig .tc := ⟨.vmem, 30, rfl⟩
abbrev cc2_stg0_1 : Ref sig .tc := ⟨.vmem, 31, rfl⟩
abbrev cc2_stg1_0 : Ref sig .tc := ⟨.vmem, 32, rfl⟩
abbrev cc2_stg2_0 : Ref sig .tc := ⟨.vmem, 33, rfl⟩
abbrev cc2_stg3_0 : Ref sig .tc := ⟨.vmem, 34, rfl⟩
abbrev cc2_stg4_0 : Ref sig .tc := ⟨.vmem, 35, rfl⟩
abbrev cc2_stg5_0 : Ref sig .tc := ⟨.vmem, 36, rfl⟩
abbrev cc2_stg6_0 : Ref sig .tc := ⟨.vmem, 37, rfl⟩
abbrev cc2_stg7_0 : Ref sig .tc := ⟨.vmem, 38, rfl⟩
abbrev cc2_stg8_0 : Ref sig .tc := ⟨.vmem, 39, rfl⟩
abbrev cc2_stg9_0 : Ref sig .tc := ⟨.vmem, 40, rfl⟩
abbrev cc2_stg10_0 : Ref sig .tc := ⟨.vmem, 41, rfl⟩
abbrev cc2_stg11_0 : Ref sig .tc := ⟨.vmem, 42, rfl⟩
abbrev cc2_stg12_0 : Ref sig .tc := ⟨.vmem, 43, rfl⟩
abbrev cc2_stg13_0 : Ref sig .tc := ⟨.vmem, 44, rfl⟩
abbrev cc2_stg13_1 : Ref sig .tc := ⟨.vmem, 45, rfl⟩
abbrev cc3_stg0_0 : Ref sig .tc := ⟨.vmem, 46, rfl⟩
abbrev cc3_stg1_0 : Ref sig .tc := ⟨.vmem, 47, rfl⟩
abbrev cc3_stg2_0 : Ref sig .tc := ⟨.vmem, 48, rfl⟩
abbrev cc3_stg3_0 : Ref sig .tc := ⟨.vmem, 49, rfl⟩
abbrev cc3_stg4_0 : Ref sig .tc := ⟨.vmem, 50, rfl⟩
abbrev cc3_stg5_0 : Ref sig .tc := ⟨.vmem, 51, rfl⟩
abbrev cc3_stg6_0 : Ref sig .tc := ⟨.vmem, 52, rfl⟩
abbrev cc3_stg7_0 : Ref sig .tc := ⟨.vmem, 53, rfl⟩
abbrev cc3_stg8_0 : Ref sig .tc := ⟨.vmem, 54, rfl⟩
abbrev cc3_stg9_0 : Ref sig .tc := ⟨.vmem, 55, rfl⟩
abbrev cc3_stg10_0 : Ref sig .tc := ⟨.vmem, 56, rfl⟩
abbrev cc3_stg11_0 : Ref sig .tc := ⟨.vmem, 57, rfl⟩
abbrev cc3_stg12_0 : Ref sig .tc := ⟨.vmem, 58, rfl⟩
abbrev cc3_stg13_0 : Ref sig .tc := ⟨.vmem, 59, rfl⟩
abbrev cc4_stg0_0 : Ref sig .tc := ⟨.vmem, 60, rfl⟩
abbrev cc4_stg0_1 : Ref sig .tc := ⟨.vmem, 61, rfl⟩
abbrev cc4_stg1_0 : Ref sig .tc := ⟨.vmem, 62, rfl⟩
abbrev cc4_stg2_0 : Ref sig .tc := ⟨.vmem, 63, rfl⟩
abbrev cc4_stg3_0 : Ref sig .tc := ⟨.vmem, 64, rfl⟩
abbrev cc4_stg4_0 : Ref sig .tc := ⟨.vmem, 65, rfl⟩
abbrev cc4_stg5_0 : Ref sig .tc := ⟨.vmem, 66, rfl⟩
abbrev cc4_stg6_0 : Ref sig .tc := ⟨.vmem, 67, rfl⟩
abbrev cc4_stg7_0 : Ref sig .tc := ⟨.vmem, 68, rfl⟩
abbrev cc4_stg8_0 : Ref sig .tc := ⟨.vmem, 69, rfl⟩
abbrev cc4_stg9_0 : Ref sig .tc := ⟨.vmem, 70, rfl⟩
abbrev cc4_stg10_0 : Ref sig .tc := ⟨.vmem, 71, rfl⟩
abbrev cc4_stg11_0 : Ref sig .tc := ⟨.vmem, 72, rfl⟩
abbrev cc4_stg12_0 : Ref sig .tc := ⟨.vmem, 73, rfl⟩
abbrev cc4_stg13_0 : Ref sig .tc := ⟨.vmem, 74, rfl⟩
abbrev cc4_stg13_1 : Ref sig .tc := ⟨.vmem, 75, rfl⟩
abbrev cc5_stg0_0 : Ref sig .tc := ⟨.vmem, 76, rfl⟩
abbrev cc5_stg1_0 : Ref sig .tc := ⟨.vmem, 77, rfl⟩
abbrev cc5_stg2_0 : Ref sig .tc := ⟨.vmem, 78, rfl⟩
abbrev cc5_stg3_0 : Ref sig .tc := ⟨.vmem, 79, rfl⟩
abbrev cc5_stg4_0 : Ref sig .tc := ⟨.vmem, 80, rfl⟩
abbrev cc5_stg5_0 : Ref sig .tc := ⟨.vmem, 81, rfl⟩
abbrev cc5_stg6_0 : Ref sig .tc := ⟨.vmem, 82, rfl⟩
abbrev cc5_stg7_0 : Ref sig .tc := ⟨.vmem, 83, rfl⟩
abbrev cc5_stg8_0 : Ref sig .tc := ⟨.vmem, 84, rfl⟩
abbrev cc5_stg9_0 : Ref sig .tc := ⟨.vmem, 85, rfl⟩
abbrev cc5_stg10_0 : Ref sig .tc := ⟨.vmem, 86, rfl⟩
abbrev cc5_stg11_0 : Ref sig .tc := ⟨.vmem, 87, rfl⟩
abbrev cc5_stg12_0 : Ref sig .tc := ⟨.vmem, 88, rfl⟩
abbrev cc5_stg13_0 : Ref sig .tc := ⟨.vmem, 89, rfl⟩
abbrev cc6_stg0_0 : Ref sig .tc := ⟨.vmem, 90, rfl⟩
abbrev cc6_stg0_1 : Ref sig .tc := ⟨.vmem, 91, rfl⟩
abbrev cc6_stg1_0 : Ref sig .tc := ⟨.vmem, 92, rfl⟩
abbrev cc6_stg2_0 : Ref sig .tc := ⟨.vmem, 93, rfl⟩
abbrev cc6_stg3_0 : Ref sig .tc := ⟨.vmem, 94, rfl⟩
abbrev cc6_stg4_0 : Ref sig .tc := ⟨.vmem, 95, rfl⟩
abbrev cc6_stg5_0 : Ref sig .tc := ⟨.vmem, 96, rfl⟩
abbrev cc6_stg6_0 : Ref sig .tc := ⟨.vmem, 97, rfl⟩
abbrev cc6_stg7_0 : Ref sig .tc := ⟨.vmem, 98, rfl⟩
abbrev cc6_stg8_0 : Ref sig .tc := ⟨.vmem, 99, rfl⟩
abbrev cc6_stg9_0 : Ref sig .tc := ⟨.vmem, 100, rfl⟩
abbrev cc6_stg10_0 : Ref sig .tc := ⟨.vmem, 101, rfl⟩
abbrev cc6_stg11_0 : Ref sig .tc := ⟨.vmem, 102, rfl⟩
abbrev cc6_stg12_0 : Ref sig .tc := ⟨.vmem, 103, rfl⟩
abbrev cc6_stg13_0 : Ref sig .tc := ⟨.vmem, 104, rfl⟩
abbrev cc6_stg13_1 : Ref sig .tc := ⟨.vmem, 105, rfl⟩
abbrev cc7_stg0_0 : Ref sig .tc := ⟨.vmem, 106, rfl⟩
abbrev cc7_stg1_0 : Ref sig .tc := ⟨.vmem, 107, rfl⟩
abbrev cc7_stg2_0 : Ref sig .tc := ⟨.vmem, 108, rfl⟩
abbrev cc7_stg3_0 : Ref sig .tc := ⟨.vmem, 109, rfl⟩
abbrev cc7_stg4_0 : Ref sig .tc := ⟨.vmem, 110, rfl⟩
abbrev cc7_stg5_0 : Ref sig .tc := ⟨.vmem, 111, rfl⟩
abbrev cc7_stg6_0 : Ref sig .tc := ⟨.vmem, 112, rfl⟩
abbrev cc7_stg7_0 : Ref sig .tc := ⟨.vmem, 113, rfl⟩
abbrev cc7_stg8_0 : Ref sig .tc := ⟨.vmem, 114, rfl⟩
abbrev cc7_stg9_0 : Ref sig .tc := ⟨.vmem, 115, rfl⟩
abbrev cc7_stg10_0 : Ref sig .tc := ⟨.vmem, 116, rfl⟩
abbrev cc7_stg11_0 : Ref sig .tc := ⟨.vmem, 117, rfl⟩
abbrev cc7_stg12_0 : Ref sig .tc := ⟨.vmem, 118, rfl⟩
abbrev cc7_stg13_0 : Ref sig .tc := ⟨.vmem, 119, rfl⟩
abbrev cc8_stg0_0 : Ref sig .tc := ⟨.vmem, 120, rfl⟩
abbrev cc8_stg0_1 : Ref sig .tc := ⟨.vmem, 121, rfl⟩
abbrev cc8_stg1_0 : Ref sig .tc := ⟨.vmem, 122, rfl⟩
abbrev cc8_stg2_0 : Ref sig .tc := ⟨.vmem, 123, rfl⟩
abbrev cc8_stg3_0 : Ref sig .tc := ⟨.vmem, 124, rfl⟩
abbrev cc8_stg4_0 : Ref sig .tc := ⟨.vmem, 125, rfl⟩
abbrev cc8_stg5_0 : Ref sig .tc := ⟨.vmem, 126, rfl⟩
abbrev cc8_stg6_0 : Ref sig .tc := ⟨.vmem, 127, rfl⟩
abbrev cc8_stg7_0 : Ref sig .tc := ⟨.vmem, 128, rfl⟩
abbrev cc8_stg8_0 : Ref sig .tc := ⟨.vmem, 129, rfl⟩
abbrev cc8_stg9_0 : Ref sig .tc := ⟨.vmem, 130, rfl⟩
abbrev cc8_stg10_0 : Ref sig .tc := ⟨.vmem, 131, rfl⟩
abbrev cc8_stg11_0 : Ref sig .tc := ⟨.vmem, 132, rfl⟩
abbrev cc8_stg12_0 : Ref sig .tc := ⟨.vmem, 133, rfl⟩
abbrev cc8_stg13_0 : Ref sig .tc := ⟨.vmem, 134, rfl⟩
abbrev cc8_stg13_1 : Ref sig .tc := ⟨.vmem, 135, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15
abbrev cc1_sem0_0 : DmaSem sig := 16
abbrev cc1_sem1_0 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem9_0 : DmaSem sig := 25
abbrev cc1_sem10_0 : DmaSem sig := 26
abbrev cc1_sem11_0 : DmaSem sig := 27
abbrev cc1_sem12_0 : DmaSem sig := 28
abbrev cc1_sem13_0 : DmaSem sig := 29
abbrev cc2_sem0_0 : DmaSem sig := 30
abbrev cc2_sem0_1 : DmaSem sig := 31
abbrev cc2_sem1_0 : DmaSem sig := 32
abbrev cc2_sem2_0 : DmaSem sig := 33
abbrev cc2_sem3_0 : DmaSem sig := 34
abbrev cc2_sem4_0 : DmaSem sig := 35
abbrev cc2_sem5_0 : DmaSem sig := 36
abbrev cc2_sem6_0 : DmaSem sig := 37
abbrev cc2_sem7_0 : DmaSem sig := 38
abbrev cc2_sem8_0 : DmaSem sig := 39
abbrev cc2_sem9_0 : DmaSem sig := 40
abbrev cc2_sem10_0 : DmaSem sig := 41
abbrev cc2_sem11_0 : DmaSem sig := 42
abbrev cc2_sem12_0 : DmaSem sig := 43
abbrev cc2_sem13_0 : DmaSem sig := 44
abbrev cc2_sem13_1 : DmaSem sig := 45
abbrev cc3_sem0_0 : DmaSem sig := 46
abbrev cc3_sem1_0 : DmaSem sig := 47
abbrev cc3_sem2_0 : DmaSem sig := 48
abbrev cc3_sem3_0 : DmaSem sig := 49
abbrev cc3_sem4_0 : DmaSem sig := 50
abbrev cc3_sem5_0 : DmaSem sig := 51
abbrev cc3_sem6_0 : DmaSem sig := 52
abbrev cc3_sem7_0 : DmaSem sig := 53
abbrev cc3_sem8_0 : DmaSem sig := 54
abbrev cc3_sem9_0 : DmaSem sig := 55
abbrev cc3_sem10_0 : DmaSem sig := 56
abbrev cc3_sem11_0 : DmaSem sig := 57
abbrev cc3_sem12_0 : DmaSem sig := 58
abbrev cc3_sem13_0 : DmaSem sig := 59
abbrev cc4_sem0_0 : DmaSem sig := 60
abbrev cc4_sem0_1 : DmaSem sig := 61
abbrev cc4_sem1_0 : DmaSem sig := 62
abbrev cc4_sem2_0 : DmaSem sig := 63
abbrev cc4_sem3_0 : DmaSem sig := 64
abbrev cc4_sem4_0 : DmaSem sig := 65
abbrev cc4_sem5_0 : DmaSem sig := 66
abbrev cc4_sem6_0 : DmaSem sig := 67
abbrev cc4_sem7_0 : DmaSem sig := 68
abbrev cc4_sem8_0 : DmaSem sig := 69
abbrev cc4_sem9_0 : DmaSem sig := 70
abbrev cc4_sem10_0 : DmaSem sig := 71
abbrev cc4_sem11_0 : DmaSem sig := 72
abbrev cc4_sem12_0 : DmaSem sig := 73
abbrev cc4_sem13_0 : DmaSem sig := 74
abbrev cc4_sem13_1 : DmaSem sig := 75
abbrev cc5_sem0_0 : DmaSem sig := 76
abbrev cc5_sem1_0 : DmaSem sig := 77
abbrev cc5_sem2_0 : DmaSem sig := 78
abbrev cc5_sem3_0 : DmaSem sig := 79
abbrev cc5_sem4_0 : DmaSem sig := 80
abbrev cc5_sem5_0 : DmaSem sig := 81
abbrev cc5_sem6_0 : DmaSem sig := 82
abbrev cc5_sem7_0 : DmaSem sig := 83
abbrev cc5_sem8_0 : DmaSem sig := 84
abbrev cc5_sem9_0 : DmaSem sig := 85
abbrev cc5_sem10_0 : DmaSem sig := 86
abbrev cc5_sem11_0 : DmaSem sig := 87
abbrev cc5_sem12_0 : DmaSem sig := 88
abbrev cc5_sem13_0 : DmaSem sig := 89
abbrev cc6_sem0_0 : DmaSem sig := 90
abbrev cc6_sem0_1 : DmaSem sig := 91
abbrev cc6_sem1_0 : DmaSem sig := 92
abbrev cc6_sem2_0 : DmaSem sig := 93
abbrev cc6_sem3_0 : DmaSem sig := 94
abbrev cc6_sem4_0 : DmaSem sig := 95
abbrev cc6_sem5_0 : DmaSem sig := 96
abbrev cc6_sem6_0 : DmaSem sig := 97
abbrev cc6_sem7_0 : DmaSem sig := 98
abbrev cc6_sem8_0 : DmaSem sig := 99
abbrev cc6_sem9_0 : DmaSem sig := 100
abbrev cc6_sem10_0 : DmaSem sig := 101
abbrev cc6_sem11_0 : DmaSem sig := 102
abbrev cc6_sem12_0 : DmaSem sig := 103
abbrev cc6_sem13_0 : DmaSem sig := 104
abbrev cc6_sem13_1 : DmaSem sig := 105
abbrev cc7_sem0_0 : DmaSem sig := 106
abbrev cc7_sem1_0 : DmaSem sig := 107
abbrev cc7_sem2_0 : DmaSem sig := 108
abbrev cc7_sem3_0 : DmaSem sig := 109
abbrev cc7_sem4_0 : DmaSem sig := 110
abbrev cc7_sem5_0 : DmaSem sig := 111
abbrev cc7_sem6_0 : DmaSem sig := 112
abbrev cc7_sem7_0 : DmaSem sig := 113
abbrev cc7_sem8_0 : DmaSem sig := 114
abbrev cc7_sem9_0 : DmaSem sig := 115
abbrev cc7_sem10_0 : DmaSem sig := 116
abbrev cc7_sem11_0 : DmaSem sig := 117
abbrev cc7_sem12_0 : DmaSem sig := 118
abbrev cc7_sem13_0 : DmaSem sig := 119
abbrev cc8_sem0_0 : DmaSem sig := 120
abbrev cc8_sem0_1 : DmaSem sig := 121
abbrev cc8_sem1_0 : DmaSem sig := 122
abbrev cc8_sem2_0 : DmaSem sig := 123
abbrev cc8_sem3_0 : DmaSem sig := 124
abbrev cc8_sem4_0 : DmaSem sig := 125
abbrev cc8_sem5_0 : DmaSem sig := 126
abbrev cc8_sem6_0 : DmaSem sig := 127
abbrev cc8_sem7_0 : DmaSem sig := 128
abbrev cc8_sem8_0 : DmaSem sig := 129
abbrev cc8_sem9_0 : DmaSem sig := 130
abbrev cc8_sem10_0 : DmaSem sig := 131
abbrev cc8_sem11_0 : DmaSem sig := 132
abbrev cc8_sem12_0 : DmaSem sig := 133
abbrev cc8_sem13_0 : DmaSem sig := 134
abbrev cc8_sem13_1 : DmaSem sig := 135

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S2000x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S512x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S128x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S256x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x128 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S512x128 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S256x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x128 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S1x128 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S1x128 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 2 → Memref sig .tc .vmem S2000x128 .f32 := fun | 0 => Memref.whole cc2_stg13_0 | 1 => Memref.whole cc2_stg13_1 | ⟨_ + 2, h⟩ => absurd h (Nat.not_lt.2 (Nat.le_add_left _ _))
abbrev sem2_13 : Fin 2 → DmaSem sig := fun | 0 => cc2_sem13_0 | 1 => cc2_sem13_1 | ⟨_ + 2, h⟩ => absurd h (Nat.not_lt.2 (Nat.le_add_left _ _))
abbrev reads2_13 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_13 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 1 → Memref sig .tc .vmem S512x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true]

abbrev stage3_1 : Fin 1 → Memref sig .tc .vmem S128x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x256 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S256x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x128 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S1x128 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S1x128 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 1 → Memref sig .tc .vmem S1x128 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false]

abbrev stage3_13 : Fin 1 → Memref sig .tc .vmem S512x128 .f32 := fun | 0 => Memref.whole cc3_stg13_0 | ⟨_ + 1, h⟩ => absurd h (Nat.not_lt.2 (Nat.le_add_left _ _))
abbrev sem3_13 : Fin 1 → DmaSem sig := fun | 0 => cc3_sem13_0 | ⟨_ + 1, h⟩ => absurd h (Nat.not_lt.2 (Nat.le_add_left _ _))
abbrev reads3_13 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_10 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_11 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_12 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_13 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x256 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x256 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S256x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x128 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S1x128 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 1 → Memref sig .tc .vmem S1x128 .f32 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))
abbrev reads4_10 : Fin grid4.rank → Bool := ![false]

abbrev stage4_11 : Fin 1 → Memref sig .tc .vmem S1x128 .f32 := fun | 0 => Memref.whole cc4_stg11_0 | ⟨_ + 1, h⟩ => absurd h (Nat.not_lt.2 (Nat.le_add_left _ _))
abbrev sem4_11 : Fin 1 → DmaSem sig := fun | 0 => cc4_sem11_0 | ⟨_ + 1, h⟩ => absurd h (Nat.not_lt.2 (Nat.le_add_left _ _))
abbrev reads4_11 : Fin grid4.rank → Bool := ![false]

abbrev stage4_12 : Fin 1 → Memref sig .tc .vmem S1x128 .f32 := fun | 0 => Memref.whole cc4_stg12_0 | ⟨_ + 1, h⟩ => absurd h (Nat.not_lt.2 (Nat.le_add_left _ _))
abbrev sem4_12 : Fin 1 → DmaSem sig := fun | 0 => cc4_sem12_0 | ⟨_ + 1, h⟩ => absurd h (Nat.not_lt.2 (Nat.le_add_left _ _))
abbrev reads4_12 : Fin grid4.rank → Bool := ![false]

abbrev stage4_13 : Fin 2 → Memref sig .tc .vmem S2000x128 .f32 := fun | 0 => Memref.whole cc4_stg13_0 | 1 => Memref.whole cc4_stg13_1 | ⟨_ + 2, h⟩ => absurd h (Nat.not_lt.2 (Nat.le_add_left _ _))
abbrev sem4_13 : Fin 2 → DmaSem sig := fun | 0 => cc4_sem13_0 | 1 => cc4_sem13_1 | ⟨_ + 2, h⟩ => absurd h (Nat.not_lt.2 (Nat.le_add_left _ _))
abbrev reads4_13 : Fin grid4.rank → Bool := ![true]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_10 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_11 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_12 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_13 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 1 → Memref sig .tc .vmem S512x128 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true]

abbrev stage5_1 : Fin 1 → Memref sig .tc .vmem S128x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x256 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x256 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x256 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S256x128 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S1x128 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 1 → Memref sig .tc .vmem S1x128 .f32 := fun | 0 => Memref.whole cc5_stg9_0 | ⟨_ + 1, h⟩ => absurd h (Nat.not_lt.2 (Nat.le_add_left _ _))
abbrev sem5_9 : Fin 1 → DmaSem sig := fun | 0 => cc5_sem9_0 | ⟨_ + 1, h⟩ => absurd h (Nat.not_lt.2 (Nat.le_add_left _ _))
abbrev reads5_9 : Fin grid5.rank → Bool := ![false]

abbrev stage5_10 : Fin 1 → Memref sig .tc .vmem S1x128 .f32 := fun | 0 => Memref.whole cc5_stg10_0 | ⟨_ + 1, h⟩ => absurd h (Nat.not_lt.2 (Nat.le_add_left _ _))
abbrev sem5_10 : Fin 1 → DmaSem sig := fun | 0 => cc5_sem10_0 | ⟨_ + 1, h⟩ => absurd h (Nat.not_lt.2 (Nat.le_add_left _ _))
abbrev reads5_10 : Fin grid5.rank → Bool := ![false]

abbrev stage5_11 : Fin 1 → Memref sig .tc .vmem S1x128 .f32 := fun | 0 => Memref.whole cc5_stg11_0 | ⟨_ + 1, h⟩ => absurd h (Nat.not_lt.2 (Nat.le_add_left _ _))
abbrev sem5_11 : Fin 1 → DmaSem sig := fun | 0 => cc5_sem11_0 | ⟨_ + 1, h⟩ => absurd h (Nat.not_lt.2 (Nat.le_add_left _ _))
abbrev reads5_11 : Fin grid5.rank → Bool := ![false]

abbrev stage5_12 : Fin 1 → Memref sig .tc .vmem S1x128 .f32 := fun | 0 => Memref.whole cc5_stg12_0 | ⟨_ + 1, h⟩ => absurd h (Nat.not_lt.2 (Nat.le_add_left _ _))
abbrev sem5_12 : Fin 1 → DmaSem sig := fun | 0 => cc5_sem12_0 | ⟨_ + 1, h⟩ => absurd h (Nat.not_lt.2 (Nat.le_add_left _ _))
abbrev reads5_12 : Fin grid5.rank → Bool := ![false]

abbrev stage5_13 : Fin 1 → Memref sig .tc .vmem S512x128 .f32 := fun | 0 => Memref.whole cc5_stg13_0 | ⟨_ + 1, h⟩ => absurd h (Nat.not_lt.2 (Nat.le_add_left _ _))
abbrev sem5_13 : Fin 1 → DmaSem sig := fun | 0 => cc5_sem13_0 | ⟨_ + 1, h⟩ => absurd h (Nat.not_lt.2 (Nat.le_add_left _ _))
abbrev reads5_13 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_9 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_10 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_11 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_12 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_13 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x256 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x256 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x256 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x256 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x256 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x256 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S256x128 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 1 → Memref sig .tc .vmem S1x128 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false]

abbrev stage6_9 : Fin 1 → Memref sig .tc .vmem S1x128 .f32 := fun | 0 => Memref.whole cc6_stg9_0 | ⟨_ + 1, h⟩ => absurd h (Nat.not_lt.2 (Nat.le_add_left _ _))
abbrev sem6_9 : Fin 1 → DmaSem sig := fun | 0 => cc6_sem9_0 | ⟨_ + 1, h⟩ => absurd h (Nat.not_lt.2 (Nat.le_add_left _ _))
abbrev reads6_9 : Fin grid6.rank → Bool := ![false]

abbrev stage6_10 : Fin 1 → Memref sig .tc .vmem S1x128 .f32 := fun | 0 => Memref.whole cc6_stg10_0 | ⟨_ + 1, h⟩ => absurd h (Nat.not_lt.2 (Nat.le_add_left _ _))
abbrev sem6_10 : Fin 1 → DmaSem sig := fun | 0 => cc6_sem10_0 | ⟨_ + 1, h⟩ => absurd h (Nat.not_lt.2 (Nat.le_add_left _ _))
abbrev reads6_10 : Fin grid6.rank → Bool := ![false]

abbrev stage6_11 : Fin 1 → Memref sig .tc .vmem S1x128 .f32 := fun | 0 => Memref.whole cc6_stg11_0 | ⟨_ + 1, h⟩ => absurd h (Nat.not_lt.2 (Nat.le_add_left _ _))
abbrev sem6_11 : Fin 1 → DmaSem sig := fun | 0 => cc6_sem11_0 | ⟨_ + 1, h⟩ => absurd h (Nat.not_lt.2 (Nat.le_add_left _ _))
abbrev reads6_11 : Fin grid6.rank → Bool := ![false]

abbrev stage6_12 : Fin 1 → Memref sig .tc .vmem S1x128 .f32 := fun | 0 => Memref.whole cc6_stg12_0 | ⟨_ + 1, h⟩ => absurd h (Nat.not_lt.2 (Nat.le_add_left _ _))
abbrev sem6_12 : Fin 1 → DmaSem sig := fun | 0 => cc6_sem12_0 | ⟨_ + 1, h⟩ => absurd h (Nat.not_lt.2 (Nat.le_add_left _ _))
abbrev reads6_12 : Fin grid6.rank → Bool := ![false]

abbrev stage6_13 : Fin 2 → Memref sig .tc .vmem S2000x128 .f32 := fun | 0 => Memref.whole cc6_stg13_0 | 1 => Memref.whole cc6_stg13_1 | ⟨_ + 2, h⟩ => absurd h (Nat.not_lt.2 (Nat.le_add_left _ _))
abbrev sem6_13 : Fin 2 → DmaSem sig := fun | 0 => cc6_sem13_0 | 1 => cc6_sem13_1 | ⟨_ + 2, h⟩ => absurd h (Nat.not_lt.2 (Nat.le_add_left _ _))
abbrev reads6_13 : Fin grid6.rank → Bool := ![true]

abbrev grid7 : Pipeline.Grid := ⟨1, ![1], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_8 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_9 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_10 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_11 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_12 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_13 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 1 → Memref sig .tc .vmem S512x128 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![true]

abbrev stage7_1 : Fin 1 → Memref sig .tc .vmem S128x256 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x256 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x256 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x256 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x256 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x256 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 1 → Memref sig .tc .vmem S256x128 .f32 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
abbrev reads7_7 : Fin grid7.rank → Bool := ![false]

abbrev stage7_8 : Fin 1 → Memref sig .tc .vmem S1x128 .f32 := fun | 0 => Memref.whole cc7_stg8_0 | ⟨_ + 1, h⟩ => absurd h (Nat.not_lt.2 (Nat.le_add_left _ _))
abbrev sem7_8 : Fin 1 → DmaSem sig := fun | 0 => cc7_sem8_0 | ⟨_ + 1, h⟩ => absurd h (Nat.not_lt.2 (Nat.le_add_left _ _))
abbrev reads7_8 : Fin grid7.rank → Bool := ![false]

abbrev stage7_9 : Fin 1 → Memref sig .tc .vmem S1x128 .f32 := fun | 0 => Memref.whole cc7_stg9_0 | ⟨_ + 1, h⟩ => absurd h (Nat.not_lt.2 (Nat.le_add_left _ _))
abbrev sem7_9 : Fin 1 → DmaSem sig := fun | 0 => cc7_sem9_0 | ⟨_ + 1, h⟩ => absurd h (Nat.not_lt.2 (Nat.le_add_left _ _))
abbrev reads7_9 : Fin grid7.rank → Bool := ![false]

abbrev stage7_10 : Fin 1 → Memref sig .tc .vmem S1x128 .f32 := fun | 0 => Memref.whole cc7_stg10_0 | ⟨_ + 1, h⟩ => absurd h (Nat.not_lt.2 (Nat.le_add_left _ _))
abbrev sem7_10 : Fin 1 → DmaSem sig := fun | 0 => cc7_sem10_0 | ⟨_ + 1, h⟩ => absurd h (Nat.not_lt.2 (Nat.le_add_left _ _))
abbrev reads7_10 : Fin grid7.rank → Bool := ![false]

abbrev stage7_11 : Fin 1 → Memref sig .tc .vmem S1x128 .f32 := fun | 0 => Memref.whole cc7_stg11_0 | ⟨_ + 1, h⟩ => absurd h (Nat.not_lt.2 (Nat.le_add_left _ _))
abbrev sem7_11 : Fin 1 → DmaSem sig := fun | 0 => cc7_sem11_0 | ⟨_ + 1, h⟩ => absurd h (Nat.not_lt.2 (Nat.le_add_left _ _))
abbrev reads7_11 : Fin grid7.rank → Bool := ![false]

abbrev stage7_12 : Fin 1 → Memref sig .tc .vmem S1x128 .f32 := fun | 0 => Memref.whole cc7_stg12_0 | ⟨_ + 1, h⟩ => absurd h (Nat.not_lt.2 (Nat.le_add_left _ _))
abbrev sem7_12 : Fin 1 → DmaSem sig := fun | 0 => cc7_sem12_0 | ⟨_ + 1, h⟩ => absurd h (Nat.not_lt.2 (Nat.le_add_left _ _))
abbrev reads7_12 : Fin grid7.rank → Bool := ![false]

abbrev stage7_13 : Fin 1 → Memref sig .tc .vmem S512x128 .f32 := fun | 0 => Memref.whole cc7_stg13_0 | ⟨_ + 1, h⟩ => absurd h (Nat.not_lt.2 (Nat.le_add_left _ _))
abbrev sem7_13 : Fin 1 → DmaSem sig := fun | 0 => cc7_sem13_0 | ⟨_ + 1, h⟩ => absurd h (Nat.not_lt.2 (Nat.le_add_left _ _))
abbrev reads7_13 : Fin grid7.rank → Bool := ![true]

abbrev grid8 : Pipeline.Grid := ⟨1, ![50], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_7 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_8 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_9 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_10 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_11 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_12 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_13 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S128x256 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x256 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x256 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x256 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S1x256 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 1 → Memref sig .tc .vmem S1x256 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev stage8_7 : Fin 1 → Memref sig .tc .vmem S256x128 .f32 := fun | 0 => Memref.whole cc8_stg7_0 | ⟨_ + 1, h⟩ => absurd h (Nat.not_lt.2 (Nat.le_add_left _ _))
abbrev sem8_7 : Fin 1 → DmaSem sig := fun | 0 => cc8_sem7_0 | ⟨_ + 1, h⟩ => absurd h (Nat.not_lt.2 (Nat.le_add_left _ _))
abbrev reads8_7 : Fin grid8.rank → Bool := ![false]

abbrev stage8_8 : Fin 1 → Memref sig .tc .vmem S1x128 .f32 := fun | 0 => Memref.whole cc8_stg8_0 | ⟨_ + 1, h⟩ => absurd h (Nat.not_lt.2 (Nat.le_add_left _ _))
abbrev sem8_8 : Fin 1 → DmaSem sig := fun | 0 => cc8_sem8_0 | ⟨_ + 1, h⟩ => absurd h (Nat.not_lt.2 (Nat.le_add_left _ _))
abbrev reads8_8 : Fin grid8.rank → Bool := ![false]

abbrev stage8_9 : Fin 1 → Memref sig .tc .vmem S1x128 .f32 := fun | 0 => Memref.whole cc8_stg9_0 | ⟨_ + 1, h⟩ => absurd h (Nat.not_lt.2 (Nat.le_add_left _ _))
abbrev sem8_9 : Fin 1 → DmaSem sig := fun | 0 => cc8_sem9_0 | ⟨_ + 1, h⟩ => absurd h (Nat.not_lt.2 (Nat.le_add_left _ _))
abbrev reads8_9 : Fin grid8.rank → Bool := ![false]

abbrev stage8_10 : Fin 1 → Memref sig .tc .vmem S1x128 .f32 := fun | 0 => Memref.whole cc8_stg10_0 | ⟨_ + 1, h⟩ => absurd h (Nat.not_lt.2 (Nat.le_add_left _ _))
abbrev sem8_10 : Fin 1 → DmaSem sig := fun | 0 => cc8_sem10_0 | ⟨_ + 1, h⟩ => absurd h (Nat.not_lt.2 (Nat.le_add_left _ _))
abbrev reads8_10 : Fin grid8.rank → Bool := ![false]

abbrev stage8_11 : Fin 1 → Memref sig .tc .vmem S1x128 .f32 := fun | 0 => Memref.whole cc8_stg11_0 | ⟨_ + 1, h⟩ => absurd h (Nat.not_lt.2 (Nat.le_add_left _ _))
abbrev sem8_11 : Fin 1 → DmaSem sig := fun | 0 => cc8_sem11_0 | ⟨_ + 1, h⟩ => absurd h (Nat.not_lt.2 (Nat.le_add_left _ _))
abbrev reads8_11 : Fin grid8.rank → Bool := ![false]

abbrev stage8_12 : Fin 1 → Memref sig .tc .vmem S1x128 .f32 := fun | 0 => Memref.whole cc8_stg12_0 | ⟨_ + 1, h⟩ => absurd h (Nat.not_lt.2 (Nat.le_add_left _ _))
abbrev sem8_12 : Fin 1 → DmaSem sig := fun | 0 => cc8_sem12_0 | ⟨_ + 1, h⟩ => absurd h (Nat.not_lt.2 (Nat.le_add_left _ _))
abbrev reads8_12 : Fin grid8.rank → Bool := ![false]

abbrev stage8_13 : Fin 2 → Memref sig .tc .vmem S2000x128 .f32 := fun | 0 => Memref.whole cc8_stg13_0 | 1 => Memref.whole cc8_stg13_1 | ⟨_ + 2, h⟩ => absurd h (Nat.not_lt.2 (Nat.le_add_left _ _))
abbrev sem8_13 : Fin 2 → DmaSem sig := fun | 0 => cc8_sem13_0 | 1 => cc8_sem13_1 | ⟨_ + 2, h⟩ => absurd h (Nat.not_lt.2 (Nat.le_add_left _ _))
abbrev reads8_13 : Fin grid8.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  shapeCasts_S1x128_S128 : S1x128.ShapeCasts S128
  bcast_S128_S512x128_1 : S128.BroadcastsInDim S512x128 (![1] : Fin 1 → Fin S512x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S_S600000 : S_.BroadcastsInDim S600000 (![] : Fin 0 → Fin S600000.rank)
  bcast_S600000_S600000x1_0 : S600000.BroadcastsInDim S600000x1 (![0] : Fin 1 → Fin S600000x1.rank)
  slices_S5_S1_0 : S5.Slices ![0] S1
  shapeCasts_S1_S_ : S1.ShapeCasts S_
  slices_S5x128x256_S1x128x256_0_0_0 : S5x128x256.Slices ![0, 0, 0] S1x128x256
  shapeCasts_S1x128x256_S128x256 : S1x128x256.ShapeCasts S128x256
  slices_S5x256_S1x256_0_0 : S5x256.Slices ![0, 0] S1x256
  shapeCasts_S1x256_S256 : S1x256.ShapeCasts S256
  slices_S5x256x128_S1x256x128_0_0_0 : S5x256x128.Slices ![0, 0, 0] S1x256x128
  shapeCasts_S1x256x128_S256x128 : S1x256x128.ShapeCasts S256x128
  slices_S5x128_S1x128_0_0 : S5x128.Slices ![0, 0] S1x128
  shapeCasts_S256_S1x256 : S256.ShapeCasts S1x256
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  bitsLt_bf16_f32 : FTy.bits .bf16 < FTy.bits .f32
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  bcast_S_S512x128 : S_.BroadcastsInDim S512x128 (![] : Fin 0 → Fin S512x128.rank)
  slices_S4x128x256_S1x128x256_0_0_0 : S4x128x256.Slices ![0, 0, 0] S1x128x256
  slices_S4x256_S1x256_0_0 : S4x256.Slices ![0, 0] S1x256
  slices_S4x256x128_S1x256x128_0_0_0 : S4x256x128.Slices ![0, 0, 0] S1x256x128
  slices_S4x128_S1x128_0_0 : S4x128.Slices ![0, 0] S1x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  broadcasts_S1x256_S512x256 : S1x256.Broadcasts S512x256
  broadcasts_S1x128_S512x128 : S1x128.Broadcasts S512x128
  slices_S5_S1_1 : S5.Slices ![1] S1
  slices_S5x128x256_S1x128x256_1_0_0 : S5x128x256.Slices ![1, 0, 0] S1x128x256
  slices_S5x256_S1x256_1_0 : S5x256.Slices ![1, 0] S1x256
  slices_S5x256x128_S1x256x128_1_0_0 : S5x256x128.Slices ![1, 0, 0] S1x256x128
  slices_S5x128_S1x128_1_0 : S5x128.Slices ![1, 0] S1x128
  slices_S4x128x256_S1x128x256_1_0_0 : S4x128x256.Slices ![1, 0, 0] S1x128x256
  slices_S4x256_S1x256_1_0 : S4x256.Slices ![1, 0] S1x256
  slices_S4x256x128_S1x256x128_1_0_0 : S4x256x128.Slices ![1, 0, 0] S1x256x128
  slices_S4x128_S1x128_1_0 : S4x128.Slices ![1, 0] S1x128
  slices_S5_S1_2 : S5.Slices ![2] S1
  slices_S5x128x256_S1x128x256_2_0_0 : S5x128x256.Slices ![2, 0, 0] S1x128x256
  slices_S5x256_S1x256_2_0 : S5x256.Slices ![2, 0] S1x256
  slices_S5x256x128_S1x256x128_2_0_0 : S5x256x128.Slices ![2, 0, 0] S1x256x128
  slices_S5x128_S1x128_2_0 : S5x128.Slices ![2, 0] S1x128
  slices_S4x128x256_S1x128x256_2_0_0 : S4x128x256.Slices ![2, 0, 0] S1x128x256
  slices_S4x256_S1x256_2_0 : S4x256.Slices ![2, 0] S1x256
  slices_S4x256x128_S1x256x128_2_0_0 : S4x256x128.Slices ![2, 0, 0] S1x256x128
  slices_S4x128_S1x128_2_0 : S4x128.Slices ![2, 0] S1x128
  slices_S5_S1_3 : S5.Slices ![3] S1
  slices_S5x128x256_S1x128x256_3_0_0 : S5x128x256.Slices ![3, 0, 0] S1x128x256
  slices_S5x256_S1x256_3_0 : S5x256.Slices ![3, 0] S1x256
  slices_S5x256x128_S1x256x128_3_0_0 : S5x256x128.Slices ![3, 0, 0] S1x256x128
  slices_S5x128_S1x128_3_0 : S5x128.Slices ![3, 0] S1x128
  slices_S4x128x256_S1x128x256_3_0_0 : S4x128x256.Slices ![3, 0, 0] S1x128x256
  slices_S4x256_S1x256_3_0 : S4x256.Slices ![3, 0] S1x256
  slices_S4x256x128_S1x256x128_3_0_0 : S4x256x128.Slices ![3, 0, 0] S1x256x128
  slices_S4x128_S1x128_3_0 : S4x128.Slices ![3, 0] S1x128
  slices_S5_S1_4 : S5.Slices ![4] S1
  slices_S5x128x256_S1x128x256_4_0_0 : S5x128x256.Slices ![4, 0, 0] S1x128x256
  slices_S5x256_S1x256_4_0 : S5x256.Slices ![4, 0] S1x256
  slices_S5x256x128_S1x256x128_4_0_0 : S5x256x128.Slices ![4, 0, 0] S1x256x128
  slices_S5x128_S1x128_4_0 : S5x128.Slices ![4, 0] S1x128
  gather_S8x128_S100000x1_S100000x128_1_0_n_n_0_1_1128_wf : GatherDims.WF S8x128 S100000x1 S100000x128 [1] [0] [] [0] [] 1 ![1, 128]
  gather_S512x128_S100000x1_S100000x128_1_0_n_n_0_1_1128_wf : GatherDims.WF S512x128 S100000x1 S100000x128 [1] [0] [] [0] [] 1 ![1, 128]
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S2000x128_S128x256_S2000x256_1_0_0_1_n_n_wf : DotDims.WF S2000x128 S128x256 S2000x256 [1] [0] [0] [1] [] []
  dot_S2000x256_S256x128_S2000x128_1_0_0_1_n_n_wf : DotDims.WF S2000x256 S256x128 S2000x128 [1] [0] [0] [1] [] []
  scatter_S512x128_S100000x1_S100000x128_1_0_0_1_wf : ScatterDims.WF S512x128 S100000x1 S100000x128 [1] [0] [0] 1
  dot_S512x128_S128x256_S512x256_1_0_0_1_n_n_wf : DotDims.WF S512x128 S128x256 S512x256 [1] [0] [0] [1] [] []
  dot_S512x256_S256x128_S512x128_1_0_0_1_n_n_wf : DotDims.WF S512x256 S256x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x128.size a ≤ S256x128.size a
  hwx0_7 : ∀ i : grid0.Coords, EltTy.bits .f32 = 32 ∨ (Rect.block (s := S256x128) S256x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x128.size a ≤ S1x128.size a
  hwx0_11 : ∀ i : grid0.Coords, EltTy.bits .f32 = 32 ∨ (Rect.block (s := S1x128) S1x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x128.size a ≤ S1x128.size a
  hwx0_12 : ∀ i : grid0.Coords, EltTy.bits .f32 = 32 ∨ (Rect.block (s := S1x128) S1x128.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S2000x128.size a ≤ S100000x128.size a
  hwx0_13 : ∀ i : grid0.Coords, EltTy.bits .f32 = 32 ∨ (Rect.block (s := S100000x128) S2000x128.size (cc0_transform_13 i) (hinb0_13 i)).WholeWords (EltTy.packing .f32)
  hrank1 : 0 < grid1.rank
  hstage1_0 : ∀ j, (stage1_0 j).IsWhole
  nbuf1_0 : grid1.bufCount reads1_0 false = 1
  hreads1_0 : ∀ i i' : grid1.Coords, (∀ a, reads1_0 a = true → i a = i' a) → cc1_transform_0 i = cc1_transform_0 i'
  hinb1_0 : ∀ (i : grid1.Coords) a, (cc1_transform_0 i a + 1) * S512x128.size a ≤ S512x128.size a
  hwx1_0 : ∀ i : grid1.Coords, EltTy.bits .f32 = 32 ∨ (Rect.block (s := S512x128) S512x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x256.size a ≤ S128x256.size a
  hwx1_1 : ∀ i : grid1.Coords, EltTy.bits .f32 = 32 ∨ (Rect.block (s := S128x256) S128x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S256x128.size a ≤ S256x128.size a
  hwx1_7 : ∀ i : grid1.Coords, EltTy.bits .f32 = 32 ∨ (Rect.block (s := S256x128) S256x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x128.size a ≤ S1x128.size a
  hwx1_10 : ∀ i : grid1.Coords, EltTy.bits .f32 = 32 ∨ (Rect.block (s := S1x128) S1x128.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x128.size a ≤ S1x128.size a
  hwx1_11 : ∀ i : grid1.Coords, EltTy.bits .f32 = 32 ∨ (Rect.block (s := S1x128) S1x128.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1x128.size a ≤ S1x128.size a
  hwx1_12 : ∀ i : grid1.Coords, EltTy.bits .f32 = 32 ∨ (Rect.block (s := S1x128) S1x128.size (cc1_transform_12 i) (hinb1_12 i)).WholeWords (EltTy.packing .f32)
  hstage1_13 : ∀ j, (stage1_13 j).IsWhole
  nbuf1_13 : grid1.bufCount reads1_13 false = 1
  hreads1_13 : ∀ i i' : grid1.Coords, (∀ a, reads1_13 a = true → i a = i' a) → cc1_transform_13 i = cc1_transform_13 i'
  hinb1_13 : ∀ (i : grid1.Coords) a, (cc1_transform_13 i a + 1) * S512x128.size a ≤ S512x128.size a
  hwx1_13 : ∀ i : grid1.Coords, EltTy.bits .f32 = 32 ∨ (Rect.block (s := S512x128) S512x128.size (cc1_transform_13 i) (hinb1_13 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x256.size a ≤ S128x256.size a
  hwx2_1 : ∀ i : grid2.Coords, EltTy.bits .f32 = 32 ∨ (Rect.block (s := S128x256) S128x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x256.size a ≤ S1x256.size a
  hwx2_5 : ∀ i : grid2.Coords, EltTy.bits .f32 = 32 ∨ (Rect.block (s := S1x256) S1x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x256.size a ≤ S1x256.size a
  hwx2_6 : ∀ i : grid2.Coords, EltTy.bits .f32 = 32 ∨ (Rect.block (s := S1x256) S1x256.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S256x128.size a ≤ S256x128.size a
  hwx2_7 : ∀ i : grid2.Coords, EltTy.bits .f32 = 32 ∨ (Rect.block (s := S256x128) S256x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x128.size a ≤ S1x128.size a
  hwx2_9 : ∀ i : grid2.Coords, EltTy.bits .f32 = 32 ∨ (Rect.block (s := S1x128) S1x128.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x128.size a ≤ S1x128.size a
  hwx2_10 : ∀ i : grid2.Coords, EltTy.bits .f32 = 32 ∨ (Rect.block (s := S1x128) S1x128.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S1x128.size a ≤ S1x128.size a
  hwx2_11 : ∀ i : grid2.Coords, EltTy.bits .f32 = 32 ∨ (Rect.block (s := S1x128) S1x128.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S1x128.size a ≤ S1x128.size a
  hwx2_12 : ∀ i : grid2.Coords, EltTy.bits .f32 = 32 ∨ (Rect.block (s := S1x128) S1x128.size (cc2_transform_12 i) (hinb2_12 i)).WholeWords (EltTy.packing .f32)
  hstage2_13 : ∀ j, (stage2_13 j).IsWhole
  nbuf2_13 : grid2.bufCount reads2_13 false = 2
  hreads2_13 : ∀ i i' : grid2.Coords, (∀ a, reads2_13 a = true → i a = i' a) → cc2_transform_13 i = cc2_transform_13 i'
  hinb2_13 : ∀ (i : grid2.Coords) a, (cc2_transform_13 i a + 1) * S2000x128.size a ≤ S100000x128.size a
  hwx2_13 : ∀ i : grid2.Coords, EltTy.bits .f32 = 32 ∨ (Rect.block (s := S100000x128) S2000x128.size (cc2_transform_13 i) (hinb2_13 i)).WholeWords (EltTy.packing .f32)
  hrank3 : 0 < grid3.rank
  hstage3_0 : ∀ j, (stage3_0 j).IsWhole
  nbuf3_0 : grid3.bufCount reads3_0 false = 1
  hreads3_0 : ∀ i i' : grid3.Coords, (∀ a, reads3_0 a = true → i a = i' a) → cc3_transform_0 i = cc3_transform_0 i'
  hinb3_0 : ∀ (i : grid3.Coords) a, (cc3_transform_0 i a + 1) * S512x128.size a ≤ S512x128.size a
  hwx3_0 : ∀ i : grid3.Coords, EltTy.bits .f32 = 32 ∨ (Rect.block (s := S512x128) S512x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x256.size a ≤ S128x256.size a
  hwx3_1 : ∀ i : grid3.Coords, EltTy.bits .f32 = 32 ∨ (Rect.block (s := S128x256) S128x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x256.size a ≤ S1x256.size a
  hwx3_5 : ∀ i : grid3.Coords, EltTy.bits .f32 = 32 ∨ (Rect.block (s := S1x256) S1x256.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x256.size a ≤ S1x256.size a
  hwx3_6 : ∀ i : grid3.Coords, EltTy.bits .f32 = 32 ∨ (Rect.block (s := S1x256) S1x256.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S256x128.size a ≤ S256x128.size a
  hwx3_7 : ∀ i : grid3.Coords, EltTy.bits .f32 = 32 ∨ (Rect.block (s := S256x128) S256x128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x128.size a ≤ S1x128.size a
  hwx3_8 : ∀ i : grid3.Coords, EltTy.bits .f32 = 32 ∨ (Rect.block (s := S1x128) S1x128.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S1x128.size a ≤ S1x128.size a
  hwx3_9 : ∀ i : grid3.Coords, EltTy.bits .f32 = 32 ∨ (Rect.block (s := S1x128) S1x128.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S1x128.size a ≤ S1x128.size a
  hwx3_10 : ∀ i : grid3.Coords, EltTy.bits .f32 = 32 ∨ (Rect.block (s := S1x128) S1x128.size (cc3_transform_10 i) (hinb3_10 i)).WholeWords (EltTy.packing .f32)
  hstage3_11 : ∀ j, (stage3_11 j).IsWhole
  nbuf3_11 : grid3.bufCount reads3_11 true = 1
  hreads3_11 : ∀ i i' : grid3.Coords, (∀ a, reads3_11 a = true → i a = i' a) → cc3_transform_11 i = cc3_transform_11 i'
  hinb3_11 : ∀ (i : grid3.Coords) a, (cc3_transform_11 i a + 1) * S1x128.size a ≤ S1x128.size a
  hwx3_11 : ∀ i : grid3.Coords, EltTy.bits .f32 = 32 ∨ (Rect.block (s := S1x128) S1x128.size (cc3_transform_11 i) (hinb3_11 i)).WholeWords (EltTy.packing .f32)
  hstage3_12 : ∀ j, (stage3_12 j).IsWhole
  nbuf3_12 : grid3.bufCount reads3_12 true = 1
  hreads3_12 : ∀ i i' : grid3.Coords, (∀ a, reads3_12 a = true → i a = i' a) → cc3_transform_12 i = cc3_transform_12 i'
  hinb3_12 : ∀ (i : grid3.Coords) a, (cc3_transform_12 i a + 1) * S1x128.size a ≤ S1x128.size a
  hwx3_12 : ∀ i : grid3.Coords, EltTy.bits .f32 = 32 ∨ (Rect.block (s := S1x128) S1x128.size (cc3_transform_12 i) (hinb3_12 i)).WholeWords (EltTy.packing .f32)
  hstage3_13 : ∀ j, (stage3_13 j).IsWhole
  nbuf3_13 : grid3.bufCount reads3_13 false = 1
  hreads3_13 : ∀ i i' : grid3.Coords, (∀ a, reads3_13 a = true → i a = i' a) → cc3_transform_13 i = cc3_transform_13 i'
  hinb3_13 : ∀ (i : grid3.Coords) a, (cc3_transform_13 i a + 1) * S512x128.size a ≤ S512x128.size a
  hwx3_13 : ∀ i : grid3.Coords, EltTy.bits .f32 = 32 ∨ (Rect.block (s := S512x128) S512x128.size (cc3_transform_13 i) (hinb3_13 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S100000x128.size a
  hwx4_0 : ∀ i : grid4.Coords, EltTy.bits .f32 = 32 ∨ (Rect.block (s := S100000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x256.size a ≤ S128x256.size a
  hwx4_1 : ∀ i : grid4.Coords, EltTy.bits .f32 = 32 ∨ (Rect.block (s := S128x256) S128x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x256.size a ≤ S1x256.size a
  hwx4_3 : ∀ i : grid4.Coords, EltTy.bits .f32 = 32 ∨ (Rect.block (s := S1x256) S1x256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x256.size a ≤ S1x256.size a
  hwx4_4 : ∀ i : grid4.Coords, EltTy.bits .f32 = 32 ∨ (Rect.block (s := S1x256) S1x256.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x256.size a ≤ S1x256.size a
  hwx4_5 : ∀ i : grid4.Coords, EltTy.bits .f32 = 32 ∨ (Rect.block (s := S1x256) S1x256.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x256.size a ≤ S1x256.size a
  hwx4_6 : ∀ i : grid4.Coords, EltTy.bits .f32 = 32 ∨ (Rect.block (s := S1x256) S1x256.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S256x128.size a ≤ S256x128.size a
  hwx4_7 : ∀ i : grid4.Coords, EltTy.bits .f32 = 32 ∨ (Rect.block (s := S256x128) S256x128.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x128.size a ≤ S1x128.size a
  hwx4_8 : ∀ i : grid4.Coords, EltTy.bits .f32 = 32 ∨ (Rect.block (s := S1x128) S1x128.size (cc4_transform_8 i) (hinb4_8 i)).WholeWords (EltTy.packing .f32)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S1x128.size a ≤ S1x128.size a
  hwx4_9 : ∀ i : grid4.Coords, EltTy.bits .f32 = 32 ∨ (Rect.block (s := S1x128) S1x128.size (cc4_transform_9 i) (hinb4_9 i)).WholeWords (EltTy.packing .f32)
  hstage4_10 : ∀ j, (stage4_10 j).IsWhole
  nbuf4_10 : grid4.bufCount reads4_10 true = 1
  hreads4_10 : ∀ i i' : grid4.Coords, (∀ a, reads4_10 a = true → i a = i' a) → cc4_transform_10 i = cc4_transform_10 i'
  hinb4_10 : ∀ (i : grid4.Coords) a, (cc4_transform_10 i a + 1) * S1x128.size a ≤ S1x128.size a
  hwx4_10 : ∀ i : grid4.Coords, EltTy.bits .f32 = 32 ∨ (Rect.block (s := S1x128) S1x128.size (cc4_transform_10 i) (hinb4_10 i)).WholeWords (EltTy.packing .f32)
  hstage4_11 : ∀ j, (stage4_11 j).IsWhole
  nbuf4_11 : grid4.bufCount reads4_11 true = 1
  hreads4_11 : ∀ i i' : grid4.Coords, (∀ a, reads4_11 a = true → i a = i' a) → cc4_transform_11 i = cc4_transform_11 i'
  hinb4_11 : ∀ (i : grid4.Coords) a, (cc4_transform_11 i a + 1) * S1x128.size a ≤ S1x128.size a
  hwx4_11 : ∀ i : grid4.Coords, EltTy.bits .f32 = 32 ∨ (Rect.block (s := S1x128) S1x128.size (cc4_transform_11 i) (hinb4_11 i)).WholeWords (EltTy.packing .f32)
  hstage4_12 : ∀ j, (stage4_12 j).IsWhole
  nbuf4_12 : grid4.bufCount reads4_12 true = 1
  hreads4_12 : ∀ i i' : grid4.Coords, (∀ a, reads4_12 a = true → i a = i' a) → cc4_transform_12 i = cc4_transform_12 i'
  hinb4_12 : ∀ (i : grid4.Coords) a, (cc4_transform_12 i a + 1) * S1x128.size a ≤ S1x128.size a
  hwx4_12 : ∀ i : grid4.Coords, EltTy.bits .f32 = 32 ∨ (Rect.block (s := S1x128) S1x128.size (cc4_transform_12 i) (hinb4_12 i)).WholeWords (EltTy.packing .f32)
  hstage4_13 : ∀ j, (stage4_13 j).IsWhole
  nbuf4_13 : grid4.bufCount reads4_13 false = 2
  hreads4_13 : ∀ i i' : grid4.Coords, (∀ a, reads4_13 a = true → i a = i' a) → cc4_transform_13 i = cc4_transform_13 i'
  hinb4_13 : ∀ (i : grid4.Coords) a, (cc4_transform_13 i a + 1) * S2000x128.size a ≤ S100000x128.size a
  hwx4_13 : ∀ i : grid4.Coords, EltTy.bits .f32 = 32 ∨ (Rect.block (s := S100000x128) S2000x128.size (cc4_transform_13 i) (hinb4_13 i)).WholeWords (EltTy.packing .f32)
  hrank5 : 0 < grid5.rank
  hstage5_0 : ∀ j, (stage5_0 j).IsWhole
  nbuf5_0 : grid5.bufCount reads5_0 false = 1
  hreads5_0 : ∀ i i' : grid5.Coords, (∀ a, reads5_0 a = true → i a = i' a) → cc5_transform_0 i = cc5_transform_0 i'
  hinb5_0 : ∀ (i : grid5.Coords) a, (cc5_transform_0 i a + 1) * S512x128.size a ≤ S512x128.size a
  hwx5_0 : ∀ i : grid5.Coords, EltTy.bits .f32 = 32 ∨ (Rect.block (s := S512x128) S512x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x256.size a ≤ S128x256.size a
  hwx5_1 : ∀ i : grid5.Coords, EltTy.bits .f32 = 32 ∨ (Rect.block (s := S128x256) S128x256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x256.size a ≤ S1x256.size a
  hwx5_2 : ∀ i : grid5.Coords, EltTy.bits .f32 = 32 ∨ (Rect.block (s := S1x256) S1x256.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x256.size a ≤ S1x256.size a
  hwx5_3 : ∀ i : grid5.Coords, EltTy.bits .f32 = 32 ∨ (Rect.block (s := S1x256) S1x256.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x256.size a ≤ S1x256.size a
  hwx5_4 : ∀ i : grid5.Coords, EltTy.bits .f32 = 32 ∨ (Rect.block (s := S1x256) S1x256.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x256.size a ≤ S1x256.size a
  hwx5_5 : ∀ i : grid5.Coords, EltTy.bits .f32 = 32 ∨ (Rect.block (s := S1x256) S1x256.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x256.size a ≤ S1x256.size a
  hwx5_6 : ∀ i : grid5.Coords, EltTy.bits .f32 = 32 ∨ (Rect.block (s := S1x256) S1x256.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S256x128.size a ≤ S256x128.size a
  hwx5_7 : ∀ i : grid5.Coords, EltTy.bits .f32 = 32 ∨ (Rect.block (s := S256x128) S256x128.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S1x128.size a ≤ S1x128.size a
  hwx5_8 : ∀ i : grid5.Coords, EltTy.bits .f32 = 32 ∨ (Rect.block (s := S1x128) S1x128.size (cc5_transform_8 i) (hinb5_8 i)).WholeWords (EltTy.packing .f32)
  hstage5_9 : ∀ j, (stage5_9 j).IsWhole
  nbuf5_9 : grid5.bufCount reads5_9 true = 1
  hreads5_9 : ∀ i i' : grid5.Coords, (∀ a, reads5_9 a = true → i a = i' a) → cc5_transform_9 i = cc5_transform_9 i'
  hinb5_9 : ∀ (i : grid5.Coords) a, (cc5_transform_9 i a + 1) * S1x128.size a ≤ S1x128.size a
  hwx5_9 : ∀ i : grid5.Coords, EltTy.bits .f32 = 32 ∨ (Rect.block (s := S1x128) S1x128.size (cc5_transform_9 i) (hinb5_9 i)).WholeWords (EltTy.packing .f32)
  hstage5_10 : ∀ j, (stage5_10 j).IsWhole
  nbuf5_10 : grid5.bufCount reads5_10 true = 1
  hreads5_10 : ∀ i i' : grid5.Coords, (∀ a, reads5_10 a = true → i a = i' a) → cc5_transform_10 i = cc5_transform_10 i'
  hinb5_10 : ∀ (i : grid5.Coords) a, (cc5_transform_10 i a + 1) * S1x128.size a ≤ S1x128.size a
  hwx5_10 : ∀ i : grid5.Coords, EltTy.bits .f32 = 32 ∨ (Rect.block (s := S1x128) S1x128.size (cc5_transform_10 i) (hinb5_10 i)).WholeWords (EltTy.packing .f32)
  hstage5_11 : ∀ j, (stage5_11 j).IsWhole
  nbuf5_11 : grid5.bufCount reads5_11 true = 1
  hreads5_11 : ∀ i i' : grid5.Coords, (∀ a, reads5_11 a = true → i a = i' a) → cc5_transform_11 i = cc5_transform_11 i'
  hinb5_11 : ∀ (i : grid5.Coords) a, (cc5_transform_11 i a + 1) * S1x128.size a ≤ S1x128.size a
  hwx5_11 : ∀ i : grid5.Coords, EltTy.bits .f32 = 32 ∨ (Rect.block (s := S1x128) S1x128.size (cc5_transform_11 i) (hinb5_11 i)).WholeWords (EltTy.packing .f32)
  hstage5_12 : ∀ j, (stage5_12 j).IsWhole
  nbuf5_12 : grid5.bufCount reads5_12 true = 1
  hreads5_12 : ∀ i i' : grid5.Coords, (∀ a, reads5_12 a = true → i a = i' a) → cc5_transform_12 i = cc5_transform_12 i'
  hinb5_12 : ∀ (i : grid5.Coords) a, (cc5_transform_12 i a + 1) * S1x128.size a ≤ S1x128.size a
  hwx5_12 : ∀ i : grid5.Coords, EltTy.bits .f32 = 32 ∨ (Rect.block (s := S1x128) S1x128.size (cc5_transform_12 i) (hinb5_12 i)).WholeWords (EltTy.packing .f32)
  hstage5_13 : ∀ j, (stage5_13 j).IsWhole
  nbuf5_13 : grid5.bufCount reads5_13 false = 1
  hreads5_13 : ∀ i i' : grid5.Coords, (∀ a, reads5_13 a = true → i a = i' a) → cc5_transform_13 i = cc5_transform_13 i'
  hinb5_13 : ∀ (i : grid5.Coords) a, (cc5_transform_13 i a + 1) * S512x128.size a ≤ S512x128.size a
  hwx5_13 : ∀ i : grid5.Coords, EltTy.bits .f32 = 32 ∨ (Rect.block (s := S512x128) S512x128.size (cc5_transform_13 i) (hinb5_13 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S100000x128.size a
  hwx6_0 : ∀ i : grid6.Coords, EltTy.bits .f32 = 32 ∨ (Rect.block (s := S100000x128) S2000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x256.size a ≤ S128x256.size a
  hwx6_1 : ∀ i : grid6.Coords, EltTy.bits .f32 = 32 ∨ (Rect.block (s := S128x256) S128x256.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x256.size a ≤ S1x256.size a
  hwx6_2 : ∀ i : grid6.Coords, EltTy.bits .f32 = 32 ∨ (Rect.block (s := S1x256) S1x256.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x256.size a ≤ S1x256.size a
  hwx6_3 : ∀ i : grid6.Coords, EltTy.bits .f32 = 32 ∨ (Rect.block (s := S1x256) S1x256.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x256.size a ≤ S1x256.size a
  hwx6_4 : ∀ i : grid6.Coords, EltTy.bits .f32 = 32 ∨ (Rect.block (s := S1x256) S1x256.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x256.size a ≤ S1x256.size a
  hwx6_5 : ∀ i : grid6.Coords, EltTy.bits .f32 = 32 ∨ (Rect.block (s := S1x256) S1x256.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x256.size a ≤ S1x256.size a
  hwx6_6 : ∀ i : grid6.Coords, EltTy.bits .f32 = 32 ∨ (Rect.block (s := S1x256) S1x256.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S256x128.size a ≤ S256x128.size a
  hwx6_7 : ∀ i : grid6.Coords, EltTy.bits .f32 = 32 ∨ (Rect.block (s := S256x128) S256x128.size (cc6_transform_7 i) (hinb6_7 i)).WholeWords (EltTy.packing .f32)
  hstage6_8 : ∀ j, (stage6_8 j).IsWhole
  nbuf6_8 : grid6.bufCount reads6_8 true = 1
  hreads6_8 : ∀ i i' : grid6.Coords, (∀ a, reads6_8 a = true → i a = i' a) → cc6_transform_8 i = cc6_transform_8 i'
  hinb6_8 : ∀ (i : grid6.Coords) a, (cc6_transform_8 i a + 1) * S1x128.size a ≤ S1x128.size a
  hwx6_8 : ∀ i : grid6.Coords, EltTy.bits .f32 = 32 ∨ (Rect.block (s := S1x128) S1x128.size (cc6_transform_8 i) (hinb6_8 i)).WholeWords (EltTy.packing .f32)
  hstage6_9 : ∀ j, (stage6_9 j).IsWhole
  nbuf6_9 : grid6.bufCount reads6_9 true = 1
  hreads6_9 : ∀ i i' : grid6.Coords, (∀ a, reads6_9 a = true → i a = i' a) → cc6_transform_9 i = cc6_transform_9 i'
  hinb6_9 : ∀ (i : grid6.Coords) a, (cc6_transform_9 i a + 1) * S1x128.size a ≤ S1x128.size a
  hwx6_9 : ∀ i : grid6.Coords, EltTy.bits .f32 = 32 ∨ (Rect.block (s := S1x128) S1x128.size (cc6_transform_9 i) (hinb6_9 i)).WholeWords (EltTy.packing .f32)
  hstage6_10 : ∀ j, (stage6_10 j).IsWhole
  nbuf6_10 : grid6.bufCount reads6_10 true = 1
  hreads6_10 : ∀ i i' : grid6.Coords, (∀ a, reads6_10 a = true → i a = i' a) → cc6_transform_10 i = cc6_transform_10 i'
  hinb6_10 : ∀ (i : grid6.Coords) a, (cc6_transform_10 i a + 1) * S1x128.size a ≤ S1x128.size a
  hwx6_10 : ∀ i : grid6.Coords, EltTy.bits .f32 = 32 ∨ (Rect.block (s := S1x128) S1x128.size (cc6_transform_10 i) (hinb6_10 i)).WholeWords (EltTy.packing .f32)
  hstage6_11 : ∀ j, (stage6_11 j).IsWhole
  nbuf6_11 : grid6.bufCount reads6_11 true = 1
  hreads6_11 : ∀ i i' : grid6.Coords, (∀ a, reads6_11 a = true → i a = i' a) → cc6_transform_11 i = cc6_transform_11 i'
  hinb6_11 : ∀ (i : grid6.Coords) a, (cc6_transform_11 i a + 1) * S1x128.size a ≤ S1x128.size a
  hwx6_11 : ∀ i : grid6.Coords, EltTy.bits .f32 = 32 ∨ (Rect.block (s := S1x128) S1x128.size (cc6_transform_11 i) (hinb6_11 i)).WholeWords (EltTy.packing .f32)
  hstage6_12 : ∀ j, (stage6_12 j).IsWhole
  nbuf6_12 : grid6.bufCount reads6_12 true = 1
  hreads6_12 : ∀ i i' : grid6.Coords, (∀ a, reads6_12 a = true → i a = i' a) → cc6_transform_12 i = cc6_transform_12 i'
  hinb6_12 : ∀ (i : grid6.Coords) a, (cc6_transform_12 i a + 1) * S1x128.size a ≤ S1x128.size a
  hwx6_12 : ∀ i : grid6.Coords, EltTy.bits .f32 = 32 ∨ (Rect.block (s := S1x128) S1x128.size (cc6_transform_12 i) (hinb6_12 i)).WholeWords (EltTy.packing .f32)
  hstage6_13 : ∀ j, (stage6_13 j).IsWhole
  nbuf6_13 : grid6.bufCount reads6_13 false = 2
  hreads6_13 : ∀ i i' : grid6.Coords, (∀ a, reads6_13 a = true → i a = i' a) → cc6_transform_13 i = cc6_transform_13 i'
  hinb6_13 : ∀ (i : grid6.Coords) a, (cc6_transform_13 i a + 1) * S2000x128.size a ≤ S100000x128.size a
  hwx6_13 : ∀ i : grid6.Coords, EltTy.bits .f32 = 32 ∨ (Rect.block (s := S100000x128) S2000x128.size (cc6_transform_13 i) (hinb6_13 i)).WholeWords (EltTy.packing .f32)
  hrank7 : 0 < grid7.rank
  hstage7_0 : ∀ j, (stage7_0 j).IsWhole
  nbuf7_0 : grid7.bufCount reads7_0 false = 1
  hreads7_0 : ∀ i i' : grid7.Coords, (∀ a, reads7_0 a = true → i a = i' a) → cc7_transform_0 i = cc7_transform_0 i'
  hinb7_0 : ∀ (i : grid7.Coords) a, (cc7_transform_0 i a + 1) * S512x128.size a ≤ S512x128.size a
  hwx7_0 : ∀ i : grid7.Coords, EltTy.bits .f32 = 32 ∨ (Rect.block (s := S512x128) S512x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x256.size a ≤ S128x256.size a
  hwx7_1 : ∀ i : grid7.Coords, EltTy.bits .f32 = 32 ∨ (Rect.block (s := S128x256) S128x256.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x256.size a ≤ S1x256.size a
  hwx7_2 : ∀ i : grid7.Coords, EltTy.bits .f32 = 32 ∨ (Rect.block (s := S1x256) S1x256.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x256.size a ≤ S1x256.size a
  hwx7_3 : ∀ i : grid7.Coords, EltTy.bits .f32 = 32 ∨ (Rect.block (s := S1x256) S1x256.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x256.size a ≤ S1x256.size a
  hwx7_4 : ∀ i : grid7.Coords, EltTy.bits .f32 = 32 ∨ (Rect.block (s := S1x256) S1x256.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x256.size a ≤ S1x256.size a
  hwx7_5 : ∀ i : grid7.Coords, EltTy.bits .f32 = 32 ∨ (Rect.block (s := S1x256) S1x256.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x256.size a ≤ S1x256.size a
  hwx7_6 : ∀ i : grid7.Coords, EltTy.bits .f32 = 32 ∨ (Rect.block (s := S1x256) S1x256.size (cc7_transform_6 i) (hinb7_6 i)).WholeWords (EltTy.packing .f32)
  hstage7_7 : ∀ j, (stage7_7 j).IsWhole
  nbuf7_7 : grid7.bufCount reads7_7 true = 1
  hreads7_7 : ∀ i i' : grid7.Coords, (∀ a, reads7_7 a = true → i a = i' a) → cc7_transform_7 i = cc7_transform_7 i'
  hinb7_7 : ∀ (i : grid7.Coords) a, (cc7_transform_7 i a + 1) * S256x128.size a ≤ S256x128.size a
  hwx7_7 : ∀ i : grid7.Coords, EltTy.bits .f32 = 32 ∨ (Rect.block (s := S256x128) S256x128.size (cc7_transform_7 i) (hinb7_7 i)).WholeWords (EltTy.packing .f32)
  hstage7_8 : ∀ j, (stage7_8 j).IsWhole
  nbuf7_8 : grid7.bufCount reads7_8 true = 1
  hreads7_8 : ∀ i i' : grid7.Coords, (∀ a, reads7_8 a = true → i a = i' a) → cc7_transform_8 i = cc7_transform_8 i'
  hinb7_8 : ∀ (i : grid7.Coords) a, (cc7_transform_8 i a + 1) * S1x128.size a ≤ S1x128.size a
  hwx7_8 : ∀ i : grid7.Coords, EltTy.bits .f32 = 32 ∨ (Rect.block (s := S1x128) S1x128.size (cc7_transform_8 i) (hinb7_8 i)).WholeWords (EltTy.packing .f32)
  hstage7_9 : ∀ j, (stage7_9 j).IsWhole
  nbuf7_9 : grid7.bufCount reads7_9 true = 1
  hreads7_9 : ∀ i i' : grid7.Coords, (∀ a, reads7_9 a = true → i a = i' a) → cc7_transform_9 i = cc7_transform_9 i'
  hinb7_9 : ∀ (i : grid7.Coords) a, (cc7_transform_9 i a + 1) * S1x128.size a ≤ S1x128.size a
  hwx7_9 : ∀ i : grid7.Coords, EltTy.bits .f32 = 32 ∨ (Rect.block (s := S1x128) S1x128.size (cc7_transform_9 i) (hinb7_9 i)).WholeWords (EltTy.packing .f32)
  hstage7_10 : ∀ j, (stage7_10 j).IsWhole
  nbuf7_10 : grid7.bufCount reads7_10 true = 1
  hreads7_10 : ∀ i i' : grid7.Coords, (∀ a, reads7_10 a = true → i a = i' a) → cc7_transform_10 i = cc7_transform_10 i'
  hinb7_10 : ∀ (i : grid7.Coords) a, (cc7_transform_10 i a + 1) * S1x128.size a ≤ S1x128.size a
  hwx7_10 : ∀ i : grid7.Coords, EltTy.bits .f32 = 32 ∨ (Rect.block (s := S1x128) S1x128.size (cc7_transform_10 i) (hinb7_10 i)).WholeWords (EltTy.packing .f32)
  hstage7_11 : ∀ j, (stage7_11 j).IsWhole
  nbuf7_11 : grid7.bufCount reads7_11 true = 1
  hreads7_11 : ∀ i i' : grid7.Coords, (∀ a, reads7_11 a = true → i a = i' a) → cc7_transform_11 i = cc7_transform_11 i'
  hinb7_11 : ∀ (i : grid7.Coords) a, (cc7_transform_11 i a + 1) * S1x128.size a ≤ S1x128.size a
  hwx7_11 : ∀ i : grid7.Coords, EltTy.bits .f32 = 32 ∨ (Rect.block (s := S1x128) S1x128.size (cc7_transform_11 i) (hinb7_11 i)).WholeWords (EltTy.packing .f32)
  hstage7_12 : ∀ j, (stage7_12 j).IsWhole
  nbuf7_12 : grid7.bufCount reads7_12 true = 1
  hreads7_12 : ∀ i i' : grid7.Coords, (∀ a, reads7_12 a = true → i a = i' a) → cc7_transform_12 i = cc7_transform_12 i'
  hinb7_12 : ∀ (i : grid7.Coords) a, (cc7_transform_12 i a + 1) * S1x128.size a ≤ S1x128.size a
  hwx7_12 : ∀ i : grid7.Coords, EltTy.bits .f32 = 32 ∨ (Rect.block (s := S1x128) S1x128.size (cc7_transform_12 i) (hinb7_12 i)).WholeWords (EltTy.packing .f32)
  hstage7_13 : ∀ j, (stage7_13 j).IsWhole
  nbuf7_13 : grid7.bufCount reads7_13 false = 1
  hreads7_13 : ∀ i i' : grid7.Coords, (∀ a, reads7_13 a = true → i a = i' a) → cc7_transform_13 i = cc7_transform_13 i'
  hinb7_13 : ∀ (i : grid7.Coords) a, (cc7_transform_13 i a + 1) * S512x128.size a ≤ S512x128.size a
  hwx7_13 : ∀ i : grid7.Coords, EltTy.bits .f32 = 32 ∨ (Rect.block (s := S512x128) S512x128.size (cc7_transform_13 i) (hinb7_13 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x128.size a ≤ S100000x128.size a
  hwx8_0 : ∀ i : grid8.Coords, EltTy.bits .f32 = 32 ∨ (Rect.block (s := S100000x128) S2000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S128x256.size a ≤ S128x256.size a
  hwx8_1 : ∀ i : grid8.Coords, EltTy.bits .f32 = 32 ∨ (Rect.block (s := S128x256) S128x256.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x256.size a ≤ S1x256.size a
  hwx8_2 : ∀ i : grid8.Coords, EltTy.bits .f32 = 32 ∨ (Rect.block (s := S1x256) S1x256.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x256.size a ≤ S1x256.size a
  hwx8_3 : ∀ i : grid8.Coords, EltTy.bits .f32 = 32 ∨ (Rect.block (s := S1x256) S1x256.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x256.size a ≤ S1x256.size a
  hwx8_4 : ∀ i : grid8.Coords, EltTy.bits .f32 = 32 ∨ (Rect.block (s := S1x256) S1x256.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S1x256.size a ≤ S1x256.size a
  hwx8_5 : ∀ i : grid8.Coords, EltTy.bits .f32 = 32 ∨ (Rect.block (s := S1x256) S1x256.size (cc8_transform_5 i) (hinb8_5 i)).WholeWords (EltTy.packing .f32)
  hstage8_6 : ∀ j, (stage8_6 j).IsWhole
  nbuf8_6 : grid8.bufCount reads8_6 true = 1
  hreads8_6 : ∀ i i' : grid8.Coords, (∀ a, reads8_6 a = true → i a = i' a) → cc8_transform_6 i = cc8_transform_6 i'
  hinb8_6 : ∀ (i : grid8.Coords) a, (cc8_transform_6 i a + 1) * S1x256.size a ≤ S1x256.size a
  hwx8_6 : ∀ i : grid8.Coords, EltTy.bits .f32 = 32 ∨ (Rect.block (s := S1x256) S1x256.size (cc8_transform_6 i) (hinb8_6 i)).WholeWords (EltTy.packing .f32)
  hstage8_7 : ∀ j, (stage8_7 j).IsWhole
  nbuf8_7 : grid8.bufCount reads8_7 true = 1
  hreads8_7 : ∀ i i' : grid8.Coords, (∀ a, reads8_7 a = true → i a = i' a) → cc8_transform_7 i = cc8_transform_7 i'
  hinb8_7 : ∀ (i : grid8.Coords) a, (cc8_transform_7 i a + 1) * S256x128.size a ≤ S256x128.size a
  hwx8_7 : ∀ i : grid8.Coords, EltTy.bits .f32 = 32 ∨ (Rect.block (s := S256x128) S256x128.size (cc8_transform_7 i) (hinb8_7 i)).WholeWords (EltTy.packing .f32)
  hstage8_8 : ∀ j, (stage8_8 j).IsWhole
  nbuf8_8 : grid8.bufCount reads8_8 true = 1
  hreads8_8 : ∀ i i' : grid8.Coords, (∀ a, reads8_8 a = true → i a = i' a) → cc8_transform_8 i = cc8_transform_8 i'
  hinb8_8 : ∀ (i : grid8.Coords) a, (cc8_transform_8 i a + 1) * S1x128.size a ≤ S1x128.size a
  hwx8_8 : ∀ i : grid8.Coords, EltTy.bits .f32 = 32 ∨ (Rect.block (s := S1x128) S1x128.size (cc8_transform_8 i) (hinb8_8 i)).WholeWords (EltTy.packing .f32)
  hstage8_9 : ∀ j, (stage8_9 j).IsWhole
  nbuf8_9 : grid8.bufCount reads8_9 true = 1
  hreads8_9 : ∀ i i' : grid8.Coords, (∀ a, reads8_9 a = true → i a = i' a) → cc8_transform_9 i = cc8_transform_9 i'
  hinb8_9 : ∀ (i : grid8.Coords) a, (cc8_transform_9 i a + 1) * S1x128.size a ≤ S1x128.size a
  hwx8_9 : ∀ i : grid8.Coords, EltTy.bits .f32 = 32 ∨ (Rect.block (s := S1x128) S1x128.size (cc8_transform_9 i) (hinb8_9 i)).WholeWords (EltTy.packing .f32)
  hstage8_10 : ∀ j, (stage8_10 j).IsWhole
  nbuf8_10 : grid8.bufCount reads8_10 true = 1
  hreads8_10 : ∀ i i' : grid8.Coords, (∀ a, reads8_10 a = true → i a = i' a) → cc8_transform_10 i = cc8_transform_10 i'
  hinb8_10 : ∀ (i : grid8.Coords) a, (cc8_transform_10 i a + 1) * S1x128.size a ≤ S1x128.size a
  hwx8_10 : ∀ i : grid8.Coords, EltTy.bits .f32 = 32 ∨ (Rect.block (s := S1x128) S1x128.size (cc8_transform_10 i) (hinb8_10 i)).WholeWords (EltTy.packing .f32)
  hstage8_11 : ∀ j, (stage8_11 j).IsWhole
  nbuf8_11 : grid8.bufCount reads8_11 true = 1
  hreads8_11 : ∀ i i' : grid8.Coords, (∀ a, reads8_11 a = true → i a = i' a) → cc8_transform_11 i = cc8_transform_11 i'
  hinb8_11 : ∀ (i : grid8.Coords) a, (cc8_transform_11 i a + 1) * S1x128.size a ≤ S1x128.size a
  hwx8_11 : ∀ i : grid8.Coords, EltTy.bits .f32 = 32 ∨ (Rect.block (s := S1x128) S1x128.size (cc8_transform_11 i) (hinb8_11 i)).WholeWords (EltTy.packing .f32)
  hstage8_12 : ∀ j, (stage8_12 j).IsWhole
  nbuf8_12 : grid8.bufCount reads8_12 true = 1
  hreads8_12 : ∀ i i' : grid8.Coords, (∀ a, reads8_12 a = true → i a = i' a) → cc8_transform_12 i = cc8_transform_12 i'
  hinb8_12 : ∀ (i : grid8.Coords) a, (cc8_transform_12 i a + 1) * S1x128.size a ≤ S1x128.size a
  hwx8_12 : ∀ i : grid8.Coords, EltTy.bits .f32 = 32 ∨ (Rect.block (s := S1x128) S1x128.size (cc8_transform_12 i) (hinb8_12 i)).WholeWords (EltTy.packing .f32)
  hstage8_13 : ∀ j, (stage8_13 j).IsWhole
  nbuf8_13 : grid8.bufCount reads8_13 false = 2
  hreads8_13 : ∀ i i' : grid8.Coords, (∀ a, reads8_13 a = true → i a = i' a) → cc8_transform_13 i = cc8_transform_13 i'
  hinb8_13 : ∀ (i : grid8.Coords) a, (cc8_transform_13 i a + 1) * S2000x128.size a ≤ S100000x128.size a
  hwx8_13 : ∀ i : grid8.Coords, EltTy.bits .f32 = 32 ∨ (Rect.block (s := S100000x128) S2000x128.size (cc8_transform_13 i) (hinb8_13 i)).WholeWords (EltTy.packing .f32)

variable [Facts₀]

def gather_S8x128_S100000x1_S100000x128_1_0_n_n_0_1_1128 : GatherDims S8x128 S100000x1 S100000x128 where
  offsetDims := [1]
  collapsedSliceDims := [0]
  operandBatchingDims := []
  startIndicesBatchingDims := []
  startIndexMap := [0]
  indexVectorDim := 1
  sliceSizes := ![1, 128]
  wf := gather_S8x128_S100000x1_S100000x128_1_0_n_n_0_1_1128_wf
def gather_S512x128_S100000x1_S100000x128_1_0_n_n_0_1_1128 : GatherDims S512x128 S100000x1 S100000x128 where
  offsetDims := [1]
  collapsedSliceDims := [0]
  operandBatchingDims := []
  startIndicesBatchingDims := []
  startIndexMap := [0]
  indexVectorDim := 1
  sliceSizes := ![1, 128]
  wf := gather_S512x128_S100000x1_S100000x128_1_0_n_n_0_1_1128_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def dot_S512x128_S128x256_S512x256_1_0_0_1_n_n : DotDims S512x128 S128x256 S512x256 where
  lhsContracting := [1]
  rhsContracting := [0]
  lhsNonContracting := [0]
  rhsNonContracting := [1]
  lhsBatch := []
  rhsBatch := []
  wf := dot_S512x128_S128x256_S512x256_1_0_0_1_n_n_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf

abbrev win0_0 : Pipeline.Window sig grid0 :=
  Pipeline.Window.ofSpec (Memref.whole main_v41) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v43) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v66) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v67) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v68) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v69) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v70) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v55) S256x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v71) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v72) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v73) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v74) S1x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v75) S1x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v76) S2000x128.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

abbrev win1_0 : Pipeline.Window sig grid1 :=
  Pipeline.Window.ofSpec (Memref.whole main_v80) S512x128.size cc1_transform_0 reads1_0 false false 1 stage1_0 sem1_0
    hrank1 hreads1_0 hinb1_0 nbuf1_0 (Memref.isWhole_whole _) hwx1_0 hstage1_0

abbrev win1_1 : Pipeline.Window sig grid1 :=
  Pipeline.Window.ofSpec (Memref.whole main_v82) S128x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v105) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v106) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v107) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v108) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v109) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v94) S256x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v110) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v111) S1x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v112) S1x128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v113) S1x128.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v114) S1x128.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v115) S512x128.size cc1_transform_13 reads1_13 true false 1 stage1_13 sem1_13
    hrank1 hreads1_13 hinb1_13 nbuf1_13 (Memref.isWhole_whole _) hwx1_13 hstage1_13

abbrev win1 : Fin 14 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | ⟨_ + 14, h⟩ => absurd h (Nat.not_lt.2 (Nat.le_add_left _ _))
abbrev spec1 : Fin 14 → Pipeline.WinSpec sig grid1.rank := fun w => (win1 w).toWinSpec

abbrev win2_0 : Pipeline.Window sig grid2 :=
  Pipeline.Window.ofSpec (Memref.whole main_v144) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v146) S128x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v169) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v170) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v171) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v172) S1x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v173) S1x256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v158) S256x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v174) S1x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v175) S1x128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v176) S1x128.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v177) S1x128.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v178) S1x128.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_v179) S2000x128.size cc2_transform_13 reads2_13 true false 2 stage2_13 sem2_13
    hrank2 hreads2_13 hinb2_13 nbuf2_13 (Memref.isWhole_whole _) hwx2_13 hstage2_13

abbrev win2 : Fin 14 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | ⟨_ + 14, h⟩ => absurd h (Nat.not_lt.2 (Nat.le_add_left _ _))
abbrev spec2 : Fin 14 → Pipeline.WinSpec sig grid2.rank := fun w => (win2 w).toWinSpec

abbrev win3_0 : Pipeline.Window sig grid3 :=
  Pipeline.Window.ofSpec (Memref.whole main_v183) S512x128.size cc3_transform_0 reads3_0 false false 1 stage3_0 sem3_0
    hrank3 hreads3_0 hinb3_0 nbuf3_0 (Memref.isWhole_whole _) hwx3_0 hstage3_0

abbrev win3_1 : Pipeline.Window sig grid3 :=
  Pipeline.Window.ofSpec (Memref.whole main_v185) S128x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v208) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v209) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v210) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v211) S1x256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v212) S1x256.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v197) S256x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v213) S1x128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v214) S1x128.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v215) S1x128.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_v216) S1x128.size cc3_transform_11 reads3_11 false true 1 stage3_11 sem3_11
    hrank3 hreads3_11 hinb3_11 nbuf3_11 (Memref.isWhole_whole _) hwx3_11 hstage3_11

abbrev win3_12 : Pipeline.Window sig grid3 :=
  Pipeline.Window.ofSpec (Memref.whole main_v217) S1x128.size cc3_transform_12 reads3_12 false true 1 stage3_12 sem3_12
    hrank3 hreads3_12 hinb3_12 nbuf3_12 (Memref.isWhole_whole _) hwx3_12 hstage3_12

abbrev win3_13 : Pipeline.Window sig grid3 :=
  Pipeline.Window.ofSpec (Memref.whole main_v218) S512x128.size cc3_transform_13 reads3_13 true false 1 stage3_13 sem3_13
    hrank3 hreads3_13 hinb3_13 nbuf3_13 (Memref.isWhole_whole _) hwx3_13 hstage3_13

abbrev win3 : Fin 14 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | 12 => win3_12 | 13 => win3_13 | ⟨_ + 14, h⟩ => absurd h (Nat.not_lt.2 (Nat.le_add_left _ _))
abbrev spec3 : Fin 14 → Pipeline.WinSpec sig grid3.rank := fun w => (win3 w).toWinSpec

abbrev win4_0 : Pipeline.Window sig grid4 :=
  Pipeline.Window.ofSpec (Memref.whole main_v247) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v249) S128x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v272) S1x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v273) S1x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v274) S1x256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v275) S1x256.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v276) S1x256.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v261) S256x128.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v277) S1x128.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v278) S1x128.size cc4_transform_9 reads4_9 false true 1 stage4_9 sem4_9
    hrank4 hreads4_9 hinb4_9 nbuf4_9 (Memref.isWhole_whole _) hwx4_9 hstage4_9

abbrev win4_10 : Pipeline.Window sig grid4 :=
  Pipeline.Window.ofSpec (Memref.whole main_v279) S1x128.size cc4_transform_10 reads4_10 false true 1 stage4_10 sem4_10
    hrank4 hreads4_10 hinb4_10 nbuf4_10 (Memref.isWhole_whole _) hwx4_10 hstage4_10

abbrev win4_11 : Pipeline.Window sig grid4 :=
  Pipeline.Window.ofSpec (Memref.whole main_v280) S1x128.size cc4_transform_11 reads4_11 false true 1 stage4_11 sem4_11
    hrank4 hreads4_11 hinb4_11 nbuf4_11 (Memref.isWhole_whole _) hwx4_11 hstage4_11

abbrev win4_12 : Pipeline.Window sig grid4 :=
  Pipeline.Window.ofSpec (Memref.whole main_v281) S1x128.size cc4_transform_12 reads4_12 false true 1 stage4_12 sem4_12
    hrank4 hreads4_12 hinb4_12 nbuf4_12 (Memref.isWhole_whole _) hwx4_12 hstage4_12

abbrev win4_13 : Pipeline.Window sig grid4 :=
  Pipeline.Window.ofSpec (Memref.whole main_v282) S2000x128.size cc4_transform_13 reads4_13 true false 2 stage4_13 sem4_13
    hrank4 hreads4_13 hinb4_13 nbuf4_13 (Memref.isWhole_whole _) hwx4_13 hstage4_13

abbrev win4 : Fin 14 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | 11 => win4_11 | 12 => win4_12 | 13 => win4_13 | ⟨_ + 14, h⟩ => absurd h (Nat.not_lt.2 (Nat.le_add_left _ _))
abbrev spec4 : Fin 14 → Pipeline.WinSpec sig grid4.rank := fun w => (win4 w).toWinSpec

abbrev win5_0 : Pipeline.Window sig grid5 :=
  Pipeline.Window.ofSpec (Memref.whole main_v286) S512x128.size cc5_transform_0 reads5_0 false false 1 stage5_0 sem5_0
    hrank5 hreads5_0 hinb5_0 nbuf5_0 (Memref.isWhole_whole _) hwx5_0 hstage5_0

abbrev win5_1 : Pipeline.Window sig grid5 :=
  Pipeline.Window.ofSpec (Memref.whole main_v288) S128x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v311) S1x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v312) S1x256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v313) S1x256.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v314) S1x256.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v315) S1x256.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v300) S256x128.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v316) S1x128.size cc5_transform_8 reads5_8 false true 1 stage5_8 sem5_8
    hrank5 hreads5_8 hinb5_8 nbuf5_8 (Memref.isWhole_whole _) hwx5_8 hstage5_8

abbrev win5_9 : Pipeline.Window sig grid5 :=
  Pipeline.Window.ofSpec (Memref.whole main_v317) S1x128.size cc5_transform_9 reads5_9 false true 1 stage5_9 sem5_9
    hrank5 hreads5_9 hinb5_9 nbuf5_9 (Memref.isWhole_whole _) hwx5_9 hstage5_9

abbrev win5_10 : Pipeline.Window sig grid5 :=
  Pipeline.Window.ofSpec (Memref.whole main_v318) S1x128.size cc5_transform_10 reads5_10 false true 1 stage5_10 sem5_10
    hrank5 hreads5_10 hinb5_10 nbuf5_10 (Memref.isWhole_whole _) hwx5_10 hstage5_10

abbrev win5_11 : Pipeline.Window sig grid5 :=
  Pipeline.Window.ofSpec (Memref.whole main_v319) S1x128.size cc5_transform_11 reads5_11 false true 1 stage5_11 sem5_11
    hrank5 hreads5_11 hinb5_11 nbuf5_11 (Memref.isWhole_whole _) hwx5_11 hstage5_11

abbrev win5_12 : Pipeline.Window sig grid5 :=
  Pipeline.Window.ofSpec (Memref.whole main_v320) S1x128.size cc5_transform_12 reads5_12 false true 1 stage5_12 sem5_12
    hrank5 hreads5_12 hinb5_12 nbuf5_12 (Memref.isWhole_whole _) hwx5_12 hstage5_12

abbrev win5_13 : Pipeline.Window sig grid5 :=
  Pipeline.Window.ofSpec (Memref.whole main_v321) S512x128.size cc5_transform_13 reads5_13 true false 1 stage5_13 sem5_13
    hrank5 hreads5_13 hinb5_13 nbuf5_13 (Memref.isWhole_whole _) hwx5_13 hstage5_13

abbrev win5 : Fin 14 → Pipeline.Window sig grid5 := fun | 0 => win5_0 | 1 => win5_1 | 2 => win5_2 | 3 => win5_3 | 4 => win5_4 | 5 => win5_5 | 6 => win5_6 | 7 => win5_7 | 8 => win5_8 | 9 => win5_9 | 10 => win5_10 | 11 => win5_11 | 12 => win5_12 | 13 => win5_13 | ⟨_ + 14, h⟩ => absurd h (Nat.not_lt.2 (Nat.le_add_left _ _))
abbrev spec5 : Fin 14 → Pipeline.WinSpec sig grid5.rank := fun w => (win5 w).toWinSpec

abbrev win6_0 : Pipeline.Window sig grid6 :=
  Pipeline.Window.ofSpec (Memref.whole main_v350) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v352) S128x256.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v375) S1x256.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v376) S1x256.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v377) S1x256.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v378) S1x256.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v379) S1x256.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v364) S256x128.size cc6_transform_7 reads6_7 false true 1 stage6_7 sem6_7
    hrank6 hreads6_7 hinb6_7 nbuf6_7 (Memref.isWhole_whole _) hwx6_7 hstage6_7

abbrev win6_8 : Pipeline.Window sig grid6 :=
  Pipeline.Window.ofSpec (Memref.whole main_v380) S1x128.size cc6_transform_8 reads6_8 false true 1 stage6_8 sem6_8
    hrank6 hreads6_8 hinb6_8 nbuf6_8 (Memref.isWhole_whole _) hwx6_8 hstage6_8

abbrev win6_9 : Pipeline.Window sig grid6 :=
  Pipeline.Window.ofSpec (Memref.whole main_v381) S1x128.size cc6_transform_9 reads6_9 false true 1 stage6_9 sem6_9
    hrank6 hreads6_9 hinb6_9 nbuf6_9 (Memref.isWhole_whole _) hwx6_9 hstage6_9

abbrev win6_10 : Pipeline.Window sig grid6 :=
  Pipeline.Window.ofSpec (Memref.whole main_v382) S1x128.size cc6_transform_10 reads6_10 false true 1 stage6_10 sem6_10
    hrank6 hreads6_10 hinb6_10 nbuf6_10 (Memref.isWhole_whole _) hwx6_10 hstage6_10

abbrev win6_11 : Pipeline.Window sig grid6 :=
  Pipeline.Window.ofSpec (Memref.whole main_v383) S1x128.size cc6_transform_11 reads6_11 false true 1 stage6_11 sem6_11
    hrank6 hreads6_11 hinb6_11 nbuf6_11 (Memref.isWhole_whole _) hwx6_11 hstage6_11

abbrev win6_12 : Pipeline.Window sig grid6 :=
  Pipeline.Window.ofSpec (Memref.whole main_v384) S1x128.size cc6_transform_12 reads6_12 false true 1 stage6_12 sem6_12
    hrank6 hreads6_12 hinb6_12 nbuf6_12 (Memref.isWhole_whole _) hwx6_12 hstage6_12

abbrev win6_13 : Pipeline.Window sig grid6 :=
  Pipeline.Window.ofSpec (Memref.whole main_v385) S2000x128.size cc6_transform_13 reads6_13 true false 2 stage6_13 sem6_13
    hrank6 hreads6_13 hinb6_13 nbuf6_13 (Memref.isWhole_whole _) hwx6_13 hstage6_13

abbrev win6 : Fin 14 → Pipeline.Window sig grid6 := fun | 0 => win6_0 | 1 => win6_1 | 2 => win6_2 | 3 => win6_3 | 4 => win6_4 | 5 => win6_5 | 6 => win6_6 | 7 => win6_7 | 8 => win6_8 | 9 => win6_9 | 10 => win6_10 | 11 => win6_11 | 12 => win6_12 | 13 => win6_13 | ⟨_ + 14, h⟩ => absurd h (Nat.not_lt.2 (Nat.le_add_left _ _))
abbrev spec6 : Fin 14 → Pipeline.WinSpec sig grid6.rank := fun w => (win6 w).toWinSpec

abbrev win7_0 : Pipeline.Window sig grid7 :=
  Pipeline.Window.ofSpec (Memref.whole main_v389) S512x128.size cc7_transform_0 reads7_0 false false 1 stage7_0 sem7_0
    hrank7 hreads7_0 hinb7_0 nbuf7_0 (Memref.isWhole_whole _) hwx7_0 hstage7_0

abbrev win7_1 : Pipeline.Window sig grid7 :=
  Pipeline.Window.ofSpec (Memref.whole main_v391) S128x256.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v414) S1x256.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v415) S1x256.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v416) S1x256.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v417) S1x256.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v418) S1x256.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v403) S256x128.size cc7_transform_7 reads7_7 false true 1 stage7_7 sem7_7
    hrank7 hreads7_7 hinb7_7 nbuf7_7 (Memref.isWhole_whole _) hwx7_7 hstage7_7

abbrev win7_8 : Pipeline.Window sig grid7 :=
  Pipeline.Window.ofSpec (Memref.whole main_v419) S1x128.size cc7_transform_8 reads7_8 false true 1 stage7_8 sem7_8
    hrank7 hreads7_8 hinb7_8 nbuf7_8 (Memref.isWhole_whole _) hwx7_8 hstage7_8

abbrev win7_9 : Pipeline.Window sig grid7 :=
  Pipeline.Window.ofSpec (Memref.whole main_v420) S1x128.size cc7_transform_9 reads7_9 false true 1 stage7_9 sem7_9
    hrank7 hreads7_9 hinb7_9 nbuf7_9 (Memref.isWhole_whole _) hwx7_9 hstage7_9

abbrev win7_10 : Pipeline.Window sig grid7 :=
  Pipeline.Window.ofSpec (Memref.whole main_v421) S1x128.size cc7_transform_10 reads7_10 false true 1 stage7_10 sem7_10
    hrank7 hreads7_10 hinb7_10 nbuf7_10 (Memref.isWhole_whole _) hwx7_10 hstage7_10

abbrev win7_11 : Pipeline.Window sig grid7 :=
  Pipeline.Window.ofSpec (Memref.whole main_v422) S1x128.size cc7_transform_11 reads7_11 false true 1 stage7_11 sem7_11
    hrank7 hreads7_11 hinb7_11 nbuf7_11 (Memref.isWhole_whole _) hwx7_11 hstage7_11

abbrev win7_12 : Pipeline.Window sig grid7 :=
  Pipeline.Window.ofSpec (Memref.whole main_v423) S1x128.size cc7_transform_12 reads7_12 false true 1 stage7_12 sem7_12
    hrank7 hreads7_12 hinb7_12 nbuf7_12 (Memref.isWhole_whole _) hwx7_12 hstage7_12

abbrev win7_13 : Pipeline.Window sig grid7 :=
  Pipeline.Window.ofSpec (Memref.whole main_v424) S512x128.size cc7_transform_13 reads7_13 true false 1 stage7_13 sem7_13
    hrank7 hreads7_13 hinb7_13 nbuf7_13 (Memref.isWhole_whole _) hwx7_13 hstage7_13

abbrev win7 : Fin 14 → Pipeline.Window sig grid7 := fun | 0 => win7_0 | 1 => win7_1 | 2 => win7_2 | 3 => win7_3 | 4 => win7_4 | 5 => win7_5 | 6 => win7_6 | 7 => win7_7 | 8 => win7_8 | 9 => win7_9 | 10 => win7_10 | 11 => win7_11 | 12 => win7_12 | 13 => win7_13 | ⟨_ + 14, h⟩ => absurd h (Nat.not_lt.2 (Nat.le_add_left _ _))
abbrev spec7 : Fin 14 → Pipeline.WinSpec sig grid7.rank := fun w => (win7 w).toWinSpec

abbrev win8_0 : Pipeline.Window sig grid8 :=
  Pipeline.Window.ofSpec (Memref.whole main_v453) S2000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v455) S128x256.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v478) S1x256.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v479) S1x256.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v480) S1x256.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v481) S1x256.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v482) S1x256.size cc8_transform_6 reads8_6 false true 1 stage8_6 sem8_6
    hrank8 hreads8_6 hinb8_6 nbuf8_6 (Memref.isWhole_whole _) hwx8_6 hstage8_6

abbrev win8_7 : Pipeline.Window sig grid8 :=
  Pipeline.Window.ofSpec (Memref.whole main_v467) S256x128.size cc8_transform_7 reads8_7 false true 1 stage8_7 sem8_7
    hrank8 hreads8_7 hinb8_7 nbuf8_7 (Memref.isWhole_whole _) hwx8_7 hstage8_7

abbrev win8_8 : Pipeline.Window sig grid8 :=
  Pipeline.Window.ofSpec (Memref.whole main_v483) S1x128.size cc8_transform_8 reads8_8 false true 1 stage8_8 sem8_8
    hrank8 hreads8_8 hinb8_8 nbuf8_8 (Memref.isWhole_whole _) hwx8_8 hstage8_8

abbrev win8_9 : Pipeline.Window sig grid8 :=
  Pipeline.Window.ofSpec (Memref.whole main_v484) S1x128.size cc8_transform_9 reads8_9 false true 1 stage8_9 sem8_9
    hrank8 hreads8_9 hinb8_9 nbuf8_9 (Memref.isWhole_whole _) hwx8_9 hstage8_9

abbrev win8_10 : Pipeline.Window sig grid8 :=
  Pipeline.Window.ofSpec (Memref.whole main_v485) S1x128.size cc8_transform_10 reads8_10 false true 1 stage8_10 sem8_10
    hrank8 hreads8_10 hinb8_10 nbuf8_10 (Memref.isWhole_whole _) hwx8_10 hstage8_10

abbrev win8_11 : Pipeline.Window sig grid8 :=
  Pipeline.Window.ofSpec (Memref.whole main_v486) S1x128.size cc8_transform_11 reads8_11 false true 1 stage8_11 sem8_11
    hrank8 hreads8_11 hinb8_11 nbuf8_11 (Memref.isWhole_whole _) hwx8_11 hstage8_11

abbrev win8_12 : Pipeline.Window sig grid8 :=
  Pipeline.Window.ofSpec (Memref.whole main_v487) S1x128.size cc8_transform_12 reads8_12 false true 1 stage8_12 sem8_12
    hrank8 hreads8_12 hinb8_12 nbuf8_12 (Memref.isWhole_whole _) hwx8_12 hstage8_12

abbrev win8_13 : Pipeline.Window sig grid8 :=
  Pipeline.Window.ofSpec (Memref.whole main_v488) S2000x128.size cc8_transform_13 reads8_13 true false 2 stage8_13 sem8_13
    hrank8 hreads8_13 hinb8_13 nbuf8_13 (Memref.isWhole_whole _) hwx8_13 hstage8_13

abbrev win8 : Fin 14 → Pipeline.Window sig grid8 := fun | 0 => win8_0 | 1 => win8_1 | 2 => win8_2 | 3 => win8_3 | 4 => win8_4 | 5 => win8_5 | 6 => win8_6 | 7 => win8_7 | 8 => win8_8 | 9 => win8_9 | 10 => win8_10 | 11 => win8_11 | 12 => win8_12 | 13 => win8_13 | ⟨_ + 14, h⟩ => absurd h (Nat.not_lt.2 (Nat.le_add_left _ _))
abbrev spec8 : Fin 14 → Pipeline.WinSpec sig grid8.rank := fun w => (win8 w).toWinSpec

class Facts : Prop extends Facts₀ where

variable [Facts]
-- ==== ReferenceIdeal.lean ====
abbrev S100000 : Shape := ⟨1, ![100000]⟩
abbrev S2x600000 : Shape := ⟨2, ![2, 600000]⟩
abbrev S8x128 : Shape := ⟨2, ![8, 128]⟩
abbrev S1x128 : Shape := ⟨2, ![1, 128]⟩
abbrev S5 : Shape := ⟨1, ![5]⟩
abbrev S5x128x256 : Shape := ⟨3, ![5, 128, 256]⟩
abbrev S5x256 : Shape := ⟨2, ![5, 256]⟩
abbrev S5x256x128 : Shape := ⟨3, ![5, 256, 128]⟩
abbrev S5x128 : Shape := ⟨2, ![5, 128]⟩
abbrev S4x128x256 : Shape := ⟨3, ![4, 128, 256]⟩
abbrev S4x256 : Shape := ⟨2, ![4, 256]⟩
abbrev S4x256x128 : Shape := ⟨3, ![4, 256, 128]⟩
abbrev S4x128 : Shape := ⟨2, ![4, 128]⟩
abbrev S1x600000 : Shape := ⟨2, ![1, 600000]⟩
abbrev S600000 : Shape := ⟨1, ![600000]⟩
abbrev S128 : Shape := ⟨1, ![128]⟩
abbrev S512x128 : Shape := ⟨2, ![512, 128]⟩
abbrev S_ : Shape := ⟨0, ![]⟩
abbrev S100000x1 : Shape := ⟨2, ![100000, 1]⟩
abbrev S100000x128 : Shape := ⟨2, ![100000, 128]⟩
abbrev S600000x1 : Shape := ⟨2, ![600000, 1]⟩
abbrev S600000x128 : Shape := ⟨2, ![600000, 128]⟩
abbrev S1 : Shape := ⟨1, ![1]⟩
abbrev S1x128x256 : Shape := ⟨3, ![1, 128, 256]⟩
abbrev S128x256 : Shape := ⟨2, ![128, 256]⟩
abbrev S100000x256 : Shape := ⟨2, ![100000, 256]⟩
abbrev S1x256 : Shape := ⟨2, ![1, 256]⟩
abbrev S256 : Shape := ⟨1, ![256]⟩
abbrev S1x256x128 : Shape := ⟨3, ![1, 256, 128]⟩
abbrev S256x128 : Shape := ⟨2, ![256, 128]⟩
abbrev S512x256 : Shape := ⟨2, ![512, 256]⟩

abbrev nBuf : Space → Nat
  | .hbm => 877
  | .vmem => 0
  | .smem => 0
  | _ => 0

abbrev hbmTy0_0 (i : Nat) : BufTy := match i % 128 with
  | 0 => ⟨S100000, .i32⟩
  | 1 => ⟨S2x600000, .i32⟩
  | 2 => ⟨S100000, .i32⟩
  | 3 => ⟨S8x128, .f32⟩
  | 4 => ⟨S1x128, .f32⟩
  | 5 => ⟨S5, .f32⟩
  | 6 => ⟨S5x128x256, .f32⟩
  | 7 => ⟨S5x256, .f32⟩
  | 8 => ⟨S5x256, .f32⟩
  | 9 => ⟨S5x256, .f32⟩
  | 10 => ⟨S5x256, .f32⟩
  | 11 => ⟨S5x256, .f32⟩
  | 12 => ⟨S5x256x128, .f32⟩
  | 13 => ⟨S5x128, .f32⟩
  | 14 => ⟨S5x128, .f32⟩
  | 15 => ⟨S5x128, .f32⟩
  | 16 => ⟨S5x128, .f32⟩
  | 17 => ⟨S5x128, .f32⟩
  | 18 => ⟨S4x128x256, .f32⟩
  | 19 => ⟨S4x256, .f32⟩
  | 20 => ⟨S4x256, .f32⟩
  | 21 => ⟨S4x256, .f32⟩
  | 22 => ⟨S4x256, .f32⟩
  | 23 => ⟨S4x256, .f32⟩
  | 24 => ⟨S4x256x128, .f32⟩
  | 25 => ⟨S4x128, .f32⟩
  | 26 => ⟨S4x128, .f32⟩
  | 27 => ⟨S4x128, .f32⟩
  | 28 => ⟨S4x128, .f32⟩
  | 29 => ⟨S4x128, .f32⟩
  | 30 => ⟨S1x600000, .i32⟩
  | 31 => ⟨S600000, .i32⟩
  | 32 => ⟨S1x600000, .i32⟩
  | 33 => ⟨S600000, .i32⟩
  | 34 => ⟨S128, .f32⟩
  | 35 => ⟨S512x128, .f32⟩
  | 36 => ⟨S_, .i32⟩
  | 37 => ⟨S100000, .i32⟩
  | 38 => ⟨S100000, .i1⟩
  | 39 => ⟨S_, .i32⟩
  | 40 => ⟨S100000, .i32⟩
  | 41 => ⟨S100000, .i32⟩
  | 42 => ⟨S100000, .i32⟩
  | 43 => ⟨S100000x1, .i32⟩
  | 44 => ⟨S100000x128, .f32⟩
  | 45 => ⟨S_, .i32⟩
  | 46 => ⟨S100000, .i32⟩
  | 47 => ⟨S100000, .i1⟩
  | 48 => ⟨S_, .i32⟩
  | 49 => ⟨S100000, .i32⟩
  | 50 => ⟨S100000, .i32⟩
  | 51 => ⟨S100000, .i32⟩
  | 52 => ⟨S100000x1, .i32⟩
  | 53 => ⟨S100000x128, .f32⟩
  | 54 => ⟨S100000x128, .f32⟩
  | 55 => ⟨S_, .f32⟩
  | 56 => ⟨S100000x128, .f32⟩
  | 57 => ⟨S_, .i32⟩
  | 58 => ⟨S600000, .i32⟩
  | 59 => ⟨S600000, .i1⟩
  | 60 => ⟨S_, .i32⟩
  | 61 => ⟨S600000, .i32⟩
  | 62 => ⟨S600000, .i32⟩
  | 63 => ⟨S600000, .i32⟩
  | 64 => ⟨S600000x1, .i32⟩
  | 65 => ⟨S600000x128, .f32⟩
  | 66 => ⟨S_, .i32⟩
  | 67 => ⟨S600000, .i32⟩
  | 68 => ⟨S600000, .i1⟩
  | 69 => ⟨S_, .i32⟩
  | 70 => ⟨S600000, .i32⟩
  | 71 => ⟨S600000, .i32⟩
  | 72 => ⟨S600000, .i32⟩
  | 73 => ⟨S600000x1, .i32⟩
  | 74 => ⟨S100000x128, .f32⟩
  | 75 => ⟨S1, .f32⟩
  | 76 => ⟨S_, .f32⟩
  | 77 => ⟨S_, .f32⟩
  | 78 => ⟨S_, .f32⟩
  | 79 => ⟨S100000x128, .f32⟩
  | 80 => ⟨S100000x128, .f32⟩
  | 81 => ⟨S100000x128, .f32⟩
  | 82 => ⟨S1x128x256, .f32⟩
  | 83 => ⟨S128x256, .f32⟩
  | 84 => ⟨S100000x256, .f32⟩
  | 85 => ⟨S1x256, .f32⟩
  | 86 => ⟨S256, .f32⟩
  | 87 => ⟨S1x256, .f32⟩
  | 88 => ⟨S100000x256, .f32⟩
  | 89 => ⟨S100000x256, .f32⟩
  | 90 => ⟨S1x256, .f32⟩
  | 91 => ⟨S256, .f32⟩
  | 92 => ⟨S1x256, .f32⟩
  | 93 => ⟨S256, .f32⟩
  | 94 => ⟨S1x256, .f32⟩
  | 95 => ⟨S256, .f32⟩
  | 96 => ⟨S1x256, .f32⟩
  | 97 => ⟨S256, .f32⟩
  | 98 => ⟨S1x256, .f32⟩
  | 99 => ⟨S100000x256, .f32⟩
  | 100 => ⟨S100000x256, .f32⟩
  | 101 => ⟨S_, .f32⟩
  | 102 => ⟨S256, .f32⟩
  | 103 => ⟨S256, .f32⟩
  | 104 => ⟨S256, .f32⟩
  | 105 => ⟨S1x256, .f32⟩
  | 106 => ⟨S100000x256, .f32⟩
  | 107 => ⟨S100000x256, .f32⟩
  | 108 => ⟨S1x256, .f32⟩
  | 109 => ⟨S100000x256, .f32⟩
  | 110 => ⟨S100000x256, .f32⟩
  | 111 => ⟨S1x256, .f32⟩
  | 112 => ⟨S100000x256, .f32⟩
  | 113 => ⟨S100000x256, .f32⟩
  | 114 => ⟨S_, .f32⟩
  | 115 => ⟨S100000x256, .f32⟩
  | 116 => ⟨S100000x256, .f32⟩
  | 117 => ⟨S1x256x128, .f32⟩
  | 118 => ⟨S256x128, .f32⟩
  | 119 => ⟨S100000x128, .f32⟩
  | 120 => ⟨S1x128, .f32⟩
  | 121 => ⟨S128, .f32⟩
  | 122 => ⟨S1x128, .f32⟩
  | 123 => ⟨S100000x128, .f32⟩
  | 124 => ⟨S100000x128, .f32⟩
  | 125 => ⟨S1x128, .f32⟩
  | 126 => ⟨S128, .f32⟩
  | 127 => ⟨S1x128, .f32⟩
  | _ => ⟨S100000, .i32⟩

abbrev hbmTy0_1 (i : Nat) : BufTy := match i % 128 with
  | 0 => ⟨S128, .f32⟩
  | 1 => ⟨S1x128, .f32⟩
  | 2 => ⟨S128, .f32⟩
  | 3 => ⟨S1x128, .f32⟩
  | 4 => ⟨S128, .f32⟩
  | 5 => ⟨S1x128, .f32⟩
  | 6 => ⟨S100000x128, .f32⟩
  | 7 => ⟨S100000x128, .f32⟩
  | 8 => ⟨S_, .f32⟩
  | 9 => ⟨S128, .f32⟩
  | 10 => ⟨S128, .f32⟩
  | 11 => ⟨S128, .f32⟩
  | 12 => ⟨S1x128, .f32⟩
  | 13 => ⟨S100000x128, .f32⟩
  | 14 => ⟨S100000x128, .f32⟩
  | 15 => ⟨S1x128, .f32⟩
  | 16 => ⟨S100000x128, .f32⟩
  | 17 => ⟨S100000x128, .f32⟩
  | 18 => ⟨S1x128, .f32⟩
  | 19 => ⟨S100000x128, .f32⟩
  | 20 => ⟨S100000x128, .f32⟩
  | 21 => ⟨S_, .f32⟩
  | 22 => ⟨S100000x128, .f32⟩
  | 23 => ⟨S100000x128, .f32⟩
  | 24 => ⟨S_, .f32⟩
  | 25 => ⟨S512x128, .f32⟩
  | 26 => ⟨S100000x1, .i32⟩
  | 27 => ⟨S512x128, .f32⟩
  | 28 => ⟨S512x128, .f32⟩
  | 29 => ⟨S1x128x256, .f32⟩
  | 30 => ⟨S128x256, .f32⟩
  | 31 => ⟨S512x256, .f32⟩
  | 32 => ⟨S1x256, .f32⟩
  | 33 => ⟨S256, .f32⟩
  | 34 => ⟨S1x256, .f32⟩
  | 35 => ⟨S512x256, .f32⟩
  | 36 => ⟨S512x256, .f32⟩
  | 37 => ⟨S1x256, .f32⟩
  | 38 => ⟨S256, .f32⟩
  | 39 => ⟨S1x256, .f32⟩
  | 40 => ⟨S256, .f32⟩
  | 41 => ⟨S1x256, .f32⟩
  | 42 => ⟨S256, .f32⟩
  | 43 => ⟨S1x256, .f32⟩
  | 44 => ⟨S256, .f32⟩
  | 45 => ⟨S1x256, .f32⟩
  | 46 => ⟨S512x256, .f32⟩
  | 47 => ⟨S512x256, .f32⟩
  | 48 => ⟨S_, .f32⟩
  | 49 => ⟨S256, .f32⟩
  | 50 => ⟨S256, .f32⟩
  | 51 => ⟨S256, .f32⟩
  | 52 => ⟨S1x256, .f32⟩
  | 53 => ⟨S512x256, .f32⟩
  | 54 => ⟨S512x256, .f32⟩
  | 55 => ⟨S1x256, .f32⟩
  | 56 => ⟨S512x256, .f32⟩
  | 57 => ⟨S512x256, .f32⟩
  | 58 => ⟨S1x256, .f32⟩
  | 59 => ⟨S512x256, .f32⟩
  | 60 => ⟨S512x256, .f32⟩
  | 61 => ⟨S_, .f32⟩
  | 62 => ⟨S512x256, .f32⟩
  | 63 => ⟨S512x256, .f32⟩
  | 64 => ⟨S1x256x128, .f32⟩
  | 65 => ⟨S256x128, .f32⟩
  | 66 => ⟨S512x128, .f32⟩
  | 67 => ⟨S1x128, .f32⟩
  | 68 => ⟨S128, .f32⟩
  | 69 => ⟨S1x128, .f32⟩
  | 70 => ⟨S512x128, .f32⟩
  | 71 => ⟨S512x128, .f32⟩
  | 72 => ⟨S1x128, .f32⟩
  | 73 => ⟨S128, .f32⟩
  | 74 => ⟨S1x128, .f32⟩
  | 75 => ⟨S128, .f32⟩
  | 76 => ⟨S1x128, .f32⟩
  | 77 => ⟨S128, .f32⟩
  | 78 => ⟨S1x128, .f32⟩
  | 79 => ⟨S128, .f32⟩
  | 80 => ⟨S1x128, .f32⟩
  | 81 => ⟨S512x128, .f32⟩
  | 82 => ⟨S512x128, .f32⟩
  | 83 => ⟨S_, .f32⟩
  | 84 => ⟨S128, .f32⟩
  | 85 => ⟨S128, .f32⟩
  | 86 => ⟨S128, .f32⟩
  | 87 => ⟨S1x128, .f32⟩
  | 88 => ⟨S512x128, .f32⟩
  | 89 => ⟨S512x128, .f32⟩
  | 90 => ⟨S1x128, .f32⟩
  | 91 => ⟨S512x128, .f32⟩
  | 92 => ⟨S512x128, .f32⟩
  | 93 => ⟨S1x128, .f32⟩
  | 94 => ⟨S512x128, .f32⟩
  | 95 => ⟨S512x128, .f32⟩
  | 96 => ⟨S_, .f32⟩
  | 97 => ⟨S512x128, .f32⟩
  | 98 => ⟨S512x128, .f32⟩
  | 99 => ⟨S_, .i32⟩
  | 100 => ⟨S100000, .i32⟩
  | 101 => ⟨S100000, .i1⟩
  | 102 => ⟨S_, .i32⟩
  | 103 => ⟨S100000, .i32⟩
  | 104 => ⟨S100000, .i32⟩
  | 105 => ⟨S100000, .i32⟩
  | 106 => ⟨S100000x1, .i32⟩
  | 107 => ⟨S100000x128, .f32⟩
  | 108 => ⟨S100000x128, .f32⟩
  | 109 => ⟨S_, .f32⟩
  | 110 => ⟨S100000x128, .f32⟩
  | 111 => ⟨S_, .i32⟩
  | 112 => ⟨S600000, .i32⟩
  | 113 => ⟨S600000, .i1⟩
  | 114 => ⟨S_, .i32⟩
  | 115 => ⟨S600000, .i32⟩
  | 116 => ⟨S600000, .i32⟩
  | 117 => ⟨S600000, .i32⟩
  | 118 => ⟨S600000x1, .i32⟩
  | 119 => ⟨S600000x128, .f32⟩
  | 120 => ⟨S_, .i32⟩
  | 121 => ⟨S600000, .i32⟩
  | 122 => ⟨S600000, .i1⟩
  | 123 => ⟨S_, .i32⟩
  | 124 => ⟨S600000, .i32⟩
  | 125 => ⟨S600000, .i32⟩
  | 126 => ⟨S600000, .i32⟩
  | 127 => ⟨S600000x1, .i32⟩
  | _ => ⟨S100000, .i32⟩

abbrev hbmTy0_2 (i : Nat) : BufTy := match i % 128 with
  | 0 => ⟨S100000x128, .f32⟩
  | 1 => ⟨S1, .f32⟩
  | 2 => ⟨S_, .f32⟩
  | 3 => ⟨S_, .f32⟩
  | 4 => ⟨S_, .f32⟩
  | 5 => ⟨S100000x128, .f32⟩
  | 6 => ⟨S100000x128, .f32⟩
  | 7 => ⟨S100000x128, .f32⟩
  | 8 => ⟨S1x128x256, .f32⟩
  | 9 => ⟨S128x256, .f32⟩
  | 10 => ⟨S100000x256, .f32⟩
  | 11 => ⟨S1x256, .f32⟩
  | 12 => ⟨S256, .f32⟩
  | 13 => ⟨S1x256, .f32⟩
  | 14 => ⟨S100000x256, .f32⟩
  | 15 => ⟨S100000x256, .f32⟩
  | 16 => ⟨S1x256, .f32⟩
  | 17 => ⟨S256, .f32⟩
  | 18 => ⟨S1x256, .f32⟩
  | 19 => ⟨S256, .f32⟩
  | 20 => ⟨S1x256, .f32⟩
  | 21 => ⟨S256, .f32⟩
  | 22 => ⟨S1x256, .f32⟩
  | 23 => ⟨S256, .f32⟩
  | 24 => ⟨S1x256, .f32⟩
  | 25 => ⟨S100000x256, .f32⟩
  | 26 => ⟨S100000x256, .f32⟩
  | 27 => ⟨S_, .f32⟩
  | 28 => ⟨S256, .f32⟩
  | 29 => ⟨S256, .f32⟩
  | 30 => ⟨S256, .f32⟩
  | 31 => ⟨S1x256, .f32⟩
  | 32 => ⟨S100000x256, .f32⟩
  | 33 => ⟨S100000x256, .f32⟩
  | 34 => ⟨S1x256, .f32⟩
  | 35 => ⟨S100000x256, .f32⟩
  | 36 => ⟨S100000x256, .f32⟩
  | 37 => ⟨S1x256, .f32⟩
  | 38 => ⟨S100000x256, .f32⟩
  | 39 => ⟨S100000x256, .f32⟩
  | 40 => ⟨S_, .f32⟩
  | 41 => ⟨S100000x256, .f32⟩
  | 42 => ⟨S100000x256, .f32⟩
  | 43 => ⟨S1x256x128, .f32⟩
  | 44 => ⟨S256x128, .f32⟩
  | 45 => ⟨S100000x128, .f32⟩
  | 46 => ⟨S1x128, .f32⟩
  | 47 => ⟨S128, .f32⟩
  | 48 => ⟨S1x128, .f32⟩
  | 49 => ⟨S100000x128, .f32⟩
  | 50 => ⟨S100000x128, .f32⟩
  | 51 => ⟨S1x128, .f32⟩
  | 52 => ⟨S128, .f32⟩
  | 53 => ⟨S1x128, .f32⟩
  | 54 => ⟨S128, .f32⟩
  | 55 => ⟨S1x128, .f32⟩
  | 56 => ⟨S128, .f32⟩
  | 57 => ⟨S1x128, .f32⟩
  | 58 => ⟨S128, .f32⟩
  | 59 => ⟨S1x128, .f32⟩
  | 60 => ⟨S100000x128, .f32⟩
  | 61 => ⟨S100000x128, .f32⟩
  | 62 => ⟨S_, .f32⟩
  | 63 => ⟨S128, .f32⟩
  | 64 => ⟨S128, .f32⟩
  | 65 => ⟨S128, .f32⟩
  | 66 => ⟨S1x128, .f32⟩
  | 67 => ⟨S100000x128, .f32⟩
  | 68 => ⟨S100000x128, .f32⟩
  | 69 => ⟨S1x128, .f32⟩
  | 70 => ⟨S100000x128, .f32⟩
  | 71 => ⟨S100000x128, .f32⟩
  | 72 => ⟨S1x128, .f32⟩
  | 73 => ⟨S100000x128, .f32⟩
  | 74 => ⟨S100000x128, .f32⟩
  | 75 => ⟨S_, .f32⟩
  | 76 => ⟨S100000x128, .f32⟩
  | 77 => ⟨S100000x128, .f32⟩
  | 78 => ⟨S_, .f32⟩
  | 79 => ⟨S512x128, .f32⟩
  | 80 => ⟨S100000x1, .i32⟩
  | 81 => ⟨S512x128, .f32⟩
  | 82 => ⟨S512x128, .f32⟩
  | 83 => ⟨S1x128x256, .f32⟩
  | 84 => ⟨S128x256, .f32⟩
  | 85 => ⟨S512x256, .f32⟩
  | 86 => ⟨S1x256, .f32⟩
  | 87 => ⟨S256, .f32⟩
  | 88 => ⟨S1x256, .f32⟩
  | 89 => ⟨S512x256, .f32⟩
  | 90 => ⟨S512x256, .f32⟩
  | 91 => ⟨S1x256, .f32⟩
  | 92 => ⟨S256, .f32⟩
  | 93 => ⟨S1x256, .f32⟩
  | 94 => ⟨S256, .f32⟩
  | 95 => ⟨S1x256, .f32⟩
  | 96 => ⟨S256, .f32⟩
  | 97 => ⟨S1x256, .f32⟩
  | 98 => ⟨S256, .f32⟩
  | 99 => ⟨S1x256, .f32⟩
  | 100 => ⟨S512x256, .f32⟩
  | 101 => ⟨S512x256, .f32⟩
  | 102 => ⟨S_, .f32⟩
  | 103 => ⟨S256, .f32⟩
  | 104 => ⟨S256, .f32⟩
  | 105 => ⟨S256, .f32⟩
  | 106 => ⟨S1x256, .f32⟩
  | 107 => ⟨S512x256, .f32⟩
  | 108 => ⟨S512x256, .f32⟩
  | 109 => ⟨S1x256, .f32⟩
  | 110 => ⟨S512x256, .f32⟩
  | 111 => ⟨S512x256, .f32⟩
  | 112 => ⟨S1x256, .f32⟩
  | 113 => ⟨S512x256, .f32⟩
  | 114 => ⟨S512x256, .f32⟩
  | 115 => ⟨S_, .f32⟩
  | 116 => ⟨S512x256, .f32⟩
  | 117 => ⟨S512x256, .f32⟩
  | 118 => ⟨S1x256x128, .f32⟩
  | 119 => ⟨S256x128, .f32⟩
  | 120 => ⟨S512x128, .f32⟩
  | 121 => ⟨S1x128, .f32⟩
  | 122 => ⟨S128, .f32⟩
  | 123 => ⟨S1x128, .f32⟩
  | 124 => ⟨S512x128, .f32⟩
  | 125 => ⟨S512x128, .f32⟩
  | 126 => ⟨S1x128, .f32⟩
  | 127 => ⟨S128, .f32⟩
  | _ => ⟨S100000, .i32⟩

abbrev hbmTy0_3 (i : Nat) : BufTy := match i % 128 with
  | 0 => ⟨S1x128, .f32⟩
  | 1 => ⟨S128, .f32⟩
  | 2 => ⟨S1x128, .f32⟩
  | 3 => ⟨S128, .f32⟩
  | 4 => ⟨S1x128, .f32⟩
  | 5 => ⟨S128, .f32⟩
  | 6 => ⟨S1x128, .f32⟩
  | 7 => ⟨S512x128, .f32⟩
  | 8 => ⟨S512x128, .f32⟩
  | 9 => ⟨S_, .f32⟩
  | 10 => ⟨S128, .f32⟩
  | 11 => ⟨S128, .f32⟩
  | 12 => ⟨S128, .f32⟩
  | 13 => ⟨S1x128, .f32⟩
  | 14 => ⟨S512x128, .f32⟩
  | 15 => ⟨S512x128, .f32⟩
  | 16 => ⟨S1x128, .f32⟩
  | 17 => ⟨S512x128, .f32⟩
  | 18 => ⟨S512x128, .f32⟩
  | 19 => ⟨S1x128, .f32⟩
  | 20 => ⟨S512x128, .f32⟩
  | 21 => ⟨S512x128, .f32⟩
  | 22 => ⟨S_, .f32⟩
  | 23 => ⟨S512x128, .f32⟩
  | 24 => ⟨S512x128, .f32⟩
  | 25 => ⟨S_, .i32⟩
  | 26 => ⟨S100000, .i32⟩
  | 27 => ⟨S100000, .i1⟩
  | 28 => ⟨S_, .i32⟩
  | 29 => ⟨S100000, .i32⟩
  | 30 => ⟨S100000, .i32⟩
  | 31 => ⟨S100000, .i32⟩
  | 32 => ⟨S100000x1, .i32⟩
  | 33 => ⟨S100000x128, .f32⟩
  | 34 => ⟨S100000x128, .f32⟩
  | 35 => ⟨S_, .f32⟩
  | 36 => ⟨S100000x128, .f32⟩
  | 37 => ⟨S_, .i32⟩
  | 38 => ⟨S600000, .i32⟩
  | 39 => ⟨S600000, .i1⟩
  | 40 => ⟨S_, .i32⟩
  | 41 => ⟨S600000, .i32⟩
  | 42 => ⟨S600000, .i32⟩
  | 43 => ⟨S600000, .i32⟩
  | 44 => ⟨S600000x1, .i32⟩
  | 45 => ⟨S600000x128, .f32⟩
  | 46 => ⟨S_, .i32⟩
  | 47 => ⟨S600000, .i32⟩
  | 48 => ⟨S600000, .i1⟩
  | 49 => ⟨S_, .i32⟩
  | 50 => ⟨S600000, .i32⟩
  | 51 => ⟨S600000, .i32⟩
  | 52 => ⟨S600000, .i32⟩
  | 53 => ⟨S600000x1, .i32⟩
  | 54 => ⟨S100000x128, .f32⟩
  | 55 => ⟨S1, .f32⟩
  | 56 => ⟨S_, .f32⟩
  | 57 => ⟨S_, .f32⟩
  | 58 => ⟨S_, .f32⟩
  | 59 => ⟨S100000x128, .f32⟩
  | 60 => ⟨S100000x128, .f32⟩
  | 61 => ⟨S100000x128, .f32⟩
  | 62 => ⟨S1x128x256, .f32⟩
  | 63 => ⟨S128x256, .f32⟩
  | 64 => ⟨S100000x256, .f32⟩
  | 65 => ⟨S1x256, .f32⟩
  | 66 => ⟨S256, .f32⟩
  | 67 => ⟨S1x256, .f32⟩
  | 68 => ⟨S100000x256, .f32⟩
  | 69 => ⟨S100000x256, .f32⟩
  | 70 => ⟨S1x256, .f32⟩
  | 71 => ⟨S256, .f32⟩
  | 72 => ⟨S1x256, .f32⟩
  | 73 => ⟨S256, .f32⟩
  | 74 => ⟨S1x256, .f32⟩
  | 75 => ⟨S256, .f32⟩
  | 76 => ⟨S1x256, .f32⟩
  | 77 => ⟨S256, .f32⟩
  | 78 => ⟨S1x256, .f32⟩
  | 79 => ⟨S100000x256, .f32⟩
  | 80 => ⟨S100000x256, .f32⟩
  | 81 => ⟨S_, .f32⟩
  | 82 => ⟨S256, .f32⟩
  | 83 => ⟨S256, .f32⟩
  | 84 => ⟨S256, .f32⟩
  | 85 => ⟨S1x256, .f32⟩
  | 86 => ⟨S100000x256, .f32⟩
  | 87 => ⟨S100000x256, .f32⟩
  | 88 => ⟨S1x256, .f32⟩
  | 89 => ⟨S100000x256, .f32⟩
  | 90 => ⟨S100000x256, .f32⟩
  | 91 => ⟨S1x256, .f32⟩
  | 92 => ⟨S100000x256, .f32⟩
  | 93 => ⟨S100000x256, .f32⟩
  | 94 => ⟨S_, .f32⟩
  | 95 => ⟨S100000x256, .f32⟩
  | 96 => ⟨S100000x256, .f32⟩
  | 97 => ⟨S1x256x128, .f32⟩
  | 98 => ⟨S256x128, .f32⟩
  | 99 => ⟨S100000x128, .f32⟩
  | 100 => ⟨S1x128, .f32⟩
  | 101 => ⟨S128, .f32⟩
  | 102 => ⟨S1x128, .f32⟩
  | 103 => ⟨S100000x128, .f32⟩
  | 104 => ⟨S100000x128, .f32⟩
  | 105 => ⟨S1x128, .f32⟩
  | 106 => ⟨S128, .f32⟩
  | 107 => ⟨S1x128, .f32⟩
  | 108 => ⟨S128, .f32⟩
  | 109 => ⟨S1x128, .f32⟩
  | 110 => ⟨S128, .f32⟩
  | 111 => ⟨S1x128, .f32⟩
  | 112 => ⟨S128, .f32⟩
  | 113 => ⟨S1x128, .f32⟩
  | 114 => ⟨S100000x128, .f32⟩
  | 115 => ⟨S100000x128, .f32⟩
  | 116 => ⟨S_, .f32⟩
  | 117 => ⟨S128, .f32⟩
  | 118 => ⟨S128, .f32⟩
  | 119 => ⟨S128, .f32⟩
  | 120 => ⟨S1x128, .f32⟩
  | 121 => ⟨S100000x128, .f32⟩
  | 122 => ⟨S100000x128, .f32⟩
  | 123 => ⟨S1x128, .f32⟩
  | 124 => ⟨S100000x128, .f32⟩
  | 125 => ⟨S100000x128, .f32⟩
  | 126 => ⟨S1x128, .f32⟩
  | 127 => ⟨S100000x128, .f32⟩
  | _ => ⟨S100000, .i32⟩

abbrev hbmTy0_4 (i : Nat) : BufTy := match i % 128 with
  | 0 => ⟨S100000x128, .f32⟩
  | 1 => ⟨S_, .f32⟩
  | 2 => ⟨S100000x128, .f32⟩
  | 3 => ⟨S100000x128, .f32⟩
  | 4 => ⟨S_, .f32⟩
  | 5 => ⟨S512x128, .f32⟩
  | 6 => ⟨S100000x1, .i32⟩
  | 7 => ⟨S512x128, .f32⟩
  | 8 => ⟨S512x128, .f32⟩
  | 9 => ⟨S1x128x256, .f32⟩
  | 10 => ⟨S128x256, .f32⟩
  | 11 => ⟨S512x256, .f32⟩
  | 12 => ⟨S1x256, .f32⟩
  | 13 => ⟨S256, .f32⟩
  | 14 => ⟨S1x256, .f32⟩
  | 15 => ⟨S512x256, .f32⟩
  | 16 => ⟨S512x256, .f32⟩
  | 17 => ⟨S1x256, .f32⟩
  | 18 => ⟨S256, .f32⟩
  | 19 => ⟨S1x256, .f32⟩
  | 20 => ⟨S256, .f32⟩
  | 21 => ⟨S1x256, .f32⟩
  | 22 => ⟨S256, .f32⟩
  | 23 => ⟨S1x256, .f32⟩
  | 24 => ⟨S256, .f32⟩
  | 25 => ⟨S1x256, .f32⟩
  | 26 => ⟨S512x256, .f32⟩
  | 27 => ⟨S512x256, .f32⟩
  | 28 => ⟨S_, .f32⟩
  | 29 => ⟨S256, .f32⟩
  | 30 => ⟨S256, .f32⟩
  | 31 => ⟨S256, .f32⟩
  | 32 => ⟨S1x256, .f32⟩
  | 33 => ⟨S512x256, .f32⟩
  | 34 => ⟨S512x256, .f32⟩
  | 35 => ⟨S1x256, .f32⟩
  | 36 => ⟨S512x256, .f32⟩
  | 37 => ⟨S512x256, .f32⟩
  | 38 => ⟨S1x256, .f32⟩
  | 39 => ⟨S512x256, .f32⟩
  | 40 => ⟨S512x256, .f32⟩
  | 41 => ⟨S_, .f32⟩
  | 42 => ⟨S512x256, .f32⟩
  | 43 => ⟨S512x256, .f32⟩
  | 44 => ⟨S1x256x128, .f32⟩
  | 45 => ⟨S256x128, .f32⟩
  | 46 => ⟨S512x128, .f32⟩
  | 47 => ⟨S1x128, .f32⟩
  | 48 => ⟨S128, .f32⟩
  | 49 => ⟨S1x128, .f32⟩
  | 50 => ⟨S512x128, .f32⟩
  | 51 => ⟨S512x128, .f32⟩
  | 52 => ⟨S1x128, .f32⟩
  | 53 => ⟨S128, .f32⟩
  | 54 => ⟨S1x128, .f32⟩
  | 55 => ⟨S128, .f32⟩
  | 56 => ⟨S1x128, .f32⟩
  | 57 => ⟨S128, .f32⟩
  | 58 => ⟨S1x128, .f32⟩
  | 59 => ⟨S128, .f32⟩
  | 60 => ⟨S1x128, .f32⟩
  | 61 => ⟨S512x128, .f32⟩
  | 62 => ⟨S512x128, .f32⟩
  | 63 => ⟨S_, .f32⟩
  | 64 => ⟨S128, .f32⟩
  | 65 => ⟨S128, .f32⟩
  | 66 => ⟨S128, .f32⟩
  | 67 => ⟨S1x128, .f32⟩
  | 68 => ⟨S512x128, .f32⟩
  | 69 => ⟨S512x128, .f32⟩
  | 70 => ⟨S1x128, .f32⟩
  | 71 => ⟨S512x128, .f32⟩
  | 72 => ⟨S512x128, .f32⟩
  | 73 => ⟨S1x128, .f32⟩
  | 74 => ⟨S512x128, .f32⟩
  | 75 => ⟨S512x128, .f32⟩
  | 76 => ⟨S_, .f32⟩
  | 77 => ⟨S512x128, .f32⟩
  | 78 => ⟨S512x128, .f32⟩
  | 79 => ⟨S_, .i32⟩
  | 80 => ⟨S100000, .i32⟩
  | 81 => ⟨S100000, .i1⟩
  | 82 => ⟨S_, .i32⟩
  | 83 => ⟨S100000, .i32⟩
  | 84 => ⟨S100000, .i32⟩
  | 85 => ⟨S100000, .i32⟩
  | 86 => ⟨S100000x1, .i32⟩
  | 87 => ⟨S100000x128, .f32⟩
  | 88 => ⟨S100000x128, .f32⟩
  | 89 => ⟨S_, .f32⟩
  | 90 => ⟨S100000x128, .f32⟩
  | 91 => ⟨S_, .i32⟩
  | 92 => ⟨S600000, .i32⟩
  | 93 => ⟨S600000, .i1⟩
  | 94 => ⟨S_, .i32⟩
  | 95 => ⟨S600000, .i32⟩
  | 96 => ⟨S600000, .i32⟩
  | 97 => ⟨S600000, .i32⟩
  | 98 => ⟨S600000x1, .i32⟩
  | 99 => ⟨S600000x128, .f32⟩
  | 100 => ⟨S_, .i32⟩
  | 101 => ⟨S600000, .i32⟩
  | 102 => ⟨S600000, .i1⟩
  | 103 => ⟨S_, .i32⟩
  | 104 => ⟨S600000, .i32⟩
  | 105 => ⟨S600000, .i32⟩
  | 106 => ⟨S600000, .i32⟩
  | 107 => ⟨S600000x1, .i32⟩
  | 108 => ⟨S100000x128, .f32⟩
  | 109 => ⟨S1, .f32⟩
  | 110 => ⟨S_, .f32⟩
  | 111 => ⟨S_, .f32⟩
  | 112 => ⟨S_, .f32⟩
  | 113 => ⟨S100000x128, .f32⟩
  | 114 => ⟨S100000x128, .f32⟩
  | 115 => ⟨S100000x128, .f32⟩
  | 116 => ⟨S1x128x256, .f32⟩
  | 117 => ⟨S128x256, .f32⟩
  | 118 => ⟨S100000x256, .f32⟩
  | 119 => ⟨S1x256, .f32⟩
  | 120 => ⟨S256, .f32⟩
  | 121 => ⟨S1x256, .f32⟩
  | 122 => ⟨S100000x256, .f32⟩
  | 123 => ⟨S100000x256, .f32⟩
  | 124 => ⟨S1x256, .f32⟩
  | 125 => ⟨S256, .f32⟩
  | 126 => ⟨S1x256, .f32⟩
  | 127 => ⟨S256, .f32⟩
  | _ => ⟨S100000, .i32⟩

abbrev hbmTy0_5 (i : Nat) : BufTy := match i % 128 with
  | 0 => ⟨S1x256, .f32⟩
  | 1 => ⟨S256, .f32⟩
  | 2 => ⟨S1x256, .f32⟩
  | 3 => ⟨S256, .f32⟩
  | 4 => ⟨S1x256, .f32⟩
  | 5 => ⟨S100000x256, .f32⟩
  | 6 => ⟨S100000x256, .f32⟩
  | 7 => ⟨S_, .f32⟩
  | 8 => ⟨S256, .f32⟩
  | 9 => ⟨S256, .f32⟩
  | 10 => ⟨S256, .f32⟩
  | 11 => ⟨S1x256, .f32⟩
  | 12 => ⟨S100000x256, .f32⟩
  | 13 => ⟨S100000x256, .f32⟩
  | 14 => ⟨S1x256, .f32⟩
  | 15 => ⟨S100000x256, .f32⟩
  | 16 => ⟨S100000x256, .f32⟩
  | 17 => ⟨S1x256, .f32⟩
  | 18 => ⟨S100000x256, .f32⟩
  | 19 => ⟨S100000x256, .f32⟩
  | 20 => ⟨S_, .f32⟩
  | 21 => ⟨S100000x256, .f32⟩
  | 22 => ⟨S100000x256, .f32⟩
  | 23 => ⟨S1x256x128, .f32⟩
  | 24 => ⟨S256x128, .f32⟩
  | 25 => ⟨S100000x128, .f32⟩
  | 26 => ⟨S1x128, .f32⟩
  | 27 => ⟨S128, .f32⟩
  | 28 => ⟨S1x128, .f32⟩
  | 29 => ⟨S100000x128, .f32⟩
  | 30 => ⟨S100000x128, .f32⟩
  | 31 => ⟨S1x128, .f32⟩
  | 32 => ⟨S128, .f32⟩
  | 33 => ⟨S1x128, .f32⟩
  | 34 => ⟨S128, .f32⟩
  | 35 => ⟨S1x128, .f32⟩
  | 36 => ⟨S128, .f32⟩
  | 37 => ⟨S1x128, .f32⟩
  | 38 => ⟨S128, .f32⟩
  | 39 => ⟨S1x128, .f32⟩
  | 40 => ⟨S100000x128, .f32⟩
  | 41 => ⟨S100000x128, .f32⟩
  | 42 => ⟨S_, .f32⟩
  | 43 => ⟨S128, .f32⟩
  | 44 => ⟨S128, .f32⟩
  | 45 => ⟨S128, .f32⟩
  | 46 => ⟨S1x128, .f32⟩
  | 47 => ⟨S100000x128, .f32⟩
  | 48 => ⟨S100000x128, .f32⟩
  | 49 => ⟨S1x128, .f32⟩
  | 50 => ⟨S100000x128, .f32⟩
  | 51 => ⟨S100000x128, .f32⟩
  | 52 => ⟨S1x128, .f32⟩
  | 53 => ⟨S100000x128, .f32⟩
  | 54 => ⟨S100000x128, .f32⟩
  | 55 => ⟨S_, .f32⟩
  | 56 => ⟨S100000x128, .f32⟩
  | 57 => ⟨S100000x128, .f32⟩
  | 58 => ⟨S_, .f32⟩
  | 59 => ⟨S512x128, .f32⟩
  | 60 => ⟨S100000x1, .i32⟩
  | 61 => ⟨S512x128, .f32⟩
  | 62 => ⟨S512x128, .f32⟩
  | 63 => ⟨S1x128x256, .f32⟩
  | 64 => ⟨S128x256, .f32⟩
  | 65 => ⟨S512x256, .f32⟩
  | 66 => ⟨S1x256, .f32⟩
  | 67 => ⟨S256, .f32⟩
  | 68 => ⟨S1x256, .f32⟩
  | 69 => ⟨S512x256, .f32⟩
  | 70 => ⟨S512x256, .f32⟩
  | 71 => ⟨S1x256, .f32⟩
  | 72 => ⟨S256, .f32⟩
  | 73 => ⟨S1x256, .f32⟩
  | 74 => ⟨S256, .f32⟩
  | 75 => ⟨S1x256, .f32⟩
  | 76 => ⟨S256, .f32⟩
  | 77 => ⟨S1x256, .f32⟩
  | 78 => ⟨S256, .f32⟩
  | 79 => ⟨S1x256, .f32⟩
  | 80 => ⟨S512x256, .f32⟩
  | 81 => ⟨S512x256, .f32⟩
  | 82 => ⟨S_, .f32⟩
  | 83 => ⟨S256, .f32⟩
  | 84 => ⟨S256, .f32⟩
  | 85 => ⟨S256, .f32⟩
  | 86 => ⟨S1x256, .f32⟩
  | 87 => ⟨S512x256, .f32⟩
  | 88 => ⟨S512x256, .f32⟩
  | 89 => ⟨S1x256, .f32⟩
  | 90 => ⟨S512x256, .f32⟩
  | 91 => ⟨S512x256, .f32⟩
  | 92 => ⟨S1x256, .f32⟩
  | 93 => ⟨S512x256, .f32⟩
  | 94 => ⟨S512x256, .f32⟩
  | 95 => ⟨S_, .f32⟩
  | 96 => ⟨S512x256, .f32⟩
  | 97 => ⟨S512x256, .f32⟩
  | 98 => ⟨S1x256x128, .f32⟩
  | 99 => ⟨S256x128, .f32⟩
  | 100 => ⟨S512x128, .f32⟩
  | 101 => ⟨S1x128, .f32⟩
  | 102 => ⟨S128, .f32⟩
  | 103 => ⟨S1x128, .f32⟩
  | 104 => ⟨S512x128, .f32⟩
  | 105 => ⟨S512x128, .f32⟩
  | 106 => ⟨S1x128, .f32⟩
  | 107 => ⟨S128, .f32⟩
  | 108 => ⟨S1x128, .f32⟩
  | 109 => ⟨S128, .f32⟩
  | 110 => ⟨S1x128, .f32⟩
  | 111 => ⟨S128, .f32⟩
  | 112 => ⟨S1x128, .f32⟩
  | 113 => ⟨S128, .f32⟩
  | 114 => ⟨S1x128, .f32⟩
  | 115 => ⟨S512x128, .f32⟩
  | 116 => ⟨S512x128, .f32⟩
  | 117 => ⟨S_, .f32⟩
  | 118 => ⟨S128, .f32⟩
  | 119 => ⟨S128, .f32⟩
  | 120 => ⟨S128, .f32⟩
  | 121 => ⟨S1x128, .f32⟩
  | 122 => ⟨S512x128, .f32⟩
  | 123 => ⟨S512x128, .f32⟩
  | 124 => ⟨S1x128, .f32⟩
  | 125 => ⟨S512x128, .f32⟩
  | 126 => ⟨S512x128, .f32⟩
  | 127 => ⟨S1x128, .f32⟩
  | _ => ⟨S100000, .i32⟩

abbrev hbmTy0_6 (i : Nat) : BufTy := match i % 128 with
  | 0 => ⟨S512x128, .f32⟩
  | 1 => ⟨S512x128, .f32⟩
  | 2 => ⟨S_, .f32⟩
  | 3 => ⟨S512x128, .f32⟩
  | 4 => ⟨S512x128, .f32⟩
  | 5 => ⟨S_, .i32⟩
  | 6 => ⟨S100000, .i32⟩
  | 7 => ⟨S100000, .i1⟩
  | 8 => ⟨S_, .i32⟩
  | 9 => ⟨S100000, .i32⟩
  | 10 => ⟨S100000, .i32⟩
  | 11 => ⟨S100000, .i32⟩
  | 12 => ⟨S100000x1, .i32⟩
  | 13 => ⟨S100000x128, .f32⟩
  | 14 => ⟨S100000x128, .f32⟩
  | 15 => ⟨S_, .f32⟩
  | 16 => ⟨S100000x128, .f32⟩
  | 17 => ⟨S_, .i32⟩
  | 18 => ⟨S600000, .i32⟩
  | 19 => ⟨S600000, .i1⟩
  | 20 => ⟨S_, .i32⟩
  | 21 => ⟨S600000, .i32⟩
  | 22 => ⟨S600000, .i32⟩
  | 23 => ⟨S600000, .i32⟩
  | 24 => ⟨S600000x1, .i32⟩
  | 25 => ⟨S600000x128, .f32⟩
  | 26 => ⟨S_, .i32⟩
  | 27 => ⟨S600000, .i32⟩
  | 28 => ⟨S600000, .i1⟩
  | 29 => ⟨S_, .i32⟩
  | 30 => ⟨S600000, .i32⟩
  | 31 => ⟨S600000, .i32⟩
  | 32 => ⟨S600000, .i32⟩
  | 33 => ⟨S600000x1, .i32⟩
  | 34 => ⟨S100000x128, .f32⟩
  | 35 => ⟨S1, .f32⟩
  | 36 => ⟨S_, .f32⟩
  | 37 => ⟨S_, .f32⟩
  | 38 => ⟨S_, .f32⟩
  | 39 => ⟨S100000x128, .f32⟩
  | 40 => ⟨S100000x128, .f32⟩
  | 41 => ⟨S100000x128, .f32⟩
  | 42 => ⟨S1x128x256, .f32⟩
  | 43 => ⟨S128x256, .f32⟩
  | 44 => ⟨S100000x256, .f32⟩
  | 45 => ⟨S1x256, .f32⟩
  | 46 => ⟨S256, .f32⟩
  | 47 => ⟨S1x256, .f32⟩
  | 48 => ⟨S100000x256, .f32⟩
  | 49 => ⟨S100000x256, .f32⟩
  | 50 => ⟨S1x256, .f32⟩
  | 51 => ⟨S256, .f32⟩
  | 52 => ⟨S1x256, .f32⟩
  | 53 => ⟨S256, .f32⟩
  | 54 => ⟨S1x256, .f32⟩
  | 55 => ⟨S256, .f32⟩
  | 56 => ⟨S1x256, .f32⟩
  | 57 => ⟨S256, .f32⟩
  | 58 => ⟨S1x256, .f32⟩
  | 59 => ⟨S100000x256, .f32⟩
  | 60 => ⟨S100000x256, .f32⟩
  | 61 => ⟨S_, .f32⟩
  | 62 => ⟨S256, .f32⟩
  | 63 => ⟨S256, .f32⟩
  | 64 => ⟨S256, .f32⟩
  | 65 => ⟨S1x256, .f32⟩
  | 66 => ⟨S100000x256, .f32⟩
  | 67 => ⟨S100000x256, .f32⟩
  | 68 => ⟨S1x256, .f32⟩
  | 69 => ⟨S100000x256, .f32⟩
  | 70 => ⟨S100000x256, .f32⟩
  | 71 => ⟨S1x256, .f32⟩
  | 72 => ⟨S100000x256, .f32⟩
  | 73 => ⟨S100000x256, .f32⟩
  | 74 => ⟨S_, .f32⟩
  | 75 => ⟨S100000x256, .f32⟩
  | 76 => ⟨S100000x256, .f32⟩
  | 77 => ⟨S1x256x128, .f32⟩
  | 78 => ⟨S256x128, .f32⟩
  | 79 => ⟨S100000x128, .f32⟩
  | 80 => ⟨S1x128, .f32⟩
  | 81 => ⟨S128, .f32⟩
  | 82 => ⟨S1x128, .f32⟩
  | 83 => ⟨S100000x128, .f32⟩
  | 84 => ⟨S100000x128, .f32⟩
  | 85 => ⟨S1x128, .f32⟩
  | 86 => ⟨S128, .f32⟩
  | 87 => ⟨S1x128, .f32⟩
  | 88 => ⟨S128, .f32⟩
  | 89 => ⟨S1x128, .f32⟩
  | 90 => ⟨S128, .f32⟩
  | 91 => ⟨S1x128, .f32⟩
  | 92 => ⟨S128, .f32⟩
  | 93 => ⟨S1x128, .f32⟩
  | 94 => ⟨S100000x128, .f32⟩
  | 95 => ⟨S100000x128, .f32⟩
  | 96 => ⟨S_, .f32⟩
  | 97 => ⟨S128, .f32⟩
  | 98 => ⟨S128, .f32⟩
  | 99 => ⟨S128, .f32⟩
  | 100 => ⟨S1x128, .f32⟩
  | 101 => ⟨S100000x128, .f32⟩
  | 102 => ⟨S100000x128, .f32⟩
  | 103 => ⟨S1x128, .f32⟩
  | 104 => ⟨S100000x128, .f32⟩
  | 105 => ⟨S100000x128, .f32⟩
  | 106 => ⟨S1x128, .f32⟩
  | 107 => ⟨S100000x128, .f32⟩
  | 108 => ⟨S100000x128, .f32⟩
  | _ => ⟨S100000, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S100000, .i32⟩

abbrev bufTy : (tb : Table) → Fin (tcTables nBuf tb) → BufTy
  | .hbm, ⟨i, _⟩ => hbmTy i
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_c : Ref sig .tc := ⟨.hbm, 36, rfl⟩
abbrev main_v6 : Ref sig .tc := ⟨.hbm, 37, rfl⟩
abbrev main_v7 : Ref sig .tc := ⟨.hbm, 38, rfl⟩
abbrev main_c_0 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_c_1 : Ref sig .tc := ⟨.hbm, 45, rfl⟩
abbrev main_v13 : Ref sig .tc := ⟨.hbm, 46, rfl⟩
abbrev main_v14 : Ref sig .tc := ⟨.hbm, 47, rfl⟩
abbrev main_c_2 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_cst : Ref sig .tc := ⟨.hbm, 55, rfl⟩
abbrev main_v21 : Ref sig .tc := ⟨.hbm, 56, rfl⟩
abbrev main_c_3 : Ref sig .tc := ⟨.hbm, 57, rfl⟩
abbrev main_v22 : Ref sig .tc := ⟨.hbm, 58, rfl⟩
abbrev main_v23 : Ref sig .tc := ⟨.hbm, 59, rfl⟩
abbrev main_c_4 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_c_5 : Ref sig .tc := ⟨.hbm, 66, rfl⟩
abbrev main_v29 : Ref sig .tc := ⟨.hbm, 67, rfl⟩
abbrev main_v30 : Ref sig .tc := ⟨.hbm, 68, rfl⟩
abbrev main_c_6 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_cst_7 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_cst_8 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_call0_cst : Ref sig .tc := ⟨.hbm, 114, rfl⟩
abbrev main_call0_v0 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_cst_9 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_call1_cst : Ref sig .tc := ⟨.hbm, 149, rfl⟩
abbrev main_call1_v0 : Ref sig .tc := ⟨.hbm, 150, rfl⟩
abbrev main_v105 : Ref sig .tc := ⟨.hbm, 151, rfl⟩
abbrev main_cst_10 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_cst_11 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_call2_cst : Ref sig .tc := ⟨.hbm, 189, rfl⟩
abbrev main_call2_v0 : Ref sig .tc := ⟨.hbm, 190, rfl⟩
abbrev main_v141 : Ref sig .tc := ⟨.hbm, 191, rfl⟩
abbrev main_v142 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_cst_12 : Ref sig .tc := ⟨.hbm, 211, rfl⟩
abbrev main_v161 : Ref sig .tc := ⟨.hbm, 212, rfl⟩
abbrev main_v162 : Ref sig .tc := ⟨.hbm, 213, rfl⟩
abbrev main_v163 : Ref sig .tc := ⟨.hbm, 214, rfl⟩
abbrev main_v164 : Ref sig .tc := ⟨.hbm, 215, rfl⟩
abbrev main_v165 : Ref sig .tc := ⟨.hbm, 216, rfl⟩
abbrev main_v166 : Ref sig .tc := ⟨.hbm, 217, rfl⟩
abbrev main_v167 : Ref sig .tc := ⟨.hbm, 218, rfl⟩
abbrev main_v168 : Ref sig .tc := ⟨.hbm, 219, rfl⟩
abbrev main_v169 : Ref sig .tc := ⟨.hbm, 220, rfl⟩
abbrev main_v170 : Ref sig .tc := ⟨.hbm, 221, rfl⟩
abbrev main_v171 : Ref sig .tc := ⟨.hbm, 222, rfl⟩
abbrev main_v172 : Ref sig .tc := ⟨.hbm, 223, rfl⟩
abbrev main_call3_cst : Ref sig .tc := ⟨.hbm, 224, rfl⟩
abbrev main_call3_v0 : Ref sig .tc := ⟨.hbm, 225, rfl⟩
abbrev main_v173 : Ref sig .tc := ⟨.hbm, 226, rfl⟩
abbrev main_c_13 : Ref sig .tc := ⟨.hbm, 227, rfl⟩
abbrev main_v174 : Ref sig .tc := ⟨.hbm, 228, rfl⟩
abbrev main_v175 : Ref sig .tc := ⟨.hbm, 229, rfl⟩
abbrev main_c_14 : Ref sig .tc := ⟨.hbm, 230, rfl⟩
abbrev main_v176 : Ref sig .tc := ⟨.hbm, 231, rfl⟩
abbrev main_v177 : Ref sig .tc := ⟨.hbm, 232, rfl⟩
abbrev main_v178 : Ref sig .tc := ⟨.hbm, 233, rfl⟩
abbrev main_v179 : Ref sig .tc := ⟨.hbm, 234, rfl⟩
abbrev main_v180 : Ref sig .tc := ⟨.hbm, 235, rfl⟩
abbrev main_v181 : Ref sig .tc := ⟨.hbm, 236, rfl⟩
abbrev main_cst_15 : Ref sig .tc := ⟨.hbm, 237, rfl⟩
abbrev main_v182 : Ref sig .tc := ⟨.hbm, 238, rfl⟩
abbrev main_c_16 : Ref sig .tc := ⟨.hbm, 239, rfl⟩
abbrev main_v183 : Ref sig .tc := ⟨.hbm, 240, rfl⟩
abbrev main_v184 : Ref sig .tc := ⟨.hbm, 241, rfl⟩
abbrev main_c_17 : Ref sig .tc := ⟨.hbm, 242, rfl⟩
abbrev main_v185 : Ref sig .tc := ⟨.hbm, 243, rfl⟩
abbrev main_v186 : Ref sig .tc := ⟨.hbm, 244, rfl⟩
abbrev main_v187 : Ref sig .tc := ⟨.hbm, 245, rfl⟩
abbrev main_v188 : Ref sig .tc := ⟨.hbm, 246, rfl⟩
abbrev main_v189 : Ref sig .tc := ⟨.hbm, 247, rfl⟩
abbrev main_c_18 : Ref sig .tc := ⟨.hbm, 248, rfl⟩
abbrev main_v190 : Ref sig .tc := ⟨.hbm, 249, rfl⟩
abbrev main_v191 : Ref sig .tc := ⟨.hbm, 250, rfl⟩
abbrev main_c_19 : Ref sig .tc := ⟨.hbm, 251, rfl⟩
abbrev main_v192 : Ref sig .tc := ⟨.hbm, 252, rfl⟩
abbrev main_v193 : Ref sig .tc := ⟨.hbm, 253, rfl⟩
abbrev main_v194 : Ref sig .tc := ⟨.hbm, 254, rfl⟩
abbrev main_v195 : Ref sig .tc := ⟨.hbm, 255, rfl⟩
abbrev main_v196 : Ref sig .tc := ⟨.hbm, 256, rfl⟩
abbrev main_v197 : Ref sig .tc := ⟨.hbm, 257, rfl⟩
abbrev main_v198 : Ref sig .tc := ⟨.hbm, 258, rfl⟩
abbrev main_cst_20 : Ref sig .tc := ⟨.hbm, 259, rfl⟩
abbrev main_v199 : Ref sig .tc := ⟨.hbm, 260, rfl⟩
abbrev main_v200 : Ref sig .tc := ⟨.hbm, 261, rfl⟩
abbrev main_v201 : Ref sig .tc := ⟨.hbm, 262, rfl⟩
abbrev main_v202 : Ref sig .tc := ⟨.hbm, 263, rfl⟩
abbrev main_v203 : Ref sig .tc := ⟨.hbm, 264, rfl⟩
abbrev main_v204 : Ref sig .tc := ⟨.hbm, 265, rfl⟩
abbrev main_v205 : Ref sig .tc := ⟨.hbm, 266, rfl⟩
abbrev main_v206 : Ref sig .tc := ⟨.hbm, 267, rfl⟩
abbrev main_v207 : Ref sig .tc := ⟨.hbm, 268, rfl⟩
abbrev main_v208 : Ref sig .tc := ⟨.hbm, 269, rfl⟩
abbrev main_v209 : Ref sig .tc := ⟨.hbm, 270, rfl⟩
abbrev main_v210 : Ref sig .tc := ⟨.hbm, 271, rfl⟩
abbrev main_v211 : Ref sig .tc := ⟨.hbm, 272, rfl⟩
abbrev main_v212 : Ref sig .tc := ⟨.hbm, 273, rfl⟩
abbrev main_v213 : Ref sig .tc := ⟨.hbm, 274, rfl⟩
abbrev main_v214 : Ref sig .tc := ⟨.hbm, 275, rfl⟩
abbrev main_v215 : Ref sig .tc := ⟨.hbm, 276, rfl⟩
abbrev main_v216 : Ref sig .tc := ⟨.hbm, 277, rfl⟩
abbrev main_v217 : Ref sig .tc := ⟨.hbm, 278, rfl⟩
abbrev main_v218 : Ref sig .tc := ⟨.hbm, 279, rfl⟩
abbrev main_v219 : Ref sig .tc := ⟨.hbm, 280, rfl⟩
abbrev main_v220 : Ref sig .tc := ⟨.hbm, 281, rfl⟩
abbrev main_v221 : Ref sig .tc := ⟨.hbm, 282, rfl⟩
abbrev main_cst_21 : Ref sig .tc := ⟨.hbm, 283, rfl⟩
abbrev main_v222 : Ref sig .tc := ⟨.hbm, 284, rfl⟩
abbrev main_v223 : Ref sig .tc := ⟨.hbm, 285, rfl⟩
abbrev main_v224 : Ref sig .tc := ⟨.hbm, 286, rfl⟩
abbrev main_v225 : Ref sig .tc := ⟨.hbm, 287, rfl⟩
abbrev main_v226 : Ref sig .tc := ⟨.hbm, 288, rfl⟩
abbrev main_v227 : Ref sig .tc := ⟨.hbm, 289, rfl⟩
abbrev main_v228 : Ref sig .tc := ⟨.hbm, 290, rfl⟩
abbrev main_v229 : Ref sig .tc := ⟨.hbm, 291, rfl⟩
abbrev main_v230 : Ref sig .tc := ⟨.hbm, 292, rfl⟩
abbrev main_v231 : Ref sig .tc := ⟨.hbm, 293, rfl⟩
abbrev main_v232 : Ref sig .tc := ⟨.hbm, 294, rfl⟩
abbrev main_v233 : Ref sig .tc := ⟨.hbm, 295, rfl⟩
abbrev main_call4_cst : Ref sig .tc := ⟨.hbm, 296, rfl⟩
abbrev main_call4_v0 : Ref sig .tc := ⟨.hbm, 297, rfl⟩
abbrev main_v234 : Ref sig .tc := ⟨.hbm, 298, rfl⟩
abbrev main_v235 : Ref sig .tc := ⟨.hbm, 299, rfl⟩
abbrev main_v236 : Ref sig .tc := ⟨.hbm, 300, rfl⟩
abbrev main_v237 : Ref sig .tc := ⟨.hbm, 301, rfl⟩
abbrev main_v238 : Ref sig .tc := ⟨.hbm, 302, rfl⟩
abbrev main_v239 : Ref sig .tc := ⟨.hbm, 303, rfl⟩
abbrev main_v240 : Ref sig .tc := ⟨.hbm, 304, rfl⟩
abbrev main_v241 : Ref sig .tc := ⟨.hbm, 305, rfl⟩
abbrev main_v242 : Ref sig .tc := ⟨.hbm, 306, rfl⟩
abbrev main_v243 : Ref sig .tc := ⟨.hbm, 307, rfl⟩
abbrev main_v244 : Ref sig .tc := ⟨.hbm, 308, rfl⟩
abbrev main_v245 : Ref sig .tc := ⟨.hbm, 309, rfl⟩
abbrev main_v246 : Ref sig .tc := ⟨.hbm, 310, rfl⟩
abbrev main_v247 : Ref sig .tc := ⟨.hbm, 311, rfl⟩
abbrev main_v248 : Ref sig .tc := ⟨.hbm, 312, rfl⟩
abbrev main_v249 : Ref sig .tc := ⟨.hbm, 313, rfl⟩
abbrev main_v250 : Ref sig .tc := ⟨.hbm, 314, rfl⟩
abbrev main_v251 : Ref sig .tc := ⟨.hbm, 315, rfl⟩
abbrev main_v252 : Ref sig .tc := ⟨.hbm, 316, rfl⟩
abbrev main_v253 : Ref sig .tc := ⟨.hbm, 317, rfl⟩
abbrev main_cst_22 : Ref sig .tc := ⟨.hbm, 318, rfl⟩
abbrev main_v254 : Ref sig .tc := ⟨.hbm, 319, rfl⟩
abbrev main_v255 : Ref sig .tc := ⟨.hbm, 320, rfl⟩
abbrev main_v256 : Ref sig .tc := ⟨.hbm, 321, rfl⟩
abbrev main_v257 : Ref sig .tc := ⟨.hbm, 322, rfl⟩
abbrev main_v258 : Ref sig .tc := ⟨.hbm, 323, rfl⟩
abbrev main_v259 : Ref sig .tc := ⟨.hbm, 324, rfl⟩
abbrev main_v260 : Ref sig .tc := ⟨.hbm, 325, rfl⟩
abbrev main_v261 : Ref sig .tc := ⟨.hbm, 326, rfl⟩
abbrev main_v262 : Ref sig .tc := ⟨.hbm, 327, rfl⟩
abbrev main_v263 : Ref sig .tc := ⟨.hbm, 328, rfl⟩
abbrev main_v264 : Ref sig .tc := ⟨.hbm, 329, rfl⟩
abbrev main_v265 : Ref sig .tc := ⟨.hbm, 330, rfl⟩
abbrev main_call5_cst : Ref sig .tc := ⟨.hbm, 331, rfl⟩
abbrev main_call5_v0 : Ref sig .tc := ⟨.hbm, 332, rfl⟩
abbrev main_v266 : Ref sig .tc := ⟨.hbm, 333, rfl⟩
abbrev main_cst_23 : Ref sig .tc := ⟨.hbm, 334, rfl⟩
abbrev main_v267 : Ref sig .tc := ⟨.hbm, 335, rfl⟩
abbrev main_v268 : Ref sig .tc := ⟨.hbm, 336, rfl⟩
abbrev main_v269 : Ref sig .tc := ⟨.hbm, 337, rfl⟩
abbrev main_v270 : Ref sig .tc := ⟨.hbm, 338, rfl⟩
abbrev main_v271 : Ref sig .tc := ⟨.hbm, 339, rfl⟩
abbrev main_v272 : Ref sig .tc := ⟨.hbm, 340, rfl⟩
abbrev main_v273 : Ref sig .tc := ⟨.hbm, 341, rfl⟩
abbrev main_v274 : Ref sig .tc := ⟨.hbm, 342, rfl⟩
abbrev main_v275 : Ref sig .tc := ⟨.hbm, 343, rfl⟩
abbrev main_v276 : Ref sig .tc := ⟨.hbm, 344, rfl⟩
abbrev main_v277 : Ref sig .tc := ⟨.hbm, 345, rfl⟩
abbrev main_v278 : Ref sig .tc := ⟨.hbm, 346, rfl⟩
abbrev main_v279 : Ref sig .tc := ⟨.hbm, 347, rfl⟩
abbrev main_v280 : Ref sig .tc := ⟨.hbm, 348, rfl⟩
abbrev main_v281 : Ref sig .tc := ⟨.hbm, 349, rfl⟩
abbrev main_v282 : Ref sig .tc := ⟨.hbm, 350, rfl⟩
abbrev main_v283 : Ref sig .tc := ⟨.hbm, 351, rfl⟩
abbrev main_v284 : Ref sig .tc := ⟨.hbm, 352, rfl⟩
abbrev main_v285 : Ref sig .tc := ⟨.hbm, 353, rfl⟩
abbrev main_v286 : Ref sig .tc := ⟨.hbm, 354, rfl⟩
abbrev main_v287 : Ref sig .tc := ⟨.hbm, 355, rfl⟩
abbrev main_v288 : Ref sig .tc := ⟨.hbm, 356, rfl⟩
abbrev main_v289 : Ref sig .tc := ⟨.hbm, 357, rfl⟩
abbrev main_cst_24 : Ref sig .tc := ⟨.hbm, 358, rfl⟩
abbrev main_v290 : Ref sig .tc := ⟨.hbm, 359, rfl⟩
abbrev main_v291 : Ref sig .tc := ⟨.hbm, 360, rfl⟩
abbrev main_v292 : Ref sig .tc := ⟨.hbm, 361, rfl⟩
abbrev main_v293 : Ref sig .tc := ⟨.hbm, 362, rfl⟩
abbrev main_v294 : Ref sig .tc := ⟨.hbm, 363, rfl⟩
abbrev main_v295 : Ref sig .tc := ⟨.hbm, 364, rfl⟩
abbrev main_v296 : Ref sig .tc := ⟨.hbm, 365, rfl⟩
abbrev main_v297 : Ref sig .tc := ⟨.hbm, 366, rfl⟩
abbrev main_v298 : Ref sig .tc := ⟨.hbm, 367, rfl⟩
abbrev main_v299 : Ref sig .tc := ⟨.hbm, 368, rfl⟩
abbrev main_v300 : Ref sig .tc := ⟨.hbm, 369, rfl⟩
abbrev main_v301 : Ref sig .tc := ⟨.hbm, 370, rfl⟩
abbrev main_call6_cst : Ref sig .tc := ⟨.hbm, 371, rfl⟩
abbrev main_call6_v0 : Ref sig .tc := ⟨.hbm, 372, rfl⟩
abbrev main_v302 : Ref sig .tc := ⟨.hbm, 373, rfl⟩
abbrev main_v303 : Ref sig .tc := ⟨.hbm, 374, rfl⟩
abbrev main_v304 : Ref sig .tc := ⟨.hbm, 375, rfl⟩
abbrev main_v305 : Ref sig .tc := ⟨.hbm, 376, rfl⟩
abbrev main_v306 : Ref sig .tc := ⟨.hbm, 377, rfl⟩
abbrev main_v307 : Ref sig .tc := ⟨.hbm, 378, rfl⟩
abbrev main_v308 : Ref sig .tc := ⟨.hbm, 379, rfl⟩
abbrev main_v309 : Ref sig .tc := ⟨.hbm, 380, rfl⟩
abbrev main_v310 : Ref sig .tc := ⟨.hbm, 381, rfl⟩
abbrev main_v311 : Ref sig .tc := ⟨.hbm, 382, rfl⟩
abbrev main_v312 : Ref sig .tc := ⟨.hbm, 383, rfl⟩
abbrev main_v313 : Ref sig .tc := ⟨.hbm, 384, rfl⟩
abbrev main_v314 : Ref sig .tc := ⟨.hbm, 385, rfl⟩
abbrev main_v315 : Ref sig .tc := ⟨.hbm, 386, rfl⟩
abbrev main_v316 : Ref sig .tc := ⟨.hbm, 387, rfl⟩
abbrev main_v317 : Ref sig .tc := ⟨.hbm, 388, rfl⟩
abbrev main_v318 : Ref sig .tc := ⟨.hbm, 389, rfl⟩
abbrev main_v319 : Ref sig .tc := ⟨.hbm, 390, rfl⟩
abbrev main_v320 : Ref sig .tc := ⟨.hbm, 391, rfl⟩
abbrev main_v321 : Ref sig .tc := ⟨.hbm, 392, rfl⟩
abbrev main_cst_25 : Ref sig .tc := ⟨.hbm, 393, rfl⟩
abbrev main_v322 : Ref sig .tc := ⟨.hbm, 394, rfl⟩
abbrev main_v323 : Ref sig .tc := ⟨.hbm, 395, rfl⟩
abbrev main_v324 : Ref sig .tc := ⟨.hbm, 396, rfl⟩
abbrev main_v325 : Ref sig .tc := ⟨.hbm, 397, rfl⟩
abbrev main_v326 : Ref sig .tc := ⟨.hbm, 398, rfl⟩
abbrev main_v327 : Ref sig .tc := ⟨.hbm, 399, rfl⟩
abbrev main_v328 : Ref sig .tc := ⟨.hbm, 400, rfl⟩
abbrev main_v329 : Ref sig .tc := ⟨.hbm, 401, rfl⟩
abbrev main_v330 : Ref sig .tc := ⟨.hbm, 402, rfl⟩
abbrev main_v331 : Ref sig .tc := ⟨.hbm, 403, rfl⟩
abbrev main_v332 : Ref sig .tc := ⟨.hbm, 404, rfl⟩
abbrev main_v333 : Ref sig .tc := ⟨.hbm, 405, rfl⟩
abbrev main_call7_cst : Ref sig .tc := ⟨.hbm, 406, rfl⟩
abbrev main_call7_v0 : Ref sig .tc := ⟨.hbm, 407, rfl⟩
abbrev main_v334 : Ref sig .tc := ⟨.hbm, 408, rfl⟩
abbrev main_c_26 : Ref sig .tc := ⟨.hbm, 409, rfl⟩
abbrev main_v335 : Ref sig .tc := ⟨.hbm, 410, rfl⟩
abbrev main_v336 : Ref sig .tc := ⟨.hbm, 411, rfl⟩
abbrev main_c_27 : Ref sig .tc := ⟨.hbm, 412, rfl⟩
abbrev main_v337 : Ref sig .tc := ⟨.hbm, 413, rfl⟩
abbrev main_v338 : Ref sig .tc := ⟨.hbm, 414, rfl⟩
abbrev main_v339 : Ref sig .tc := ⟨.hbm, 415, rfl⟩
abbrev main_v340 : Ref sig .tc := ⟨.hbm, 416, rfl⟩
abbrev main_v341 : Ref sig .tc := ⟨.hbm, 417, rfl⟩
abbrev main_v342 : Ref sig .tc := ⟨.hbm, 418, rfl⟩
abbrev main_cst_28 : Ref sig .tc := ⟨.hbm, 419, rfl⟩
abbrev main_v343 : Ref sig .tc := ⟨.hbm, 420, rfl⟩
abbrev main_c_29 : Ref sig .tc := ⟨.hbm, 421, rfl⟩
abbrev main_v344 : Ref sig .tc := ⟨.hbm, 422, rfl⟩
abbrev main_v345 : Ref sig .tc := ⟨.hbm, 423, rfl⟩
abbrev main_c_30 : Ref sig .tc := ⟨.hbm, 424, rfl⟩
abbrev main_v346 : Ref sig .tc := ⟨.hbm, 425, rfl⟩
abbrev main_v347 : Ref sig .tc := ⟨.hbm, 426, rfl⟩
abbrev main_v348 : Ref sig .tc := ⟨.hbm, 427, rfl⟩
abbrev main_v349 : Ref sig .tc := ⟨.hbm, 428, rfl⟩
abbrev main_v350 : Ref sig .tc := ⟨.hbm, 429, rfl⟩
abbrev main_c_31 : Ref sig .tc := ⟨.hbm, 430, rfl⟩
abbrev main_v351 : Ref sig .tc := ⟨.hbm, 431, rfl⟩
abbrev main_v352 : Ref sig .tc := ⟨.hbm, 432, rfl⟩
abbrev main_c_32 : Ref sig .tc := ⟨.hbm, 433, rfl⟩
abbrev main_v353 : Ref sig .tc := ⟨.hbm, 434, rfl⟩
abbrev main_v354 : Ref sig .tc := ⟨.hbm, 435, rfl⟩
abbrev main_v355 : Ref sig .tc := ⟨.hbm, 436, rfl⟩
abbrev main_v356 : Ref sig .tc := ⟨.hbm, 437, rfl⟩
abbrev main_v357 : Ref sig .tc := ⟨.hbm, 438, rfl⟩
abbrev main_v358 : Ref sig .tc := ⟨.hbm, 439, rfl⟩
abbrev main_v359 : Ref sig .tc := ⟨.hbm, 440, rfl⟩
abbrev main_cst_33 : Ref sig .tc := ⟨.hbm, 441, rfl⟩
abbrev main_v360 : Ref sig .tc := ⟨.hbm, 442, rfl⟩
abbrev main_v361 : Ref sig .tc := ⟨.hbm, 443, rfl⟩
abbrev main_v362 : Ref sig .tc := ⟨.hbm, 444, rfl⟩
abbrev main_v363 : Ref sig .tc := ⟨.hbm, 445, rfl⟩
abbrev main_v364 : Ref sig .tc := ⟨.hbm, 446, rfl⟩
abbrev main_v365 : Ref sig .tc := ⟨.hbm, 447, rfl⟩
abbrev main_v366 : Ref sig .tc := ⟨.hbm, 448, rfl⟩
abbrev main_v367 : Ref sig .tc := ⟨.hbm, 449, rfl⟩
abbrev main_v368 : Ref sig .tc := ⟨.hbm, 450, rfl⟩
abbrev main_v369 : Ref sig .tc := ⟨.hbm, 451, rfl⟩
abbrev main_v370 : Ref sig .tc := ⟨.hbm, 452, rfl⟩
abbrev main_v371 : Ref sig .tc := ⟨.hbm, 453, rfl⟩
abbrev main_v372 : Ref sig .tc := ⟨.hbm, 454, rfl⟩
abbrev main_v373 : Ref sig .tc := ⟨.hbm, 455, rfl⟩
abbrev main_v374 : Ref sig .tc := ⟨.hbm, 456, rfl⟩
abbrev main_v375 : Ref sig .tc := ⟨.hbm, 457, rfl⟩
abbrev main_v376 : Ref sig .tc := ⟨.hbm, 458, rfl⟩
abbrev main_v377 : Ref sig .tc := ⟨.hbm, 459, rfl⟩
abbrev main_v378 : Ref sig .tc := ⟨.hbm, 460, rfl⟩
abbrev main_v379 : Ref sig .tc := ⟨.hbm, 461, rfl⟩
abbrev main_v380 : Ref sig .tc := ⟨.hbm, 462, rfl⟩
abbrev main_v381 : Ref sig .tc := ⟨.hbm, 463, rfl⟩
abbrev main_v382 : Ref sig .tc := ⟨.hbm, 464, rfl⟩
abbrev main_cst_34 : Ref sig .tc := ⟨.hbm, 465, rfl⟩
abbrev main_v383 : Ref sig .tc := ⟨.hbm, 466, rfl⟩
abbrev main_v384 : Ref sig .tc := ⟨.hbm, 467, rfl⟩
abbrev main_v385 : Ref sig .tc := ⟨.hbm, 468, rfl⟩
abbrev main_v386 : Ref sig .tc := ⟨.hbm, 469, rfl⟩
abbrev main_v387 : Ref sig .tc := ⟨.hbm, 470, rfl⟩
abbrev main_v388 : Ref sig .tc := ⟨.hbm, 471, rfl⟩
abbrev main_v389 : Ref sig .tc := ⟨.hbm, 472, rfl⟩
abbrev main_v390 : Ref sig .tc := ⟨.hbm, 473, rfl⟩
abbrev main_v391 : Ref sig .tc := ⟨.hbm, 474, rfl⟩
abbrev main_v392 : Ref sig .tc := ⟨.hbm, 475, rfl⟩
abbrev main_v393 : Ref sig .tc := ⟨.hbm, 476, rfl⟩
abbrev main_v394 : Ref sig .tc := ⟨.hbm, 477, rfl⟩
abbrev main_call8_cst : Ref sig .tc := ⟨.hbm, 478, rfl⟩
abbrev main_call8_v0 : Ref sig .tc := ⟨.hbm, 479, rfl⟩
abbrev main_v395 : Ref sig .tc := ⟨.hbm, 480, rfl⟩
abbrev main_v396 : Ref sig .tc := ⟨.hbm, 481, rfl⟩
abbrev main_v397 : Ref sig .tc := ⟨.hbm, 482, rfl⟩
abbrev main_v398 : Ref sig .tc := ⟨.hbm, 483, rfl⟩
abbrev main_v399 : Ref sig .tc := ⟨.hbm, 484, rfl⟩
abbrev main_v400 : Ref sig .tc := ⟨.hbm, 485, rfl⟩
abbrev main_v401 : Ref sig .tc := ⟨.hbm, 486, rfl⟩
abbrev main_v402 : Ref sig .tc := ⟨.hbm, 487, rfl⟩
abbrev main_v403 : Ref sig .tc := ⟨.hbm, 488, rfl⟩
abbrev main_v404 : Ref sig .tc := ⟨.hbm, 489, rfl⟩
abbrev main_v405 : Ref sig .tc := ⟨.hbm, 490, rfl⟩
abbrev main_v406 : Ref sig .tc := ⟨.hbm, 491, rfl⟩
abbrev main_v407 : Ref sig .tc := ⟨.hbm, 492, rfl⟩
abbrev main_v408 : Ref sig .tc := ⟨.hbm, 493, rfl⟩
abbrev main_v409 : Ref sig .tc := ⟨.hbm, 494, rfl⟩
abbrev main_v410 : Ref sig .tc := ⟨.hbm, 495, rfl⟩
abbrev main_v411 : Ref sig .tc := ⟨.hbm, 496, rfl⟩
abbrev main_v412 : Ref sig .tc := ⟨.hbm, 497, rfl⟩
abbrev main_v413 : Ref sig .tc := ⟨.hbm, 498, rfl⟩
abbrev main_v414 : Ref sig .tc := ⟨.hbm, 499, rfl⟩
abbrev main_cst_35 : Ref sig .tc := ⟨.hbm, 500, rfl⟩
abbrev main_v415 : Ref sig .tc := ⟨.hbm, 501, rfl⟩
abbrev main_v416 : Ref sig .tc := ⟨.hbm, 502, rfl⟩
abbrev main_v417 : Ref sig .tc := ⟨.hbm, 503, rfl⟩
abbrev main_v418 : Ref sig .tc := ⟨.hbm, 504, rfl⟩
abbrev main_v419 : Ref sig .tc := ⟨.hbm, 505, rfl⟩
abbrev main_v420 : Ref sig .tc := ⟨.hbm, 506, rfl⟩
abbrev main_v421 : Ref sig .tc := ⟨.hbm, 507, rfl⟩
abbrev main_v422 : Ref sig .tc := ⟨.hbm, 508, rfl⟩
abbrev main_v423 : Ref sig .tc := ⟨.hbm, 509, rfl⟩
abbrev main_v424 : Ref sig .tc := ⟨.hbm, 510, rfl⟩
abbrev main_v425 : Ref sig .tc := ⟨.hbm, 511, rfl⟩
abbrev main_v426 : Ref sig .tc := ⟨.hbm, 512, rfl⟩
abbrev main_call9_cst : Ref sig .tc := ⟨.hbm, 513, rfl⟩
abbrev main_call9_v0 : Ref sig .tc := ⟨.hbm, 514, rfl⟩
abbrev main_v427 : Ref sig .tc := ⟨.hbm, 515, rfl⟩
abbrev main_cst_36 : Ref sig .tc := ⟨.hbm, 516, rfl⟩
abbrev main_v428 : Ref sig .tc := ⟨.hbm, 517, rfl⟩
abbrev main_v429 : Ref sig .tc := ⟨.hbm, 518, rfl⟩
abbrev main_v430 : Ref sig .tc := ⟨.hbm, 519, rfl⟩
abbrev main_v431 : Ref sig .tc := ⟨.hbm, 520, rfl⟩
abbrev main_v432 : Ref sig .tc := ⟨.hbm, 521, rfl⟩
abbrev main_v433 : Ref sig .tc := ⟨.hbm, 522, rfl⟩
abbrev main_v434 : Ref sig .tc := ⟨.hbm, 523, rfl⟩
abbrev main_v435 : Ref sig .tc := ⟨.hbm, 524, rfl⟩
abbrev main_v436 : Ref sig .tc := ⟨.hbm, 525, rfl⟩
abbrev main_v437 : Ref sig .tc := ⟨.hbm, 526, rfl⟩
abbrev main_v438 : Ref sig .tc := ⟨.hbm, 527, rfl⟩
abbrev main_v439 : Ref sig .tc := ⟨.hbm, 528, rfl⟩
abbrev main_v440 : Ref sig .tc := ⟨.hbm, 529, rfl⟩
abbrev main_v441 : Ref sig .tc := ⟨.hbm, 530, rfl⟩
abbrev main_v442 : Ref sig .tc := ⟨.hbm, 531, rfl⟩
abbrev main_v443 : Ref sig .tc := ⟨.hbm, 532, rfl⟩
abbrev main_v444 : Ref sig .tc := ⟨.hbm, 533, rfl⟩
abbrev main_v445 : Ref sig .tc := ⟨.hbm, 534, rfl⟩
abbrev main_v446 : Ref sig .tc := ⟨.hbm, 535, rfl⟩
abbrev main_v447 : Ref sig .tc := ⟨.hbm, 536, rfl⟩
abbrev main_v448 : Ref sig .tc := ⟨.hbm, 537, rfl⟩
abbrev main_v449 : Ref sig .tc := ⟨.hbm, 538, rfl⟩
abbrev main_v450 : Ref sig .tc := ⟨.hbm, 539, rfl⟩
abbrev main_cst_37 : Ref sig .tc := ⟨.hbm, 540, rfl⟩
abbrev main_v451 : Ref sig .tc := ⟨.hbm, 541, rfl⟩
abbrev main_v452 : Ref sig .tc := ⟨.hbm, 542, rfl⟩
abbrev main_v453 : Ref sig .tc := ⟨.hbm, 543, rfl⟩
abbrev main_v454 : Ref sig .tc := ⟨.hbm, 544, rfl⟩
abbrev main_v455 : Ref sig .tc := ⟨.hbm, 545, rfl⟩
abbrev main_v456 : Ref sig .tc := ⟨.hbm, 546, rfl⟩
abbrev main_v457 : Ref sig .tc := ⟨.hbm, 547, rfl⟩
abbrev main_v458 : Ref sig .tc := ⟨.hbm, 548, rfl⟩
abbrev main_v459 : Ref sig .tc := ⟨.hbm, 549, rfl⟩
abbrev main_v460 : Ref sig .tc := ⟨.hbm, 550, rfl⟩
abbrev main_v461 : Ref sig .tc := ⟨.hbm, 551, rfl⟩
abbrev main_v462 : Ref sig .tc := ⟨.hbm, 552, rfl⟩
abbrev main_call10_cst : Ref sig .tc := ⟨.hbm, 553, rfl⟩
abbrev main_call10_v0 : Ref sig .tc := ⟨.hbm, 554, rfl⟩
abbrev main_v463 : Ref sig .tc := ⟨.hbm, 555, rfl⟩
abbrev main_v464 : Ref sig .tc := ⟨.hbm, 556, rfl⟩
abbrev main_v465 : Ref sig .tc := ⟨.hbm, 557, rfl⟩
abbrev main_v466 : Ref sig .tc := ⟨.hbm, 558, rfl⟩
abbrev main_v467 : Ref sig .tc := ⟨.hbm, 559, rfl⟩
abbrev main_v468 : Ref sig .tc := ⟨.hbm, 560, rfl⟩
abbrev main_v469 : Ref sig .tc := ⟨.hbm, 561, rfl⟩
abbrev main_v470 : Ref sig .tc := ⟨.hbm, 562, rfl⟩
abbrev main_v471 : Ref sig .tc := ⟨.hbm, 563, rfl⟩
abbrev main_v472 : Ref sig .tc := ⟨.hbm, 564, rfl⟩
abbrev main_v473 : Ref sig .tc := ⟨.hbm, 565, rfl⟩
abbrev main_v474 : Ref sig .tc := ⟨.hbm, 566, rfl⟩
abbrev main_v475 : Ref sig .tc := ⟨.hbm, 567, rfl⟩
abbrev main_v476 : Ref sig .tc := ⟨.hbm, 568, rfl⟩
abbrev main_v477 : Ref sig .tc := ⟨.hbm, 569, rfl⟩
abbrev main_v478 : Ref sig .tc := ⟨.hbm, 570, rfl⟩
abbrev main_v479 : Ref sig .tc := ⟨.hbm, 571, rfl⟩
abbrev main_v480 : Ref sig .tc := ⟨.hbm, 572, rfl⟩
abbrev main_v481 : Ref sig .tc := ⟨.hbm, 573, rfl⟩
abbrev main_v482 : Ref sig .tc := ⟨.hbm, 574, rfl⟩
abbrev main_cst_38 : Ref sig .tc := ⟨.hbm, 575, rfl⟩
abbrev main_v483 : Ref sig .tc := ⟨.hbm, 576, rfl⟩
abbrev main_v484 : Ref sig .tc := ⟨.hbm, 577, rfl⟩
abbrev main_v485 : Ref sig .tc := ⟨.hbm, 578, rfl⟩
abbrev main_v486 : Ref sig .tc := ⟨.hbm, 579, rfl⟩
abbrev main_v487 : Ref sig .tc := ⟨.hbm, 580, rfl⟩
abbrev main_v488 : Ref sig .tc := ⟨.hbm, 581, rfl⟩
abbrev main_v489 : Ref sig .tc := ⟨.hbm, 582, rfl⟩
abbrev main_v490 : Ref sig .tc := ⟨.hbm, 583, rfl⟩
abbrev main_v491 : Ref sig .tc := ⟨.hbm, 584, rfl⟩
abbrev main_v492 : Ref sig .tc := ⟨.hbm, 585, rfl⟩
abbrev main_v493 : Ref sig .tc := ⟨.hbm, 586, rfl⟩
abbrev main_v494 : Ref sig .tc := ⟨.hbm, 587, rfl⟩
abbrev main_call11_cst : Ref sig .tc := ⟨.hbm, 588, rfl⟩
abbrev main_call11_v0 : Ref sig .tc := ⟨.hbm, 589, rfl⟩
abbrev main_v495 : Ref sig .tc := ⟨.hbm, 590, rfl⟩
abbrev main_c_39 : Ref sig .tc := ⟨.hbm, 591, rfl⟩
abbrev main_v496 : Ref sig .tc := ⟨.hbm, 592, rfl⟩
abbrev main_v497 : Ref sig .tc := ⟨.hbm, 593, rfl⟩
abbrev main_c_40 : Ref sig .tc := ⟨.hbm, 594, rfl⟩
abbrev main_v498 : Ref sig .tc := ⟨.hbm, 595, rfl⟩
abbrev main_v499 : Ref sig .tc := ⟨.hbm, 596, rfl⟩
abbrev main_v500 : Ref sig .tc := ⟨.hbm, 597, rfl⟩
abbrev main_v501 : Ref sig .tc := ⟨.hbm, 598, rfl⟩
abbrev main_v502 : Ref sig .tc := ⟨.hbm, 599, rfl⟩
abbrev main_v503 : Ref sig .tc := ⟨.hbm, 600, rfl⟩
abbrev main_cst_41 : Ref sig .tc := ⟨.hbm, 601, rfl⟩
abbrev main_v504 : Ref sig .tc := ⟨.hbm, 602, rfl⟩
abbrev main_c_42 : Ref sig .tc := ⟨.hbm, 603, rfl⟩
abbrev main_v505 : Ref sig .tc := ⟨.hbm, 604, rfl⟩
abbrev main_v506 : Ref sig .tc := ⟨.hbm, 605, rfl⟩
abbrev main_c_43 : Ref sig .tc := ⟨.hbm, 606, rfl⟩
abbrev main_v507 : Ref sig .tc := ⟨.hbm, 607, rfl⟩
abbrev main_v508 : Ref sig .tc := ⟨.hbm, 608, rfl⟩
abbrev main_v509 : Ref sig .tc := ⟨.hbm, 609, rfl⟩
abbrev main_v510 : Ref sig .tc := ⟨.hbm, 610, rfl⟩
abbrev main_v511 : Ref sig .tc := ⟨.hbm, 611, rfl⟩
abbrev main_c_44 : Ref sig .tc := ⟨.hbm, 612, rfl⟩
abbrev main_v512 : Ref sig .tc := ⟨.hbm, 613, rfl⟩
abbrev main_v513 : Ref sig .tc := ⟨.hbm, 614, rfl⟩
abbrev main_c_45 : Ref sig .tc := ⟨.hbm, 615, rfl⟩
abbrev main_v514 : Ref sig .tc := ⟨.hbm, 616, rfl⟩
abbrev main_v515 : Ref sig .tc := ⟨.hbm, 617, rfl⟩
abbrev main_v516 : Ref sig .tc := ⟨.hbm, 618, rfl⟩
abbrev main_v517 : Ref sig .tc := ⟨.hbm, 619, rfl⟩
abbrev main_v518 : Ref sig .tc := ⟨.hbm, 620, rfl⟩
abbrev main_v519 : Ref sig .tc := ⟨.hbm, 621, rfl⟩
abbrev main_v520 : Ref sig .tc := ⟨.hbm, 622, rfl⟩
abbrev main_cst_46 : Ref sig .tc := ⟨.hbm, 623, rfl⟩
abbrev main_v521 : Ref sig .tc := ⟨.hbm, 624, rfl⟩
abbrev main_v522 : Ref sig .tc := ⟨.hbm, 625, rfl⟩
abbrev main_v523 : Ref sig .tc := ⟨.hbm, 626, rfl⟩
abbrev main_v524 : Ref sig .tc := ⟨.hbm, 627, rfl⟩
abbrev main_v525 : Ref sig .tc := ⟨.hbm, 628, rfl⟩
abbrev main_v526 : Ref sig .tc := ⟨.hbm, 629, rfl⟩
abbrev main_v527 : Ref sig .tc := ⟨.hbm, 630, rfl⟩
abbrev main_v528 : Ref sig .tc := ⟨.hbm, 631, rfl⟩
abbrev main_v529 : Ref sig .tc := ⟨.hbm, 632, rfl⟩
abbrev main_v530 : Ref sig .tc := ⟨.hbm, 633, rfl⟩
abbrev main_v531 : Ref sig .tc := ⟨.hbm, 634, rfl⟩
abbrev main_v532 : Ref sig .tc := ⟨.hbm, 635, rfl⟩
abbrev main_v533 : Ref sig .tc := ⟨.hbm, 636, rfl⟩
abbrev main_v534 : Ref sig .tc := ⟨.hbm, 637, rfl⟩
abbrev main_v535 : Ref sig .tc := ⟨.hbm, 638, rfl⟩
abbrev main_v536 : Ref sig .tc := ⟨.hbm, 639, rfl⟩
abbrev main_v537 : Ref sig .tc := ⟨.hbm, 640, rfl⟩
abbrev main_v538 : Ref sig .tc := ⟨.hbm, 641, rfl⟩
abbrev main_v539 : Ref sig .tc := ⟨.hbm, 642, rfl⟩
abbrev main_v540 : Ref sig .tc := ⟨.hbm, 643, rfl⟩
abbrev main_v541 : Ref sig .tc := ⟨.hbm, 644, rfl⟩
abbrev main_v542 : Ref sig .tc := ⟨.hbm, 645, rfl⟩
abbrev main_v543 : Ref sig .tc := ⟨.hbm, 646, rfl⟩
abbrev main_cst_47 : Ref sig .tc := ⟨.hbm, 647, rfl⟩
abbrev main_v544 : Ref sig .tc := ⟨.hbm, 648, rfl⟩
abbrev main_v545 : Ref sig .tc := ⟨.hbm, 649, rfl⟩
abbrev main_v546 : Ref sig .tc := ⟨.hbm, 650, rfl⟩
abbrev main_v547 : Ref sig .tc := ⟨.hbm, 651, rfl⟩
abbrev main_v548 : Ref sig .tc := ⟨.hbm, 652, rfl⟩
abbrev main_v549 : Ref sig .tc := ⟨.hbm, 653, rfl⟩
abbrev main_v550 : Ref sig .tc := ⟨.hbm, 654, rfl⟩
abbrev main_v551 : Ref sig .tc := ⟨.hbm, 655, rfl⟩
abbrev main_v552 : Ref sig .tc := ⟨.hbm, 656, rfl⟩
abbrev main_v553 : Ref sig .tc := ⟨.hbm, 657, rfl⟩
abbrev main_v554 : Ref sig .tc := ⟨.hbm, 658, rfl⟩
abbrev main_v555 : Ref sig .tc := ⟨.hbm, 659, rfl⟩
abbrev main_call12_cst : Ref sig .tc := ⟨.hbm, 660, rfl⟩
abbrev main_call12_v0 : Ref sig .tc := ⟨.hbm, 661, rfl⟩
abbrev main_v556 : Ref sig .tc := ⟨.hbm, 662, rfl⟩
abbrev main_v557 : Ref sig .tc := ⟨.hbm, 663, rfl⟩
abbrev main_v558 : Ref sig .tc := ⟨.hbm, 664, rfl⟩
abbrev main_v559 : Ref sig .tc := ⟨.hbm, 665, rfl⟩
abbrev main_v560 : Ref sig .tc := ⟨.hbm, 666, rfl⟩
abbrev main_v561 : Ref sig .tc := ⟨.hbm, 667, rfl⟩
abbrev main_v562 : Ref sig .tc := ⟨.hbm, 668, rfl⟩
abbrev main_v563 : Ref sig .tc := ⟨.hbm, 669, rfl⟩
abbrev main_v564 : Ref sig .tc := ⟨.hbm, 670, rfl⟩
abbrev main_v565 : Ref sig .tc := ⟨.hbm, 671, rfl⟩
abbrev main_v566 : Ref sig .tc := ⟨.hbm, 672, rfl⟩
abbrev main_v567 : Ref sig .tc := ⟨.hbm, 673, rfl⟩
abbrev main_v568 : Ref sig .tc := ⟨.hbm, 674, rfl⟩
abbrev main_v569 : Ref sig .tc := ⟨.hbm, 675, rfl⟩
abbrev main_v570 : Ref sig .tc := ⟨.hbm, 676, rfl⟩
abbrev main_v571 : Ref sig .tc := ⟨.hbm, 677, rfl⟩
abbrev main_v572 : Ref sig .tc := ⟨.hbm, 678, rfl⟩
abbrev main_v573 : Ref sig .tc := ⟨.hbm, 679, rfl⟩
abbrev main_v574 : Ref sig .tc := ⟨.hbm, 680, rfl⟩
abbrev main_v575 : Ref sig .tc := ⟨.hbm, 681, rfl⟩
abbrev main_cst_48 : Ref sig .tc := ⟨.hbm, 682, rfl⟩
abbrev main_v576 : Ref sig .tc := ⟨.hbm, 683, rfl⟩
abbrev main_v577 : Ref sig .tc := ⟨.hbm, 684, rfl⟩
abbrev main_v578 : Ref sig .tc := ⟨.hbm, 685, rfl⟩
abbrev main_v579 : Ref sig .tc := ⟨.hbm, 686, rfl⟩
abbrev main_v580 : Ref sig .tc := ⟨.hbm, 687, rfl⟩
abbrev main_v581 : Ref sig .tc := ⟨.hbm, 688, rfl⟩
abbrev main_v582 : Ref sig .tc := ⟨.hbm, 689, rfl⟩
abbrev main_v583 : Ref sig .tc := ⟨.hbm, 690, rfl⟩
abbrev main_v584 : Ref sig .tc := ⟨.hbm, 691, rfl⟩
abbrev main_v585 : Ref sig .tc := ⟨.hbm, 692, rfl⟩
abbrev main_v586 : Ref sig .tc := ⟨.hbm, 693, rfl⟩
abbrev main_v587 : Ref sig .tc := ⟨.hbm, 694, rfl⟩
abbrev main_call13_cst : Ref sig .tc := ⟨.hbm, 695, rfl⟩
abbrev main_call13_v0 : Ref sig .tc := ⟨.hbm, 696, rfl⟩
abbrev main_v588 : Ref sig .tc := ⟨.hbm, 697, rfl⟩
abbrev main_cst_49 : Ref sig .tc := ⟨.hbm, 698, rfl⟩
abbrev main_v589 : Ref sig .tc := ⟨.hbm, 699, rfl⟩
abbrev main_v590 : Ref sig .tc := ⟨.hbm, 700, rfl⟩
abbrev main_v591 : Ref sig .tc := ⟨.hbm, 701, rfl⟩
abbrev main_v592 : Ref sig .tc := ⟨.hbm, 702, rfl⟩
abbrev main_v593 : Ref sig .tc := ⟨.hbm, 703, rfl⟩
abbrev main_v594 : Ref sig .tc := ⟨.hbm, 704, rfl⟩
abbrev main_v595 : Ref sig .tc := ⟨.hbm, 705, rfl⟩
abbrev main_v596 : Ref sig .tc := ⟨.hbm, 706, rfl⟩
abbrev main_v597 : Ref sig .tc := ⟨.hbm, 707, rfl⟩
abbrev main_v598 : Ref sig .tc := ⟨.hbm, 708, rfl⟩
abbrev main_v599 : Ref sig .tc := ⟨.hbm, 709, rfl⟩
abbrev main_v600 : Ref sig .tc := ⟨.hbm, 710, rfl⟩
abbrev main_v601 : Ref sig .tc := ⟨.hbm, 711, rfl⟩
abbrev main_v602 : Ref sig .tc := ⟨.hbm, 712, rfl⟩
abbrev main_v603 : Ref sig .tc := ⟨.hbm, 713, rfl⟩
abbrev main_v604 : Ref sig .tc := ⟨.hbm, 714, rfl⟩
abbrev main_v605 : Ref sig .tc := ⟨.hbm, 715, rfl⟩
abbrev main_v606 : Ref sig .tc := ⟨.hbm, 716, rfl⟩
abbrev main_v607 : Ref sig .tc := ⟨.hbm, 717, rfl⟩
abbrev main_v608 : Ref sig .tc := ⟨.hbm, 718, rfl⟩
abbrev main_v609 : Ref sig .tc := ⟨.hbm, 719, rfl⟩
abbrev main_v610 : Ref sig .tc := ⟨.hbm, 720, rfl⟩
abbrev main_v611 : Ref sig .tc := ⟨.hbm, 721, rfl⟩
abbrev main_cst_50 : Ref sig .tc := ⟨.hbm, 722, rfl⟩
abbrev main_v612 : Ref sig .tc := ⟨.hbm, 723, rfl⟩
abbrev main_v613 : Ref sig .tc := ⟨.hbm, 724, rfl⟩
abbrev main_v614 : Ref sig .tc := ⟨.hbm, 725, rfl⟩
abbrev main_v615 : Ref sig .tc := ⟨.hbm, 726, rfl⟩
abbrev main_v616 : Ref sig .tc := ⟨.hbm, 727, rfl⟩
abbrev main_v617 : Ref sig .tc := ⟨.hbm, 728, rfl⟩
abbrev main_v618 : Ref sig .tc := ⟨.hbm, 729, rfl⟩
abbrev main_v619 : Ref sig .tc := ⟨.hbm, 730, rfl⟩
abbrev main_v620 : Ref sig .tc := ⟨.hbm, 731, rfl⟩
abbrev main_v621 : Ref sig .tc := ⟨.hbm, 732, rfl⟩
abbrev main_v622 : Ref sig .tc := ⟨.hbm, 733, rfl⟩
abbrev main_v623 : Ref sig .tc := ⟨.hbm, 734, rfl⟩
abbrev main_call14_cst : Ref sig .tc := ⟨.hbm, 735, rfl⟩
abbrev main_call14_v0 : Ref sig .tc := ⟨.hbm, 736, rfl⟩
abbrev main_v624 : Ref sig .tc := ⟨.hbm, 737, rfl⟩
abbrev main_v625 : Ref sig .tc := ⟨.hbm, 738, rfl⟩
abbrev main_v626 : Ref sig .tc := ⟨.hbm, 739, rfl⟩
abbrev main_v627 : Ref sig .tc := ⟨.hbm, 740, rfl⟩
abbrev main_v628 : Ref sig .tc := ⟨.hbm, 741, rfl⟩
abbrev main_v629 : Ref sig .tc := ⟨.hbm, 742, rfl⟩
abbrev main_v630 : Ref sig .tc := ⟨.hbm, 743, rfl⟩
abbrev main_v631 : Ref sig .tc := ⟨.hbm, 744, rfl⟩
abbrev main_v632 : Ref sig .tc := ⟨.hbm, 745, rfl⟩
abbrev main_v633 : Ref sig .tc := ⟨.hbm, 746, rfl⟩
abbrev main_v634 : Ref sig .tc := ⟨.hbm, 747, rfl⟩
abbrev main_v635 : Ref sig .tc := ⟨.hbm, 748, rfl⟩
abbrev main_v636 : Ref sig .tc := ⟨.hbm, 749, rfl⟩
abbrev main_v637 : Ref sig .tc := ⟨.hbm, 750, rfl⟩
abbrev main_v638 : Ref sig .tc := ⟨.hbm, 751, rfl⟩
abbrev main_v639 : Ref sig .tc := ⟨.hbm, 752, rfl⟩
abbrev main_v640 : Ref sig .tc := ⟨.hbm, 753, rfl⟩
abbrev main_v641 : Ref sig .tc := ⟨.hbm, 754, rfl⟩
abbrev main_v642 : Ref sig .tc := ⟨.hbm, 755, rfl⟩
abbrev main_v643 : Ref sig .tc := ⟨.hbm, 756, rfl⟩
abbrev main_cst_51 : Ref sig .tc := ⟨.hbm, 757, rfl⟩
abbrev main_v644 : Ref sig .tc := ⟨.hbm, 758, rfl⟩
abbrev main_v645 : Ref sig .tc := ⟨.hbm, 759, rfl⟩
abbrev main_v646 : Ref sig .tc := ⟨.hbm, 760, rfl⟩
abbrev main_v647 : Ref sig .tc := ⟨.hbm, 761, rfl⟩
abbrev main_v648 : Ref sig .tc := ⟨.hbm, 762, rfl⟩
abbrev main_v649 : Ref sig .tc := ⟨.hbm, 763, rfl⟩
abbrev main_v650 : Ref sig .tc := ⟨.hbm, 764, rfl⟩
abbrev main_v651 : Ref sig .tc := ⟨.hbm, 765, rfl⟩
abbrev main_v652 : Ref sig .tc := ⟨.hbm, 766, rfl⟩
abbrev main_v653 : Ref sig .tc := ⟨.hbm, 767, rfl⟩
abbrev main_v654 : Ref sig .tc := ⟨.hbm, 768, rfl⟩
abbrev main_v655 : Ref sig .tc := ⟨.hbm, 769, rfl⟩
abbrev main_call15_cst : Ref sig .tc := ⟨.hbm, 770, rfl⟩
abbrev main_call15_v0 : Ref sig .tc := ⟨.hbm, 771, rfl⟩
abbrev main_v656 : Ref sig .tc := ⟨.hbm, 772, rfl⟩
abbrev main_c_52 : Ref sig .tc := ⟨.hbm, 773, rfl⟩
abbrev main_v657 : Ref sig .tc := ⟨.hbm, 774, rfl⟩
abbrev main_v658 : Ref sig .tc := ⟨.hbm, 775, rfl⟩
abbrev main_c_53 : Ref sig .tc := ⟨.hbm, 776, rfl⟩
abbrev main_v659 : Ref sig .tc := ⟨.hbm, 777, rfl⟩
abbrev main_v660 : Ref sig .tc := ⟨.hbm, 778, rfl⟩
abbrev main_v661 : Ref sig .tc := ⟨.hbm, 779, rfl⟩
abbrev main_v662 : Ref sig .tc := ⟨.hbm, 780, rfl⟩
abbrev main_v663 : Ref sig .tc := ⟨.hbm, 781, rfl⟩
abbrev main_v664 : Ref sig .tc := ⟨.hbm, 782, rfl⟩
abbrev main_cst_54 : Ref sig .tc := ⟨.hbm, 783, rfl⟩
abbrev main_v665 : Ref sig .tc := ⟨.hbm, 784, rfl⟩
abbrev main_c_55 : Ref sig .tc := ⟨.hbm, 785, rfl⟩
abbrev main_v666 : Ref sig .tc := ⟨.hbm, 786, rfl⟩
abbrev main_v667 : Ref sig .tc := ⟨.hbm, 787, rfl⟩
abbrev main_c_56 : Ref sig .tc := ⟨.hbm, 788, rfl⟩
abbrev main_v668 : Ref sig .tc := ⟨.hbm, 789, rfl⟩
abbrev main_v669 : Ref sig .tc := ⟨.hbm, 790, rfl⟩
abbrev main_v670 : Ref sig .tc := ⟨.hbm, 791, rfl⟩
abbrev main_v671 : Ref sig .tc := ⟨.hbm, 792, rfl⟩
abbrev main_v672 : Ref sig .tc := ⟨.hbm, 793, rfl⟩
abbrev main_c_57 : Ref sig .tc := ⟨.hbm, 794, rfl⟩
abbrev main_v673 : Ref sig .tc := ⟨.hbm, 795, rfl⟩
abbrev main_v674 : Ref sig .tc := ⟨.hbm, 796, rfl⟩
abbrev main_c_58 : Ref sig .tc := ⟨.hbm, 797, rfl⟩
abbrev main_v675 : Ref sig .tc := ⟨.hbm, 798, rfl⟩
abbrev main_v676 : Ref sig .tc := ⟨.hbm, 799, rfl⟩
abbrev main_v677 : Ref sig .tc := ⟨.hbm, 800, rfl⟩
abbrev main_v678 : Ref sig .tc := ⟨.hbm, 801, rfl⟩
abbrev main_v679 : Ref sig .tc := ⟨.hbm, 802, rfl⟩
abbrev main_v680 : Ref sig .tc := ⟨.hbm, 803, rfl⟩
abbrev main_v681 : Ref sig .tc := ⟨.hbm, 804, rfl⟩
abbrev main_cst_59 : Ref sig .tc := ⟨.hbm, 805, rfl⟩
abbrev main_v682 : Ref sig .tc := ⟨.hbm, 806, rfl⟩
abbrev main_v683 : Ref sig .tc := ⟨.hbm, 807, rfl⟩
abbrev main_v684 : Ref sig .tc := ⟨.hbm, 808, rfl⟩
abbrev main_v685 : Ref sig .tc := ⟨.hbm, 809, rfl⟩
abbrev main_v686 : Ref sig .tc := ⟨.hbm, 810, rfl⟩
abbrev main_v687 : Ref sig .tc := ⟨.hbm, 811, rfl⟩
abbrev main_v688 : Ref sig .tc := ⟨.hbm, 812, rfl⟩
abbrev main_v689 : Ref sig .tc := ⟨.hbm, 813, rfl⟩
abbrev main_v690 : Ref sig .tc := ⟨.hbm, 814, rfl⟩
abbrev main_v691 : Ref sig .tc := ⟨.hbm, 815, rfl⟩
abbrev main_v692 : Ref sig .tc := ⟨.hbm, 816, rfl⟩
abbrev main_v693 : Ref sig .tc := ⟨.hbm, 817, rfl⟩
abbrev main_v694 : Ref sig .tc := ⟨.hbm, 818, rfl⟩
abbrev main_v695 : Ref sig .tc := ⟨.hbm, 819, rfl⟩
abbrev main_v696 : Ref sig .tc := ⟨.hbm, 820, rfl⟩
abbrev main_v697 : Ref sig .tc := ⟨.hbm, 821, rfl⟩
abbrev main_v698 : Ref sig .tc := ⟨.hbm, 822, rfl⟩
abbrev main_v699 : Ref sig .tc := ⟨.hbm, 823, rfl⟩
abbrev main_v700 : Ref sig .tc := ⟨.hbm, 824, rfl⟩
abbrev main_v701 : Ref sig .tc := ⟨.hbm, 825, rfl⟩
abbrev main_v702 : Ref sig .tc := ⟨.hbm, 826, rfl⟩
abbrev main_v703 : Ref sig .tc := ⟨.hbm, 827, rfl⟩
abbrev main_v704 : Ref sig .tc := ⟨.hbm, 828, rfl⟩
abbrev main_cst_60 : Ref sig .tc := ⟨.hbm, 829, rfl⟩
abbrev main_v705 : Ref sig .tc := ⟨.hbm, 830, rfl⟩
abbrev main_v706 : Ref sig .tc := ⟨.hbm, 831, rfl⟩
abbrev main_v707 : Ref sig .tc := ⟨.hbm, 832, rfl⟩
abbrev main_v708 : Ref sig .tc := ⟨.hbm, 833, rfl⟩
abbrev main_v709 : Ref sig .tc := ⟨.hbm, 834, rfl⟩
abbrev main_v710 : Ref sig .tc := ⟨.hbm, 835, rfl⟩
abbrev main_v711 : Ref sig .tc := ⟨.hbm, 836, rfl⟩
abbrev main_v712 : Ref sig .tc := ⟨.hbm, 837, rfl⟩
abbrev main_v713 : Ref sig .tc := ⟨.hbm, 838, rfl⟩
abbrev main_v714 : Ref sig .tc := ⟨.hbm, 839, rfl⟩
abbrev main_v715 : Ref sig .tc := ⟨.hbm, 840, rfl⟩
abbrev main_v716 : Ref sig .tc := ⟨.hbm, 841, rfl⟩
abbrev main_call16_cst : Ref sig .tc := ⟨.hbm, 842, rfl⟩
abbrev main_call16_v0 : Ref sig .tc := ⟨.hbm, 843, rfl⟩
abbrev main_v717 : Ref sig .tc := ⟨.hbm, 844, rfl⟩
abbrev main_v718 : Ref sig .tc := ⟨.hbm, 845, rfl⟩
abbrev main_v719 : Ref sig .tc := ⟨.hbm, 846, rfl⟩
abbrev main_v720 : Ref sig .tc := ⟨.hbm, 847, rfl⟩
abbrev main_v721 : Ref sig .tc := ⟨.hbm, 848, rfl⟩
abbrev main_v722 : Ref sig .tc := ⟨.hbm, 849, rfl⟩
abbrev main_v723 : Ref sig .tc := ⟨.hbm, 850, rfl⟩
abbrev main_v724 : Ref sig .tc := ⟨.hbm, 851, rfl⟩
abbrev main_v725 : Ref sig .tc := ⟨.hbm, 852, rfl⟩
abbrev main_v726 : Ref sig .tc := ⟨.hbm, 853, rfl⟩
abbrev main_v727 : Ref sig .tc := ⟨.hbm, 854, rfl⟩
abbrev main_v728 : Ref sig .tc := ⟨.hbm, 855, rfl⟩
abbrev main_v729 : Ref sig .tc := ⟨.hbm, 856, rfl⟩
abbrev main_v730 : Ref sig .tc := ⟨.hbm, 857, rfl⟩
abbrev main_v731 : Ref sig .tc := ⟨.hbm, 858, rfl⟩
abbrev main_v732 : Ref sig .tc := ⟨.hbm, 859, rfl⟩
abbrev main_v733 : Ref sig .tc := ⟨.hbm, 860, rfl⟩
abbrev main_v734 : Ref sig .tc := ⟨.hbm, 861, rfl⟩
abbrev main_v735 : Ref sig .tc := ⟨.hbm, 862, rfl⟩
abbrev main_v736 : Ref sig .tc := ⟨.hbm, 863, rfl⟩
abbrev main_cst_61 : Ref sig .tc := ⟨.hbm, 864, rfl⟩
abbrev main_v737 : Ref sig .tc := ⟨.hbm, 865, rfl⟩
abbrev main_v738 : Ref sig .tc := ⟨.hbm, 866, rfl⟩
abbrev main_v739 : Ref sig .tc := ⟨.hbm, 867, rfl⟩
abbrev main_v740 : Ref sig .tc := ⟨.hbm, 868, rfl⟩
abbrev main_v741 : Ref sig .tc := ⟨.hbm, 869, rfl⟩
abbrev main_v742 : Ref sig .tc := ⟨.hbm, 870, rfl⟩
abbrev main_v743 : Ref sig .tc := ⟨.hbm, 871, rfl⟩
abbrev main_v744 : Ref sig .tc := ⟨.hbm, 872, rfl⟩
abbrev main_v745 : Ref sig .tc := ⟨.hbm, 873, rfl⟩
abbrev main_v746 : Ref sig .tc := ⟨.hbm, 874, rfl⟩
abbrev main_v747 : Ref sig .tc := ⟨.hbm, 875, rfl⟩
abbrev main_v748 : Ref sig .tc := ⟨.hbm, 876, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  shapeCasts_S1x128_S128 : S1x128.ShapeCasts S128
  bcast_S128_S512x128_1 : S128.BroadcastsInDim S512x128 (![1] : Fin 1 → Fin S512x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S_S600000 : S_.BroadcastsInDim S600000 (![] : Fin 0 → Fin S600000.rank)
  bcast_S600000_S600000x1_0 : S600000.BroadcastsInDim S600000x1 (![0] : Fin 1 → Fin S600000x1.rank)
  slices_S5_S1_0 : S5.Slices ![0] S1
  shapeCasts_S1_S_ : S1.ShapeCasts S_
  slices_S5x128x256_S1x128x256_0_0_0 : S5x128x256.Slices ![0, 0, 0] S1x128x256
  shapeCasts_S1x128x256_S128x256 : S1x128x256.ShapeCasts S128x256
  slices_S5x256_S1x256_0_0 : S5x256.Slices ![0, 0] S1x256
  shapeCasts_S1x256_S256 : S1x256.ShapeCasts S256
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S256 : S_.BroadcastsInDim S256 (![] : Fin 0 → Fin S256.rank)
  bcast_S_S100000x256 : S_.BroadcastsInDim S100000x256 (![] : Fin 0 → Fin S100000x256.rank)
  slices_S5x256x128_S1x256x128_0_0_0 : S5x256x128.Slices ![0, 0, 0] S1x256x128
  shapeCasts_S1x256x128_S256x128 : S1x256x128.ShapeCasts S256x128
  slices_S5x128_S1x128_0_0 : S5x128.Slices ![0, 0] S1x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128 : S_.BroadcastsInDim S128 (![] : Fin 0 → Fin S128.rank)
  bcast_S_S512x128 : S_.BroadcastsInDim S512x128 (![] : Fin 0 → Fin S512x128.rank)
  slices_S4x128x256_S1x128x256_0_0_0 : S4x128x256.Slices ![0, 0, 0] S1x128x256
  slices_S4x256_S1x256_0_0 : S4x256.Slices ![0, 0] S1x256
  bcast_S1x256_S512x256_0_1 : S1x256.BroadcastsInDim S512x256 (![0, 1] : Fin 2 → Fin S512x256.rank)
  bcast_S_S512x256 : S_.BroadcastsInDim S512x256 (![] : Fin 0 → Fin S512x256.rank)
  slices_S4x256x128_S1x256x128_0_0_0 : S4x256x128.Slices ![0, 0, 0] S1x256x128
  slices_S4x128_S1x128_0_0 : S4x128.Slices ![0, 0] S1x128
  bcast_S1x128_S512x128_0_1 : S1x128.BroadcastsInDim S512x128 (![0, 1] : Fin 2 → Fin S512x128.rank)
  slices_S5_S1_1 : S5.Slices ![1] S1
  slices_S5x128x256_S1x128x256_1_0_0 : S5x128x256.Slices ![1, 0, 0] S1x128x256
  slices_S5x256_S1x256_1_0 : S5x256.Slices ![1, 0] S1x256
  slices_S5x256x128_S1x256x128_1_0_0 : S5x256x128.Slices ![1, 0, 0] S1x256x128
  slices_S5x128_S1x128_1_0 : S5x128.Slices ![1, 0] S1x128
  slices_S4x128x256_S1x128x256_1_0_0 : S4x128x256.Slices ![1, 0, 0] S1x128x256
  slices_S4x256_S1x256_1_0 : S4x256.Slices ![1, 0] S1x256
  slices_S4x256x128_S1x256x128_1_0_0 : S4x256x128.Slices ![1, 0, 0] S1x256x128
  slices_S4x128_S1x128_1_0 : S4x128.Slices ![1, 0] S1x128
  slices_S5_S1_2 : S5.Slices ![2] S1
  slices_S5x128x256_S1x128x256_2_0_0 : S5x128x256.Slices ![2, 0, 0] S1x128x256
  slices_S5x256_S1x256_2_0 : S5x256.Slices ![2, 0] S1x256
  slices_S5x256x128_S1x256x128_2_0_0 : S5x256x128.Slices ![2, 0, 0] S1x256x128
  slices_S5x128_S1x128_2_0 : S5x128.Slices ![2, 0] S1x128
  slices_S4x128x256_S1x128x256_2_0_0 : S4x128x256.Slices ![2, 0, 0] S1x128x256
  slices_S4x256_S1x256_2_0 : S4x256.Slices ![2, 0] S1x256
  slices_S4x256x128_S1x256x128_2_0_0 : S4x256x128.Slices ![2, 0, 0] S1x256x128
  slices_S4x128_S1x128_2_0 : S4x128.Slices ![2, 0] S1x128
  slices_S5_S1_3 : S5.Slices ![3] S1
  slices_S5x128x256_S1x128x256_3_0_0 : S5x128x256.Slices ![3, 0, 0] S1x128x256
  slices_S5x256_S1x256_3_0 : S5x256.Slices ![3, 0] S1x256
  slices_S5x256x128_S1x256x128_3_0_0 : S5x256x128.Slices ![3, 0, 0] S1x256x128
  slices_S5x128_S1x128_3_0 : S5x128.Slices ![3, 0] S1x128
  slices_S4x128x256_S1x128x256_3_0_0 : S4x128x256.Slices ![3, 0, 0] S1x128x256
  slices_S4x256_S1x256_3_0 : S4x256.Slices ![3, 0] S1x256
  slices_S4x256x128_S1x256x128_3_0_0 : S4x256x128.Slices ![3, 0, 0] S1x256x128
  slices_S4x128_S1x128_3_0 : S4x128.Slices ![3, 0] S1x128
  slices_S5_S1_4 : S5.Slices ![4] S1
  slices_S5x128x256_S1x128x256_4_0_0 : S5x128x256.Slices ![4, 0, 0] S1x128x256
  slices_S5x256_S1x256_4_0 : S5x256.Slices ![4, 0] S1x256
  slices_S5x256x128_S1x256x128_4_0_0 : S5x256x128.Slices ![4, 0, 0] S1x256x128
  slices_S5x128_S1x128_4_0 : S5x128.Slices ![4, 0] S1x128
  gather_S8x128_S100000x1_S100000x128_1_0_n_n_0_1_1128_wf : GatherDims.WF S8x128 S100000x1 S100000x128 [1] [0] [] [0] [] 1 ![1, 128]
  gather_S512x128_S100000x1_S100000x128_1_0_n_n_0_1_1128_wf : GatherDims.WF S512x128 S100000x1 S100000x128 [1] [0] [] [0] [] 1 ![1, 128]
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S100000x128_S128x256_S100000x256_1_0_0_1_n_n_wf : DotDims.WF S100000x128 S128x256 S100000x256 [1] [0] [0] [1] [] []
  dot_S100000x256_S256x128_S100000x128_1_0_0_1_n_n_wf : DotDims.WF S100000x256 S256x128 S100000x128 [1] [0] [0] [1] [] []
  scatter_S512x128_S100000x1_S100000x128_1_0_0_1_wf : ScatterDims.WF S512x128 S100000x1 S100000x128 [1] [0] [0] 1
  dot_S512x128_S128x256_S512x256_1_0_0_1_n_n_wf : DotDims.WF S512x128 S128x256 S512x256 [1] [0] [0] [1] [] []
  dot_S512x256_S256x128_S512x128_1_0_0_1_n_n_wf : DotDims.WF S512x256 S256x128 S512x128 [1] [0] [0] [1] [] []

variable [Facts₀]

def gather_S8x128_S100000x1_S100000x128_1_0_n_n_0_1_1128 : GatherDims S8x128 S100000x1 S100000x128 where
  offsetDims := [1]
  collapsedSliceDims := [0]
  operandBatchingDims := []
  startIndicesBatchingDims := []
  startIndexMap := [0]
  indexVectorDim := 1
  sliceSizes := ![1, 128]
  wf := gather_S8x128_S100000x1_S100000x128_1_0_n_n_0_1_1128_wf
def gather_S512x128_S100000x1_S100000x128_1_0_n_n_0_1_1128 : GatherDims S512x128 S100000x1 S100000x128 where
  offsetDims := [1]
  collapsedSliceDims := [0]
  operandBatchingDims := []
  startIndicesBatchingDims := []
  startIndexMap := [0]
  indexVectorDim := 1
  sliceSizes := ![1, 128]
  wf := gather_S512x128_S100000x1_S100000x128_1_0_n_n_0_1_1128_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def dot_S512x128_S128x256_S512x256_1_0_0_1_n_n : DotDims S512x128 S128x256 S512x256 where
  lhsContracting := [1]
  rhsContracting := [0]
  lhsNonContracting := [0]
  rhsNonContracting := [1]
  lhsBatch := []
  rhsBatch := []
  wf := dot_S512x128_S128x256_S512x256_1_0_0_1_n_n_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf

class Facts : Prop extends Facts₀ where

variable [Facts]
-- ==== Proof.KernelRun.lean ====
/-
  The idealized kernel's run with its result named.

  @main is nine launches of the two-layer kernel among stretches of host operations. Every weakly fair execution ends
  with each TensorCore buffer at the contents the run's fold leaves — the launch memory pushed through each stretch
  (StableHlo.after) and each launch (its arrays at what the write-backs leave) —, so in particular the result array ends
  at the last launch's output array, and the thirty argument arrays end as launched. The statement is the frame's with
  one more conjunct; the launch, the per-region obligations and the segments are the generated ones.
-/
import proofs.«116444_j64183991272049_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array at the last boundary's
    contents and every argument array as launched. -/
theorem run_named : θ_run defs (onTc (τ := τ) (main (F := F))) ⟨m, fun _ => 0, ρ⟩ (fun r => ∀ c : Dev nD,
      r.2.mem ((c.tc : Thread nD τ).loc main_v488) = W18 m ρ c (Proc.devRef .tc main_v488)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h c =>
      ⟨h c _ (mem_uc main_v488 (by decide)),
       (h c _ (mem_uc main_arg0 (by decide))).trans (W18_main_arg0 m ρ c),
       (h c _ (mem_uc main_arg1 (by decide))).trans (W18_main_arg1 m ρ c),
       (h c _ (mem_uc main_arg2 (by decide))).trans (W18_main_arg2 m ρ c),
       (h c _ (mem_uc main_arg3 (by decide))).trans (W18_main_arg3 m ρ c),
       (h c _ (mem_uc main_arg4 (by decide))).trans (W18_main_arg4 m ρ c),
       (h c _ (mem_uc main_arg5 (by decide))).trans (W18_main_arg5 m ρ c),
       (h c _ (mem_uc main_arg6 (by decide))).trans (W18_main_arg6 m ρ c),
       (h c _ (mem_uc main_arg7 (by decide))).trans (W18_main_arg7 m ρ c),
       (h c _ (mem_uc main_arg8 (by decide))).trans (W18_main_arg8 m ρ c),
       (h c _ (mem_uc main_arg9 (by decide))).trans (W18_main_arg9 m ρ c),
       (h c _ (mem_uc main_arg10 (by decide))).trans (W18_main_arg10 m ρ c),
       (h c _ (mem_uc main_arg11 (by decide))).trans (W18_main_arg11 m ρ c),
       (h c _ (mem_uc main_arg12 (by decide))).trans (W18_main_arg12 m ρ c),
       (h c _ (mem_uc main_arg13 (by decide))).trans (W18_main_arg13 m ρ c),
       (h c _ (mem_uc main_arg14 (by decide))).trans (W18_main_arg14 m ρ c),
       (h c _ (mem_uc main_arg15 (by decide))).trans (W18_main_arg15 m ρ c),
       (h c _ (mem_uc main_arg16 (by decide))).trans (W18_main_arg16 m ρ c),
       (h c _ (mem_uc main_arg17 (by decide))).trans (W18_main_arg17 m ρ c),
       (h c _ (mem_uc main_arg18 (by decide))).trans (W18_main_arg18 m ρ c),
       (h c _ (mem_uc main_arg19 (by decide))).trans (W18_main_arg19 m ρ c),
       (h c _ (mem_uc main_arg20 (by decide))).trans (W18_main_arg20 m ρ c),
       (h c _ (mem_uc main_arg21 (by decide))).trans (W18_main_arg21 m ρ c),
       (h c _ (mem_uc main_arg22 (by decide))).trans (W18_main_arg22 m ρ c),
       (h c _ (mem_uc main_arg23 (by decide))).trans (W18_main_arg23 m ρ c),
       (h c _ (mem_uc main_arg24 (by decide))).trans (W18_main_arg24 m ρ c),
       (h c _ (mem_uc main_arg25 (by decide))).trans (W18_main_arg25 m ρ c),
       (h c _ (mem_uc main_arg26 (by decide))).trans (W18_main_arg26 m ρ c),
       (h c _ (mem_uc main_arg27 (by decide))).trans (W18_main_arg27 m ρ c),
       (h c _ (mem_uc main_arg28 (by decide))).trans (W18_main_arg28 m ρ c),
       (h c _ (mem_uc main_arg29 (by decide))).trans (W18_main_arg29 m ρ c)⟩)

end Cert.KernelIdeal.RunValue

end
-- ==== Proof.NetGlue.lean ====
/-
  The host side of the network, once, as functions of whole arrays — the operations both programs apply between their
  two-layer maps, spelt as both print them.

  A node array h (one row of 128 features per node, 100000 nodes) and a table vn (one row per graph, 512 graphs) are
  carried through five layers. In a layer every node first receives its graph's row, hin = h + vn[batch]; the rows of
  hin are summed along the 600000 edges into their end nodes, and z = (1 + eps_l) · hin + that sum; for all layers but
  the last the rows of hin are also summed per graph and the old table added. Indices that may be negative are wrapped
  once by the array's length, as jnp's indexing does. The gathers and scatter-sums are kept as the named host
  operations at given dimension numbers: nothing here opens them. Stacked parameters are read by layer.
-/
import Idealize.ShloMosaic.PureOps.Ideal
import Idealize.ShloMosaic.PureOps.Ideal.Laws
import Idealize.ShloMosaic.Lib.ValueIdx

noncomputable section

namespace Cert.Net

open Idealize.ShloMosaic Idealize.ShloMosaic.ValueIdx

/-! ## Shapes, as the programs print them -/

abbrev S_ : Shape := ⟨0, ![]⟩
abbrev S1 : Shape := ⟨1, ![1]⟩
abbrev S5 : Shape := ⟨1, ![5]⟩
abbrev S128 : Shape := ⟨1, ![128]⟩
abbrev S100000 : Shape := ⟨1, ![100000]⟩
abbrev S600000 : Shape := ⟨1, ![600000]⟩
abbrev S1x128 : Shape := ⟨2, ![1, 128]⟩
abbrev S8x128 : Shape := ⟨2, ![8, 128]⟩
abbrev S512x128 : Shape := ⟨2, ![512, 128]⟩
abbrev S100000x1 : Shape := ⟨2, ![100000, 1]⟩
abbrev S600000x1 : Shape := ⟨2, ![600000, 1]⟩
abbrev S1x600000 : Shape := ⟨2, ![1, 600000]⟩
abbrev S2x600000 : Shape := ⟨2, ![2, 600000]⟩
abbrev S100000x128 : Shape := ⟨2, ![100000, 128]⟩
abbrev S600000x128 : Shape := ⟨2, ![600000, 128]⟩

/-- The dimension numbers of the three row gathers and the two row scatter-sums. -/
structure Dims where
  gEnc : GatherDims S8x128 S100000x1 S100000x128
  gVn : GatherDims S512x128 S100000x1 S100000x128
  gEdge : GatherDims S100000x128 S600000x1 S600000x128
  sEdge : ScatterDims S100000x128 S600000x1 S600000x128
  sSeg : ScatterDims S512x128 S100000x1 S100000x128

/-- The layout side conditions the host operations below are stated under. -/
structure Layout : Prop where
  sl0 : S2x600000.Slices ![0, 0] S1x600000
  sl1 : S2x600000.Slices ![1, 0] S1x600000
  c600000 : S1x600000.ShapeCasts S600000
  c128 : S1x128.ShapeCasts S128
  bVn : S128.BroadcastsInDim S512x128 ![1]
  b100000 : S_.BroadcastsInDim S100000 ![]
  b600000 : S_.BroadcastsInDim S600000 ![]
  bCol100000 : S100000.BroadcastsInDim S100000x1 ![0]
  bCol600000 : S600000.BroadcastsInDim S600000x1 ![0]
  bNodes : S_.BroadcastsInDim S100000x128 ![]
  bGraphs : S_.BroadcastsInDim S512x128 ![]

variable (D : Dims) (L : Layout)

/-! ## The host operations between the two-layer maps -/

/-- jnp's wrap of a possibly negative index into an axis of length n: i < 0 ↦ i + n. -/
def wrapNode (n : BitVec 32) (x : IVec S100000 32) : IVec S100000 32 :=
  select (cmpi .slt x (broadcastInDim S100000 ![] L.b100000 (constantI S_ 32 0#32)))
    (addi x (broadcastInDim S100000 ![] L.b100000 (constantI S_ 32 n))) x

def wrapEdge (x : IVec S600000 32) : IVec S600000 32 :=
  select (cmpi .slt x (broadcastInDim S600000 ![] L.b600000 (constantI S_ 32 0#32)))
    (addi x (broadcastInDim S600000 ![] L.b600000 (constantI S_ 32 100000#32))) x

/-- The edges' start nodes and end nodes: rows 0 and 1 of the edge table. -/
def srcOf (ei : IVec S2x600000 32) : IVec S600000 32 := shapeCast S600000 (extractStridedSlice S1x600000 ![0, 0] ei L.sl0) L.c600000
def dstOf (ei : IVec S2x600000 32) : IVec S600000 32 := shapeCast S600000 (extractStridedSlice S1x600000 ![1, 0] ei L.sl1) L.c600000

/-- The table every graph starts with: the one embedding row, for each of the 512 graphs. -/
def vnInit (ve : FVec Ideal S1x128 .f32) : FVec Ideal S512x128 .f32 :=
  broadcastInDim S512x128 ![1] L.bVn (shapeCast S128 ve L.c128)

/-- Each node's row of a 512-row table, by its (wrapped) graph number. -/
def graphRows (vn : FVec Ideal S512x128 .f32) (batch : IVec S100000 32) : FVec Ideal S100000x128 .f32 :=
  Host.gather D.gVn vn (broadcastInDim S100000x1 ![0] L.bCol100000 (wrapNode L 512#32 batch))

/-- Layer 0's node array before aggregation: the node's encoder row plus its graph's row. -/
def hinInit (x batch : IVec S100000 32) (enc : FVec Ideal S8x128 .f32) (ve : FVec Ideal S1x128 .f32) : FVec Ideal S100000x128 .f32 :=
  addf (Host.gather D.gEnc enc (broadcastInDim S100000x1 ![0] L.bCol100000 (wrapNode L 8#32 x))) (graphRows D L (vnInit L ve) batch)

/-- A later layer's: the previous layer's node array plus each node's graph's row. -/
def hinOf (h : FVec Ideal S100000x128 .f32) (vn : FVec Ideal S512x128 .f32) (batch : IVec S100000 32) : FVec Ideal S100000x128 .f32 :=
  addf h (graphRows D L vn batch)

/-- (1 + e) · hin plus, at every node, the sum of hin's rows at the start nodes of the edges that end there. -/
def zOf (hin : FVec Ideal S100000x128 .f32) (s d : IVec S600000 32) (e : FVec Ideal S_ .f32) : FVec Ideal S100000x128 .f32 :=
  addf (mulf (broadcastInDim S100000x128 ![] L.bNodes (addf (constant (F := Ideal) S_ .f32 0x3F800000#32) e)) hin)
    (Host.scatterAdd D.sEdge (broadcastInDim S100000x128 ![] L.bNodes (constant (F := Ideal) S_ .f32 0x00000000#32))
      (broadcastInDim S600000x1 ![0] L.bCol600000 (wrapEdge L d))
      (Host.gather D.gEdge hin (broadcastInDim S600000x1 ![0] L.bCol600000 (wrapEdge L s))))

/-- The rows of hin summed per graph (by the unwrapped graph numbers), plus the old table. -/
def vtOf (hin : FVec Ideal S100000x128 .f32) (vn : FVec Ideal S512x128 .f32) (batch : IVec S100000 32) : FVec Ideal S512x128 .f32 :=
  addf (Host.scatterAdd D.sSeg (broadcastInDim S512x128 ![] L.bGraphs (constant (F := Ideal) S_ .f32 0x00000000#32))
      (broadcastInDim S100000x1 ![0] L.bCol100000 batch) hin) vn

/-! ## Stacked parameters read by layer -/

/-- Matrix l of a stack of matrices. -/
def wAt {n d e : Nat} (a : FVec Ideal ⟨3, ![n, d, e]⟩ .f32) (l : Fin n) : FVec Ideal ⟨2, ![d, e]⟩ .f32 :=
  fun i => a (ix3 l (show Fin d from i 0) (show Fin e from i 1))
/-- Row l of a stack of vectors. -/
def rowAt {n k : Nat} (a : FVec Ideal ⟨2, ![n, k]⟩ .f32) (l : Fin n) : Fin k → EReal := fun q => a (ix2 l q)
/-- Entry l of a vector, as a rank-0 array. -/
def scalarAt {n : Nat} (a : FVec Ideal ⟨1, ![n]⟩ .f32) (l : Fin n) : FVec Ideal S_ .f32 := fun _ => a (ix1 l)

/-! ## The arguments -/

/-- The thirty argument arrays. -/
structure Args where
  x : IVec S100000 32
  edges : IVec S2x600000 32
  batch : IVec S100000 32
  enc : FVec Ideal S8x128 .f32
  ve : FVec Ideal S1x128 .f32
  eps : FVec Ideal S5 .f32
  mW1 : FVec Ideal ⟨3, ![5, 128, 256]⟩ .f32
  mb1 : FVec Ideal ⟨2, ![5, 256]⟩ .f32
  mg : FVec Ideal ⟨2, ![5, 256]⟩ .f32
  mb : FVec Ideal ⟨2, ![5, 256]⟩ .f32
  mm : FVec Ideal ⟨2, ![5, 256]⟩ .f32
  mv : FVec Ideal ⟨2, ![5, 256]⟩ .f32
  mW2 : FVec Ideal ⟨3, ![5, 256, 128]⟩ .f32
  mb2 : FVec Ideal ⟨2, ![5, 128]⟩ .f32
  ng : FVec Ideal ⟨2, ![5, 128]⟩ .f32
  nb : FVec Ideal ⟨2, ![5, 128]⟩ .f32
  nm : FVec Ideal ⟨2, ![5, 128]⟩ .f32
  nv : FVec Ideal ⟨2, ![5, 128]⟩ .f32
  vW1 : FVec Ideal ⟨3, ![4, 128, 256]⟩ .f32
  vb1 : FVec Ideal ⟨2, ![4, 256]⟩ .f32
  vg1 : FVec Ideal ⟨2, ![4, 256]⟩ .f32
  vbb1 : FVec Ideal ⟨2, ![4, 256]⟩ .f32
  vm1 : FVec Ideal ⟨2, ![4, 256]⟩ .f32
  vv1 : FVec Ideal ⟨2, ![4, 256]⟩ .f32
  vW2 : FVec Ideal ⟨3, ![4, 256, 128]⟩ .f32
  vb2 : FVec Ideal ⟨2, ![4, 128]⟩ .f32
  vg2 : FVec Ideal ⟨2, ![4, 128]⟩ .f32
  vbb2 : FVec Ideal ⟨2, ![4, 128]⟩ .f32
  vm2 : FVec Ideal ⟨2, ![4, 128]⟩ .f32
  vv2 : FVec Ideal ⟨2, ![4, 128]⟩ .f32

end Cert.Net

end
-- ==== Proof.LibMatmulPlain.lean ====
/-
  A plain matrix product into a zero accumulator, read at an index, at the ideal values.

  For an m×k matrix A and a k×n matrix B the product into the zero accumulator has, at row a and column b, the entry
  ∑ c, A(a, c) · B(c, b): the accumulator contributes the extended real 0, and the contraction index of the plain
  dimension numbers is the one coordinate c. The host's product of the same two matrices is the same sum, so the
  statement follows from the library's reading of the host product.
-/
import Idealize.ShloMosaic.PureOps.Ideal.Laws
import Idealize.ShloMosaic.Lib.ValueIdx
import Idealize.ShloMosaic.Lib.StackMember

namespace Cert.LibMatmulPlain

open Idealize.ShloMosaic Idealize.ShloMosaic.ValueIdx

/-- A plain m×k by k×n product into the zero accumulator reads, at (a, b), the sum over the contracted coordinate c of
    A(a, c) · B(c, b). At the ideal values, whatever the formats of the two operands. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [← StackMember.dotGeneral_plain_apply prec A B a b]
  show FloatOps.matmul _ prec A B _ (ix2 a b) = FloatOps.dotGeneral _ prec _ A B (ix2 a b)
  rw [Ideal.matmul_constant_zero_apply, Ideal.dotGeneral_apply]

end Cert.LibMatmulPlain
-- ==== Proof.LibLinearLayer.lean ====
/-
  A linear layer read at an index, at the ideal values.

  For a matrix x (m rows, k columns), a weight matrix W (k rows, n columns) and a bias row β, the layer's value at row a
  and column q is (∑ c, x(a, c) · W(c, q)) + β(q). Two spellings of it are read here and shown to be this one function:
  the product of the two matrices rounded to a narrower format (which, at the ideal values, changes nothing) into a
  zero accumulator, plus the bias row broadcast over the rows; and the host's product of the two matrices plus the bias
  vector broadcast twice, first to one row and then over the rows. A block of consecutive rows of the layer's value is
  the layer applied to the same rows of x.
-/
import Idealize.ShloMosaic.PureOps.Ideal.Laws
import Idealize.ShloMosaic.Lib.ValueIdx
import Idealize.ShloMosaic.Lib.ValueLayout
import Idealize.ShloMosaic.Lib.StackMember
import proofs.«116444_j64183991272049_2_alg».proof.Proof.LibMatmulPlain

noncomputable section

namespace Cert.LibLinearLayer

open Idealize.ShloMosaic Idealize.ShloMosaic.ValueIdx

variable {m k n : Nat}

/-- The linear layer: at row a and column q, the sum over c of x(a, c) · W(c, q), plus the bias at column q. -/
def lin (x : FVec Ideal ⟨2, ![m, k]⟩ .f32) (W : FVec Ideal ⟨2, ![k, n]⟩ .f32) (β : Fin n → EReal) :
    FVec Ideal ⟨2, ![m, n]⟩ .f32 :=
  fun i => (∑ c : Fin k, x (ix2 (show Fin m from i 0) c) * W (ix2 c (show Fin n from i 1))) + β (show Fin n from i 1)

theorem lin_apply (x : FVec Ideal ⟨2, ![m, k]⟩ .f32) (W : FVec Ideal ⟨2, ![k, n]⟩ .f32) (β : Fin n → EReal)
    (a : Fin m) (q : Fin n) :
    lin x W β (ix2 a q) = (∑ c : Fin k, x (ix2 a c) * W (ix2 c q)) + β q := rfl

/-- The kernel's spelling: both operands rounded to bf16 (the identity at the ideal values), multiplied into a zero
    accumulator, and the one bias row broadcast over the rows and added. -/
theorem body_eq_lin (D : DotDims ⟨2, ![m, k]⟩ ⟨2, ![k, n]⟩ ⟨2, ![m, n]⟩) (hD : D = DotDims.plain m k n)
    (hbits : FTy.bits .bf16 < FTy.bits .f32)
    (hb : (⟨2, ![1, n]⟩ : Shape).Broadcasts ⟨2, ![m, n]⟩)
    (A : FVec Ideal ⟨2, ![m, k]⟩ .f32) (B : FVec Ideal ⟨2, ![k, n]⟩ .f32) (bias : FVec Ideal ⟨2, ![1, n]⟩ .f32) :
    addf (matmul D none (truncf .bf16 A hbits) (truncf .bf16 B hbits) (constant (F := Ideal) ⟨2, ![m, n]⟩ .f32 0x00000000#32))
        (broadcastTo ⟨2, ![m, n]⟩ bias hb)
      = lin A B (fun q => bias (ix2 (0 : Fin 1) q)) := by
  subst hD
  funext j
  obtain ⟨a, q, rfl⟩ : ∃ (a : Fin m) (q : Fin n), j = ix2 a q := ⟨j 0, j 1, eq_ix2 j⟩
  rw [lin_apply, addf_apply, Cert.LibMatmulPlain.matmul_plain_zero_apply, broadcastTo_1b_ab_apply]
  rfl

/-- The host's spelling: the product of the two matrices, plus the bias vector made a row and then broadcast over the
    rows. -/
theorem host_eq_lin (D : DotDims ⟨2, ![m, k]⟩ ⟨2, ![k, n]⟩ ⟨2, ![m, n]⟩) (hD : D = DotDims.plain m k n)
    (h1 : (⟨1, ![n]⟩ : Shape).BroadcastsInDim ⟨2, ![1, n]⟩ ![1])
    (h2 : (⟨2, ![1, n]⟩ : Shape).BroadcastsInDim ⟨2, ![m, n]⟩ ![0, 1])
    (x : FVec Ideal ⟨2, ![m, k]⟩ .f32) (W : FVec Ideal ⟨2, ![k, n]⟩ .f32) (b : FVec Ideal ⟨1, ![n]⟩ .f32) :
    addf (Host.dotGeneral D none x W)
        (broadcastInDim ⟨2, ![m, n]⟩ ![0, 1] h2 (broadcastInDim ⟨2, ![1, n]⟩ ![1] h1 b))
      = lin x W (fun q => b (ix1 q)) := by
  subst hD
  funext j
  obtain ⟨a, q, rfl⟩ : ∃ (a : Fin m) (q : Fin n), j = ix2 a q := ⟨j 0, j 1, eq_ix2 j⟩
  rw [lin_apply, addf_apply, StackMember.dotGeneral_plain_apply]
  congr 1
  rw [broadcastInDim_apply ![0, 1] h2 _ (ix2 a q) (ix2 (0 : Fin 1) q) (fun ax => by
    match ax with
    | ⟨0, _⟩ => show (0 : Nat) = if (1 : Nat) = 1 then 0 else a.val; rw [if_pos rfl]
    | ⟨1, _⟩ =>
      show q.val = if n = 1 then 0 else q.val
      split
      · have := q.isLt; omega
      · rfl)]
  exact broadcastInDim_apply ![1] h1 b (ix2 (0 : Fin 1) q) (ix1 q) (fun ax => by
    match ax with
    | ⟨0, _⟩ =>
      show q.val = if n = 1 then 0 else q.val
      split
      · have := q.isLt; omega
      · rfl)

/-- Rows T·r … T·r + r − 1 of the layer's value are the layer applied to the same rows of x: if a block xb of r rows
    holds those rows of x, the layer of the block at (a, q) is the layer of x at (T·r + a, q). -/
theorem lin_rows {M r : Nat} (X : FVec Ideal ⟨2, ![M, k]⟩ .f32) (xb : FVec Ideal ⟨2, ![r, k]⟩ .f32)
    (W : FVec Ideal ⟨2, ![k, n]⟩ .f32) (β : Fin n → EReal) (a : Fin r) (A : Fin M) (q : Fin n)
    (hx : ∀ c : Fin k, xb (ix2 a c) = X (ix2 A c)) :
    lin xb W β (ix2 a q) = lin X W β (ix2 A q) := by
  rw [lin_apply, lin_apply]
  congr 1
  exact Finset.sum_congr rfl fun c _ => by rw [hx c]

end Cert.LibLinearLayer

end
-- ==== Proof.LibDenseProduct.lean ====
/-
  The dense product as one function of its two matrices, and the two spellings of it the programs use.

  For an m×k matrix A and a k×n matrix B, mm A B has at row a and column b the entry ∑ c, A(a, c) · B(c, b), over the
  extended reals. The host's plain dot_general of A and B is this array, and so is the kernel's matrix unit applied
  to A and B with the zero accumulator; the number format of either operand plays no part at the ideal values. A block of
  rows of mm A B is mm of the same rows of A with B: row a of the product reads row a of A only.
-/
import proofs.«116444_j64183991272049_2_alg».proof.Proof.LibMatmulPlain

noncomputable section

namespace Cert.LibDenseProduct

open Idealize.ShloMosaic Idealize.ShloMosaic.ValueIdx

variable {m k n : Nat} {φ₁ φ₂ : FTy}

/-- The product of an m×k and a k×n matrix, entry by entry. -/
def mm (A : FVec Ideal ⟨2, ![m, k]⟩ φ₁) (B : FVec Ideal ⟨2, ![k, n]⟩ φ₂) : FVec Ideal ⟨2, ![m, n]⟩ .f32 :=
  fun i => ∑ c : Fin k, A (ix2 (i 0) c) * B (ix2 c (i 1))

theorem mm_apply (A : FVec Ideal ⟨2, ![m, k]⟩ φ₁) (B : FVec Ideal ⟨2, ![k, n]⟩ φ₂) (a : Fin m) (b : Fin n) :
    mm A B (ix2 a b) = ∑ c : Fin k, A (ix2 a c) * B (ix2 c b) := rfl

/-- The host's plain product is `mm`. -/
theorem dotGeneral_plain_eq (prec : Option ContractPrecision) (A : FVec Ideal ⟨2, ![m, k]⟩ φ₁) (B : FVec Ideal ⟨2, ![k, n]⟩ φ₂) :
    Host.dotGeneral (DotDims.plain m k n) prec A B = mm A B := by
  funext i
  rw [eq_ix2 i]
  exact StackMember.dotGeneral_plain_apply prec A B _ _

/-- The matrix unit's plain product into the zero accumulator is `mm`. -/
theorem matmul_plain_zero_eq (prec : Option ContractPrecision) (A : FVec Ideal ⟨2, ![m, k]⟩ φ₁) (B : FVec Ideal ⟨2, ![k, n]⟩ φ₂) :
    matmul (DotDims.plain m k n) prec A B (constant (F := Ideal) ⟨2, ![m, n]⟩ .f32 0x00000000#32) = mm A B := by
  funext i
  rw [eq_ix2 i]
  exact Cert.LibMatmulPlain.matmul_plain_zero_apply prec A B _ _

/-- Rows of a product: if a small left factor `x0` holds, in its row `j 0`, row `i 0` of the large one `X`, then the small
    product at `j` is the large product at `i` whenever the two indices name the same column. -/
theorem mm_rows {M : Nat} (X : FVec Ideal ⟨2, ![M, k]⟩ φ₁) (W : FVec Ideal ⟨2, ![k, n]⟩ φ₂)
    (x0 : FVec Ideal ⟨2, ![m, k]⟩ φ₁) (j : (⟨2, ![m, n]⟩ : Shape).Idx) (i : (⟨2, ![M, n]⟩ : Shape).Idx)
    (hx : ∀ c : Fin k, x0 (ix2 (j 0) c) = X (ix2 (i 0) c)) (h1 : (j 1 : Fin n) = i 1) : mm x0 W j = mm X W i := by
  unfold mm
  refine Finset.sum_congr rfl fun c _ => ?_
  rw [hx c]
  exact congrArg (fun b : Fin n => X (ix2 (i 0) c) * W (ix2 c b)) h1

end Cert.LibDenseProduct

end
-- ==== Proof.LibDenseStages.lean ====
/-
  Rowwise dense maps over the extended reals, in a tile's spelling and in a whole array's, and row by row: a bias row
  added to every row of a matrix (addRow), the same followed by the maximum with zero (reluRow), and their compositions
  with the plain product mm and the linear layer lin — the dense stages of a two-layer graph convolution with a two-layer
  head. Generic in every size.

  Between the graph aggregations the network applies three dense maps to an array with one row per node:
  X ↦ X·W (layer 1), A ↦ max(A + β, 0)·W (the bias and rectifier of layer 1 fused into layer 2's product), and
  A ↦ ((A + β₂)·W₁ + β₁')·W₂ + β₂' (layer 2's bias fused into the head's two linear layers), where a bias β is one row
  added to every row. Each is written here as one function of whole arrays, built from the product mm, the linear layer
  lin and two rowwise maps, addRow and reluRow. Every entry of a result depends on ONE row of the array of nodes, so a
  block of rows of a result is the same map of the same rows: that is what lets a program compute the maps tile by
  tile. The rowwise maps are read here in the two spellings the programs use: a bias kept as a [1, k] row and broadcast
  down a tile, and a bias vector made a row and then broadcast down the whole array.
-/
import proofs.«116444_j64183991272049_2_alg».proof.Proof.LibDenseProduct
import proofs.«116444_j64183991272049_2_alg».proof.Proof.LibLinearLayer
import Idealize.ShloMosaic.Lib.Pipeline.Value
import Idealize.ShloMosaic.Lib.ValueLayout

noncomputable section

namespace Cert.LibDenseStages

open Idealize.ShloMosaic Idealize.ShloMosaic.ValueIdx
open Cert.LibDenseProduct Cert.LibLinearLayer

variable {m k n : Nat}

/-- The extended real that the word of +0.0 denotes, kept as its word: both programs write the same word. -/
abbrev zeroWord : EReal := Ideal.ofBits .f32 0x00000000#32

/-! ## A bias row added to every row, and the rectifier after it -/

/-- A matrix with the row β added to each of its rows. -/
def addRow (a : FVec Ideal ⟨2, ![m, k]⟩ .f32) (β : Fin k → EReal) : FVec Ideal ⟨2, ![m, k]⟩ .f32 :=
  fun i => a i + β (show Fin k from i 1)

theorem addRow_apply (a : FVec Ideal ⟨2, ![m, k]⟩ .f32) (β : Fin k → EReal) (p : Fin m) (q : Fin k) :
    addRow a β (ix2 p q) = a (ix2 p q) + β q := rfl

/-- A matrix with the row β added to each of its rows, then the maximum with zero entry by entry. -/
def reluRow (a : FVec Ideal ⟨2, ![m, k]⟩ .f32) (β : Fin k → EReal) : FVec Ideal ⟨2, ![m, k]⟩ .f32 :=
  fun i => max (a i + β (show Fin k from i 1)) zeroWord

theorem reluRow_apply (a : FVec Ideal ⟨2, ![m, k]⟩ .f32) (β : Fin k → EReal) (p : Fin m) (q : Fin k) :
    reluRow a β (ix2 p q) = max (a (ix2 p q) + β q) zeroWord := rfl

/-! ## The tile's spelling: the bias is a [1, k] row, broadcast down the tile -/

/-- A tile plus a [1, k] row broadcast down its rows (both passed through reshapes to their own shapes). -/
theorem tile_addRow (h0 : (⟨2, ![m, k]⟩ : Shape).ShapeCasts ⟨2, ![m, k]⟩) (h1 : (⟨2, ![1, k]⟩ : Shape).ShapeCasts ⟨2, ![1, k]⟩)
    (hb : (⟨2, ![1, k]⟩ : Shape).Broadcasts ⟨2, ![m, k]⟩)
    (a : FVec Ideal ⟨2, ![m, k]⟩ .f32) (row : FVec Ideal ⟨2, ![1, k]⟩ .f32) :
    addf (shapeCast ⟨2, ![m, k]⟩ a h0) (broadcastTo ⟨2, ![m, k]⟩ (shapeCast ⟨2, ![1, k]⟩ row h1) hb)
      = addRow a (fun q => row (ix2 (0 : Fin 1) q)) := by
  rw [shapeCast_self, shapeCast_self]
  funext j
  obtain ⟨p, q, rfl⟩ : ∃ (p : Fin m) (q : Fin k), j = ix2 p q := ⟨j 0, j 1, eq_ix2 j⟩
  rw [addRow_apply, addf_apply, broadcastTo_1b_ab_apply]

/-- The same followed by the maximum with a splat of the zero word. -/
theorem tile_reluRow (h0 : (⟨2, ![m, k]⟩ : Shape).ShapeCasts ⟨2, ![m, k]⟩) (h1 : (⟨2, ![1, k]⟩ : Shape).ShapeCasts ⟨2, ![1, k]⟩)
    (hb : (⟨2, ![1, k]⟩ : Shape).Broadcasts ⟨2, ![m, k]⟩)
    (a : FVec Ideal ⟨2, ![m, k]⟩ .f32) (row : FVec Ideal ⟨2, ![1, k]⟩ .f32) :
    maximumf (addf (shapeCast ⟨2, ![m, k]⟩ a h0) (broadcastTo ⟨2, ![m, k]⟩ (shapeCast ⟨2, ![1, k]⟩ row h1) hb))
        (broadcast ⟨2, ![m, k]⟩ (Scalar.ofBits (F := Ideal) .f32 0x00000000#32))
      = reluRow a (fun q => row (ix2 (0 : Fin 1) q)) := by
  rw [tile_addRow]
  funext j
  obtain ⟨p, q, rfl⟩ : ∃ (p : Fin m) (q : Fin k), j = ix2 p q := ⟨j 0, j 1, eq_ix2 j⟩
  rw [reluRow_apply, maximumf_apply, addRow_apply, broadcast_apply]
  rfl

/-- A bias vector reshaped to a [1, k] row reads, in its one row, the vector. -/
theorem reshape_row_apply (b : FVec Ideal ⟨1, ![k]⟩ .f32) (h : (⟨1, ![k]⟩ : Shape).ShapeCasts ⟨2, ![1, k]⟩) (q : Fin k) :
    shapeCast ⟨2, ![1, k]⟩ b h (ix2 (0 : Fin 1) q) = b (ix1 q) :=
  shapeCast_apply b h _ _ (by
    rw [Shape.rowMajor_val_two, Shape.rowMajor_val_one]
    show q.val = 0 * k + q.val
    omega)

/-! ## The whole array's spelling: the bias vector made a row, then broadcast down the array -/

/-- A bias vector broadcast to a [1, k] row and then down m rows reads, at (p, q), the vector at q. -/
theorem host_row_apply (h1 : (⟨1, ![k]⟩ : Shape).BroadcastsInDim ⟨2, ![1, k]⟩ ![1])
    (h2 : (⟨2, ![1, k]⟩ : Shape).BroadcastsInDim ⟨2, ![m, k]⟩ ![0, 1]) (b : FVec Ideal ⟨1, ![k]⟩ .f32) (p : Fin m) (q : Fin k) :
    broadcastInDim ⟨2, ![m, k]⟩ ![0, 1] h2 (broadcastInDim ⟨2, ![1, k]⟩ ![1] h1 b) (ix2 p q) = b (ix1 q) := by
  rw [broadcastInDim_apply ![0, 1] h2 _ (ix2 p q) (ix2 (0 : Fin 1) q) (fun ax => by
    match ax with
    | ⟨0, _⟩ => show (0 : Nat) = if (1 : Nat) = 1 then 0 else p.val; rw [if_pos rfl]
    | ⟨1, _⟩ =>
      show q.val = if k = 1 then 0 else q.val
      split
      · have := q.isLt; omega
      · rfl)]
  exact broadcastInDim_apply ![1] h1 b (ix2 (0 : Fin 1) q) (ix1 q) (fun ax => by
    match ax with
    | ⟨0, _⟩ =>
      show q.val = if k = 1 then 0 else q.val
      split
      · have := q.isLt; omega
      · rfl)

/-- The array plus the bias vector broadcast twice. -/
theorem host_addRow (h1 : (⟨1, ![k]⟩ : Shape).BroadcastsInDim ⟨2, ![1, k]⟩ ![1])
    (h2 : (⟨2, ![1, k]⟩ : Shape).BroadcastsInDim ⟨2, ![m, k]⟩ ![0, 1])
    (a : FVec Ideal ⟨2, ![m, k]⟩ .f32) (b : FVec Ideal ⟨1, ![k]⟩ .f32) :
    addf a (broadcastInDim ⟨2, ![m, k]⟩ ![0, 1] h2 (broadcastInDim ⟨2, ![1, k]⟩ ![1] h1 b)) = addRow a (fun q => b (ix1 q)) := by
  funext j
  obtain ⟨p, q, rfl⟩ : ∃ (p : Fin m) (q : Fin k), j = ix2 p q := ⟨j 0, j 1, eq_ix2 j⟩
  rw [addRow_apply, addf_apply, host_row_apply]

/-- The same followed by the maximum with the scalar zero word broadcast to the array's shape. -/
theorem host_reluRow (h1 : (⟨1, ![k]⟩ : Shape).BroadcastsInDim ⟨2, ![1, k]⟩ ![1])
    (h2 : (⟨2, ![1, k]⟩ : Shape).BroadcastsInDim ⟨2, ![m, k]⟩ ![0, 1])
    (h0 : (⟨0, ![]⟩ : Shape).BroadcastsInDim ⟨2, ![m, k]⟩ ![])
    (a : FVec Ideal ⟨2, ![m, k]⟩ .f32) (b : FVec Ideal ⟨1, ![k]⟩ .f32) :
    maximumf (addf a (broadcastInDim ⟨2, ![m, k]⟩ ![0, 1] h2 (broadcastInDim ⟨2, ![1, k]⟩ ![1] h1 b)))
        (broadcastInDim ⟨2, ![m, k]⟩ ![] h0 (constant (F := Ideal) ⟨0, ![]⟩ .f32 0x00000000#32))
      = reluRow a (fun q => b (ix1 q)) := by
  rw [host_addRow]
  funext j
  obtain ⟨p, q, rfl⟩ : ∃ (p : Fin m) (q : Fin k), j = ix2 p q := ⟨j 0, j 1, eq_ix2 j⟩
  rw [reluRow_apply, maximumf_apply, addRow_apply,
    broadcastInDim_apply (![] : Fin 0 → Fin 2) h0 _ (ix2 p q) ix0 (fun ax => ax.elim0)]
  rfl

/-! ## Row by row -/

/-- An entry of a product depends on one row of the left factor and one column of the right one: if a small left factor
    holds, in its row `j 0`, row `i 0` of a large one, and the right factors agree on columns `j 1` and `i 1`, the
    small product at `j` is the large product at `i`. -/
theorem mm_congr_idx {M : Nat} (X : FVec Ideal ⟨2, ![M, k]⟩ .f32) (W : FVec Ideal ⟨2, ![k, n]⟩ .f32)
    (x0 : FVec Ideal ⟨2, ![m, k]⟩ .f32) (w0 : FVec Ideal ⟨2, ![k, n]⟩ .f32)
    (j : (⟨2, ![m, n]⟩ : Shape).Idx) (i : (⟨2, ![M, n]⟩ : Shape).Idx)
    (hx : ∀ c : Fin k, x0 (ix2 (j 0) c) = X (ix2 (i 0) c)) (hw : ∀ c : Fin k, w0 (ix2 c (j 1)) = W (ix2 c (i 1))) :
    mm x0 w0 j = mm X W i := by
  unfold mm
  exact Finset.sum_congr rfl fun c _ => by rw [hx c, hw c]

/-- The same for a linear layer, whose entry also reads one bias entry. -/
theorem lin_congr_idx {M : Nat} (X : FVec Ideal ⟨2, ![M, k]⟩ .f32) (W : FVec Ideal ⟨2, ![k, n]⟩ .f32) (β : Fin n → EReal)
    (x0 : FVec Ideal ⟨2, ![m, k]⟩ .f32) (w0 : FVec Ideal ⟨2, ![k, n]⟩ .f32) (β0 : Fin n → EReal)
    (j : (⟨2, ![m, n]⟩ : Shape).Idx) (i : (⟨2, ![M, n]⟩ : Shape).Idx)
    (hx : ∀ c : Fin k, x0 (ix2 (j 0) c) = X (ix2 (i 0) c)) (hw : ∀ c : Fin k, w0 (ix2 c (j 1)) = W (ix2 c (i 1)))
    (hβ : β0 (j 1) = β (i 1)) :
    lin x0 w0 β0 j = lin X W β i := by
  unfold lin
  show (∑ c : Fin k, x0 (ix2 (j 0) c) * w0 (ix2 c (j 1))) + β0 (j 1) = (∑ c : Fin k, X (ix2 (i 0) c) * W (ix2 c (i 1))) + β (i 1)
  rw [hβ]
  congr 1
  exact Finset.sum_congr rfl fun c _ => by rw [hx c, hw c]

/-- Layer 2's map row by row: bias and rectifier act entry by entry, then the product reads one row. -/
theorem reluRow_mm_congr_idx {M : Nat} (X : FVec Ideal ⟨2, ![M, k]⟩ .f32) (β : Fin k → EReal) (W : FVec Ideal ⟨2, ![k, n]⟩ .f32)
    (x0 : FVec Ideal ⟨2, ![m, k]⟩ .f32) (β0 : Fin k → EReal) (w0 : FVec Ideal ⟨2, ![k, n]⟩ .f32)
    (j : (⟨2, ![m, n]⟩ : Shape).Idx) (i : (⟨2, ![M, n]⟩ : Shape).Idx)
    (hx : ∀ c : Fin k, x0 (ix2 (j 0) c) = X (ix2 (i 0) c)) (hβ : ∀ c : Fin k, β0 c = β c)
    (hw : ∀ c : Fin k, w0 (ix2 c (j 1)) = W (ix2 c (i 1))) :
    mm (reluRow x0 β0) w0 j = mm (reluRow X β) W i :=
  mm_congr_idx (reluRow X β) W (reluRow x0 β0) w0 j i
    (fun c => by
      show max (x0 (ix2 (j 0) c) + β0 c) zeroWord = max (X (ix2 (i 0) c) + β c) zeroWord
      rw [hx c, hβ c]) hw

/-- The head's map row by row: a bias, then two linear layers; the first layer's weights and bias are read whole. -/
theorem head_congr_idx {M k1 k2 : Nat} (X : FVec Ideal ⟨2, ![M, k1]⟩ .f32) (β : Fin k1 → EReal)
    (W1 : FVec Ideal ⟨2, ![k1, k2]⟩ .f32) (β1 : Fin k2 → EReal) (W2 : FVec Ideal ⟨2, ![k2, n]⟩ .f32) (β2 : Fin n → EReal)
    (x0 : FVec Ideal ⟨2, ![m, k1]⟩ .f32) (β' : Fin k1 → EReal)
    (w1 : FVec Ideal ⟨2, ![k1, k2]⟩ .f32) (β1' : Fin k2 → EReal) (w2 : FVec Ideal ⟨2, ![k2, n]⟩ .f32) (β2' : Fin n → EReal)
    (j : (⟨2, ![m, n]⟩ : Shape).Idx) (i : (⟨2, ![M, n]⟩ : Shape).Idx)
    (hx : ∀ c : Fin k1, x0 (ix2 (j 0) c) = X (ix2 (i 0) c)) (hβ : ∀ c : Fin k1, β' c = β c)
    (hw1 : ∀ (c : Fin k1) (d : Fin k2), w1 (ix2 c d) = W1 (ix2 c d)) (hβ1 : ∀ d : Fin k2, β1' d = β1 d)
    (hw2 : ∀ d : Fin k2, w2 (ix2 d (j 1)) = W2 (ix2 d (i 1))) (hβ2 : β2' (j 1) = β2 (i 1)) :
    lin (lin (addRow x0 β') w1 β1') w2 β2' j = lin (lin (addRow X β) W1 β1) W2 β2 i :=
  lin_congr_idx (lin (addRow X β) W1 β1) W2 β2 (lin (addRow x0 β') w1 β1') w2 β2' j i
    (fun d => lin_congr_idx (addRow X β) W1 β1 (addRow x0 β') w1 β1' (ix2 (j 0) d) (ix2 (i 0) d)
      (fun c => by
        show x0 (ix2 (j 0) c) + β' c = X (ix2 (i 0) c) + β c
        rw [hx c, hβ c])
      (fun c => hw1 c d) (hβ1 d))
    hw2 hβ2

end Cert.LibDenseStages

end
-- ==== Proof.LibNormLayer.lean ====
/-
  A linear layer followed by an inference-time normalisation, read at an index, at the ideal values; and the two-layer
  perceptron built from two such layers with the maximum with zero between them.

  For a matrix x (m rows, k columns), a weight matrix W (k rows, n columns) and five rows β, μ, σ, γ, δ of length n, the
  normalised layer has, at row a and column q, the value

      ((((∑ c, x(a, c) · W(c, q)) + β(q)) − μ(q)) · rsqrt(σ(q) + ε)) · γ(q) + δ(q),

  where ε is the extended real that the word of 1e-5 denotes: the linear layer's value has the running mean μ taken
  off, is scaled by the reciprocal square root of the running variance σ plus ε, and then by γ, and is shifted by δ. The
  operations are kept in exactly this order and association; no algebraic identity of the extended reals is used
  anywhere in this file, only the reading of each array operation at an index.

  Two spellings of the layer are read here and shown to be this one function. In the first, on a tile of rows, the five
  vectors are [1, n] rows broadcast down the tile, the two factors of the product are rounded to bf16 (which changes
  nothing at the ideal values) and multiplied into a zero accumulator, and ε is a scalar spread over a [1, n] row before
  the reciprocal square root is taken of that row. In the second, on a whole array, the five vectors are of shape [n]
  and are broadcast twice, first to one row and then down the rows, the product is the host's, and ε is a scalar
  broadcast to shape [n] before the reciprocal square root is taken of that vector. The maximum with zero is read in
  the same two spellings: against a scalar spread over the tile, and against a scalar broadcast to the array's shape.

  Every entry of a layer's value reads one row of x only (and the maximum with zero acts entry by entry), so a block of
  rows of the two-layer map's value is the same map applied to the same rows of x: that is what lets a program compute
  it tile by tile.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember
import proofs.«116444_j64183991272049_2_alg».proof.Proof.LibMatmulPlain
import proofs.«116444_j64183991272049_2_alg».proof.Proof.LibLinearLayer
import proofs.«116444_j64183991272049_2_alg».proof.Proof.LibDenseStages

noncomputable section

namespace Cert.LibNormLayer

open Idealize.ShloMosaic Idealize.ShloMosaic.ValueIdx

variable {m k n : Nat}

/-- The extended reals the words of 1e-5 and +0.0 denote, kept as their words: both programs write the same words. -/
abbrev epsWord : EReal := Ideal.ofBits .f32 0x3727C5AC#32
/-- The extended real that the word of +0.0 denotes, kept as its word. -/
abbrev zeroWord : EReal := Ideal.ofBits .f32 0x00000000#32

/-! ## The functions -/

/-- A linear layer followed by the normalising affine map, entry by entry. -/
def normLin (x : FVec Ideal ⟨2, ![m, k]⟩ .f32) (W : FVec Ideal ⟨2, ![k, n]⟩ .f32) (β μ σ γ δ : Fin n → EReal) :
    FVec Ideal ⟨2, ![m, n]⟩ .f32 :=
  fun i => ((((∑ c : Fin k, x (ix2 (show Fin m from i 0) c) * W (ix2 c (show Fin n from i 1))) + β (show Fin n from i 1))
      - μ (show Fin n from i 1)) * Ideal.rsqrt (σ (show Fin n from i 1) + epsWord)) * γ (show Fin n from i 1)
    + δ (show Fin n from i 1)

theorem normLin_apply (x : FVec Ideal ⟨2, ![m, k]⟩ .f32) (W : FVec Ideal ⟨2, ![k, n]⟩ .f32) (β μ σ γ δ : Fin n → EReal)
    (a : Fin m) (q : Fin n) :
    normLin x W β μ σ γ δ (ix2 a q)
      = ((((∑ c : Fin k, x (ix2 a c) * W (ix2 c q)) + β q) - μ q) * Ideal.rsqrt (σ q + epsWord)) * γ q + δ q := rfl

/-- The maximum with zero, entry by entry. -/
def ramp (a : FVec Ideal ⟨2, ![m, k]⟩ .f32) : FVec Ideal ⟨2, ![m, k]⟩ .f32 := fun i => max (a i) zeroWord

theorem ramp_apply (a : FVec Ideal ⟨2, ![m, k]⟩ .f32) (i : (⟨2, ![m, k]⟩ : Shape).Idx) : ramp a i = max (a i) zeroWord := rfl

/-- The two-layer map without its last ramp. -/
def mlpCore {d h e : Nat} (x : FVec Ideal ⟨2, ![m, d]⟩ .f32)
    (W1 : FVec Ideal ⟨2, ![d, h]⟩ .f32) (β1 μ1 σ1 γ1 δ1 : Fin h → EReal)
    (W2 : FVec Ideal ⟨2, ![h, e]⟩ .f32) (β2 μ2 σ2 γ2 δ2 : Fin e → EReal) : FVec Ideal ⟨2, ![m, e]⟩ .f32 :=
  normLin (ramp (normLin x W1 β1 μ1 σ1 γ1 δ1)) W2 β2 μ2 σ2 γ2 δ2

/-! ## The reciprocal square root of an array, at an index -/

/-- The tile's reciprocal square root of an array reads, at an index, the reciprocal square root of the entry. -/
theorem rsqrt_apply {s : Shape} (v : FVec Ideal s .f32) (i : s.Idx) : rsqrt v i = Ideal.rsqrt (v i) := rfl

/-- The host's reciprocal square root of an array reads, at an index, the same function of the entry. -/
theorem host_rsqrt_apply {s : Shape} (v : FVec Ideal s .f32) (i : s.Idx) : Host.rsqrt v i = Ideal.rsqrt (v i) := rfl

/-! ## The tile's spelling: the five vectors are [1, n] rows, broadcast down the tile -/

/-- One normalised layer on a tile: the two factors rounded to bf16 (the identity at the ideal values) and multiplied
    into a zero accumulator; then the bias row added, the mean row taken off, the product with the reciprocal square
    root of the variance row plus ε, the product with the scale row, and the shift row added, each row broadcast down
    the tile. -/
theorem tile_normLin (D : DotDims ⟨2, ![m, k]⟩ ⟨2, ![k, n]⟩ ⟨2, ![m, n]⟩) (hD : D = DotDims.plain m k n)
    (hbits : FTy.bits .bf16 < FTy.bits .f32)
    (h1 : (⟨2, ![1, n]⟩ : Shape).ShapeCasts ⟨2, ![1, n]⟩) (hb : (⟨2, ![1, n]⟩ : Shape).Broadcasts ⟨2, ![m, n]⟩)
    (A : FVec Ideal ⟨2, ![m, k]⟩ .f32) (B : FVec Ideal ⟨2, ![k, n]⟩ .f32) (b mu sg g de : FVec Ideal ⟨2, ![1, n]⟩ .f32) :
    addf (mulf (mulf (subf (addf (matmul D none (truncf .bf16 A hbits) (truncf .bf16 B hbits) (constant (F := Ideal) ⟨2, ![m, n]⟩ .f32 0x00000000#32))
              (broadcastTo ⟨2, ![m, n]⟩ (shapeCast ⟨2, ![1, n]⟩ b h1) hb))
            (broadcastTo ⟨2, ![m, n]⟩ (shapeCast ⟨2, ![1, n]⟩ mu h1) hb))
          (broadcastTo ⟨2, ![m, n]⟩ (rsqrt (addf (shapeCast ⟨2, ![1, n]⟩ sg h1) (broadcast ⟨2, ![1, n]⟩ (Scalar.ofBits (F := Ideal) .f32 0x3727C5AC#32)))) hb))
        (broadcastTo ⟨2, ![m, n]⟩ (shapeCast ⟨2, ![1, n]⟩ g h1) hb))
      (broadcastTo ⟨2, ![m, n]⟩ (shapeCast ⟨2, ![1, n]⟩ de h1) hb)
      = normLin A B (fun q => b (ix2 (0 : Fin 1) q)) (fun q => mu (ix2 (0 : Fin 1) q)) (fun q => sg (ix2 (0 : Fin 1) q))
          (fun q => g (ix2 (0 : Fin 1) q)) (fun q => de (ix2 (0 : Fin 1) q)) := by
  subst hD
  rw [shapeCast_self b h1, shapeCast_self mu h1, shapeCast_self sg h1, shapeCast_self g h1, shapeCast_self de h1]
  funext j
  obtain ⟨a, q, rfl⟩ : ∃ (a : Fin m) (q : Fin n), j = ix2 a q := ⟨j 0, j 1, eq_ix2 j⟩
  rw [normLin_apply, addf_apply, mulf_apply, mulf_apply, subf_apply, addf_apply,
    Cert.LibMatmulPlain.matmul_plain_zero_apply,
    broadcastTo_1b_ab_apply b hb, broadcastTo_1b_ab_apply mu hb, broadcastTo_1b_ab_apply _ hb,
    broadcastTo_1b_ab_apply g hb, broadcastTo_1b_ab_apply de hb,
    rsqrt_apply, addf_apply, broadcast_apply]
  rfl

/-- The maximum of a tile with a scalar zero word spread over the tile. -/
theorem tile_ramp (a : FVec Ideal ⟨2, ![m, k]⟩ .f32) :
    maximumf a (broadcast ⟨2, ![m, k]⟩ (Scalar.ofBits (F := Ideal) .f32 0x00000000#32)) = ramp a := by
  funext i
  rw [ramp_apply, maximumf_apply, broadcast_apply]
  rfl

/-! ## The whole array's spelling: the five vectors have shape [n] and are broadcast twice -/

/-- One normalised layer on the whole array: the host's product; then the bias added, the mean taken off, the product
    with the reciprocal square root of the variance vector plus ε (ε a scalar broadcast to the vector's shape), the
    product with the scale, and the shift added, each vector made a row and then broadcast down the array. -/
theorem host_normLin (D : DotDims ⟨2, ![m, k]⟩ ⟨2, ![k, n]⟩ ⟨2, ![m, n]⟩) (hD : D = DotDims.plain m k n)
    (h1 : (⟨1, ![n]⟩ : Shape).BroadcastsInDim ⟨2, ![1, n]⟩ ![1]) (h2 : (⟨2, ![1, n]⟩ : Shape).BroadcastsInDim ⟨2, ![m, n]⟩ ![0, 1])
    (h0 : (⟨0, ![]⟩ : Shape).BroadcastsInDim ⟨1, ![n]⟩ ![])
    (x : FVec Ideal ⟨2, ![m, k]⟩ .f32) (W : FVec Ideal ⟨2, ![k, n]⟩ .f32) (b mu sg g de : FVec Ideal ⟨1, ![n]⟩ .f32) :
    addf (mulf (mulf (subf (addf (Host.dotGeneral D none x W)
              (broadcastInDim ⟨2, ![m, n]⟩ ![0, 1] h2 (broadcastInDim ⟨2, ![1, n]⟩ ![1] h1 b)))
            (broadcastInDim ⟨2, ![m, n]⟩ ![0, 1] h2 (broadcastInDim ⟨2, ![1, n]⟩ ![1] h1 mu)))
          (broadcastInDim ⟨2, ![m, n]⟩ ![0, 1] h2 (broadcastInDim ⟨2, ![1, n]⟩ ![1] h1 (Host.rsqrt (addf sg (broadcastInDim ⟨1, ![n]⟩ ![] h0 (constant (F := Ideal) ⟨0, ![]⟩ .f32 0x3727C5AC#32)))))))
        (broadcastInDim ⟨2, ![m, n]⟩ ![0, 1] h2 (broadcastInDim ⟨2, ![1, n]⟩ ![1] h1 g)))
      (broadcastInDim ⟨2, ![m, n]⟩ ![0, 1] h2 (broadcastInDim ⟨2, ![1, n]⟩ ![1] h1 de))
      = normLin x W (fun q => b (ix1 q)) (fun q => mu (ix1 q)) (fun q => sg (ix1 q)) (fun q => g (ix1 q)) (fun q => de (ix1 q)) := by
  subst hD
  funext j
  obtain ⟨a, q, rfl⟩ : ∃ (a : Fin m) (q : Fin n), j = ix2 a q := ⟨j 0, j 1, eq_ix2 j⟩
  rw [normLin_apply, addf_apply, mulf_apply, mulf_apply, subf_apply, addf_apply,
    StackMember.dotGeneral_plain_apply,
    Cert.LibDenseStages.host_row_apply h1 h2 b, Cert.LibDenseStages.host_row_apply h1 h2 mu,
    Cert.LibDenseStages.host_row_apply h1 h2 (Host.rsqrt _),
    Cert.LibDenseStages.host_row_apply h1 h2 g, Cert.LibDenseStages.host_row_apply h1 h2 de,
    host_rsqrt_apply, addf_apply,
    broadcastInDim_apply (![] : Fin 0 → Fin 1) h0 _ (ix1 q) ix0 (fun ax => ax.elim0)]
  rfl

/-- The maximum of the array with the scalar zero word broadcast to the array's shape. -/
theorem host_ramp (h0 : (⟨0, ![]⟩ : Shape).BroadcastsInDim ⟨2, ![m, k]⟩ ![]) (a : FVec Ideal ⟨2, ![m, k]⟩ .f32) :
    maximumf a (broadcastInDim ⟨2, ![m, k]⟩ ![] h0 (constant (F := Ideal) ⟨0, ![]⟩ .f32 0x00000000#32)) = ramp a := by
  funext j
  obtain ⟨p, q, rfl⟩ : ∃ (p : Fin m) (q : Fin k), j = ix2 p q := ⟨j 0, j 1, eq_ix2 j⟩
  rw [ramp_apply, maximumf_apply,
    broadcastInDim_apply (![] : Fin 0 → Fin 2) h0 _ (ix2 p q) ix0 (fun ax => ax.elim0)]
  rfl

/-! ## Row by row -/

/-- An entry of a normalised layer reads one row of x: if row a of a block xb of r rows is row A of X, the layer of the
    block at (a, q) is the layer of X at (A, q). -/
theorem normLin_rows {M r : Nat} (X : FVec Ideal ⟨2, ![M, k]⟩ .f32) (xb : FVec Ideal ⟨2, ![r, k]⟩ .f32)
    (W : FVec Ideal ⟨2, ![k, n]⟩ .f32) (β μ σ γ δ : Fin n → EReal) (a : Fin r) (A : Fin M) (q : Fin n)
    (hx : ∀ c : Fin k, xb (ix2 a c) = X (ix2 A c)) :
    normLin xb W β μ σ γ δ (ix2 a q) = normLin X W β μ σ γ δ (ix2 A q) := by
  have hs : (∑ c : Fin k, xb (ix2 a c) * W (ix2 c q)) = ∑ c : Fin k, X (ix2 A c) * W (ix2 c q) :=
    Finset.sum_congr rfl fun c _ => by rw [hx c]
  rw [normLin_apply, normLin_apply, hs]

/-- The same for the two-layer map: the first layer and the maximum with zero give, in row a of the block, row A of
    their value on X, and the second layer reads that one row. -/
theorem mlpCore_rows {M r d h e : Nat} (X : FVec Ideal ⟨2, ![M, d]⟩ .f32) (xb : FVec Ideal ⟨2, ![r, d]⟩ .f32)
    (W1 : FVec Ideal ⟨2, ![d, h]⟩ .f32) (β1 μ1 σ1 γ1 δ1 : Fin h → EReal)
    (W2 : FVec Ideal ⟨2, ![h, e]⟩ .f32) (β2 μ2 σ2 γ2 δ2 : Fin e → EReal) (a : Fin r) (A : Fin M) (q : Fin e)
    (hx : ∀ c : Fin d, xb (ix2 a c) = X (ix2 A c)) :
    mlpCore xb W1 β1 μ1 σ1 γ1 δ1 W2 β2 μ2 σ2 γ2 δ2 (ix2 a q) = mlpCore X W1 β1 μ1 σ1 γ1 δ1 W2 β2 μ2 σ2 γ2 δ2 (ix2 A q) := by
  unfold mlpCore
  exact normLin_rows (ramp (normLin X W1 β1 μ1 σ1 γ1 δ1)) (ramp (normLin xb W1 β1 μ1 σ1 γ1 δ1)) W2 β2 μ2 σ2 γ2 δ2 a A q
    (fun c => by rw [ramp_apply, ramp_apply, normLin_rows X xb W1 β1 μ1 σ1 γ1 δ1 a A c hx])

/-- The same with the last maximum with zero, which acts entry by entry. -/
theorem ramp_mlpCore_rows {M r d h e : Nat} (X : FVec Ideal ⟨2, ![M, d]⟩ .f32) (xb : FVec Ideal ⟨2, ![r, d]⟩ .f32)
    (W1 : FVec Ideal ⟨2, ![d, h]⟩ .f32) (β1 μ1 σ1 γ1 δ1 : Fin h → EReal)
    (W2 : FVec Ideal ⟨2, ![h, e]⟩ .f32) (β2 μ2 σ2 γ2 δ2 : Fin e → EReal) (a : Fin r) (A : Fin M) (q : Fin e)
    (hx : ∀ c : Fin d, xb (ix2 a c) = X (ix2 A c)) :
    ramp (mlpCore xb W1 β1 μ1 σ1 γ1 δ1 W2 β2 μ2 σ2 γ2 δ2) (ix2 a q)
      = ramp (mlpCore X W1 β1 μ1 σ1 γ1 δ1 W2 β2 μ2 σ2 γ2 δ2) (ix2 A q) := by
  rw [ramp_apply, ramp_apply, mlpCore_rows X xb W1 β1 μ1 σ1 γ1 δ1 W2 β2 μ2 σ2 γ2 δ2 a A q hx]

end Cert.LibNormLayer

end
-- ==== Proof.Net.lean ====
/-
  The network: five layers of the host operations of NetGlue around the two-layer normalised map, as one function of
  the thirty argument arrays.

  In layer l the node array's z goes through a linear map 128 → 256, the normalising affine map, a ramp, a linear map
  256 → 128 and the normalising affine map again, with a last ramp in every layer but the last; the graph table's sum
  goes through the same kind of map with its own parameters and always the last ramp. The parameters of layer l are
  entry l of the stacked argument arrays.
-/
import proofs.«116444_j64183991272049_2_alg».proof.Proof.NetGlue
import proofs.«116444_j64183991272049_2_alg».proof.Proof.LibNormLayer

noncomputable section

namespace Cert.Net

open Idealize.ShloMosaic Idealize.ShloMosaic.ValueIdx Cert.LibNormLayer

variable (D : Dims) (L : Layout)

variable (A : Args)

/-- Layer l's two-layer map of the node array's z, without its last ramp: linear 128 → 256, normalise, ramp, linear
    256 → 128, normalise (bias, mean, variance, scale, shift taken from the stacks at l). -/
def convCore (l : Fin 5) (z : FVec Ideal S100000x128 .f32) : FVec Ideal S100000x128 .f32 :=
  mlpCore z (wAt A.mW1 l) (rowAt A.mb1 l) (rowAt A.mm l) (rowAt A.mv l) (rowAt A.mg l) (rowAt A.mb l)
    (wAt A.mW2 l) (rowAt A.mb2 l) (rowAt A.nm l) (rowAt A.nv l) (rowAt A.ng l) (rowAt A.nb l)

/-- Layer l's two-layer map of the graph table's sum, with its last ramp. -/
def tableMap (l : Fin 4) (t : FVec Ideal S512x128 .f32) : FVec Ideal S512x128 .f32 :=
  ramp (mlpCore t (wAt A.vW1 l) (rowAt A.vb1 l) (rowAt A.vm1 l) (rowAt A.vv1 l) (rowAt A.vg1 l) (rowAt A.vbb1 l)
    (wAt A.vW2 l) (rowAt A.vb2 l) (rowAt A.vm2 l) (rowAt A.vv2 l) (rowAt A.vg2 l) (rowAt A.vbb2 l))

def zAt (l : Fin 5) (hin : FVec Ideal S100000x128 .f32) : FVec Ideal S100000x128 .f32 :=
  zOf D L hin (srcOf L A.edges) (dstOf L A.edges) (scalarAt A.eps l)

def hin0 : FVec Ideal S100000x128 .f32 := hinInit D L A.x A.batch A.enc A.ve
def vn0 : FVec Ideal S512x128 .f32 := vnInit L A.ve
def h1 : FVec Ideal S100000x128 .f32 := ramp (convCore A 0 (zAt D L A 0 (hin0 D L A)))
def vn1 : FVec Ideal S512x128 .f32 := tableMap A 0 (vtOf D L (hin0 D L A) (vn0 L A) A.batch)
def hin1 : FVec Ideal S100000x128 .f32 := hinOf D L (h1 D L A) (vn1 D L A) A.batch
def h2 : FVec Ideal S100000x128 .f32 := ramp (convCore A 1 (zAt D L A 1 (hin1 D L A)))
def vn2 : FVec Ideal S512x128 .f32 := tableMap A 1 (vtOf D L (hin1 D L A) (vn1 D L A) A.batch)
def hin2 : FVec Ideal S100000x128 .f32 := hinOf D L (h2 D L A) (vn2 D L A) A.batch
def h3 : FVec Ideal S100000x128 .f32 := ramp (convCore A 2 (zAt D L A 2 (hin2 D L A)))
def vn3 : FVec Ideal S512x128 .f32 := tableMap A 2 (vtOf D L (hin2 D L A) (vn2 D L A) A.batch)
def hin3 : FVec Ideal S100000x128 .f32 := hinOf D L (h3 D L A) (vn3 D L A) A.batch
def h4 : FVec Ideal S100000x128 .f32 := ramp (convCore A 3 (zAt D L A 3 (hin3 D L A)))
def vn4 : FVec Ideal S512x128 .f32 := tableMap A 3 (vtOf D L (hin3 D L A) (vn3 D L A) A.batch)
def hin4 : FVec Ideal S100000x128 .f32 := hinOf D L (h4 D L A) (vn4 D L A) A.batch
/-- The network's result: layer 4's node array, which has no last ramp. -/
def out : FVec Ideal S100000x128 .f32 := convCore A 4 (zAt D L A 4 (hin4 D L A))

end Cert.Net

end
-- ==== Proof.LibSSA.lean ====
/-
  A straight line of host operations in which every buffer is written at most once.

  After the whole line, the buffer an operation writes holds the operation's function of what its operand buffers hold
  after the whole line: nothing later overwrites the result, and the operands were already final when the operation ran.
  The hypotheses are positional: a list naming the one buffer each operation writes, and the facts that a given buffer
  is not among those written from some position on.
-/
import Mathlib.Data.List.Forall2
import Mathlib.Data.List.Nodup
import Idealize.ShloMosaic.Lib.StableHlo.Run

namespace Cert.SSA

open Idealize.ShloMosaic Idealize.ShloMosaic.StableHlo

variable {τ : Topo} {sig : RefSig} {Val : EltTy → Type}

/-- Two lines run one after the other. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- Operation by operation, the one buffer each writes. -/
def Covers (ops : List (HloOp τ sig Val)) (wr : List (Ref sig .tc)) : Prop :=
  List.Forall₂ (fun op r => op.writes ⊆ {(Proc.devRef (τ := τ) .tc r : DevRef τ sig)}) ops wr

theorem not_written {ops : List (HloOp τ sig Val)} {wr : List (Ref sig .tc)} (hc : Covers ops wr)
    {r : Ref sig .tc} (hr : r ∉ wr) : ∀ op ∈ ops, (Proc.devRef (τ := τ) .tc r : DevRef τ sig) ∉ op.writes := by
  induction hc with
  | nil => intro op hop; cases hop
  | cons h _ ih =>
    intro op hop hb
    rcases List.mem_cons.mp hop with rfl | hop
    · exact hr (List.mem_cons.mpr (Or.inl (Proc.devRef_injective _ (Finset.mem_singleton.mp (h hb)))))
    · exact ih (fun h' => hr (List.mem_cons_of_mem _ h')) op hop hb

/-- A buffer not written from position k on holds at the end what it held after the first k operations. -/
theorem after_eq_take {ops : List (HloOp τ sig Val)} {wr : List (Ref sig .tc)} (hc : Covers ops wr) (k : ℕ)
    {r : Ref sig .tc} (hr : r ∉ wr.drop k) (V : Valuation τ sig Val) :
    after ops V (Proc.devRef .tc r) = after (ops.take k) V (Proc.devRef .tc r) := by
  conv_lhs => rw [← List.take_append_drop k ops, after_append]
  exact after_of_forall_not_mem _ _ (not_written (List.forall₂_drop k hc) hr)

theorem take_succ_of {α : Type*} {l : List α} {k : ℕ} {x : α} (h : l[k]? = some x) : l.take (k + 1) = l.take k ++ [x] := by
  rw [List.take_succ, h]; rfl

variable {ops : List (HloOp τ sig Val)} {wr : List (Ref sig .tc)}

theorem ssa_nullary (hc : Covers ops wr) (k : ℕ) {y : Ref sig .tc} {v : y.ty.Contents Val} {hy}
    (hop : ops[k]? = some (nullary y v hy)) (hy' : y ∉ wr.drop (k + 1)) (V : Valuation τ sig Val) :
    after ops V (Proc.devRef .tc y) = v := by
  rw [after_eq_take hc (k + 1) hy', take_succ_of hop, after_append, after_cons, after_nil, nullary_result]

theorem ssa_unary (hc : Covers ops wr) (k : ℕ) {x y : Ref sig .tc} {f : x.ty.Contents Val → y.ty.Contents Val} {hx hy}
    (hop : ops[k]? = some (unary x y f hx hy)) (hy' : y ∉ wr.drop (k + 1)) (hx' : x ∉ wr.drop k)
    (V : Valuation τ sig Val) :
    after ops V (Proc.devRef .tc y) = f (after ops V (Proc.devRef .tc x)) := by
  rw [after_eq_take hc (k + 1) hy', after_eq_take hc k hx', take_succ_of hop, after_append, after_cons, after_nil,
    unary_result]

theorem ssa_binary (hc : Covers ops wr) (k : ℕ) {a b y : Ref sig .tc}
    {f : a.ty.Contents Val → b.ty.Contents Val → y.ty.Contents Val} {ha hb hy}
    (hop : ops[k]? = some (binary a b y f ha hb hy)) (hy' : y ∉ wr.drop (k + 1)) (ha' : a ∉ wr.drop k)
    (hb' : b ∉ wr.drop k) (V : Valuation τ sig Val) :
    after ops V (Proc.devRef .tc y) = f (after ops V (Proc.devRef .tc a)) (after ops V (Proc.devRef .tc b)) := by
  rw [after_eq_take hc (k + 1) hy', after_eq_take hc k ha', after_eq_take hc k hb', take_succ_of hop, after_append,
    after_cons, after_nil, binary_result]

theorem ssa_ternary (hc : Covers ops wr) (k : ℕ) {c a b y : Ref sig .tc}
    {f : c.ty.Contents Val → a.ty.Contents Val → b.ty.Contents Val → y.ty.Contents Val} {hc' ha hb hy}
    (hop : ops[k]? = some (ternary c a b y f hc' ha hb hy)) (hy' : y ∉ wr.drop (k + 1)) (hc'' : c ∉ wr.drop k)
    (ha' : a ∉ wr.drop k) (hb' : b ∉ wr.drop k) (V : Valuation τ sig Val) :
    after ops V (Proc.devRef .tc y)
      = f (after ops V (Proc.devRef .tc c)) (after ops V (Proc.devRef .tc a)) (after ops V (Proc.devRef .tc b)) := by
  rw [after_eq_take hc (k + 1) hy', after_eq_take hc k hc'', after_eq_take hc k ha', after_eq_take hc k hb',
    take_succ_of hop, after_append, after_cons, after_nil, ternary_result]

theorem ssa_reshape (hc : Covers ops wr) (k : ℕ) {x y : Ref sig .tc} {he : x.ty.elt = y.ty.elt}
    {hn : x.ty.shape.ShapeCasts y.ty.shape} {hx hy}
    (hop : ops[k]? = some (reshape x y he hn hx hy)) (hy' : y ∉ wr.drop (k + 1)) (hx' : x ∉ wr.drop k)
    (V : Valuation τ sig Val) :
    after ops V (Proc.devRef .tc y) = fun i => he ▸ shapeCast y.ty.shape (after ops V (Proc.devRef .tc x)) hn i := by
  rw [after_eq_take hc (k + 1) hy', after_eq_take hc k hx', take_succ_of hop, after_append, after_cons, after_nil,
    reshape_result]

/-! The same for operations written over typed references (an outlined function's operations at one of its calls): the
    contents pass through the transport along the reference's type equation, which is the identity at a literal
    reference. -/

theorem ssa_tnullary {Ty : BufTy} (hc : Covers ops wr) (k : ℕ) {y : TRef sig Ty} {v : Ty.Contents Val}
    (hop : ops[k]? = some (TRef.nullary y v)) (hy' : y.ref ∉ wr.drop (k + 1)) (V : Valuation τ sig Val) :
    after ops V (Proc.devRef .tc y.ref) = y.toBuf v :=
  ssa_nullary hc k hop hy' V

theorem ssa_tunary {Tx Ty : BufTy} (hc : Covers ops wr) (k : ℕ) {x : TRef sig Tx} {y : TRef sig Ty}
    {f : Tx.Contents Val → Ty.Contents Val}
    (hop : ops[k]? = some (TRef.unary x y f)) (hy' : y.ref ∉ wr.drop (k + 1)) (hx' : x.ref ∉ wr.drop k)
    (V : Valuation τ sig Val) :
    after ops V (Proc.devRef .tc y.ref) = y.toBuf (f (x.ofBuf (after ops V (Proc.devRef .tc x.ref)))) :=
  ssa_unary hc k hop hy' hx' V

theorem ssa_tbinary {Ta Tb Ty : BufTy} (hc : Covers ops wr) (k : ℕ) {a : TRef sig Ta} {b : TRef sig Tb} {y : TRef sig Ty}
    {f : Ta.Contents Val → Tb.Contents Val → Ty.Contents Val}
    (hop : ops[k]? = some (TRef.binary a b y f)) (hy' : y.ref ∉ wr.drop (k + 1)) (ha' : a.ref ∉ wr.drop k)
    (hb' : b.ref ∉ wr.drop k) (V : Valuation τ sig Val) :
    after ops V (Proc.devRef .tc y.ref)
      = y.toBuf (f (a.ofBuf (after ops V (Proc.devRef .tc a.ref))) (b.ofBuf (after ops V (Proc.devRef .tc b.ref)))) :=
  ssa_binary hc k hop hy' ha' hb' V

theorem ssa_tternary {Tc Ta Tb Ty : BufTy} (hc : Covers ops wr) (k : ℕ) {c : TRef sig Tc} {a : TRef sig Ta}
    {b : TRef sig Tb} {y : TRef sig Ty} {f : Tc.Contents Val → Ta.Contents Val → Tb.Contents Val → Ty.Contents Val}
    (hop : ops[k]? = some (TRef.ternary c a b y f)) (hy' : y.ref ∉ wr.drop (k + 1)) (hc'' : c.ref ∉ wr.drop k)
    (ha' : a.ref ∉ wr.drop k) (hb' : b.ref ∉ wr.drop k) (V : Valuation τ sig Val) :
    after ops V (Proc.devRef .tc y.ref)
      = y.toBuf (f (c.ofBuf (after ops V (Proc.devRef .tc c.ref))) (a.ofBuf (after ops V (Proc.devRef .tc a.ref)))
          (b.ofBuf (after ops V (Proc.devRef .tc b.ref)))) :=
  ssa_ternary hc k hop hy' hc'' ha' hb' V

/-- In a list without repetition, the entry at position i is not among the entries from a later position k on. -/
theorem not_mem_drop_of_nodup {α : Type*} {l : List α} (h : l.Nodup) (i k : ℕ) (hik : i < k) (x : α)
    (hx : l[i]? = some x) : x ∉ l.drop k := by
  intro hm
  obtain ⟨j, hj⟩ := List.mem_iff_getElem?.mp hm
  rw [List.getElem?_drop] at hj
  have hlt : k + j < l.length := by
    by_contra hge
    rw [List.getElem?_eq_none (Nat.le_of_not_lt hge)] at hj
    cases hj
  exact List.nodup_iff_getElem?_ne_getElem?.mp h i (k + j) (by omega) hlt (hx.trans hj.symm)

theorem not_mem_drop_of_not_mem {α : Type*} {l : List α} {x : α} (h : x ∉ l) (k : ℕ) : x ∉ l.drop k :=
  fun hm => h (List.mem_of_mem_drop hm)

end Cert.SSA
-- ==== Proof.LibSliceRead.lean ====
/-
  A layer's parameters taken out of a stack, read at an index. Generic in the element type and in every size.

  A stack of n arrays of one shape is one array with a leading axis of extent n. Entry l of the stack is written in
  two steps: the block of extent 1 on the leading axis at offset l (and of full extent, at offset 0, on every other
  axis), and then a reshape that forgets the leading unit axis. The block at index (0, p, q) is the stack at
  (l + 0, 0 + p, 0 + q); the reshape keeps row-major positions, and the position of (0, p, q) among [1, d, e] is
  (0 * d + p) * e + q, the position of (p, q) among [d, e]. So the two steps together read, at (p, q), the stack at
  (l, p, q): the chain is the plain function "entry l of the stack". The same holds one rank down (a stack of vectors,
  whose entry may also be made a [1, k] row again by a second reshape, which keeps positions once more) and two ranks
  down (a vector's entry l as an array of rank 0, whose one index has position 0).
-/
import Idealize.ShloMosaic.Lib.ValueIdx
import Idealize.ShloMosaic.Lib.ValueLayout
import Idealize.ShloMosaic.Lib.Pipeline.Value

namespace Cert.LibSliceRead

open Idealize.ShloMosaic Idealize.ShloMosaic.ValueIdx

variable {α : Type} {n d e k : Nat}

/-- Matrix l of a stack of n matrices, taken by a unit slice and a reshape. -/
theorem slice_mat (a : (⟨3, ![n, d, e]⟩ : Shape).Idx → α) (l : Fin n)
    (hs : (⟨3, ![n, d, e]⟩ : Shape).Slices ![l.val, 0, 0] ⟨3, ![1, d, e]⟩) (hc : (⟨3, ![1, d, e]⟩ : Shape).ShapeCasts ⟨2, ![d, e]⟩) :
    shapeCast ⟨2, ![d, e]⟩ (extractStridedSlice ⟨3, ![1, d, e]⟩ ![l.val, 0, 0] a hs) hc = fun i => a (ix3 l (show Fin d from i 0) (show Fin e from i 1)) := by
  funext i
  obtain ⟨p, q, rfl⟩ : ∃ (p : Fin d) (q : Fin e), i = ix2 p q := ⟨i 0, i 1, eq_ix2 i⟩
  -- the reshape keeps the row-major position: (0 * d + p) * e + q = p * e + q
  refine (shapeCast_apply _ hc (ix2 p q) (ix3 (0 : Fin 1) p q) (by
    rw [Shape.rowMajor_val_three, Shape.rowMajor_val_two]
    show ((0 : Nat) * d + p.val) * e + q.val = p.val * e + q.val
    rw [Nat.zero_mul, Nat.zero_add])).trans ?_
  -- the block at (0, p, q) is the stack at (l + 0, 0 + p, 0 + q)
  exact extractStridedSlice_apply ![l.val, 0, 0] a hs (ix3 (0 : Fin 1) p q) (ix3 l p q) (fun ax => by
    match ax with
    | ⟨0, _⟩ => show l.val = l.val + 0; omega
    | ⟨1, _⟩ => show p.val = 0 + p.val; omega
    | ⟨2, _⟩ => show q.val = 0 + q.val; omega)

/-- Vector l of a stack of n vectors, as a [k] vector. -/
theorem slice_vec (a : (⟨2, ![n, k]⟩ : Shape).Idx → α) (l : Fin n)
    (hs : (⟨2, ![n, k]⟩ : Shape).Slices ![l.val, 0] ⟨2, ![1, k]⟩) (hc : (⟨2, ![1, k]⟩ : Shape).ShapeCasts ⟨1, ![k]⟩) (q : Fin k) :
    shapeCast ⟨1, ![k]⟩ (extractStridedSlice ⟨2, ![1, k]⟩ ![l.val, 0] a hs) hc (ix1 q) = a (ix2 l q) := by
  -- the reshape keeps the row-major position: 0 * k + q = q
  refine (shapeCast_apply _ hc (ix1 q) (ix2 (0 : Fin 1) q) (by
    rw [Shape.rowMajor_val_two, Shape.rowMajor_val_one]
    show (0 : Nat) * k + q.val = q.val
    omega)).trans ?_
  -- the block at (0, q) is the stack at (l + 0, 0 + q)
  exact extractStridedSlice_apply ![l.val, 0] a hs (ix2 (0 : Fin 1) q) (ix2 l q) (fun ax => by
    match ax with
    | ⟨0, _⟩ => show l.val = l.val + 0; omega
    | ⟨1, _⟩ => show q.val = 0 + q.val; omega)

/-- The same made a [1,k] row again. -/
theorem slice_row (a : (⟨2, ![n, k]⟩ : Shape).Idx → α) (l : Fin n)
    (hs : (⟨2, ![n, k]⟩ : Shape).Slices ![l.val, 0] ⟨2, ![1, k]⟩) (hc : (⟨2, ![1, k]⟩ : Shape).ShapeCasts ⟨1, ![k]⟩) (hc' : (⟨1, ![k]⟩ : Shape).ShapeCasts ⟨2, ![1, k]⟩) (q : Fin k) :
    shapeCast ⟨2, ![1, k]⟩ (shapeCast ⟨1, ![k]⟩ (extractStridedSlice ⟨2, ![1, k]⟩ ![l.val, 0] a hs) hc) hc' (ix2 (0 : Fin 1) q) = a (ix2 l q) := by
  -- the second reshape keeps the row-major position too: q = 0 * k + q
  refine (shapeCast_apply _ hc' (ix2 (0 : Fin 1) q) (ix1 q) (by
    rw [Shape.rowMajor_val_two, Shape.rowMajor_val_one]
    show q.val = (0 : Nat) * k + q.val
    omega)).trans ?_
  exact slice_vec a l hs hc q

/-- Entry l of a vector, as a rank-0 array. -/
theorem slice_scalar (a : (⟨1, ![n]⟩ : Shape).Idx → α) (l : Fin n)
    (hs : (⟨1, ![n]⟩ : Shape).Slices ![l.val] ⟨1, ![1]⟩) (hc : (⟨1, ![1]⟩ : Shape).ShapeCasts ⟨0, ![]⟩) :
    shapeCast ⟨0, ![]⟩ (extractStridedSlice ⟨1, ![1]⟩ ![l.val] a hs) hc = fun _ => a (ix1 l) := by
  funext i
  -- both shapes have one index, at row-major position 0
  refine (shapeCast_apply _ hc i (ix1 (0 : Fin 1)) (by
    rw [Shape.rowMajor_val_one]
    have h := ((⟨0, ![]⟩ : Shape).rowMajor i).isLt
    have h1 : (⟨0, ![]⟩ : Shape).numel = 1 := by simp [Shape.numel]
    show (0 : Nat) = _
    omega)).trans ?_
  -- the block at (0) is the vector at (l + 0)
  exact extractStridedSlice_apply ![l.val] a hs (ix1 (0 : Fin 1)) (ix1 l) (fun ax => by
    match ax with
    | ⟨0, _⟩ => show l.val = l.val + 0; omega)

end Cert.LibSliceRead
-- ==== Proof.KGlue.lean ====
/-
  The idealized kernel's host side in the network's terms: the dimension numbers of its gathers and scatter-sums, the layout
  side conditions its operations are stated under, its thirty argument arrays as the network's arguments, and the list of
  the argument buffers (no operation and no launch writes one).
-/
import proofs.«116444_j64183991272049_2_alg».proof.Proof.Gen.KernelIdeal.Launch
import proofs.«116444_j64183991272049_2_alg».proof.Proof.NetGlue
import proofs.«116444_j64183991272049_2_alg».proof.Proof.LibSSA
import proofs.«116444_j64183991272049_2_alg».proof.Proof.LibSliceRead
import Idealize.ShloMosaic.Lib.StableHlo.Run

noncomputable section

namespace Cert.KernelIdeal.Host

open Cert.KernelIdeal Cert.KernelIdeal.Gen Idealize.ShloMosaic Idealize.ShloMosaic.StableHlo Idealize.ShloMosaic.TcCoe Idealize.SL.Sem

/-- The dimension numbers of the kernel program's three row gathers and two row scatter-sums. -/
def dims : Cert.Net.Dims :=
  { gEnc := gather_S8x128_S100000x1_S100000x128_1_0_n_n_0_1_1128
    gVn := gather_S512x128_S100000x1_S100000x128_1_0_n_n_0_1_1128
    gEdge := gather_S100000x128_S600000x1_S600000x128_1_0_n_n_0_1_1128
    sEdge := scatter_S100000x128_S600000x1_S600000x128_1_0_0_1
    sSeg := scatter_S512x128_S100000x1_S100000x128_1_0_0_1 }

/-- The layout side conditions, from the program's stated facts. -/
theorem layout : Cert.Net.Layout :=
  { sl0 := slices_S2x600000_S1x600000_0_0, sl1 := slices_S2x600000_S1x600000_1_0, c600000 := shapeCasts_S1x600000_S600000,
    c128 := shapeCasts_S1x128_S128, bVn := bcast_S128_S512x128_1, b100000 := bcast_S_S100000, b600000 := bcast_S_S600000,
    bCol100000 := bcast_S100000_S100000x1_0, bCol600000 := bcast_S600000_S600000x1_0, bNodes := bcast_S_S100000x128,
    bGraphs := bcast_S_S512x128 }

/-- The thirty argument buffers. -/
def argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26, main_arg27, main_arg28, main_arg29]

/-- The launch memory's argument arrays, as the network's arguments. -/
def args (m : (ℓ : Loc nD τ sig) → Buf (Elt Ideal) ℓ) (c : Dev nD) : Cert.Net.Args :=
  { x := m ((c.tc : Thread nD τ).loc main_arg0), edges := m ((c.tc : Thread nD τ).loc main_arg1), batch := m ((c.tc : Thread nD τ).loc main_arg2)
    enc := m ((c.tc : Thread nD τ).loc main_arg3), ve := m ((c.tc : Thread nD τ).loc main_arg4), eps := m ((c.tc : Thread nD τ).loc main_arg5)
    mW1 := m ((c.tc : Thread nD τ).loc main_arg6), mb1 := m ((c.tc : Thread nD τ).loc main_arg7), mg := m ((c.tc : Thread nD τ).loc main_arg8)
    mb := m ((c.tc : Thread nD τ).loc main_arg9), mm := m ((c.tc : Thread nD τ).loc main_arg10), mv := m ((c.tc : Thread nD τ).loc main_arg11)
    mW2 := m ((c.tc : Thread nD τ).loc main_arg12), mb2 := m ((c.tc : Thread nD τ).loc main_arg13), ng := m ((c.tc : Thread nD τ).loc main_arg14)
    nb := m ((c.tc : Thread nD τ).loc main_arg15), nm := m ((c.tc : Thread nD τ).loc main_arg16), nv := m ((c.tc : Thread nD τ).loc main_arg17)
    vW1 := m ((c.tc : Thread nD τ).loc main_arg18), vb1 := m ((c.tc : Thread nD τ).loc main_arg19), vg1 := m ((c.tc : Thread nD τ).loc main_arg20)
    vbb1 := m ((c.tc : Thread nD τ).loc main_arg21), vm1 := m ((c.tc : Thread nD τ).loc main_arg22), vv1 := m ((c.tc : Thread nD τ).loc main_arg23)
    vW2 := m ((c.tc : Thread nD τ).loc main_arg24), vb2 := m ((c.tc : Thread nD τ).loc main_arg25), vg2 := m ((c.tc : Thread nD τ).loc main_arg26)
    vbb2 := m ((c.tc : Thread nD τ).loc main_arg27), vm2 := m ((c.tc : Thread nD τ).loc main_arg28), vv2 := m ((c.tc : Thread nD τ).loc main_arg29) }

end Cert.KernelIdeal.Host

end
-- ==== Proof.KS0.lean ====
/-
  Host stretch 0 of the idealized kernel, from arbitrary starting contents: the edge table's two rows, the initial table, layer 0's node array before aggregation and its z, and layer 0's
  node-map parameters taken out of their stacks — each buffer the next launch reads, as the network's function of the
  buffers the stretch itself reads. Every other buffer is kept: the stretch writes exactly the listed buffers.
-/
import proofs.«116444_j64183991272049_2_alg».proof.Proof.KGlue

noncomputable section

namespace Cert.KernelIdeal.Host

open Cert.KernelIdeal Cert.KernelIdeal.Gen Idealize.ShloMosaic Idealize.ShloMosaic.StableHlo Idealize.ShloMosaic.TcCoe Idealize.ShloMosaic.ValueIdx
open Cert.Net Cert.LibSliceRead

/-- The buffers stretch 0 writes, operation by operation. -/
def wr0 : List (Ref sig .tc) := [main_v0, main_v1, main_v2, main_v3, main_v4, main_v5, main_c, main_v6, main_v7, main_c_0, main_v8, main_v9, main_v10, main_v11, main_v12, main_c_1, main_v13, main_v14, main_c_2, main_v15, main_v16, main_v17, main_v18, main_v19, main_v20, main_cst, main_v21, main_c_3, main_v22, main_v23, main_c_4, main_v24, main_v25, main_v26, main_v27, main_v28, main_c_5, main_v29, main_v30, main_c_6, main_v31, main_v32, main_v33, main_v34, main_v35, main_v36, main_v37, main_cst_7, main_v38, main_v39, main_v40, main_v41, main_v42, main_v43, main_v44, main_v45, main_v46, main_v47, main_v48, main_v49, main_v50, main_v51, main_v52, main_v53, main_v54, main_v55, main_v56, main_v57, main_v58, main_v59, main_v60, main_v61, main_v62, main_v63, main_v64, main_v65, main_v66, main_v67, main_v68, main_v69, main_v70, main_v71, main_v72, main_v73, main_v74, main_v75]

theorem covers0 : Cert.SSA.Covers (hostOps0 (F := Ideal)) wr0 := by
  unfold Cert.SSA.Covers
  dsimp only [hostOps0, wr0]
  repeat (first
    | exact List.Forall₂.nil
    | refine List.Forall₂.cons (by first
        | (rw [StableHlo.nullary_writes]) | (rw [StableHlo.unary_writes]) | (rw [StableHlo.binary_writes])
        | (rw [StableHlo.ternary_writes]) | (rw [StableHlo.reshape_writes])) ?_)

variable (W : Valuation τ sig (Elt Ideal))

/-- A buffer stretch 0 does not write keeps its contents. -/
theorem keep0 (b : Ref sig .tc) (hb : b ∉ wr0) : after (hostOps0 (F := Ideal)) W (Proc.devRef .tc b) = W (Proc.devRef .tc b) :=
  after_of_forall_not_mem _ _ (Cert.SSA.not_written covers0 hb)

theorem s0_src : (after (hostOps0 (F := Ideal)) W (Proc.devRef .tc main_v1) : S600000.Idx → BitVec 32) = srcOf layout (W (Proc.devRef .tc main_arg1)) := by
  dsimp only [hostOps0]; after_results_simp; rfl
theorem s0_dst : (after (hostOps0 (F := Ideal)) W (Proc.devRef .tc main_v3) : S600000.Idx → BitVec 32) = dstOf layout (W (Proc.devRef .tc main_arg1)) := by
  dsimp only [hostOps0]; after_results_simp; rfl
theorem s0_vn : (after (hostOps0 (F := Ideal)) W (Proc.devRef .tc main_v5) : S512x128.Idx → EReal) = vnInit layout (W (Proc.devRef .tc main_arg4)) := by
  dsimp only [hostOps0]; after_results_simp; rfl
theorem s0_hin : (after (hostOps0 (F := Ideal)) W (Proc.devRef .tc main_v20) : S100000x128.Idx → EReal)
      = hinInit dims layout (W (Proc.devRef .tc main_arg0)) (W (Proc.devRef .tc main_arg2)) (W (Proc.devRef .tc main_arg3)) (W (Proc.devRef .tc main_arg4)) := by
  dsimp only [hostOps0]; after_results_simp; rfl
theorem s0_z : (after (hostOps0 (F := Ideal)) W (Proc.devRef .tc main_v41) : S100000x128.Idx → EReal)
      = zOf dims layout (hinInit dims layout (W (Proc.devRef .tc main_arg0)) (W (Proc.devRef .tc main_arg2)) (W (Proc.devRef .tc main_arg3)) (W (Proc.devRef .tc main_arg4)))
          (srcOf layout (W (Proc.devRef .tc main_arg1))) (dstOf layout (W (Proc.devRef .tc main_arg1))) (scalarAt (W (Proc.devRef .tc main_arg5)) (0 : Fin 5)) := by
  dsimp only [hostOps0]; after_results_simp
  rw [show scalarAt (W (Proc.devRef .tc main_arg5)) (0 : Fin 5) = _ from (slice_scalar (W (Proc.devRef .tc main_arg5)) (0 : Fin 5) slices_S5_S1_0 shapeCasts_S1_S_).symm]
  rfl
theorem s0_W1 : (after (hostOps0 (F := Ideal)) W (Proc.devRef .tc main_v43) : S128x256.Idx → EReal) = wAt (W (Proc.devRef .tc main_arg6)) (0 : Fin 5) := by
  dsimp only [hostOps0]; after_results_simp
  exact slice_mat (W (Proc.devRef .tc main_arg6)) (0 : Fin 5) _ _
theorem s0_W2 : (after (hostOps0 (F := Ideal)) W (Proc.devRef .tc main_v55) : S256x128.Idx → EReal) = wAt (W (Proc.devRef .tc main_arg12)) (0 : Fin 5) := by
  dsimp only [hostOps0]; after_results_simp
  exact slice_mat (W (Proc.devRef .tc main_arg12)) (0 : Fin 5) _ _
theorem s0_r2 : (fun q => (after (hostOps0 (F := Ideal)) W (Proc.devRef .tc main_v66) : S1x256.Idx → EReal) (ix2 (0 : Fin 1) q)) = rowAt (W (Proc.devRef .tc main_arg7)) (0 : Fin 5) := by
  funext q; dsimp only [hostOps0]; after_results_simp
  exact slice_row (W (Proc.devRef .tc main_arg7)) (0 : Fin 5) _ _ _ q
theorem s0_r3 : (fun q => (after (hostOps0 (F := Ideal)) W (Proc.devRef .tc main_v67) : S1x256.Idx → EReal) (ix2 (0 : Fin 1) q)) = rowAt (W (Proc.devRef .tc main_arg8)) (0 : Fin 5) := by
  funext q; dsimp only [hostOps0]; after_results_simp
  exact slice_row (W (Proc.devRef .tc main_arg8)) (0 : Fin 5) _ _ _ q
theorem s0_r4 : (fun q => (after (hostOps0 (F := Ideal)) W (Proc.devRef .tc main_v68) : S1x256.Idx → EReal) (ix2 (0 : Fin 1) q)) = rowAt (W (Proc.devRef .tc main_arg9)) (0 : Fin 5) := by
  funext q; dsimp only [hostOps0]; after_results_simp
  exact slice_row (W (Proc.devRef .tc main_arg9)) (0 : Fin 5) _ _ _ q
theorem s0_r5 : (fun q => (after (hostOps0 (F := Ideal)) W (Proc.devRef .tc main_v69) : S1x256.Idx → EReal) (ix2 (0 : Fin 1) q)) = rowAt (W (Proc.devRef .tc main_arg10)) (0 : Fin 5) := by
  funext q; dsimp only [hostOps0]; after_results_simp
  exact slice_row (W (Proc.devRef .tc main_arg10)) (0 : Fin 5) _ _ _ q
theorem s0_r6 : (fun q => (after (hostOps0 (F := Ideal)) W (Proc.devRef .tc main_v70) : S1x256.Idx → EReal) (ix2 (0 : Fin 1) q)) = rowAt (W (Proc.devRef .tc main_arg11)) (0 : Fin 5) := by
  funext q; dsimp only [hostOps0]; after_results_simp
  exact slice_row (W (Proc.devRef .tc main_arg11)) (0 : Fin 5) _ _ _ q
theorem s0_r8 : (fun q => (after (hostOps0 (F := Ideal)) W (Proc.devRef .tc main_v71) : S1x128.Idx → EReal) (ix2 (0 : Fin 1) q)) = rowAt (W (Proc.devRef .tc main_arg13)) (0 : Fin 5) := by
  funext q; dsimp only [hostOps0]; after_results_simp
  exact slice_row (W (Proc.devRef .tc main_arg13)) (0 : Fin 5) _ _ _ q
theorem s0_r9 : (fun q => (after (hostOps0 (F := Ideal)) W (Proc.devRef .tc main_v72) : S1x128.Idx → EReal) (ix2 (0 : Fin 1) q)) = rowAt (W (Proc.devRef .tc main_arg14)) (0 : Fin 5) := by
  funext q; dsimp only [hostOps0]; after_results_simp
  exact slice_row (W (Proc.devRef .tc main_arg14)) (0 : Fin 5) _ _ _ q
theorem s0_r10 : (fun q => (after (hostOps0 (F := Ideal)) W (Proc.devRef .tc main_v73) : S1x128.Idx → EReal) (ix2 (0 : Fin 1) q)) = rowAt (W (Proc.devRef .tc main_arg15)) (0 : Fin 5) := by
  funext q; dsimp only [hostOps0]; after_results_simp
  exact slice_row (W (Proc.devRef .tc main_arg15)) (0 : Fin 5) _ _ _ q
theorem s0_r11 : (fun q => (after (hostOps0 (F := Ideal)) W (Proc.devRef .tc main_v74) : S1x128.Idx → EReal) (ix2 (0 : Fin 1) q)) = rowAt (W (Proc.devRef .tc main_arg16)) (0 : Fin 5) := by
  funext q; dsimp only [hostOps0]; after_results_simp
  exact slice_row (W (Proc.devRef .tc main_arg16)) (0 : Fin 5) _ _ _ q
theorem s0_r12 : (fun q => (after (hostOps0 (F := Ideal)) W (Proc.devRef .tc main_v75) : S1x128.Idx → EReal) (ix2 (0 : Fin 1) q)) = rowAt (W (Proc.devRef .tc main_arg17)) (0 : Fin 5) := by
  funext q; dsimp only [hostOps0]; after_results_simp
  exact slice_row (W (Proc.devRef .tc main_arg17)) (0 : Fin 5) _ _ _ q

end Cert.KernelIdeal.Host

end
-- ==== Proof.KS1.lean ====
/-
  Host stretch 1 of the idealized kernel, from arbitrary starting contents: layer 0's per-graph sum plus the old table, and layer 0's
  table-map parameters taken out of their stacks — each buffer the next launch reads, as the network's function of the
  buffers the stretch itself reads. Every other buffer is kept: the stretch writes exactly the listed buffers.
-/
import proofs.«116444_j64183991272049_2_alg».proof.Proof.KGlue

noncomputable section

namespace Cert.KernelIdeal.Host

open Cert.KernelIdeal Cert.KernelIdeal.Gen Idealize.ShloMosaic Idealize.ShloMosaic.StableHlo Idealize.ShloMosaic.TcCoe Idealize.ShloMosaic.ValueIdx
open Cert.Net Cert.LibSliceRead

/-- The buffers stretch 1 writes, operation by operation. -/
def wr1 : List (Ref sig .tc) := [main_cst_8, main_v77, main_v78, main_v79, main_v80, main_v81, main_v82, main_v83, main_v84, main_v85, main_v86, main_v87, main_v88, main_v89, main_v90, main_v91, main_v92, main_v93, main_v94, main_v95, main_v96, main_v97, main_v98, main_v99, main_v100, main_v101, main_v102, main_v103, main_v104, main_v105, main_v106, main_v107, main_v108, main_v109, main_v110, main_v111, main_v112, main_v113, main_v114]

theorem covers1 : Cert.SSA.Covers (hostOps1 (F := Ideal)) wr1 := by
  unfold Cert.SSA.Covers
  dsimp only [hostOps1, wr1]
  repeat (first
    | exact List.Forall₂.nil
    | refine List.Forall₂.cons (by first
        | (rw [StableHlo.nullary_writes]) | (rw [StableHlo.unary_writes]) | (rw [StableHlo.binary_writes])
        | (rw [StableHlo.ternary_writes]) | (rw [StableHlo.reshape_writes])) ?_)

variable (W : Valuation τ sig (Elt Ideal))

/-- A buffer stretch 1 does not write keeps its contents. -/
theorem keep1 (b : Ref sig .tc) (hb : b ∉ wr1) : after (hostOps1 (F := Ideal)) W (Proc.devRef .tc b) = W (Proc.devRef .tc b) :=
  after_of_forall_not_mem _ _ (Cert.SSA.not_written covers1 hb)

theorem s1_vt : (after (hostOps1 (F := Ideal)) W (Proc.devRef .tc main_v80) : S512x128.Idx → EReal) = vtOf dims layout (W (Proc.devRef .tc main_v20)) (W (Proc.devRef .tc main_v5)) (W (Proc.devRef .tc main_arg2)) := by
  dsimp only [hostOps1]; after_results_simp; rfl
theorem s1_W1 : (after (hostOps1 (F := Ideal)) W (Proc.devRef .tc main_v82) : S128x256.Idx → EReal) = wAt (W (Proc.devRef .tc main_arg18)) (0 : Fin 4) := by
  dsimp only [hostOps1]; after_results_simp
  exact slice_mat (W (Proc.devRef .tc main_arg18)) (0 : Fin 4) _ _
theorem s1_W2 : (after (hostOps1 (F := Ideal)) W (Proc.devRef .tc main_v94) : S256x128.Idx → EReal) = wAt (W (Proc.devRef .tc main_arg24)) (0 : Fin 4) := by
  dsimp only [hostOps1]; after_results_simp
  exact slice_mat (W (Proc.devRef .tc main_arg24)) (0 : Fin 4) _ _
theorem s1_r2 : (fun q => (after (hostOps1 (F := Ideal)) W (Proc.devRef .tc main_v105) : S1x256.Idx → EReal) (ix2 (0 : Fin 1) q)) = rowAt (W (Proc.devRef .tc main_arg19)) (0 : Fin 4) := by
  funext q; dsimp only [hostOps1]; after_results_simp
  exact slice_row (W (Proc.devRef .tc main_arg19)) (0 : Fin 4) _ _ _ q
theorem s1_r3 : (fun q => (after (hostOps1 (F := Ideal)) W (Proc.devRef .tc main_v106) : S1x256.Idx → EReal) (ix2 (0 : Fin 1) q)) = rowAt (W (Proc.devRef .tc main_arg20)) (0 : Fin 4) := by
  funext q; dsimp only [hostOps1]; after_results_simp
  exact slice_row (W (Proc.devRef .tc main_arg20)) (0 : Fin 4) _ _ _ q
theorem s1_r4 : (fun q => (after (hostOps1 (F := Ideal)) W (Proc.devRef .tc main_v107) : S1x256.Idx → EReal) (ix2 (0 : Fin 1) q)) = rowAt (W (Proc.devRef .tc main_arg21)) (0 : Fin 4) := by
  funext q; dsimp only [hostOps1]; after_results_simp
  exact slice_row (W (Proc.devRef .tc main_arg21)) (0 : Fin 4) _ _ _ q
theorem s1_r5 : (fun q => (after (hostOps1 (F := Ideal)) W (Proc.devRef .tc main_v108) : S1x256.Idx → EReal) (ix2 (0 : Fin 1) q)) = rowAt (W (Proc.devRef .tc main_arg22)) (0 : Fin 4) := by
  funext q; dsimp only [hostOps1]; after_results_simp
  exact slice_row (W (Proc.devRef .tc main_arg22)) (0 : Fin 4) _ _ _ q
theorem s1_r6 : (fun q => (after (hostOps1 (F := Ideal)) W (Proc.devRef .tc main_v109) : S1x256.Idx → EReal) (ix2 (0 : Fin 1) q)) = rowAt (W (Proc.devRef .tc main_arg23)) (0 : Fin 4) := by
  funext q; dsimp only [hostOps1]; after_results_simp
  exact slice_row (W (Proc.devRef .tc main_arg23)) (0 : Fin 4) _ _ _ q
theorem s1_r8 : (fun q => (after (hostOps1 (F := Ideal)) W (Proc.devRef .tc main_v110) : S1x128.Idx → EReal) (ix2 (0 : Fin 1) q)) = rowAt (W (Proc.devRef .tc main_arg25)) (0 : Fin 4) := by
  funext q; dsimp only [hostOps1]; after_results_simp
  exact slice_row (W (Proc.devRef .tc main_arg25)) (0 : Fin 4) _ _ _ q
theorem s1_r9 : (fun q => (after (hostOps1 (F := Ideal)) W (Proc.devRef .tc main_v111) : S1x128.Idx → EReal) (ix2 (0 : Fin 1) q)) = rowAt (W (Proc.devRef .tc main_arg26)) (0 : Fin 4) := by
  funext q; dsimp only [hostOps1]; after_results_simp
  exact slice_row (W (Proc.devRef .tc main_arg26)) (0 : Fin 4) _ _ _ q
theorem s1_r10 : (fun q => (after (hostOps1 (F := Ideal)) W (Proc.devRef .tc main_v112) : S1x128.Idx → EReal) (ix2 (0 : Fin 1) q)) = rowAt (W (Proc.devRef .tc main_arg27)) (0 : Fin 4) := by
  funext q; dsimp only [hostOps1]; after_results_simp
  exact slice_row (W (Proc.devRef .tc main_arg27)) (0 : Fin 4) _ _ _ q
theorem s1_r11 : (fun q => (after (hostOps1 (F := Ideal)) W (Proc.devRef .tc main_v113) : S1x128.Idx → EReal) (ix2 (0 : Fin 1) q)) = rowAt (W (Proc.devRef .tc main_arg28)) (0 : Fin 4) := by
  funext q; dsimp only [hostOps1]; after_results_simp
  exact slice_row (W (Proc.devRef .tc main_arg28)) (0 : Fin 4) _ _ _ q
theorem s1_r12 : (fun q => (after (hostOps1 (F := Ideal)) W (Proc.devRef .tc main_v114) : S1x128.Idx → EReal) (ix2 (0 : Fin 1) q)) = rowAt (W (Proc.devRef .tc main_arg29)) (0 : Fin 4) := by
  funext q; dsimp only [hostOps1]; after_results_simp
  exact slice_row (W (Proc.devRef .tc main_arg29)) (0 : Fin 4) _ _ _ q

end Cert.KernelIdeal.Host

end
-- ==== Proof.KS2.lean ====
/-
  Host stretch 2 of the idealized kernel, from arbitrary starting contents: layer 1's node array before aggregation (the previous node array plus the graphs' rows) and its z, and layer 1's
  node-map parameters taken out of their stacks — each buffer the next launch reads, as the network's function of the
  buffers the stretch itself reads. Every other buffer is kept: the stretch writes exactly the listed buffers.
-/
import proofs.«116444_j64183991272049_2_alg».proof.Proof.KGlue

noncomputable section

namespace Cert.KernelIdeal.Host

open Cert.KernelIdeal Cert.KernelIdeal.Gen Idealize.ShloMosaic Idealize.ShloMosaic.StableHlo Idealize.ShloMosaic.TcCoe Idealize.ShloMosaic.ValueIdx
open Cert.Net Cert.LibSliceRead

/-- The buffers stretch 2 writes, operation by operation. -/
def wr2 : List (Ref sig .tc) := [main_c_9, main_v116, main_v117, main_c_10, main_v118, main_v119, main_v120, main_v121, main_v122, main_v123, main_cst_11, main_v124, main_c_12, main_v125, main_v126, main_c_13, main_v127, main_v128, main_v129, main_v130, main_v131, main_c_14, main_v132, main_v133, main_c_15, main_v134, main_v135, main_v136, main_v137, main_v138, main_v139, main_v140, main_cst_16, main_v141, main_v142, main_v143, main_v144, main_v145, main_v146, main_v147, main_v148, main_v149, main_v150, main_v151, main_v152, main_v153, main_v154, main_v155, main_v156, main_v157, main_v158, main_v159, main_v160, main_v161, main_v162, main_v163, main_v164, main_v165, main_v166, main_v167, main_v168, main_v169, main_v170, main_v171, main_v172, main_v173, main_v174, main_v175, main_v176, main_v177, main_v178]

theorem covers2 : Cert.SSA.Covers (hostOps2 (F := Ideal)) wr2 := by
  unfold Cert.SSA.Covers
  dsimp only [hostOps2, wr2]
  repeat (first
    | exact List.Forall₂.nil
    | refine List.Forall₂.cons (by first
        | (rw [StableHlo.nullary_writes]) | (rw [StableHlo.unary_writes]) | (rw [StableHlo.binary_writes])
        | (rw [StableHlo.ternary_writes]) | (rw [StableHlo.reshape_writes])) ?_)

variable (W : Valuation τ sig (Elt Ideal))

/-- A buffer stretch 2 does not write keeps its contents. -/
theorem keep2 (b : Ref sig .tc) (hb : b ∉ wr2) : after (hostOps2 (F := Ideal)) W (Proc.devRef .tc b) = W (Proc.devRef .tc b) :=
  after_of_forall_not_mem _ _ (Cert.SSA.not_written covers2 hb)

theorem s2_hin : (after (hostOps2 (F := Ideal)) W (Proc.devRef .tc main_v123) : S100000x128.Idx → EReal) = hinOf dims layout (W (Proc.devRef .tc main_v76)) (W (Proc.devRef .tc main_v115)) (W (Proc.devRef .tc main_arg2)) := by
  dsimp only [hostOps2]; after_results_simp; rfl
theorem s2_z : (after (hostOps2 (F := Ideal)) W (Proc.devRef .tc main_v144) : S100000x128.Idx → EReal)
      = zOf dims layout (hinOf dims layout (W (Proc.devRef .tc main_v76)) (W (Proc.devRef .tc main_v115)) (W (Proc.devRef .tc main_arg2))) (W (Proc.devRef .tc main_v1)) (W (Proc.devRef .tc main_v3)) (scalarAt (W (Proc.devRef .tc main_arg5)) (1 : Fin 5)) := by
  dsimp only [hostOps2]; after_results_simp
  rw [show scalarAt (W (Proc.devRef .tc main_arg5)) (1 : Fin 5) = _ from (slice_scalar (W (Proc.devRef .tc main_arg5)) (1 : Fin 5) slices_S5_S1_1 shapeCasts_S1_S_).symm]
  rfl
theorem s2_W1 : (after (hostOps2 (F := Ideal)) W (Proc.devRef .tc main_v146) : S128x256.Idx → EReal) = wAt (W (Proc.devRef .tc main_arg6)) (1 : Fin 5) := by
  dsimp only [hostOps2]; after_results_simp
  exact slice_mat (W (Proc.devRef .tc main_arg6)) (1 : Fin 5) _ _
theorem s2_W2 : (after (hostOps2 (F := Ideal)) W (Proc.devRef .tc main_v158) : S256x128.Idx → EReal) = wAt (W (Proc.devRef .tc main_arg12)) (1 : Fin 5) := by
  dsimp only [hostOps2]; after_results_simp
  exact slice_mat (W (Proc.devRef .tc main_arg12)) (1 : Fin 5) _ _
theorem s2_r2 : (fun q => (after (hostOps2 (F := Ideal)) W (Proc.devRef .tc main_v169) : S1x256.Idx → EReal) (ix2 (0 : Fin 1) q)) = rowAt (W (Proc.devRef .tc main_arg7)) (1 : Fin 5) := by
  funext q; dsimp only [hostOps2]; after_results_simp
  exact slice_row (W (Proc.devRef .tc main_arg7)) (1 : Fin 5) _ _ _ q
theorem s2_r3 : (fun q => (after (hostOps2 (F := Ideal)) W (Proc.devRef .tc main_v170) : S1x256.Idx → EReal) (ix2 (0 : Fin 1) q)) = rowAt (W (Proc.devRef .tc main_arg8)) (1 : Fin 5) := by
  funext q; dsimp only [hostOps2]; after_results_simp
  exact slice_row (W (Proc.devRef .tc main_arg8)) (1 : Fin 5) _ _ _ q
theorem s2_r4 : (fun q => (after (hostOps2 (F := Ideal)) W (Proc.devRef .tc main_v171) : S1x256.Idx → EReal) (ix2 (0 : Fin 1) q)) = rowAt (W (Proc.devRef .tc main_arg9)) (1 : Fin 5) := by
  funext q; dsimp only [hostOps2]; after_results_simp
  exact slice_row (W (Proc.devRef .tc main_arg9)) (1 : Fin 5) _ _ _ q
theorem s2_r5 : (fun q => (after (hostOps2 (F := Ideal)) W (Proc.devRef .tc main_v172) : S1x256.Idx → EReal) (ix2 (0 : Fin 1) q)) = rowAt (W (Proc.devRef .tc main_arg10)) (1 : Fin 5) := by
  funext q; dsimp only [hostOps2]; after_results_simp
  exact slice_row (W (Proc.devRef .tc main_arg10)) (1 : Fin 5) _ _ _ q
theorem s2_r6 : (fun q => (after (hostOps2 (F := Ideal)) W (Proc.devRef .tc main_v173) : S1x256.Idx → EReal) (ix2 (0 : Fin 1) q)) = rowAt (W (Proc.devRef .tc main_arg11)) (1 : Fin 5) := by
  funext q; dsimp only [hostOps2]; after_results_simp
  exact slice_row (W (Proc.devRef .tc main_arg11)) (1 : Fin 5) _ _ _ q
theorem s2_r8 : (fun q => (after (hostOps2 (F := Ideal)) W (Proc.devRef .tc main_v174) : S1x128.Idx → EReal) (ix2 (0 : Fin 1) q)) = rowAt (W (Proc.devRef .tc main_arg13)) (1 : Fin 5) := by
  funext q; dsimp only [hostOps2]; after_results_simp
  exact slice_row (W (Proc.devRef .tc main_arg13)) (1 : Fin 5) _ _ _ q
theorem s2_r9 : (fun q => (after (hostOps2 (F := Ideal)) W (Proc.devRef .tc main_v175) : S1x128.Idx → EReal) (ix2 (0 : Fin 1) q)) = rowAt (W (Proc.devRef .tc main_arg14)) (1 : Fin 5) := by
  funext q; dsimp only [hostOps2]; after_results_simp
  exact slice_row (W (Proc.devRef .tc main_arg14)) (1 : Fin 5) _ _ _ q
theorem s2_r10 : (fun q => (after (hostOps2 (F := Ideal)) W (Proc.devRef .tc main_v176) : S1x128.Idx → EReal) (ix2 (0 : Fin 1) q)) = rowAt (W (Proc.devRef .tc main_arg15)) (1 : Fin 5) := by
  funext q; dsimp only [hostOps2]; after_results_simp
  exact slice_row (W (Proc.devRef .tc main_arg15)) (1 : Fin 5) _ _ _ q
theorem s2_r11 : (fun q => (after (hostOps2 (F := Ideal)) W (Proc.devRef .tc main_v177) : S1x128.Idx → EReal) (ix2 (0 : Fin 1) q)) = rowAt (W (Proc.devRef .tc main_arg16)) (1 : Fin 5) := by
  funext q; dsimp only [hostOps2]; after_results_simp
  exact slice_row (W (Proc.devRef .tc main_arg16)) (1 : Fin 5) _ _ _ q
theorem s2_r12 : (fun q => (after (hostOps2 (F := Ideal)) W (Proc.devRef .tc main_v178) : S1x128.Idx → EReal) (ix2 (0 : Fin 1) q)) = rowAt (W (Proc.devRef .tc main_arg17)) (1 : Fin 5) := by
  funext q; dsimp only [hostOps2]; after_results_simp
  exact slice_row (W (Proc.devRef .tc main_arg17)) (1 : Fin 5) _ _ _ q

end Cert.KernelIdeal.Host

end
-- ==== Proof.KS3.lean ====
/-
  Host stretch 3 of the idealized kernel, from arbitrary starting contents: layer 1's per-graph sum plus the old table, and layer 1's
  table-map parameters taken out of their stacks — each buffer the next launch reads, as the network's function of the
  buffers the stretch itself reads. Every other buffer is kept: the stretch writes exactly the listed buffers.
-/
import proofs.«116444_j64183991272049_2_alg».proof.Proof.KGlue

noncomputable section

namespace Cert.KernelIdeal.Host

open Cert.KernelIdeal Cert.KernelIdeal.Gen Idealize.ShloMosaic Idealize.ShloMosaic.StableHlo Idealize.ShloMosaic.TcCoe Idealize.ShloMosaic.ValueIdx
open Cert.Net Cert.LibSliceRead

/-- The buffers stretch 3 writes, operation by operation. -/
def wr3 : List (Ref sig .tc) := [main_cst_17, main_v180, main_v181, main_v182, main_v183, main_v184, main_v185, main_v186, main_v187, main_v188, main_v189, main_v190, main_v191, main_v192, main_v193, main_v194, main_v195, main_v196, main_v197, main_v198, main_v199, main_v200, main_v201, main_v202, main_v203, main_v204, main_v205, main_v206, main_v207, main_v208, main_v209, main_v210, main_v211, main_v212, main_v213, main_v214, main_v215, main_v216, main_v217]

theorem covers3 : Cert.SSA.Covers (hostOps3 (F := Ideal)) wr3 := by
  unfold Cert.SSA.Covers
  dsimp only [hostOps3, wr3]
  repeat (first
    | exact List.Forall₂.nil
    | refine List.Forall₂.cons (by first
        | (rw [StableHlo.nullary_writes]) | (rw [StableHlo.unary_writes]) | (rw [StableHlo.binary_writes])
        | (rw [StableHlo.ternary_writes]) | (rw [StableHlo.reshape_writes])) ?_)

variable (W : Valuation τ sig (Elt Ideal))

/-- A buffer stretch 3 does not write keeps its contents. -/
theorem keep3 (b : Ref sig .tc) (hb : b ∉ wr3) : after (hostOps3 (F := Ideal)) W (Proc.devRef .tc b) = W (Proc.devRef .tc b) :=
  after_of_forall_not_mem _ _ (Cert.SSA.not_written covers3 hb)

theorem s3_vt : (after (hostOps3 (F := Ideal)) W (Proc.devRef .tc main_v183) : S512x128.Idx → EReal) = vtOf dims layout (W (Proc.devRef .tc main_v123)) (W (Proc.devRef .tc main_v115)) (W (Proc.devRef .tc main_arg2)) := by
  dsimp only [hostOps3]; after_results_simp; rfl
theorem s3_W1 : (after (hostOps3 (F := Ideal)) W (Proc.devRef .tc main_v185) : S128x256.Idx → EReal) = wAt (W (Proc.devRef .tc main_arg18)) (1 : Fin 4) := by
  dsimp only [hostOps3]; after_results_simp
  exact slice_mat (W (Proc.devRef .tc main_arg18)) (1 : Fin 4) _ _
theorem s3_W2 : (after (hostOps3 (F := Ideal)) W (Proc.devRef .tc main_v197) : S256x128.Idx → EReal) = wAt (W (Proc.devRef .tc main_arg24)) (1 : Fin 4) := by
  dsimp only [hostOps3]; after_results_simp
  exact slice_mat (W (Proc.devRef .tc main_arg24)) (1 : Fin 4) _ _
theorem s3_r2 : (fun q => (after (hostOps3 (F := Ideal)) W (Proc.devRef .tc main_v208) : S1x256.Idx → EReal) (ix2 (0 : Fin 1) q)) = rowAt (W (Proc.devRef .tc main_arg19)) (1 : Fin 4) := by
  funext q; dsimp only [hostOps3]; after_results_simp
  exact slice_row (W (Proc.devRef .tc main_arg19)) (1 : Fin 4) _ _ _ q
theorem s3_r3 : (fun q => (after (hostOps3 (F := Ideal)) W (Proc.devRef .tc main_v209) : S1x256.Idx → EReal) (ix2 (0 : Fin 1) q)) = rowAt (W (Proc.devRef .tc main_arg20)) (1 : Fin 4) := by
  funext q; dsimp only [hostOps3]; after_results_simp
  exact slice_row (W (Proc.devRef .tc main_arg20)) (1 : Fin 4) _ _ _ q
theorem s3_r4 : (fun q => (after (hostOps3 (F := Ideal)) W (Proc.devRef .tc main_v210) : S1x256.Idx → EReal) (ix2 (0 : Fin 1) q)) = rowAt (W (Proc.devRef .tc main_arg21)) (1 : Fin 4) := by
  funext q; dsimp only [hostOps3]; after_results_simp
  exact slice_row (W (Proc.devRef .tc main_arg21)) (1 : Fin 4) _ _ _ q
theorem s3_r5 : (fun q => (after (hostOps3 (F := Ideal)) W (Proc.devRef .tc main_v211) : S1x256.Idx → EReal) (ix2 (0 : Fin 1) q)) = rowAt (W (Proc.devRef .tc main_arg22)) (1 : Fin 4) := by
  funext q; dsimp only [hostOps3]; after_results_simp
  exact slice_row (W (Proc.devRef .tc main_arg22)) (1 : Fin 4) _ _ _ q
theorem s3_r6 : (fun q => (after (hostOps3 (F := Ideal)) W (Proc.devRef .tc main_v212) : S1x256.Idx → EReal) (ix2 (0 : Fin 1) q)) = rowAt (W (Proc.devRef .tc main_arg23)) (1 : Fin 4) := by
  funext q; dsimp only [hostOps3]; after_results_simp
  exact slice_row (W (Proc.devRef .tc main_arg23)) (1 : Fin 4) _ _ _ q
theorem s3_r8 : (fun q => (after (hostOps3 (F := Ideal)) W (Proc.devRef .tc main_v213) : S1x128.Idx → EReal) (ix2 (0 : Fin 1) q)) = rowAt (W (Proc.devRef .tc main_arg25)) (1 : Fin 4) := by
  funext q; dsimp only [hostOps3]; after_results_simp
  exact slice_row (W (Proc.devRef .tc main_arg25)) (1 : Fin 4) _ _ _ q
theorem s3_r9 : (fun q => (after (hostOps3 (F := Ideal)) W (Proc.devRef .tc main_v214) : S1x128.Idx → EReal) (ix2 (0 : Fin 1) q)) = rowAt (W (Proc.devRef .tc main_arg26)) (1 : Fin 4) := by
  funext q; dsimp only [hostOps3]; after_results_simp
  exact slice_row (W (Proc.devRef .tc main_arg26)) (1 : Fin 4) _ _ _ q
theorem s3_r10 : (fun q => (after (hostOps3 (F := Ideal)) W (Proc.devRef .tc main_v215) : S1x128.Idx → EReal) (ix2 (0 : Fin 1) q)) = rowAt (W (Proc.devRef .tc main_arg27)) (1 : Fin 4) := by
  funext q; dsimp only [hostOps3]; after_results_simp
  exact slice_row (W (Proc.devRef .tc main_arg27)) (1 : Fin 4) _ _ _ q
theorem s3_r11 : (fun q => (after (hostOps3 (F := Ideal)) W (Proc.devRef .tc main_v216) : S1x128.Idx → EReal) (ix2 (0 : Fin 1) q)) = rowAt (W (Proc.devRef .tc main_arg28)) (1 : Fin 4) := by
  funext q; dsimp only [hostOps3]; after_results_simp
  exact slice_row (W (Proc.devRef .tc main_arg28)) (1 : Fin 4) _ _ _ q
theorem s3_r12 : (fun q => (after (hostOps3 (F := Ideal)) W (Proc.devRef .tc main_v217) : S1x128.Idx → EReal) (ix2 (0 : Fin 1) q)) = rowAt (W (Proc.devRef .tc main_arg29)) (1 : Fin 4) := by
  funext q; dsimp only [hostOps3]; after_results_simp
  exact slice_row (W (Proc.devRef .tc main_arg29)) (1 : Fin 4) _ _ _ q

end Cert.KernelIdeal.Host

end
-- ==== Proof.KS4.lean ====
/-
  Host stretch 4 of the idealized kernel, from arbitrary starting contents: layer 2's node array before aggregation (the previous node array plus the graphs' rows) and its z, and layer 2's
  node-map parameters taken out of their stacks — each buffer the next launch reads, as the network's function of the
  buffers the stretch itself reads. Every other buffer is kept: the stretch writes exactly the listed buffers.
-/
import proofs.«116444_j64183991272049_2_alg».proof.Proof.KGlue

noncomputable section

namespace Cert.KernelIdeal.Host

open Cert.KernelIdeal Cert.KernelIdeal.Gen Idealize.ShloMosaic Idealize.ShloMosaic.StableHlo Idealize.ShloMosaic.TcCoe Idealize.ShloMosaic.ValueIdx
open Cert.Net Cert.LibSliceRead

/-- The buffers stretch 4 writes, operation by operation. -/
def wr4 : List (Ref sig .tc) := [main_c_18, main_v219, main_v220, main_c_19, main_v221, main_v222, main_v223, main_v224, main_v225, main_v226, main_cst_20, main_v227, main_c_21, main_v228, main_v229, main_c_22, main_v230, main_v231, main_v232, main_v233, main_v234, main_c_23, main_v235, main_v236, main_c_24, main_v237, main_v238, main_v239, main_v240, main_v241, main_v242, main_v243, main_cst_25, main_v244, main_v245, main_v246, main_v247, main_v248, main_v249, main_v250, main_v251, main_v252, main_v253, main_v254, main_v255, main_v256, main_v257, main_v258, main_v259, main_v260, main_v261, main_v262, main_v263, main_v264, main_v265, main_v266, main_v267, main_v268, main_v269, main_v270, main_v271, main_v272, main_v273, main_v274, main_v275, main_v276, main_v277, main_v278, main_v279, main_v280, main_v281]

theorem covers4 : Cert.SSA.Covers (hostOps4 (F := Ideal)) wr4 := by
  unfold Cert.SSA.Covers
  dsimp only [hostOps4, wr4]
  repeat (first
    | exact List.Forall₂.nil
    | refine List.Forall₂.cons (by first
        | (rw [StableHlo.nullary_writes]) | (rw [StableHlo.unary_writes]) | (rw [StableHlo.binary_writes])
        | (rw [StableHlo.ternary_writes]) | (rw [StableHlo.reshape_writes])) ?_)

variable (W : Valuation τ sig (Elt Ideal))

/-- A buffer stretch 4 does not write keeps its contents. -/
theorem keep4 (b : Ref sig .tc) (hb : b ∉ wr4) : after (hostOps4 (F := Ideal)) W (Proc.devRef .tc b) = W (Proc.devRef .tc b) :=
  after_of_forall_not_mem _ _ (Cert.SSA.not_written covers4 hb)

theorem s4_hin : (after (hostOps4 (F := Ideal)) W (Proc.devRef .tc main_v226) : S100000x128.Idx → EReal) = hinOf dims layout (W (Proc.devRef .tc main_v179)) (W (Proc.devRef .tc main_v218)) (W (Proc.devRef .tc main_arg2)) := by
  dsimp only [hostOps4]; after_results_simp; rfl
theorem s4_z : (after (hostOps4 (F := Ideal)) W (Proc.devRef .tc main_v247) : S100000x128.Idx → EReal)
      = zOf dims layout (hinOf dims layout (W (Proc.devRef .tc main_v179)) (W (Proc.devRef .tc main_v218)) (W (Proc.devRef .tc main_arg2))) (W (Proc.devRef .tc main_v1)) (W (Proc.devRef .tc main_v3)) (scalarAt (W (Proc.devRef .tc main_arg5)) (2 : Fin 5)) := by
  dsimp only [hostOps4]; after_results_simp
  rw [show scalarAt (W (Proc.devRef .tc main_arg5)) (2 : Fin 5) = _ from (slice_scalar (W (Proc.devRef .tc main_arg5)) (2 : Fin 5) slices_S5_S1_2 shapeCasts_S1_S_).symm]
  rfl
theorem s4_W1 : (after (hostOps4 (F := Ideal)) W (Proc.devRef .tc main_v249) : S128x256.Idx → EReal) = wAt (W (Proc.devRef .tc main_arg6)) (2 : Fin 5) := by
  dsimp only [hostOps4]; after_results_simp
  exact slice_mat (W (Proc.devRef .tc main_arg6)) (2 : Fin 5) _ _
theorem s4_W2 : (after (hostOps4 (F := Ideal)) W (Proc.devRef .tc main_v261) : S256x128.Idx → EReal) = wAt (W (Proc.devRef .tc main_arg12)) (2 : Fin 5) := by
  dsimp only [hostOps4]; after_results_simp
  exact slice_mat (W (Proc.devRef .tc main_arg12)) (2 : Fin 5) _ _
theorem s4_r2 : (fun q => (after (hostOps4 (F := Ideal)) W (Proc.devRef .tc main_v272) : S1x256.Idx → EReal) (ix2 (0 : Fin 1) q)) = rowAt (W (Proc.devRef .tc main_arg7)) (2 : Fin 5) := by
  funext q; dsimp only [hostOps4]; after_results_simp
  exact slice_row (W (Proc.devRef .tc main_arg7)) (2 : Fin 5) _ _ _ q
theorem s4_r3 : (fun q => (after (hostOps4 (F := Ideal)) W (Proc.devRef .tc main_v273) : S1x256.Idx → EReal) (ix2 (0 : Fin 1) q)) = rowAt (W (Proc.devRef .tc main_arg8)) (2 : Fin 5) := by
  funext q; dsimp only [hostOps4]; after_results_simp
  exact slice_row (W (Proc.devRef .tc main_arg8)) (2 : Fin 5) _ _ _ q
theorem s4_r4 : (fun q => (after (hostOps4 (F := Ideal)) W (Proc.devRef .tc main_v274) : S1x256.Idx → EReal) (ix2 (0 : Fin 1) q)) = rowAt (W (Proc.devRef .tc main_arg9)) (2 : Fin 5) := by
  funext q; dsimp only [hostOps4]; after_results_simp
  exact slice_row (W (Proc.devRef .tc main_arg9)) (2 : Fin 5) _ _ _ q
theorem s4_r5 : (fun q => (after (hostOps4 (F := Ideal)) W (Proc.devRef .tc main_v275) : S1x256.Idx → EReal) (ix2 (0 : Fin 1) q)) = rowAt (W (Proc.devRef .tc main_arg10)) (2 : Fin 5) := by
  funext q; dsimp only [hostOps4]; after_results_simp
  exact slice_row (W (Proc.devRef .tc main_arg10)) (2 : Fin 5) _ _ _ q
theorem s4_r6 : (fun q => (after (hostOps4 (F := Ideal)) W (Proc.devRef .tc main_v276) : S1x256.Idx → EReal) (ix2 (0 : Fin 1) q)) = rowAt (W (Proc.devRef .tc main_arg11)) (2 : Fin 5) := by
  funext q; dsimp only [hostOps4]; after_results_simp
  exact slice_row (W (Proc.devRef .tc main_arg11)) (2 : Fin 5) _ _ _ q
theorem s4_r8 : (fun q => (after (hostOps4 (F := Ideal)) W (Proc.devRef .tc main_v277) : S1x128.Idx → EReal) (ix2 (0 : Fin 1) q)) = rowAt (W (Proc.devRef .tc main_arg13)) (2 : Fin 5) := by
  funext q; dsimp only [hostOps4]; after_results_simp
  exact slice_row (W (Proc.devRef .tc main_arg13)) (2 : Fin 5) _ _ _ q
theorem s4_r9 : (fun q => (after (hostOps4 (F := Ideal)) W (Proc.devRef .tc main_v278) : S1x128.Idx → EReal) (ix2 (0 : Fin 1) q)) = rowAt (W (Proc.devRef .tc main_arg14)) (2 : Fin 5) := by
  funext q; dsimp only [hostOps4]; after_results_simp
  exact slice_row (W (Proc.devRef .tc main_arg14)) (2 : Fin 5) _ _ _ q
theorem s4_r10 : (fun q => (after (hostOps4 (F := Ideal)) W (Proc.devRef .tc main_v279) : S1x128.Idx → EReal) (ix2 (0 : Fin 1) q)) = rowAt (W (Proc.devRef .tc main_arg15)) (2 : Fin 5) := by
  funext q; dsimp only [hostOps4]; after_results_simp
  exact slice_row (W (Proc.devRef .tc main_arg15)) (2 : Fin 5) _ _ _ q
theorem s4_r11 : (fun q => (after (hostOps4 (F := Ideal)) W (Proc.devRef .tc main_v280) : S1x128.Idx → EReal) (ix2 (0 : Fin 1) q)) = rowAt (W (Proc.devRef .tc main_arg16)) (2 : Fin 5) := by
  funext q; dsimp only [hostOps4]; after_results_simp
  exact slice_row (W (Proc.devRef .tc main_arg16)) (2 : Fin 5) _ _ _ q
theorem s4_r12 : (fun q => (after (hostOps4 (F := Ideal)) W (Proc.devRef .tc main_v281) : S1x128.Idx → EReal) (ix2 (0 : Fin 1) q)) = rowAt (W (Proc.devRef .tc main_arg17)) (2 : Fin 5) := by
  funext q; dsimp only [hostOps4]; after_results_simp
  exact slice_row (W (Proc.devRef .tc main_arg17)) (2 : Fin 5) _ _ _ q

end Cert.KernelIdeal.Host

end
-- ==== Proof.KS5.lean ====
/-
  Host stretch 5 of the idealized kernel, from arbitrary starting contents: layer 2's per-graph sum plus the old table, and layer 2's
  table-map parameters taken out of their stacks — each buffer the next launch reads, as the network's function of the
  buffers the stretch itself reads. Every other buffer is kept: the stretch writes exactly the listed buffers.
-/
import proofs.«116444_j64183991272049_2_alg».proof.Proof.KGlue

noncomputable section

namespace Cert.KernelIdeal.Host

open Cert.KernelIdeal Cert.KernelIdeal.Gen Idealize.ShloMosaic Idealize.ShloMosaic.StableHlo Idealize.ShloMosaic.TcCoe Idealize.ShloMosaic.ValueIdx
open Cert.Net Cert.LibSliceRead

/-- The buffers stretch 5 writes, operation by operation. -/
def wr5 : List (Ref sig .tc) := [main_cst_26, main_v283, main_v284, main_v285, main_v286, main_v287, main_v288, main_v289, main_v290, main_v291, main_v292, main_v293, main_v294, main_v295, main_v296, main_v297, main_v298, main_v299, main_v300, main_v301, main_v302, main_v303, main_v304, main_v305, main_v306, main_v307, main_v308, main_v309, main_v310, main_v311, main_v312, main_v313, main_v314, main_v315, main_v316, main_v317, main_v318, main_v319, main_v320]

theorem covers5 : Cert.SSA.Covers (hostOps5 (F := Ideal)) wr5 := by
  unfold Cert.SSA.Covers
  dsimp only [hostOps5, wr5]
  repeat (first
    | exact List.Forall₂.nil
    | refine List.Forall₂.cons (by first
        | (rw [StableHlo.nullary_writes]) | (rw [StableHlo.unary_writes]) | (rw [StableHlo.binary_writes])
        | (rw [StableHlo.ternary_writes]) | (rw [StableHlo.reshape_writes])) ?_)

variable (W : Valuation τ sig (Elt Ideal))

/-- A buffer stretch 5 does not write keeps its contents. -/
theorem keep5 (b : Ref sig .tc) (hb : b ∉ wr5) : after (hostOps5 (F := Ideal)) W (Proc.devRef .tc b) = W (Proc.devRef .tc b) :=
  after_of_forall_not_mem _ _ (Cert.SSA.not_written covers5 hb)

theorem s5_vt : (after (hostOps5 (F := Ideal)) W (Proc.devRef .tc main_v286) : S512x128.Idx → EReal) = vtOf dims layout (W (Proc.devRef .tc main_v226)) (W (Proc.devRef .tc main_v218)) (W (Proc.devRef .tc main_arg2)) := by
  dsimp only [hostOps5]; after_results_simp; rfl
theorem s5_W1 : (after (hostOps5 (F := Ideal)) W (Proc.devRef .tc main_v288) : S128x256.Idx → EReal) = wAt (W (Proc.devRef .tc main_arg18)) (2 : Fin 4) := by
  dsimp only [hostOps5]; after_results_simp
  exact slice_mat (W (Proc.devRef .tc main_arg18)) (2 : Fin 4) _ _
theorem s5_W2 : (after (hostOps5 (F := Ideal)) W (Proc.devRef .tc main_v300) : S256x128.Idx → EReal) = wAt (W (Proc.devRef .tc main_arg24)) (2 : Fin 4) := by
  dsimp only [hostOps5]; after_results_simp
  exact slice_mat (W (Proc.devRef .tc main_arg24)) (2 : Fin 4) _ _
theorem s5_r2 : (fun q => (after (hostOps5 (F := Ideal)) W (Proc.devRef .tc main_v311) : S1x256.Idx → EReal) (ix2 (0 : Fin 1) q)) = rowAt (W (Proc.devRef .tc main_arg19)) (2 : Fin 4) := by
  funext q; dsimp only [hostOps5]; after_results_simp
  exact slice_row (W (Proc.devRef .tc main_arg19)) (2 : Fin 4) _ _ _ q
theorem s5_r3 : (fun q => (after (hostOps5 (F := Ideal)) W (Proc.devRef .tc main_v312) : S1x256.Idx → EReal) (ix2 (0 : Fin 1) q)) = rowAt (W (Proc.devRef .tc main_arg20)) (2 : Fin 4) := by
  funext q; dsimp only [hostOps5]; after_results_simp
  exact slice_row (W (Proc.devRef .tc main_arg20)) (2 : Fin 4) _ _ _ q
theorem s5_r4 : (fun q => (after (hostOps5 (F := Ideal)) W (Proc.devRef .tc main_v313) : S1x256.Idx → EReal) (ix2 (0 : Fin 1) q)) = rowAt (W (Proc.devRef .tc main_arg21)) (2 : Fin 4) := by
  funext q; dsimp only [hostOps5]; after_results_simp
  exact slice_row (W (Proc.devRef .tc main_arg21)) (2 : Fin 4) _ _ _ q
theorem s5_r5 : (fun q => (after (hostOps5 (F := Ideal)) W (Proc.devRef .tc main_v314) : S1x256.Idx → EReal) (ix2 (0 : Fin 1) q)) = rowAt (W (Proc.devRef .tc main_arg22)) (2 : Fin 4) := by
  funext q; dsimp only [hostOps5]; after_results_simp
  exact slice_row (W (Proc.devRef .tc main_arg22)) (2 : Fin 4) _ _ _ q
theorem s5_r6 : (fun q => (after (hostOps5 (F := Ideal)) W (Proc.devRef .tc main_v315) : S1x256.Idx → EReal) (ix2 (0 : Fin 1) q)) = rowAt (W (Proc.devRef .tc main_arg23)) (2 : Fin 4) := by
  funext q; dsimp only [hostOps5]; after_results_simp
  exact slice_row (W (Proc.devRef .tc main_arg23)) (2 : Fin 4) _ _ _ q
theorem s5_r8 : (fun q => (after (hostOps5 (F := Ideal)) W (Proc.devRef .tc main_v316) : S1x128.Idx → EReal) (ix2 (0 : Fin 1) q)) = rowAt (W (Proc.devRef .tc main_arg25)) (2 : Fin 4) := by
  funext q; dsimp only [hostOps5]; after_results_simp
  exact slice_row (W (Proc.devRef .tc main_arg25)) (2 : Fin 4) _ _ _ q
theorem s5_r9 : (fun q => (after (hostOps5 (F := Ideal)) W (Proc.devRef .tc main_v317) : S1x128.Idx → EReal) (ix2 (0 : Fin 1) q)) = rowAt (W (Proc.devRef .tc main_arg26)) (2 : Fin 4) := by
  funext q; dsimp only [hostOps5]; after_results_simp
  exact slice_row (W (Proc.devRef .tc main_arg26)) (2 : Fin 4) _ _ _ q
theorem s5_r10 : (fun q => (after (hostOps5 (F := Ideal)) W (Proc.devRef .tc main_v318) : S1x128.Idx → EReal) (ix2 (0 : Fin 1) q)) = rowAt (W (Proc.devRef .tc main_arg27)) (2 : Fin 4) := by
  funext q; dsimp only [hostOps5]; after_results_simp
  exact slice_row (W (Proc.devRef .tc main_arg27)) (2 : Fin 4) _ _ _ q
theorem s5_r11 : (fun q => (after (hostOps5 (F := Ideal)) W (Proc.devRef .tc main_v319) : S1x128.Idx → EReal) (ix2 (0 : Fin 1) q)) = rowAt (W (Proc.devRef .tc main_arg28)) (2 : Fin 4) := by
  funext q; dsimp only [hostOps5]; after_results_simp
  exact slice_row (W (Proc.devRef .tc main_arg28)) (2 : Fin 4) _ _ _ q
theorem s5_r12 : (fun q => (after (hostOps5 (F := Ideal)) W (Proc.devRef .tc main_v320) : S1x128.Idx → EReal) (ix2 (0 : Fin 1) q)) = rowAt (W (Proc.devRef .tc main_arg29)) (2 : Fin 4) := by
  funext q; dsimp only [hostOps5]; after_results_simp
  exact slice_row (W (Proc.devRef .tc main_arg29)) (2 : Fin 4) _ _ _ q

end Cert.KernelIdeal.Host

end
-- ==== Proof.KS6.lean ====
/-
  Host stretch 6 of the idealized kernel, from arbitrary starting contents: layer 3's node array before aggregation (the previous node array plus the graphs' rows) and its z, and layer 3's
  node-map parameters taken out of their stacks — each buffer the next launch reads, as the network's function of the
  buffers the stretch itself reads. Every other buffer is kept: the stretch writes exactly the listed buffers.
-/
import proofs.«116444_j64183991272049_2_alg».proof.Proof.KGlue

noncomputable section

namespace Cert.KernelIdeal.Host

open Cert.KernelIdeal Cert.KernelIdeal.Gen Idealize.ShloMosaic Idealize.ShloMosaic.StableHlo Idealize.ShloMosaic.TcCoe Idealize.ShloMosaic.ValueIdx
open Cert.Net Cert.LibSliceRead

/-- The buffers stretch 6 writes, operation by operation. -/
def wr6 : List (Ref sig .tc) := [main_c_27, main_v322, main_v323, main_c_28, main_v324, main_v325, main_v326, main_v327, main_v328, main_v329, main_cst_29, main_v330, main_c_30, main_v331, main_v332, main_c_31, main_v333, main_v334, main_v335, main_v336, main_v337, main_c_32, main_v338, main_v339, main_c_33, main_v340, main_v341, main_v342, main_v343, main_v344, main_v345, main_v346, main_cst_34, main_v347, main_v348, main_v349, main_v350, main_v351, main_v352, main_v353, main_v354, main_v355, main_v356, main_v357, main_v358, main_v359, main_v360, main_v361, main_v362, main_v363, main_v364, main_v365, main_v366, main_v367, main_v368, main_v369, main_v370, main_v371, main_v372, main_v373, main_v374, main_v375, main_v376, main_v377, main_v378, main_v379, main_v380, main_v381, main_v382, main_v383, main_v384]

theorem covers6 : Cert.SSA.Covers (hostOps6 (F := Ideal)) wr6 := by
  unfold Cert.SSA.Covers
  dsimp only [hostOps6, wr6]
  repeat (first
    | exact List.Forall₂.nil
    | refine List.Forall₂.cons (by first
        | (rw [StableHlo.nullary_writes]) | (rw [StableHlo.unary_writes]) | (rw [StableHlo.binary_writes])
        | (rw [StableHlo.ternary_writes]) | (rw [StableHlo.reshape_writes])) ?_)

variable (W : Valuation τ sig (Elt Ideal))

/-- A buffer stretch 6 does not write keeps its contents. -/
theorem keep6 (b : Ref sig .tc) (hb : b ∉ wr6) : after (hostOps6 (F := Ideal)) W (Proc.devRef .tc b) = W (Proc.devRef .tc b) :=
  after_of_forall_not_mem _ _ (Cert.SSA.not_written covers6 hb)

theorem s6_hin : (after (hostOps6 (F := Ideal)) W (Proc.devRef .tc main_v329) : S100000x128.Idx → EReal) = hinOf dims layout (W (Proc.devRef .tc main_v282)) (W (Proc.devRef .tc main_v321)) (W (Proc.devRef .tc main_arg2)) := by
  dsimp only [hostOps6]; after_results_simp; rfl
theorem s6_z : (after (hostOps6 (F := Ideal)) W (Proc.devRef .tc main_v350) : S100000x128.Idx → EReal)
      = zOf dims layout (hinOf dims layout (W (Proc.devRef .tc main_v282)) (W (Proc.devRef .tc main_v321)) (W (Proc.devRef .tc main_arg2))) (W (Proc.devRef .tc main_v1)) (W (Proc.devRef .tc main_v3)) (scalarAt (W (Proc.devRef .tc main_arg5)) (3 : Fin 5)) := by
  dsimp only [hostOps6]; after_results_simp
  rw [show scalarAt (W (Proc.devRef .tc main_arg5)) (3 : Fin 5) = _ from (slice_scalar (W (Proc.devRef .tc main_arg5)) (3 : Fin 5) slices_S5_S1_3 shapeCasts_S1_S_).symm]
  rfl
theorem s6_W1 : (after (hostOps6 (F := Ideal)) W (Proc.devRef .tc main_v352) : S128x256.Idx → EReal) = wAt (W (Proc.devRef .tc main_arg6)) (3 : Fin 5) := by
  dsimp only [hostOps6]; after_results_simp
  exact slice_mat (W (Proc.devRef .tc main_arg6)) (3 : Fin 5) _ _
theorem s6_W2 : (after (hostOps6 (F := Ideal)) W (Proc.devRef .tc main_v364) : S256x128.Idx → EReal) = wAt (W (Proc.devRef .tc main_arg12)) (3 : Fin 5) := by
  dsimp only [hostOps6]; after_results_simp
  exact slice_mat (W (Proc.devRef .tc main_arg12)) (3 : Fin 5) _ _
theorem s6_r2 : (fun q => (after (hostOps6 (F := Ideal)) W (Proc.devRef .tc main_v375) : S1x256.Idx → EReal) (ix2 (0 : Fin 1) q)) = rowAt (W (Proc.devRef .tc main_arg7)) (3 : Fin 5) := by
  funext q; dsimp only [hostOps6]; after_results_simp
  exact slice_row (W (Proc.devRef .tc main_arg7)) (3 : Fin 5) _ _ _ q
theorem s6_r3 : (fun q => (after (hostOps6 (F := Ideal)) W (Proc.devRef .tc main_v376) : S1x256.Idx → EReal) (ix2 (0 : Fin 1) q)) = rowAt (W (Proc.devRef .tc main_arg8)) (3 : Fin 5) := by
  funext q; dsimp only [hostOps6]; after_results_simp
  exact slice_row (W (Proc.devRef .tc main_arg8)) (3 : Fin 5) _ _ _ q
theorem s6_r4 : (fun q => (after (hostOps6 (F := Ideal)) W (Proc.devRef .tc main_v377) : S1x256.Idx → EReal) (ix2 (0 : Fin 1) q)) = rowAt (W (Proc.devRef .tc main_arg9)) (3 : Fin 5) := by
  funext q; dsimp only [hostOps6]; after_results_simp
  exact slice_row (W (Proc.devRef .tc main_arg9)) (3 : Fin 5) _ _ _ q
theorem s6_r5 : (fun q => (after (hostOps6 (F := Ideal)) W (Proc.devRef .tc main_v378) : S1x256.Idx → EReal) (ix2 (0 : Fin 1) q)) = rowAt (W (Proc.devRef .tc main_arg10)) (3 : Fin 5) := by
  funext q; dsimp only [hostOps6]; after_results_simp
  exact slice_row (W (Proc.devRef .tc main_arg10)) (3 : Fin 5) _ _ _ q
theorem s6_r6 : (fun q => (after (hostOps6 (F := Ideal)) W (Proc.devRef .tc main_v379) : S1x256.Idx → EReal) (ix2 (0 : Fin 1) q)) = rowAt (W (Proc.devRef .tc main_arg11)) (3 : Fin 5) := by
  funext q; dsimp only [hostOps6]; after_results_simp
  exact slice_row (W (Proc.devRef .tc main_arg11)) (3 : Fin 5) _ _ _ q
theorem s6_r8 : (fun q => (after (hostOps6 (F := Ideal)) W (Proc.devRef .tc main_v380) : S1x128.Idx → EReal) (ix2 (0 : Fin 1) q)) = rowAt (W (Proc.devRef .tc main_arg13)) (3 : Fin 5) := by
  funext q; dsimp only [hostOps6]; after_results_simp
  exact slice_row (W (Proc.devRef .tc main_arg13)) (3 : Fin 5) _ _ _ q
theorem s6_r9 : (fun q => (after (hostOps6 (F := Ideal)) W (Proc.devRef .tc main_v381) : S1x128.Idx → EReal) (ix2 (0 : Fin 1) q)) = rowAt (W (Proc.devRef .tc main_arg14)) (3 : Fin 5) := by
  funext q; dsimp only [hostOps6]; after_results_simp
  exact slice_row (W (Proc.devRef .tc main_arg14)) (3 : Fin 5) _ _ _ q
theorem s6_r10 : (fun q => (after (hostOps6 (F := Ideal)) W (Proc.devRef .tc main_v382) : S1x128.Idx → EReal) (ix2 (0 : Fin 1) q)) = rowAt (W (Proc.devRef .tc main_arg15)) (3 : Fin 5) := by
  funext q; dsimp only [hostOps6]; after_results_simp
  exact slice_row (W (Proc.devRef .tc main_arg15)) (3 : Fin 5) _ _ _ q
theorem s6_r11 : (fun q => (after (hostOps6 (F := Ideal)) W (Proc.devRef .tc main_v383) : S1x128.Idx → EReal) (ix2 (0 : Fin 1) q)) = rowAt (W (Proc.devRef .tc main_arg16)) (3 : Fin 5) := by
  funext q; dsimp only [hostOps6]; after_results_simp
  exact slice_row (W (Proc.devRef .tc main_arg16)) (3 : Fin 5) _ _ _ q
theorem s6_r12 : (fun q => (after (hostOps6 (F := Ideal)) W (Proc.devRef .tc main_v384) : S1x128.Idx → EReal) (ix2 (0 : Fin 1) q)) = rowAt (W (Proc.devRef .tc main_arg17)) (3 : Fin 5) := by
  funext q; dsimp only [hostOps6]; after_results_simp
  exact slice_row (W (Proc.devRef .tc main_arg17)) (3 : Fin 5) _ _ _ q

end Cert.KernelIdeal.Host

end
-- ==== Proof.KS7.lean ====
/-
  Host stretch 7 of the idealized kernel, from arbitrary starting contents: layer 3's per-graph sum plus the old table, and layer 3's
  table-map parameters taken out of their stacks — each buffer the next launch reads, as the network's function of the
  buffers the stretch itself reads. Every other buffer is kept: the stretch writes exactly the listed buffers.
-/
import proofs.«116444_j64183991272049_2_alg».proof.Proof.KGlue

noncomputable section

namespace Cert.KernelIdeal.Host

open Cert.KernelIdeal Cert.KernelIdeal.Gen Idealize.ShloMosaic Idealize.ShloMosaic.StableHlo Idealize.ShloMosaic.TcCoe Idealize.ShloMosaic.ValueIdx
open Cert.Net Cert.LibSliceRead

/-- The buffers stretch 7 writes, operation by operation. -/
def wr7 : List (Ref sig .tc) := [main_cst_35, main_v386, main_v387, main_v388, main_v389, main_v390, main_v391, main_v392, main_v393, main_v394, main_v395, main_v396, main_v397, main_v398, main_v399, main_v400, main_v401, main_v402, main_v403, main_v404, main_v405, main_v406, main_v407, main_v408, main_v409, main_v410, main_v411, main_v412, main_v413, main_v414, main_v415, main_v416, main_v417, main_v418, main_v419, main_v420, main_v421, main_v422, main_v423]

theorem covers7 : Cert.SSA.Covers (hostOps7 (F := Ideal)) wr7 := by
  unfold Cert.SSA.Covers
  dsimp only [hostOps7, wr7]
  repeat (first
    | exact List.Forall₂.nil
    | refine List.Forall₂.cons (by first
        | (rw [StableHlo.nullary_writes]) | (rw [StableHlo.unary_writes]) | (rw [StableHlo.binary_writes])
        | (rw [StableHlo.ternary_writes]) | (rw [StableHlo.reshape_writes])) ?_)

variable (W : Valuation τ sig (Elt Ideal))

/-- A buffer stretch 7 does not write keeps its contents. -/
theorem keep7 (b : Ref sig .tc) (hb : b ∉ wr7) : after (hostOps7 (F := Ideal)) W (Proc.devRef .tc b) = W (Proc.devRef .tc b) :=
  after_of_forall_not_mem _ _ (Cert.SSA.not_written covers7 hb)

theorem s7_vt : (after (hostOps7 (F := Ideal)) W (Proc.devRef .tc main_v389) : S512x128.Idx → EReal) = vtOf dims layout (W (Proc.devRef .tc main_v329)) (W (Proc.devRef .tc main_v321)) (W (Proc.devRef .tc main_arg2)) := by
  dsimp only [hostOps7]; after_results_simp; rfl
theorem s7_W1 : (after (hostOps7 (F := Ideal)) W (Proc.devRef .tc main_v391) : S128x256.Idx → EReal) = wAt (W (Proc.devRef .tc main_arg18)) (3 : Fin 4) := by
  dsimp only [hostOps7]; after_results_simp
  exact slice_mat (W (Proc.devRef .tc main_arg18)) (3 : Fin 4) _ _
theorem s7_W2 : (after (hostOps7 (F := Ideal)) W (Proc.devRef .tc main_v403) : S256x128.Idx → EReal) = wAt (W (Proc.devRef .tc main_arg24)) (3 : Fin 4) := by
  dsimp only [hostOps7]; after_results_simp
  exact slice_mat (W (Proc.devRef .tc main_arg24)) (3 : Fin 4) _ _
theorem s7_r2 : (fun q => (after (hostOps7 (F := Ideal)) W (Proc.devRef .tc main_v414) : S1x256.Idx → EReal) (ix2 (0 : Fin 1) q)) = rowAt (W (Proc.devRef .tc main_arg19)) (3 : Fin 4) := by
  funext q; dsimp only [hostOps7]; after_results_simp
  exact slice_row (W (Proc.devRef .tc main_arg19)) (3 : Fin 4) _ _ _ q
theorem s7_r3 : (fun q => (after (hostOps7 (F := Ideal)) W (Proc.devRef .tc main_v415) : S1x256.Idx → EReal) (ix2 (0 : Fin 1) q)) = rowAt (W (Proc.devRef .tc main_arg20)) (3 : Fin 4) := by
  funext q; dsimp only [hostOps7]; after_results_simp
  exact slice_row (W (Proc.devRef .tc main_arg20)) (3 : Fin 4) _ _ _ q
theorem s7_r4 : (fun q => (after (hostOps7 (F := Ideal)) W (Proc.devRef .tc main_v416) : S1x256.Idx → EReal) (ix2 (0 : Fin 1) q)) = rowAt (W (Proc.devRef .tc main_arg21)) (3 : Fin 4) := by
  funext q; dsimp only [hostOps7]; after_results_simp
  exact slice_row (W (Proc.devRef .tc main_arg21)) (3 : Fin 4) _ _ _ q
theorem s7_r5 : (fun q => (after (hostOps7 (F := Ideal)) W (Proc.devRef .tc main_v417) : S1x256.Idx → EReal) (ix2 (0 : Fin 1) q)) = rowAt (W (Proc.devRef .tc main_arg22)) (3 : Fin 4) := by
  funext q; dsimp only [hostOps7]; after_results_simp
  exact slice_row (W (Proc.devRef .tc main_arg22)) (3 : Fin 4) _ _ _ q
theorem s7_r6 : (fun q => (after (hostOps7 (F := Ideal)) W (Proc.devRef .tc main_v418) : S1x256.Idx → EReal) (ix2 (0 : Fin 1) q)) = rowAt (W (Proc.devRef .tc main_arg23)) (3 : Fin 4) := by
  funext q; dsimp only [hostOps7]; after_results_simp
  exact slice_row (W (Proc.devRef .tc main_arg23)) (3 : Fin 4) _ _ _ q
theorem s7_r8 : (fun q => (after (hostOps7 (F := Ideal)) W (Proc.devRef .tc main_v419) : S1x128.Idx → EReal) (ix2 (0 : Fin 1) q)) = rowAt (W (Proc.devRef .tc main_arg25)) (3 : Fin 4) := by
  funext q; dsimp only [hostOps7]; after_results_simp
  exact slice_row (W (Proc.devRef .tc main_arg25)) (3 : Fin 4) _ _ _ q
theorem s7_r9 : (fun q => (after (hostOps7 (F := Ideal)) W (Proc.devRef .tc main_v420) : S1x128.Idx → EReal) (ix2 (0 : Fin 1) q)) = rowAt (W (Proc.devRef .tc main_arg26)) (3 : Fin 4) := by
  funext q; dsimp only [hostOps7]; after_results_simp
  exact slice_row (W (Proc.devRef .tc main_arg26)) (3 : Fin 4) _ _ _ q
theorem s7_r10 : (fun q => (after (hostOps7 (F := Ideal)) W (Proc.devRef .tc main_v421) : S1x128.Idx → EReal) (ix2 (0 : Fin 1) q)) = rowAt (W (Proc.devRef .tc main_arg27)) (3 : Fin 4) := by
  funext q; dsimp only [hostOps7]; after_results_simp
  exact slice_row (W (Proc.devRef .tc main_arg27)) (3 : Fin 4) _ _ _ q
theorem s7_r11 : (fun q => (after (hostOps7 (F := Ideal)) W (Proc.devRef .tc main_v422) : S1x128.Idx → EReal) (ix2 (0 : Fin 1) q)) = rowAt (W (Proc.devRef .tc main_arg28)) (3 : Fin 4) := by
  funext q; dsimp only [hostOps7]; after_results_simp
  exact slice_row (W (Proc.devRef .tc main_arg28)) (3 : Fin 4) _ _ _ q
theorem s7_r12 : (fun q => (after (hostOps7 (F := Ideal)) W (Proc.devRef .tc main_v423) : S1x128.Idx → EReal) (ix2 (0 : Fin 1) q)) = rowAt (W (Proc.devRef .tc main_arg29)) (3 : Fin 4) := by
  funext q; dsimp only [hostOps7]; after_results_simp
  exact slice_row (W (Proc.devRef .tc main_arg29)) (3 : Fin 4) _ _ _ q

end Cert.KernelIdeal.Host

end
-- ==== Proof.KS8.lean ====
/-
  Host stretch 8 of the idealized kernel, from arbitrary starting contents: layer 4's node array before aggregation (the previous node array plus the graphs' rows) and its z, and layer 4's
  node-map parameters taken out of their stacks — each buffer the next launch reads, as the network's function of the
  buffers the stretch itself reads. Every other buffer is kept: the stretch writes exactly the listed buffers.
-/
import proofs.«116444_j64183991272049_2_alg».proof.Proof.KGlue

noncomputable section

namespace Cert.KernelIdeal.Host

open Cert.KernelIdeal Cert.KernelIdeal.Gen Idealize.ShloMosaic Idealize.ShloMosaic.StableHlo Idealize.ShloMosaic.TcCoe Idealize.ShloMosaic.ValueIdx
open Cert.Net Cert.LibSliceRead

/-- The buffers stretch 8 writes, operation by operation. -/
def wr8 : List (Ref sig .tc) := [main_c_36, main_v425, main_v426, main_c_37, main_v427, main_v428, main_v429, main_v430, main_v431, main_v432, main_cst_38, main_v433, main_c_39, main_v434, main_v435, main_c_40, main_v436, main_v437, main_v438, main_v439, main_v440, main_c_41, main_v441, main_v442, main_c_42, main_v443, main_v444, main_v445, main_v446, main_v447, main_v448, main_v449, main_cst_43, main_v450, main_v451, main_v452, main_v453, main_v454, main_v455, main_v456, main_v457, main_v458, main_v459, main_v460, main_v461, main_v462, main_v463, main_v464, main_v465, main_v466, main_v467, main_v468, main_v469, main_v470, main_v471, main_v472, main_v473, main_v474, main_v475, main_v476, main_v477, main_v478, main_v479, main_v480, main_v481, main_v482, main_v483, main_v484, main_v485, main_v486, main_v487]

theorem covers8 : Cert.SSA.Covers (hostOps8 (F := Ideal)) wr8 := by
  unfold Cert.SSA.Covers
  dsimp only [hostOps8, wr8]
  repeat (first
    | exact List.Forall₂.nil
    | refine List.Forall₂.cons (by first
        | (rw [StableHlo.nullary_writes]) | (rw [StableHlo.unary_writes]) | (rw [StableHlo.binary_writes])
        | (rw [StableHlo.ternary_writes]) | (rw [StableHlo.reshape_writes])) ?_)

variable (W : Valuation τ sig (Elt Ideal))

/-- A buffer stretch 8 does not write keeps its contents. -/
theorem keep8 (b : Ref sig .tc) (hb : b ∉ wr8) : after (hostOps8 (F := Ideal)) W (Proc.devRef .tc b) = W (Proc.devRef .tc b) :=
  after_of_forall_not_mem _ _ (Cert.SSA.not_written covers8 hb)

theorem s8_hin : (after (hostOps8 (F := Ideal)) W (Proc.devRef .tc main_v432) : S100000x128.Idx → EReal) = hinOf dims layout (W (Proc.devRef .tc main_v385)) (W (Proc.devRef .tc main_v424)) (W (Proc.devRef .tc main_arg2)) := by
  dsimp only [hostOps8]; after_results_simp; rfl
theorem s8_z : (after (hostOps8 (F := Ideal)) W (Proc.devRef .tc main_v453) : S100000x128.Idx → EReal)
      = zOf dims layout (hinOf dims layout (W (Proc.devRef .tc main_v385)) (W (Proc.devRef .tc main_v424)) (W (Proc.devRef .tc main_arg2))) (W (Proc.devRef .tc main_v1)) (W (Proc.devRef .tc main_v3)) (scalarAt (W (Proc.devRef .tc main_arg5)) (4 : Fin 5)) := by
  dsimp only [hostOps8]; after_results_simp
  rw [show scalarAt (W (Proc.devRef .tc main_arg5)) (4 : Fin 5) = _ from (slice_scalar (W (Proc.devRef .tc main_arg5)) (4 : Fin 5) slices_S5_S1_4 shapeCasts_S1_S_).symm]
  rfl
theorem s8_W1 : (after (hostOps8 (F := Ideal)) W (Proc.devRef .tc main_v455) : S128x256.Idx → EReal) = wAt (W (Proc.devRef .tc main_arg6)) (4 : Fin 5) := by
  dsimp only [hostOps8]; after_results_simp
  exact slice_mat (W (Proc.devRef .tc main_arg6)) (4 : Fin 5) _ _
theorem s8_W2 : (after (hostOps8 (F := Ideal)) W (Proc.devRef .tc main_v467) : S256x128.Idx → EReal) = wAt (W (Proc.devRef .tc main_arg12)) (4 : Fin 5) := by
  dsimp only [hostOps8]; after_results_simp
  exact slice_mat (W (Proc.devRef .tc main_arg12)) (4 : Fin 5) _ _
theorem s8_r2 : (fun q => (after (hostOps8 (F := Ideal)) W (Proc.devRef .tc main_v478) : S1x256.Idx → EReal) (ix2 (0 : Fin 1) q)) = rowAt (W (Proc.devRef .tc main_arg7)) (4 : Fin 5) := by
  funext q; dsimp only [hostOps8]; after_results_simp
  exact slice_row (W (Proc.devRef .tc main_arg7)) (4 : Fin 5) _ _ _ q
theorem s8_r3 : (fun q => (after (hostOps8 (F := Ideal)) W (Proc.devRef .tc main_v479) : S1x256.Idx → EReal) (ix2 (0 : Fin 1) q)) = rowAt (W (Proc.devRef .tc main_arg8)) (4 : Fin 5) := by
  funext q; dsimp only [hostOps8]; after_results_simp
  exact slice_row (W (Proc.devRef .tc main_arg8)) (4 : Fin 5) _ _ _ q
theorem s8_r4 : (fun q => (after (hostOps8 (F := Ideal)) W (Proc.devRef .tc main_v480) : S1x256.Idx → EReal) (ix2 (0 : Fin 1) q)) = rowAt (W (Proc.devRef .tc main_arg9)) (4 : Fin 5) := by
  funext q; dsimp only [hostOps8]; after_results_simp
  exact slice_row (W (Proc.devRef .tc main_arg9)) (4 : Fin 5) _ _ _ q
theorem s8_r5 : (fun q => (after (hostOps8 (F := Ideal)) W (Proc.devRef .tc main_v481) : S1x256.Idx → EReal) (ix2 (0 : Fin 1) q)) = rowAt (W (Proc.devRef .tc main_arg10)) (4 : Fin 5) := by
  funext q; dsimp only [hostOps8]; after_results_simp
  exact slice_row (W (Proc.devRef .tc main_arg10)) (4 : Fin 5) _ _ _ q
theorem s8_r6 : (fun q => (after (hostOps8 (F := Ideal)) W (Proc.devRef .tc main_v482) : S1x256.Idx → EReal) (ix2 (0 : Fin 1) q)) = rowAt (W (Proc.devRef .tc main_arg11)) (4 : Fin 5) := by
  funext q; dsimp only [hostOps8]; after_results_simp
  exact slice_row (W (Proc.devRef .tc main_arg11)) (4 : Fin 5) _ _ _ q
theorem s8_r8 : (fun q => (after (hostOps8 (F := Ideal)) W (Proc.devRef .tc main_v483) : S1x128.Idx → EReal) (ix2 (0 : Fin 1) q)) = rowAt (W (Proc.devRef .tc main_arg13)) (4 : Fin 5) := by
  funext q; dsimp only [hostOps8]; after_results_simp
  exact slice_row (W (Proc.devRef .tc main_arg13)) (4 : Fin 5) _ _ _ q
theorem s8_r9 : (fun q => (after (hostOps8 (F := Ideal)) W (Proc.devRef .tc main_v484) : S1x128.Idx → EReal) (ix2 (0 : Fin 1) q)) = rowAt (W (Proc.devRef .tc main_arg14)) (4 : Fin 5) := by
  funext q; dsimp only [hostOps8]; after_results_simp
  exact slice_row (W (Proc.devRef .tc main_arg14)) (4 : Fin 5) _ _ _ q
theorem s8_r10 : (fun q => (after (hostOps8 (F := Ideal)) W (Proc.devRef .tc main_v485) : S1x128.Idx → EReal) (ix2 (0 : Fin 1) q)) = rowAt (W (Proc.devRef .tc main_arg15)) (4 : Fin 5) := by
  funext q; dsimp only [hostOps8]; after_results_simp
  exact slice_row (W (Proc.devRef .tc main_arg15)) (4 : Fin 5) _ _ _ q
theorem s8_r11 : (fun q => (after (hostOps8 (F := Ideal)) W (Proc.devRef .tc main_v486) : S1x128.Idx → EReal) (ix2 (0 : Fin 1) q)) = rowAt (W (Proc.devRef .tc main_arg16)) (4 : Fin 5) := by
  funext q; dsimp only [hostOps8]; after_results_simp
  exact slice_row (W (Proc.devRef .tc main_arg16)) (4 : Fin 5) _ _ _ q
theorem s8_r12 : (fun q => (after (hostOps8 (F := Ideal)) W (Proc.devRef .tc main_v487) : S1x128.Idx → EReal) (ix2 (0 : Fin 1) q)) = rowAt (W (Proc.devRef .tc main_arg17)) (4 : Fin 5) := by
  funext q; dsimp only [hostOps8]; after_results_simp
  exact slice_row (W (Proc.devRef .tc main_arg17)) (4 : Fin 5) _ _ _ q

end Cert.KernelIdeal.Host

end
-- ==== Proof.KR0.lean ====
/-
  Launch 0 of the two-layer kernel (the node array, 50 tiles of 2000 rows), at arbitrary entry contents V: after the launch its output array holds
  the two-layer normalised map with its last ramp of the entry arrays, row by row.

  At grid point t the body reads rows 2000·t … 2000·t + 1999 of the first array and the twelve parameter arrays whole, computes the
  map on that tile, and writes the tile back to the same rows of the output array. An entry of the map reads one row of its
  first argument, so the tile's value at (a, q) is the whole array's value at (2000·t + a, q); the 50 tiles cover every row.
-/
import proofs.«116444_j64183991272049_2_alg».proof.Proof.Gen.KernelIdeal.Frame
import proofs.«116444_j64183991272049_2_alg».proof.Proof.LibNormLayer
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Reg0

open Cert.KernelIdeal Cert.KernelIdeal.Gen Cert.LibNormLayer

variable (V : (c : Dev nD) → (b : Ref sig .tc) → Buf (Elt Ideal) ((c : Thread nD τ).loc b))

theorem hz : (![0, 0] : Fin 2 → Nat) = fun _ => 0 := funext fun a => by fin_cases a <;> rfl

/-- A [1,k] array's one row, as a function of the lane. -/
abbrev row {k : Nat} (r : (⟨2, ![1, k]⟩ : Shape).Idx → EReal) : Fin k → EReal := fun q => r (ix2 (0 : Fin 1) q)

/-- The body's arithmetic on its loaded blocks is the two-layer map of the tile. -/
theorem pay_eq (x0 : Vec Ideal S2000x128 .f32) (x1 : Vec Ideal S128x256 .f32) (x2 x3 x4 x5 x6 : Vec Ideal S1x256 .f32)
    (x7 : Vec Ideal S256x128 .f32) (x8 x9 x10 x11 x12 : Vec Ideal S1x128 .f32) :
    k0_pay1 (k0_pay2 x0 x1 x2 x5 x6 x3 x4 x7) x8 x11 x12 x9 x10
      = ramp (mlpCore x0 x1 (row x2) (row x5) (row x6) (row x3) (row x4) x7 (row x8) (row x11) (row x12) (row x9) (row x10)) := by
  unfold k0_pay1 k0_pay2
  dsimp only
  have e1 := tile_normLin dot_S2000x128_S128x256_S2000x256_1_0_0_1_n_n rfl bitsLt_bf16_f32 shapeCasts_S1x256_S1x256 broadcasts_S1x256_S2000x256 x0 x1 x2 x5 x6 x3 x4
  simp only [shapeCast_self] at e1 ⊢
  rw [e1, tile_ramp]
  have e2 := fun A => tile_normLin dot_S2000x256_S256x128_S2000x128_1_0_0_1_n_n rfl bitsLt_bf16_f32 shapeCasts_S1x128_S1x128 broadcasts_S1x128_S2000x128 A x7 x8 x11 x12 x9 x10
  simp only [shapeCast_self] at e2
  rw [e2, tile_ramp]
  rfl

/-- What the launch leaves in its output array, as one function of the entry arrays. -/
def G (c : Dev nD) : S100000x128.Idx → EReal :=
  ramp (mlpCore (V c main_v41) (V c main_v43) (row (V c main_v66)) (row (V c main_v69)) (row (V c main_v70)) (row (V c main_v67)) (row (V c main_v68)) (V c main_v55) (row (V c main_v71)) (row (V c main_v74)) (row (V c main_v75)) (row (V c main_v72)) (row (V c main_v73)))

/-- The printed index maps, decided over the grid: the tiled windows move with the point, the parameter windows stay. -/
theorem idx_facts : ∀ t : Fin cfg0.N, win0_0.index t (0 : Fin 2) = t.val ∧ win0_0.index t (1 : Fin 2) = 0
    ∧ win0_13.index t (0 : Fin 2) = t.val ∧ win0_13.index t (1 : Fin 2) = 0
    ∧ (∀ a : Fin 2, win0_1.index t a = 0)
    ∧ (∀ a : Fin 2, win0_2.index t a = 0)
    ∧ (∀ a : Fin 2, win0_3.index t a = 0)
    ∧ (∀ a : Fin 2, win0_4.index t a = 0)
    ∧ (∀ a : Fin 2, win0_5.index t a = 0)
    ∧ (∀ a : Fin 2, win0_6.index t a = 0)
    ∧ (∀ a : Fin 2, win0_7.index t a = 0)
    ∧ (∀ a : Fin 2, win0_8.index t a = 0)
    ∧ (∀ a : Fin 2, win0_9.index t a = 0)
    ∧ (∀ a : Fin 2, win0_10.index t a = 0)
    ∧ (∀ a : Fin 2, win0_11.index t a = 0)
    ∧ (∀ a : Fin 2, win0_12.index t a = 0) :=
  (by decide +kernel : ∀ t : Fin grid0.N, _)

/-- The first window's block at point t is rows 2000·t … of its array. -/
theorem iblk_x (c : Dev nD) (t : Fin cfg0.N) (x : S2000x128.Idx) (k : S100000x128.Idx)
    (hk0 : (k 0).val = 2000 * t.val + (x 0).val) (hk1 : (k 1).val = (x 1).val) :
    (iblk0 V c 0 t : Vec Ideal S2000x128 .f32) x = (V c main_v41 : S100000x128.Idx → EReal) k := by
  obtain ⟨h0, h1, -⟩ := idx_facts t
  unfold iblk0
  rw [View.read_apply]
  show V c main_v41 _ = V c main_v41 _
  congr 1
  funext a
  apply Fin.ext
  match a with
  | ⟨0, _⟩ => show win0_0.index t 0 * 2000 + 1 * (x 0).val = (k 0).val; rw [h0, hk0]; omega
  | ⟨1, _⟩ => show win0_0.index t 1 * 128 + 1 * (x 1).val = (k 1).val; rw [h1, hk1]; omega

theorem iblk_1 (c : Dev nD) (t : Fin cfg0.N) : (iblk0 V c 1 t : Vec Ideal S128x256 .f32) = (V c main_v43 : S128x256.Idx → EReal) := by
  have hw := (idx_facts t).2.2.2.2.1
  funext x
  unfold iblk0
  rw [View.read_apply]
  show V c main_v43 _ = V c main_v43 x
  congr 1
  funext a
  apply Fin.ext
  match a with
  | ⟨0, _⟩ => show win0_1.index t 0 * 128 + 1 * (x 0).val = (x 0).val; rw [hw 0]; omega
  | ⟨1, _⟩ => show win0_1.index t 1 * 256 + 1 * (x 1).val = (x 1).val; rw [hw 1]; omega

theorem iblk_2 (c : Dev nD) (t : Fin cfg0.N) : (iblk0 V c 2 t : Vec Ideal S1x256 .f32) = (V c main_v66 : S1x256.Idx → EReal) := by
  have hw := (idx_facts t).2.2.2.2.2.1
  funext x
  unfold iblk0
  rw [View.read_apply]
  show V c main_v66 _ = V c main_v66 x
  congr 1
  funext a
  apply Fin.ext
  match a with
  | ⟨0, _⟩ => show win0_2.index t 0 * 1 + 1 * (x 0).val = (x 0).val; rw [hw 0]; omega
  | ⟨1, _⟩ => show win0_2.index t 1 * 256 + 1 * (x 1).val = (x 1).val; rw [hw 1]; omega

theorem iblk_3 (c : Dev nD) (t : Fin cfg0.N) : (iblk0 V c 3 t : Vec Ideal S1x256 .f32) = (V c main_v67 : S1x256.Idx → EReal) := by
  have hw := (idx_facts t).2.2.2.2.2.2.1
  funext x
  unfold iblk0
  rw [View.read_apply]
  show V c main_v67 _ = V c main_v67 x
  congr 1
  funext a
  apply Fin.ext
  match a with
  | ⟨0, _⟩ => show win0_3.index t 0 * 1 + 1 * (x 0).val = (x 0).val; rw [hw 0]; omega
  | ⟨1, _⟩ => show win0_3.index t 1 * 256 + 1 * (x 1).val = (x 1).val; rw [hw 1]; omega

theorem iblk_4 (c : Dev nD) (t : Fin cfg0.N) : (iblk0 V c 4 t : Vec Ideal S1x256 .f32) = (V c main_v68 : S1x256.Idx → EReal) := by
  have hw := (idx_facts t).2.2.2.2.2.2.2.1
  funext x
  unfold iblk0
  rw [View.read_apply]
  show V c main_v68 _ = V c main_v68 x
  congr 1
  funext a
  apply Fin.ext
  match a with
  | ⟨0, _⟩ => show win0_4.index t 0 * 1 + 1 * (x 0).val = (x 0).val; rw [hw 0]; omega
  | ⟨1, _⟩ => show win0_4.index t 1 * 256 + 1 * (x 1).val = (x 1).val; rw [hw 1]; omega

theorem iblk_5 (c : Dev nD) (t : Fin cfg0.N) : (iblk0 V c 5 t : Vec Ideal S1x256 .f32) = (V c main_v69 : S1x256.Idx → EReal) := by
  have hw := (idx_facts t).2.2.2.2.2.2.2.2.1
  funext x
  unfold iblk0
  rw [View.read_apply]
  show V c main_v69 _ = V c main_v69 x
  congr 1
  funext a
  apply Fin.ext
  match a with
  | ⟨0, _⟩ => show win0_5.index t 0 * 1 + 1 * (x 0).val = (x 0).val; rw [hw 0]; omega
  | ⟨1, _⟩ => show win0_5.index t 1 * 256 + 1 * (x 1).val = (x 1).val; rw [hw 1]; omega

theorem iblk_6 (c : Dev nD) (t : Fin cfg0.N) : (iblk0 V c 6 t : Vec Ideal S1x256 .f32) = (V c main_v70 : S1x256.Idx → EReal) := by
  have hw := (idx_facts t).2.2.2.2.2.2.2.2.2.1
  funext x
  unfold iblk0
  rw [View.read_apply]
  show V c main_v70 _ = V c main_v70 x
  congr 1
  funext a
  apply Fin.ext
  match a with
  | ⟨0, _⟩ => show win0_6.index t 0 * 1 + 1 * (x 0).val = (x 0).val; rw [hw 0]; omega
  | ⟨1, _⟩ => show win0_6.index t 1 * 256 + 1 * (x 1).val = (x 1).val; rw [hw 1]; omega

theorem iblk_7 (c : Dev nD) (t : Fin cfg0.N) : (iblk0 V c 7 t : Vec Ideal S256x128 .f32) = (V c main_v55 : S256x128.Idx → EReal) := by
  have hw := (idx_facts t).2.2.2.2.2.2.2.2.2.2.1
  funext x
  unfold iblk0
  rw [View.read_apply]
  show V c main_v55 _ = V c main_v55 x
  congr 1
  funext a
  apply Fin.ext
  match a with
  | ⟨0, _⟩ => show win0_7.index t 0 * 256 + 1 * (x 0).val = (x 0).val; rw [hw 0]; omega
  | ⟨1, _⟩ => show win0_7.index t 1 * 128 + 1 * (x 1).val = (x 1).val; rw [hw 1]; omega

theorem iblk_8 (c : Dev nD) (t : Fin cfg0.N) : (iblk0 V c 8 t : Vec Ideal S1x128 .f32) = (V c main_v71 : S1x128.Idx → EReal) := by
  have hw := (idx_facts t).2.2.2.2.2.2.2.2.2.2.2.1
  funext x
  unfold iblk0
  rw [View.read_apply]
  show V c main_v71 _ = V c main_v71 x
  congr 1
  funext a
  apply Fin.ext
  match a with
  | ⟨0, _⟩ => show win0_8.index t 0 * 1 + 1 * (x 0).val = (x 0).val; rw [hw 0]; omega
  | ⟨1, _⟩ => show win0_8.index t 1 * 128 + 1 * (x 1).val = (x 1).val; rw [hw 1]; omega

theorem iblk_9 (c : Dev nD) (t : Fin cfg0.N) : (iblk0 V c 9 t : Vec Ideal S1x128 .f32) = (V c main_v72 : S1x128.Idx → EReal) := by
  have hw := (idx_facts t).2.2.2.2.2.2.2.2.2.2.2.2.1
  funext x
  unfold iblk0
  rw [View.read_apply]
  show V c main_v72 _ = V c main_v72 x
  congr 1
  funext a
  apply Fin.ext
  match a with
  | ⟨0, _⟩ => show win0_9.index t 0 * 1 + 1 * (x 0).val = (x 0).val; rw [hw 0]; omega
  | ⟨1, _⟩ => show win0_9.index t 1 * 128 + 1 * (x 1).val = (x 1).val; rw [hw 1]; omega

theorem iblk_10 (c : Dev nD) (t : Fin cfg0.N) : (iblk0 V c 10 t : Vec Ideal S1x128 .f32) = (V c main_v73 : S1x128.Idx → EReal) := by
  have hw := (idx_facts t).2.2.2.2.2.2.2.2.2.2.2.2.2.1
  funext x
  unfold iblk0
  rw [View.read_apply]
  show V c main_v73 _ = V c main_v73 x
  congr 1
  funext a
  apply Fin.ext
  match a with
  | ⟨0, _⟩ => show win0_10.index t 0 * 1 + 1 * (x 0).val = (x 0).val; rw [hw 0]; omega
  | ⟨1, _⟩ => show win0_10.index t 1 * 128 + 1 * (x 1).val = (x 1).val; rw [hw 1]; omega

theorem iblk_11 (c : Dev nD) (t : Fin cfg0.N) : (iblk0 V c 11 t : Vec Ideal S1x128 .f32) = (V c main_v74 : S1x128.Idx → EReal) := by
  have hw := (idx_facts t).2.2.2.2.2.2.2.2.2.2.2.2.2.2.1
  funext x
  unfold iblk0
  rw [View.read_apply]
  show V c main_v74 _ = V c main_v74 x
  congr 1
  funext a
  apply Fin.ext
  match a with
  | ⟨0, _⟩ => show win0_11.index t 0 * 1 + 1 * (x 0).val = (x 0).val; rw [hw 0]; omega
  | ⟨1, _⟩ => show win0_11.index t 1 * 128 + 1 * (x 1).val = (x 1).val; rw [hw 1]; omega

theorem iblk_12 (c : Dev nD) (t : Fin cfg0.N) : (iblk0 V c 12 t : Vec Ideal S1x128 .f32) = (V c main_v75 : S1x128.Idx → EReal) := by
  have hw := (idx_facts t).2.2.2.2.2.2.2.2.2.2.2.2.2.2.2
  funext x
  unfold iblk0
  rw [View.read_apply]
  show V c main_v75 _ = V c main_v75 x
  congr 1
  funext a
  apply Fin.ext
  match a with
  | ⟨0, _⟩ => show win0_12.index t 0 * 1 + 1 * (x 0).val = (x 0).val; rw [hw 0]; omega
  | ⟨1, _⟩ => show win0_12.index t 1 * 128 + 1 * (x 1).val = (x 1).val; rw [hw 1]; omega

/-- A tile that holds rows 2000·T … of an array has, at each of its rows, the whole array's value of the map at that row. -/
theorem tile_value (X : S100000x128.Idx → EReal) (xb : Vec Ideal S2000x128 .f32) (W1 : S128x256.Idx → EReal) (r2 r3 r4 r5 r6 : S1x256.Idx → EReal)
    (W2 : S256x128.Idx → EReal) (r8 r9 r10 r11 r12 : S1x128.Idx → EReal) (T : Nat)
    (hx : ∀ (y : S2000x128.Idx) (k : S100000x128.Idx), (k 0).val = 2000 * T + (y 0).val → (k 1).val = (y 1).val → xb y = X k)
    (y : S2000x128.Idx) (k : S100000x128.Idx) (hk0 : (k 0).val = 2000 * T + (y 0).val) (hk1 : (k 1).val = (y 1).val) :
    (ramp (mlpCore xb W1 (row r2) (row r5) (row r6) (row r3) (row r4) W2 (row r8) (row r11) (row r12) (row r9) (row r10))) y
      = (ramp (mlpCore X W1 (row r2) (row r5) (row r6) (row r3) (row r4) W2 (row r8) (row r11) (row r12) (row r9) (row r10))) k := by
  obtain ⟨a, q, rfl⟩ : ∃ (a : Fin 2000) (q : Fin 128), y = ix2 a q := ⟨y 0, y 1, eq_ix2 y⟩
  obtain ⟨A, q', rfl⟩ : ∃ (A : Fin 100000) (q' : Fin 128), k = ix2 A q' := ⟨k 0, k 1, eq_ix2 k⟩
  have hq : q' = q := Fin.ext hk1
  subst hq
  exact ramp_mlpCore_rows X xb W1 (row r2) (row r5) (row r6) (row r3) (row r4) W2 (row r8) (row r11) (row r12) (row r9) (row r10) a A q'
    (fun c' => hx (ix2 a c') (ix2 A c') hk0 rfl)

/-- What point t writes back is block t of G. -/
theorem flushed_eq (c : Dev nD) (t : Fin cfg0.N) (hf : (cfg0.win 13).flush t = true) :
    (dat0 V c).flushed 13 t = ((cfg0.win 13).blk t).view.read (Elt Ideal) (G V c) := by
  obtain ⟨-, -, h0, h1, -⟩ := idx_facts t
  show (cfg0.win 13).cut (grid0.coords t) ((dat0 V c).after 13 t) = _
  rw [after0_13]
  unfold out0_13
  rw [View.canon_unit_zero hz]
  simp only [View.ld_unit_zero (S := S2000x128) hz, View.ld_unit_zero (S := S128x256) hz, View.ld_unit_zero (S := S1x256) hz,
    View.ld_unit_zero (S := S256x128) hz, View.ld_unit_zero (S := S1x128) hz]
  rw [pay_eq, iblk_1 V c t, iblk_2 V c t, iblk_3 V c t, iblk_4 V c t, iblk_5 V c t, iblk_6 V c t, iblk_7 V c t, iblk_8 V c t, iblk_9 V c t, iblk_10 V c t, iblk_11 V c t, iblk_12 V c t]
  funext j
  show (ramp (mlpCore (iblk0 V c 0 t) (V c main_v43) (row (V c main_v66)) (row (V c main_v69)) (row (V c main_v70)) (row (V c main_v67)) (row (V c main_v68)) (V c main_v55) (row (V c main_v71)) (row (V c main_v74)) (row (V c main_v75)) (row (V c main_v72)) (row (V c main_v73)))) j = G V c (((cfg0.win 13).blk t).view.emb j)
  unfold G
  refine tile_value (V c main_v41) (iblk0 V c 0 t) (V c main_v43) (V c main_v66) (V c main_v67) (V c main_v68) (V c main_v69) (V c main_v70) (V c main_v55) (V c main_v71) (V c main_v72) (V c main_v73) (V c main_v74) (V c main_v75) t.val
    (fun y k e0 e1 => iblk_x V c t y k e0 e1) j _ ?_ ?_
  · show win0_13.index t 0 * 2000 + 1 * (j 0).val = 2000 * t.val + (j 0).val; rw [h0]; omega
  · show win0_13.index t 1 * 128 + 1 * (j 1).val = (j 1).val; rw [h1]; omega

/-- An index of the output array is in point t's block iff each coordinate is in the block's range on its axis. -/
theorem mem_blk (t : Fin cfg0.N) (i : S100000x128.Idx) :
    i ∈ ((cfg0.win 13).blk t).view.set ↔ ∀ a : Fin 2, win0_13.index t a * S2000x128.size a ≤ (i a).val ∧ (i a).val < win0_13.index t a * S2000x128.size a + S2000x128.size a := by
  show i ∈ ((View.whole main_v76).slice (win0_13.rect t)).set ↔ _
  rw [View.set_slice_whole, Rect.mem_set_unit]
  exact Iff.rfl

/-- THE ARRAY after the launch: G of the entry arrays. -/
theorem final (c : Dev nD) : (dat0 V c).arrAt 13 cfg0.N = G V c :=
  (dat0 V c).arrAt_eq_of_cover 13 (G V c) (flushed_eq V c) fun i => by
    have hi0 : (i 0).val < 100000 := (i 0).isLt
    have hi1 : (i 1).val < 128 := (i 1).isLt
    have hN : cfg0.N = 50 := N_0
    refine ⟨⟨(i 0).val / 2000, by rw [hN]; omega⟩, flush0_13 _, ?_⟩
    rw [mem_blk]
    obtain ⟨-, -, h0, h1, -⟩ := idx_facts ⟨(i 0).val / 2000, by rw [hN]; omega⟩
    intro a
    match a with
    | ⟨0, _⟩ => show win0_13.index _ 0 * 2000 ≤ (i 0).val ∧ (i 0).val < win0_13.index _ 0 * 2000 + 2000; rw [h0]; show (i 0).val / 2000 * 2000 ≤ _ ∧ _ < (i 0).val / 2000 * 2000 + 2000; omega
    | ⟨1, _⟩ => show win0_13.index _ 1 * 128 ≤ (i 1).val ∧ (i 1).val < win0_13.index _ 1 * 128 + 128; rw [h1]; omega

end Cert.KernelIdeal.Reg0

end
-- ==== Proof.KR1.lean ====
/-
  Launch 1 of the two-layer kernel (the graph table, one tile of 512 rows), at arbitrary entry contents V: after the launch its output array holds
  the two-layer normalised map with its last ramp of the entry arrays, row by row.

  At grid point t the body reads rows 512·t … 512·t + 511 of the first array and the twelve parameter arrays whole, computes the
  map on that tile, and writes the tile back to the same rows of the output array. An entry of the map reads one row of its
  first argument, so the tile's value at (a, q) is the whole array's value at (512·t + a, q); the 1 tile covers every row.
-/
import proofs.«116444_j64183991272049_2_alg».proof.Proof.Gen.KernelIdeal.Frame
import proofs.«116444_j64183991272049_2_alg».proof.Proof.LibNormLayer
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Reg1

open Cert.KernelIdeal Cert.KernelIdeal.Gen Cert.LibNormLayer

variable (V : (c : Dev nD) → (b : Ref sig .tc) → Buf (Elt Ideal) ((c : Thread nD τ).loc b))

theorem hz : (![0, 0] : Fin 2 → Nat) = fun _ => 0 := funext fun a => by fin_cases a <;> rfl

/-- A [1,k] array's one row, as a function of the lane. -/
abbrev row {k : Nat} (r : (⟨2, ![1, k]⟩ : Shape).Idx → EReal) : Fin k → EReal := fun q => r (ix2 (0 : Fin 1) q)

/-- The body's arithmetic on its loaded blocks is the two-layer map of the tile. -/
theorem pay_eq (x0 : Vec Ideal S512x128 .f32) (x1 : Vec Ideal S128x256 .f32) (x2 x3 x4 x5 x6 : Vec Ideal S1x256 .f32)
    (x7 : Vec Ideal S256x128 .f32) (x8 x9 x10 x11 x12 : Vec Ideal S1x128 .f32) :
    k1_pay1 (k1_pay2 x0 x1 x2 x5 x6 x3 x4 x7) x8 x11 x12 x9 x10
      = ramp (mlpCore x0 x1 (row x2) (row x5) (row x6) (row x3) (row x4) x7 (row x8) (row x11) (row x12) (row x9) (row x10)) := by
  unfold k1_pay1 k1_pay2
  dsimp only
  have e1 := tile_normLin dot_S512x128_S128x256_S512x256_1_0_0_1_n_n rfl bitsLt_bf16_f32 shapeCasts_S1x256_S1x256 broadcasts_S1x256_S512x256 x0 x1 x2 x5 x6 x3 x4
  simp only [shapeCast_self] at e1 ⊢
  rw [e1, tile_ramp]
  have e2 := fun A => tile_normLin dot_S512x256_S256x128_S512x128_1_0_0_1_n_n rfl bitsLt_bf16_f32 shapeCasts_S1x128_S1x128 broadcasts_S1x128_S512x128 A x7 x8 x11 x12 x9 x10
  simp only [shapeCast_self] at e2
  rw [e2, tile_ramp]
  rfl

/-- What the launch leaves in its output array, as one function of the entry arrays. -/
def G (c : Dev nD) : S512x128.Idx → EReal :=
  ramp (mlpCore (V c main_v80) (V c main_v82) (row (V c main_v105)) (row (V c main_v108)) (row (V c main_v109)) (row (V c main_v106)) (row (V c main_v107)) (V c main_v94) (row (V c main_v110)) (row (V c main_v113)) (row (V c main_v114)) (row (V c main_v111)) (row (V c main_v112)))

/-- The printed index maps, decided over the grid: the tiled windows move with the point, the parameter windows stay. -/
theorem idx_facts : ∀ t : Fin cfg1.N, win1_0.index t (0 : Fin 2) = t.val ∧ win1_0.index t (1 : Fin 2) = 0
    ∧ win1_13.index t (0 : Fin 2) = t.val ∧ win1_13.index t (1 : Fin 2) = 0
    ∧ (∀ a : Fin 2, win1_1.index t a = 0)
    ∧ (∀ a : Fin 2, win1_2.index t a = 0)
    ∧ (∀ a : Fin 2, win1_3.index t a = 0)
    ∧ (∀ a : Fin 2, win1_4.index t a = 0)
    ∧ (∀ a : Fin 2, win1_5.index t a = 0)
    ∧ (∀ a : Fin 2, win1_6.index t a = 0)
    ∧ (∀ a : Fin 2, win1_7.index t a = 0)
    ∧ (∀ a : Fin 2, win1_8.index t a = 0)
    ∧ (∀ a : Fin 2, win1_9.index t a = 0)
    ∧ (∀ a : Fin 2, win1_10.index t a = 0)
    ∧ (∀ a : Fin 2, win1_11.index t a = 0)
    ∧ (∀ a : Fin 2, win1_12.index t a = 0) :=
  (by decide +kernel : ∀ t : Fin grid1.N, _)

/-- The first window's block at point t is rows 512·t … of its array. -/
theorem iblk_x (c : Dev nD) (t : Fin cfg1.N) (x : S512x128.Idx) (k : S512x128.Idx)
    (hk0 : (k 0).val = 512 * t.val + (x 0).val) (hk1 : (k 1).val = (x 1).val) :
    (iblk1 V c 0 t : Vec Ideal S512x128 .f32) x = (V c main_v80 : S512x128.Idx → EReal) k := by
  obtain ⟨h0, h1, -⟩ := idx_facts t
  unfold iblk1
  rw [View.read_apply]
  show V c main_v80 _ = V c main_v80 _
  congr 1
  funext a
  apply Fin.ext
  match a with
  | ⟨0, _⟩ => show win1_0.index t 0 * 512 + 1 * (x 0).val = (k 0).val; rw [h0, hk0]; omega
  | ⟨1, _⟩ => show win1_0.index t 1 * 128 + 1 * (x 1).val = (k 1).val; rw [h1, hk1]; omega

theorem iblk_1 (c : Dev nD) (t : Fin cfg1.N) : (iblk1 V c 1 t : Vec Ideal S128x256 .f32) = (V c main_v82 : S128x256.Idx → EReal) := by
  have hw := (idx_facts t).2.2.2.2.1
  funext x
  unfold iblk1
  rw [View.read_apply]
  show V c main_v82 _ = V c main_v82 x
  congr 1
  funext a
  apply Fin.ext
  match a with
  | ⟨0, _⟩ => show win1_1.index t 0 * 128 + 1 * (x 0).val = (x 0).val; rw [hw 0]; omega
  | ⟨1, _⟩ => show win1_1.index t 1 * 256 + 1 * (x 1).val = (x 1).val; rw [hw 1]; omega

theorem iblk_2 (c : Dev nD) (t : Fin cfg1.N) : (iblk1 V c 2 t : Vec Ideal S1x256 .f32) = (V c main_v105 : S1x256.Idx → EReal) := by
  have hw := (idx_facts t).2.2.2.2.2.1
  funext x
  unfold iblk1
  rw [View.read_apply]
  show V c main_v105 _ = V c main_v105 x
  congr 1
  funext a
  apply Fin.ext
  match a with
  | ⟨0, _⟩ => show win1_2.index t 0 * 1 + 1 * (x 0).val = (x 0).val; rw [hw 0]; omega
  | ⟨1, _⟩ => show win1_2.index t 1 * 256 + 1 * (x 1).val = (x 1).val; rw [hw 1]; omega

theorem iblk_3 (c : Dev nD) (t : Fin cfg1.N) : (iblk1 V c 3 t : Vec Ideal S1x256 .f32) = (V c main_v106 : S1x256.Idx → EReal) := by
  have hw := (idx_facts t).2.2.2.2.2.2.1
  funext x
  unfold iblk1
  rw [View.read_apply]
  show V c main_v106 _ = V c main_v106 x
  congr 1
  funext a
  apply Fin.ext
  match a with
  | ⟨0, _⟩ => show win1_3.index t 0 * 1 + 1 * (x 0).val = (x 0).val; rw [hw 0]; omega
  | ⟨1, _⟩ => show win1_3.index t 1 * 256 + 1 * (x 1).val = (x 1).val; rw [hw 1]; omega

theorem iblk_4 (c : Dev nD) (t : Fin cfg1.N) : (iblk1 V c 4 t : Vec Ideal S1x256 .f32) = (V c main_v107 : S1x256.Idx → EReal) := by
  have hw := (idx_facts t).2.2.2.2.2.2.2.1
  funext x
  unfold iblk1
  rw [View.read_apply]
  show V c main_v107 _ = V c main_v107 x
  congr 1
  funext a
  apply Fin.ext
  match a with
  | ⟨0, _⟩ => show win1_4.index t 0 * 1 + 1 * (x 0).val = (x 0).val; rw [hw 0]; omega
  | ⟨1, _⟩ => show win1_4.index t 1 * 256 + 1 * (x 1).val = (x 1).val; rw [hw 1]; omega

theorem iblk_5 (c : Dev nD) (t : Fin cfg1.N) : (iblk1 V c 5 t : Vec Ideal S1x256 .f32) = (V c main_v108 : S1x256.Idx → EReal) := by
  have hw := (idx_facts t).2.2.2.2.2.2.2.2.1
  funext x
  unfold iblk1
  rw [View.read_apply]
  show V c main_v108 _ = V c main_v108 x
  congr 1
  funext a
  apply Fin.ext
  match a with
  | ⟨0, _⟩ => show win1_5.index t 0 * 1 + 1 * (x 0).val = (x 0).val; rw [hw 0]; omega
  | ⟨1, _⟩ => show win1_5.index t 1 * 256 + 1 * (x 1).val = (x 1).val; rw [hw 1]; omega

theorem iblk_6 (c : Dev nD) (t : Fin cfg1.N) : (iblk1 V c 6 t : Vec Ideal S1x256 .f32) = (V c main_v109 : S1x256.Idx → EReal) := by
  have hw := (idx_facts t).2.2.2.2.2.2.2.2.2.1
  funext x
  unfold iblk1
  rw [View.read_apply]
  show V c main_v109 _ = V c main_v109 x
  congr 1
  funext a
  apply Fin.ext
  match a with
  | ⟨0, _⟩ => show win1_6.index t 0 * 1 + 1 * (x 0).val = (x 0).val; rw [hw 0]; omega
  | ⟨1, _⟩ => show win1_6.index t 1 * 256 + 1 * (x 1).val = (x 1).val; rw [hw 1]; omega

theorem iblk_7 (c : Dev nD) (t : Fin cfg1.N) : (iblk1 V c 7 t : Vec Ideal S256x128 .f32) = (V c main_v94 : S256x128.Idx → EReal) := by
  have hw := (idx_facts t).2.2.2.2.2.2.2.2.2.2.1
  funext x
  unfold iblk1
  rw [View.read_apply]
  show V c main_v94 _ = V c main_v94 x
  congr 1
  funext a
  apply Fin.ext
  match a with
  | ⟨0, _⟩ => show win1_7.index t 0 * 256 + 1 * (x 0).val = (x 0).val; rw [hw 0]; omega
  | ⟨1, _⟩ => show win1_7.index t 1 * 128 + 1 * (x 1).val = (x 1).val; rw [hw 1]; omega

theorem iblk_8 (c : Dev nD) (t : Fin cfg1.N) : (iblk1 V c 8 t : Vec Ideal S1x128 .f32) = (V c main_v110 : S1x128.Idx → EReal) := by
  have hw := (idx_facts t).2.2.2.2.2.2.2.2.2.2.2.1
  funext x
  unfold iblk1
  rw [View.read_apply]
  show V c main_v110 _ = V c main_v110 x
  congr 1
  funext a
  apply Fin.ext
  match a with
  | ⟨0, _⟩ => show win1_8.index t 0 * 1 + 1 * (x 0).val = (x 0).val; rw [hw 0]; omega
  | ⟨1, _⟩ => show win1_8.index t 1 * 128 + 1 * (x 1).val = (x 1).val; rw [hw 1]; omega

theorem iblk_9 (c : Dev nD) (t : Fin cfg1.N) : (iblk1 V c 9 t : Vec Ideal S1x128 .f32) = (V c main_v111 : S1x128.Idx → EReal) := by
  have hw := (idx_facts t).2.2.2.2.2.2.2.2.2.2.2.2.1
  funext x
  unfold iblk1
  rw [View.read_apply]
  show V c main_v111 _ = V c main_v111 x
  congr 1
  funext a
  apply Fin.ext
  match a with
  | ⟨0, _⟩ => show win1_9.index t 0 * 1 + 1 * (x 0).val = (x 0).val; rw [hw 0]; omega
  | ⟨1, _⟩ => show win1_9.index t 1 * 128 + 1 * (x 1).val = (x 1).val; rw [hw 1]; omega

theorem iblk_10 (c : Dev nD) (t : Fin cfg1.N) : (iblk1 V c 10 t : Vec Ideal S1x128 .f32) = (V c main_v112 : S1x128.Idx → EReal) := by
  have hw := (idx_facts t).2.2.2.2.2.2.2.2.2.2.2.2.2.1
  funext x
  unfold iblk1
  rw [View.read_apply]
  show V c main_v112 _ = V c main_v112 x
  congr 1
  funext a
  apply Fin.ext
  match a with
  | ⟨0, _⟩ => show win1_10.index t 0 * 1 + 1 * (x 0).val = (x 0).val; rw [hw 0]; omega
  | ⟨1, _⟩ => show win1_10.index t 1 * 128 + 1 * (x 1).val = (x 1).val; rw [hw 1]; omega

theorem iblk_11 (c : Dev nD) (t : Fin cfg1.N) : (iblk1 V c 11 t : Vec Ideal S1x128 .f32) = (V c main_v113 : S1x128.Idx → EReal) := by
  have hw := (idx_facts t).2.2.2.2.2.2.2.2.2.2.2.2.2.2.1
  funext x
  unfold iblk1
  rw [View.read_apply]
  show V c main_v113 _ = V c main_v113 x
  congr 1
  funext a
  apply Fin.ext
  match a with
  | ⟨0, _⟩ => show win1_11.index t 0 * 1 + 1 * (x 0).val = (x 0).val; rw [hw 0]; omega
  | ⟨1, _⟩ => show win1_11.index t 1 * 128 + 1 * (x 1).val = (x 1).val; rw [hw 1]; omega

theorem iblk_12 (c : Dev nD) (t : Fin cfg1.N) : (iblk1 V c 12 t : Vec Ideal S1x128 .f32) = (V c main_v114 : S1x128.Idx → EReal) := by
  have hw := (idx_facts t).2.2.2.2.2.2.2.2.2.2.2.2.2.2.2
  funext x
  unfold iblk1
  rw [View.read_apply]
  show V c main_v114 _ = V c main_v114 x
  congr 1
  funext a
  apply Fin.ext
  match a with
  | ⟨0, _⟩ => show win1_12.index t 0 * 1 + 1 * (x 0).val = (x 0).val; rw [hw 0]; omega
  | ⟨1, _⟩ => show win1_12.index t 1 * 128 + 1 * (x 1).val = (x 1).val; rw [hw 1]; omega

/-- A tile that holds rows 512·T … of an array has, at each of its rows, the whole array's value of the map at that row. -/
theorem tile_value (X : S512x128.Idx → EReal) (xb : Vec Ideal S512x128 .f32) (W1 : S128x256.Idx → EReal) (r2 r3 r4 r5 r6 : S1x256.Idx → EReal)
    (W2 : S256x128.Idx → EReal) (r8 r9 r10 r11 r12 : S1x128.Idx → EReal) (T : Nat)
    (hx : ∀ (y : S512x128.Idx) (k : S512x128.Idx), (k 0).val = 512 * T + (y 0).val → (k 1).val = (y 1).val → xb y = X k)
    (y : S512x128.Idx) (k : S512x128.Idx) (hk0 : (k 0).val = 512 * T + (y 0).val) (hk1 : (k 1).val = (y 1).val) :
    (ramp (mlpCore xb W1 (row r2) (row r5) (row r6) (row r3) (row r4) W2 (row r8) (row r11) (row r12) (row r9) (row r10))) y
      = (ramp (mlpCore X W1 (row r2) (row r5) (row r6) (row r3) (row r4) W2 (row r8) (row r11) (row r12) (row r9) (row r10))) k := by
  obtain ⟨a, q, rfl⟩ : ∃ (a : Fin 512) (q : Fin 128), y = ix2 a q := ⟨y 0, y 1, eq_ix2 y⟩
  obtain ⟨A, q', rfl⟩ : ∃ (A : Fin 512) (q' : Fin 128), k = ix2 A q' := ⟨k 0, k 1, eq_ix2 k⟩
  have hq : q' = q := Fin.ext hk1
  subst hq
  exact ramp_mlpCore_rows X xb W1 (row r2) (row r5) (row r6) (row r3) (row r4) W2 (row r8) (row r11) (row r12) (row r9) (row r10) a A q'
    (fun c' => hx (ix2 a c') (ix2 A c') hk0 rfl)

/-- What point t writes back is block t of G. -/
theorem flushed_eq (c : Dev nD) (t : Fin cfg1.N) (hf : (cfg1.win 13).flush t = true) :
    (dat1 V c).flushed 13 t = ((cfg1.win 13).blk t).view.read (Elt Ideal) (G V c) := by
  obtain ⟨-, -, h0, h1, -⟩ := idx_facts t
  show (cfg1.win 13).cut (grid1.coords t) ((dat1 V c).after 13 t) = _
  rw [after1_13]
  unfold out1_13
  rw [View.canon_unit_zero hz]
  simp only [View.ld_unit_zero (S := S512x128) hz, View.ld_unit_zero (S := S128x256) hz, View.ld_unit_zero (S := S1x256) hz,
    View.ld_unit_zero (S := S256x128) hz, View.ld_unit_zero (S := S1x128) hz]
  rw [pay_eq, iblk_1 V c t, iblk_2 V c t, iblk_3 V c t, iblk_4 V c t, iblk_5 V c t, iblk_6 V c t, iblk_7 V c t, iblk_8 V c t, iblk_9 V c t, iblk_10 V c t, iblk_11 V c t, iblk_12 V c t]
  funext j
  show (ramp (mlpCore (iblk1 V c 0 t) (V c main_v82) (row (V c main_v105)) (row (V c main_v108)) (row (V c main_v109)) (row (V c main_v106)) (row (V c main_v107)) (V c main_v94) (row (V c main_v110)) (row (V c main_v113)) (row (V c main_v114)) (row (V c main_v111)) (row (V c main_v112)))) j = G V c (((cfg1.win 13).blk t).view.emb j)
  unfold G
  refine tile_value (V c main_v80) (iblk1 V c 0 t) (V c main_v82) (V c main_v105) (V c main_v106) (V c main_v107) (V c main_v108) (V c main_v109) (V c main_v94) (V c main_v110) (V c main_v111) (V c main_v112) (V c main_v113) (V c main_v114) t.val
    (fun y k e0 e1 => iblk_x V c t y k e0 e1) j _ ?_ ?_
  · show win1_13.index t 0 * 512 + 1 * (j 0).val = 512 * t.val + (j 0).val; rw [h0]; omega
  · show win1_13.index t 1 * 128 + 1 * (j 1).val = (j 1).val; rw [h1]; omega

/-- An index of the output array is in point t's block iff each coordinate is in the block's range on its axis. -/
theorem mem_blk (t : Fin cfg1.N) (i : S512x128.Idx) :
    i ∈ ((cfg1.win 13).blk t).view.set ↔ ∀ a : Fin 2, win1_13.index t a * S512x128.size a ≤ (i a).val ∧ (i a).val < win1_13.index t a * S512x128.size a + S512x128.size a := by
  show i ∈ ((View.whole main_v115).slice (win1_13.rect t)).set ↔ _
  rw [View.set_slice_whole, Rect.mem_set_unit]
  exact Iff.rfl

/-- THE ARRAY after the launch: G of the entry arrays. -/
theorem final (c : Dev nD) : (dat1 V c).arrAt 13 cfg1.N = G V c :=
  (dat1 V c).arrAt_eq_of_cover 13 (G V c) (flushed_eq V c) fun i => by
    have hi0 : (i 0).val < 512 := (i 0).isLt
    have hi1 : (i 1).val < 128 := (i 1).isLt
    have hN : cfg1.N = 1 := N_1
    refine ⟨⟨(i 0).val / 512, by rw [hN]; omega⟩, flush1_13 _, ?_⟩
    rw [mem_blk]
    obtain ⟨-, -, h0, h1, -⟩ := idx_facts ⟨(i 0).val / 512, by rw [hN]; omega⟩
    intro a
    match a with
    | ⟨0, _⟩ => show win1_13.index _ 0 * 512 ≤ (i 0).val ∧ (i 0).val < win1_13.index _ 0 * 512 + 512; rw [h0]; show (i 0).val / 512 * 512 ≤ _ ∧ _ < (i 0).val / 512 * 512 + 512; omega
    | ⟨1, _⟩ => show win1_13.index _ 1 * 128 ≤ (i 1).val ∧ (i 1).val < win1_13.index _ 1 * 128 + 128; rw [h1]; omega

end Cert.KernelIdeal.Reg1

end
-- ==== Proof.KR2.lean ====
/-
  Launch 2 of the two-layer kernel (the node array, 50 tiles of 2000 rows), at arbitrary entry contents V: after the launch its output array holds
  the two-layer normalised map with its last ramp of the entry arrays, row by row.

  At grid point t the body reads rows 2000·t … 2000·t + 1999 of the first array and the twelve parameter arrays whole, computes the
  map on that tile, and writes the tile back to the same rows of the output array. An entry of the map reads one row of its
  first argument, so the tile's value at (a, q) is the whole array's value at (2000·t + a, q); the 50 tiles cover every row.
-/
import proofs.«116444_j64183991272049_2_alg».proof.Proof.Gen.KernelIdeal.Frame
import proofs.«116444_j64183991272049_2_alg».proof.Proof.LibNormLayer
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Reg2

open Cert.KernelIdeal Cert.KernelIdeal.Gen Cert.LibNormLayer

variable (V : (c : Dev nD) → (b : Ref sig .tc) → Buf (Elt Ideal) ((c : Thread nD τ).loc b))

theorem hz : (![0, 0] : Fin 2 → Nat) = fun _ => 0 := funext fun a => by fin_cases a <;> rfl

/-- A [1,k] array's one row, as a function of the lane. -/
abbrev row {k : Nat} (r : (⟨2, ![1, k]⟩ : Shape).Idx → EReal) : Fin k → EReal := fun q => r (ix2 (0 : Fin 1) q)

/-- The body's arithmetic on its loaded blocks is the two-layer map of the tile. -/
theorem pay_eq (x0 : Vec Ideal S2000x128 .f32) (x1 : Vec Ideal S128x256 .f32) (x2 x3 x4 x5 x6 : Vec Ideal S1x256 .f32)
    (x7 : Vec Ideal S256x128 .f32) (x8 x9 x10 x11 x12 : Vec Ideal S1x128 .f32) :
    k2_pay1 (k2_pay2 x0 x1 x2 x5 x6 x3 x4 x7) x8 x11 x12 x9 x10
      = ramp (mlpCore x0 x1 (row x2) (row x5) (row x6) (row x3) (row x4) x7 (row x8) (row x11) (row x12) (row x9) (row x10)) := by
  unfold k2_pay1 k2_pay2
  dsimp only
  have e1 := tile_normLin dot_S2000x128_S128x256_S2000x256_1_0_0_1_n_n rfl bitsLt_bf16_f32 shapeCasts_S1x256_S1x256 broadcasts_S1x256_S2000x256 x0 x1 x2 x5 x6 x3 x4
  simp only [shapeCast_self] at e1 ⊢
  rw [e1, tile_ramp]
  have e2 := fun A => tile_normLin dot_S2000x256_S256x128_S2000x128_1_0_0_1_n_n rfl bitsLt_bf16_f32 shapeCasts_S1x128_S1x128 broadcasts_S1x128_S2000x128 A x7 x8 x11 x12 x9 x10
  simp only [shapeCast_self] at e2
  rw [e2, tile_ramp]
  rfl

/-- What the launch leaves in its output array, as one function of the entry arrays. -/
def G (c : Dev nD) : S100000x128.Idx → EReal :=
  ramp (mlpCore (V c main_v144) (V c main_v146) (row (V c main_v169)) (row (V c main_v172)) (row (V c main_v173)) (row (V c main_v170)) (row (V c main_v171)) (V c main_v158) (row (V c main_v174)) (row (V c main_v177)) (row (V c main_v178)) (row (V c main_v175)) (row (V c main_v176)))

/-- The printed index maps, decided over the grid: the tiled windows move with the point, the parameter windows stay. -/
theorem idx_facts : ∀ t : Fin cfg2.N, win2_0.index t (0 : Fin 2) = t.val ∧ win2_0.index t (1 : Fin 2) = 0
    ∧ win2_13.index t (0 : Fin 2) = t.val ∧ win2_13.index t (1 : Fin 2) = 0
    ∧ (∀ a : Fin 2, win2_1.index t a = 0)
    ∧ (∀ a : Fin 2, win2_2.index t a = 0)
    ∧ (∀ a : Fin 2, win2_3.index t a = 0)
    ∧ (∀ a : Fin 2, win2_4.index t a = 0)
    ∧ (∀ a : Fin 2, win2_5.index t a = 0)
    ∧ (∀ a : Fin 2, win2_6.index t a = 0)
    ∧ (∀ a : Fin 2, win2_7.index t a = 0)
    ∧ (∀ a : Fin 2, win2_8.index t a = 0)
    ∧ (∀ a : Fin 2, win2_9.index t a = 0)
    ∧ (∀ a : Fin 2, win2_10.index t a = 0)
    ∧ (∀ a : Fin 2, win2_11.index t a = 0)
    ∧ (∀ a : Fin 2, win2_12.index t a = 0) :=
  (by decide +kernel : ∀ t : Fin grid2.N, _)

/-- The first window's block at point t is rows 2000·t … of its array. -/
theorem iblk_x (c : Dev nD) (t : Fin cfg2.N) (x : S2000x128.Idx) (k : S100000x128.Idx)
    (hk0 : (k 0).val = 2000 * t.val + (x 0).val) (hk1 : (k 1).val = (x 1).val) :
    (iblk2 V c 0 t : Vec Ideal S2000x128 .f32) x = (V c main_v144 : S100000x128.Idx → EReal) k := by
  obtain ⟨h0, h1, -⟩ := idx_facts t
  unfold iblk2
  rw [View.read_apply]
  show V c main_v144 _ = V c main_v144 _
  congr 1
  funext a
  apply Fin.ext
  match a with
  | ⟨0, _⟩ => show win2_0.index t 0 * 2000 + 1 * (x 0).val = (k 0).val; rw [h0, hk0]; omega
  | ⟨1, _⟩ => show win2_0.index t 1 * 128 + 1 * (x 1).val = (k 1).val; rw [h1, hk1]; omega

theorem iblk_1 (c : Dev nD) (t : Fin cfg2.N) : (iblk2 V c 1 t : Vec Ideal S128x256 .f32) = (V c main_v146 : S128x256.Idx → EReal) := by
  have hw := (idx_facts t).2.2.2.2.1
  funext x
  unfold iblk2
  rw [View.read_apply]
  show V c main_v146 _ = V c main_v146 x
  congr 1
  funext a
  apply Fin.ext
  match a with
  | ⟨0, _⟩ => show win2_1.index t 0 * 128 + 1 * (x 0).val = (x 0).val; rw [hw 0]; omega
  | ⟨1, _⟩ => show win2_1.index t 1 * 256 + 1 * (x 1).val = (x 1).val; rw [hw 1]; omega

theorem iblk_2 (c : Dev nD) (t : Fin cfg2.N) : (iblk2 V c 2 t : Vec Ideal S1x256 .f32) = (V c main_v169 : S1x256.Idx → EReal) := by
  have hw := (idx_facts t).2.2.2.2.2.1
  funext x
  unfold iblk2
  rw [View.read_apply]
  show V c main_v169 _ = V c main_v169 x
  congr 1
  funext a
  apply Fin.ext
  match a with
  | ⟨0, _⟩ => show win2_2.index t 0 * 1 + 1 * (x 0).val = (x 0).val; rw [hw 0]; omega
  | ⟨1, _⟩ => show win2_2.index t 1 * 256 + 1 * (x 1).val = (x 1).val; rw [hw 1]; omega

theorem iblk_3 (c : Dev nD) (t : Fin cfg2.N) : (iblk2 V c 3 t : Vec Ideal S1x256 .f32) = (V c main_v170 : S1x256.Idx → EReal) := by
  have hw := (idx_facts t).2.2.2.2.2.2.1
  funext x
  unfold iblk2
  rw [View.read_apply]
  show V c main_v170 _ = V c main_v170 x
  congr 1
  funext a
  apply Fin.ext
  match a with
  | ⟨0, _⟩ => show win2_3.index t 0 * 1 + 1 * (x 0).val = (x 0).val; rw [hw 0]; omega
  | ⟨1, _⟩ => show win2_3.index t 1 * 256 + 1 * (x 1).val = (x 1).val; rw [hw 1]; omega

theorem iblk_4 (c : Dev nD) (t : Fin cfg2.N) : (iblk2 V c 4 t : Vec Ideal S1x256 .f32) = (V c main_v171 : S1x256.Idx → EReal) := by
  have hw := (idx_facts t).2.2.2.2.2.2.2.1
  funext x
  unfold iblk2
  rw [View.read_apply]
  show V c main_v171 _ = V c main_v171 x
  congr 1
  funext a
  apply Fin.ext
  match a with
  | ⟨0, _⟩ => show win2_4.index t 0 * 1 + 1 * (x 0).val = (x 0).val; rw [hw 0]; omega
  | ⟨1, _⟩ => show win2_4.index t 1 * 256 + 1 * (x 1).val = (x 1).val; rw [hw 1]; omega

theorem iblk_5 (c : Dev nD) (t : Fin cfg2.N) : (iblk2 V c 5 t : Vec Ideal S1x256 .f32) = (V c main_v172 : S1x256.Idx → EReal) := by
  have hw := (idx_facts t).2.2.2.2.2.2.2.2.1
  funext x
  unfold iblk2
  rw [View.read_apply]
  show V c main_v172 _ = V c main_v172 x
  congr 1
  funext a
  apply Fin.ext
  match a with
  | ⟨0, _⟩ => show win2_5.index t 0 * 1 + 1 * (x 0).val = (x 0).val; rw [hw 0]; omega
  | ⟨1, _⟩ => show win2_5.index t 1 * 256 + 1 * (x 1).val = (x 1).val; rw [hw 1]; omega

theorem iblk_6 (c : Dev nD) (t : Fin cfg2.N) : (iblk2 V c 6 t : Vec Ideal S1x256 .f32) = (V c main_v173 : S1x256.Idx → EReal) := by
  have hw := (idx_facts t).2.2.2.2.2.2.2.2.2.1
  funext x
  unfold iblk2
  rw [View.read_apply]
  show V c main_v173 _ = V c main_v173 x
  congr 1
  funext a
  apply Fin.ext
  match a with
  | ⟨0, _⟩ => show win2_6.index t 0 * 1 + 1 * (x 0).val = (x 0).val; rw [hw 0]; omega
  | ⟨1, _⟩ => show win2_6.index t 1 * 256 + 1 * (x 1).val = (x 1).val; rw [hw 1]; omega

theorem iblk_7 (c : Dev nD) (t : Fin cfg2.N) : (iblk2 V c 7 t : Vec Ideal S256x128 .f32) = (V c main_v158 : S256x128.Idx → EReal) := by
  have hw := (idx_facts t).2.2.2.2.2.2.2.2.2.2.1
  funext x
  unfold iblk2
  rw [View.read_apply]
  show V c main_v158 _ = V c main_v158 x
  congr 1
  funext a
  apply Fin.ext
  match a with
  | ⟨0, _⟩ => show win2_7.index t 0 * 256 + 1 * (x 0).val = (x 0).val; rw [hw 0]; omega
  | ⟨1, _⟩ => show win2_7.index t 1 * 128 + 1 * (x 1).val = (x 1).val; rw [hw 1]; omega

theorem iblk_8 (c : Dev nD) (t : Fin cfg2.N) : (iblk2 V c 8 t : Vec Ideal S1x128 .f32) = (V c main_v174 : S1x128.Idx → EReal) := by
  have hw := (idx_facts t).2.2.2.2.2.2.2.2.2.2.2.1
  funext x
  unfold iblk2
  rw [View.read_apply]
  show V c main_v174 _ = V c main_v174 x
  congr 1
  funext a
  apply Fin.ext
  match a with
  | ⟨0, _⟩ => show win2_8.index t 0 * 1 + 1 * (x 0).val = (x 0).val; rw [hw 0]; omega
  | ⟨1, _⟩ => show win2_8.index t 1 * 128 + 1 * (x 1).val = (x 1).val; rw [hw 1]; omega

theorem iblk_9 (c : Dev nD) (t : Fin cfg2.N) : (iblk2 V c 9 t : Vec Ideal S1x128 .f32) = (V c main_v175 : S1x128.Idx → EReal) := by
  have hw := (idx_facts t).2.2.2.2.2.2.2.2.2.2.2.2.1
  funext x
  unfold iblk2
  rw [View.read_apply]
  show V c main_v175 _ = V c main_v175 x
  congr 1
  funext a
  apply Fin.ext
  match a with
  | ⟨0, _⟩ => show win2_9.index t 0 * 1 + 1 * (x 0).val = (x 0).val; rw [hw 0]; omega
  | ⟨1, _⟩ => show win2_9.index t 1 * 128 + 1 * (x 1).val = (x 1).val; rw [hw 1]; omega

theorem iblk_10 (c : Dev nD) (t : Fin cfg2.N) : (iblk2 V c 10 t : Vec Ideal S1x128 .f32) = (V c main_v176 : S1x128.Idx → EReal) := by
  have hw := (idx_facts t).2.2.2.2.2.2.2.2.2.2.2.2.2.1
  funext x
  unfold iblk2
  rw [View.read_apply]
  show V c main_v176 _ = V c main_v176 x
  congr 1
  funext a
  apply Fin.ext
  match a with
  | ⟨0, _⟩ => show win2_10.index t 0 * 1 + 1 * (x 0).val = (x 0).val; rw [hw 0]; omega
  | ⟨1, _⟩ => show win2_10.index t 1 * 128 + 1 * (x 1).val = (x 1).val; rw [hw 1]; omega

theorem iblk_11 (c : Dev nD) (t : Fin cfg2.N) : (iblk2 V c 11 t : Vec Ideal S1x128 .f32) = (V c main_v177 : S1x128.Idx → EReal) := by
  have hw := (idx_facts t).2.2.2.2.2.2.2.2.2.2.2.2.2.2.1
  funext x
  unfold iblk2
  rw [View.read_apply]
  show V c main_v177 _ = V c main_v177 x
  congr 1
  funext a
  apply Fin.ext
  match a with
  | ⟨0, _⟩ => show win2_11.index t 0 * 1 + 1 * (x 0).val = (x 0).val; rw [hw 0]; omega
  | ⟨1, _⟩ => show win2_11.index t 1 * 128 + 1 * (x 1).val = (x 1).val; rw [hw 1]; omega

theorem iblk_12 (c : Dev nD) (t : Fin cfg2.N) : (iblk2 V c 12 t : Vec Ideal S1x128 .f32) = (V c main_v178 : S1x128.Idx → EReal) := by
  have hw := (idx_facts t).2.2.2.2.2.2.2.2.2.2.2.2.2.2.2
  funext x
  unfold iblk2
  rw [View.read_apply]
  show V c main_v178 _ = V c main_v178 x
  congr 1
  funext a
  apply Fin.ext
  match a with
  | ⟨0, _⟩ => show win2_12.index t 0 * 1 + 1 * (x 0).val = (x 0).val; rw [hw 0]; omega
  | ⟨1, _⟩ => show win2_12.index t 1 * 128 + 1 * (x 1).val = (x 1).val; rw [hw 1]; omega

/-- A tile that holds rows 2000·T … of an array has, at each of its rows, the whole array's value of the map at that row. -/
theorem tile_value (X : S100000x128.Idx → EReal) (xb : Vec Ideal S2000x128 .f32) (W1 : S128x256.Idx → EReal) (r2 r3 r4 r5 r6 : S1x256.Idx → EReal)
    (W2 : S256x128.Idx → EReal) (r8 r9 r10 r11 r12 : S1x128.Idx → EReal) (T : Nat)
    (hx : ∀ (y : S2000x128.Idx) (k : S100000x128.Idx), (k 0).val = 2000 * T + (y 0).val → (k 1).val = (y 1).val → xb y = X k)
    (y : S2000x128.Idx) (k : S100000x128.Idx) (hk0 : (k 0).val = 2000 * T + (y 0).val) (hk1 : (k 1).val = (y 1).val) :
    (ramp (mlpCore xb W1 (row r2) (row r5) (row r6) (row r3) (row r4) W2 (row r8) (row r11) (row r12) (row r9) (row r10))) y
      = (ramp (mlpCore X W1 (row r2) (row r5) (row r6) (row r3) (row r4) W2 (row r8) (row r11) (row r12) (row r9) (row r10))) k := by
  obtain ⟨a, q, rfl⟩ : ∃ (a : Fin 2000) (q : Fin 128), y = ix2 a q := ⟨y 0, y 1, eq_ix2 y⟩
  obtain ⟨A, q', rfl⟩ : ∃ (A : Fin 100000) (q' : Fin 128), k = ix2 A q' := ⟨k 0, k 1, eq_ix2 k⟩
  have hq : q' = q := Fin.ext hk1
  subst hq
  exact ramp_mlpCore_rows X xb W1 (row r2) (row r5) (row r6) (row r3) (row r4) W2 (row r8) (row r11) (row r12) (row r9) (row r10) a A q'
    (fun c' => hx (ix2 a c') (ix2 A c') hk0 rfl)

/-- What point t writes back is block t of G. -/
theorem flushed_eq (c : Dev nD) (t : Fin cfg2.N) (hf : (cfg2.win 13).flush t = true) :
    (dat2 V c).flushed 13 t = ((cfg2.win 13).blk t).view.read (Elt Ideal) (G V c) := by
  obtain ⟨-, -, h0, h1, -⟩ := idx_facts t
  show (cfg2.win 13).cut (grid2.coords t) ((dat2 V c).after 13 t) = _
  rw [after2_13]
  unfold out2_13
  rw [View.canon_unit_zero hz]
  simp only [View.ld_unit_zero (S := S2000x128) hz, View.ld_unit_zero (S := S128x256) hz, View.ld_unit_zero (S := S1x256) hz,
    View.ld_unit_zero (S := S256x128) hz, View.ld_unit_zero (S := S1x128) hz]
  rw [pay_eq, iblk_1 V c t, iblk_2 V c t, iblk_3 V c t, iblk_4 V c t, iblk_5 V c t, iblk_6 V c t, iblk_7 V c t, iblk_8 V c t, iblk_9 V c t, iblk_10 V c t, iblk_11 V c t, iblk_12 V c t]
  funext j
  show (ramp (mlpCore (iblk2 V c 0 t) (V c main_v146) (row (V c main_v169)) (row (V c main_v172)) (row (V c main_v173)) (row (V c main_v170)) (row (V c main_v171)) (V c main_v158) (row (V c main_v174)) (row (V c main_v177)) (row (V c main_v178)) (row (V c main_v175)) (row (V c main_v176)))) j = G V c (((cfg2.win 13).blk t).view.emb j)
  unfold G
  refine tile_value (V c main_v144) (iblk2 V c 0 t) (V c main_v146) (V c main_v169) (V c main_v170) (V c main_v171) (V c main_v172) (V c main_v173) (V c main_v158) (V c main_v174) (V c main_v175) (V c main_v176) (V c main_v177) (V c main_v178) t.val
    (fun y k e0 e1 => iblk_x V c t y k e0 e1) j _ ?_ ?_
  · show win2_13.index t 0 * 2000 + 1 * (j 0).val = 2000 * t.val + (j 0).val; rw [h0]; omega
  · show win2_13.index t 1 * 128 + 1 * (j 1).val = (j 1).val; rw [h1]; omega

/-- An index of the output array is in point t's block iff each coordinate is in the block's range on its axis. -/
theorem mem_blk (t : Fin cfg2.N) (i : S100000x128.Idx) :
    i ∈ ((cfg2.win 13).blk t).view.set ↔ ∀ a : Fin 2, win2_13.index t a * S2000x128.size a ≤ (i a).val ∧ (i a).val < win2_13.index t a * S2000x128.size a + S2000x128.size a := by
  show i ∈ ((View.whole main_v179).slice (win2_13.rect t)).set ↔ _
  rw [View.set_slice_whole, Rect.mem_set_unit]
  exact Iff.rfl

/-- THE ARRAY after the launch: G of the entry arrays. -/
theorem final (c : Dev nD) : (dat2 V c).arrAt 13 cfg2.N = G V c :=
  (dat2 V c).arrAt_eq_of_cover 13 (G V c) (flushed_eq V c) fun i => by
    have hi0 : (i 0).val < 100000 := (i 0).isLt
    have hi1 : (i 1).val < 128 := (i 1).isLt
    have hN : cfg2.N = 50 := N_2
    refine ⟨⟨(i 0).val / 2000, by rw [hN]; omega⟩, flush2_13 _, ?_⟩
    rw [mem_blk]
    obtain ⟨-, -, h0, h1, -⟩ := idx_facts ⟨(i 0).val / 2000, by rw [hN]; omega⟩
    intro a
    match a with
    | ⟨0, _⟩ => show win2_13.index _ 0 * 2000 ≤ (i 0).val ∧ (i 0).val < win2_13.index _ 0 * 2000 + 2000; rw [h0]; show (i 0).val / 2000 * 2000 ≤ _ ∧ _ < (i 0).val / 2000 * 2000 + 2000; omega
    | ⟨1, _⟩ => show win2_13.index _ 1 * 128 ≤ (i 1).val ∧ (i 1).val < win2_13.index _ 1 * 128 + 128; rw [h1]; omega

end Cert.KernelIdeal.Reg2

end
-- ==== Proof.KR3.lean ====
/-
  Launch 3 of the two-layer kernel (the graph table, one tile of 512 rows), at arbitrary entry contents V: after the launch its output array holds
  the two-layer normalised map with its last ramp of the entry arrays, row by row.

  At grid point t the body reads rows 512·t … 512·t + 511 of the first array and the twelve parameter arrays whole, computes the
  map on that tile, and writes the tile back to the same rows of the output array. An entry of the map reads one row of its
  first argument, so the tile's value at (a, q) is the whole array's value at (512·t + a, q); the 1 tile covers every row.
-/
import proofs.«116444_j64183991272049_2_alg».proof.Proof.Gen.KernelIdeal.Frame
import proofs.«116444_j64183991272049_2_alg».proof.Proof.LibNormLayer
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Reg3

open Cert.KernelIdeal Cert.KernelIdeal.Gen Cert.LibNormLayer

variable (V : (c : Dev nD) → (b : Ref sig .tc) → Buf (Elt Ideal) ((c : Thread nD τ).loc b))

theorem hz : (![0, 0] : Fin 2 → Nat) = fun _ => 0 := funext fun a => by fin_cases a <;> rfl

/-- A [1,k] array's one row, as a function of the lane. -/
abbrev row {k : Nat} (r : (⟨2, ![1, k]⟩ : Shape).Idx → EReal) : Fin k → EReal := fun q => r (ix2 (0 : Fin 1) q)

/-- The body's arithmetic on its loaded blocks is the two-layer map of the tile. -/
theorem pay_eq (x0 : Vec Ideal S512x128 .f32) (x1 : Vec Ideal S128x256 .f32) (x2 x3 x4 x5 x6 : Vec Ideal S1x256 .f32)
    (x7 : Vec Ideal S256x128 .f32) (x8 x9 x10 x11 x12 : Vec Ideal S1x128 .f32) :
    k3_pay1 (k3_pay2 x0 x1 x2 x5 x6 x3 x4 x7) x8 x11 x12 x9 x10
      = ramp (mlpCore x0 x1 (row x2) (row x5) (row x6) (row x3) (row x4) x7 (row x8) (row x11) (row x12) (row x9) (row x10)) := by
  unfold k3_pay1 k3_pay2
  dsimp only
  have e1 := tile_normLin dot_S512x128_S128x256_S512x256_1_0_0_1_n_n rfl bitsLt_bf16_f32 shapeCasts_S1x256_S1x256 broadcasts_S1x256_S512x256 x0 x1 x2 x5 x6 x3 x4
  simp only [shapeCast_self] at e1 ⊢
  rw [e1, tile_ramp]
  have e2 := fun A => tile_normLin dot_S512x256_S256x128_S512x128_1_0_0_1_n_n rfl bitsLt_bf16_f32 shapeCasts_S1x128_S1x128 broadcasts_S1x128_S512x128 A x7 x8 x11 x12 x9 x10
  simp only [shapeCast_self] at e2
  rw [e2, tile_ramp]
  rfl

/-- What the launch leaves in its output array, as one function of the entry arrays. -/
def G (c : Dev nD) : S512x128.Idx → EReal :=
  ramp (mlpCore (V c main_v183) (V c main_v185) (row (V c main_v208)) (row (V c main_v211)) (row (V c main_v212)) (row (V c main_v209)) (row (V c main_v210)) (V c main_v197) (row (V c main_v213)) (row (V c main_v216)) (row (V c main_v217)) (row (V c main_v214)) (row (V c main_v215)))

/-- The printed index maps, decided over the grid: the tiled windows move with the point, the parameter windows stay. -/
theorem idx_facts : ∀ t : Fin cfg3.N, win3_0.index t (0 : Fin 2) = t.val ∧ win3_0.index t (1 : Fin 2) = 0
    ∧ win3_13.index t (0 : Fin 2) = t.val ∧ win3_13.index t (1 : Fin 2) = 0
    ∧ (∀ a : Fin 2, win3_1.index t a = 0)
    ∧ (∀ a : Fin 2, win3_2.index t a = 0)
    ∧ (∀ a : Fin 2, win3_3.index t a = 0)
    ∧ (∀ a : Fin 2, win3_4.index t a = 0)
    ∧ (∀ a : Fin 2, win3_5.index t a = 0)
    ∧ (∀ a : Fin 2, win3_6.index t a = 0)
    ∧ (∀ a : Fin 2, win3_7.index t a = 0)
    ∧ (∀ a : Fin 2, win3_8.index t a = 0)
    ∧ (∀ a : Fin 2, win3_9.index t a = 0)
    ∧ (∀ a : Fin 2, win3_10.index t a = 0)
    ∧ (∀ a : Fin 2, win3_11.index t a = 0)
    ∧ (∀ a : Fin 2, win3_12.index t a = 0) :=
  (by decide +kernel : ∀ t : Fin grid3.N, _)

/-- The first window's block at point t is rows 512·t … of its array. -/
theorem iblk_x (c : Dev nD) (t : Fin cfg3.N) (x : S512x128.Idx) (k : S512x128.Idx)
    (hk0 : (k 0).val = 512 * t.val + (x 0).val) (hk1 : (k 1).val = (x 1).val) :
    (iblk3 V c 0 t : Vec Ideal S512x128 .f32) x = (V c main_v183 : S512x128.Idx → EReal) k := by
  obtain ⟨h0, h1, -⟩ := idx_facts t
  unfold iblk3
  rw [View.read_apply]
  show V c main_v183 _ = V c main_v183 _
  congr 1
  funext a
  apply Fin.ext
  match a with
  | ⟨0, _⟩ => show win3_0.index t 0 * 512 + 1 * (x 0).val = (k 0).val; rw [h0, hk0]; omega
  | ⟨1, _⟩ => show win3_0.index t 1 * 128 + 1 * (x 1).val = (k 1).val; rw [h1, hk1]; omega

theorem iblk_1 (c : Dev nD) (t : Fin cfg3.N) : (iblk3 V c 1 t : Vec Ideal S128x256 .f32) = (V c main_v185 : S128x256.Idx → EReal) := by
  have hw := (idx_facts t).2.2.2.2.1
  funext x
  unfold iblk3
  rw [View.read_apply]
  show V c main_v185 _ = V c main_v185 x
  congr 1
  funext a
  apply Fin.ext
  match a with
  | ⟨0, _⟩ => show win3_1.index t 0 * 128 + 1 * (x 0).val = (x 0).val; rw [hw 0]; omega
  | ⟨1, _⟩ => show win3_1.index t 1 * 256 + 1 * (x 1).val = (x 1).val; rw [hw 1]; omega

theorem iblk_2 (c : Dev nD) (t : Fin cfg3.N) : (iblk3 V c 2 t : Vec Ideal S1x256 .f32) = (V c main_v208 : S1x256.Idx → EReal) := by
  have hw := (idx_facts t).2.2.2.2.2.1
  funext x
  unfold iblk3
  rw [View.read_apply]
  show V c main_v208 _ = V c main_v208 x
  congr 1
  funext a
  apply Fin.ext
  match a with
  | ⟨0, _⟩ => show win3_2.index t 0 * 1 + 1 * (x 0).val = (x 0).val; rw [hw 0]; omega
  | ⟨1, _⟩ => show win3_2.index t 1 * 256 + 1 * (x 1).val = (x 1).val; rw [hw 1]; omega

theorem iblk_3 (c : Dev nD) (t : Fin cfg3.N) : (iblk3 V c 3 t : Vec Ideal S1x256 .f32) = (V c main_v209 : S1x256.Idx → EReal) := by
  have hw := (idx_facts t).2.2.2.2.2.2.1
  funext x
  unfold iblk3
  rw [View.read_apply]
  show V c main_v209 _ = V c main_v209 x
  congr 1
  funext a
  apply Fin.ext
  match a with
  | ⟨0, _⟩ => show win3_3.index t 0 * 1 + 1 * (x 0).val = (x 0).val; rw [hw 0]; omega
  | ⟨1, _⟩ => show win3_3.index t 1 * 256 + 1 * (x 1).val = (x 1).val; rw [hw 1]; omega

theorem iblk_4 (c : Dev nD) (t : Fin cfg3.N) : (iblk3 V c 4 t : Vec Ideal S1x256 .f32) = (V c main_v210 : S1x256.Idx → EReal) := by
  have hw := (idx_facts t).2.2.2.2.2.2.2.1
  funext x
  unfold iblk3
  rw [View.read_apply]
  show V c main_v210 _ = V c main_v210 x
  congr 1
  funext a
  apply Fin.ext
  match a with
  | ⟨0, _⟩ => show win3_4.index t 0 * 1 + 1 * (x 0).val = (x 0).val; rw [hw 0]; omega
  | ⟨1, _⟩ => show win3_4.index t 1 * 256 + 1 * (x 1).val = (x 1).val; rw [hw 1]; omega

theorem iblk_5 (c : Dev nD) (t : Fin cfg3.N) : (iblk3 V c 5 t : Vec Ideal S1x256 .f32) = (V c main_v211 : S1x256.Idx → EReal) := by
  have hw := (idx_facts t).2.2.2.2.2.2.2.2.1
  funext x
  unfold iblk3
  rw [View.read_apply]
  show V c main_v211 _ = V c main_v211 x
  congr 1
  funext a
  apply Fin.ext
  match a with
  | ⟨0, _⟩ => show win3_5.index t 0 * 1 + 1 * (x 0).val = (x 0).val; rw [hw 0]; omega
  | ⟨1, _⟩ => show win3_5.index t 1 * 256 + 1 * (x 1).val = (x 1).val; rw [hw 1]; omega

theorem iblk_6 (c : Dev nD) (t : Fin cfg3.N) : (iblk3 V c 6 t : Vec Ideal S1x256 .f32) = (V c main_v212 : S1x256.Idx → EReal) := by
  have hw := (idx_facts t).2.2.2.2.2.2.2.2.2.1
  funext x
  unfold iblk3
  rw [View.read_apply]
  show V c main_v212 _ = V c main_v212 x
  congr 1
  funext a
  apply Fin.ext
  match a with
  | ⟨0, _⟩ => show win3_6.index t 0 * 1 + 1 * (x 0).val = (x 0).val; rw [hw 0]; omega
  | ⟨1, _⟩ => show win3_6.index t 1 * 256 + 1 * (x 1).val = (x 1).val; rw [hw 1]; omega

theorem iblk_7 (c : Dev nD) (t : Fin cfg3.N) : (iblk3 V c 7 t : Vec Ideal S256x128 .f32) = (V c main_v197 : S256x128.Idx → EReal) := by
  have hw := (idx_facts t).2.2.2.2.2.2.2.2.2.2.1
  funext x
  unfold iblk3
  rw [View.read_apply]
  show V c main_v197 _ = V c main_v197 x
  congr 1
  funext a
  apply Fin.ext
  match a with
  | ⟨0, _⟩ => show win3_7.index t 0 * 256 + 1 * (x 0).val = (x 0).val; rw [hw 0]; omega
  | ⟨1, _⟩ => show win3_7.index t 1 * 128 + 1 * (x 1).val = (x 1).val; rw [hw 1]; omega

theorem iblk_8 (c : Dev nD) (t : Fin cfg3.N) : (iblk3 V c 8 t : Vec Ideal S1x128 .f32) = (V c main_v213 : S1x128.Idx → EReal) := by
  have hw := (idx_facts t).2.2.2.2.2.2.2.2.2.2.2.1
  funext x
  unfold iblk3
  rw [View.read_apply]
  show V c main_v213 _ = V c main_v213 x
  congr 1
  funext a
  apply Fin.ext
  match a with
  | ⟨0, _⟩ => show win3_8.index t 0 * 1 + 1 * (x 0).val = (x 0).val; rw [hw 0]; omega
  | ⟨1, _⟩ => show win3_8.index t 1 * 128 + 1 * (x 1).val = (x 1).val; rw [hw 1]; omega

theorem iblk_9 (c : Dev nD) (t : Fin cfg3.N) : (iblk3 V c 9 t : Vec Ideal S1x128 .f32) = (V c main_v214 : S1x128.Idx → EReal) := by
  have hw := (idx_facts t).2.2.2.2.2.2.2.2.2.2.2.2.1
  funext x
  unfold iblk3
  rw [View.read_apply]
  show V c main_v214 _ = V c main_v214 x
  congr 1
  funext a
  apply Fin.ext
  match a with
  | ⟨0, _⟩ => show win3_9.index t 0 * 1 + 1 * (x 0).val = (x 0).val; rw [hw 0]; omega
  | ⟨1, _⟩ => show win3_9.index t 1 * 128 + 1 * (x 1).val = (x 1).val; rw [hw 1]; omega

theorem iblk_10 (c : Dev nD) (t : Fin cfg3.N) : (iblk3 V c 10 t : Vec Ideal S1x128 .f32) = (V c main_v215 : S1x128.Idx → EReal) := by
  have hw := (idx_facts t).2.2.2.2.2.2.2.2.2.2.2.2.2.1
  funext x
  unfold iblk3
  rw [View.read_apply]
  show V c main_v215 _ = V c main_v215 x
  congr 1
  funext a
  apply Fin.ext
  match a with
  | ⟨0, _⟩ => show win3_10.index t 0 * 1 + 1 * (x 0).val = (x 0).val; rw [hw 0]; omega
  | ⟨1, _⟩ => show win3_10.index t 1 * 128 + 1 * (x 1).val = (x 1).val; rw [hw 1]; omega

theorem iblk_11 (c : Dev nD) (t : Fin cfg3.N) : (iblk3 V c 11 t : Vec Ideal S1x128 .f32) = (V c main_v216 : S1x128.Idx → EReal) := by
  have hw := (idx_facts t).2.2.2.2.2.2.2.2.2.2.2.2.2.2.1
  funext x
  unfold iblk3
  rw [View.read_apply]
  show V c main_v216 _ = V c main_v216 x
  congr 1
  funext a
  apply Fin.ext
  match a with
  | ⟨0, _⟩ => show win3_11.index t 0 * 1 + 1 * (x 0).val = (x 0).val; rw [hw 0]; omega
  | ⟨1, _⟩ => show win3_11.index t 1 * 128 + 1 * (x 1).val = (x 1).val; rw [hw 1]; omega

theorem iblk_12 (c : Dev nD) (t : Fin cfg3.N) : (iblk3 V c 12 t : Vec Ideal S1x128 .f32) = (V c main_v217 : S1x128.Idx → EReal) := by
  have hw := (idx_facts t).2.2.2.2.2.2.2.2.2.2.2.2.2.2.2
  funext x
  unfold iblk3
  rw [View.read_apply]
  show V c main_v217 _ = V c main_v217 x
  congr 1
  funext a
  apply Fin.ext
  match a with
  | ⟨0, _⟩ => show win3_12.index t 0 * 1 + 1 * (x 0).val = (x 0).val; rw [hw 0]; omega
  | ⟨1, _⟩ => show win3_12.index t 1 * 128 + 1 * (x 1).val = (x 1).val; rw [hw 1]; omega

/-- A tile that holds rows 512·T … of an array has, at each of its rows, the whole array's value of the map at that row. -/
theorem tile_value (X : S512x128.Idx → EReal) (xb : Vec Ideal S512x128 .f32) (W1 : S128x256.Idx → EReal) (r2 r3 r4 r5 r6 : S1x256.Idx → EReal)
    (W2 : S256x128.Idx → EReal) (r8 r9 r10 r11 r12 : S1x128.Idx → EReal) (T : Nat)
    (hx : ∀ (y : S512x128.Idx) (k : S512x128.Idx), (k 0).val = 512 * T + (y 0).val → (k 1).val = (y 1).val → xb y = X k)
    (y : S512x128.Idx) (k : S512x128.Idx) (hk0 : (k 0).val = 512 * T + (y 0).val) (hk1 : (k 1).val = (y 1).val) :
    (ramp (mlpCore xb W1 (row r2) (row r5) (row r6) (row r3) (row r4) W2 (row r8) (row r11) (row r12) (row r9) (row r10))) y
      = (ramp (mlpCore X W1 (row r2) (row r5) (row r6) (row r3) (row r4) W2 (row r8) (row r11) (row r12) (row r9) (row r10))) k := by
  obtain ⟨a, q, rfl⟩ : ∃ (a : Fin 512) (q : Fin 128), y = ix2 a q := ⟨y 0, y 1, eq_ix2 y⟩
  obtain ⟨A, q', rfl⟩ : ∃ (A : Fin 512) (q' : Fin 128), k = ix2 A q' := ⟨k 0, k 1, eq_ix2 k⟩
  have hq : q' = q := Fin.ext hk1
  subst hq
  exact ramp_mlpCore_rows X xb W1 (row r2) (row r5) (row r6) (row r3) (row r4) W2 (row r8) (row r11) (row r12) (row r9) (row r10) a A q'
    (fun c' => hx (ix2 a c') (ix2 A c') hk0 rfl)

/-- What point t writes back is block t of G. -/
theorem flushed_eq (c : Dev nD) (t : Fin cfg3.N) (hf : (cfg3.win 13).flush t = true) :
    (dat3 V c).flushed 13 t = ((cfg3.win 13).blk t).view.read (Elt Ideal) (G V c) := by
  obtain ⟨-, -, h0, h1, -⟩ := idx_facts t
  show (cfg3.win 13).cut (grid3.coords t) ((dat3 V c).after 13 t) = _
  rw [after3_13]
  unfold out3_13
  rw [View.canon_unit_zero hz]
  simp only [View.ld_unit_zero (S := S512x128) hz, View.ld_unit_zero (S := S128x256) hz, View.ld_unit_zero (S := S1x256) hz,
    View.ld_unit_zero (S := S256x128) hz, View.ld_unit_zero (S := S1x128) hz]
  rw [pay_eq, iblk_1 V c t, iblk_2 V c t, iblk_3 V c t, iblk_4 V c t, iblk_5 V c t, iblk_6 V c t, iblk_7 V c t, iblk_8 V c t, iblk_9 V c t, iblk_10 V c t, iblk_11 V c t, iblk_12 V c t]
  funext j
  show (ramp (mlpCore (iblk3 V c 0 t) (V c main_v185) (row (V c main_v208)) (row (V c main_v211)) (row (V c main_v212)) (row (V c main_v209)) (row (V c main_v210)) (V c main_v197) (row (V c main_v213)) (row (V c main_v216)) (row (V c main_v217)) (row (V c main_v214)) (row (V c main_v215)))) j = G V c (((cfg3.win 13).blk t).view.emb j)
  unfold G
  refine tile_value (V c main_v183) (iblk3 V c 0 t) (V c main_v185) (V c main_v208) (V c main_v209) (V c main_v210) (V c main_v211) (V c main_v212) (V c main_v197) (V c main_v213) (V c main_v214) (V c main_v215) (V c main_v216) (V c main_v217) t.val
    (fun y k e0 e1 => iblk_x V c t y k e0 e1) j _ ?_ ?_
  · show win3_13.index t 0 * 512 + 1 * (j 0).val = 512 * t.val + (j 0).val; rw [h0]; omega
  · show win3_13.index t 1 * 128 + 1 * (j 1).val = (j 1).val; rw [h1]; omega

/-- An index of the output array is in point t's block iff each coordinate is in the block's range on its axis. -/
theorem mem_blk (t : Fin cfg3.N) (i : S512x128.Idx) :
    i ∈ ((cfg3.win 13).blk t).view.set ↔ ∀ a : Fin 2, win3_13.index t a * S512x128.size a ≤ (i a).val ∧ (i a).val < win3_13.index t a * S512x128.size a + S512x128.size a := by
  show i ∈ ((View.whole main_v218).slice (win3_13.rect t)).set ↔ _
  rw [View.set_slice_whole, Rect.mem_set_unit]
  exact Iff.rfl

/-- THE ARRAY after the launch: G of the entry arrays. -/
theorem final (c : Dev nD) : (dat3 V c).arrAt 13 cfg3.N = G V c :=
  (dat3 V c).arrAt_eq_of_cover 13 (G V c) (flushed_eq V c) fun i => by
    have hi0 : (i 0).val < 512 := (i 0).isLt
    have hi1 : (i 1).val < 128 := (i 1).isLt
    have hN : cfg3.N = 1 := N_3
    refine ⟨⟨(i 0).val / 512, by rw [hN]; omega⟩, flush3_13 _, ?_⟩
    rw [mem_blk]
    obtain ⟨-, -, h0, h1, -⟩ := idx_facts ⟨(i 0).val / 512, by rw [hN]; omega⟩
    intro a
    match a with
    | ⟨0, _⟩ => show win3_13.index _ 0 * 512 ≤ (i 0).val ∧ (i 0).val < win3_13.index _ 0 * 512 + 512; rw [h0]; show (i 0).val / 512 * 512 ≤ _ ∧ _ < (i 0).val / 512 * 512 + 512; omega
    | ⟨1, _⟩ => show win3_13.index _ 1 * 128 ≤ (i 1).val ∧ (i 1).val < win3_13.index _ 1 * 128 + 128; rw [h1]; omega

end Cert.KernelIdeal.Reg3

end
-- ==== Proof.KR4.lean ====
/-
  Launch 4 of the two-layer kernel (the node array, 50 tiles of 2000 rows), at arbitrary entry contents V: after the launch its output array holds
  the two-layer normalised map with its last ramp of the entry arrays, row by row.

  At grid point t the body reads rows 2000·t … 2000·t + 1999 of the first array and the twelve parameter arrays whole, computes the
  map on that tile, and writes the tile back to the same rows of the output array. An entry of the map reads one row of its
  first argument, so the tile's value at (a, q) is the whole array's value at (2000·t + a, q); the 50 tiles cover every row.
-/
import proofs.«116444_j64183991272049_2_alg».proof.Proof.Gen.KernelIdeal.Frame
import proofs.«116444_j64183991272049_2_alg».proof.Proof.LibNormLayer
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Reg4

open Cert.KernelIdeal Cert.KernelIdeal.Gen Cert.LibNormLayer

variable (V : (c : Dev nD) → (b : Ref sig .tc) → Buf (Elt Ideal) ((c : Thread nD τ).loc b))

theorem hz : (![0, 0] : Fin 2 → Nat) = fun _ => 0 := funext fun a => by fin_cases a <;> rfl

/-- A [1,k] array's one row, as a function of the lane. -/
abbrev row {k : Nat} (r : (⟨2, ![1, k]⟩ : Shape).Idx → EReal) : Fin k → EReal := fun q => r (ix2 (0 : Fin 1) q)

/-- The body's arithmetic on its loaded blocks is the two-layer map of the tile. -/
theorem pay_eq (x0 : Vec Ideal S2000x128 .f32) (x1 : Vec Ideal S128x256 .f32) (x2 x3 x4 x5 x6 : Vec Ideal S1x256 .f32)
    (x7 : Vec Ideal S256x128 .f32) (x8 x9 x10 x11 x12 : Vec Ideal S1x128 .f32) :
    k4_pay1 (k4_pay2 x0 x1 x2 x5 x6 x3 x4 x7) x8 x11 x12 x9 x10
      = ramp (mlpCore x0 x1 (row x2) (row x5) (row x6) (row x3) (row x4) x7 (row x8) (row x11) (row x12) (row x9) (row x10)) := by
  unfold k4_pay1 k4_pay2
  dsimp only
  have e1 := tile_normLin dot_S2000x128_S128x256_S2000x256_1_0_0_1_n_n rfl bitsLt_bf16_f32 shapeCasts_S1x256_S1x256 broadcasts_S1x256_S2000x256 x0 x1 x2 x5 x6 x3 x4
  simp only [shapeCast_self] at e1 ⊢
  rw [e1, tile_ramp]
  have e2 := fun A => tile_normLin dot_S2000x256_S256x128_S2000x128_1_0_0_1_n_n rfl bitsLt_bf16_f32 shapeCasts_S1x128_S1x128 broadcasts_S1x128_S2000x128 A x7 x8 x11 x12 x9 x10
  simp only [shapeCast_self] at e2
  rw [e2, tile_ramp]
  rfl

/-- What the launch leaves in its output array, as one function of the entry arrays. -/
def G (c : Dev nD) : S100000x128.Idx → EReal :=
  ramp (mlpCore (V c main_v247) (V c main_v249) (row (V c main_v272)) (row (V c main_v275)) (row (V c main_v276)) (row (V c main_v273)) (row (V c main_v274)) (V c main_v261) (row (V c main_v277)) (row (V c main_v280)) (row (V c main_v281)) (row (V c main_v278)) (row (V c main_v279)))

/-- The printed index maps, decided over the grid: the tiled windows move with the point, the parameter windows stay. -/
theorem idx_facts : ∀ t : Fin cfg4.N, win4_0.index t (0 : Fin 2) = t.val ∧ win4_0.index t (1 : Fin 2) = 0
    ∧ win4_13.index t (0 : Fin 2) = t.val ∧ win4_13.index t (1 : Fin 2) = 0
    ∧ (∀ a : Fin 2, win4_1.index t a = 0)
    ∧ (∀ a : Fin 2, win4_2.index t a = 0)
    ∧ (∀ a : Fin 2, win4_3.index t a = 0)
    ∧ (∀ a : Fin 2, win4_4.index t a = 0)
    ∧ (∀ a : Fin 2, win4_5.index t a = 0)
    ∧ (∀ a : Fin 2, win4_6.index t a = 0)
    ∧ (∀ a : Fin 2, win4_7.index t a = 0)
    ∧ (∀ a : Fin 2, win4_8.index t a = 0)
    ∧ (∀ a : Fin 2, win4_9.index t a = 0)
    ∧ (∀ a : Fin 2, win4_10.index t a = 0)
    ∧ (∀ a : Fin 2, win4_11.index t a = 0)
    ∧ (∀ a : Fin 2, win4_12.index t a = 0) :=
  (by decide +kernel : ∀ t : Fin grid4.N, _)

/-- The first window's block at point t is rows 2000·t … of its array. -/
theorem iblk_x (c : Dev nD) (t : Fin cfg4.N) (x : S2000x128.Idx) (k : S100000x128.Idx)
    (hk0 : (k 0).val = 2000 * t.val + (x 0).val) (hk1 : (k 1).val = (x 1).val) :
    (iblk4 V c 0 t : Vec Ideal S2000x128 .f32) x = (V c main_v247 : S100000x128.Idx → EReal) k := by
  obtain ⟨h0, h1, -⟩ := idx_facts t
  unfold iblk4
  rw [View.read_apply]
  show V c main_v247 _ = V c main_v247 _
  congr 1
  funext a
  apply Fin.ext
  match a with
  | ⟨0, _⟩ => show win4_0.index t 0 * 2000 + 1 * (x 0).val = (k 0).val; rw [h0, hk0]; omega
  | ⟨1, _⟩ => show win4_0.index t 1 * 128 + 1 * (x 1).val = (k 1).val; rw [h1, hk1]; omega

theorem iblk_1 (c : Dev nD) (t : Fin cfg4.N) : (iblk4 V c 1 t : Vec Ideal S128x256 .f32) = (V c main_v249 : S128x256.Idx → EReal) := by
  have hw := (idx_facts t).2.2.2.2.1
  funext x
  unfold iblk4
  rw [View.read_apply]
  show V c main_v249 _ = V c main_v249 x
  congr 1
  funext a
  apply Fin.ext
  match a with
  | ⟨0, _⟩ => show win4_1.index t 0 * 128 + 1 * (x 0).val = (x 0).val; rw [hw 0]; omega
  | ⟨1, _⟩ => show win4_1.index t 1 * 256 + 1 * (x 1).val = (x 1).val; rw [hw 1]; omega

theorem iblk_2 (c : Dev nD) (t : Fin cfg4.N) : (iblk4 V c 2 t : Vec Ideal S1x256 .f32) = (V c main_v272 : S1x256.Idx → EReal) := by
  have hw := (idx_facts t).2.2.2.2.2.1
  funext x
  unfold iblk4
  rw [View.read_apply]
  show V c main_v272 _ = V c main_v272 x
  congr 1
  funext a
  apply Fin.ext
  match a with
  | ⟨0, _⟩ => show win4_2.index t 0 * 1 + 1 * (x 0).val = (x 0).val; rw [hw 0]; omega
  | ⟨1, _⟩ => show win4_2.index t 1 * 256 + 1 * (x 1).val = (x 1).val; rw [hw 1]; omega

theorem iblk_3 (c : Dev nD) (t : Fin cfg4.N) : (iblk4 V c 3 t : Vec Ideal S1x256 .f32) = (V c main_v273 : S1x256.Idx → EReal) := by
  have hw := (idx_facts t).2.2.2.2.2.2.1
  funext x
  unfold iblk4
  rw [View.read_apply]
  show V c main_v273 _ = V c main_v273 x
  congr 1
  funext a
  apply Fin.ext
  match a with
  | ⟨0, _⟩ => show win4_3.index t 0 * 1 + 1 * (x 0).val = (x 0).val; rw [hw 0]; omega
  | ⟨1, _⟩ => show win4_3.index t 1 * 256 + 1 * (x 1).val = (x 1).val; rw [hw 1]; omega

theorem iblk_4 (c : Dev nD) (t : Fin cfg4.N) : (iblk4 V c 4 t : Vec Ideal S1x256 .f32) = (V c main_v274 : S1x256.Idx → EReal) := by
  have hw := (idx_facts t).2.2.2.2.2.2.2.1
  funext x
  unfold iblk4
  rw [View.read_apply]
  show V c main_v274 _ = V c main_v274 x
  congr 1
  funext a
  apply Fin.ext
  match a with
  | ⟨0, _⟩ => show win4_4.index t 0 * 1 + 1 * (x 0).val = (x 0).val; rw [hw 0]; omega
  | ⟨1, _⟩ => show win4_4.index t 1 * 256 + 1 * (x 1).val = (x 1).val; rw [hw 1]; omega

theorem iblk_5 (c : Dev nD) (t : Fin cfg4.N) : (iblk4 V c 5 t : Vec Ideal S1x256 .f32) = (V c main_v275 : S1x256.Idx → EReal) := by
  have hw := (idx_facts t).2.2.2.2.2.2.2.2.1
  funext x
  unfold iblk4
  rw [View.read_apply]
  show V c main_v275 _ = V c main_v275 x
  congr 1
  funext a
  apply Fin.ext
  match a with
  | ⟨0, _⟩ => show win4_5.index t 0 * 1 + 1 * (x 0).val = (x 0).val; rw [hw 0]; omega
  | ⟨1, _⟩ => show win4_5.index t 1 * 256 + 1 * (x 1).val = (x 1).val; rw [hw 1]; omega

theorem iblk_6 (c : Dev nD) (t : Fin cfg4.N) : (iblk4 V c 6 t : Vec Ideal S1x256 .f32) = (V c main_v276 : S1x256.Idx → EReal) := by
  have hw := (idx_facts t).2.2.2.2.2.2.2.2.2.1
  funext x
  unfold iblk4
  rw [View.read_apply]
  show V c main_v276 _ = V c main_v276 x
  congr 1
  funext a
  apply Fin.ext
  match a with
  | ⟨0, _⟩ => show win4_6.index t 0 * 1 + 1 * (x 0).val = (x 0).val; rw [hw 0]; omega
  | ⟨1, _⟩ => show win4_6.index t 1 * 256 + 1 * (x 1).val = (x 1).val; rw [hw 1]; omega

theorem iblk_7 (c : Dev nD) (t : Fin cfg4.N) : (iblk4 V c 7 t : Vec Ideal S256x128 .f32) = (V c main_v261 : S256x128.Idx → EReal) := by
  have hw := (idx_facts t).2.2.2.2.2.2.2.2.2.2.1
  funext x
  unfold iblk4
  rw [View.read_apply]
  show V c main_v261 _ = V c main_v261 x
  congr 1
  funext a
  apply Fin.ext
  match a with
  | ⟨0, _⟩ => show win4_7.index t 0 * 256 + 1 * (x 0).val = (x 0).val; rw [hw 0]; omega
  | ⟨1, _⟩ => show win4_7.index t 1 * 128 + 1 * (x 1).val = (x 1).val; rw [hw 1]; omega

theorem iblk_8 (c : Dev nD) (t : Fin cfg4.N) : (iblk4 V c 8 t : Vec Ideal S1x128 .f32) = (V c main_v277 : S1x128.Idx → EReal) := by
  have hw := (idx_facts t).2.2.2.2.2.2.2.2.2.2.2.1
  funext x
  unfold iblk4
  rw [View.read_apply]
  show V c main_v277 _ = V c main_v277 x
  congr 1
  funext a
  apply Fin.ext
  match a with
  | ⟨0, _⟩ => show win4_8.index t 0 * 1 + 1 * (x 0).val = (x 0).val; rw [hw 0]; omega
  | ⟨1, _⟩ => show win4_8.index t 1 * 128 + 1 * (x 1).val = (x 1).val; rw [hw 1]; omega

theorem iblk_9 (c : Dev nD) (t : Fin cfg4.N) : (iblk4 V c 9 t : Vec Ideal S1x128 .f32) = (V c main_v278 : S1x128.Idx → EReal) := by
  have hw := (idx_facts t).2.2.2.2.2.2.2.2.2.2.2.2.1
  funext x
  unfold iblk4
  rw [View.read_apply]
  show V c main_v278 _ = V c main_v278 x
  congr 1
  funext a
  apply Fin.ext
  match a with
  | ⟨0, _⟩ => show win4_9.index t 0 * 1 + 1 * (x 0).val = (x 0).val; rw [hw 0]; omega
  | ⟨1, _⟩ => show win4_9.index t 1 * 128 + 1 * (x 1).val = (x 1).val; rw [hw 1]; omega

theorem iblk_10 (c : Dev nD) (t : Fin cfg4.N) : (iblk4 V c 10 t : Vec Ideal S1x128 .f32) = (V c main_v279 : S1x128.Idx → EReal) := by
  have hw := (idx_facts t).2.2.2.2.2.2.2.2.2.2.2.2.2.1
  funext x
  unfold iblk4
  rw [View.read_apply]
  show V c main_v279 _ = V c main_v279 x
  congr 1
  funext a
  apply Fin.ext
  match a with
  | ⟨0, _⟩ => show win4_10.index t 0 * 1 + 1 * (x 0).val = (x 0).val; rw [hw 0]; omega
  | ⟨1, _⟩ => show win4_10.index t 1 * 128 + 1 * (x 1).val = (x 1).val; rw [hw 1]; omega

theorem iblk_11 (c : Dev nD) (t : Fin cfg4.N) : (iblk4 V c 11 t : Vec Ideal S1x128 .f32) = (V c main_v280 : S1x128.Idx → EReal) := by
  have hw := (idx_facts t).2.2.2.2.2.2.2.2.2.2.2.2.2.2.1
  funext x
  unfold iblk4
  rw [View.read_apply]
  show V c main_v280 _ = V c main_v280 x
  congr 1
  funext a
  apply Fin.ext
  match a with
  | ⟨0, _⟩ => show win4_11.index t 0 * 1 + 1 * (x 0).val = (x 0).val; rw [hw 0]; omega
  | ⟨1, _⟩ => show win4_11.index t 1 * 128 + 1 * (x 1).val = (x 1).val; rw [hw 1]; omega

theorem iblk_12 (c : Dev nD) (t : Fin cfg4.N) : (iblk4 V c 12 t : Vec Ideal S1x128 .f32) = (V c main_v281 : S1x128.Idx → EReal) := by
  have hw := (idx_facts t).2.2.2.2.2.2.2.2.2.2.2.2.2.2.2
  funext x
  unfold iblk4
  rw [View.read_apply]
  show V c main_v281 _ = V c main_v281 x
  congr 1
  funext a
  apply Fin.ext
  match a with
  | ⟨0, _⟩ => show win4_12.index t 0 * 1 + 1 * (x 0).val = (x 0).val; rw [hw 0]; omega
  | ⟨1, _⟩ => show win4_12.index t 1 * 128 + 1 * (x 1).val = (x 1).val; rw [hw 1]; omega

/-- A tile that holds rows 2000·T … of an array has, at each of its rows, the whole array's value of the map at that row. -/
theorem tile_value (X : S100000x128.Idx → EReal) (xb : Vec Ideal S2000x128 .f32) (W1 : S128x256.Idx → EReal) (r2 r3 r4 r5 r6 : S1x256.Idx → EReal)
    (W2 : S256x128.Idx → EReal) (r8 r9 r10 r11 r12 : S1x128.Idx → EReal) (T : Nat)
    (hx : ∀ (y : S2000x128.Idx) (k : S100000x128.Idx), (k 0).val = 2000 * T + (y 0).val → (k 1).val = (y 1).val → xb y = X k)
    (y : S2000x128.Idx) (k : S100000x128.Idx) (hk0 : (k 0).val = 2000 * T + (y 0).val) (hk1 : (k 1).val = (y 1).val) :
    (ramp (mlpCore xb W1 (row r2) (row r5) (row r6) (row r3) (row r4) W2 (row r8) (row r11) (row r12) (row r9) (row r10))) y
      = (ramp (mlpCore X W1 (row r2) (row r5) (row r6) (row r3) (row r4) W2 (row r8) (row r11) (row r12) (row r9) (row r10))) k := by
  obtain ⟨a, q, rfl⟩ : ∃ (a : Fin 2000) (q : Fin 128), y = ix2 a q := ⟨y 0, y 1, eq_ix2 y⟩
  obtain ⟨A, q', rfl⟩ : ∃ (A : Fin 100000) (q' : Fin 128), k = ix2 A q' := ⟨k 0, k 1, eq_ix2 k⟩
  have hq : q' = q := Fin.ext hk1
  subst hq
  exact ramp_mlpCore_rows X xb W1 (row r2) (row r5) (row r6) (row r3) (row r4) W2 (row r8) (row r11) (row r12) (row r9) (row r10) a A q'
    (fun c' => hx (ix2 a c') (ix2 A c') hk0 rfl)

/-- What point t writes back is block t of G. -/
theorem flushed_eq (c : Dev nD) (t : Fin cfg4.N) (hf : (cfg4.win 13).flush t = true) :
    (dat4 V c).flushed 13 t = ((cfg4.win 13).blk t).view.read (Elt Ideal) (G V c) := by
  obtain ⟨-, -, h0, h1, -⟩ := idx_facts t
  show (cfg4.win 13).cut (grid4.coords t) ((dat4 V c).after 13 t) = _
  rw [after4_13]
  unfold out4_13
  rw [View.canon_unit_zero hz]
  simp only [View.ld_unit_zero (S := S2000x128) hz, View.ld_unit_zero (S := S128x256) hz, View.ld_unit_zero (S := S1x256) hz,
    View.ld_unit_zero (S := S256x128) hz, View.ld_unit_zero (S := S1x128) hz]
  rw [pay_eq, iblk_1 V c t, iblk_2 V c t, iblk_3 V c t, iblk_4 V c t, iblk_5 V c t, iblk_6 V c t, iblk_7 V c t, iblk_8 V c t, iblk_9 V c t, iblk_10 V c t, iblk_11 V c t, iblk_12 V c t]
  funext j
  show (ramp (mlpCore (iblk4 V c 0 t) (V c main_v249) (row (V c main_v272)) (row (V c main_v275)) (row (V c main_v276)) (row (V c main_v273)) (row (V c main_v274)) (V c main_v261) (row (V c main_v277)) (row (V c main_v280)) (row (V c main_v281)) (row (V c main_v278)) (row (V c main_v279)))) j = G V c (((cfg4.win 13).blk t).view.emb j)
  unfold G
  refine tile_value (V c main_v247) (iblk4 V c 0 t) (V c main_v249) (V c main_v272) (V c main_v273) (V c main_v274) (V c main_v275) (V c main_v276) (V c main_v261) (V c main_v277) (V c main_v278) (V c main_v279) (V c main_v280) (V c main_v281) t.val
    (fun y k e0 e1 => iblk_x V c t y k e0 e1) j _ ?_ ?_
  · show win4_13.index t 0 * 2000 + 1 * (j 0).val = 2000 * t.val + (j 0).val; rw [h0]; omega
  · show win4_13.index t 1 * 128 + 1 * (j 1).val = (j 1).val; rw [h1]; omega

/-- An index of the output array is in point t's block iff each coordinate is in the block's range on its axis. -/
theorem mem_blk (t : Fin cfg4.N) (i : S100000x128.Idx) :
    i ∈ ((cfg4.win 13).blk t).view.set ↔ ∀ a : Fin 2, win4_13.index t a * S2000x128.size a ≤ (i a).val ∧ (i a).val < win4_13.index t a * S2000x128.size a + S2000x128.size a := by
  show i ∈ ((View.whole main_v282).slice (win4_13.rect t)).set ↔ _
  rw [View.set_slice_whole, Rect.mem_set_unit]
  exact Iff.rfl

/-- THE ARRAY after the launch: G of the entry arrays. -/
theorem final (c : Dev nD) : (dat4 V c).arrAt 13 cfg4.N = G V c :=
  (dat4 V c).arrAt_eq_of_cover 13 (G V c) (flushed_eq V c) fun i => by
    have hi0 : (i 0).val < 100000 := (i 0).isLt
    have hi1 : (i 1).val < 128 := (i 1).isLt
    have hN : cfg4.N = 50 := N_4
    refine ⟨⟨(i 0).val / 2000, by rw [hN]; omega⟩, flush4_13 _, ?_⟩
    rw [mem_blk]
    obtain ⟨-, -, h0, h1, -⟩ := idx_facts ⟨(i 0).val / 2000, by rw [hN]; omega⟩
    intro a
    match a with
    | ⟨0, _⟩ => show win4_13.index _ 0 * 2000 ≤ (i 0).val ∧ (i 0).val < win4_13.index _ 0 * 2000 + 2000; rw [h0]; show (i 0).val / 2000 * 2000 ≤ _ ∧ _ < (i 0).val / 2000 * 2000 + 2000; omega
    | ⟨1, _⟩ => show win4_13.index _ 1 * 128 ≤ (i 1).val ∧ (i 1).val < win4_13.index _ 1 * 128 + 128; rw [h1]; omega

end Cert.KernelIdeal.Reg4

end
-- ==== Proof.KR5.lean ====
/-
  Launch 5 of the two-layer kernel (the graph table, one tile of 512 rows), at arbitrary entry contents V: after the launch its output array holds
  the two-layer normalised map with its last ramp of the entry arrays, row by row.

  At grid point t the body reads rows 512·t … 512·t + 511 of the first array and the twelve parameter arrays whole, computes the
  map on that tile, and writes the tile back to the same rows of the output array. An entry of the map reads one row of its
  first argument, so the tile's value at (a, q) is the whole array's value at (512·t + a, q); the 1 tile covers every row.
-/
import proofs.«116444_j64183991272049_2_alg».proof.Proof.Gen.KernelIdeal.Frame
import proofs.«116444_j64183991272049_2_alg».proof.Proof.LibNormLayer
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Reg5

open Cert.KernelIdeal Cert.KernelIdeal.Gen Cert.LibNormLayer

variable (V : (c : Dev nD) → (b : Ref sig .tc) → Buf (Elt Ideal) ((c : Thread nD τ).loc b))

theorem hz : (![0, 0] : Fin 2 → Nat) = fun _ => 0 := funext fun a => by fin_cases a <;> rfl

/-- A [1,k] array's one row, as a function of the lane. -/
abbrev row {k : Nat} (r : (⟨2, ![1, k]⟩ : Shape).Idx → EReal) : Fin k → EReal := fun q => r (ix2 (0 : Fin 1) q)

/-- The body's arithmetic on its loaded blocks is the two-layer map of the tile. -/
theorem pay_eq (x0 : Vec Ideal S512x128 .f32) (x1 : Vec Ideal S128x256 .f32) (x2 x3 x4 x5 x6 : Vec Ideal S1x256 .f32)
    (x7 : Vec Ideal S256x128 .f32) (x8 x9 x10 x11 x12 : Vec Ideal S1x128 .f32) :
    k5_pay1 (k5_pay2 x0 x1 x2 x5 x6 x3 x4 x7) x8 x11 x12 x9 x10
      = ramp (mlpCore x0 x1 (row x2) (row x5) (row x6) (row x3) (row x4) x7 (row x8) (row x11) (row x12) (row x9) (row x10)) := by
  unfold k5_pay1 k5_pay2
  dsimp only
  have e1 := tile_normLin dot_S512x128_S128x256_S512x256_1_0_0_1_n_n rfl bitsLt_bf16_f32 shapeCasts_S1x256_S1x256 broadcasts_S1x256_S512x256 x0 x1 x2 x5 x6 x3 x4
  simp only [shapeCast_self] at e1 ⊢
  rw [e1, tile_ramp]
  have e2 := fun A => tile_normLin dot_S512x256_S256x128_S512x128_1_0_0_1_n_n rfl bitsLt_bf16_f32 shapeCasts_S1x128_S1x128 broadcasts_S1x128_S512x128 A x7 x8 x11 x12 x9 x10
  simp only [shapeCast_self] at e2
  rw [e2, tile_ramp]
  rfl

/-- What the launch leaves in its output array, as one function of the entry arrays. -/
def G (c : Dev nD) : S512x128.Idx → EReal :=
  ramp (mlpCore (V c main_v286) (V c main_v288) (row (V c main_v311)) (row (V c main_v314)) (row (V c main_v315)) (row (V c main_v312)) (row (V c main_v313)) (V c main_v300) (row (V c main_v316)) (row (V c main_v319)) (row (V c main_v320)) (row (V c main_v317)) (row (V c main_v318)))

/-- The printed index maps, decided over the grid: the tiled windows move with the point, the parameter windows stay. -/
theorem idx_facts : ∀ t : Fin cfg5.N, win5_0.index t (0 : Fin 2) = t.val ∧ win5_0.index t (1 : Fin 2) = 0
    ∧ win5_13.index t (0 : Fin 2) = t.val ∧ win5_13.index t (1 : Fin 2) = 0
    ∧ (∀ a : Fin 2, win5_1.index t a = 0)
    ∧ (∀ a : Fin 2, win5_2.index t a = 0)
    ∧ (∀ a : Fin 2, win5_3.index t a = 0)
    ∧ (∀ a : Fin 2, win5_4.index t a = 0)
    ∧ (∀ a : Fin 2, win5_5.index t a = 0)
    ∧ (∀ a : Fin 2, win5_6.index t a = 0)
    ∧ (∀ a : Fin 2, win5_7.index t a = 0)
    ∧ (∀ a : Fin 2, win5_8.index t a = 0)
    ∧ (∀ a : Fin 2, win5_9.index t a = 0)
    ∧ (∀ a : Fin 2, win5_10.index t a = 0)
    ∧ (∀ a : Fin 2, win5_11.index t a = 0)
    ∧ (∀ a : Fin 2, win5_12.index t a = 0) :=
  (by decide +kernel : ∀ t : Fin grid5.N, _)

/-- The first window's block at point t is rows 512·t … of its array. -/
theorem iblk_x (c : Dev nD) (t : Fin cfg5.N) (x : S512x128.Idx) (k : S512x128.Idx)
    (hk0 : (k 0).val = 512 * t.val + (x 0).val) (hk1 : (k 1).val = (x 1).val) :
    (iblk5 V c 0 t : Vec Ideal S512x128 .f32) x = (V c main_v286 : S512x128.Idx → EReal) k := by
  obtain ⟨h0, h1, -⟩ := idx_facts t
  unfold iblk5
  rw [View.read_apply]
  show V c main_v286 _ = V c main_v286 _
  congr 1
  funext a
  apply Fin.ext
  match a with
  | ⟨0, _⟩ => show win5_0.index t 0 * 512 + 1 * (x 0).val = (k 0).val; rw [h0, hk0]; omega
  | ⟨1, _⟩ => show win5_0.index t 1 * 128 + 1 * (x 1).val = (k 1).val; rw [h1, hk1]; omega

theorem iblk_1 (c : Dev nD) (t : Fin cfg5.N) : (iblk5 V c 1 t : Vec Ideal S128x256 .f32) = (V c main_v288 : S128x256.Idx → EReal) := by
  have hw := (idx_facts t).2.2.2.2.1
  funext x
  unfold iblk5
  rw [View.read_apply]
  show V c main_v288 _ = V c main_v288 x
  congr 1
  funext a
  apply Fin.ext
  match a with
  | ⟨0, _⟩ => show win5_1.index t 0 * 128 + 1 * (x 0).val = (x 0).val; rw [hw 0]; omega
  | ⟨1, _⟩ => show win5_1.index t 1 * 256 + 1 * (x 1).val = (x 1).val; rw [hw 1]; omega

theorem iblk_2 (c : Dev nD) (t : Fin cfg5.N) : (iblk5 V c 2 t : Vec Ideal S1x256 .f32) = (V c main_v311 : S1x256.Idx → EReal) := by
  have hw := (idx_facts t).2.2.2.2.2.1
  funext x
  unfold iblk5
  rw [View.read_apply]
  show V c main_v311 _ = V c main_v311 x
  congr 1
  funext a
  apply Fin.ext
  match a with
  | ⟨0, _⟩ => show win5_2.index t 0 * 1 + 1 * (x 0).val = (x 0).val; rw [hw 0]; omega
  | ⟨1, _⟩ => show win5_2.index t 1 * 256 + 1 * (x 1).val = (x 1).val; rw [hw 1]; omega

theorem iblk_3 (c : Dev nD) (t : Fin cfg5.N) : (iblk5 V c 3 t : Vec Ideal S1x256 .f32) = (V c main_v312 : S1x256.Idx → EReal) := by
  have hw := (idx_facts t).2.2.2.2.2.2.1
  funext x
  unfold iblk5
  rw [View.read_apply]
  show V c main_v312 _ = V c main_v312 x
  congr 1
  funext a
  apply Fin.ext
  match a with
  | ⟨0, _⟩ => show win5_3.index t 0 * 1 + 1 * (x 0).val = (x 0).val; rw [hw 0]; omega
  | ⟨1, _⟩ => show win5_3.index t 1 * 256 + 1 * (x 1).val = (x 1).val; rw [hw 1]; omega

theorem iblk_4 (c : Dev nD) (t : Fin cfg5.N) : (iblk5 V c 4 t : Vec Ideal S1x256 .f32) = (V c main_v313 : S1x256.Idx → EReal) := by
  have hw := (idx_facts t).2.2.2.2.2.2.2.1
  funext x
  unfold iblk5
  rw [View.read_apply]
  show V c main_v313 _ = V c main_v313 x
  congr 1
  funext a
  apply Fin.ext
  match a with
  | ⟨0, _⟩ => show win5_4.index t 0 * 1 + 1 * (x 0).val = (x 0).val; rw [hw 0]; omega
  | ⟨1, _⟩ => show win5_4.index t 1 * 256 + 1 * (x 1).val = (x 1).val; rw [hw 1]; omega

theorem iblk_5 (c : Dev nD) (t : Fin cfg5.N) : (iblk5 V c 5 t : Vec Ideal S1x256 .f32) = (V c main_v314 : S1x256.Idx → EReal) := by
  have hw := (idx_facts t).2.2.2.2.2.2.2.2.1
  funext x
  unfold iblk5
  rw [View.read_apply]
  show V c main_v314 _ = V c main_v314 x
  congr 1
  funext a
  apply Fin.ext
  match a with
  | ⟨0, _⟩ => show win5_5.index t 0 * 1 + 1 * (x 0).val = (x 0).val; rw [hw 0]; omega
  | ⟨1, _⟩ => show win5_5.index t 1 * 256 + 1 * (x 1).val = (x 1).val; rw [hw 1]; omega

theorem iblk_6 (c : Dev nD) (t : Fin cfg5.N) : (iblk5 V c 6 t : Vec Ideal S1x256 .f32) = (V c main_v315 : S1x256.Idx → EReal) := by
  have hw := (idx_facts t).2.2.2.2.2.2.2.2.2.1
  funext x
  unfold iblk5
  rw [View.read_apply]
  show V c main_v315 _ = V c main_v315 x
  congr 1
  funext a
  apply Fin.ext
  match a with
  | ⟨0, _⟩ => show win5_6.index t 0 * 1 + 1 * (x 0).val = (x 0).val; rw [hw 0]; omega
  | ⟨1, _⟩ => show win5_6.index t 1 * 256 + 1 * (x 1).val = (x 1).val; rw [hw 1]; omega

theorem iblk_7 (c : Dev nD) (t : Fin cfg5.N) : (iblk5 V c 7 t : Vec Ideal S256x128 .f32) = (V c main_v300 : S256x128.Idx → EReal) := by
  have hw := (idx_facts t).2.2.2.2.2.2.2.2.2.2.1
  funext x
  unfold iblk5
  rw [View.read_apply]
  show V c main_v300 _ = V c main_v300 x
  congr 1
  funext a
  apply Fin.ext
  match a with
  | ⟨0, _⟩ => show win5_7.index t 0 * 256 + 1 * (x 0).val = (x 0).val; rw [hw 0]; omega
  | ⟨1, _⟩ => show win5_7.index t 1 * 128 + 1 * (x 1).val = (x 1).val; rw [hw 1]; omega

theorem iblk_8 (c : Dev nD) (t : Fin cfg5.N) : (iblk5 V c 8 t : Vec Ideal S1x128 .f32) = (V c main_v316 : S1x128.Idx → EReal) := by
  have hw := (idx_facts t).2.2.2.2.2.2.2.2.2.2.2.1
  funext x
  unfold iblk5
  rw [View.read_apply]
  show V c main_v316 _ = V c main_v316 x
  congr 1
  funext a
  apply Fin.ext
  match a with
  | ⟨0, _⟩ => show win5_8.index t 0 * 1 + 1 * (x 0).val = (x 0).val; rw [hw 0]; omega
  | ⟨1, _⟩ => show win5_8.index t 1 * 128 + 1 * (x 1).val = (x 1).val; rw [hw 1]; omega

theorem iblk_9 (c : Dev nD) (t : Fin cfg5.N) : (iblk5 V c 9 t : Vec Ideal S1x128 .f32) = (V c main_v317 : S1x128.Idx → EReal) := by
  have hw := (idx_facts t).2.2.2.2.2.2.2.2.2.2.2.2.1
  funext x
  unfold iblk5
  rw [View.read_apply]
  show V c main_v317 _ = V c main_v317 x
  congr 1
  funext a
  apply Fin.ext
  match a with
  | ⟨0, _⟩ => show win5_9.index t 0 * 1 + 1 * (x 0).val = (x 0).val; rw [hw 0]; omega
  | ⟨1, _⟩ => show win5_9.index t 1 * 128 + 1 * (x 1).val = (x 1).val; rw [hw 1]; omega

theorem iblk_10 (c : Dev nD) (t : Fin cfg5.N) : (iblk5 V c 10 t : Vec Ideal S1x128 .f32) = (V c main_v318 : S1x128.Idx → EReal) := by
  have hw := (idx_facts t).2.2.2.2.2.2.2.2.2.2.2.2.2.1
  funext x
  unfold iblk5
  rw [View.read_apply]
  show V c main_v318 _ = V c main_v318 x
  congr 1
  funext a
  apply Fin.ext
  match a with
  | ⟨0, _⟩ => show win5_10.index t 0 * 1 + 1 * (x 0).val = (x 0).val; rw [hw 0]; omega
  | ⟨1, _⟩ => show win5_10.index t 1 * 128 + 1 * (x 1).val = (x 1).val; rw [hw 1]; omega

theorem iblk_11 (c : Dev nD) (t : Fin cfg5.N) : (iblk5 V c 11 t : Vec Ideal S1x128 .f32) = (V c main_v319 : S1x128.Idx → EReal) := by
  have hw := (idx_facts t).2.2.2.2.2.2.2.2.2.2.2.2.2.2.1
  funext x
  unfold iblk5
  rw [View.read_apply]
  show V c main_v319 _ = V c main_v319 x
  congr 1
  funext a
  apply Fin.ext
  match a with
  | ⟨0, _⟩ => show win5_11.index t 0 * 1 + 1 * (x 0).val = (x 0).val; rw [hw 0]; omega
  | ⟨1, _⟩ => show win5_11.index t 1 * 128 + 1 * (x 1).val = (x 1).val; rw [hw 1]; omega

theorem iblk_12 (c : Dev nD) (t : Fin cfg5.N) : (iblk5 V c 12 t : Vec Ideal S1x128 .f32) = (V c main_v320 : S1x128.Idx → EReal) := by
  have hw := (idx_facts t).2.2.2.2.2.2.2.2.2.2.2.2.2.2.2
  funext x
  unfold iblk5
  rw [View.read_apply]
  show V c main_v320 _ = V c main_v320 x
  congr 1
  funext a
  apply Fin.ext
  match a with
  | ⟨0, _⟩ => show win5_12.index t 0 * 1 + 1 * (x 0).val = (x 0).val; rw [hw 0]; omega
  | ⟨1, _⟩ => show win5_12.index t 1 * 128 + 1 * (x 1).val = (x 1).val; rw [hw 1]; omega

/-- A tile that holds rows 512·T … of an array has, at each of its rows, the whole array's value of the map at that row. -/
theorem tile_value (X : S512x128.Idx → EReal) (xb : Vec Ideal S512x128 .f32) (W1 : S128x256.Idx → EReal) (r2 r3 r4 r5 r6 : S1x256.Idx → EReal)
    (W2 : S256x128.Idx → EReal) (r8 r9 r10 r11 r12 : S1x128.Idx → EReal) (T : Nat)
    (hx : ∀ (y : S512x128.Idx) (k : S512x128.Idx), (k 0).val = 512 * T + (y 0).val → (k 1).val = (y 1).val → xb y = X k)
    (y : S512x128.Idx) (k : S512x128.Idx) (hk0 : (k 0).val = 512 * T + (y 0).val) (hk1 : (k 1).val = (y 1).val) :
    (ramp (mlpCore xb W1 (row r2) (row r5) (row r6) (row r3) (row r4) W2 (row r8) (row r11) (row r12) (row r9) (row r10))) y
      = (ramp (mlpCore X W1 (row r2) (row r5) (row r6) (row r3) (row r4) W2 (row r8) (row r11) (row r12) (row r9) (row r10))) k := by
  obtain ⟨a, q, rfl⟩ : ∃ (a : Fin 512) (q : Fin 128), y = ix2 a q := ⟨y 0, y 1, eq_ix2 y⟩
  obtain ⟨A, q', rfl⟩ : ∃ (A : Fin 512) (q' : Fin 128), k = ix2 A q' := ⟨k 0, k 1, eq_ix2 k⟩
  have hq : q' = q := Fin.ext hk1
  subst hq
  exact ramp_mlpCore_rows X xb W1 (row r2) (row r5) (row r6) (row r3) (row r4) W2 (row r8) (row r11) (row r12) (row r9) (row r10) a A q'
    (fun c' => hx (ix2 a c') (ix2 A c') hk0 rfl)

/-- What point t writes back is block t of G. -/
theorem flushed_eq (c : Dev nD) (t : Fin cfg5.N) (hf : (cfg5.win 13).flush t = true) :
    (dat5 V c).flushed 13 t = ((cfg5.win 13).blk t).view.read (Elt Ideal) (G V c) := by
  obtain ⟨-, -, h0, h1, -⟩ := idx_facts t
  show (cfg5.win 13).cut (grid5.coords t) ((dat5 V c).after 13 t) = _
  rw [after5_13]
  unfold out5_13
  rw [View.canon_unit_zero hz]
  simp only [View.ld_unit_zero (S := S512x128) hz, View.ld_unit_zero (S := S128x256) hz, View.ld_unit_zero (S := S1x256) hz,
    View.ld_unit_zero (S := S256x128) hz, View.ld_unit_zero (S := S1x128) hz]
  rw [pay_eq, iblk_1 V c t, iblk_2 V c t, iblk_3 V c t, iblk_4 V c t, iblk_5 V c t, iblk_6 V c t, iblk_7 V c t, iblk_8 V c t, iblk_9 V c t, iblk_10 V c t, iblk_11 V c t, iblk_12 V c t]
  funext j
  show (ramp (mlpCore (iblk5 V c 0 t) (V c main_v288) (row (V c main_v311)) (row (V c main_v314)) (row (V c main_v315)) (row (V c main_v312)) (row (V c main_v313)) (V c main_v300) (row (V c main_v316)) (row (V c main_v319)) (row (V c main_v320)) (row (V c main_v317)) (row (V c main_v318)))) j = G V c (((cfg5.win 13).blk t).view.emb j)
  unfold G
  refine tile_value (V c main_v286) (iblk5 V c 0 t) (V c main_v288) (V c main_v311) (V c main_v312) (V c main_v313) (V c main_v314) (V c main_v315) (V c main_v300) (V c main_v316) (V c main_v317) (V c main_v318) (V c main_v319) (V c main_v320) t.val
    (fun y k e0 e1 => iblk_x V c t y k e0 e1) j _ ?_ ?_
  · show win5_13.index t 0 * 512 + 1 * (j 0).val = 512 * t.val + (j 0).val; rw [h0]; omega
  · show win5_13.index t 1 * 128 + 1 * (j 1).val = (j 1).val; rw [h1]; omega

/-- An index of the output array is in point t's block iff each coordinate is in the block's range on its axis. -/
theorem mem_blk (t : Fin cfg5.N) (i : S512x128.Idx) :
    i ∈ ((cfg5.win 13).blk t).view.set ↔ ∀ a : Fin 2, win5_13.index t a * S512x128.size a ≤ (i a).val ∧ (i a).val < win5_13.index t a * S512x128.size a + S512x128.size a := by
  show i ∈ ((View.whole main_v321).slice (win5_13.rect t)).set ↔ _
  rw [View.set_slice_whole, Rect.mem_set_unit]
  exact Iff.rfl

/-- THE ARRAY after the launch: G of the entry arrays. -/
theorem final (c : Dev nD) : (dat5 V c).arrAt 13 cfg5.N = G V c :=
  (dat5 V c).arrAt_eq_of_cover 13 (G V c) (flushed_eq V c) fun i => by
    have hi0 : (i 0).val < 512 := (i 0).isLt
    have hi1 : (i 1).val < 128 := (i 1).isLt
    have hN : cfg5.N = 1 := N_5
    refine ⟨⟨(i 0).val / 512, by rw [hN]; omega⟩, flush5_13 _, ?_⟩
    rw [mem_blk]
    obtain ⟨-, -, h0, h1, -⟩ := idx_facts ⟨(i 0).val / 512, by rw [hN]; omega⟩
    intro a
    match a with
    | ⟨0, _⟩ => show win5_13.index _ 0 * 512 ≤ (i 0).val ∧ (i 0).val < win5_13.index _ 0 * 512 + 512; rw [h0]; show (i 0).val / 512 * 512 ≤ _ ∧ _ < (i 0).val / 512 * 512 + 512; omega
    | ⟨1, _⟩ => show win5_13.index _ 1 * 128 ≤ (i 1).val ∧ (i 1).val < win5_13.index _ 1 * 128 + 128; rw [h1]; omega

end Cert.KernelIdeal.Reg5

end
-- ==== Proof.KR6.lean ====
/-
  Launch 6 of the two-layer kernel (the node array, 50 tiles of 2000 rows), at arbitrary entry contents V: after the launch its output array holds
  the two-layer normalised map with its last ramp of the entry arrays, row by row.

  At grid point t the body reads rows 2000·t … 2000·t + 1999 of the first array and the twelve parameter arrays whole, computes the
  map on that tile, and writes the tile back to the same rows of the output array. An entry of the map reads one row of its
  first argument, so the tile's value at (a, q) is the whole array's value at (2000·t + a, q); the 50 tiles cover every row.
-/
import proofs.«116444_j64183991272049_2_alg».proof.Proof.Gen.KernelIdeal.Frame
import proofs.«116444_j64183991272049_2_alg».proof.Proof.LibNormLayer
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Reg6

open Cert.KernelIdeal Cert.KernelIdeal.Gen Cert.LibNormLayer

variable (V : (c : Dev nD) → (b : Ref sig .tc) → Buf (Elt Ideal) ((c : Thread nD τ).loc b))

theorem hz : (![0, 0] : Fin 2 → Nat) = fun _ => 0 := funext fun a => by fin_cases a <;> rfl

/-- A [1,k] array's one row, as a function of the lane. -/
abbrev row {k : Nat} (r : (⟨2, ![1, k]⟩ : Shape).Idx → EReal) : Fin k → EReal := fun q => r (ix2 (0 : Fin 1) q)

/-- The body's arithmetic on its loaded blocks is the two-layer map of the tile. -/
theorem pay_eq (x0 : Vec Ideal S2000x128 .f32) (x1 : Vec Ideal S128x256 .f32) (x2 x3 x4 x5 x6 : Vec Ideal S1x256 .f32)
    (x7 : Vec Ideal S256x128 .f32) (x8 x9 x10 x11 x12 : Vec Ideal S1x128 .f32) :
    k6_pay1 (k6_pay2 x0 x1 x2 x5 x6 x3 x4 x7) x8 x11 x12 x9 x10
      = ramp (mlpCore x0 x1 (row x2) (row x5) (row x6) (row x3) (row x4) x7 (row x8) (row x11) (row x12) (row x9) (row x10)) := by
  unfold k6_pay1 k6_pay2
  dsimp only
  have e1 := tile_normLin dot_S2000x128_S128x256_S2000x256_1_0_0_1_n_n rfl bitsLt_bf16_f32 shapeCasts_S1x256_S1x256 broadcasts_S1x256_S2000x256 x0 x1 x2 x5 x6 x3 x4
  simp only [shapeCast_self] at e1 ⊢
  rw [e1, tile_ramp]
  have e2 := fun A => tile_normLin dot_S2000x256_S256x128_S2000x128_1_0_0_1_n_n rfl bitsLt_bf16_f32 shapeCasts_S1x128_S1x128 broadcasts_S1x128_S2000x128 A x7 x8 x11 x12 x9 x10
  simp only [shapeCast_self] at e2
  rw [e2, tile_ramp]
  rfl

/-- What the launch leaves in its output array, as one function of the entry arrays. -/
def G (c : Dev nD) : S100000x128.Idx → EReal :=
  ramp (mlpCore (V c main_v350) (V c main_v352) (row (V c main_v375)) (row (V c main_v378)) (row (V c main_v379)) (row (V c main_v376)) (row (V c main_v377)) (V c main_v364) (row (V c main_v380)) (row (V c main_v383)) (row (V c main_v384)) (row (V c main_v381)) (row (V c main_v382)))

/-- The printed index maps, decided over the grid: the tiled windows move with the point, the parameter windows stay. -/
theorem idx_facts : ∀ t : Fin cfg6.N, win6_0.index t (0 : Fin 2) = t.val ∧ win6_0.index t (1 : Fin 2) = 0
    ∧ win6_13.index t (0 : Fin 2) = t.val ∧ win6_13.index t (1 : Fin 2) = 0
    ∧ (∀ a : Fin 2, win6_1.index t a = 0)
    ∧ (∀ a : Fin 2, win6_2.index t a = 0)
    ∧ (∀ a : Fin 2, win6_3.index t a = 0)
    ∧ (∀ a : Fin 2, win6_4.index t a = 0)
    ∧ (∀ a : Fin 2, win6_5.index t a = 0)
    ∧ (∀ a : Fin 2, win6_6.index t a = 0)
    ∧ (∀ a : Fin 2, win6_7.index t a = 0)
    ∧ (∀ a : Fin 2, win6_8.index t a = 0)
    ∧ (∀ a : Fin 2, win6_9.index t a = 0)
    ∧ (∀ a : Fin 2, win6_10.index t a = 0)
    ∧ (∀ a : Fin 2, win6_11.index t a = 0)
    ∧ (∀ a : Fin 2, win6_12.index t a = 0) :=
  (by decide +kernel : ∀ t : Fin grid6.N, _)

/-- The first window's block at point t is rows 2000·t … of its array. -/
theorem iblk_x (c : Dev nD) (t : Fin cfg6.N) (x : S2000x128.Idx) (k : S100000x128.Idx)
    (hk0 : (k 0).val = 2000 * t.val + (x 0).val) (hk1 : (k 1).val = (x 1).val) :
    (iblk6 V c 0 t : Vec Ideal S2000x128 .f32) x = (V c main_v350 : S100000x128.Idx → EReal) k := by
  obtain ⟨h0, h1, -⟩ := idx_facts t
  unfold iblk6
  rw [View.read_apply]
  show V c main_v350 _ = V c main_v350 _
  congr 1
  funext a
  apply Fin.ext
  match a with
  | ⟨0, _⟩ => show win6_0.index t 0 * 2000 + 1 * (x 0).val = (k 0).val; rw [h0, hk0]; omega
  | ⟨1, _⟩ => show win6_0.index t 1 * 128 + 1 * (x 1).val = (k 1).val; rw [h1, hk1]; omega

theorem iblk_1 (c : Dev nD) (t : Fin cfg6.N) : (iblk6 V c 1 t : Vec Ideal S128x256 .f32) = (V c main_v352 : S128x256.Idx → EReal) := by
  have hw := (idx_facts t).2.2.2.2.1
  funext x
  unfold iblk6
  rw [View.read_apply]
  show V c main_v352 _ = V c main_v352 x
  congr 1
  funext a
  apply Fin.ext
  match a with
  | ⟨0, _⟩ => show win6_1.index t 0 * 128 + 1 * (x 0).val = (x 0).val; rw [hw 0]; omega
  | ⟨1, _⟩ => show win6_1.index t 1 * 256 + 1 * (x 1).val = (x 1).val; rw [hw 1]; omega

theorem iblk_2 (c : Dev nD) (t : Fin cfg6.N) : (iblk6 V c 2 t : Vec Ideal S1x256 .f32) = (V c main_v375 : S1x256.Idx → EReal) := by
  have hw := (idx_facts t).2.2.2.2.2.1
  funext x
  unfold iblk6
  rw [View.read_apply]
  show V c main_v375 _ = V c main_v375 x
  congr 1
  funext a
  apply Fin.ext
  match a with
  | ⟨0, _⟩ => show win6_2.index t 0 * 1 + 1 * (x 0).val = (x 0).val; rw [hw 0]; omega
  | ⟨1, _⟩ => show win6_2.index t 1 * 256 + 1 * (x 1).val = (x 1).val; rw [hw 1]; omega

theorem iblk_3 (c : Dev nD) (t : Fin cfg6.N) : (iblk6 V c 3 t : Vec Ideal S1x256 .f32) = (V c main_v376 : S1x256.Idx → EReal) := by
  have hw := (idx_facts t).2.2.2.2.2.2.1
  funext x
  unfold iblk6
  rw [View.read_apply]
  show V c main_v376 _ = V c main_v376 x
  congr 1
  funext a
  apply Fin.ext
  match a with
  | ⟨0, _⟩ => show win6_3.index t 0 * 1 + 1 * (x 0).val = (x 0).val; rw [hw 0]; omega
  | ⟨1, _⟩ => show win6_3.index t 1 * 256 + 1 * (x 1).val = (x 1).val; rw [hw 1]; omega

theorem iblk_4 (c : Dev nD) (t : Fin cfg6.N) : (iblk6 V c 4 t : Vec Ideal S1x256 .f32) = (V c main_v377 : S1x256.Idx → EReal) := by
  have hw := (idx_facts t).2.2.2.2.2.2.2.1
  funext x
  unfold iblk6
  rw [View.read_apply]
  show V c main_v377 _ = V c main_v377 x
  congr 1
  funext a
  apply Fin.ext
  match a with
  | ⟨0, _⟩ => show win6_4.index t 0 * 1 + 1 * (x 0).val = (x 0).val; rw [hw 0]; omega
  | ⟨1, _⟩ => show win6_4.index t 1 * 256 + 1 * (x 1).val = (x 1).val; rw [hw 1]; omega

theorem iblk_5 (c : Dev nD) (t : Fin cfg6.N) : (iblk6 V c 5 t : Vec Ideal S1x256 .f32) = (V c main_v378 : S1x256.Idx → EReal) := by
  have hw := (idx_facts t).2.2.2.2.2.2.2.2.1
  funext x
  unfold iblk6
  rw [View.read_apply]
  show V c main_v378 _ = V c main_v378 x
  congr 1
  funext a
  apply Fin.ext
  match a with
  | ⟨0, _⟩ => show win6_5.index t 0 * 1 + 1 * (x 0).val = (x 0).val; rw [hw 0]; omega
  | ⟨1, _⟩ => show win6_5.index t 1 * 256 + 1 * (x 1).val = (x 1).val; rw [hw 1]; omega

theorem iblk_6 (c : Dev nD) (t : Fin cfg6.N) : (iblk6 V c 6 t : Vec Ideal S1x256 .f32) = (V c main_v379 : S1x256.Idx → EReal) := by
  have hw := (idx_facts t).2.2.2.2.2.2.2.2.2.1
  funext x
  unfold iblk6
  rw [View.read_apply]
  show V c main_v379 _ = V c main_v379 x
  congr 1
  funext a
  apply Fin.ext
  match a with
  | ⟨0, _⟩ => show win6_6.index t 0 * 1 + 1 * (x 0).val = (x 0).val; rw [hw 0]; omega
  | ⟨1, _⟩ => show win6_6.index t 1 * 256 + 1 * (x 1).val = (x 1).val; rw [hw 1]; omega

theorem iblk_7 (c : Dev nD) (t : Fin cfg6.N) : (iblk6 V c 7 t : Vec Ideal S256x128 .f32) = (V c main_v364 : S256x128.Idx → EReal) := by
  have hw := (idx_facts t).2.2.2.2.2.2.2.2.2.2.1
  funext x
  unfold iblk6
  rw [View.read_apply]
  show V c main_v364 _ = V c main_v364 x
  congr 1
  funext a
  apply Fin.ext
  match a with
  | ⟨0, _⟩ => show win6_7.index t 0 * 256 + 1 * (x 0).val = (x 0).val; rw [hw 0]; omega
  | ⟨1, _⟩ => show win6_7.index t 1 * 128 + 1 * (x 1).val = (x 1).val; rw [hw 1]; omega

theorem iblk_8 (c : Dev nD) (t : Fin cfg6.N) : (iblk6 V c 8 t : Vec Ideal S1x128 .f32) = (V c main_v380 : S1x128.Idx → EReal) := by
  have hw := (idx_facts t).2.2.2.2.2.2.2.2.2.2.2.1
  funext x
  unfold iblk6
  rw [View.read_apply]
  show V c main_v380 _ = V c main_v380 x
  congr 1
  funext a
  apply Fin.ext
  match a with
  | ⟨0, _⟩ => show win6_8.index t 0 * 1 + 1 * (x 0).val = (x 0).val; rw [hw 0]; omega
  | ⟨1, _⟩ => show win6_8.index t 1 * 128 + 1 * (x 1).val = (x 1).val; rw [hw 1]; omega

theorem iblk_9 (c : Dev nD) (t : Fin cfg6.N) : (iblk6 V c 9 t : Vec Ideal S1x128 .f32) = (V c main_v381 : S1x128.Idx → EReal) := by
  have hw := (idx_facts t).2.2.2.2.2.2.2.2.2.2.2.2.1
  funext x
  unfold iblk6
  rw [View.read_apply]
  show V c main_v381 _ = V c main_v381 x
  congr 1
  funext a
  apply Fin.ext
  match a with
  | ⟨0, _⟩ => show win6_9.index t 0 * 1 + 1 * (x 0).val = (x 0).val; rw [hw 0]; omega
  | ⟨1, _⟩ => show win6_9.index t 1 * 128 + 1 * (x 1).val = (x 1).val; rw [hw 1]; omega

theorem iblk_10 (c : Dev nD) (t : Fin cfg6.N) : (iblk6 V c 10 t : Vec Ideal S1x128 .f32) = (V c main_v382 : S1x128.Idx → EReal) := by
  have hw := (idx_facts t).2.2.2.2.2.2.2.2.2.2.2.2.2.1
  funext x
  unfold iblk6
  rw [View.read_apply]
  show V c main_v382 _ = V c main_v382 x
  congr 1
  funext a
  apply Fin.ext
  match a with
  | ⟨0, _⟩ => show win6_10.index t 0 * 1 + 1 * (x 0).val = (x 0).val; rw [hw 0]; omega
  | ⟨1, _⟩ => show win6_10.index t 1 * 128 + 1 * (x 1).val = (x 1).val; rw [hw 1]; omega

theorem iblk_11 (c : Dev nD) (t : Fin cfg6.N) : (iblk6 V c 11 t : Vec Ideal S1x128 .f32) = (V c main_v383 : S1x128.Idx → EReal) := by
  have hw := (idx_facts t).2.2.2.2.2.2.2.2.2.2.2.2.2.2.1
  funext x
  unfold iblk6
  rw [View.read_apply]
  show V c main_v383 _ = V c main_v383 x
  congr 1
  funext a
  apply Fin.ext
  match a with
  | ⟨0, _⟩ => show win6_11.index t 0 * 1 + 1 * (x 0).val = (x 0).val; rw [hw 0]; omega
  | ⟨1, _⟩ => show win6_11.index t 1 * 128 + 1 * (x 1).val = (x 1).val; rw [hw 1]; omega

theorem iblk_12 (c : Dev nD) (t : Fin cfg6.N) : (iblk6 V c 12 t : Vec Ideal S1x128 .f32) = (V c main_v384 : S1x128.Idx → EReal) := by
  have hw := (idx_facts t).2.2.2.2.2.2.2.2.2.2.2.2.2.2.2
  funext x
  unfold iblk6
  rw [View.read_apply]
  show V c main_v384 _ = V c main_v384 x
  congr 1
  funext a
  apply Fin.ext
  match a with
  | ⟨0, _⟩ => show win6_12.index t 0 * 1 + 1 * (x 0).val = (x 0).val; rw [hw 0]; omega
  | ⟨1, _⟩ => show win6_12.index t 1 * 128 + 1 * (x 1).val = (x 1).val; rw [hw 1]; omega

/-- A tile that holds rows 2000·T … of an array has, at each of its rows, the whole array's value of the map at that row. -/
theorem tile_value (X : S100000x128.Idx → EReal) (xb : Vec Ideal S2000x128 .f32) (W1 : S128x256.Idx → EReal) (r2 r3 r4 r5 r6 : S1x256.Idx → EReal)
    (W2 : S256x128.Idx → EReal) (r8 r9 r10 r11 r12 : S1x128.Idx → EReal) (T : Nat)
    (hx : ∀ (y : S2000x128.Idx) (k : S100000x128.Idx), (k 0).val = 2000 * T + (y 0).val → (k 1).val = (y 1).val → xb y = X k)
    (y : S2000x128.Idx) (k : S100000x128.Idx) (hk0 : (k 0).val = 2000 * T + (y 0).val) (hk1 : (k 1).val = (y 1).val) :
    (ramp (mlpCore xb W1 (row r2) (row r5) (row r6) (row r3) (row r4) W2 (row r8) (row r11) (row r12) (row r9) (row r10))) y
      = (ramp (mlpCore X W1 (row r2) (row r5) (row r6) (row r3) (row r4) W2 (row r8) (row r11) (row r12) (row r9) (row r10))) k := by
  obtain ⟨a, q, rfl⟩ : ∃ (a : Fin 2000) (q : Fin 128), y = ix2 a q := ⟨y 0, y 1, eq_ix2 y⟩
  obtain ⟨A, q', rfl⟩ : ∃ (A : Fin 100000) (q' : Fin 128), k = ix2 A q' := ⟨k 0, k 1, eq_ix2 k⟩
  have hq : q' = q := Fin.ext hk1
  subst hq
  exact ramp_mlpCore_rows X xb W1 (row r2) (row r5) (row r6) (row r3) (row r4) W2 (row r8) (row r11) (row r12) (row r9) (row r10) a A q'
    (fun c' => hx (ix2 a c') (ix2 A c') hk0 rfl)

/-- What point t writes back is block t of G. -/
theorem flushed_eq (c : Dev nD) (t : Fin cfg6.N) (hf : (cfg6.win 13).flush t = true) :
    (dat6 V c).flushed 13 t = ((cfg6.win 13).blk t).view.read (Elt Ideal) (G V c) := by
  obtain ⟨-, -, h0, h1, -⟩ := idx_facts t
  show (cfg6.win 13).cut (grid6.coords t) ((dat6 V c).after 13 t) = _
  rw [after6_13]
  unfold out6_13
  rw [View.canon_unit_zero hz]
  simp only [View.ld_unit_zero (S := S2000x128) hz, View.ld_unit_zero (S := S128x256) hz, View.ld_unit_zero (S := S1x256) hz,
    View.ld_unit_zero (S := S256x128) hz, View.ld_unit_zero (S := S1x128) hz]
  rw [pay_eq, iblk_1 V c t, iblk_2 V c t, iblk_3 V c t, iblk_4 V c t, iblk_5 V c t, iblk_6 V c t, iblk_7 V c t, iblk_8 V c t, iblk_9 V c t, iblk_10 V c t, iblk_11 V c t, iblk_12 V c t]
  funext j
  show (ramp (mlpCore (iblk6 V c 0 t) (V c main_v352) (row (V c main_v375)) (row (V c main_v378)) (row (V c main_v379)) (row (V c main_v376)) (row (V c main_v377)) (V c main_v364) (row (V c main_v380)) (row (V c main_v383)) (row (V c main_v384)) (row (V c main_v381)) (row (V c main_v382)))) j = G V c (((cfg6.win 13).blk t).view.emb j)
  unfold G
  refine tile_value (V c main_v350) (iblk6 V c 0 t) (V c main_v352) (V c main_v375) (V c main_v376) (V c main_v377) (V c main_v378) (V c main_v379) (V c main_v364) (V c main_v380) (V c main_v381) (V c main_v382) (V c main_v383) (V c main_v384) t.val
    (fun y k e0 e1 => iblk_x V c t y k e0 e1) j _ ?_ ?_
  · show win6_13.index t 0 * 2000 + 1 * (j 0).val = 2000 * t.val + (j 0).val; rw [h0]; omega
  · show win6_13.index t 1 * 128 + 1 * (j 1).val = (j 1).val; rw [h1]; omega

/-- An index of the output array is in point t's block iff each coordinate is in the block's range on its axis. -/
theorem mem_blk (t : Fin cfg6.N) (i : S100000x128.Idx) :
    i ∈ ((cfg6.win 13).blk t).view.set ↔ ∀ a : Fin 2, win6_13.index t a * S2000x128.size a ≤ (i a).val ∧ (i a).val < win6_13.index t a * S2000x128.size a + S2000x128.size a := by
  show i ∈ ((View.whole main_v385).slice (win6_13.rect t)).set ↔ _
  rw [View.set_slice_whole, Rect.mem_set_unit]
  exact Iff.rfl

/-- THE ARRAY after the launch: G of the entry arrays. -/
theorem final (c : Dev nD) : (dat6 V c).arrAt 13 cfg6.N = G V c :=
  (dat6 V c).arrAt_eq_of_cover 13 (G V c) (flushed_eq V c) fun i => by
    have hi0 : (i 0).val < 100000 := (i 0).isLt
    have hi1 : (i 1).val < 128 := (i 1).isLt
    have hN : cfg6.N = 50 := N_6
    refine ⟨⟨(i 0).val / 2000, by rw [hN]; omega⟩, flush6_13 _, ?_⟩
    rw [mem_blk]
    obtain ⟨-, -, h0, h1, -⟩ := idx_facts ⟨(i 0).val / 2000, by rw [hN]; omega⟩
    intro a
    match a with
    | ⟨0, _⟩ => show win6_13.index _ 0 * 2000 ≤ (i 0).val ∧ (i 0).val < win6_13.index _ 0 * 2000 + 2000; rw [h0]; show (i 0).val / 2000 * 2000 ≤ _ ∧ _ < (i 0).val / 2000 * 2000 + 2000; omega
    | ⟨1, _⟩ => show win6_13.index _ 1 * 128 ≤ (i 1).val ∧ (i 1).val < win6_13.index _ 1 * 128 + 128; rw [h1]; omega

end Cert.KernelIdeal.Reg6

end
-- ==== Proof.KR7.lean ====
/-
  Launch 7 of the two-layer kernel (the graph table, one tile of 512 rows), at arbitrary entry contents V: after the launch its output array holds
  the two-layer normalised map with its last ramp of the entry arrays, row by row.

  At grid point t the body reads rows 512·t … 512·t + 511 of the first array and the twelve parameter arrays whole, computes the
  map on that tile, and writes the tile back to the same rows of the output array. An entry of the map reads one row of its
  first argument, so the tile's value at (a, q) is the whole array's value at (512·t + a, q); the 1 tile covers every row.
-/
import proofs.«116444_j64183991272049_2_alg».proof.Proof.Gen.KernelIdeal.Frame
import proofs.«116444_j64183991272049_2_alg».proof.Proof.LibNormLayer
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Reg7

open Cert.KernelIdeal Cert.KernelIdeal.Gen Cert.LibNormLayer

variable (V : (c : Dev nD) → (b : Ref sig .tc) → Buf (Elt Ideal) ((c : Thread nD τ).loc b))

theorem hz : (![0, 0] : Fin 2 → Nat) = fun _ => 0 := funext fun a => by fin_cases a <;> rfl

/-- A [1,k] array's one row, as a function of the lane. -/
abbrev row {k : Nat} (r : (⟨2, ![1, k]⟩ : Shape).Idx → EReal) : Fin k → EReal := fun q => r (ix2 (0 : Fin 1) q)

/-- The body's arithmetic on its loaded blocks is the two-layer map of the tile. -/
theorem pay_eq (x0 : Vec Ideal S512x128 .f32) (x1 : Vec Ideal S128x256 .f32) (x2 x3 x4 x5 x6 : Vec Ideal S1x256 .f32)
    (x7 : Vec Ideal S256x128 .f32) (x8 x9 x10 x11 x12 : Vec Ideal S1x128 .f32) :
    k7_pay1 (k7_pay2 x0 x1 x2 x5 x6 x3 x4 x7) x8 x11 x12 x9 x10
      = ramp (mlpCore x0 x1 (row x2) (row x5) (row x6) (row x3) (row x4) x7 (row x8) (row x11) (row x12) (row x9) (row x10)) := by
  unfold k7_pay1 k7_pay2
  dsimp only
  have e1 := tile_normLin dot_S512x128_S128x256_S512x256_1_0_0_1_n_n rfl bitsLt_bf16_f32 shapeCasts_S1x256_S1x256 broadcasts_S1x256_S512x256 x0 x1 x2 x5 x6 x3 x4
  simp only [shapeCast_self] at e1 ⊢
  rw [e1, tile_ramp]
  have e2 := fun A => tile_normLin dot_S512x256_S256x128_S512x128_1_0_0_1_n_n rfl bitsLt_bf16_f32 shapeCasts_S1x128_S1x128 broadcasts_S1x128_S512x128 A x7 x8 x11 x12 x9 x10
  simp only [shapeCast_self] at e2
  rw [e2, tile_ramp]
  rfl

/-- What the launch leaves in its output array, as one function of the entry arrays. -/
def G (c : Dev nD) : S512x128.Idx → EReal :=
  ramp (mlpCore (V c main_v389) (V c main_v391) (row (V c main_v414)) (row (V c main_v417)) (row (V c main_v418)) (row (V c main_v415)) (row (V c main_v416)) (V c main_v403) (row (V c main_v419)) (row (V c main_v422)) (row (V c main_v423)) (row (V c main_v420)) (row (V c main_v421)))

/-- The printed index maps, decided over the grid: the tiled windows move with the point, the parameter windows stay. -/
theorem idx_facts : ∀ t : Fin cfg7.N, win7_0.index t (0 : Fin 2) = t.val ∧ win7_0.index t (1 : Fin 2) = 0
    ∧ win7_13.index t (0 : Fin 2) = t.val ∧ win7_13.index t (1 : Fin 2) = 0
    ∧ (∀ a : Fin 2, win7_1.index t a = 0)
    ∧ (∀ a : Fin 2, win7_2.index t a = 0)
    ∧ (∀ a : Fin 2, win7_3.index t a = 0)
    ∧ (∀ a : Fin 2, win7_4.index t a = 0)
    ∧ (∀ a : Fin 2, win7_5.index t a = 0)
    ∧ (∀ a : Fin 2, win7_6.index t a = 0)
    ∧ (∀ a : Fin 2, win7_7.index t a = 0)
    ∧ (∀ a : Fin 2, win7_8.index t a = 0)
    ∧ (∀ a : Fin 2, win7_9.index t a = 0)
    ∧ (∀ a : Fin 2, win7_10.index t a = 0)
    ∧ (∀ a : Fin 2, win7_11.index t a = 0)
    ∧ (∀ a : Fin 2, win7_12.index t a = 0) :=
  (by decide +kernel : ∀ t : Fin grid7.N, _)

/-- The first window's block at point t is rows 512·t … of its array. -/
theorem iblk_x (c : Dev nD) (t : Fin cfg7.N) (x : S512x128.Idx) (k : S512x128.Idx)
    (hk0 : (k 0).val = 512 * t.val + (x 0).val) (hk1 : (k 1).val = (x 1).val) :
    (iblk7 V c 0 t : Vec Ideal S512x128 .f32) x = (V c main_v389 : S512x128.Idx → EReal) k := by
  obtain ⟨h0, h1, -⟩ := idx_facts t
  unfold iblk7
  rw [View.read_apply]
  show V c main_v389 _ = V c main_v389 _
  congr 1
  funext a
  apply Fin.ext
  match a with
  | ⟨0, _⟩ => show win7_0.index t 0 * 512 + 1 * (x 0).val = (k 0).val; rw [h0, hk0]; omega
  | ⟨1, _⟩ => show win7_0.index t 1 * 128 + 1 * (x 1).val = (k 1).val; rw [h1, hk1]; omega

theorem iblk_1 (c : Dev nD) (t : Fin cfg7.N) : (iblk7 V c 1 t : Vec Ideal S128x256 .f32) = (V c main_v391 : S128x256.Idx → EReal) := by
  have hw := (idx_facts t).2.2.2.2.1
  funext x
  unfold iblk7
  rw [View.read_apply]
  show V c main_v391 _ = V c main_v391 x
  congr 1
  funext a
  apply Fin.ext
  match a with
  | ⟨0, _⟩ => show win7_1.index t 0 * 128 + 1 * (x 0).val = (x 0).val; rw [hw 0]; omega
  | ⟨1, _⟩ => show win7_1.index t 1 * 256 + 1 * (x 1).val = (x 1).val; rw [hw 1]; omega

theorem iblk_2 (c : Dev nD) (t : Fin cfg7.N) : (iblk7 V c 2 t : Vec Ideal S1x256 .f32) = (V c main_v414 : S1x256.Idx → EReal) := by
  have hw := (idx_facts t).2.2.2.2.2.1
  funext x
  unfold iblk7
  rw [View.read_apply]
  show V c main_v414 _ = V c main_v414 x
  congr 1
  funext a
  apply Fin.ext
  match a with
  | ⟨0, _⟩ => show win7_2.index t 0 * 1 + 1 * (x 0).val = (x 0).val; rw [hw 0]; omega
  | ⟨1, _⟩ => show win7_2.index t 1 * 256 + 1 * (x 1).val = (x 1).val; rw [hw 1]; omega

theorem iblk_3 (c : Dev nD) (t : Fin cfg7.N) : (iblk7 V c 3 t : Vec Ideal S1x256 .f32) = (V c main_v415 : S1x256.Idx → EReal) := by
  have hw := (idx_facts t).2.2.2.2.2.2.1
  funext x
  unfold iblk7
  rw [View.read_apply]
  show V c main_v415 _ = V c main_v415 x
  congr 1
  funext a
  apply Fin.ext
  match a with
  | ⟨0, _⟩ => show win7_3.index t 0 * 1 + 1 * (x 0).val = (x 0).val; rw [hw 0]; omega
  | ⟨1, _⟩ => show win7_3.index t 1 * 256 + 1 * (x 1).val = (x 1).val; rw [hw 1]; omega

theorem iblk_4 (c : Dev nD) (t : Fin cfg7.N) : (iblk7 V c 4 t : Vec Ideal S1x256 .f32) = (V c main_v416 : S1x256.Idx → EReal) := by
  have hw := (idx_facts t).2.2.2.2.2.2.2.1
  funext x
  unfold iblk7
  rw [View.read_apply]
  show V c main_v416 _ = V c main_v416 x
  congr 1
  funext a
  apply Fin.ext
  match a with
  | ⟨0, _⟩ => show win7_4.index t 0 * 1 + 1 * (x 0).val = (x 0).val; rw [hw 0]; omega
  | ⟨1, _⟩ => show win7_4.index t 1 * 256 + 1 * (x 1).val = (x 1).val; rw [hw 1]; omega

theorem iblk_5 (c : Dev nD) (t : Fin cfg7.N) : (iblk7 V c 5 t : Vec Ideal S1x256 .f32) = (V c main_v417 : S1x256.Idx → EReal) := by
  have hw := (idx_facts t).2.2.2.2.2.2.2.2.1
  funext x
  unfold iblk7
  rw [View.read_apply]
  show V c main_v417 _ = V c main_v417 x
  congr 1
  funext a
  apply Fin.ext
  match a with
  | ⟨0, _⟩ => show win7_5.index t 0 * 1 + 1 * (x 0).val = (x 0).val; rw [hw 0]; omega
  | ⟨1, _⟩ => show win7_5.index t 1 * 256 + 1 * (x 1).val = (x 1).val; rw [hw 1]; omega

theorem iblk_6 (c : Dev nD) (t : Fin cfg7.N) : (iblk7 V c 6 t : Vec Ideal S1x256 .f32) = (V c main_v418 : S1x256.Idx → EReal) := by
  have hw := (idx_facts t).2.2.2.2.2.2.2.2.2.1
  funext x
  unfold iblk7
  rw [View.read_apply]
  show V c main_v418 _ = V c main_v418 x
  congr 1
  funext a
  apply Fin.ext
  match a with
  | ⟨0, _⟩ => show win7_6.index t 0 * 1 + 1 * (x 0).val = (x 0).val; rw [hw 0]; omega
  | ⟨1, _⟩ => show win7_6.index t 1 * 256 + 1 * (x 1).val = (x 1).val; rw [hw 1]; omega

theorem iblk_7 (c : Dev nD) (t : Fin cfg7.N) : (iblk7 V c 7 t : Vec Ideal S256x128 .f32) = (V c main_v403 : S256x128.Idx → EReal) := by
  have hw := (idx_facts t).2.2.2.2.2.2.2.2.2.2.1
  funext x
  unfold iblk7
  rw [View.read_apply]
  show V c main_v403 _ = V c main_v403 x
  congr 1
  funext a
  apply Fin.ext
  match a with
  | ⟨0, _⟩ => show win7_7.index t 0 * 256 + 1 * (x 0).val = (x 0).val; rw [hw 0]; omega
  | ⟨1, _⟩ => show win7_7.index t 1 * 128 + 1 * (x 1).val = (x 1).val; rw [hw 1]; omega

theorem iblk_8 (c : Dev nD) (t : Fin cfg7.N) : (iblk7 V c 8 t : Vec Ideal S1x128 .f32) = (V c main_v419 : S1x128.Idx → EReal) := by
  have hw := (idx_facts t).2.2.2.2.2.2.2.2.2.2.2.1
  funext x
  unfold iblk7
  rw [View.read_apply]
  show V c main_v419 _ = V c main_v419 x
  congr 1
  funext a
  apply Fin.ext
  match a with
  | ⟨0, _⟩ => show win7_8.index t 0 * 1 + 1 * (x 0).val = (x 0).val; rw [hw 0]; omega
  | ⟨1, _⟩ => show win7_8.index t 1 * 128 + 1 * (x 1).val = (x 1).val; rw [hw 1]; omega

theorem iblk_9 (c : Dev nD) (t : Fin cfg7.N) : (iblk7 V c 9 t : Vec Ideal S1x128 .f32) = (V c main_v420 : S1x128.Idx → EReal) := by
  have hw := (idx_facts t).2.2.2.2.2.2.2.2.2.2.2.2.1
  funext x
  unfold iblk7
  rw [View.read_apply]
  show V c main_v420 _ = V c main_v420 x
  congr 1
  funext a
  apply Fin.ext
  match a with
  | ⟨0, _⟩ => show win7_9.index t 0 * 1 + 1 * (x 0).val = (x 0).val; rw [hw 0]; omega
  | ⟨1, _⟩ => show win7_9.index t 1 * 128 + 1 * (x 1).val = (x 1).val; rw [hw 1]; omega

theorem iblk_10 (c : Dev nD) (t : Fin cfg7.N) : (iblk7 V c 10 t : Vec Ideal S1x128 .f32) = (V c main_v421 : S1x128.Idx → EReal) := by
  have hw := (idx_facts t).2.2.2.2.2.2.2.2.2.2.2.2.2.1
  funext x
  unfold iblk7
  rw [View.read_apply]
  show V c main_v421 _ = V c main_v421 x
  congr 1
  funext a
  apply Fin.ext
  match a with
  | ⟨0, _⟩ => show win7_10.index t 0 * 1 + 1 * (x 0).val = (x 0).val; rw [hw 0]; omega
  | ⟨1, _⟩ => show win7_10.index t 1 * 128 + 1 * (x 1).val = (x 1).val; rw [hw 1]; omega

theorem iblk_11 (c : Dev nD) (t : Fin cfg7.N) : (iblk7 V c 11 t : Vec Ideal S1x128 .f32) = (V c main_v422 : S1x128.Idx → EReal) := by
  have hw := (idx_facts t).2.2.2.2.2.2.2.2.2.2.2.2.2.2.1
  funext x
  unfold iblk7
  rw [View.read_apply]
  show V c main_v422 _ = V c main_v422 x
  congr 1
  funext a
  apply Fin.ext
  match a with
  | ⟨0, _⟩ => show win7_11.index t 0 * 1 + 1 * (x 0).val = (x 0).val; rw [hw 0]; omega
  | ⟨1, _⟩ => show win7_11.index t 1 * 128 + 1 * (x 1).val = (x 1).val; rw [hw 1]; omega

theorem iblk_12 (c : Dev nD) (t : Fin cfg7.N) : (iblk7 V c 12 t : Vec Ideal S1x128 .f32) = (V c main_v423 : S1x128.Idx → EReal) := by
  have hw := (idx_facts t).2.2.2.2.2.2.2.2.2.2.2.2.2.2.2
  funext x
  unfold iblk7
  rw [View.read_apply]
  show V c main_v423 _ = V c main_v423 x
  congr 1
  funext a
  apply Fin.ext
  match a with
  | ⟨0, _⟩ => show win7_12.index t 0 * 1 + 1 * (x 0).val = (x 0).val; rw [hw 0]; omega
  | ⟨1, _⟩ => show win7_12.index t 1 * 128 + 1 * (x 1).val = (x 1).val; rw [hw 1]; omega

/-- A tile that holds rows 512·T … of an array has, at each of its rows, the whole array's value of the map at that row. -/
theorem tile_value (X : S512x128.Idx → EReal) (xb : Vec Ideal S512x128 .f32) (W1 : S128x256.Idx → EReal) (r2 r3 r4 r5 r6 : S1x256.Idx → EReal)
    (W2 : S256x128.Idx → EReal) (r8 r9 r10 r11 r12 : S1x128.Idx → EReal) (T : Nat)
    (hx : ∀ (y : S512x128.Idx) (k : S512x128.Idx), (k 0).val = 512 * T + (y 0).val → (k 1).val = (y 1).val → xb y = X k)
    (y : S512x128.Idx) (k : S512x128.Idx) (hk0 : (k 0).val = 512 * T + (y 0).val) (hk1 : (k 1).val = (y 1).val) :
    (ramp (mlpCore xb W1 (row r2) (row r5) (row r6) (row r3) (row r4) W2 (row r8) (row r11) (row r12) (row r9) (row r10))) y
      = (ramp (mlpCore X W1 (row r2) (row r5) (row r6) (row r3) (row r4) W2 (row r8) (row r11) (row r12) (row r9) (row r10))) k := by
  obtain ⟨a, q, rfl⟩ : ∃ (a : Fin 512) (q : Fin 128), y = ix2 a q := ⟨y 0, y 1, eq_ix2 y⟩
  obtain ⟨A, q', rfl⟩ : ∃ (A : Fin 512) (q' : Fin 128), k = ix2 A q' := ⟨k 0, k 1, eq_ix2 k⟩
  have hq : q' = q := Fin.ext hk1
  subst hq
  exact ramp_mlpCore_rows X xb W1 (row r2) (row r5) (row r6) (row r3) (row r4) W2 (row r8) (row r11) (row r12) (row r9) (row r10) a A q'
    (fun c' => hx (ix2 a c') (ix2 A c') hk0 rfl)

/-- What point t writes back is block t of G. -/
theorem flushed_eq (c : Dev nD) (t : Fin cfg7.N) (hf : (cfg7.win 13).flush t = true) :
    (dat7 V c).flushed 13 t = ((cfg7.win 13).blk t).view.read (Elt Ideal) (G V c) := by
  obtain ⟨-, -, h0, h1, -⟩ := idx_facts t
  show (cfg7.win 13).cut (grid7.coords t) ((dat7 V c).after 13 t) = _
  rw [after7_13]
  unfold out7_13
  rw [View.canon_unit_zero hz]
  simp only [View.ld_unit_zero (S := S512x128) hz, View.ld_unit_zero (S := S128x256) hz, View.ld_unit_zero (S := S1x256) hz,
    View.ld_unit_zero (S := S256x128) hz, View.ld_unit_zero (S := S1x128) hz]
  rw [pay_eq, iblk_1 V c t, iblk_2 V c t, iblk_3 V c t, iblk_4 V c t, iblk_5 V c t, iblk_6 V c t, iblk_7 V c t, iblk_8 V c t, iblk_9 V c t, iblk_10 V c t, iblk_11 V c t, iblk_12 V c t]
  funext j
  show (ramp (mlpCore (iblk7 V c 0 t) (V c main_v391) (row (V c main_v414)) (row (V c main_v417)) (row (V c main_v418)) (row (V c main_v415)) (row (V c main_v416)) (V c main_v403) (row (V c main_v419)) (row (V c main_v422)) (row (V c main_v423)) (row (V c main_v420)) (row (V c main_v421)))) j = G V c (((cfg7.win 13).blk t).view.emb j)
  unfold G
  refine tile_value (V c main_v389) (iblk7 V c 0 t) (V c main_v391) (V c main_v414) (V c main_v415) (V c main_v416) (V c main_v417) (V c main_v418) (V c main_v403) (V c main_v419) (V c main_v420) (V c main_v421) (V c main_v422) (V c main_v423) t.val
    (fun y k e0 e1 => iblk_x V c t y k e0 e1) j _ ?_ ?_
  · show win7_13.index t 0 * 512 + 1 * (j 0).val = 512 * t.val + (j 0).val; rw [h0]; omega
  · show win7_13.index t 1 * 128 + 1 * (j 1).val = (j 1).val; rw [h1]; omega

/-- An index of the output array is in point t's block iff each coordinate is in the block's range on its axis. -/
theorem mem_blk (t : Fin cfg7.N) (i : S512x128.Idx) :
    i ∈ ((cfg7.win 13).blk t).view.set ↔ ∀ a : Fin 2, win7_13.index t a * S512x128.size a ≤ (i a).val ∧ (i a).val < win7_13.index t a * S512x128.size a + S512x128.size a := by
  show i ∈ ((View.whole main_v424).slice (win7_13.rect t)).set ↔ _
  rw [View.set_slice_whole, Rect.mem_set_unit]
  exact Iff.rfl

/-- THE ARRAY after the launch: G of the entry arrays. -/
theorem final (c : Dev nD) : (dat7 V c).arrAt 13 cfg7.N = G V c :=
  (dat7 V c).arrAt_eq_of_cover 13 (G V c) (flushed_eq V c) fun i => by
    have hi0 : (i 0).val < 512 := (i 0).isLt
    have hi1 : (i 1).val < 128 := (i 1).isLt
    have hN : cfg7.N = 1 := N_7
    refine ⟨⟨(i 0).val / 512, by rw [hN]; omega⟩, flush7_13 _, ?_⟩
    rw [mem_blk]
    obtain ⟨-, -, h0, h1, -⟩ := idx_facts ⟨(i 0).val / 512, by rw [hN]; omega⟩
    intro a
    match a with
    | ⟨0, _⟩ => show win7_13.index _ 0 * 512 ≤ (i 0).val ∧ (i 0).val < win7_13.index _ 0 * 512 + 512; rw [h0]; show (i 0).val / 512 * 512 ≤ _ ∧ _ < (i 0).val / 512 * 512 + 512; omega
    | ⟨1, _⟩ => show win7_13.index _ 1 * 128 ≤ (i 1).val ∧ (i 1).val < win7_13.index _ 1 * 128 + 128; rw [h1]; omega

end Cert.KernelIdeal.Reg7

end
-- ==== Proof.KR8.lean ====
/-
  Launch 8 of the two-layer kernel (the node array, 50 tiles of 2000 rows), at arbitrary entry contents V: after the launch its output array holds
  the two-layer normalised map (this launch has no last ramp) of the entry arrays, row by row.

  At grid point t the body reads rows 2000·t … 2000·t + 1999 of the first array and the twelve parameter arrays whole, computes the
  map on that tile, and writes the tile back to the same rows of the output array. An entry of the map reads one row of its
  first argument, so the tile's value at (a, q) is the whole array's value at (2000·t + a, q); the 50 tiles cover every row.
-/
import proofs.«116444_j64183991272049_2_alg».proof.Proof.Gen.KernelIdeal.Frame
import proofs.«116444_j64183991272049_2_alg».proof.Proof.LibNormLayer
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Reg8

open Cert.KernelIdeal Cert.KernelIdeal.Gen Cert.LibNormLayer

variable (V : (c : Dev nD) → (b : Ref sig .tc) → Buf (Elt Ideal) ((c : Thread nD τ).loc b))

theorem hz : (![0, 0] : Fin 2 → Nat) = fun _ => 0 := funext fun a => by fin_cases a <;> rfl

/-- A [1,k] array's one row, as a function of the lane. -/
abbrev row {k : Nat} (r : (⟨2, ![1, k]⟩ : Shape).Idx → EReal) : Fin k → EReal := fun q => r (ix2 (0 : Fin 1) q)

/-- The body's arithmetic on its loaded blocks is the two-layer map of the tile. -/
theorem pay_eq (x0 : Vec Ideal S2000x128 .f32) (x1 : Vec Ideal S128x256 .f32) (x2 x3 x4 x5 x6 : Vec Ideal S1x256 .f32)
    (x7 : Vec Ideal S256x128 .f32) (x8 x9 x10 x11 x12 : Vec Ideal S1x128 .f32) :
    k8_pay1 (k8_pay2 x0 x1 x2 x5 x6 x3 x4 x7) x8 x11 x12 x9 x10
      = mlpCore x0 x1 (row x2) (row x5) (row x6) (row x3) (row x4) x7 (row x8) (row x11) (row x12) (row x9) (row x10) := by
  unfold k8_pay1 k8_pay2
  dsimp only
  have e1 := tile_normLin dot_S2000x128_S128x256_S2000x256_1_0_0_1_n_n rfl bitsLt_bf16_f32 shapeCasts_S1x256_S1x256 broadcasts_S1x256_S2000x256 x0 x1 x2 x5 x6 x3 x4
  simp only [shapeCast_self] at e1 ⊢
  rw [e1, tile_ramp]
  have e2 := fun A => tile_normLin dot_S2000x256_S256x128_S2000x128_1_0_0_1_n_n rfl bitsLt_bf16_f32 shapeCasts_S1x128_S1x128 broadcasts_S1x128_S2000x128 A x7 x8 x11 x12 x9 x10
  simp only [shapeCast_self] at e2
  rw [e2]
  rfl

/-- What the launch leaves in its output array, as one function of the entry arrays. -/
def G (c : Dev nD) : S100000x128.Idx → EReal :=
  mlpCore (V c main_v453) (V c main_v455) (row (V c main_v478)) (row (V c main_v481)) (row (V c main_v482)) (row (V c main_v479)) (row (V c main_v480)) (V c main_v467) (row (V c main_v483)) (row (V c main_v486)) (row (V c main_v487)) (row (V c main_v484)) (row (V c main_v485))

/-- The printed index maps, decided over the grid: the tiled windows move with the point, the parameter windows stay. -/
theorem idx_facts : ∀ t : Fin cfg8.N, win8_0.index t (0 : Fin 2) = t.val ∧ win8_0.index t (1 : Fin 2) = 0
    ∧ win8_13.index t (0 : Fin 2) = t.val ∧ win8_13.index t (1 : Fin 2) = 0
    ∧ (∀ a : Fin 2, win8_1.index t a = 0)
    ∧ (∀ a : Fin 2, win8_2.index t a = 0)
    ∧ (∀ a : Fin 2, win8_3.index t a = 0)
    ∧ (∀ a : Fin 2, win8_4.index t a = 0)
    ∧ (∀ a : Fin 2, win8_5.index t a = 0)
    ∧ (∀ a : Fin 2, win8_6.index t a = 0)
    ∧ (∀ a : Fin 2, win8_7.index t a = 0)
    ∧ (∀ a : Fin 2, win8_8.index t a = 0)
    ∧ (∀ a : Fin 2, win8_9.index t a = 0)
    ∧ (∀ a : Fin 2, win8_10.index t a = 0)
    ∧ (∀ a : Fin 2, win8_11.index t a = 0)
    ∧ (∀ a : Fin 2, win8_12.index t a = 0) :=
  (by decide +kernel : ∀ t : Fin grid8.N, _)

/-- The first window's block at point t is rows 2000·t … of its array. -/
theorem iblk_x (c : Dev nD) (t : Fin cfg8.N) (x : S2000x128.Idx) (k : S100000x128.Idx)
    (hk0 : (k 0).val = 2000 * t.val + (x 0).val) (hk1 : (k 1).val = (x 1).val) :
    (iblk8 V c 0 t : Vec Ideal S2000x128 .f32) x = (V c main_v453 : S100000x128.Idx → EReal) k := by
  obtain ⟨h0, h1, -⟩ := idx_facts t
  unfold iblk8
  rw [View.read_apply]
  show V c main_v453 _ = V c main_v453 _
  congr 1
  funext a
  apply Fin.ext
  match a with
  | ⟨0, _⟩ => show win8_0.index t 0 * 2000 + 1 * (x 0).val = (k 0).val; rw [h0, hk0]; omega
  | ⟨1, _⟩ => show win8_0.index t 1 * 128 + 1 * (x 1).val = (k 1).val; rw [h1, hk1]; omega

theorem iblk_1 (c : Dev nD) (t : Fin cfg8.N) : (iblk8 V c 1 t : Vec Ideal S128x256 .f32) = (V c main_v455 : S128x256.Idx → EReal) := by
  have hw := (idx_facts t).2.2.2.2.1
  funext x
  unfold iblk8
  rw [View.read_apply]
  show V c main_v455 _ = V c main_v455 x
  congr 1
  funext a
  apply Fin.ext
  match a with
  | ⟨0, _⟩ => show win8_1.index t 0 * 128 + 1 * (x 0).val = (x 0).val; rw [hw 0]; omega
  | ⟨1, _⟩ => show win8_1.index t 1 * 256 + 1 * (x 1).val = (x 1).val; rw [hw 1]; omega

theorem iblk_2 (c : Dev nD) (t : Fin cfg8.N) : (iblk8 V c 2 t : Vec Ideal S1x256 .f32) = (V c main_v478 : S1x256.Idx → EReal) := by
  have hw := (idx_facts t).2.2.2.2.2.1
  funext x
  unfold iblk8
  rw [View.read_apply]
  show V c main_v478 _ = V c main_v478 x
  congr 1
  funext a
  apply Fin.ext
  match a with
  | ⟨0, _⟩ => show win8_2.index t 0 * 1 + 1 * (x 0).val = (x 0).val; rw [hw 0]; omega
  | ⟨1, _⟩ => show win8_2.index t 1 * 256 + 1 * (x 1).val = (x 1).val; rw [hw 1]; omega

theorem iblk_3 (c : Dev nD) (t : Fin cfg8.N) : (iblk8 V c 3 t : Vec Ideal S1x256 .f32) = (V c main_v479 : S1x256.Idx → EReal) := by
  have hw := (idx_facts t).2.2.2.2.2.2.1
  funext x
  unfold iblk8
  rw [View.read_apply]
  show V c main_v479 _ = V c main_v479 x
  congr 1
  funext a
  apply Fin.ext
  match a with
  | ⟨0, _⟩ => show win8_3.index t 0 * 1 + 1 * (x 0).val = (x 0).val; rw [hw 0]; omega
  | ⟨1, _⟩ => show win8_3.index t 1 * 256 + 1 * (x 1).val = (x 1).val; rw [hw 1]; omega

theorem iblk_4 (c : Dev nD) (t : Fin cfg8.N) : (iblk8 V c 4 t : Vec Ideal S1x256 .f32) = (V c main_v480 : S1x256.Idx → EReal) := by
  have hw := (idx_facts t).2.2.2.2.2.2.2.1
  funext x
  unfold iblk8
  rw [View.read_apply]
  show V c main_v480 _ = V c main_v480 x
  congr 1
  funext a
  apply Fin.ext
  match a with
  | ⟨0, _⟩ => show win8_4.index t 0 * 1 + 1 * (x 0).val = (x 0).val; rw [hw 0]; omega
  | ⟨1, _⟩ => show win8_4.index t 1 * 256 + 1 * (x 1).val = (x 1).val; rw [hw 1]; omega

theorem iblk_5 (c : Dev nD) (t : Fin cfg8.N) : (iblk8 V c 5 t : Vec Ideal S1x256 .f32) = (V c main_v481 : S1x256.Idx → EReal) := by
  have hw := (idx_facts t).2.2.2.2.2.2.2.2.1
  funext x
  unfold iblk8
  rw [View.read_apply]
  show V c main_v481 _ = V c main_v481 x
  congr 1
  funext a
  apply Fin.ext
  match a with
  | ⟨0, _⟩ => show win8_5.index t 0 * 1 + 1 * (x 0).val = (x 0).val; rw [hw 0]; omega
  | ⟨1, _⟩ => show win8_5.index t 1 * 256 + 1 * (x 1).val = (x 1).val; rw [hw 1]; omega

theorem iblk_6 (c : Dev nD) (t : Fin cfg8.N) : (iblk8 V c 6 t : Vec Ideal S1x256 .f32) = (V c main_v482 : S1x256.Idx → EReal) := by
  have hw := (idx_facts t).2.2.2.2.2.2.2.2.2.1
  funext x
  unfold iblk8
  rw [View.read_apply]
  show V c main_v482 _ = V c main_v482 x
  congr 1
  funext a
  apply Fin.ext
  match a with
  | ⟨0, _⟩ => show win8_6.index t 0 * 1 + 1 * (x 0).val = (x 0).val; rw [hw 0]; omega
  | ⟨1, _⟩ => show win8_6.index t 1 * 256 + 1 * (x 1).val = (x 1).val; rw [hw 1]; omega

theorem iblk_7 (c : Dev nD) (t : Fin cfg8.N) : (iblk8 V c 7 t : Vec Ideal S256x128 .f32) = (V c main_v467 : S256x128.Idx → EReal) := by
  have hw := (idx_facts t).2.2.2.2.2.2.2.2.2.2.1
  funext x
  unfold iblk8
  rw [View.read_apply]
  show V c main_v467 _ = V c main_v467 x
  congr 1
  funext a
  apply Fin.ext
  match a with
  | ⟨0, _⟩ => show win8_7.index t 0 * 256 + 1 * (x 0).val = (x 0).val; rw [hw 0]; omega
  | ⟨1, _⟩ => show win8_7.index t 1 * 128 + 1 * (x 1).val = (x 1).val; rw [hw 1]; omega

theorem iblk_8 (c : Dev nD) (t : Fin cfg8.N) : (iblk8 V c 8 t : Vec Ideal S1x128 .f32) = (V c main_v483 : S1x128.Idx → EReal) := by
  have hw := (idx_facts t).2.2.2.2.2.2.2.2.2.2.2.1
  funext x
  unfold iblk8
  rw [View.read_apply]
  show V c main_v483 _ = V c main_v483 x
  congr 1
  funext a
  apply Fin.ext
  match a with
  | ⟨0, _⟩ => show win8_8.index t 0 * 1 + 1 * (x 0).val = (x 0).val; rw [hw 0]; omega
  | ⟨1, _⟩ => show win8_8.index t 1 * 128 + 1 * (x 1).val = (x 1).val; rw [hw 1]; omega

theorem iblk_9 (c : Dev nD) (t : Fin cfg8.N) : (iblk8 V c 9 t : Vec Ideal S1x128 .f32) = (V c main_v484 : S1x128.Idx → EReal) := by
  have hw := (idx_facts t).2.2.2.2.2.2.2.2.2.2.2.2.1
  funext x
  unfold iblk8
  rw [View.read_apply]
  show V c main_v484 _ = V c main_v484 x
  congr 1
  funext a
  apply Fin.ext
  match a with
  | ⟨0, _⟩ => show win8_9.index t 0 * 1 + 1 * (x 0).val = (x 0).val; rw [hw 0]; omega
  | ⟨1, _⟩ => show win8_9.index t 1 * 128 + 1 * (x 1).val = (x 1).val; rw [hw 1]; omega

theorem iblk_10 (c : Dev nD) (t : Fin cfg8.N) : (iblk8 V c 10 t : Vec Ideal S1x128 .f32) = (V c main_v485 : S1x128.Idx → EReal) := by
  have hw := (idx_facts t).2.2.2.2.2.2.2.2.2.2.2.2.2.1
  funext x
  unfold iblk8
  rw [View.read_apply]
  show V c main_v485 _ = V c main_v485 x
  congr 1
  funext a
  apply Fin.ext
  match a with
  | ⟨0, _⟩ => show win8_10.index t 0 * 1 + 1 * (x 0).val = (x 0).val; rw [hw 0]; omega
  | ⟨1, _⟩ => show win8_10.index t 1 * 128 + 1 * (x 1).val = (x 1).val; rw [hw 1]; omega

theorem iblk_11 (c : Dev nD) (t : Fin cfg8.N) : (iblk8 V c 11 t : Vec Ideal S1x128 .f32) = (V c main_v486 : S1x128.Idx → EReal) := by
  have hw := (idx_facts t).2.2.2.2.2.2.2.2.2.2.2.2.2.2.1
  funext x
  unfold iblk8
  rw [View.read_apply]
  show V c main_v486 _ = V c main_v486 x
  congr 1
  funext a
  apply Fin.ext
  match a with
  | ⟨0, _⟩ => show win8_11.index t 0 * 1 + 1 * (x 0).val = (x 0).val; rw [hw 0]; omega
  | ⟨1, _⟩ => show win8_11.index t 1 * 128 + 1 * (x 1).val = (x 1).val; rw [hw 1]; omega

theorem iblk_12 (c : Dev nD) (t : Fin cfg8.N) : (iblk8 V c 12 t : Vec Ideal S1x128 .f32) = (V c main_v487 : S1x128.Idx → EReal) := by
  have hw := (idx_facts t).2.2.2.2.2.2.2.2.2.2.2.2.2.2.2
  funext x
  unfold iblk8
  rw [View.read_apply]
  show V c main_v487 _ = V c main_v487 x
  congr 1
  funext a
  apply Fin.ext
  match a with
  | ⟨0, _⟩ => show win8_12.index t 0 * 1 + 1 * (x 0).val = (x 0).val; rw [hw 0]; omega
  | ⟨1, _⟩ => show win8_12.index t 1 * 128 + 1 * (x 1).val = (x 1).val; rw [hw 1]; omega

/-- A tile that holds rows 2000·T … of an array has, at each of its rows, the whole array's value of the map at that row. -/
theorem tile_value (X : S100000x128.Idx → EReal) (xb : Vec Ideal S2000x128 .f32) (W1 : S128x256.Idx → EReal) (r2 r3 r4 r5 r6 : S1x256.Idx → EReal)
    (W2 : S256x128.Idx → EReal) (r8 r9 r10 r11 r12 : S1x128.Idx → EReal) (T : Nat)
    (hx : ∀ (y : S2000x128.Idx) (k : S100000x128.Idx), (k 0).val = 2000 * T + (y 0).val → (k 1).val = (y 1).val → xb y = X k)
    (y : S2000x128.Idx) (k : S100000x128.Idx) (hk0 : (k 0).val = 2000 * T + (y 0).val) (hk1 : (k 1).val = (y 1).val) :
    (mlpCore xb W1 (row r2) (row r5) (row r6) (row r3) (row r4) W2 (row r8) (row r11) (row r12) (row r9) (row r10)) y
      = (mlpCore X W1 (row r2) (row r5) (row r6) (row r3) (row r4) W2 (row r8) (row r11) (row r12) (row r9) (row r10)) k := by
  obtain ⟨a, q, rfl⟩ : ∃ (a : Fin 2000) (q : Fin 128), y = ix2 a q := ⟨y 0, y 1, eq_ix2 y⟩
  obtain ⟨A, q', rfl⟩ : ∃ (A : Fin 100000) (q' : Fin 128), k = ix2 A q' := ⟨k 0, k 1, eq_ix2 k⟩
  have hq : q' = q := Fin.ext hk1
  subst hq
  exact mlpCore_rows X xb W1 (row r2) (row r5) (row r6) (row r3) (row r4) W2 (row r8) (row r11) (row r12) (row r9) (row r10) a A q'
    (fun c' => hx (ix2 a c') (ix2 A c') hk0 rfl)

/-- What point t writes back is block t of G. -/
theorem flushed_eq (c : Dev nD) (t : Fin cfg8.N) (hf : (cfg8.win 13).flush t = true) :
    (dat8 V c).flushed 13 t = ((cfg8.win 13).blk t).view.read (Elt Ideal) (G V c) := by
  obtain ⟨-, -, h0, h1, -⟩ := idx_facts t
  show (cfg8.win 13).cut (grid8.coords t) ((dat8 V c).after 13 t) = _
  rw [after8_13]
  unfold out8_13
  rw [View.canon_unit_zero hz]
  simp only [View.ld_unit_zero (S := S2000x128) hz, View.ld_unit_zero (S := S128x256) hz, View.ld_unit_zero (S := S1x256) hz,
    View.ld_unit_zero (S := S256x128) hz, View.ld_unit_zero (S := S1x128) hz]
  rw [pay_eq, iblk_1 V c t, iblk_2 V c t, iblk_3 V c t, iblk_4 V c t, iblk_5 V c t, iblk_6 V c t, iblk_7 V c t, iblk_8 V c t, iblk_9 V c t, iblk_10 V c t, iblk_11 V c t, iblk_12 V c t]
  funext j
  show (mlpCore (iblk8 V c 0 t) (V c main_v455) (row (V c main_v478)) (row (V c main_v481)) (row (V c main_v482)) (row (V c main_v479)) (row (V c main_v480)) (V c main_v467) (row (V c main_v483)) (row (V c main_v486)) (row (V c main_v487)) (row (V c main_v484)) (row (V c main_v485))) j = G V c (((cfg8.win 13).blk t).view.emb j)
  unfold G
  refine tile_value (V c main_v453) (iblk8 V c 0 t) (V c main_v455) (V c main_v478) (V c main_v479) (V c main_v480) (V c main_v481) (V c main_v482) (V c main_v467) (V c main_v483) (V c main_v484) (V c main_v485) (V c main_v486) (V c main_v487) t.val
    (fun y k e0 e1 => iblk_x V c t y k e0 e1) j _ ?_ ?_
  · show win8_13.index t 0 * 2000 + 1 * (j 0).val = 2000 * t.val + (j 0).val; rw [h0]; omega
  · show win8_13.index t 1 * 128 + 1 * (j 1).val = (j 1).val; rw [h1]; omega

/-- An index of the output array is in point t's block iff each coordinate is in the block's range on its axis. -/
theorem mem_blk (t : Fin cfg8.N) (i : S100000x128.Idx) :
    i ∈ ((cfg8.win 13).blk t).view.set ↔ ∀ a : Fin 2, win8_13.index t a * S2000x128.size a ≤ (i a).val ∧ (i a).val < win8_13.index t a * S2000x128.size a + S2000x128.size a := by
  show i ∈ ((View.whole main_v488).slice (win8_13.rect t)).set ↔ _
  rw [View.set_slice_whole, Rect.mem_set_unit]
  exact Iff.rfl

/-- THE ARRAY after the launch: G of the entry arrays. -/
theorem final (c : Dev nD) : (dat8 V c).arrAt 13 cfg8.N = G V c :=
  (dat8 V c).arrAt_eq_of_cover 13 (G V c) (flushed_eq V c) fun i => by
    have hi0 : (i 0).val < 100000 := (i 0).isLt
    have hi1 : (i 1).val < 128 := (i 1).isLt
    have hN : cfg8.N = 50 := N_8
    refine ⟨⟨(i 0).val / 2000, by rw [hN]; omega⟩, flush8_13 _, ?_⟩
    rw [mem_blk]
    obtain ⟨-, -, h0, h1, -⟩ := idx_facts ⟨(i 0).val / 2000, by rw [hN]; omega⟩
    intro a
    match a with
    | ⟨0, _⟩ => show win8_13.index _ 0 * 2000 ≤ (i 0).val ∧ (i 0).val < win8_13.index _ 0 * 2000 + 2000; rw [h0]; show (i 0).val / 2000 * 2000 ≤ _ ∧ _ < (i 0).val / 2000 * 2000 + 2000; omega
    | ⟨1, _⟩ => show win8_13.index _ 1 * 128 ≤ (i 1).val ∧ (i 1).val < win8_13.index _ 1 * 128 + 128; rw [h1]; omega

end Cert.KernelIdeal.Reg8

end
-- ==== Proof.KChain.lean ====
/-
  The idealized kernel's run, boundary by boundary: what the fold of the run leaves in the buffers that later segments
  read, in the network's terms, and at the end the result buffer at the network's value.

  The run's contents at the boundaries of @main's eighteen segments are a fold from the launch memory: a host stretch maps
  the contents by its operations, a launch replaces its own arrays by what its write-backs leave and keeps every other
  buffer. Carried along: the argument arrays (never written), the edges' start and end nodes, and the values of the
  network computed so far — after stretch 2l the node array before aggregation hin_l, after launch 2l the node array
  h_{l+1}, after launch 2l+1 the graph table vn_{l+1}. The last launch leaves the network's result.
-/
import proofs.«116444_j64183991272049_2_alg».proof.Proof.Gen.KernelIdeal.Frame
import proofs.«116444_j64183991272049_2_alg».proof.Proof.Net
import proofs.«116444_j64183991272049_2_alg».proof.Proof.KS0
import proofs.«116444_j64183991272049_2_alg».proof.Proof.KS1
import proofs.«116444_j64183991272049_2_alg».proof.Proof.KS2
import proofs.«116444_j64183991272049_2_alg».proof.Proof.KS3
import proofs.«116444_j64183991272049_2_alg».proof.Proof.KS4
import proofs.«116444_j64183991272049_2_alg».proof.Proof.KS5
import proofs.«116444_j64183991272049_2_alg».proof.Proof.KS6
import proofs.«116444_j64183991272049_2_alg».proof.Proof.KS7
import proofs.«116444_j64183991272049_2_alg».proof.Proof.KS8
import proofs.«116444_j64183991272049_2_alg».proof.Proof.KR0
import proofs.«116444_j64183991272049_2_alg».proof.Proof.KR1
import proofs.«116444_j64183991272049_2_alg».proof.Proof.KR2
import proofs.«116444_j64183991272049_2_alg».proof.Proof.KR3
import proofs.«116444_j64183991272049_2_alg».proof.Proof.KR4
import proofs.«116444_j64183991272049_2_alg».proof.Proof.KR5
import proofs.«116444_j64183991272049_2_alg».proof.Proof.KR6
import proofs.«116444_j64183991272049_2_alg».proof.Proof.KR7
import proofs.«116444_j64183991272049_2_alg».proof.Proof.KR8

set_option maxRecDepth 16384

noncomputable section

namespace Cert.KernelIdeal.Chain

open Cert.KernelIdeal Cert.KernelIdeal.Gen Cert.KernelIdeal.Host Cert.Net Cert.LibNormLayer
open Idealize.ShloMosaic Idealize.ShloMosaic.StableHlo Idealize.ShloMosaic.TcCoe Idealize.SL.Sem Idealize.ShloMosaic.ValueIdx

variable (m : (ℓ : Loc nD τ sig) → Buf (Elt Ideal) ℓ) (ρ : Dev nD → PrngReg) (c : Dev nD)

/-- The argument buffers hold the launch memory's arrays. -/
def ArgsAt (W : Valuation τ sig (Elt Ideal)) : Prop := ∀ b ∈ argRefs, W (Proc.devRef .tc b) = W0 m ρ c (Proc.devRef .tc b)

theorem args0 : ArgsAt m ρ c (W0 m ρ c) := fun _ _ => rfl

/-- A host stretch that writes no argument buffer keeps them. -/
theorem ArgsAt.stretch {W : Valuation τ sig (Elt Ideal)} (h : ArgsAt m ρ c W) {ops : List (HloOp τ sig (Elt Ideal))} {wr : List (Ref sig .tc)}
    (hc : Cert.SSA.Covers ops wr) (hd : ∀ b ∈ argRefs, b ∉ wr) : ArgsAt m ρ c (after ops W) :=
  fun b hb => (after_of_forall_not_mem _ _ (Cert.SSA.not_written hc (hd b hb))).trans (h b hb)

/-! ## Stretch 0 and launch 0 -/

theorem disj0 : ∀ b ∈ argRefs, b ∉ wr0 := by decide +kernel
theorem rdisj0 : ∀ b ∈ argRefs, ∀ w, Pipeline.arrRef spec0 w ≠ b := by decide +kernel
theorem args1 : ArgsAt m ρ c (W1 m ρ c) := (args0 m ρ c).stretch m ρ c covers0 disj0
theorem args2 : ArgsAt m ρ c (W2 m ρ c) := fun b hb => (W2_of_ne m ρ c b (rdisj0 b hb)).trans (args1 m ρ c b hb)
theorem src_at1 : (W1 m ρ c (Proc.devRef .tc main_v1) : S600000.Idx → BitVec 32) = srcOf layout (args m c).edges := s0_src (W0 m ρ c)
theorem dst_at1 : (W1 m ρ c (Proc.devRef .tc main_v3) : S600000.Idx → BitVec 32) = dstOf layout (args m c).edges := s0_dst (W0 m ρ c)
theorem vn0_at1 : (W1 m ρ c (Proc.devRef .tc main_v5) : S512x128.Idx → EReal) = vn0 layout (args m c) := s0_vn (W0 m ρ c)
theorem hin0_at1 : (W1 m ρ c (Proc.devRef .tc main_v20) : S100000x128.Idx → EReal) = hin0 dims layout (args m c) := s0_hin (W0 m ρ c)
theorem h1_at2 : (W2 m ρ c (Proc.devRef .tc main_v76) : S100000x128.Idx → EReal) = h1 dims layout (args m c) := by
  refine (show _ = _ from W2_arr m ρ c 13).trans ?_
  rw [Reg0.final (V1 m ρ) c]
  unfold Reg0.G
  have ez : (V1 m ρ c main_v41 : S100000x128.Idx → EReal) = zAt dims layout (args m c) 0 (hin0 dims layout (args m c)) := s0_z (W0 m ρ c)
  have e1 : (V1 m ρ c main_v43 : S128x256.Idx → EReal) = wAt (args m c).mW1 (0 : Fin 5) := s0_W1 (W0 m ρ c)
  have e7 : (V1 m ρ c main_v55 : S256x128.Idx → EReal) = wAt (args m c).mW2 (0 : Fin 5) := s0_W2 (W0 m ρ c)
  have e2 : Reg0.row (V1 m ρ c main_v66) = rowAt (args m c).mb1 (0 : Fin 5) := s0_r2 (W0 m ρ c)
  have e3 : Reg0.row (V1 m ρ c main_v67) = rowAt (args m c).mg (0 : Fin 5) := s0_r3 (W0 m ρ c)
  have e4 : Reg0.row (V1 m ρ c main_v68) = rowAt (args m c).mb (0 : Fin 5) := s0_r4 (W0 m ρ c)
  have e5 : Reg0.row (V1 m ρ c main_v69) = rowAt (args m c).mm (0 : Fin 5) := s0_r5 (W0 m ρ c)
  have e6 : Reg0.row (V1 m ρ c main_v70) = rowAt (args m c).mv (0 : Fin 5) := s0_r6 (W0 m ρ c)
  have e8 : Reg0.row (V1 m ρ c main_v71) = rowAt (args m c).mb2 (0 : Fin 5) := s0_r8 (W0 m ρ c)
  have e9 : Reg0.row (V1 m ρ c main_v72) = rowAt (args m c).ng (0 : Fin 5) := s0_r9 (W0 m ρ c)
  have e10 : Reg0.row (V1 m ρ c main_v73) = rowAt (args m c).nb (0 : Fin 5) := s0_r10 (W0 m ρ c)
  have e11 : Reg0.row (V1 m ρ c main_v74) = rowAt (args m c).nm (0 : Fin 5) := s0_r11 (W0 m ρ c)
  have e12 : Reg0.row (V1 m ρ c main_v75) = rowAt (args m c).nv (0 : Fin 5) := s0_r12 (W0 m ρ c)
  rw [ez, e1, e7, e2, e3, e4, e5, e6, e8, e9, e10, e11, e12]
  rfl
theorem src_at2 : (W2 m ρ c (Proc.devRef .tc main_v1) : S600000.Idx → BitVec 32) = srcOf layout (args m c).edges := (W2_of_ne m ρ c main_v1 (by decide +kernel)).trans (src_at1 m ρ c)
theorem dst_at2 : (W2 m ρ c (Proc.devRef .tc main_v3) : S600000.Idx → BitVec 32) = dstOf layout (args m c).edges := (W2_of_ne m ρ c main_v3 (by decide +kernel)).trans (dst_at1 m ρ c)
theorem vn0_at2 : (W2 m ρ c (Proc.devRef .tc main_v5) : S512x128.Idx → EReal) = vn0 layout (args m c) := (W2_of_ne m ρ c main_v5 (by decide +kernel)).trans (vn0_at1 m ρ c)
theorem hin0_at2 : (W2 m ρ c (Proc.devRef .tc main_v20) : S100000x128.Idx → EReal) = hin0 dims layout (args m c) := (W2_of_ne m ρ c main_v20 (by decide +kernel)).trans (hin0_at1 m ρ c)

/-! ## Stretch 1 and launch 1 -/

theorem disj1 : ∀ b ∈ argRefs, b ∉ wr1 := by decide +kernel
theorem rdisj1 : ∀ b ∈ argRefs, ∀ w, Pipeline.arrRef spec1 w ≠ b := by decide +kernel
theorem args3 : ArgsAt m ρ c (W3 m ρ c) := (args2 m ρ c).stretch m ρ c covers1 disj1
theorem args4 : ArgsAt m ρ c (W4 m ρ c) := fun b hb => (W4_of_ne m ρ c b (rdisj1 b hb)).trans (args3 m ρ c b hb)
theorem src_at3 : (W3 m ρ c (Proc.devRef .tc main_v1) : S600000.Idx → BitVec 32) = srcOf layout (args m c).edges := (keep1 (W2 m ρ c) main_v1 (by decide +kernel)).trans (src_at2 m ρ c)
theorem dst_at3 : (W3 m ρ c (Proc.devRef .tc main_v3) : S600000.Idx → BitVec 32) = dstOf layout (args m c).edges := (keep1 (W2 m ρ c) main_v3 (by decide +kernel)).trans (dst_at2 m ρ c)
theorem h1_at3 : (W3 m ρ c (Proc.devRef .tc main_v76) : S100000x128.Idx → EReal) = h1 dims layout (args m c) := (keep1 (W2 m ρ c) main_v76 (by decide +kernel)).trans (h1_at2 m ρ c)
theorem vn1_at4 : (W4 m ρ c (Proc.devRef .tc main_v115) : S512x128.Idx → EReal) = vn1 dims layout (args m c) := by
  refine (show _ = _ from W4_arr m ρ c 13).trans ?_
  rw [Reg1.final (V3 m ρ) c]
  unfold Reg1.G
  have ez : (V3 m ρ c main_v80 : S512x128.Idx → EReal) = vtOf dims layout (hin0 dims layout (args m c)) (vn0 layout (args m c)) (args m c).batch := by
    refine (s1_vt (W2 m ρ c)).trans ?_
    rw [(hin0_at2 m ρ c), (vn0_at2 m ρ c), (args2 m ρ c main_arg2 (by decide +kernel))]
    rfl
  have e1 : (V3 m ρ c main_v82 : S128x256.Idx → EReal) = wAt (args m c).vW1 (0 : Fin 4) := by
    refine (s1_W1 (W2 m ρ c)).trans ?_
    rw [(args2 m ρ c main_arg18 (by decide +kernel))]
    rfl
  have e7 : (V3 m ρ c main_v94 : S256x128.Idx → EReal) = wAt (args m c).vW2 (0 : Fin 4) := by
    refine (s1_W2 (W2 m ρ c)).trans ?_
    rw [(args2 m ρ c main_arg24 (by decide +kernel))]
    rfl
  have e2 : Reg1.row (V3 m ρ c main_v105) = rowAt (args m c).vb1 (0 : Fin 4) := by
    refine (s1_r2 (W2 m ρ c)).trans ?_
    rw [(args2 m ρ c main_arg19 (by decide +kernel))]
    rfl
  have e3 : Reg1.row (V3 m ρ c main_v106) = rowAt (args m c).vg1 (0 : Fin 4) := by
    refine (s1_r3 (W2 m ρ c)).trans ?_
    rw [(args2 m ρ c main_arg20 (by decide +kernel))]
    rfl
  have e4 : Reg1.row (V3 m ρ c main_v107) = rowAt (args m c).vbb1 (0 : Fin 4) := by
    refine (s1_r4 (W2 m ρ c)).trans ?_
    rw [(args2 m ρ c main_arg21 (by decide +kernel))]
    rfl
  have e5 : Reg1.row (V3 m ρ c main_v108) = rowAt (args m c).vm1 (0 : Fin 4) := by
    refine (s1_r5 (W2 m ρ c)).trans ?_
    rw [(args2 m ρ c main_arg22 (by decide +kernel))]
    rfl
  have e6 : Reg1.row (V3 m ρ c main_v109) = rowAt (args m c).vv1 (0 : Fin 4) := by
    refine (s1_r6 (W2 m ρ c)).trans ?_
    rw [(args2 m ρ c main_arg23 (by decide +kernel))]
    rfl
  have e8 : Reg1.row (V3 m ρ c main_v110) = rowAt (args m c).vb2 (0 : Fin 4) := by
    refine (s1_r8 (W2 m ρ c)).trans ?_
    rw [(args2 m ρ c main_arg25 (by decide +kernel))]
    rfl
  have e9 : Reg1.row (V3 m ρ c main_v111) = rowAt (args m c).vg2 (0 : Fin 4) := by
    refine (s1_r9 (W2 m ρ c)).trans ?_
    rw [(args2 m ρ c main_arg26 (by decide +kernel))]
    rfl
  have e10 : Reg1.row (V3 m ρ c main_v112) = rowAt (args m c).vbb2 (0 : Fin 4) := by
    refine (s1_r10 (W2 m ρ c)).trans ?_
    rw [(args2 m ρ c main_arg27 (by decide +kernel))]
    rfl
  have e11 : Reg1.row (V3 m ρ c main_v113) = rowAt (args m c).vm2 (0 : Fin 4) := by
    refine (s1_r11 (W2 m ρ c)).trans ?_
    rw [(args2 m ρ c main_arg28 (by decide +kernel))]
    rfl
  have e12 : Reg1.row (V3 m ρ c main_v114) = rowAt (args m c).vv2 (0 : Fin 4) := by
    refine (s1_r12 (W2 m ρ c)).trans ?_
    rw [(args2 m ρ c main_arg29 (by decide +kernel))]
    rfl
  rw [ez, e1, e7, e2, e3, e4, e5, e6, e8, e9, e10, e11, e12]
  rfl
theorem src_at4 : (W4 m ρ c (Proc.devRef .tc main_v1) : S600000.Idx → BitVec 32) = srcOf layout (args m c).edges := (W4_of_ne m ρ c main_v1 (by decide +kernel)).trans (src_at3 m ρ c)
theorem dst_at4 : (W4 m ρ c (Proc.devRef .tc main_v3) : S600000.Idx → BitVec 32) = dstOf layout (args m c).edges := (W4_of_ne m ρ c main_v3 (by decide +kernel)).trans (dst_at3 m ρ c)
theorem h1_at4 : (W4 m ρ c (Proc.devRef .tc main_v76) : S100000x128.Idx → EReal) = h1 dims layout (args m c) := (W4_of_ne m ρ c main_v76 (by decide +kernel)).trans (h1_at3 m ρ c)

/-! ## Stretch 2 and launch 2 -/

theorem disj2 : ∀ b ∈ argRefs, b ∉ wr2 := by decide +kernel
theorem rdisj2 : ∀ b ∈ argRefs, ∀ w, Pipeline.arrRef spec2 w ≠ b := by decide +kernel
theorem args5 : ArgsAt m ρ c (W5 m ρ c) := (args4 m ρ c).stretch m ρ c covers2 disj2
theorem args6 : ArgsAt m ρ c (W6 m ρ c) := fun b hb => (W6_of_ne m ρ c b (rdisj2 b hb)).trans (args5 m ρ c b hb)
theorem src_at5 : (W5 m ρ c (Proc.devRef .tc main_v1) : S600000.Idx → BitVec 32) = srcOf layout (args m c).edges := (keep2 (W4 m ρ c) main_v1 (by decide +kernel)).trans (src_at4 m ρ c)
theorem dst_at5 : (W5 m ρ c (Proc.devRef .tc main_v3) : S600000.Idx → BitVec 32) = dstOf layout (args m c).edges := (keep2 (W4 m ρ c) main_v3 (by decide +kernel)).trans (dst_at4 m ρ c)
theorem vn1_at5 : (W5 m ρ c (Proc.devRef .tc main_v115) : S512x128.Idx → EReal) = vn1 dims layout (args m c) := (keep2 (W4 m ρ c) main_v115 (by decide +kernel)).trans (vn1_at4 m ρ c)
theorem hin1_at5 : (W5 m ρ c (Proc.devRef .tc main_v123) : S100000x128.Idx → EReal) = hin1 dims layout (args m c) := by
  refine (s2_hin (W4 m ρ c)).trans ?_
  rw [(h1_at4 m ρ c), (vn1_at4 m ρ c), (args4 m ρ c main_arg2 (by decide +kernel))]
  rfl
theorem h2_at6 : (W6 m ρ c (Proc.devRef .tc main_v179) : S100000x128.Idx → EReal) = h2 dims layout (args m c) := by
  refine (show _ = _ from W6_arr m ρ c 13).trans ?_
  rw [Reg2.final (V5 m ρ) c]
  unfold Reg2.G
  have ez : (V5 m ρ c main_v144 : S100000x128.Idx → EReal) = zAt dims layout (args m c) 1 (hin1 dims layout (args m c)) := by
    refine (s2_z (W4 m ρ c)).trans ?_
    rw [(h1_at4 m ρ c), (vn1_at4 m ρ c), (args4 m ρ c main_arg2 (by decide +kernel)), (src_at4 m ρ c), (dst_at4 m ρ c), (args4 m ρ c main_arg5 (by decide +kernel))]
    rfl
  have e1 : (V5 m ρ c main_v146 : S128x256.Idx → EReal) = wAt (args m c).mW1 (1 : Fin 5) := by
    refine (s2_W1 (W4 m ρ c)).trans ?_
    rw [(args4 m ρ c main_arg6 (by decide +kernel))]
    rfl
  have e7 : (V5 m ρ c main_v158 : S256x128.Idx → EReal) = wAt (args m c).mW2 (1 : Fin 5) := by
    refine (s2_W2 (W4 m ρ c)).trans ?_
    rw [(args4 m ρ c main_arg12 (by decide +kernel))]
    rfl
  have e2 : Reg2.row (V5 m ρ c main_v169) = rowAt (args m c).mb1 (1 : Fin 5) := by
    refine (s2_r2 (W4 m ρ c)).trans ?_
    rw [(args4 m ρ c main_arg7 (by decide +kernel))]
    rfl
  have e3 : Reg2.row (V5 m ρ c main_v170) = rowAt (args m c).mg (1 : Fin 5) := by
    refine (s2_r3 (W4 m ρ c)).trans ?_
    rw [(args4 m ρ c main_arg8 (by decide +kernel))]
    rfl
  have e4 : Reg2.row (V5 m ρ c main_v171) = rowAt (args m c).mb (1 : Fin 5) := by
    refine (s2_r4 (W4 m ρ c)).trans ?_
    rw [(args4 m ρ c main_arg9 (by decide +kernel))]
    rfl
  have e5 : Reg2.row (V5 m ρ c main_v172) = rowAt (args m c).mm (1 : Fin 5) := by
    refine (s2_r5 (W4 m ρ c)).trans ?_
    rw [(args4 m ρ c main_arg10 (by decide +kernel))]
    rfl
  have e6 : Reg2.row (V5 m ρ c main_v173) = rowAt (args m c).mv (1 : Fin 5) := by
    refine (s2_r6 (W4 m ρ c)).trans ?_
    rw [(args4 m ρ c main_arg11 (by decide +kernel))]
    rfl
  have e8 : Reg2.row (V5 m ρ c main_v174) = rowAt (args m c).mb2 (1 : Fin 5) := by
    refine (s2_r8 (W4 m ρ c)).trans ?_
    rw [(args4 m ρ c main_arg13 (by decide +kernel))]
    rfl
  have e9 : Reg2.row (V5 m ρ c main_v175) = rowAt (args m c).ng (1 : Fin 5) := by
    refine (s2_r9 (W4 m ρ c)).trans ?_
    rw [(args4 m ρ c main_arg14 (by decide +kernel))]
    rfl
  have e10 : Reg2.row (V5 m ρ c main_v176) = rowAt (args m c).nb (1 : Fin 5) := by
    refine (s2_r10 (W4 m ρ c)).trans ?_
    rw [(args4 m ρ c main_arg15 (by decide +kernel))]
    rfl
  have e11 : Reg2.row (V5 m ρ c main_v177) = rowAt (args m c).nm (1 : Fin 5) := by
    refine (s2_r11 (W4 m ρ c)).trans ?_
    rw [(args4 m ρ c main_arg16 (by decide +kernel))]
    rfl
  have e12 : Reg2.row (V5 m ρ c main_v178) = rowAt (args m c).nv (1 : Fin 5) := by
    refine (s2_r12 (W4 m ρ c)).trans ?_
    rw [(args4 m ρ c main_arg17 (by decide +kernel))]
    rfl
  rw [ez, e1, e7, e2, e3, e4, e5, e6, e8, e9, e10, e11, e12]
  rfl
theorem src_at6 : (W6 m ρ c (Proc.devRef .tc main_v1) : S600000.Idx → BitVec 32) = srcOf layout (args m c).edges := (W6_of_ne m ρ c main_v1 (by decide +kernel)).trans (src_at5 m ρ c)
theorem dst_at6 : (W6 m ρ c (Proc.devRef .tc main_v3) : S600000.Idx → BitVec 32) = dstOf layout (args m c).edges := (W6_of_ne m ρ c main_v3 (by decide +kernel)).trans (dst_at5 m ρ c)
theorem vn1_at6 : (W6 m ρ c (Proc.devRef .tc main_v115) : S512x128.Idx → EReal) = vn1 dims layout (args m c) := (W6_of_ne m ρ c main_v115 (by decide +kernel)).trans (vn1_at5 m ρ c)
theorem hin1_at6 : (W6 m ρ c (Proc.devRef .tc main_v123) : S100000x128.Idx → EReal) = hin1 dims layout (args m c) := (W6_of_ne m ρ c main_v123 (by decide +kernel)).trans (hin1_at5 m ρ c)

/-! ## Stretch 3 and launch 3 -/

theorem disj3 : ∀ b ∈ argRefs, b ∉ wr3 := by decide +kernel
theorem rdisj3 : ∀ b ∈ argRefs, ∀ w, Pipeline.arrRef spec3 w ≠ b := by decide +kernel
theorem args7 : ArgsAt m ρ c (W7 m ρ c) := (args6 m ρ c).stretch m ρ c covers3 disj3
theorem args8 : ArgsAt m ρ c (W8 m ρ c) := fun b hb => (W8_of_ne m ρ c b (rdisj3 b hb)).trans (args7 m ρ c b hb)
theorem src_at7 : (W7 m ρ c (Proc.devRef .tc main_v1) : S600000.Idx → BitVec 32) = srcOf layout (args m c).edges := (keep3 (W6 m ρ c) main_v1 (by decide +kernel)).trans (src_at6 m ρ c)
theorem dst_at7 : (W7 m ρ c (Proc.devRef .tc main_v3) : S600000.Idx → BitVec 32) = dstOf layout (args m c).edges := (keep3 (W6 m ρ c) main_v3 (by decide +kernel)).trans (dst_at6 m ρ c)
theorem h2_at7 : (W7 m ρ c (Proc.devRef .tc main_v179) : S100000x128.Idx → EReal) = h2 dims layout (args m c) := (keep3 (W6 m ρ c) main_v179 (by decide +kernel)).trans (h2_at6 m ρ c)
theorem vn2_at8 : (W8 m ρ c (Proc.devRef .tc main_v218) : S512x128.Idx → EReal) = vn2 dims layout (args m c) := by
  refine (show _ = _ from W8_arr m ρ c 13).trans ?_
  rw [Reg3.final (V7 m ρ) c]
  unfold Reg3.G
  have ez : (V7 m ρ c main_v183 : S512x128.Idx → EReal) = vtOf dims layout (hin1 dims layout (args m c)) (vn1 dims layout (args m c)) (args m c).batch := by
    refine (s3_vt (W6 m ρ c)).trans ?_
    rw [(hin1_at6 m ρ c), (vn1_at6 m ρ c), (args6 m ρ c main_arg2 (by decide +kernel))]
    rfl
  have e1 : (V7 m ρ c main_v185 : S128x256.Idx → EReal) = wAt (args m c).vW1 (1 : Fin 4) := by
    refine (s3_W1 (W6 m ρ c)).trans ?_
    rw [(args6 m ρ c main_arg18 (by decide +kernel))]
    rfl
  have e7 : (V7 m ρ c main_v197 : S256x128.Idx → EReal) = wAt (args m c).vW2 (1 : Fin 4) := by
    refine (s3_W2 (W6 m ρ c)).trans ?_
    rw [(args6 m ρ c main_arg24 (by decide +kernel))]
    rfl
  have e2 : Reg3.row (V7 m ρ c main_v208) = rowAt (args m c).vb1 (1 : Fin 4) := by
    refine (s3_r2 (W6 m ρ c)).trans ?_
    rw [(args6 m ρ c main_arg19 (by decide +kernel))]
    rfl
  have e3 : Reg3.row (V7 m ρ c main_v209) = rowAt (args m c).vg1 (1 : Fin 4) := by
    refine (s3_r3 (W6 m ρ c)).trans ?_
    rw [(args6 m ρ c main_arg20 (by decide +kernel))]
    rfl
  have e4 : Reg3.row (V7 m ρ c main_v210) = rowAt (args m c).vbb1 (1 : Fin 4) := by
    refine (s3_r4 (W6 m ρ c)).trans ?_
    rw [(args6 m ρ c main_arg21 (by decide +kernel))]
    rfl
  have e5 : Reg3.row (V7 m ρ c main_v211) = rowAt (args m c).vm1 (1 : Fin 4) := by
    refine (s3_r5 (W6 m ρ c)).trans ?_
    rw [(args6 m ρ c main_arg22 (by decide +kernel))]
    rfl
  have e6 : Reg3.row (V7 m ρ c main_v212) = rowAt (args m c).vv1 (1 : Fin 4) := by
    refine (s3_r6 (W6 m ρ c)).trans ?_
    rw [(args6 m ρ c main_arg23 (by decide +kernel))]
    rfl
  have e8 : Reg3.row (V7 m ρ c main_v213) = rowAt (args m c).vb2 (1 : Fin 4) := by
    refine (s3_r8 (W6 m ρ c)).trans ?_
    rw [(args6 m ρ c main_arg25 (by decide +kernel))]
    rfl
  have e9 : Reg3.row (V7 m ρ c main_v214) = rowAt (args m c).vg2 (1 : Fin 4) := by
    refine (s3_r9 (W6 m ρ c)).trans ?_
    rw [(args6 m ρ c main_arg26 (by decide +kernel))]
    rfl
  have e10 : Reg3.row (V7 m ρ c main_v215) = rowAt (args m c).vbb2 (1 : Fin 4) := by
    refine (s3_r10 (W6 m ρ c)).trans ?_
    rw [(args6 m ρ c main_arg27 (by decide +kernel))]
    rfl
  have e11 : Reg3.row (V7 m ρ c main_v216) = rowAt (args m c).vm2 (1 : Fin 4) := by
    refine (s3_r11 (W6 m ρ c)).trans ?_
    rw [(args6 m ρ c main_arg28 (by decide +kernel))]
    rfl
  have e12 : Reg3.row (V7 m ρ c main_v217) = rowAt (args m c).vv2 (1 : Fin 4) := by
    refine (s3_r12 (W6 m ρ c)).trans ?_
    rw [(args6 m ρ c main_arg29 (by decide +kernel))]
    rfl
  rw [ez, e1, e7, e2, e3, e4, e5, e6, e8, e9, e10, e11, e12]
  rfl
theorem src_at8 : (W8 m ρ c (Proc.devRef .tc main_v1) : S600000.Idx → BitVec 32) = srcOf layout (args m c).edges := (W8_of_ne m ρ c main_v1 (by decide +kernel)).trans (src_at7 m ρ c)
theorem dst_at8 : (W8 m ρ c (Proc.devRef .tc main_v3) : S600000.Idx → BitVec 32) = dstOf layout (args m c).edges := (W8_of_ne m ρ c main_v3 (by decide +kernel)).trans (dst_at7 m ρ c)
theorem h2_at8 : (W8 m ρ c (Proc.devRef .tc main_v179) : S100000x128.Idx → EReal) = h2 dims layout (args m c) := (W8_of_ne m ρ c main_v179 (by decide +kernel)).trans (h2_at7 m ρ c)

/-! ## Stretch 4 and launch 4 -/

theorem disj4 : ∀ b ∈ argRefs, b ∉ wr4 := by decide +kernel
theorem rdisj4 : ∀ b ∈ argRefs, ∀ w, Pipeline.arrRef spec4 w ≠ b := by decide +kernel
theorem args9 : ArgsAt m ρ c (W9 m ρ c) := (args8 m ρ c).stretch m ρ c covers4 disj4
theorem args10 : ArgsAt m ρ c (W10 m ρ c) := fun b hb => (W10_of_ne m ρ c b (rdisj4 b hb)).trans (args9 m ρ c b hb)
theorem src_at9 : (W9 m ρ c (Proc.devRef .tc main_v1) : S600000.Idx → BitVec 32) = srcOf layout (args m c).edges := (keep4 (W8 m ρ c) main_v1 (by decide +kernel)).trans (src_at8 m ρ c)
theorem dst_at9 : (W9 m ρ c (Proc.devRef .tc main_v3) : S600000.Idx → BitVec 32) = dstOf layout (args m c).edges := (keep4 (W8 m ρ c) main_v3 (by decide +kernel)).trans (dst_at8 m ρ c)
theorem vn2_at9 : (W9 m ρ c (Proc.devRef .tc main_v218) : S512x128.Idx → EReal) = vn2 dims layout (args m c) := (keep4 (W8 m ρ c) main_v218 (by decide +kernel)).trans (vn2_at8 m ρ c)
theorem hin2_at9 : (W9 m ρ c (Proc.devRef .tc main_v226) : S100000x128.Idx → EReal) = hin2 dims layout (args m c) := by
  refine (s4_hin (W8 m ρ c)).trans ?_
  rw [(h2_at8 m ρ c), (vn2_at8 m ρ c), (args8 m ρ c main_arg2 (by decide +kernel))]
  rfl
theorem h3_at10 : (W10 m ρ c (Proc.devRef .tc main_v282) : S100000x128.Idx → EReal) = h3 dims layout (args m c) := by
  refine (show _ = _ from W10_arr m ρ c 13).trans ?_
  rw [Reg4.final (V9 m ρ) c]
  unfold Reg4.G
  have ez : (V9 m ρ c main_v247 : S100000x128.Idx → EReal) = zAt dims layout (args m c) 2 (hin2 dims layout (args m c)) := by
    refine (s4_z (W8 m ρ c)).trans ?_
    rw [(h2_at8 m ρ c), (vn2_at8 m ρ c), (args8 m ρ c main_arg2 (by decide +kernel)), (src_at8 m ρ c), (dst_at8 m ρ c), (args8 m ρ c main_arg5 (by decide +kernel))]
    rfl
  have e1 : (V9 m ρ c main_v249 : S128x256.Idx → EReal) = wAt (args m c).mW1 (2 : Fin 5) := by
    refine (s4_W1 (W8 m ρ c)).trans ?_
    rw [(args8 m ρ c main_arg6 (by decide +kernel))]
    rfl
  have e7 : (V9 m ρ c main_v261 : S256x128.Idx → EReal) = wAt (args m c).mW2 (2 : Fin 5) := by
    refine (s4_W2 (W8 m ρ c)).trans ?_
    rw [(args8 m ρ c main_arg12 (by decide +kernel))]
    rfl
  have e2 : Reg4.row (V9 m ρ c main_v272) = rowAt (args m c).mb1 (2 : Fin 5) := by
    refine (s4_r2 (W8 m ρ c)).trans ?_
    rw [(args8 m ρ c main_arg7 (by decide +kernel))]
    rfl
  have e3 : Reg4.row (V9 m ρ c main_v273) = rowAt (args m c).mg (2 : Fin 5) := by
    refine (s4_r3 (W8 m ρ c)).trans ?_
    rw [(args8 m ρ c main_arg8 (by decide +kernel))]
    rfl
  have e4 : Reg4.row (V9 m ρ c main_v274) = rowAt (args m c).mb (2 : Fin 5) := by
    refine (s4_r4 (W8 m ρ c)).trans ?_
    rw [(args8 m ρ c main_arg9 (by decide +kernel))]
    rfl
  have e5 : Reg4.row (V9 m ρ c main_v275) = rowAt (args m c).mm (2 : Fin 5) := by
    refine (s4_r5 (W8 m ρ c)).trans ?_
    rw [(args8 m ρ c main_arg10 (by decide +kernel))]
    rfl
  have e6 : Reg4.row (V9 m ρ c main_v276) = rowAt (args m c).mv (2 : Fin 5) := by
    refine (s4_r6 (W8 m ρ c)).trans ?_
    rw [(args8 m ρ c main_arg11 (by decide +kernel))]
    rfl
  have e8 : Reg4.row (V9 m ρ c main_v277) = rowAt (args m c).mb2 (2 : Fin 5) := by
    refine (s4_r8 (W8 m ρ c)).trans ?_
    rw [(args8 m ρ c main_arg13 (by decide +kernel))]
    rfl
  have e9 : Reg4.row (V9 m ρ c main_v278) = rowAt (args m c).ng (2 : Fin 5) := by
    refine (s4_r9 (W8 m ρ c)).trans ?_
    rw [(args8 m ρ c main_arg14 (by decide +kernel))]
    rfl
  have e10 : Reg4.row (V9 m ρ c main_v279) = rowAt (args m c).nb (2 : Fin 5) := by
    refine (s4_r10 (W8 m ρ c)).trans ?_
    rw [(args8 m ρ c main_arg15 (by decide +kernel))]
    rfl
  have e11 : Reg4.row (V9 m ρ c main_v280) = rowAt (args m c).nm (2 : Fin 5) := by
    refine (s4_r11 (W8 m ρ c)).trans ?_
    rw [(args8 m ρ c main_arg16 (by decide +kernel))]
    rfl
  have e12 : Reg4.row (V9 m ρ c main_v281) = rowAt (args m c).nv (2 : Fin 5) := by
    refine (s4_r12 (W8 m ρ c)).trans ?_
    rw [(args8 m ρ c main_arg17 (by decide +kernel))]
    rfl
  rw [ez, e1, e7, e2, e3, e4, e5, e6, e8, e9, e10, e11, e12]
  rfl
theorem src_at10 : (W10 m ρ c (Proc.devRef .tc main_v1) : S600000.Idx → BitVec 32) = srcOf layout (args m c).edges := (W10_of_ne m ρ c main_v1 (by decide +kernel)).trans (src_at9 m ρ c)
theorem dst_at10 : (W10 m ρ c (Proc.devRef .tc main_v3) : S600000.Idx → BitVec 32) = dstOf layout (args m c).edges := (W10_of_ne m ρ c main_v3 (by decide +kernel)).trans (dst_at9 m ρ c)
theorem vn2_at10 : (W10 m ρ c (Proc.devRef .tc main_v218) : S512x128.Idx → EReal) = vn2 dims layout (args m c) := (W10_of_ne m ρ c main_v218 (by decide +kernel)).trans (vn2_at9 m ρ c)
theorem hin2_at10 : (W10 m ρ c (Proc.devRef .tc main_v226) : S100000x128.Idx → EReal) = hin2 dims layout (args m c) := (W10_of_ne m ρ c main_v226 (by decide +kernel)).trans (hin2_at9 m ρ c)

/-! ## Stretch 5 and launch 5 -/

theorem disj5 : ∀ b ∈ argRefs, b ∉ wr5 := by decide +kernel
theorem rdisj5 : ∀ b ∈ argRefs, ∀ w, Pipeline.arrRef spec5 w ≠ b := by decide +kernel
theorem args11 : ArgsAt m ρ c (W11 m ρ c) := (args10 m ρ c).stretch m ρ c covers5 disj5
theorem args12 : ArgsAt m ρ c (W12 m ρ c) := fun b hb => (W12_of_ne m ρ c b (rdisj5 b hb)).trans (args11 m ρ c b hb)
theorem src_at11 : (W11 m ρ c (Proc.devRef .tc main_v1) : S600000.Idx → BitVec 32) = srcOf layout (args m c).edges := (keep5 (W10 m ρ c) main_v1 (by decide +kernel)).trans (src_at10 m ρ c)
theorem dst_at11 : (W11 m ρ c (Proc.devRef .tc main_v3) : S600000.Idx → BitVec 32) = dstOf layout (args m c).edges := (keep5 (W10 m ρ c) main_v3 (by decide +kernel)).trans (dst_at10 m ρ c)
theorem h3_at11 : (W11 m ρ c (Proc.devRef .tc main_v282) : S100000x128.Idx → EReal) = h3 dims layout (args m c) := (keep5 (W10 m ρ c) main_v282 (by decide +kernel)).trans (h3_at10 m ρ c)
theorem vn3_at12 : (W12 m ρ c (Proc.devRef .tc main_v321) : S512x128.Idx → EReal) = vn3 dims layout (args m c) := by
  refine (show _ = _ from W12_arr m ρ c 13).trans ?_
  rw [Reg5.final (V11 m ρ) c]
  unfold Reg5.G
  have ez : (V11 m ρ c main_v286 : S512x128.Idx → EReal) = vtOf dims layout (hin2 dims layout (args m c)) (vn2 dims layout (args m c)) (args m c).batch := by
    refine (s5_vt (W10 m ρ c)).trans ?_
    rw [(hin2_at10 m ρ c), (vn2_at10 m ρ c), (args10 m ρ c main_arg2 (by decide +kernel))]
    rfl
  have e1 : (V11 m ρ c main_v288 : S128x256.Idx → EReal) = wAt (args m c).vW1 (2 : Fin 4) := by
    refine (s5_W1 (W10 m ρ c)).trans ?_
    rw [(args10 m ρ c main_arg18 (by decide +kernel))]
    rfl
  have e7 : (V11 m ρ c main_v300 : S256x128.Idx → EReal) = wAt (args m c).vW2 (2 : Fin 4) := by
    refine (s5_W2 (W10 m ρ c)).trans ?_
    rw [(args10 m ρ c main_arg24 (by decide +kernel))]
    rfl
  have e2 : Reg5.row (V11 m ρ c main_v311) = rowAt (args m c).vb1 (2 : Fin 4) := by
    refine (s5_r2 (W10 m ρ c)).trans ?_
    rw [(args10 m ρ c main_arg19 (by decide +kernel))]
    rfl
  have e3 : Reg5.row (V11 m ρ c main_v312) = rowAt (args m c).vg1 (2 : Fin 4) := by
    refine (s5_r3 (W10 m ρ c)).trans ?_
    rw [(args10 m ρ c main_arg20 (by decide +kernel))]
    rfl
  have e4 : Reg5.row (V11 m ρ c main_v313) = rowAt (args m c).vbb1 (2 : Fin 4) := by
    refine (s5_r4 (W10 m ρ c)).trans ?_
    rw [(args10 m ρ c main_arg21 (by decide +kernel))]
    rfl
  have e5 : Reg5.row (V11 m ρ c main_v314) = rowAt (args m c).vm1 (2 : Fin 4) := by
    refine (s5_r5 (W10 m ρ c)).trans ?_
    rw [(args10 m ρ c main_arg22 (by decide +kernel))]
    rfl
  have e6 : Reg5.row (V11 m ρ c main_v315) = rowAt (args m c).vv1 (2 : Fin 4) := by
    refine (s5_r6 (W10 m ρ c)).trans ?_
    rw [(args10 m ρ c main_arg23 (by decide +kernel))]
    rfl
  have e8 : Reg5.row (V11 m ρ c main_v316) = rowAt (args m c).vb2 (2 : Fin 4) := by
    refine (s5_r8 (W10 m ρ c)).trans ?_
    rw [(args10 m ρ c main_arg25 (by decide +kernel))]
    rfl
  have e9 : Reg5.row (V11 m ρ c main_v317) = rowAt (args m c).vg2 (2 : Fin 4) := by
    refine (s5_r9 (W10 m ρ c)).trans ?_
    rw [(args10 m ρ c main_arg26 (by decide +kernel))]
    rfl
  have e10 : Reg5.row (V11 m ρ c main_v318) = rowAt (args m c).vbb2 (2 : Fin 4) := by
    refine (s5_r10 (W10 m ρ c)).trans ?_
    rw [(args10 m ρ c main_arg27 (by decide +kernel))]
    rfl
  have e11 : Reg5.row (V11 m ρ c main_v319) = rowAt (args m c).vm2 (2 : Fin 4) := by
    refine (s5_r11 (W10 m ρ c)).trans ?_
    rw [(args10 m ρ c main_arg28 (by decide +kernel))]
    rfl
  have e12 : Reg5.row (V11 m ρ c main_v320) = rowAt (args m c).vv2 (2 : Fin 4) := by
    refine (s5_r12 (W10 m ρ c)).trans ?_
    rw [(args10 m ρ c main_arg29 (by decide +kernel))]
    rfl
  rw [ez, e1, e7, e2, e3, e4, e5, e6, e8, e9, e10, e11, e12]
  rfl
theorem src_at12 : (W12 m ρ c (Proc.devRef .tc main_v1) : S600000.Idx → BitVec 32) = srcOf layout (args m c).edges := (W12_of_ne m ρ c main_v1 (by decide +kernel)).trans (src_at11 m ρ c)
theorem dst_at12 : (W12 m ρ c (Proc.devRef .tc main_v3) : S600000.Idx → BitVec 32) = dstOf layout (args m c).edges := (W12_of_ne m ρ c main_v3 (by decide +kernel)).trans (dst_at11 m ρ c)
theorem h3_at12 : (W12 m ρ c (Proc.devRef .tc main_v282) : S100000x128.Idx → EReal) = h3 dims layout (args m c) := (W12_of_ne m ρ c main_v282 (by decide +kernel)).trans (h3_at11 m ρ c)

/-! ## Stretch 6 and launch 6 -/

theorem disj6 : ∀ b ∈ argRefs, b ∉ wr6 := by decide +kernel
theorem rdisj6 : ∀ b ∈ argRefs, ∀ w, Pipeline.arrRef spec6 w ≠ b := by decide +kernel
theorem args13 : ArgsAt m ρ c (W13 m ρ c) := (args12 m ρ c).stretch m ρ c covers6 disj6
theorem args14 : ArgsAt m ρ c (W14 m ρ c) := fun b hb => (W14_of_ne m ρ c b (rdisj6 b hb)).trans (args13 m ρ c b hb)
theorem src_at13 : (W13 m ρ c (Proc.devRef .tc main_v1) : S600000.Idx → BitVec 32) = srcOf layout (args m c).edges := (keep6 (W12 m ρ c) main_v1 (by decide +kernel)).trans (src_at12 m ρ c)
theorem dst_at13 : (W13 m ρ c (Proc.devRef .tc main_v3) : S600000.Idx → BitVec 32) = dstOf layout (args m c).edges := (keep6 (W12 m ρ c) main_v3 (by decide +kernel)).trans (dst_at12 m ρ c)
theorem vn3_at13 : (W13 m ρ c (Proc.devRef .tc main_v321) : S512x128.Idx → EReal) = vn3 dims layout (args m c) := (keep6 (W12 m ρ c) main_v321 (by decide +kernel)).trans (vn3_at12 m ρ c)
theorem hin3_at13 : (W13 m ρ c (Proc.devRef .tc main_v329) : S100000x128.Idx → EReal) = hin3 dims layout (args m c) := by
  refine (s6_hin (W12 m ρ c)).trans ?_
  rw [(h3_at12 m ρ c), (vn3_at12 m ρ c), (args12 m ρ c main_arg2 (by decide +kernel))]
  rfl
theorem h4_at14 : (W14 m ρ c (Proc.devRef .tc main_v385) : S100000x128.Idx → EReal) = h4 dims layout (args m c) := by
  refine (show _ = _ from W14_arr m ρ c 13).trans ?_
  rw [Reg6.final (V13 m ρ) c]
  unfold Reg6.G
  have ez : (V13 m ρ c main_v350 : S100000x128.Idx → EReal) = zAt dims layout (args m c) 3 (hin3 dims layout (args m c)) := by
    refine (s6_z (W12 m ρ c)).trans ?_
    rw [(h3_at12 m ρ c), (vn3_at12 m ρ c), (args12 m ρ c main_arg2 (by decide +kernel)), (src_at12 m ρ c), (dst_at12 m ρ c), (args12 m ρ c main_arg5 (by decide +kernel))]
    rfl
  have e1 : (V13 m ρ c main_v352 : S128x256.Idx → EReal) = wAt (args m c).mW1 (3 : Fin 5) := by
    refine (s6_W1 (W12 m ρ c)).trans ?_
    rw [(args12 m ρ c main_arg6 (by decide +kernel))]
    rfl
  have e7 : (V13 m ρ c main_v364 : S256x128.Idx → EReal) = wAt (args m c).mW2 (3 : Fin 5) := by
    refine (s6_W2 (W12 m ρ c)).trans ?_
    rw [(args12 m ρ c main_arg12 (by decide +kernel))]
    rfl
  have e2 : Reg6.row (V13 m ρ c main_v375) = rowAt (args m c).mb1 (3 : Fin 5) := by
    refine (s6_r2 (W12 m ρ c)).trans ?_
    rw [(args12 m ρ c main_arg7 (by decide +kernel))]
    rfl
  have e3 : Reg6.row (V13 m ρ c main_v376) = rowAt (args m c).mg (3 : Fin 5) := by
    refine (s6_r3 (W12 m ρ c)).trans ?_
    rw [(args12 m ρ c main_arg8 (by decide +kernel))]
    rfl
  have e4 : Reg6.row (V13 m ρ c main_v377) = rowAt (args m c).mb (3 : Fin 5) := by
    refine (s6_r4 (W12 m ρ c)).trans ?_
    rw [(args12 m ρ c main_arg9 (by decide +kernel))]
    rfl
  have e5 : Reg6.row (V13 m ρ c main_v378) = rowAt (args m c).mm (3 : Fin 5) := by
    refine (s6_r5 (W12 m ρ c)).trans ?_
    rw [(args12 m ρ c main_arg10 (by decide +kernel))]
    rfl
  have e6 : Reg6.row (V13 m ρ c main_v379) = rowAt (args m c).mv (3 : Fin 5) := by
    refine (s6_r6 (W12 m ρ c)).trans ?_
    rw [(args12 m ρ c main_arg11 (by decide +kernel))]
    rfl
  have e8 : Reg6.row (V13 m ρ c main_v380) = rowAt (args m c).mb2 (3 : Fin 5) := by
    refine (s6_r8 (W12 m ρ c)).trans ?_
    rw [(args12 m ρ c main_arg13 (by decide +kernel))]
    rfl
  have e9 : Reg6.row (V13 m ρ c main_v381) = rowAt (args m c).ng (3 : Fin 5) := by
    refine (s6_r9 (W12 m ρ c)).trans ?_
    rw [(args12 m ρ c main_arg14 (by decide +kernel))]
    rfl
  have e10 : Reg6.row (V13 m ρ c main_v382) = rowAt (args m c).nb (3 : Fin 5) := by
    refine (s6_r10 (W12 m ρ c)).trans ?_
    rw [(args12 m ρ c main_arg15 (by decide +kernel))]
    rfl
  have e11 : Reg6.row (V13 m ρ c main_v383) = rowAt (args m c).nm (3 : Fin 5) := by
    refine (s6_r11 (W12 m ρ c)).trans ?_
    rw [(args12 m ρ c main_arg16 (by decide +kernel))]
    rfl
  have e12 : Reg6.row (V13 m ρ c main_v384) = rowAt (args m c).nv (3 : Fin 5) := by
    refine (s6_r12 (W12 m ρ c)).trans ?_
    rw [(args12 m ρ c main_arg17 (by decide +kernel))]
    rfl
  rw [ez, e1, e7, e2, e3, e4, e5, e6, e8, e9, e10, e11, e12]
  rfl
theorem src_at14 : (W14 m ρ c (Proc.devRef .tc main_v1) : S600000.Idx → BitVec 32) = srcOf layout (args m c).edges := (W14_of_ne m ρ c main_v1 (by decide +kernel)).trans (src_at13 m ρ c)
theorem dst_at14 : (W14 m ρ c (Proc.devRef .tc main_v3) : S600000.Idx → BitVec 32) = dstOf layout (args m c).edges := (W14_of_ne m ρ c main_v3 (by decide +kernel)).trans (dst_at13 m ρ c)
theorem vn3_at14 : (W14 m ρ c (Proc.devRef .tc main_v321) : S512x128.Idx → EReal) = vn3 dims layout (args m c) := (W14_of_ne m ρ c main_v321 (by decide +kernel)).trans (vn3_at13 m ρ c)
theorem hin3_at14 : (W14 m ρ c (Proc.devRef .tc main_v329) : S100000x128.Idx → EReal) = hin3 dims layout (args m c) := (W14_of_ne m ρ c main_v329 (by decide +kernel)).trans (hin3_at13 m ρ c)

/-! ## Stretch 7 and launch 7 -/

theorem disj7 : ∀ b ∈ argRefs, b ∉ wr7 := by decide +kernel
theorem rdisj7 : ∀ b ∈ argRefs, ∀ w, Pipeline.arrRef spec7 w ≠ b := by decide +kernel
theorem args15 : ArgsAt m ρ c (W15 m ρ c) := (args14 m ρ c).stretch m ρ c covers7 disj7
theorem args16 : ArgsAt m ρ c (W16 m ρ c) := fun b hb => (W16_of_ne m ρ c b (rdisj7 b hb)).trans (args15 m ρ c b hb)
theorem src_at15 : (W15 m ρ c (Proc.devRef .tc main_v1) : S600000.Idx → BitVec 32) = srcOf layout (args m c).edges := (keep7 (W14 m ρ c) main_v1 (by decide +kernel)).trans (src_at14 m ρ c)
theorem dst_at15 : (W15 m ρ c (Proc.devRef .tc main_v3) : S600000.Idx → BitVec 32) = dstOf layout (args m c).edges := (keep7 (W14 m ρ c) main_v3 (by decide +kernel)).trans (dst_at14 m ρ c)
theorem h4_at15 : (W15 m ρ c (Proc.devRef .tc main_v385) : S100000x128.Idx → EReal) = h4 dims layout (args m c) := (keep7 (W14 m ρ c) main_v385 (by decide +kernel)).trans (h4_at14 m ρ c)
theorem vn4_at16 : (W16 m ρ c (Proc.devRef .tc main_v424) : S512x128.Idx → EReal) = vn4 dims layout (args m c) := by
  refine (show _ = _ from W16_arr m ρ c 13).trans ?_
  rw [Reg7.final (V15 m ρ) c]
  unfold Reg7.G
  have ez : (V15 m ρ c main_v389 : S512x128.Idx → EReal) = vtOf dims layout (hin3 dims layout (args m c)) (vn3 dims layout (args m c)) (args m c).batch := by
    refine (s7_vt (W14 m ρ c)).trans ?_
    rw [(hin3_at14 m ρ c), (vn3_at14 m ρ c), (args14 m ρ c main_arg2 (by decide +kernel))]
    rfl
  have e1 : (V15 m ρ c main_v391 : S128x256.Idx → EReal) = wAt (args m c).vW1 (3 : Fin 4) := by
    refine (s7_W1 (W14 m ρ c)).trans ?_
    rw [(args14 m ρ c main_arg18 (by decide +kernel))]
    rfl
  have e7 : (V15 m ρ c main_v403 : S256x128.Idx → EReal) = wAt (args m c).vW2 (3 : Fin 4) := by
    refine (s7_W2 (W14 m ρ c)).trans ?_
    rw [(args14 m ρ c main_arg24 (by decide +kernel))]
    rfl
  have e2 : Reg7.row (V15 m ρ c main_v414) = rowAt (args m c).vb1 (3 : Fin 4) := by
    refine (s7_r2 (W14 m ρ c)).trans ?_
    rw [(args14 m ρ c main_arg19 (by decide +kernel))]
    rfl
  have e3 : Reg7.row (V15 m ρ c main_v415) = rowAt (args m c).vg1 (3 : Fin 4) := by
    refine (s7_r3 (W14 m ρ c)).trans ?_
    rw [(args14 m ρ c main_arg20 (by decide +kernel))]
    rfl
  have e4 : Reg7.row (V15 m ρ c main_v416) = rowAt (args m c).vbb1 (3 : Fin 4) := by
    refine (s7_r4 (W14 m ρ c)).trans ?_
    rw [(args14 m ρ c main_arg21 (by decide +kernel))]
    rfl
  have e5 : Reg7.row (V15 m ρ c main_v417) = rowAt (args m c).vm1 (3 : Fin 4) := by
    refine (s7_r5 (W14 m ρ c)).trans ?_
    rw [(args14 m ρ c main_arg22 (by decide +kernel))]
    rfl
  have e6 : Reg7.row (V15 m ρ c main_v418) = rowAt (args m c).vv1 (3 : Fin 4) := by
    refine (s7_r6 (W14 m ρ c)).trans ?_
    rw [(args14 m ρ c main_arg23 (by decide +kernel))]
    rfl
  have e8 : Reg7.row (V15 m ρ c main_v419) = rowAt (args m c).vb2 (3 : Fin 4) := by
    refine (s7_r8 (W14 m ρ c)).trans ?_
    rw [(args14 m ρ c main_arg25 (by decide +kernel))]
    rfl
  have e9 : Reg7.row (V15 m ρ c main_v420) = rowAt (args m c).vg2 (3 : Fin 4) := by
    refine (s7_r9 (W14 m ρ c)).trans ?_
    rw [(args14 m ρ c main_arg26 (by decide +kernel))]
    rfl
  have e10 : Reg7.row (V15 m ρ c main_v421) = rowAt (args m c).vbb2 (3 : Fin 4) := by
    refine (s7_r10 (W14 m ρ c)).trans ?_
    rw [(args14 m ρ c main_arg27 (by decide +kernel))]
    rfl
  have e11 : Reg7.row (V15 m ρ c main_v422) = rowAt (args m c).vm2 (3 : Fin 4) := by
    refine (s7_r11 (W14 m ρ c)).trans ?_
    rw [(args14 m ρ c main_arg28 (by decide +kernel))]
    rfl
  have e12 : Reg7.row (V15 m ρ c main_v423) = rowAt (args m c).vv2 (3 : Fin 4) := by
    refine (s7_r12 (W14 m ρ c)).trans ?_
    rw [(args14 m ρ c main_arg29 (by decide +kernel))]
    rfl
  rw [ez, e1, e7, e2, e3, e4, e5, e6, e8, e9, e10, e11, e12]
  rfl
theorem src_at16 : (W16 m ρ c (Proc.devRef .tc main_v1) : S600000.Idx → BitVec 32) = srcOf layout (args m c).edges := (W16_of_ne m ρ c main_v1 (by decide +kernel)).trans (src_at15 m ρ c)
theorem dst_at16 : (W16 m ρ c (Proc.devRef .tc main_v3) : S600000.Idx → BitVec 32) = dstOf layout (args m c).edges := (W16_of_ne m ρ c main_v3 (by decide +kernel)).trans (dst_at15 m ρ c)
theorem h4_at16 : (W16 m ρ c (Proc.devRef .tc main_v385) : S100000x128.Idx → EReal) = h4 dims layout (args m c) := (W16_of_ne m ρ c main_v385 (by decide +kernel)).trans (h4_at15 m ρ c)

/-! ## Stretch 8 and launch 8 -/

theorem disj8 : ∀ b ∈ argRefs, b ∉ wr8 := by decide +kernel
theorem rdisj8 : ∀ b ∈ argRefs, ∀ w, Pipeline.arrRef spec8 w ≠ b := by decide +kernel
theorem args17 : ArgsAt m ρ c (W17 m ρ c) := (args16 m ρ c).stretch m ρ c covers8 disj8
theorem args18 : ArgsAt m ρ c (W18 m ρ c) := fun b hb => (W18_of_ne m ρ c b (rdisj8 b hb)).trans (args17 m ρ c b hb)
theorem vn4_at17 : (W17 m ρ c (Proc.devRef .tc main_v424) : S512x128.Idx → EReal) = vn4 dims layout (args m c) := (keep8 (W16 m ρ c) main_v424 (by decide +kernel)).trans (vn4_at16 m ρ c)
theorem out_at18 : (W18 m ρ c (Proc.devRef .tc main_v488) : S100000x128.Idx → EReal) = Cert.Net.out dims layout (args m c) := by
  refine (show _ = _ from W18_arr m ρ c 13).trans ?_
  rw [Reg8.final (V17 m ρ) c]
  unfold Reg8.G
  have ez : (V17 m ρ c main_v453 : S100000x128.Idx → EReal) = zAt dims layout (args m c) 4 (hin4 dims layout (args m c)) := by
    refine (s8_z (W16 m ρ c)).trans ?_
    rw [(h4_at16 m ρ c), (vn4_at16 m ρ c), (args16 m ρ c main_arg2 (by decide +kernel)), (src_at16 m ρ c), (dst_at16 m ρ c), (args16 m ρ c main_arg5 (by decide +kernel))]
    rfl
  have e1 : (V17 m ρ c main_v455 : S128x256.Idx → EReal) = wAt (args m c).mW1 (4 : Fin 5) := by
    refine (s8_W1 (W16 m ρ c)).trans ?_
    rw [(args16 m ρ c main_arg6 (by decide +kernel))]
    rfl
  have e7 : (V17 m ρ c main_v467 : S256x128.Idx → EReal) = wAt (args m c).mW2 (4 : Fin 5) := by
    refine (s8_W2 (W16 m ρ c)).trans ?_
    rw [(args16 m ρ c main_arg12 (by decide +kernel))]
    rfl
  have e2 : Reg8.row (V17 m ρ c main_v478) = rowAt (args m c).mb1 (4 : Fin 5) := by
    refine (s8_r2 (W16 m ρ c)).trans ?_
    rw [(args16 m ρ c main_arg7 (by decide +kernel))]
    rfl
  have e3 : Reg8.row (V17 m ρ c main_v479) = rowAt (args m c).mg (4 : Fin 5) := by
    refine (s8_r3 (W16 m ρ c)).trans ?_
    rw [(args16 m ρ c main_arg8 (by decide +kernel))]
    rfl
  have e4 : Reg8.row (V17 m ρ c main_v480) = rowAt (args m c).mb (4 : Fin 5) := by
    refine (s8_r4 (W16 m ρ c)).trans ?_
    rw [(args16 m ρ c main_arg9 (by decide +kernel))]
    rfl
  have e5 : Reg8.row (V17 m ρ c main_v481) = rowAt (args m c).mm (4 : Fin 5) := by
    refine (s8_r5 (W16 m ρ c)).trans ?_
    rw [(args16 m ρ c main_arg10 (by decide +kernel))]
    rfl
  have e6 : Reg8.row (V17 m ρ c main_v482) = rowAt (args m c).mv (4 : Fin 5) := by
    refine (s8_r6 (W16 m ρ c)).trans ?_
    rw [(args16 m ρ c main_arg11 (by decide +kernel))]
    rfl
  have e8 : Reg8.row (V17 m ρ c main_v483) = rowAt (args m c).mb2 (4 : Fin 5) := by
    refine (s8_r8 (W16 m ρ c)).trans ?_
    rw [(args16 m ρ c main_arg13 (by decide +kernel))]
    rfl
  have e9 : Reg8.row (V17 m ρ c main_v484) = rowAt (args m c).ng (4 : Fin 5) := by
    refine (s8_r9 (W16 m ρ c)).trans ?_
    rw [(args16 m ρ c main_arg14 (by decide +kernel))]
    rfl
  have e10 : Reg8.row (V17 m ρ c main_v485) = rowAt (args m c).nb (4 : Fin 5) := by
    refine (s8_r10 (W16 m ρ c)).trans ?_
    rw [(args16 m ρ c main_arg15 (by decide +kernel))]
    rfl
  have e11 : Reg8.row (V17 m ρ c main_v486) = rowAt (args m c).nm (4 : Fin 5) := by
    refine (s8_r11 (W16 m ρ c)).trans ?_
    rw [(args16 m ρ c main_arg16 (by decide +kernel))]
    rfl
  have e12 : Reg8.row (V17 m ρ c main_v487) = rowAt (args m c).nv (4 : Fin 5) := by
    refine (s8_r12 (W16 m ρ c)).trans ?_
    rw [(args16 m ρ c main_arg17 (by decide +kernel))]
    rfl
  rw [ez, e1, e7, e2, e3, e4, e5, e6, e8, e9, e10, e11, e12]
  rfl
theorem vn4_at18 : (W18 m ρ c (Proc.devRef .tc main_v424) : S512x128.Idx → EReal) = vn4 dims layout (args m c) := (W18_of_ne m ρ c main_v424 (by decide +kernel)).trans (vn4_at17 m ρ c)

end Cert.KernelIdeal.Chain

end
-- ==== Proof.RefBase.lean ====
/-
  What the reference program's windows of operations are read against.

  First, the program's thirty argument arrays as the network's arguments — from the launch memory, and from any contents
  of a device's buffers —, the dimension numbers of its row gathers and row scatter-sums, and the layout side conditions
  of the operations between its two-layer maps.

  Then the program's spelling of a normalised layer whose parameters are read from stacks: the weight matrix of layer l
  is a unit slice of the stack of matrices reshaped to a matrix, each of the five vectors a unit slice of a stack of
  vectors reshaped to a vector, made a row and broadcast down the array. That spelling equals the layer function at
  the stack's matrix l and rows l; two of them with a maximum with zero between are the two-layer map.
-/
import proofs.«116444_j64183991272049_2_alg».proof.Proof.Gen.ReferenceIdeal
import proofs.«116444_j64183991272049_2_alg».proof.Proof.Net
import proofs.«116444_j64183991272049_2_alg».proof.Proof.LibSliceRead
import proofs.«116444_j64183991272049_2_alg».proof.Proof.LibSSA
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx Cert.LibNormLayer Cert.LibSliceRead Cert.Net

/-! ## Arguments, dimension numbers, layout -/

/-- The argument buffers. -/
def argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26, main_arg27, main_arg28, main_arg29]

/-- The network's arguments read from the contents of one device's buffers. -/
def argsV (V : Valuation τ sig (Elt Ideal)) : Cert.Net.Args :=
  { x := V (Proc.devRef .tc main_arg0)
    edges := V (Proc.devRef .tc main_arg1)
    batch := V (Proc.devRef .tc main_arg2)
    enc := V (Proc.devRef .tc main_arg3)
    ve := V (Proc.devRef .tc main_arg4)
    eps := V (Proc.devRef .tc main_arg5)
    mW1 := V (Proc.devRef .tc main_arg6)
    mb1 := V (Proc.devRef .tc main_arg7)
    mg := V (Proc.devRef .tc main_arg8)
    mb := V (Proc.devRef .tc main_arg9)
    mm := V (Proc.devRef .tc main_arg10)
    mv := V (Proc.devRef .tc main_arg11)
    mW2 := V (Proc.devRef .tc main_arg12)
    mb2 := V (Proc.devRef .tc main_arg13)
    ng := V (Proc.devRef .tc main_arg14)
    nb := V (Proc.devRef .tc main_arg15)
    nm := V (Proc.devRef .tc main_arg16)
    nv := V (Proc.devRef .tc main_arg17)
    vW1 := V (Proc.devRef .tc main_arg18)
    vb1 := V (Proc.devRef .tc main_arg19)
    vg1 := V (Proc.devRef .tc main_arg20)
    vbb1 := V (Proc.devRef .tc main_arg21)
    vm1 := V (Proc.devRef .tc main_arg22)
    vv1 := V (Proc.devRef .tc main_arg23)
    vW2 := V (Proc.devRef .tc main_arg24)
    vb2 := V (Proc.devRef .tc main_arg25)
    vg2 := V (Proc.devRef .tc main_arg26)
    vbb2 := V (Proc.devRef .tc main_arg27)
    vm2 := V (Proc.devRef .tc main_arg28)
    vv2 := V (Proc.devRef .tc main_arg29) }

/-- The reference's thirty argument arrays, as the network's arguments. -/
def args (m : (ℓ : Loc nD τ sig) → Buf (Elt Ideal) ℓ) (c : Dev nD) : Cert.Net.Args :=
  { x := m ((c.tc : Thread nD τ).loc main_arg0)
    edges := m ((c.tc : Thread nD τ).loc main_arg1)
    batch := m ((c.tc : Thread nD τ).loc main_arg2)
    enc := m ((c.tc : Thread nD τ).loc main_arg3)
    ve := m ((c.tc : Thread nD τ).loc main_arg4)
    eps := m ((c.tc : Thread nD τ).loc main_arg5)
    mW1 := m ((c.tc : Thread nD τ).loc main_arg6)
    mb1 := m ((c.tc : Thread nD τ).loc main_arg7)
    mg := m ((c.tc : Thread nD τ).loc main_arg8)
    mb := m ((c.tc : Thread nD τ).loc main_arg9)
    mm := m ((c.tc : Thread nD τ).loc main_arg10)
    mv := m ((c.tc : Thread nD τ).loc main_arg11)
    mW2 := m ((c.tc : Thread nD τ).loc main_arg12)
    mb2 := m ((c.tc : Thread nD τ).loc main_arg13)
    ng := m ((c.tc : Thread nD τ).loc main_arg14)
    nb := m ((c.tc : Thread nD τ).loc main_arg15)
    nm := m ((c.tc : Thread nD τ).loc main_arg16)
    nv := m ((c.tc : Thread nD τ).loc main_arg17)
    vW1 := m ((c.tc : Thread nD τ).loc main_arg18)
    vb1 := m ((c.tc : Thread nD τ).loc main_arg19)
    vg1 := m ((c.tc : Thread nD τ).loc main_arg20)
    vbb1 := m ((c.tc : Thread nD τ).loc main_arg21)
    vm1 := m ((c.tc : Thread nD τ).loc main_arg22)
    vv1 := m ((c.tc : Thread nD τ).loc main_arg23)
    vW2 := m ((c.tc : Thread nD τ).loc main_arg24)
    vb2 := m ((c.tc : Thread nD τ).loc main_arg25)
    vg2 := m ((c.tc : Thread nD τ).loc main_arg26)
    vbb2 := m ((c.tc : Thread nD τ).loc main_arg27)
    vm2 := m ((c.tc : Thread nD τ).loc main_arg28)
    vv2 := m ((c.tc : Thread nD τ).loc main_arg29) }

theorem argsV_launch (m : (ℓ : Loc nD τ sig) → Buf (Elt Ideal) ℓ) (c : Dev nD) :
    argsV (launchContents m c) = args m c := rfl

/-- Contents that agree on the argument buffers give the same arguments. -/
theorem argsV_congr {W V : Valuation τ sig (Elt Ideal)}
    (h : ∀ r ∈ argRefs, W (Proc.devRef .tc r) = V (Proc.devRef .tc r)) : argsV W = argsV V := by
  unfold argsV
  rw [h main_arg0 (by decide), h main_arg1 (by decide), h main_arg2 (by decide), h main_arg3 (by decide), h main_arg4 (by decide), h main_arg5 (by decide), h main_arg6 (by decide), h main_arg7 (by decide), h main_arg8 (by decide), h main_arg9 (by decide), h main_arg10 (by decide), h main_arg11 (by decide), h main_arg12 (by decide), h main_arg13 (by decide), h main_arg14 (by decide), h main_arg15 (by decide), h main_arg16 (by decide), h main_arg17 (by decide), h main_arg18 (by decide), h main_arg19 (by decide), h main_arg20 (by decide), h main_arg21 (by decide), h main_arg22 (by decide), h main_arg23 (by decide), h main_arg24 (by decide), h main_arg25 (by decide), h main_arg26 (by decide), h main_arg27 (by decide), h main_arg28 (by decide), h main_arg29 (by decide)]

/-- The dimension numbers of the reference's three row gathers and two row scatter-sums. -/
def dims [Cert.ReferenceIdeal.Facts] : Cert.Net.Dims :=
  { gEnc := gather_S8x128_S100000x1_S100000x128_1_0_n_n_0_1_1128
    gVn := gather_S512x128_S100000x1_S100000x128_1_0_n_n_0_1_1128
    gEdge := gather_S100000x128_S600000x1_S600000x128_1_0_n_n_0_1_1128
    sEdge := scatter_S100000x128_S600000x1_S600000x128_1_0_0_1
    sSeg := scatter_S512x128_S100000x1_S100000x128_1_0_0_1 }

/-- The layout side conditions, from the program's stated facts. -/
theorem layout [Cert.ReferenceIdeal.Facts] : Cert.Net.Layout :=
  { sl0 := Facts₀.slices_S2x600000_S1x600000_0_0
    sl1 := Facts₀.slices_S2x600000_S1x600000_1_0
    c600000 := Facts₀.shapeCasts_S1x600000_S600000
    c128 := Facts₀.shapeCasts_S1x128_S128
    bVn := Facts₀.bcast_S128_S512x128_1
    b100000 := Facts₀.bcast_S_S100000
    b600000 := Facts₀.bcast_S_S600000
    bCol100000 := Facts₀.bcast_S100000_S100000x1_0
    bCol600000 := Facts₀.bcast_S600000_S600000x1_0
    bNodes := Facts₀.bcast_S_S100000x128
    bGraphs := Facts₀.bcast_S_S512x128 }

/-! ## A window of operations: what it leaves alone -/

/-- A buffer a window does not write holds after it what it held before. -/
theorem keep_of_covers {w : List (HloOp τ sig (Elt Ideal))} {wr : List (Ref sig .tc)} (hc : Cert.SSA.Covers w wr)
    (V : Valuation τ sig (Elt Ideal)) (r : Ref sig .tc) (hr : r ∉ wr) :
    after w V (Proc.devRef .tc r) = V (Proc.devRef .tc r) :=
  after_of_forall_not_mem w V (Cert.SSA.not_written hc hr)

/-- A window that writes no argument buffer leaves the arguments as they were. -/
theorem argsV_of_covers {w : List (HloOp τ sig (Elt Ideal))} {wr : List (Ref sig .tc)} (hc : Cert.SSA.Covers w wr)
    (hr : ∀ r ∈ argRefs, r ∉ wr) (V : Valuation τ sig (Elt Ideal)) : argsV (after w V) = argsV V :=
  argsV_congr fun r hm => keep_of_covers hc V r (hr r hm)

/-! ## A normalised layer read from stacks, as the program spells it -/

section Host

variable {N m k n : Nat}

/-- Row l of a stack of vectors: a unit slice reshaped to a vector. -/
abbrev rowHost (a : FVec Ideal ⟨2, ![N, n]⟩ .f32) (l : Fin N)
    (hs : (⟨2, ![N, n]⟩ : Shape).Slices ![l.val, 0] ⟨2, ![1, n]⟩) (hc : (⟨2, ![1, n]⟩ : Shape).ShapeCasts ⟨1, ![n]⟩) :
    FVec Ideal ⟨1, ![n]⟩ .f32 :=
  shapeCast ⟨1, ![n]⟩ (extractStridedSlice ⟨2, ![1, n]⟩ ![l.val, 0] a hs) hc

theorem rowHost_eq (a : FVec Ideal ⟨2, ![N, n]⟩ .f32) (l : Fin N)
    (hs : (⟨2, ![N, n]⟩ : Shape).Slices ![l.val, 0] ⟨2, ![1, n]⟩) (hc : (⟨2, ![1, n]⟩ : Shape).ShapeCasts ⟨1, ![n]⟩) :
    (fun q : Fin n => rowHost a l hs hc (ix1 q)) = rowAt a l :=
  funext fun q => slice_vec a l hs hc q

/-- Matrix l of a stack of matrices: a unit slice reshaped to a matrix. -/
abbrev matHost (a : FVec Ideal ⟨3, ![N, k, n]⟩ .f32) (l : Fin N)
    (hs : (⟨3, ![N, k, n]⟩ : Shape).Slices ![l.val, 0, 0] ⟨3, ![1, k, n]⟩) (hc : (⟨3, ![1, k, n]⟩ : Shape).ShapeCasts ⟨2, ![k, n]⟩) :
    FVec Ideal ⟨2, ![k, n]⟩ .f32 :=
  shapeCast ⟨2, ![k, n]⟩ (extractStridedSlice ⟨3, ![1, k, n]⟩ ![l.val, 0, 0] a hs) hc

theorem matHost_eq (a : FVec Ideal ⟨3, ![N, k, n]⟩ .f32) (l : Fin N)
    (hs : (⟨3, ![N, k, n]⟩ : Shape).Slices ![l.val, 0, 0] ⟨3, ![1, k, n]⟩) (hc : (⟨3, ![1, k, n]⟩ : Shape).ShapeCasts ⟨2, ![k, n]⟩) :
    matHost a l hs hc = wAt a l :=
  slice_mat a l hs hc

/-- The layout side conditions of one normalised layer of m rows, k inputs and n outputs read at layer l of N. -/
structure NormLayout (N m k n : Nat) (l : Fin N) : Prop where
  h1 : (⟨1, ![n]⟩ : Shape).BroadcastsInDim ⟨2, ![1, n]⟩ ![1]
  h2 : (⟨2, ![1, n]⟩ : Shape).BroadcastsInDim ⟨2, ![m, n]⟩ ![0, 1]
  h0 : (⟨0, ![]⟩ : Shape).BroadcastsInDim ⟨1, ![n]⟩ ![]
  hsW : (⟨3, ![N, k, n]⟩ : Shape).Slices ![l.val, 0, 0] ⟨3, ![1, k, n]⟩
  hcW : (⟨3, ![1, k, n]⟩ : Shape).ShapeCasts ⟨2, ![k, n]⟩
  hsV : (⟨2, ![N, n]⟩ : Shape).Slices ![l.val, 0] ⟨2, ![1, n]⟩
  hcV : (⟨2, ![1, n]⟩ : Shape).ShapeCasts ⟨1, ![n]⟩
  hR : (⟨0, ![]⟩ : Shape).BroadcastsInDim ⟨2, ![m, n]⟩ ![]

/-- The program's spelling of one normalised layer at layer l of the stacks. -/
abbrev normHost {l : Fin N} (Y : NormLayout N m k n l) (D : DotDims ⟨2, ![m, k]⟩ ⟨2, ![k, n]⟩ ⟨2, ![m, n]⟩)
    (x : FVec Ideal ⟨2, ![m, k]⟩ .f32) (W : FVec Ideal ⟨3, ![N, k, n]⟩ .f32) (b mu sg g de : FVec Ideal ⟨2, ![N, n]⟩ .f32) :
    FVec Ideal ⟨2, ![m, n]⟩ .f32 :=
  addf (mulf (mulf (subf (addf (Host.dotGeneral D none x (matHost W l Y.hsW Y.hcW))
            (broadcastInDim ⟨2, ![m, n]⟩ ![0, 1] Y.h2 (broadcastInDim ⟨2, ![1, n]⟩ ![1] Y.h1 (rowHost b l Y.hsV Y.hcV))))
          (broadcastInDim ⟨2, ![m, n]⟩ ![0, 1] Y.h2 (broadcastInDim ⟨2, ![1, n]⟩ ![1] Y.h1 (rowHost mu l Y.hsV Y.hcV))))
        (broadcastInDim ⟨2, ![m, n]⟩ ![0, 1] Y.h2 (broadcastInDim ⟨2, ![1, n]⟩ ![1] Y.h1
          (Host.rsqrt (addf (rowHost sg l Y.hsV Y.hcV)
            (broadcastInDim ⟨1, ![n]⟩ ![] Y.h0 (constant (F := Ideal) ⟨0, ![]⟩ .f32 0x3727C5AC#32)))))))
      (broadcastInDim ⟨2, ![m, n]⟩ ![0, 1] Y.h2 (broadcastInDim ⟨2, ![1, n]⟩ ![1] Y.h1 (rowHost g l Y.hsV Y.hcV))))
    (broadcastInDim ⟨2, ![m, n]⟩ ![0, 1] Y.h2 (broadcastInDim ⟨2, ![1, n]⟩ ![1] Y.h1 (rowHost de l Y.hsV Y.hcV)))

theorem normHost_eq {l : Fin N} (Y : NormLayout N m k n l) (D : DotDims ⟨2, ![m, k]⟩ ⟨2, ![k, n]⟩ ⟨2, ![m, n]⟩)
    (hD : D = DotDims.plain m k n)
    (x : FVec Ideal ⟨2, ![m, k]⟩ .f32) (W : FVec Ideal ⟨3, ![N, k, n]⟩ .f32) (b mu sg g de : FVec Ideal ⟨2, ![N, n]⟩ .f32) :
    normHost Y D x W b mu sg g de
      = normLin x (wAt W l) (rowAt b l) (rowAt mu l) (rowAt sg l) (rowAt g l) (rowAt de l) := by
  refine (host_normLin D hD Y.h1 Y.h2 Y.h0 x (matHost W l Y.hsW Y.hcW) (rowHost b l Y.hsV Y.hcV) (rowHost mu l Y.hsV Y.hcV)
    (rowHost sg l Y.hsV Y.hcV) (rowHost g l Y.hsV Y.hcV) (rowHost de l Y.hsV Y.hcV)).trans ?_
  rw [matHost_eq W l Y.hsW Y.hcW, rowHost_eq b l Y.hsV Y.hcV, rowHost_eq mu l Y.hsV Y.hcV, rowHost_eq sg l Y.hsV Y.hcV,
    rowHost_eq g l Y.hsV Y.hcV, rowHost_eq de l Y.hsV Y.hcV]

/-- The program's spelling of the maximum with zero. -/
abbrev rampHost (h0 : (⟨0, ![]⟩ : Shape).BroadcastsInDim ⟨2, ![m, k]⟩ ![]) (a : FVec Ideal ⟨2, ![m, k]⟩ .f32) :
    FVec Ideal ⟨2, ![m, k]⟩ .f32 :=
  maximumf a (broadcastInDim ⟨2, ![m, k]⟩ ![] h0 (constant (F := Ideal) ⟨0, ![]⟩ .f32 0x00000000#32))

/-- The program's spelling of the two-layer map at layer l of the stacks: two normalised layers, the maximum with zero
    between them. -/
abbrev mlpHost {d h e : Nat} {l : Fin N} (Y1 : NormLayout N m d h l) (Y2 : NormLayout N m h e l)
    (D1 : DotDims ⟨2, ![m, d]⟩ ⟨2, ![d, h]⟩ ⟨2, ![m, h]⟩) (D2 : DotDims ⟨2, ![m, h]⟩ ⟨2, ![h, e]⟩ ⟨2, ![m, e]⟩)
    (x : FVec Ideal ⟨2, ![m, d]⟩ .f32)
    (W1 : FVec Ideal ⟨3, ![N, d, h]⟩ .f32) (b1 mu1 sg1 g1 de1 : FVec Ideal ⟨2, ![N, h]⟩ .f32)
    (W2 : FVec Ideal ⟨3, ![N, h, e]⟩ .f32) (b2 mu2 sg2 g2 de2 : FVec Ideal ⟨2, ![N, e]⟩ .f32) :
    FVec Ideal ⟨2, ![m, e]⟩ .f32 :=
  normHost Y2 D2 (rampHost Y1.hR (normHost Y1 D1 x W1 b1 mu1 sg1 g1 de1)) W2 b2 mu2 sg2 g2 de2

theorem mlpHost_eq {d h e : Nat} {l : Fin N} (Y1 : NormLayout N m d h l) (Y2 : NormLayout N m h e l)
    (D1 : DotDims ⟨2, ![m, d]⟩ ⟨2, ![d, h]⟩ ⟨2, ![m, h]⟩) (D2 : DotDims ⟨2, ![m, h]⟩ ⟨2, ![h, e]⟩ ⟨2, ![m, e]⟩)
    (hD1 : D1 = DotDims.plain m d h) (hD2 : D2 = DotDims.plain m h e)
    (x : FVec Ideal ⟨2, ![m, d]⟩ .f32)
    (W1 : FVec Ideal ⟨3, ![N, d, h]⟩ .f32) (b1 mu1 sg1 g1 de1 : FVec Ideal ⟨2, ![N, h]⟩ .f32)
    (W2 : FVec Ideal ⟨3, ![N, h, e]⟩ .f32) (b2 mu2 sg2 g2 de2 : FVec Ideal ⟨2, ![N, e]⟩ .f32) :
    mlpHost Y1 Y2 D1 D2 x W1 b1 mu1 sg1 g1 de1 W2 b2 mu2 sg2 g2 de2
      = mlpCore x (wAt W1 l) (rowAt b1 l) (rowAt mu1 l) (rowAt sg1 l) (rowAt g1 l) (rowAt de1 l)
          (wAt W2 l) (rowAt b2 l) (rowAt mu2 l) (rowAt sg2 l) (rowAt g2 l) (rowAt de2 l) := by
  unfold mlpCore
  rw [← normHost_eq Y1 D1 hD1 x W1 b1 mu1 sg1 g1 de1, ← host_ramp Y1.hR, ← normHost_eq Y2 D2 hD2]

end Host

/-! ## The two maps of a layer, as the program spells them -/

/-- The layout side conditions of the node array's map at layer l. -/
structure ConvLayout (l : Fin 5) : Prop where
  y1 : NormLayout 5 100000 128 256 l
  y2 : NormLayout 5 100000 256 128 l
  hsE : (⟨1, ![5]⟩ : Shape).Slices ![l.val] ⟨1, ![1]⟩
  hcE : (⟨1, ![1]⟩ : Shape).ShapeCasts ⟨0, ![]⟩

/-- The layout side conditions of the graph table's map at layer l. -/
structure TableLayout (l : Fin 4) : Prop where
  y1 : NormLayout 4 512 128 256 l
  y2 : NormLayout 4 512 256 128 l

/-- Entry l of the vector of the five ε's: a unit slice reshaped to a scalar. -/
abbrev epsHost (a : FVec Ideal ⟨1, ![5]⟩ .f32) (l : Fin 5) (hs : (⟨1, ![5]⟩ : Shape).Slices ![l.val] ⟨1, ![1]⟩)
    (hc : (⟨1, ![1]⟩ : Shape).ShapeCasts ⟨0, ![]⟩) : FVec Ideal ⟨0, ![]⟩ .f32 :=
  shapeCast ⟨0, ![]⟩ (extractStridedSlice ⟨1, ![1]⟩ ![l.val] a hs) hc

/-- The node array's map at layer l, on the z built from hin, the edges' ends and ε_l as the program reads it. -/
theorem conv_host (Dm : Cert.Net.Dims) (L : Cert.Net.Layout) (A : Cert.Net.Args) {l : Fin 5} (Y : ConvLayout l)
    (D1 : DotDims ⟨2, ![100000, 128]⟩ ⟨2, ![128, 256]⟩ ⟨2, ![100000, 256]⟩)
    (D2 : DotDims ⟨2, ![100000, 256]⟩ ⟨2, ![256, 128]⟩ ⟨2, ![100000, 128]⟩)
    (hD1 : D1 = DotDims.plain 100000 128 256) (hD2 : D2 = DotDims.plain 100000 256 128)
    (hin : FVec Ideal S100000x128 .f32) (s d : IVec S600000 32) :
    mlpHost Y.y1 Y.y2 D1 D2 (zOf Dm L hin s d (epsHost A.eps l Y.hsE Y.hcE))
        A.mW1 A.mb1 A.mm A.mv A.mg A.mb A.mW2 A.mb2 A.nm A.nv A.ng A.nb
      = convCore A l (zOf Dm L hin s d (scalarAt A.eps l)) := by
  rw [show epsHost A.eps l Y.hsE Y.hcE = scalarAt A.eps l from slice_scalar A.eps l Y.hsE Y.hcE]
  exact mlpHost_eq Y.y1 Y.y2 D1 D2 hD1 hD2 _ _ _ _ _ _ _ _ _ _ _ _ _

/-- The graph table's map at layer l, with its last maximum with zero. -/
theorem table_host (A : Cert.Net.Args) {l : Fin 4} (Y : TableLayout l)
    (D1 : DotDims ⟨2, ![512, 128]⟩ ⟨2, ![128, 256]⟩ ⟨2, ![512, 256]⟩)
    (D2 : DotDims ⟨2, ![512, 256]⟩ ⟨2, ![256, 128]⟩ ⟨2, ![512, 128]⟩)
    (hD1 : D1 = DotDims.plain 512 128 256) (hD2 : D2 = DotDims.plain 512 256 128)
    (t : FVec Ideal S512x128 .f32) :
    rampHost Y.y2.hR (mlpHost Y.y1 Y.y2 D1 D2 t
        A.vW1 A.vb1 A.vm1 A.vv1 A.vg1 A.vbb1 A.vW2 A.vb2 A.vm2 A.vv2 A.vg2 A.vbb2)
      = tableMap A l t := by
  unfold tableMap
  rw [← mlpHost_eq Y.y1 Y.y2 D1 D2 hD1 hD2, ← host_ramp Y.y2.hR]

/-! ## The side conditions at every layer, by computation -/

theorem normLayoutC1 (l : Fin 5) : NormLayout 5 100000 128 256 l :=
  ⟨by decide, by decide, by decide, by revert l; decide, by decide, by revert l; decide, by decide, by decide⟩
theorem normLayoutC2 (l : Fin 5) : NormLayout 5 100000 256 128 l :=
  ⟨by decide, by decide, by decide, by revert l; decide, by decide, by revert l; decide, by decide, by decide⟩
theorem convLayout (l : Fin 5) : ConvLayout l := ⟨normLayoutC1 l, normLayoutC2 l, by revert l; decide, by decide⟩
theorem normLayoutT1 (l : Fin 4) : NormLayout 4 512 128 256 l :=
  ⟨by decide, by decide, by decide, by revert l; decide, by decide, by revert l; decide, by decide, by decide⟩
theorem normLayoutT2 (l : Fin 4) : NormLayout 4 512 256 128 l :=
  ⟨by decide, by decide, by decide, by revert l; decide, by decide, by revert l; decide, by decide, by decide⟩
theorem tableLayout (l : Fin 4) : TableLayout l := ⟨normLayoutT1 l, normLayoutT2 l⟩

/-- Membership in two lists run one after the other. -/
theorem forall_mem_append {α : Type} {P : α → Prop} {l₁ l₂ : List α} (h₁ : ∀ x ∈ l₁, P x) (h₂ : ∀ x ∈ l₂, P x) :
    ∀ x ∈ l₁ ++ l₂, P x := fun x hx => (List.mem_append.mp hx).elim (h₁ x) (h₂ x)

end Cert.ReferenceIdeal.RefValue

end
-- ==== Proof.RefInit.lean ====
/-
  The reference program's first operations, 0 … 24: the edges' start and end nodes, the table every graph starts
  with, and layer 0's node array with the graphs' rows added.

  Read from arbitrary contents of the buffers, the four result buffers hold those functions of the arguments; the
  window writes no argument buffer.
-/
import proofs.«116444_j64183991272049_2_alg».proof.Proof.RefBase

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx Cert.LibNormLayer Cert.LibSliceRead Cert.Net

variable {F : FTy → Type} [FloatOps F]

/-- Operations 0 … 24 of the program's 847, in order. -/
abbrev ops0_25 : List (HloOp τ sig (Elt F)) :=
  [ unary main_arg1 main_v0 ((extractStridedSlice S1x600000 ![0, 0] · slices_S2x600000_S1x600000_0_0) : (⟨S2x600000, .i32⟩ : BufTy).Contents (Elt F) → (⟨S1x600000, .i32⟩ : BufTy).Contents (Elt F)),
    reshape main_v0 main_v1 rfl shapeCasts_S1x600000_S600000,
    unary main_arg1 main_v2 ((extractStridedSlice S1x600000 ![1, 0] · slices_S2x600000_S1x600000_1_0) : (⟨S2x600000, .i32⟩ : BufTy).Contents (Elt F) → (⟨S1x600000, .i32⟩ : BufTy).Contents (Elt F)),
    reshape main_v2 main_v3 rfl shapeCasts_S1x600000_S600000,
    reshape main_arg4 main_v4 rfl shapeCasts_S1x128_S128,
    unary main_v4 main_v5 (broadcastInDim S512x128 ![1] bcast_S128_S512x128_1 : (⟨S128, .f32⟩ : BufTy).Contents (Elt F) → (⟨S512x128, .f32⟩ : BufTy).Contents (Elt F)),
    nullary main_c (constantI S_ 32 0#32),
    unary main_c main_v6 (broadcastInDim S100000 ![] bcast_S_S100000 : (⟨S_, .i32⟩ : BufTy).Contents (Elt F) → (⟨S100000, .i32⟩ : BufTy).Contents (Elt F)),
    binary main_arg0 main_v6 main_v7 (cmpi .slt : (⟨S100000, .i32⟩ : BufTy).Contents (Elt F) → (⟨S100000, .i32⟩ : BufTy).Contents (Elt F) → (⟨S100000, .i1⟩ : BufTy).Contents (Elt F)),
    nullary main_c_0 (constantI S_ 32 8#32),
    unary main_c_0 main_v8 (broadcastInDim S100000 ![] bcast_S_S100000 : (⟨S_, .i32⟩ : BufTy).Contents (Elt F) → (⟨S100000, .i32⟩ : BufTy).Contents (Elt F)),
    binary main_arg0 main_v8 main_v9 (addi : (⟨S100000, .i32⟩ : BufTy).Contents (Elt F) → (⟨S100000, .i32⟩ : BufTy).Contents (Elt F) → (⟨S100000, .i32⟩ : BufTy).Contents (Elt F)),
    ternary main_v7 main_v9 main_arg0 main_v10 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v10 main_v11 (broadcastInDim S100000x1 ![0] bcast_S100000_S100000x1_0 : (⟨S100000, .i32⟩ : BufTy).Contents (Elt F) → (⟨S100000x1, .i32⟩ : BufTy).Contents (Elt F)),
    binary main_arg3 main_v11 main_v12 ((fun x i => Host.gather gather_S8x128_S100000x1_S100000x128_1_0_n_n_0_1_1128 x i) : (⟨S8x128, .f32⟩ : BufTy).Contents (Elt F) → (⟨S100000x1, .i32⟩ : BufTy).Contents (Elt F) → (⟨S100000x128, .f32⟩ : BufTy).Contents (Elt F)),
    nullary main_c_1 (constantI S_ 32 0#32),
    unary main_c_1 main_v13 (broadcastInDim S100000 ![] bcast_S_S100000 : (⟨S_, .i32⟩ : BufTy).Contents (Elt F) → (⟨S100000, .i32⟩ : BufTy).Contents (Elt F)),
    binary main_arg2 main_v13 main_v14 (cmpi .slt : (⟨S100000, .i32⟩ : BufTy).Contents (Elt F) → (⟨S100000, .i32⟩ : BufTy).Contents (Elt F) → (⟨S100000, .i1⟩ : BufTy).Contents (Elt F)),
    nullary main_c_2 (constantI S_ 32 512#32),
    unary main_c_2 main_v15 (broadcastInDim S100000 ![] bcast_S_S100000 : (⟨S_, .i32⟩ : BufTy).Contents (Elt F) → (⟨S100000, .i32⟩ : BufTy).Contents (Elt F)),
    binary main_arg2 main_v15 main_v16 (addi : (⟨S100000, .i32⟩ : BufTy).Contents (Elt F) → (⟨S100000, .i32⟩ : BufTy).Contents (Elt F) → (⟨S100000, .i32⟩ : BufTy).Contents (Elt F)),
    ternary main_v14 main_v16 main_arg2 main_v17 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v17 main_v18 (broadcastInDim S100000x1 ![0] bcast_S100000_S100000x1_0 : (⟨S100000, .i32⟩ : BufTy).Contents (Elt F) → (⟨S100000x1, .i32⟩ : BufTy).Contents (Elt F)),
    binary main_v5 main_v18 main_v19 ((fun x i => Host.gather gather_S512x128_S100000x1_S100000x128_1_0_n_n_0_1_1128 x i) : (⟨S512x128, .f32⟩ : BufTy).Contents (Elt F) → (⟨S100000x1, .i32⟩ : BufTy).Contents (Elt F) → (⟨S100000x128, .f32⟩ : BufTy).Contents (Elt F)),
    binary main_v12 main_v19 main_v20 (addf : (⟨S100000x128, .f32⟩ : BufTy).Contents (Elt F) → (⟨S100000x128, .f32⟩ : BufTy).Contents (Elt F) → (⟨S100000x128, .f32⟩ : BufTy).Contents (Elt F)) ]

/-- The window: operations 0 … 24. -/
abbrev wInit : List (HloOp τ sig (Elt Ideal)) := ops0_25 (F := Ideal)

/-- The buffers the window's operations write, in order. -/
def wrInit : List (Ref sig .tc) :=
  [ main_v0, main_v1, main_v2, main_v3, main_v4, main_v5, main_c, main_v6, main_v7, main_c_0,
    main_v8, main_v9, main_v10, main_v11, main_v12, main_c_1, main_v13, main_v14, main_c_2, main_v15,
    main_v16, main_v17, main_v18, main_v19, main_v20 ]

/-- Operation by operation, the one buffer each writes. -/
theorem coversInit : Cert.SSA.Covers wInit wrInit := by
  unfold Cert.SSA.Covers
  dsimp only [wInit, ops0_25, List.cons_append, List.nil_append, wrInit]
  repeat (first | exact List.Forall₂.nil | refine List.Forall₂.cons (Finset.Subset.refl _) ?_)

/-- Every buffer the window names is a buffer of the core. -/
theorem subInit : ∀ op ∈ wInit, op.bufs ⊆ tcRefs τ sig := by
  dsimp only [wInit, ops0_25, List.cons_append, List.nil_append]
  exact List.forall_iff_forall_mem.1
    ⟨unary_bufs_sub .., reshape_bufs_sub .., unary_bufs_sub .., reshape_bufs_sub .., reshape_bufs_sub .., unary_bufs_sub ..,
     nullary_bufs_sub .., unary_bufs_sub .., binary_bufs_sub .., nullary_bufs_sub .., unary_bufs_sub .., binary_bufs_sub ..,
     ternary_bufs_sub .., unary_bufs_sub .., binary_bufs_sub .., nullary_bufs_sub .., unary_bufs_sub .., binary_bufs_sub ..,
     nullary_bufs_sub .., unary_bufs_sub .., binary_bufs_sub .., ternary_bufs_sub .., unary_bufs_sub .., binary_bufs_sub ..,
     binary_bufs_sub ..⟩

/-- Every operation of the window determines its results. -/
theorem freshInit : ∀ op ∈ wInit, op.fresh = ∅ := by
  dsimp only [wInit, ops0_25, List.cons_append, List.nil_append]
  intro op h
  repeat (cases h with | head => rfl | tail _ h => ?_)
  exact nomatch h

theorem valueInitSrc [Cert.ReferenceIdeal.Facts] (V : Valuation τ sig (Elt Ideal)) :
    (after wInit V (Proc.devRef .tc main_v1) : IVec S600000 32) = srcOf layout (argsV V).edges := by
  dsimp only [wInit, ops0_25, List.cons_append, List.nil_append]
  after_results_simp
  rfl

theorem valueInitDst [Cert.ReferenceIdeal.Facts] (V : Valuation τ sig (Elt Ideal)) :
    (after wInit V (Proc.devRef .tc main_v3) : IVec S600000 32) = dstOf layout (argsV V).edges := by
  dsimp only [wInit, ops0_25, List.cons_append, List.nil_append]
  after_results_simp
  rfl

theorem valueInitVn [Cert.ReferenceIdeal.Facts] (V : Valuation τ sig (Elt Ideal)) :
    (after wInit V (Proc.devRef .tc main_v5) : FVec Ideal S512x128 .f32) = vnInit layout (argsV V).ve := by
  dsimp only [wInit, ops0_25, List.cons_append, List.nil_append]
  after_results_simp
  rfl

theorem valueInitHin [Cert.ReferenceIdeal.Facts] (V : Valuation τ sig (Elt Ideal)) :
    (after wInit V (Proc.devRef .tc main_v20) : FVec Ideal S100000x128 .f32) = hinInit dims layout (argsV V).x (argsV V).batch (argsV V).enc (argsV V).ve := by
  dsimp only [wInit, ops0_25, List.cons_append, List.nil_append]
  after_results_simp
  rfl

end Cert.ReferenceIdeal.RefValue

end
-- ==== Proof.RefConv0.lean ====
/-
  Layer 0's map of the node array, in the reference program: operations 25 … 121.

  From the layer's node array with the graphs' rows added (hin), the edges' start and end nodes and the arguments, the
  window computes z = (1 + ε) · hin plus the sums of hin's rows along the edges, and the two-layer normalised map of z, then the maximum with zero. Read from arbitrary contents of the buffers, its result buffer holds that function of what the
  buffers it reads held; it writes none of the buffers it reads.
-/
import proofs.«116444_j64183991272049_2_alg».proof.Proof.RefBase

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx Cert.LibNormLayer Cert.LibSliceRead Cert.Net

variable {F : FTy → Type} [FloatOps F]

/-- Operations 25 … 59 of the program's 847, in order. -/
abbrev ops25_60 : List (HloOp τ sig (Elt F)) :=
  [ nullary main_cst (constant S_ .f32 0x00000000#32),
    unary main_cst main_v21 (broadcastInDim S100000x128 ![] bcast_S_S100000x128 : (⟨S_, .f32⟩ : BufTy).Contents (Elt F) → (⟨S100000x128, .f32⟩ : BufTy).Contents (Elt F)),
    nullary main_c_3 (constantI S_ 32 0#32),
    unary main_c_3 main_v22 (broadcastInDim S600000 ![] bcast_S_S600000 : (⟨S_, .i32⟩ : BufTy).Contents (Elt F) → (⟨S600000, .i32⟩ : BufTy).Contents (Elt F)),
    binary main_v1 main_v22 main_v23 (cmpi .slt : (⟨S600000, .i32⟩ : BufTy).Contents (Elt F) → (⟨S600000, .i32⟩ : BufTy).Contents (Elt F) → (⟨S600000, .i1⟩ : BufTy).Contents (Elt F)),
    nullary main_c_4 (constantI S_ 32 100000#32),
    unary main_c_4 main_v24 (broadcastInDim S600000 ![] bcast_S_S600000 : (⟨S_, .i32⟩ : BufTy).Contents (Elt F) → (⟨S600000, .i32⟩ : BufTy).Contents (Elt F)),
    binary main_v1 main_v24 main_v25 (addi : (⟨S600000, .i32⟩ : BufTy).Contents (Elt F) → (⟨S600000, .i32⟩ : BufTy).Contents (Elt F) → (⟨S600000, .i32⟩ : BufTy).Contents (Elt F)),
    ternary main_v23 main_v25 main_v1 main_v26 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v26 main_v27 (broadcastInDim S600000x1 ![0] bcast_S600000_S600000x1_0 : (⟨S600000, .i32⟩ : BufTy).Contents (Elt F) → (⟨S600000x1, .i32⟩ : BufTy).Contents (Elt F)),
    binary main_v20 main_v27 main_v28 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    nullary main_c_5 (constantI S_ 32 0#32),
    unary main_c_5 main_v29 (broadcastInDim S600000 ![] bcast_S_S600000 : (⟨S_, .i32⟩ : BufTy).Contents (Elt F) → (⟨S600000, .i32⟩ : BufTy).Contents (Elt F)),
    binary main_v3 main_v29 main_v30 (cmpi .slt : (⟨S600000, .i32⟩ : BufTy).Contents (Elt F) → (⟨S600000, .i32⟩ : BufTy).Contents (Elt F) → (⟨S600000, .i1⟩ : BufTy).Contents (Elt F)),
    nullary main_c_6 (constantI S_ 32 100000#32),
    unary main_c_6 main_v31 (broadcastInDim S600000 ![] bcast_S_S600000 : (⟨S_, .i32⟩ : BufTy).Contents (Elt F) → (⟨S600000, .i32⟩ : BufTy).Contents (Elt F)),
    binary main_v3 main_v31 main_v32 (addi : (⟨S600000, .i32⟩ : BufTy).Contents (Elt F) → (⟨S600000, .i32⟩ : BufTy).Contents (Elt F) → (⟨S600000, .i32⟩ : BufTy).Contents (Elt F)),
    ternary main_v30 main_v32 main_v3 main_v33 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v33 main_v34 (broadcastInDim S600000x1 ![0] bcast_S600000_S600000x1_0 : (⟨S600000, .i32⟩ : BufTy).Contents (Elt F) → (⟨S600000x1, .i32⟩ : BufTy).Contents (Elt F)),
    ternary main_v21 main_v34 main_v28 main_v35 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    unary main_arg5 main_v36 ((extractStridedSlice S1 ![0] · slices_S5_S1_0) : (⟨S5, .f32⟩ : BufTy).Contents (Elt F) → (⟨S1, .f32⟩ : BufTy).Contents (Elt F)),
    reshape main_v36 main_v37 rfl shapeCasts_S1_S_,
    nullary main_cst_7 (constant S_ .f32 0x3F800000#32),
    binary main_cst_7 main_v37 main_v38 (addf : (⟨S_, .f32⟩ : BufTy).Contents (Elt F) → (⟨S_, .f32⟩ : BufTy).Contents (Elt F) → (⟨S_, .f32⟩ : BufTy).Contents (Elt F)),
    unary main_v38 main_v39 (broadcastInDim S100000x128 ![] bcast_S_S100000x128 : (⟨S_, .f32⟩ : BufTy).Contents (Elt F) → (⟨S100000x128, .f32⟩ : BufTy).Contents (Elt F)),
    binary main_v39 main_v20 main_v40 (mulf : (⟨S100000x128, .f32⟩ : BufTy).Contents (Elt F) → (⟨S100000x128, .f32⟩ : BufTy).Contents (Elt F) → (⟨S100000x128, .f32⟩ : BufTy).Contents (Elt F)),
    binary main_v40 main_v35 main_v41 (addf : (⟨S100000x128, .f32⟩ : BufTy).Contents (Elt F) → (⟨S100000x128, .f32⟩ : BufTy).Contents (Elt F) → (⟨S100000x128, .f32⟩ : BufTy).Contents (Elt F)),
    unary main_arg6 main_v42 ((extractStridedSlice S1x128x256 ![0, 0, 0] · slices_S5x128x256_S1x128x256_0_0_0) : (⟨S5x128x256, .f32⟩ : BufTy).Contents (Elt F) → (⟨S1x128x256, .f32⟩ : BufTy).Contents (Elt F)),
    reshape main_v42 main_v43 rfl shapeCasts_S1x128x256_S128x256,
    binary main_v41 main_v43 main_v44 ((fun l r => Host.dotGeneral dot_S100000x128_S128x256_S100000x256_1_0_0_1_n_n none l r) : (⟨S100000x128, .f32⟩ : BufTy).Contents (Elt F) → (⟨S128x256, .f32⟩ : BufTy).Contents (Elt F) → (⟨S100000x256, .f32⟩ : BufTy).Contents (Elt F)),
    unary main_arg7 main_v45 ((extractStridedSlice S1x256 ![0, 0] · slices_S5x256_S1x256_0_0) : (⟨S5x256, .f32⟩ : BufTy).Contents (Elt F) → (⟨S1x256, .f32⟩ : BufTy).Contents (Elt F)),
    reshape main_v45 main_v46 rfl shapeCasts_S1x256_S256,
    unary main_v46 main_v47 (broadcastInDim S1x256 ![1] bcast_S256_S1x256_1 : (⟨S256, .f32⟩ : BufTy).Contents (Elt F) → (⟨S1x256, .f32⟩ : BufTy).Contents (Elt F)),
    unary main_v47 main_v48 (broadcastInDim S100000x256 ![0, 1] bcast_S1x256_S100000x256_0_1 : (⟨S1x256, .f32⟩ : BufTy).Contents (Elt F) → (⟨S100000x256, .f32⟩ : BufTy).Contents (Elt F)),
    binary main_v44 main_v48 main_v49 (addf : (⟨S100000x256, .f32⟩ : BufTy).Contents (Elt F) → (⟨S100000x256, .f32⟩ : BufTy).Contents (Elt F) → (⟨S100000x256, .f32⟩ : BufTy).Contents (Elt F)) ]

/-- Operations 60 … 121 of the program's 847, in order. -/
abbrev ops60_122 : List (HloOp τ sig (Elt F)) :=
  [ unary main_arg8 main_v50 ((extractStridedSlice S1x256 ![0, 0] · slices_S5x256_S1x256_0_0) : (⟨S5x256, .f32⟩ : BufTy).Contents (Elt F) → (⟨S1x256, .f32⟩ : BufTy).Contents (Elt F)),
    reshape main_v50 main_v51 rfl shapeCasts_S1x256_S256,
    unary main_arg9 main_v52 ((extractStridedSlice S1x256 ![0, 0] · slices_S5x256_S1x256_0_0) : (⟨S5x256, .f32⟩ : BufTy).Contents (Elt F) → (⟨S1x256, .f32⟩ : BufTy).Contents (Elt F)),
    reshape main_v52 main_v53 rfl shapeCasts_S1x256_S256,
    unary main_arg10 main_v54 ((extractStridedSlice S1x256 ![0, 0] · slices_S5x256_S1x256_0_0) : (⟨S5x256, .f32⟩ : BufTy).Contents (Elt F) → (⟨S1x256, .f32⟩ : BufTy).Contents (Elt F)),
    reshape main_v54 main_v55 rfl shapeCasts_S1x256_S256,
    unary main_arg11 main_v56 ((extractStridedSlice S1x256 ![0, 0] · slices_S5x256_S1x256_0_0) : (⟨S5x256, .f32⟩ : BufTy).Contents (Elt F) → (⟨S1x256, .f32⟩ : BufTy).Contents (Elt F)),
    reshape main_v56 main_v57 rfl shapeCasts_S1x256_S256,
    unary main_v55 main_v58 (broadcastInDim S1x256 ![1] bcast_S256_S1x256_1 : (⟨S256, .f32⟩ : BufTy).Contents (Elt F) → (⟨S1x256, .f32⟩ : BufTy).Contents (Elt F)),
    unary main_v58 main_v59 (broadcastInDim S100000x256 ![0, 1] bcast_S1x256_S100000x256_0_1 : (⟨S1x256, .f32⟩ : BufTy).Contents (Elt F) → (⟨S100000x256, .f32⟩ : BufTy).Contents (Elt F)),
    binary main_v49 main_v59 main_v60 (subf : (⟨S100000x256, .f32⟩ : BufTy).Contents (Elt F) → (⟨S100000x256, .f32⟩ : BufTy).Contents (Elt F) → (⟨S100000x256, .f32⟩ : BufTy).Contents (Elt F)),
    nullary main_cst_8 (constant S_ .f32 0x3727C5AC#32),
    unary main_cst_8 main_v61 (broadcastInDim S256 ![] bcast_S_S256 : (⟨S_, .f32⟩ : BufTy).Contents (Elt F) → (⟨S256, .f32⟩ : BufTy).Contents (Elt F)),
    binary main_v57 main_v61 main_v62 (addf : (⟨S256, .f32⟩ : BufTy).Contents (Elt F) → (⟨S256, .f32⟩ : BufTy).Contents (Elt F) → (⟨S256, .f32⟩ : BufTy).Contents (Elt F)),
    unary main_v62 main_v63 (Host.rsqrt : (⟨S256, .f32⟩ : BufTy).Contents (Elt F) → (⟨S256, .f32⟩ : BufTy).Contents (Elt F)),
    unary main_v63 main_v64 (broadcastInDim S1x256 ![1] bcast_S256_S1x256_1 : (⟨S256, .f32⟩ : BufTy).Contents (Elt F) → (⟨S1x256, .f32⟩ : BufTy).Contents (Elt F)),
    unary main_v64 main_v65 (broadcastInDim S100000x256 ![0, 1] bcast_S1x256_S100000x256_0_1 : (⟨S1x256, .f32⟩ : BufTy).Contents (Elt F) → (⟨S100000x256, .f32⟩ : BufTy).Contents (Elt F)),
    binary main_v60 main_v65 main_v66 (mulf : (⟨S100000x256, .f32⟩ : BufTy).Contents (Elt F) → (⟨S100000x256, .f32⟩ : BufTy).Contents (Elt F) → (⟨S100000x256, .f32⟩ : BufTy).Contents (Elt F)),
    unary main_v51 main_v67 (broadcastInDim S1x256 ![1] bcast_S256_S1x256_1 : (⟨S256, .f32⟩ : BufTy).Contents (Elt F) → (⟨S1x256, .f32⟩ : BufTy).Contents (Elt F)),
    unary main_v67 main_v68 (broadcastInDim S100000x256 ![0, 1] bcast_S1x256_S100000x256_0_1 : (⟨S1x256, .f32⟩ : BufTy).Contents (Elt F) → (⟨S100000x256, .f32⟩ : BufTy).Contents (Elt F)),
    binary main_v66 main_v68 main_v69 (mulf : (⟨S100000x256, .f32⟩ : BufTy).Contents (Elt F) → (⟨S100000x256, .f32⟩ : BufTy).Contents (Elt F) → (⟨S100000x256, .f32⟩ : BufTy).Contents (Elt F)),
    unary main_v53 main_v70 (broadcastInDim S1x256 ![1] bcast_S256_S1x256_1 : (⟨S256, .f32⟩ : BufTy).Contents (Elt F) → (⟨S1x256, .f32⟩ : BufTy).Contents (Elt F)),
    unary main_v70 main_v71 (broadcastInDim S100000x256 ![0, 1] bcast_S1x256_S100000x256_0_1 : (⟨S1x256, .f32⟩ : BufTy).Contents (Elt F) → (⟨S100000x256, .f32⟩ : BufTy).Contents (Elt F)),
    binary main_v69 main_v71 main_v72 (addf : (⟨S100000x256, .f32⟩ : BufTy).Contents (Elt F) → (⟨S100000x256, .f32⟩ : BufTy).Contents (Elt F) → (⟨S100000x256, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x256, .f32⟩) main_call0_v0) (broadcastInDim S100000x256 ![] bcast_S_S100000x256),
    TRef.binary (TRef.of (T := ⟨S100000x256, .f32⟩) main_v72) (TRef.of (T := ⟨S100000x256, .f32⟩) main_call0_v0) (TRef.of (T := ⟨S100000x256, .f32⟩) main_v73) maximumf,
    unary main_arg12 main_v74 ((extractStridedSlice S1x256x128 ![0, 0, 0] · slices_S5x256x128_S1x256x128_0_0_0) : (⟨S5x256x128, .f32⟩ : BufTy).Contents (Elt F) → (⟨S1x256x128, .f32⟩ : BufTy).Contents (Elt F)),
    reshape main_v74 main_v75 rfl shapeCasts_S1x256x128_S256x128,
    binary main_v73 main_v75 main_v76 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    unary main_arg13 main_v77 ((extractStridedSlice S1x128 ![0, 0] · slices_S5x128_S1x128_0_0) : (⟨S5x128, .f32⟩ : BufTy).Contents (Elt F) → (⟨S1x128, .f32⟩ : BufTy).Contents (Elt F)),
    reshape main_v77 main_v78 rfl shapeCasts_S1x128_S128,
    unary main_v78 main_v79 (broadcastInDim S1x128 ![1] bcast_S128_S1x128_1 : (⟨S128, .f32⟩ : BufTy).Contents (Elt F) → (⟨S1x128, .f32⟩ : BufTy).Contents (Elt F)),
    unary main_v79 main_v80 (broadcastInDim S100000x128 ![0, 1] bcast_S1x128_S100000x128_0_1 : (⟨S1x128, .f32⟩ : BufTy).Contents (Elt F) → (⟨S100000x128, .f32⟩ : BufTy).Contents (Elt F)),
    binary main_v76 main_v80 main_v81 (addf : (⟨S100000x128, .f32⟩ : BufTy).Contents (Elt F) → (⟨S100000x128, .f32⟩ : BufTy).Contents (Elt F) → (⟨S100000x128, .f32⟩ : BufTy).Contents (Elt F)),
    unary main_arg14 main_v82 ((extractStridedSlice S1x128 ![0, 0] · slices_S5x128_S1x128_0_0) : (⟨S5x128, .f32⟩ : BufTy).Contents (Elt F) → (⟨S1x128, .f32⟩ : BufTy).Contents (Elt F)),
    reshape main_v82 main_v83 rfl shapeCasts_S1x128_S128,
    unary main_arg15 main_v84 ((extractStridedSlice S1x128 ![0, 0] · slices_S5x128_S1x128_0_0) : (⟨S5x128, .f32⟩ : BufTy).Contents (Elt F) → (⟨S1x128, .f32⟩ : BufTy).Contents (Elt F)),
    reshape main_v84 main_v85 rfl shapeCasts_S1x128_S128,
    unary main_arg16 main_v86 ((extractStridedSlice S1x128 ![0, 0] · slices_S5x128_S1x128_0_0) : (⟨S5x128, .f32⟩ : BufTy).Contents (Elt F) → (⟨S1x128, .f32⟩ : BufTy).Contents (Elt F)),
    reshape main_v86 main_v87 rfl shapeCasts_S1x128_S128,
    unary main_arg17 main_v88 ((extractStridedSlice S1x128 ![0, 0] · slices_S5x128_S1x128_0_0) : (⟨S5x128, .f32⟩ : BufTy).Contents (Elt F) → (⟨S1x128, .f32⟩ : BufTy).Contents (Elt F)),
    reshape main_v88 main_v89 rfl shapeCasts_S1x128_S128,
    unary main_v87 main_v90 (broadcastInDim S1x128 ![1] bcast_S128_S1x128_1 : (⟨S128, .f32⟩ : BufTy).Contents (Elt F) → (⟨S1x128, .f32⟩ : BufTy).Contents (Elt F)),
    unary main_v90 main_v91 (broadcastInDim S100000x128 ![0, 1] bcast_S1x128_S100000x128_0_1 : (⟨S1x128, .f32⟩ : BufTy).Contents (Elt F) → (⟨S100000x128, .f32⟩ : BufTy).Contents (Elt F)),
    binary main_v81 main_v91 main_v92 (subf : (⟨S100000x128, .f32⟩ : BufTy).Contents (Elt F) → (⟨S100000x128, .f32⟩ : BufTy).Contents (Elt F) → (⟨S100000x128, .f32⟩ : BufTy).Contents (Elt F)),
    nullary main_cst_9 (constant S_ .f32 0x3727C5AC#32),
    unary main_cst_9 main_v93 (broadcastInDim S128 ![] bcast_S_S128 : (⟨S_, .f32⟩ : BufTy).Contents (Elt F) → (⟨S128, .f32⟩ : BufTy).Contents (Elt F)),
    binary main_v89 main_v93 main_v94 (addf : (⟨S128, .f32⟩ : BufTy).Contents (Elt F) → (⟨S128, .f32⟩ : BufTy).Contents (Elt F) → (⟨S128, .f32⟩ : BufTy).Contents (Elt F)),
    unary main_v94 main_v95 (Host.rsqrt : (⟨S128, .f32⟩ : BufTy).Contents (Elt F) → (⟨S128, .f32⟩ : BufTy).Contents (Elt F)),
    unary main_v95 main_v96 (broadcastInDim S1x128 ![1] bcast_S128_S1x128_1 : (⟨S128, .f32⟩ : BufTy).Contents (Elt F) → (⟨S1x128, .f32⟩ : BufTy).Contents (Elt F)),
    unary main_v96 main_v97 (broadcastInDim S100000x128 ![0, 1] bcast_S1x128_S100000x128_0_1 : (⟨S1x128, .f32⟩ : BufTy).Contents (Elt F) → (⟨S100000x128, .f32⟩ : BufTy).Contents (Elt F)),
    binary main_v92 main_v97 main_v98 (mulf : (⟨S100000x128, .f32⟩ : BufTy).Contents (Elt F) → (⟨S100000x128, .f32⟩ : BufTy).Contents (Elt F) → (⟨S100000x128, .f32⟩ : BufTy).Contents (Elt F)),
    unary main_v83 main_v99 (broadcastInDim S1x128 ![1] bcast_S128_S1x128_1 : (⟨S128, .f32⟩ : BufTy).Contents (Elt F) → (⟨S1x128, .f32⟩ : BufTy).Contents (Elt F)),
    unary main_v99 main_v100 (broadcastInDim S100000x128 ![0, 1] bcast_S1x128_S100000x128_0_1 : (⟨S1x128, .f32⟩ : BufTy).Contents (Elt F) → (⟨S100000x128, .f32⟩ : BufTy).Contents (Elt F)),
    binary main_v98 main_v100 main_v101 (mulf : (⟨S100000x128, .f32⟩ : BufTy).Contents (Elt F) → (⟨S100000x128, .f32⟩ : BufTy).Contents (Elt F) → (⟨S100000x128, .f32⟩ : BufTy).Contents (Elt F)),
    unary main_v85 main_v102 (broadcastInDim S1x128 ![1] bcast_S128_S1x128_1 : (⟨S128, .f32⟩ : BufTy).Contents (Elt F) → (⟨S1x128, .f32⟩ : BufTy).Contents (Elt F)),
    unary main_v102 main_v103 (broadcastInDim S100000x128 ![0, 1] bcast_S1x128_S100000x128_0_1 : (⟨S1x128, .f32⟩ : BufTy).Contents (Elt F) → (⟨S100000x128, .f32⟩ : BufTy).Contents (Elt F)),
    binary main_v101 main_v103 main_v104 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v104) (TRef.of (T := ⟨S100000x128, .f32⟩) main_call1_v0) (TRef.of (T := ⟨S100000x128, .f32⟩) main_v105) maximumf ]

/-- The window: operations 25 … 121. -/
abbrev wConv0 : List (HloOp τ sig (Elt Ideal)) := ops25_60 (F := Ideal) ++ ops60_122 (F := Ideal)

/-- The buffers the window's operations write, in order. -/
def wrConv0 : List (Ref sig .tc) :=
  [ main_cst, main_v21, main_c_3, main_v22, main_v23, main_c_4, main_v24, main_v25, main_v26, main_v27,
    main_v28, main_c_5, main_v29, main_v30, main_c_6, main_v31, main_v32, main_v33, main_v34, main_v35,
    main_v36, main_v37, main_cst_7, main_v38, main_v39, main_v40, main_v41, main_v42, main_v43, main_v44,
    main_v45, main_v46, main_v47, main_v48, main_v49, main_v50, main_v51, main_v52, main_v53, main_v54,
    main_v55, main_v56, main_v57, main_v58, main_v59, main_v60, main_cst_8, main_v61, main_v62, main_v63,
    main_v64, main_v65, main_v66, main_v67, main_v68, main_v69, main_v70, main_v71, main_v72, main_call0_cst,
    main_call0_v0, main_v73, main_v74, main_v75, main_v76, main_v77, main_v78, main_v79, main_v80, main_v81,
    main_v82, main_v83, main_v84, main_v85, main_v86, main_v87, main_v88, main_v89, main_v90, main_v91,
    main_v92, main_cst_9, main_v93, main_v94, main_v95, main_v96, main_v97, main_v98, main_v99, main_v100,
    main_v101, main_v102, main_v103, main_v104, main_call1_cst, main_call1_v0, main_v105 ]

/-- Operation by operation, the one buffer each writes. -/
theorem coversConv0 : Cert.SSA.Covers wConv0 wrConv0 := by
  unfold Cert.SSA.Covers
  dsimp only [wConv0, ops25_60, ops60_122, List.cons_append, List.nil_append, wrConv0]
  repeat (first | exact List.Forall₂.nil | refine List.Forall₂.cons (Finset.Subset.refl _) ?_)

/-- Every buffer the window names is a buffer of the core. -/
theorem subConv0 : ∀ op ∈ wConv0, op.bufs ⊆ tcRefs τ sig := by
  dsimp only [wConv0, ops25_60, ops60_122, List.cons_append, List.nil_append]
  exact List.forall_iff_forall_mem.1
    ⟨nullary_bufs_sub .., unary_bufs_sub .., nullary_bufs_sub .., unary_bufs_sub .., binary_bufs_sub .., nullary_bufs_sub ..,
     unary_bufs_sub .., binary_bufs_sub .., ternary_bufs_sub .., unary_bufs_sub .., binary_bufs_sub .., nullary_bufs_sub ..,
     unary_bufs_sub .., binary_bufs_sub .., nullary_bufs_sub .., unary_bufs_sub .., binary_bufs_sub .., ternary_bufs_sub ..,
     unary_bufs_sub .., ternary_bufs_sub .., unary_bufs_sub .., reshape_bufs_sub .., nullary_bufs_sub .., binary_bufs_sub ..,
     unary_bufs_sub .., binary_bufs_sub .., binary_bufs_sub .., unary_bufs_sub .., reshape_bufs_sub .., binary_bufs_sub ..,
     unary_bufs_sub .., reshape_bufs_sub .., unary_bufs_sub .., unary_bufs_sub .., binary_bufs_sub .., unary_bufs_sub ..,
     reshape_bufs_sub .., unary_bufs_sub .., reshape_bufs_sub .., unary_bufs_sub .., reshape_bufs_sub .., unary_bufs_sub ..,
     reshape_bufs_sub .., unary_bufs_sub .., unary_bufs_sub .., binary_bufs_sub .., nullary_bufs_sub .., unary_bufs_sub ..,
     binary_bufs_sub .., unary_bufs_sub .., unary_bufs_sub .., unary_bufs_sub .., binary_bufs_sub .., unary_bufs_sub ..,
     unary_bufs_sub .., binary_bufs_sub .., unary_bufs_sub .., unary_bufs_sub .., binary_bufs_sub .., nullary_bufs_sub ..,
     unary_bufs_sub .., binary_bufs_sub .., unary_bufs_sub .., reshape_bufs_sub .., binary_bufs_sub .., unary_bufs_sub ..,
     reshape_bufs_sub .., unary_bufs_sub .., unary_bufs_sub .., binary_bufs_sub .., unary_bufs_sub .., reshape_bufs_sub ..,
     unary_bufs_sub .., reshape_bufs_sub .., unary_bufs_sub .., reshape_bufs_sub .., unary_bufs_sub .., reshape_bufs_sub ..,
     unary_bufs_sub .., unary_bufs_sub .., binary_bufs_sub .., nullary_bufs_sub .., unary_bufs_sub .., binary_bufs_sub ..,
     unary_bufs_sub .., unary_bufs_sub .., unary_bufs_sub .., binary_bufs_sub .., unary_bufs_sub .., unary_bufs_sub ..,
     binary_bufs_sub .., unary_bufs_sub .., unary_bufs_sub .., binary_bufs_sub .., nullary_bufs_sub .., unary_bufs_sub ..,
     binary_bufs_sub ..⟩

/-- Every operation of the window determines its results. -/
theorem freshConv0 : ∀ op ∈ wConv0, op.fresh = ∅ := by
  dsimp only [wConv0, ops25_60, ops60_122, List.cons_append, List.nil_append]
  intro op h
  repeat (cases h with | head => rfl | tail _ h => ?_)
  exact nomatch h

set_option maxHeartbeats 4000000 in
/-- What the window leaves in its result buffer. -/
theorem valueConv0 [Cert.ReferenceIdeal.Facts] (V : Valuation τ sig (Elt Ideal)) :
    (after wConv0 V (Proc.devRef .tc main_v105) : FVec Ideal S100000x128 .f32)
      = ramp (convCore (argsV V) 0 (zOf dims layout (V (Proc.devRef .tc main_v20)) (V (Proc.devRef .tc main_v1)) (V (Proc.devRef .tc main_v3)) (scalarAt (argsV V).eps 0))) := by
  dsimp only [wConv0, ops25_60, ops60_122, List.cons_append, List.nil_append]
  after_results_simp
  refine Eq.trans ?_ (congrArg ramp (conv_host dims layout (argsV V) (convLayout 0) dot_S100000x128_S128x256_S100000x256_1_0_0_1_n_n dot_S100000x256_S256x128_S100000x128_1_0_0_1_n_n rfl rfl _ _ _))
  refine Eq.trans ?_ (host_ramp (convLayout 0).y2.hR _)
  rfl

end Cert.ReferenceIdeal.RefValue

end
-- ==== Proof.RefTable0.lean ====
/-
  Layer 0's renewal of the graph table, in the reference program: operations 122 … 196.

  From the layer's node array with the graphs' rows added (hin), the old table and the arguments, the window sums hin's
  rows per graph, adds the old table, and applies the two-layer normalised map with its last maximum with zero. Read
  from arbitrary contents of the buffers, its result buffer holds that function of what the buffers it reads held; it
  writes none of the buffers it reads.
-/
import proofs.«116444_j64183991272049_2_alg».proof.Proof.RefBase

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx Cert.LibNormLayer Cert.LibSliceRead Cert.Net

variable {F : FTy → Type} [FloatOps F]

/-- Operations 122 … 123 of the program's 847, in order. -/
abbrev ops122_124 : List (HloOp τ sig (Elt F)) :=
  [ nullary main_cst_10 (constant S_ .f32 0x00000000#32),
    unary main_cst_10 main_v106 (broadcastInDim S512x128 ![] bcast_S_S512x128 : (⟨S_, .f32⟩ : BufTy).Contents (Elt F) → (⟨S512x128, .f32⟩ : BufTy).Contents (Elt F)) ]

/-- Operations 124 … 185 of the program's 847, in order. -/
abbrev ops124_186 : List (HloOp τ sig (Elt F)) :=
  [ unary main_arg2 main_v107 (broadcastInDim S100000x1 ![0] bcast_S100000_S100000x1_0 : (⟨S100000, .i32⟩ : BufTy).Contents (Elt F) → (⟨S100000x1, .i32⟩ : BufTy).Contents (Elt F)),
    ternary main_v106 main_v107 main_v20 main_v108 ((fun x i u => Host.scatterAdd scatter_S512x128_S100000x1_S100000x128_1_0_0_1 x i u) : (⟨S512x128, .f32⟩ : BufTy).Contents (Elt F) → (⟨S100000x1, .i32⟩ : BufTy).Contents (Elt F) → (⟨S100000x128, .f32⟩ : BufTy).Contents (Elt F) → (⟨S512x128, .f32⟩ : BufTy).Contents (Elt F)),
    binary main_v108 main_v5 main_v109 (addf : (⟨S512x128, .f32⟩ : BufTy).Contents (Elt F) → (⟨S512x128, .f32⟩ : BufTy).Contents (Elt F) → (⟨S512x128, .f32⟩ : BufTy).Contents (Elt F)),
    unary main_arg18 main_v110 ((extractStridedSlice S1x128x256 ![0, 0, 0] · slices_S4x128x256_S1x128x256_0_0_0) : (⟨S4x128x256, .f32⟩ : BufTy).Contents (Elt F) → (⟨S1x128x256, .f32⟩ : BufTy).Contents (Elt F)),
    reshape main_v110 main_v111 rfl shapeCasts_S1x128x256_S128x256,
    binary main_v109 main_v111 main_v112 ((fun l r => Host.dotGeneral dot_S512x128_S128x256_S512x256_1_0_0_1_n_n none l r) : (⟨S512x128, .f32⟩ : BufTy).Contents (Elt F) → (⟨S128x256, .f32⟩ : BufTy).Contents (Elt F) → (⟨S512x256, .f32⟩ : BufTy).Contents (Elt F)),
    unary main_arg19 main_v113 ((extractStridedSlice S1x256 ![0, 0] · slices_S4x256_S1x256_0_0) : (⟨S4x256, .f32⟩ : BufTy).Contents (Elt F) → (⟨S1x256, .f32⟩ : BufTy).Contents (Elt F)),
    reshape main_v113 main_v114 rfl shapeCasts_S1x256_S256,
    unary main_v114 main_v115 (broadcastInDim S1x256 ![1] bcast_S256_S1x256_1 : (⟨S256, .f32⟩ : BufTy).Contents (Elt F) → (⟨S1x256, .f32⟩ : BufTy).Contents (Elt F)),
    unary main_v115 main_v116 (broadcastInDim S512x256 ![0, 1] bcast_S1x256_S512x256_0_1 : (⟨S1x256, .f32⟩ : BufTy).Contents (Elt F) → (⟨S512x256, .f32⟩ : BufTy).Contents (Elt F)),
    binary main_v112 main_v116 main_v117 (addf : (⟨S512x256, .f32⟩ : BufTy).Contents (Elt F) → (⟨S512x256, .f32⟩ : BufTy).Contents (Elt F) → (⟨S512x256, .f32⟩ : BufTy).Contents (Elt F)),
    unary main_arg20 main_v118 ((extractStridedSlice S1x256 ![0, 0] · slices_S4x256_S1x256_0_0) : (⟨S4x256, .f32⟩ : BufTy).Contents (Elt F) → (⟨S1x256, .f32⟩ : BufTy).Contents (Elt F)),
    reshape main_v118 main_v119 rfl shapeCasts_S1x256_S256,
    unary main_arg21 main_v120 ((extractStridedSlice S1x256 ![0, 0] · slices_S4x256_S1x256_0_0) : (⟨S4x256, .f32⟩ : BufTy).Contents (Elt F) → (⟨S1x256, .f32⟩ : BufTy).Contents (Elt F)),
    reshape main_v120 main_v121 rfl shapeCasts_S1x256_S256,
    unary main_arg22 main_v122 ((extractStridedSlice S1x256 ![0, 0] · slices_S4x256_S1x256_0_0) : (⟨S4x256, .f32⟩ : BufTy).Contents (Elt F) → (⟨S1x256, .f32⟩ : BufTy).Contents (Elt F)),
    reshape main_v122 main_v123 rfl shapeCasts_S1x256_S256,
    unary main_arg23 main_v124 ((extractStridedSlice S1x256 ![0, 0] · slices_S4x256_S1x256_0_0) : (⟨S4x256, .f32⟩ : BufTy).Contents (Elt F) → (⟨S1x256, .f32⟩ : BufTy).Contents (Elt F)),
    reshape main_v124 main_v125 rfl shapeCasts_S1x256_S256,
    unary main_v123 main_v126 (broadcastInDim S1x256 ![1] bcast_S256_S1x256_1 : (⟨S256, .f32⟩ : BufTy).Contents (Elt F) → (⟨S1x256, .f32⟩ : BufTy).Contents (Elt F)),
    unary main_v126 main_v127 (broadcastInDim S512x256 ![0, 1] bcast_S1x256_S512x256_0_1 : (⟨S1x256, .f32⟩ : BufTy).Contents (Elt F) → (⟨S512x256, .f32⟩ : BufTy).Contents (Elt F)),
    binary main_v117 main_v127 main_v128 (subf : (⟨S512x256, .f32⟩ : BufTy).Contents (Elt F) → (⟨S512x256, .f32⟩ : BufTy).Contents (Elt F) → (⟨S512x256, .f32⟩ : BufTy).Contents (Elt F)),
    nullary main_cst_11 (constant S_ .f32 0x3727C5AC#32),
    unary main_cst_11 main_v129 (broadcastInDim S256 ![] bcast_S_S256 : (⟨S_, .f32⟩ : BufTy).Contents (Elt F) → (⟨S256, .f32⟩ : BufTy).Contents (Elt F)),
    binary main_v125 main_v129 main_v130 (addf : (⟨S256, .f32⟩ : BufTy).Contents (Elt F) → (⟨S256, .f32⟩ : BufTy).Contents (Elt F) → (⟨S256, .f32⟩ : BufTy).Contents (Elt F)),
    unary main_v130 main_v131 (Host.rsqrt : (⟨S256, .f32⟩ : BufTy).Contents (Elt F) → (⟨S256, .f32⟩ : BufTy).Contents (Elt F)),
    unary main_v131 main_v132 (broadcastInDim S1x256 ![1] bcast_S256_S1x256_1 : (⟨S256, .f32⟩ : BufTy).Contents (Elt F) → (⟨S1x256, .f32⟩ : BufTy).Contents (Elt F)),
    unary main_v132 main_v133 (broadcastInDim S512x256 ![0, 1] bcast_S1x256_S512x256_0_1 : (⟨S1x256, .f32⟩ : BufTy).Contents (Elt F) → (⟨S512x256, .f32⟩ : BufTy).Contents (Elt F)),
    binary main_v128 main_v133 main_v134 (mulf : (⟨S512x256, .f32⟩ : BufTy).Contents (Elt F) → (⟨S512x256, .f32⟩ : BufTy).Contents (Elt F) → (⟨S512x256, .f32⟩ : BufTy).Contents (Elt F)),
    unary main_v119 main_v135 (broadcastInDim S1x256 ![1] bcast_S256_S1x256_1 : (⟨S256, .f32⟩ : BufTy).Contents (Elt F) → (⟨S1x256, .f32⟩ : BufTy).Contents (Elt F)),
    unary main_v135 main_v136 (broadcastInDim S512x256 ![0, 1] bcast_S1x256_S512x256_0_1 : (⟨S1x256, .f32⟩ : BufTy).Contents (Elt F) → (⟨S512x256, .f32⟩ : BufTy).Contents (Elt F)),
    binary main_v134 main_v136 main_v137 (mulf : (⟨S512x256, .f32⟩ : BufTy).Contents (Elt F) → (⟨S512x256, .f32⟩ : BufTy).Contents (Elt F) → (⟨S512x256, .f32⟩ : BufTy).Contents (Elt F)),
    unary main_v121 main_v138 (broadcastInDim S1x256 ![1] bcast_S256_S1x256_1 : (⟨S256, .f32⟩ : BufTy).Contents (Elt F) → (⟨S1x256, .f32⟩ : BufTy).Contents (Elt F)),
    unary main_v138 main_v139 (broadcastInDim S512x256 ![0, 1] bcast_S1x256_S512x256_0_1 : (⟨S1x256, .f32⟩ : BufTy).Contents (Elt F) → (⟨S512x256, .f32⟩ : BufTy).Contents (Elt F)),
    binary main_v137 main_v139 main_v140 (addf : (⟨S512x256, .f32⟩ : BufTy).Contents (Elt F) → (⟨S512x256, .f32⟩ : BufTy).Contents (Elt F) → (⟨S512x256, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S512x256, .f32⟩) main_call2_v0) (broadcastInDim S512x256 ![] bcast_S_S512x256),
    TRef.binary (TRef.of (T := ⟨S512x256, .f32⟩) main_v140) (TRef.of (T := ⟨S512x256, .f32⟩) main_call2_v0) (TRef.of (T := ⟨S512x256, .f32⟩) main_v141) maximumf,
    unary main_arg24 main_v142 ((extractStridedSlice S1x256x128 ![0, 0, 0] · slices_S4x256x128_S1x256x128_0_0_0) : (⟨S4x256x128, .f32⟩ : BufTy).Contents (Elt F) → (⟨S1x256x128, .f32⟩ : BufTy).Contents (Elt F)),
    reshape main_v142 main_v143 rfl shapeCasts_S1x256x128_S256x128,
    binary main_v141 main_v143 main_v144 ((fun l r => Host.dotGeneral dot_S512x256_S256x128_S512x128_1_0_0_1_n_n none l r) : (⟨S512x256, .f32⟩ : BufTy).Contents (Elt F) → (⟨S256x128, .f32⟩ : BufTy).Contents (Elt F) → (⟨S512x128, .f32⟩ : BufTy).Contents (Elt F)),
    unary main_arg25 main_v145 ((extractStridedSlice S1x128 ![0, 0] · slices_S4x128_S1x128_0_0) : (⟨S4x128, .f32⟩ : BufTy).Contents (Elt F) → (⟨S1x128, .f32⟩ : BufTy).Contents (Elt F)),
    reshape main_v145 main_v146 rfl shapeCasts_S1x128_S128,
    unary main_v146 main_v147 (broadcastInDim S1x128 ![1] bcast_S128_S1x128_1 : (⟨S128, .f32⟩ : BufTy).Contents (Elt F) → (⟨S1x128, .f32⟩ : BufTy).Contents (Elt F)),
    unary main_v147 main_v148 (broadcastInDim S512x128 ![0, 1] bcast_S1x128_S512x128_0_1 : (⟨S1x128, .f32⟩ : BufTy).Contents (Elt F) → (⟨S512x128, .f32⟩ : BufTy).Contents (Elt F)),
    binary main_v144 main_v148 main_v149 (addf : (⟨S512x128, .f32⟩ : BufTy).Contents (Elt F) → (⟨S512x128, .f32⟩ : BufTy).Contents (Elt F) → (⟨S512x128, .f32⟩ : BufTy).Contents (Elt F)),
    unary main_arg26 main_v150 ((extractStridedSlice S1x128 ![0, 0] · slices_S4x128_S1x128_0_0) : (⟨S4x128, .f32⟩ : BufTy).Contents (Elt F) → (⟨S1x128, .f32⟩ : BufTy).Contents (Elt F)),
    reshape main_v150 main_v151 rfl shapeCasts_S1x128_S128,
    unary main_arg27 main_v152 ((extractStridedSlice S1x128 ![0, 0] · slices_S4x128_S1x128_0_0) : (⟨S4x128, .f32⟩ : BufTy).Contents (Elt F) → (⟨S1x128, .f32⟩ : BufTy).Contents (Elt F)),
    reshape main_v152 main_v153 rfl shapeCasts_S1x128_S128,
    unary main_arg28 main_v154 ((extractStridedSlice S1x128 ![0, 0] · slices_S4x128_S1x128_0_0) : (⟨S4x128, .f32⟩ : BufTy).Contents (Elt F) → (⟨S1x128, .f32⟩ : BufTy).Contents (Elt F)),
    reshape main_v154 main_v155 rfl shapeCasts_S1x128_S128,
    unary main_arg29 main_v156 ((extractStridedSlice S1x128 ![0, 0] · slices_S4x128_S1x128_0_0) : (⟨S4x128, .f32⟩ : BufTy).Contents (Elt F) → (⟨S1x128, .f32⟩ : BufTy).Contents (Elt F)),
    reshape main_v156 main_v157 rfl shapeCasts_S1x128_S128,
    unary main_v155 main_v158 (broadcastInDim S1x128 ![1] bcast_S128_S1x128_1 : (⟨S128, .f32⟩ : BufTy).Contents (Elt F) → (⟨S1x128, .f32⟩ : BufTy).Contents (Elt F)),
    unary main_v158 main_v159 (broadcastInDim S512x128 ![0, 1] bcast_S1x128_S512x128_0_1 : (⟨S1x128, .f32⟩ : BufTy).Contents (Elt F) → (⟨S512x128, .f32⟩ : BufTy).Contents (Elt F)),
    binary main_v149 main_v159 main_v160 (subf : (⟨S512x128, .f32⟩ : BufTy).Contents (Elt F) → (⟨S512x128, .f32⟩ : BufTy).Contents (Elt F) → (⟨S512x128, .f32⟩ : BufTy).Contents (Elt F)),
    nullary main_cst_12 (constant S_ .f32 0x3727C5AC#32),
    unary main_cst_12 main_v161 (broadcastInDim S128 ![] bcast_S_S128 : (⟨S_, .f32⟩ : BufTy).Contents (Elt F) → (⟨S128, .f32⟩ : BufTy).Contents (Elt F)),
    binary main_v157 main_v161 main_v162 (addf : (⟨S128, .f32⟩ : BufTy).Contents (Elt F) → (⟨S128, .f32⟩ : BufTy).Contents (Elt F) → (⟨S128, .f32⟩ : BufTy).Contents (Elt F)),
    unary main_v162 main_v163 (Host.rsqrt : (⟨S128, .f32⟩ : BufTy).Contents (Elt F) → (⟨S128, .f32⟩ : BufTy).Contents (Elt F)),
    unary main_v163 main_v164 (broadcastInDim S1x128 ![1] bcast_S128_S1x128_1 : (⟨S128, .f32⟩ : BufTy).Contents (Elt F) → (⟨S1x128, .f32⟩ : BufTy).Contents (Elt F)) ]

/-- Operations 186 … 196 of the program's 847, in order. -/
abbrev ops186_197 : List (HloOp τ sig (Elt F)) :=
  [ unary main_v164 main_v165 (broadcastInDim S512x128 ![0, 1] bcast_S1x128_S512x128_0_1 : (⟨S1x128, .f32⟩ : BufTy).Contents (Elt F) → (⟨S512x128, .f32⟩ : BufTy).Contents (Elt F)),
    binary main_v160 main_v165 main_v166 (mulf : (⟨S512x128, .f32⟩ : BufTy).Contents (Elt F) → (⟨S512x128, .f32⟩ : BufTy).Contents (Elt F) → (⟨S512x128, .f32⟩ : BufTy).Contents (Elt F)),
    unary main_v151 main_v167 (broadcastInDim S1x128 ![1] bcast_S128_S1x128_1 : (⟨S128, .f32⟩ : BufTy).Contents (Elt F) → (⟨S1x128, .f32⟩ : BufTy).Contents (Elt F)),
    unary main_v167 main_v168 (broadcastInDim S512x128 ![0, 1] bcast_S1x128_S512x128_0_1 : (⟨S1x128, .f32⟩ : BufTy).Contents (Elt F) → (⟨S512x128, .f32⟩ : BufTy).Contents (Elt F)),
    binary main_v166 main_v168 main_v169 (mulf : (⟨S512x128, .f32⟩ : BufTy).Contents (Elt F) → (⟨S512x128, .f32⟩ : BufTy).Contents (Elt F) → (⟨S512x128, .f32⟩ : BufTy).Contents (Elt F)),
    unary main_v153 main_v170 (broadcastInDim S1x128 ![1] bcast_S128_S1x128_1 : (⟨S128, .f32⟩ : BufTy).Contents (Elt F) → (⟨S1x128, .f32⟩ : BufTy).Contents (Elt F)),
    unary main_v170 main_v171 (broadcastInDim S512x128 ![0, 1] bcast_S1x128_S512x128_0_1 : (⟨S1x128, .f32⟩ : BufTy).Contents (Elt F) → (⟨S512x128, .f32⟩ : BufTy).Contents (Elt F)),
    binary main_v169 main_v171 main_v172 (addf : (⟨S512x128, .f32⟩ : BufTy).Contents (Elt F) → (⟨S512x128, .f32⟩ : BufTy).Contents (Elt F) → (⟨S512x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S512x128, .f32⟩) main_call3_v0) (broadcastInDim S512x128 ![] bcast_S_S512x128),
    TRef.binary (TRef.of (T := ⟨S512x128, .f32⟩) main_v172) (TRef.of (T := ⟨S512x128, .f32⟩) main_call3_v0) (TRef.of (T := ⟨S512x128, .f32⟩) main_v173) maximumf ]

/-- The window: operations 122 … 196. -/
abbrev wTable0 : List (HloOp τ sig (Elt Ideal)) := ops122_124 (F := Ideal) ++ ops124_186 (F := Ideal) ++ ops186_197 (F := Ideal)

/-- The buffers the window's operations write, in order. -/
def wrTable0 : List (Ref sig .tc) :=
  [ main_cst_10, main_v106, main_v107, main_v108, main_v109, main_v110, main_v111, main_v112, main_v113, main_v114,
    main_v115, main_v116, main_v117, main_v118, main_v119, main_v120, main_v121, main_v122, main_v123, main_v124,
    main_v125, main_v126, main_v127, main_v128, main_cst_11, main_v129, main_v130, main_v131, main_v132, main_v133,
    main_v134, main_v135, main_v136, main_v137, main_v138, main_v139, main_v140, main_call2_cst, main_call2_v0, main_v141,
    main_v142, main_v143, main_v144, main_v145, main_v146, main_v147, main_v148, main_v149, main_v150, main_v151,
    main_v152, main_v153, main_v154, main_v155, main_v156, main_v157, main_v158, main_v159, main_v160, main_cst_12,
    main_v161, main_v162, main_v163, main_v164, main_v165, main_v166, main_v167, main_v168, main_v169, main_v170,
    main_v171, main_v172, main_call3_cst, main_call3_v0, main_v173 ]

/-- Operation by operation, the one buffer each writes. -/
theorem coversTable0 : Cert.SSA.Covers wTable0 wrTable0 := by
  unfold Cert.SSA.Covers
  dsimp only [wTable0, ops122_124, ops124_186, ops186_197, List.cons_append, List.nil_append, wrTable0]
  repeat (first | exact List.Forall₂.nil | refine List.Forall₂.cons (Finset.Subset.refl _) ?_)

/-- Every buffer the window names is a buffer of the core. -/
theorem subTable0 : ∀ op ∈ wTable0, op.bufs ⊆ tcRefs τ sig := by
  dsimp only [wTable0, ops122_124, ops124_186, ops186_197, List.cons_append, List.nil_append]
  exact List.forall_iff_forall_mem.1
    ⟨nullary_bufs_sub .., unary_bufs_sub .., unary_bufs_sub .., ternary_bufs_sub .., binary_bufs_sub .., unary_bufs_sub ..,
     reshape_bufs_sub .., binary_bufs_sub .., unary_bufs_sub .., reshape_bufs_sub .., unary_bufs_sub .., unary_bufs_sub ..,
     binary_bufs_sub .., unary_bufs_sub .., reshape_bufs_sub .., unary_bufs_sub .., reshape_bufs_sub .., unary_bufs_sub ..,
     reshape_bufs_sub .., unary_bufs_sub .., reshape_bufs_sub .., unary_bufs_sub .., unary_bufs_sub .., binary_bufs_sub ..,
     nullary_bufs_sub .., unary_bufs_sub .., binary_bufs_sub .., unary_bufs_sub .., unary_bufs_sub .., unary_bufs_sub ..,
     binary_bufs_sub .., unary_bufs_sub .., unary_bufs_sub .., binary_bufs_sub .., unary_bufs_sub .., unary_bufs_sub ..,
     binary_bufs_sub .., nullary_bufs_sub .., unary_bufs_sub .., binary_bufs_sub .., unary_bufs_sub .., reshape_bufs_sub ..,
     binary_bufs_sub .., unary_bufs_sub .., reshape_bufs_sub .., unary_bufs_sub .., unary_bufs_sub .., binary_bufs_sub ..,
     unary_bufs_sub .., reshape_bufs_sub .., unary_bufs_sub .., reshape_bufs_sub .., unary_bufs_sub .., reshape_bufs_sub ..,
     unary_bufs_sub .., reshape_bufs_sub .., unary_bufs_sub .., unary_bufs_sub .., binary_bufs_sub .., nullary_bufs_sub ..,
     unary_bufs_sub .., binary_bufs_sub .., unary_bufs_sub .., unary_bufs_sub .., unary_bufs_sub .., binary_bufs_sub ..,
     unary_bufs_sub .., unary_bufs_sub .., binary_bufs_sub .., unary_bufs_sub .., unary_bufs_sub .., binary_bufs_sub ..,
     nullary_bufs_sub .., unary_bufs_sub .., binary_bufs_sub ..⟩

/-- Every operation of the window determines its results. -/
theorem freshTable0 : ∀ op ∈ wTable0, op.fresh = ∅ := by
  dsimp only [wTable0, ops122_124, ops124_186, ops186_197, List.cons_append, List.nil_append]
  intro op h
  repeat (cases h with | head => rfl | tail _ h => ?_)
  exact nomatch h

set_option maxHeartbeats 4000000 in
/-- What the window leaves in its result buffer. -/
theorem valueTable0 [Cert.ReferenceIdeal.Facts] (V : Valuation τ sig (Elt Ideal)) :
    (after wTable0 V (Proc.devRef .tc main_v173) : FVec Ideal S512x128 .f32)
      = tableMap (argsV V) 0 (vtOf dims layout (V (Proc.devRef .tc main_v20)) (V (Proc.devRef .tc main_v5)) (argsV V).batch) := by
  dsimp only [wTable0, ops122_124, ops124_186, ops186_197, List.cons_append, List.nil_append]
  after_results_simp
  refine Eq.trans ?_ (table_host (argsV V) (tableLayout 0) dot_S512x128_S128x256_S512x256_1_0_0_1_n_n dot_S512x256_S256x128_S512x128_1_0_0_1_n_n rfl rfl _)
  rfl

end Cert.ReferenceIdeal.RefValue

end
-- ==== Proof.RefHin1.lean ====
/-
  Layer 1's node array with the graphs' rows added, in the reference program: operations 197 … 206.

  From the previous layer's node array, the renewed table and the nodes' graph numbers, the window gathers each node's
  graph's row and adds it. Read from arbitrary contents of the buffers, its result buffer holds that function of what
  the buffers it reads held; it writes none of the buffers it reads.
-/
import proofs.«116444_j64183991272049_2_alg».proof.Proof.RefBase

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx Cert.LibNormLayer Cert.LibSliceRead Cert.Net

variable {F : FTy → Type} [FloatOps F]

/-- Operations 197 … 206 of the program's 847, in order. -/
abbrev ops197_207 : List (HloOp τ sig (Elt F)) :=
  [ nullary main_c_13 (constantI S_ 32 0#32),
    unary main_c_13 main_v174 (broadcastInDim S100000 ![] bcast_S_S100000 : (⟨S_, .i32⟩ : BufTy).Contents (Elt F) → (⟨S100000, .i32⟩ : BufTy).Contents (Elt F)),
    binary main_arg2 main_v174 main_v175 (cmpi .slt : (⟨S100000, .i32⟩ : BufTy).Contents (Elt F) → (⟨S100000, .i32⟩ : BufTy).Contents (Elt F) → (⟨S100000, .i1⟩ : BufTy).Contents (Elt F)),
    nullary main_c_14 (constantI S_ 32 512#32),
    unary main_c_14 main_v176 (broadcastInDim S100000 ![] bcast_S_S100000 : (⟨S_, .i32⟩ : BufTy).Contents (Elt F) → (⟨S100000, .i32⟩ : BufTy).Contents (Elt F)),
    binary main_arg2 main_v176 main_v177 (addi : (⟨S100000, .i32⟩ : BufTy).Contents (Elt F) → (⟨S100000, .i32⟩ : BufTy).Contents (Elt F) → (⟨S100000, .i32⟩ : BufTy).Contents (Elt F)),
    ternary main_v175 main_v177 main_arg2 main_v178 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v178 main_v179 (broadcastInDim S100000x1 ![0] bcast_S100000_S100000x1_0 : (⟨S100000, .i32⟩ : BufTy).Contents (Elt F) → (⟨S100000x1, .i32⟩ : BufTy).Contents (Elt F)),
    binary main_v173 main_v179 main_v180 ((fun x i => Host.gather gather_S512x128_S100000x1_S100000x128_1_0_n_n_0_1_1128 x i) : (⟨S512x128, .f32⟩ : BufTy).Contents (Elt F) → (⟨S100000x1, .i32⟩ : BufTy).Contents (Elt F) → (⟨S100000x128, .f32⟩ : BufTy).Contents (Elt F)),
    binary main_v105 main_v180 main_v181 (addf : (⟨S100000x128, .f32⟩ : BufTy).Contents (Elt F) → (⟨S100000x128, .f32⟩ : BufTy).Contents (Elt F) → (⟨S100000x128, .f32⟩ : BufTy).Contents (Elt F)) ]

/-- The window: operations 197 … 206. -/
abbrev wHin1 : List (HloOp τ sig (Elt Ideal)) := ops197_207 (F := Ideal)

/-- The buffers the window's operations write, in order. -/
def wrHin1 : List (Ref sig .tc) :=
  [ main_c_13, main_v174, main_v175, main_c_14, main_v176, main_v177, main_v178, main_v179, main_v180, main_v181 ]

/-- Operation by operation, the one buffer each writes. -/
theorem coversHin1 : Cert.SSA.Covers wHin1 wrHin1 := by
  unfold Cert.SSA.Covers
  dsimp only [wHin1, ops197_207, List.cons_append, List.nil_append, wrHin1]
  repeat (first | exact List.Forall₂.nil | refine List.Forall₂.cons (Finset.Subset.refl _) ?_)

/-- Every buffer the window names is a buffer of the core. -/
theorem subHin1 : ∀ op ∈ wHin1, op.bufs ⊆ tcRefs τ sig := by
  dsimp only [wHin1, ops197_207, List.cons_append, List.nil_append]
  exact List.forall_iff_forall_mem.1
    ⟨nullary_bufs_sub .., unary_bufs_sub .., binary_bufs_sub .., nullary_bufs_sub .., unary_bufs_sub .., binary_bufs_sub ..,
     ternary_bufs_sub .., unary_bufs_sub .., binary_bufs_sub .., binary_bufs_sub ..⟩

/-- Every operation of the window determines its results. -/
theorem freshHin1 : ∀ op ∈ wHin1, op.fresh = ∅ := by
  dsimp only [wHin1, ops197_207, List.cons_append, List.nil_append]
  intro op h
  repeat (cases h with | head => rfl | tail _ h => ?_)
  exact nomatch h

/-- What the window leaves in its result buffer. -/
theorem valueHin1 [Cert.ReferenceIdeal.Facts] (V : Valuation τ sig (Elt Ideal)) :
    (after wHin1 V (Proc.devRef .tc main_v181) : FVec Ideal S100000x128 .f32)
      = hinOf dims layout (V (Proc.devRef .tc main_v105)) (V (Proc.devRef .tc main_v173)) (argsV V).batch := by
  dsimp only [wHin1, ops197_207, List.cons_append, List.nil_append]
  after_results_simp
  rfl

end Cert.ReferenceIdeal.RefValue

end
-- ==== Proof.RefConv1.lean ====
/-
  Layer 1's map of the node array, in the reference program: operations 207 … 303.

  From the layer's node array with the graphs' rows added (hin), the edges' start and end nodes and the arguments, the
  window computes z = (1 + ε) · hin plus the sums of hin's rows along the edges, and the two-layer normalised map of z, then the maximum with zero. Read from arbitrary contents of the buffers, its result buffer holds that function of what the
  buffers it reads held; it writes none of the buffers it reads.
-/
import proofs.«116444_j64183991272049_2_alg».proof.Proof.RefBase

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx Cert.LibNormLayer Cert.LibSliceRead Cert.Net

variable {F : FTy → Type} [FloatOps F]

/-- Operations 207 … 247 of the program's 847, in order. -/
abbrev ops207_248 : List (HloOp τ sig (Elt F)) :=
  [ nullary main_cst_15 (constant S_ .f32 0x00000000#32),
    unary main_cst_15 main_v182 (broadcastInDim S100000x128 ![] bcast_S_S100000x128 : (⟨S_, .f32⟩ : BufTy).Contents (Elt F) → (⟨S100000x128, .f32⟩ : BufTy).Contents (Elt F)),
    nullary main_c_16 (constantI S_ 32 0#32),
    unary main_c_16 main_v183 (broadcastInDim S600000 ![] bcast_S_S600000 : (⟨S_, .i32⟩ : BufTy).Contents (Elt F) → (⟨S600000, .i32⟩ : BufTy).Contents (Elt F)),
    binary main_v1 main_v183 main_v184 (cmpi .slt : (⟨S600000, .i32⟩ : BufTy).Contents (Elt F) → (⟨S600000, .i32⟩ : BufTy).Contents (Elt F) → (⟨S600000, .i1⟩ : BufTy).Contents (Elt F)),
    nullary main_c_17 (constantI S_ 32 100000#32),
    unary main_c_17 main_v185 (broadcastInDim S600000 ![] bcast_S_S600000 : (⟨S_, .i32⟩ : BufTy).Contents (Elt F) → (⟨S600000, .i32⟩ : BufTy).Contents (Elt F)),
    binary main_v1 main_v185 main_v186 (addi : (⟨S600000, .i32⟩ : BufTy).Contents (Elt F) → (⟨S600000, .i32⟩ : BufTy).Contents (Elt F) → (⟨S600000, .i32⟩ : BufTy).Contents (Elt F)),
    ternary main_v184 main_v186 main_v1 main_v187 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v187 main_v188 (broadcastInDim S600000x1 ![0] bcast_S600000_S600000x1_0 : (⟨S600000, .i32⟩ : BufTy).Contents (Elt F) → (⟨S600000x1, .i32⟩ : BufTy).Contents (Elt F)),
    binary main_v181 main_v188 main_v189 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    nullary main_c_18 (constantI S_ 32 0#32),
    unary main_c_18 main_v190 (broadcastInDim S600000 ![] bcast_S_S600000 : (⟨S_, .i32⟩ : BufTy).Contents (Elt F) → (⟨S600000, .i32⟩ : BufTy).Contents (Elt F)),
    binary main_v3 main_v190 main_v191 (cmpi .slt : (⟨S600000, .i32⟩ : BufTy).Contents (Elt F) → (⟨S600000, .i32⟩ : BufTy).Contents (Elt F) → (⟨S600000, .i1⟩ : BufTy).Contents (Elt F)),
    nullary main_c_19 (constantI S_ 32 100000#32),
    unary main_c_19 main_v192 (broadcastInDim S600000 ![] bcast_S_S600000 : (⟨S_, .i32⟩ : BufTy).Contents (Elt F) → (⟨S600000, .i32⟩ : BufTy).Contents (Elt F)),
    binary main_v3 main_v192 main_v193 (addi : (⟨S600000, .i32⟩ : BufTy).Contents (Elt F) → (⟨S600000, .i32⟩ : BufTy).Contents (Elt F) → (⟨S600000, .i32⟩ : BufTy).Contents (Elt F)),
    ternary main_v191 main_v193 main_v3 main_v194 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v194 main_v195 (broadcastInDim S600000x1 ![0] bcast_S600000_S600000x1_0 : (⟨S600000, .i32⟩ : BufTy).Contents (Elt F) → (⟨S600000x1, .i32⟩ : BufTy).Contents (Elt F)),
    ternary main_v182 main_v195 main_v189 main_v196 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    unary main_arg5 main_v197 ((extractStridedSlice S1 ![1] · slices_S5_S1_1) : (⟨S5, .f32⟩ : BufTy).Contents (Elt F) → (⟨S1, .f32⟩ : BufTy).Contents (Elt F)),
    reshape main_v197 main_v198 rfl shapeCasts_S1_S_,
    nullary main_cst_20 (constant S_ .f32 0x3F800000#32),
    binary main_cst_20 main_v198 main_v199 (addf : (⟨S_, .f32⟩ : BufTy).Contents (Elt F) → (⟨S_, .f32⟩ : BufTy).Contents (Elt F) → (⟨S_, .f32⟩ : BufTy).Contents (Elt F)),
    unary main_v199 main_v200 (broadcastInDim S100000x128 ![] bcast_S_S100000x128 : (⟨S_, .f32⟩ : BufTy).Contents (Elt F) → (⟨S100000x128, .f32⟩ : BufTy).Contents (Elt F)),
    binary main_v200 main_v181 main_v201 (mulf : (⟨S100000x128, .f32⟩ : BufTy).Contents (Elt F) → (⟨S100000x128, .f32⟩ : BufTy).Contents (Elt F) → (⟨S100000x128, .f32⟩ : BufTy).Contents (Elt F)),
    binary main_v201 main_v196 main_v202 (addf : (⟨S100000x128, .f32⟩ : BufTy).Contents (Elt F) → (⟨S100000x128, .f32⟩ : BufTy).Contents (Elt F) → (⟨S100000x128, .f32⟩ : BufTy).Contents (Elt F)),
    unary main_arg6 main_v203 ((extractStridedSlice S1x128x256 ![1, 0, 0] · slices_S5x128x256_S1x128x256_1_0_0) : (⟨S5x128x256, .f32⟩ : BufTy).Contents (Elt F) → (⟨S1x128x256, .f32⟩ : BufTy).Contents (Elt F)),
    reshape main_v203 main_v204 rfl shapeCasts_S1x128x256_S128x256,
    binary main_v202 main_v204 main_v205 ((fun l r => Host.dotGeneral dot_S100000x128_S128x256_S100000x256_1_0_0_1_n_n none l r) : (⟨S100000x128, .f32⟩ : BufTy).Contents (Elt F) → (⟨S128x256, .f32⟩ : BufTy).Contents (Elt F) → (⟨S100000x256, .f32⟩ : BufTy).Contents (Elt F)),
    unary main_arg7 main_v206 ((extractStridedSlice S1x256 ![1, 0] · slices_S5x256_S1x256_1_0) : (⟨S5x256, .f32⟩ : BufTy).Contents (Elt F) → (⟨S1x256, .f32⟩ : BufTy).Contents (Elt F)),
    reshape main_v206 main_v207 rfl shapeCasts_S1x256_S256,
    unary main_v207 main_v208 (broadcastInDim S1x256 ![1] bcast_S256_S1x256_1 : (⟨S256, .f32⟩ : BufTy).Contents (Elt F) → (⟨S1x256, .f32⟩ : BufTy).Contents (Elt F)),
    unary main_v208 main_v209 (broadcastInDim S100000x256 ![0, 1] bcast_S1x256_S100000x256_0_1 : (⟨S1x256, .f32⟩ : BufTy).Contents (Elt F) → (⟨S100000x256, .f32⟩ : BufTy).Contents (Elt F)),
    binary main_v205 main_v209 main_v210 (addf : (⟨S100000x256, .f32⟩ : BufTy).Contents (Elt F) → (⟨S100000x256, .f32⟩ : BufTy).Contents (Elt F) → (⟨S100000x256, .f32⟩ : BufTy).Contents (Elt F)),
    unary main_arg8 main_v211 ((extractStridedSlice S1x256 ![1, 0] · slices_S5x256_S1x256_1_0) : (⟨S5x256, .f32⟩ : BufTy).Contents (Elt F) → (⟨S1x256, .f32⟩ : BufTy).Contents (Elt F)),
    reshape main_v211 main_v212 rfl shapeCasts_S1x256_S256,
    unary main_arg9 main_v213 ((extractStridedSlice S1x256 ![1, 0] · slices_S5x256_S1x256_1_0) : (⟨S5x256, .f32⟩ : BufTy).Contents (Elt F) → (⟨S1x256, .f32⟩ : BufTy).Contents (Elt F)),
    reshape main_v213 main_v214 rfl shapeCasts_S1x256_S256,
    unary main_arg10 main_v215 ((extractStridedSlice S1x256 ![1, 0] · slices_S5x256_S1x256_1_0) : (⟨S5x256, .f32⟩ : BufTy).Contents (Elt F) → (⟨S1x256, .f32⟩ : BufTy).Contents (Elt F)),
    reshape main_v215 main_v216 rfl shapeCasts_S1x256_S256 ]

/-- Operations 248 … 303 of the program's 847, in order. -/
abbrev ops248_304 : List (HloOp τ sig (Elt F)) :=
  [ unary main_arg11 main_v217 ((extractStridedSlice S1x256 ![1, 0] · slices_S5x256_S1x256_1_0) : (⟨S5x256, .f32⟩ : BufTy).Contents (Elt F) → (⟨S1x256, .f32⟩ : BufTy).Contents (Elt F)),
    reshape main_v217 main_v218 rfl shapeCasts_S1x256_S256,
    unary main_v216 main_v219 (broadcastInDim S1x256 ![1] bcast_S256_S1x256_1 : (⟨S256, .f32⟩ : BufTy).Contents (Elt F) → (⟨S1x256, .f32⟩ : BufTy).Contents (Elt F)),
    unary main_v219 main_v220 (broadcastInDim S100000x256 ![0, 1] bcast_S1x256_S100000x256_0_1 : (⟨S1x256, .f32⟩ : BufTy).Contents (Elt F) → (⟨S100000x256, .f32⟩ : BufTy).Contents (Elt F)),
    binary main_v210 main_v220 main_v221 (subf : (⟨S100000x256, .f32⟩ : BufTy).Contents (Elt F) → (⟨S100000x256, .f32⟩ : BufTy).Contents (Elt F) → (⟨S100000x256, .f32⟩ : BufTy).Contents (Elt F)),
    nullary main_cst_21 (constant S_ .f32 0x3727C5AC#32),
    unary main_cst_21 main_v222 (broadcastInDim S256 ![] bcast_S_S256 : (⟨S_, .f32⟩ : BufTy).Contents (Elt F) → (⟨S256, .f32⟩ : BufTy).Contents (Elt F)),
    binary main_v218 main_v222 main_v223 (addf : (⟨S256, .f32⟩ : BufTy).Contents (Elt F) → (⟨S256, .f32⟩ : BufTy).Contents (Elt F) → (⟨S256, .f32⟩ : BufTy).Contents (Elt F)),
    unary main_v223 main_v224 (Host.rsqrt : (⟨S256, .f32⟩ : BufTy).Contents (Elt F) → (⟨S256, .f32⟩ : BufTy).Contents (Elt F)),
    unary main_v224 main_v225 (broadcastInDim S1x256 ![1] bcast_S256_S1x256_1 : (⟨S256, .f32⟩ : BufTy).Contents (Elt F) → (⟨S1x256, .f32⟩ : BufTy).Contents (Elt F)),
    unary main_v225 main_v226 (broadcastInDim S100000x256 ![0, 1] bcast_S1x256_S100000x256_0_1 : (⟨S1x256, .f32⟩ : BufTy).Contents (Elt F) → (⟨S100000x256, .f32⟩ : BufTy).Contents (Elt F)),
    binary main_v221 main_v226 main_v227 (mulf : (⟨S100000x256, .f32⟩ : BufTy).Contents (Elt F) → (⟨S100000x256, .f32⟩ : BufTy).Contents (Elt F) → (⟨S100000x256, .f32⟩ : BufTy).Contents (Elt F)),
    unary main_v212 main_v228 (broadcastInDim S1x256 ![1] bcast_S256_S1x256_1 : (⟨S256, .f32⟩ : BufTy).Contents (Elt F) → (⟨S1x256, .f32⟩ : BufTy).Contents (Elt F)),
    unary main_v228 main_v229 (broadcastInDim S100000x256 ![0, 1] bcast_S1x256_S100000x256_0_1 : (⟨S1x256, .f32⟩ : BufTy).Contents (Elt F) → (⟨S100000x256, .f32⟩ : BufTy).Contents (Elt F)),
    binary main_v227 main_v229 main_v230 (mulf : (⟨S100000x256, .f32⟩ : BufTy).Contents (Elt F) → (⟨S100000x256, .f32⟩ : BufTy).Contents (Elt F) → (⟨S100000x256, .f32⟩ : BufTy).Contents (Elt F)),
    unary main_v214 main_v231 (broadcastInDim S1x256 ![1] bcast_S256_S1x256_1 : (⟨S256, .f32⟩ : BufTy).Contents (Elt F) → (⟨S1x256, .f32⟩ : BufTy).Contents (Elt F)),
    unary main_v231 main_v232 (broadcastInDim S100000x256 ![0, 1] bcast_S1x256_S100000x256_0_1 : (⟨S1x256, .f32⟩ : BufTy).Contents (Elt F) → (⟨S100000x256, .f32⟩ : BufTy).Contents (Elt F)),
    binary main_v230 main_v232 main_v233 (addf : (⟨S100000x256, .f32⟩ : BufTy).Contents (Elt F) → (⟨S100000x256, .f32⟩ : BufTy).Contents (Elt F) → (⟨S100000x256, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S100000x256, .f32⟩) main_call4_v0) (broadcastInDim S100000x256 ![] bcast_S_S100000x256),
    TRef.binary (TRef.of (T := ⟨S100000x256, .f32⟩) main_v233) (TRef.of (T := ⟨S100000x256, .f32⟩) main_call4_v0) (TRef.of (T := ⟨S100000x256, .f32⟩) main_v234) maximumf,
    unary main_arg12 main_v235 ((extractStridedSlice S1x256x128 ![1, 0, 0] · slices_S5x256x128_S1x256x128_1_0_0) : (⟨S5x256x128, .f32⟩ : BufTy).Contents (Elt F) → (⟨S1x256x128, .f32⟩ : BufTy).Contents (Elt F)),
    reshape main_v235 main_v236 rfl shapeCasts_S1x256x128_S256x128,
    binary main_v234 main_v236 main_v237 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    unary main_arg13 main_v238 ((extractStridedSlice S1x128 ![1, 0] · slices_S5x128_S1x128_1_0) : (⟨S5x128, .f32⟩ : BufTy).Contents (Elt F) → (⟨S1x128, .f32⟩ : BufTy).Contents (Elt F)),
    reshape main_v238 main_v239 rfl shapeCasts_S1x128_S128,
    unary main_v239 main_v240 (broadcastInDim S1x128 ![1] bcast_S128_S1x128_1 : (⟨S128, .f32⟩ : BufTy).Contents (Elt F) → (⟨S1x128, .f32⟩ : BufTy).Contents (Elt F)),
    unary main_v240 main_v241 (broadcastInDim S100000x128 ![0, 1] bcast_S1x128_S100000x128_0_1 : (⟨S1x128, .f32⟩ : BufTy).Contents (Elt F) → (⟨S100000x128, .f32⟩ : BufTy).Contents (Elt F)),
    binary main_v237 main_v241 main_v242 (addf : (⟨S100000x128, .f32⟩ : BufTy).Contents (Elt F) → (⟨S100000x128, .f32⟩ : BufTy).Contents (Elt F) → (⟨S100000x128, .f32⟩ : BufTy).Contents (Elt F)),
    unary main_arg14 main_v243 ((extractStridedSlice S1x128 ![1, 0] · slices_S5x128_S1x128_1_0) : (⟨S5x128, .f32⟩ : BufTy).Contents (Elt F) → (⟨S1x128, .f32⟩ : BufTy).Contents (Elt F)),
    reshape main_v243 main_v244 rfl shapeCasts_S1x128_S128,
    unary main_arg15 main_v245 ((extractStridedSlice S1x128 ![1, 0] · slices_S5x128_S1x128_1_0) : (⟨S5x128, .f32⟩ : BufTy).Contents (Elt F) → (⟨S1x128, .f32⟩ : BufTy).Contents (Elt F)),
    reshape main_v245 main_v246 rfl shapeCasts_S1x128_S128,
    unary main_arg16 main_v247 ((extractStridedSlice S1x128 ![1, 0] · slices_S5x128_S1x128_1_0) : (⟨S5x128, .f32⟩ : BufTy).Contents (Elt F) → (⟨S1x128, .f32⟩ : BufTy).Contents (Elt F)),
    reshape main_v247 main_v248 rfl shapeCasts_S1x128_S128,
    unary main_arg17 main_v249 ((extractStridedSlice S1x128 ![1, 0] · slices_S5x128_S1x128_1_0) : (⟨S5x128, .f32⟩ : BufTy).Contents (Elt F) → (⟨S1x128, .f32⟩ : BufTy).Contents (Elt F)),
    reshape main_v249 main_v250 rfl shapeCasts_S1x128_S128,
    unary main_v248 main_v251 (broadcastInDim S1x128 ![1] bcast_S128_S1x128_1 : (⟨S128, .f32⟩ : BufTy).Contents (Elt F) → (⟨S1x128, .f32⟩ : BufTy).Contents (Elt F)),
    unary main_v251 main_v252 (broadcastInDim S100000x128 ![0, 1] bcast_S1x128_S100000x128_0_1 : (⟨S1x128, .f32⟩ : BufTy).Contents (Elt F) → (⟨S100000x128, .f32⟩ : BufTy).Contents (Elt F)),
    binary main_v242 main_v252 main_v253 (subf : (⟨S100000x128, .f32⟩ : BufTy).Contents (Elt F) → (⟨S100000x128, .f32⟩ : BufTy).Contents (Elt F) → (⟨S100000x128, .f32⟩ : BufTy).Contents (Elt F)),
    nullary main_cst_22 (constant S_ .f32 0x3727C5AC#32),
    unary main_cst_22 main_v254 (broadcastInDim S128 ![] bcast_S_S128 : (⟨S_, .f32⟩ : BufTy).Contents (Elt F) → (⟨S128, .f32⟩ : BufTy).Contents (Elt F)),
    binary main_v250 main_v254 main_v255 (addf : (⟨S128, .f32⟩ : BufTy).Contents (Elt F) → (⟨S128, .f32⟩ : BufTy).Contents (Elt F) → (⟨S128, .f32⟩ : BufTy).Contents (Elt F)),
    unary main_v255 main_v256 (Host.rsqrt : (⟨S128, .f32⟩ : BufTy).Contents (Elt F) → (⟨S128, .f32⟩ : BufTy).Contents (Elt F)),
    unary main_v256 main_v257 (broadcastInDim S1x128 ![1] bcast_S128_S1x128_1 : (⟨S128, .f32⟩ : BufTy).Contents (Elt F) → (⟨S1x128, .f32⟩ : BufTy).Contents (Elt F)),
    unary main_v257 main_v258 (broadcastInDim S100000x128 ![0, 1] bcast_S1x128_S100000x128_0_1 : (⟨S1x128, .f32⟩ : BufTy).Contents (Elt F) → (⟨S100000x128, .f32⟩ : BufTy).Contents (Elt F)),
    binary main_v253 main_v258 main_v259 (mulf : (⟨S100000x128, .f32⟩ : BufTy).Contents (Elt F) → (⟨S100000x128, .f32⟩ : BufTy).Contents (Elt F) → (⟨S100000x128, .f32⟩ : BufTy).Contents (Elt F)),
    unary main_v244 main_v260 (broadcastInDim S1x128 ![1] bcast_S128_S1x128_1 : (⟨S128, .f32⟩ : BufTy).Contents (Elt F) → (⟨S1x128, .f32⟩ : BufTy).Contents (Elt F)),
    unary main_v260 main_v261 (broadcastInDim S100000x128 ![0, 1] bcast_S1x128_S100000x128_0_1 : (⟨S1x128, .f32⟩ : BufTy).Contents (Elt F) → (⟨S100000x128, .f32⟩ : BufTy).Contents (Elt F)),
    binary main_v259 main_v261 main_v262 (mulf : (⟨S100000x128, .f32⟩ : BufTy).Contents (Elt F) → (⟨S100000x128, .f32⟩ : BufTy).Contents (Elt F) → (⟨S100000x128, .f32⟩ : BufTy).Contents (Elt F)),
    unary main_v246 main_v263 (broadcastInDim S1x128 ![1] bcast_S128_S1x128_1 : (⟨S128, .f32⟩ : BufTy).Contents (Elt F) → (⟨S1x128, .f32⟩ : BufTy).Contents (Elt F)),
    unary main_v263 main_v264 (broadcastInDim S100000x128 ![0, 1] bcast_S1x128_S100000x128_0_1 : (⟨S1x128, .f32⟩ : BufTy).Contents (Elt F) → (⟨S100000x128, .f32⟩ : BufTy).Contents (Elt F)),
    binary main_v262 main_v264 main_v265 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S100000x128, .f32⟩) main_call5_v0) (broadcastInDim S100000x128 ![] bcast_S_S100000x128),
    TRef.binary (TRef.of (T := ⟨S100000x128, .f32⟩) main_v265) (TRef.of (T := ⟨S100000x128, .f32⟩) main_call5_v0) (TRef.of (T := ⟨S100000x128, .f32⟩) main_v266) maximumf ]

/-- The window: operations 207 … 303. -/
abbrev wConv1 : List (HloOp τ sig (Elt Ideal)) := ops207_248 (F := Ideal) ++ ops248_304 (F := Ideal)

/-- The buffers the window's operations write, in order. -/
def wrConv1 : List (Ref sig .tc) :=
  [ main_cst_15, main_v182, main_c_16, main_v183, main_v184, main_c_17, main_v185, main_v186, main_v187, main_v188,
    main_v189, main_c_18, main_v190, main_v191, main_c_19, main_v192, main_v193, main_v194, main_v195, main_v196,
    main_v197, main_v198, main_cst_20, main_v199, main_v200, main_v201, main_v202, main_v203, main_v204, main_v205,
    main_v206, main_v207, main_v208, main_v209, main_v210, main_v211, main_v212, main_v213, main_v214, main_v215,
    main_v216, main_v217, main_v218, main_v219, main_v220, main_v221, main_cst_21, main_v222, main_v223, main_v224,
    main_v225, main_v226, main_v227, main_v228, main_v229, main_v230, main_v231, main_v232, main_v233, main_call4_cst,
    main_call4_v0, main_v234, main_v235, main_v236, main_v237, main_v238, main_v239, main_v240, main_v241, main_v242,
    main_v243, main_v244, main_v245, main_v246, main_v247, main_v248, main_v249, main_v250, main_v251, main_v252,
    main_v253, main_cst_22, main_v254, main_v255, main_v256, main_v257, main_v258, main_v259, main_v260, main_v261,
    main_v262, main_v263, main_v264, main_v265, main_call5_cst, main_call5_v0, main_v266 ]

/-- Operation by operation, the one buffer each writes. -/
theorem coversConv1 : Cert.SSA.Covers wConv1 wrConv1 := by
  unfold Cert.SSA.Covers
  dsimp only [wConv1, ops207_248, ops248_304, List.cons_append, List.nil_append, wrConv1]
  repeat (first | exact List.Forall₂.nil | refine List.Forall₂.cons (Finset.Subset.refl _) ?_)

/-- Every buffer the window names is a buffer of the core. -/
theorem subConv1 : ∀ op ∈ wConv1, op.bufs ⊆ tcRefs τ sig := by
  dsimp only [wConv1, ops207_248, ops248_304, List.cons_append, List.nil_append]
  exact List.forall_iff_forall_mem.1
    ⟨nullary_bufs_sub .., unary_bufs_sub .., nullary_bufs_sub .., unary_bufs_sub .., binary_bufs_sub .., nullary_bufs_sub ..,
     unary_bufs_sub .., binary_bufs_sub .., ternary_bufs_sub .., unary_bufs_sub .., binary_bufs_sub .., nullary_bufs_sub ..,
     unary_bufs_sub .., binary_bufs_sub .., nullary_bufs_sub .., unary_bufs_sub .., binary_bufs_sub .., ternary_bufs_sub ..,
     unary_bufs_sub .., ternary_bufs_sub .., unary_bufs_sub .., reshape_bufs_sub .., nullary_bufs_sub .., binary_bufs_sub ..,
     unary_bufs_sub .., binary_bufs_sub .., binary_bufs_sub .., unary_bufs_sub .., reshape_bufs_sub .., binary_bufs_sub ..,
     unary_bufs_sub .., reshape_bufs_sub .., unary_bufs_sub .., unary_bufs_sub .., binary_bufs_sub .., unary_bufs_sub ..,
     reshape_bufs_sub .., unary_bufs_sub .., reshape_bufs_sub .., unary_bufs_sub .., reshape_bufs_sub .., unary_bufs_sub ..,
     reshape_bufs_sub .., unary_bufs_sub .., unary_bufs_sub .., binary_bufs_sub .., nullary_bufs_sub .., unary_bufs_sub ..,
     binary_bufs_sub .., unary_bufs_sub .., unary_bufs_sub .., unary_bufs_sub .., binary_bufs_sub .., unary_bufs_sub ..,
     unary_bufs_sub .., binary_bufs_sub .., unary_bufs_sub .., unary_bufs_sub .., binary_bufs_sub .., nullary_bufs_sub ..,
     unary_bufs_sub .., binary_bufs_sub .., unary_bufs_sub .., reshape_bufs_sub .., binary_bufs_sub .., unary_bufs_sub ..,
     reshape_bufs_sub .., unary_bufs_sub .., unary_bufs_sub .., binary_bufs_sub .., unary_bufs_sub .., reshape_bufs_sub ..,
     unary_bufs_sub .., reshape_bufs_sub .., unary_bufs_sub .., reshape_bufs_sub .., unary_bufs_sub .., reshape_bufs_sub ..,
     unary_bufs_sub .., unary_bufs_sub .., binary_bufs_sub .., nullary_bufs_sub .., unary_bufs_sub .., binary_bufs_sub ..,
     unary_bufs_sub .., unary_bufs_sub .., unary_bufs_sub .., binary_bufs_sub .., unary_bufs_sub .., unary_bufs_sub ..,
     binary_bufs_sub .., unary_bufs_sub .., unary_bufs_sub .., binary_bufs_sub .., nullary_bufs_sub .., unary_bufs_sub ..,
     binary_bufs_sub ..⟩

/-- Every operation of the window determines its results. -/
theorem freshConv1 : ∀ op ∈ wConv1, op.fresh = ∅ := by
  dsimp only [wConv1, ops207_248, ops248_304, List.cons_append, List.nil_append]
  intro op h
  repeat (cases h with | head => rfl | tail _ h => ?_)
  exact nomatch h

set_option maxHeartbeats 4000000 in
/-- What the window leaves in its result buffer. -/
theorem valueConv1 [Cert.ReferenceIdeal.Facts] (V : Valuation τ sig (Elt Ideal)) :
    (after wConv1 V (Proc.devRef .tc main_v266) : FVec Ideal S100000x128 .f32)
      = ramp (convCore (argsV V) 1 (zOf dims layout (V (Proc.devRef .tc main_v181)) (V (Proc.devRef .tc main_v1)) (V (Proc.devRef .tc main_v3)) (scalarAt (argsV V).eps 1))) := by
  dsimp only [wConv1, ops207_248, ops248_304, List.cons_append, List.nil_append]
  after_results_simp
  refine Eq.trans ?_ (congrArg ramp (conv_host dims layout (argsV V) (convLayout 1) dot_S100000x128_S128x256_S100000x256_1_0_0_1_n_n dot_S100000x256_S256x128_S100000x128_1_0_0_1_n_n rfl rfl _ _ _))
  refine Eq.trans ?_ (host_ramp (convLayout 1).y2.hR _)
  rfl

end Cert.ReferenceIdeal.RefValue

end
-- ==== Proof.RefTable1.lean ====
/-
  Layer 1's renewal of the graph table, in the reference program: operations 304 … 378.

  From the layer's node array with the graphs' rows added (hin), the old table and the arguments, the window sums hin's
  rows per graph, adds the old table, and applies the two-layer normalised map with its last maximum with zero. Read
  from arbitrary contents of the buffers, its result buffer holds that function of what the buffers it reads held; it
  writes none of the buffers it reads.
-/
import proofs.«116444_j64183991272049_2_alg».proof.Proof.RefBase

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx Cert.LibNormLayer Cert.LibSliceRead Cert.Net

variable {F : FTy → Type} [FloatOps F]

/-- Operations 304 … 311 of the program's 847, in order. -/
abbrev ops304_312 : List (HloOp τ sig (Elt F)) :=
  [ nullary main_cst_23 (constant S_ .f32 0x00000000#32),
    unary main_cst_23 main_v267 (broadcastInDim S512x128 ![] bcast_S_S512x128 : (⟨S_, .f32⟩ : BufTy).Contents (Elt F) → (⟨S512x128, .f32⟩ : BufTy).Contents (Elt F)),
    unary main_arg2 main_v268 (broadcastInDim S100000x1 ![0] bcast_S100000_S100000x1_0 : (⟨S100000, .i32⟩ : BufTy).Contents (Elt F) → (⟨S100000x1, .i32⟩ : BufTy).Contents (Elt F)),
    ternary main_v267 main_v268 main_v181 main_v269 ((fun x i u => Host.scatterAdd scatter_S512x128_S100000x1_S100000x128_1_0_0_1 x i u) : (⟨S512x128, .f32⟩ : BufTy).Contents (Elt F) → (⟨S100000x1, .i32⟩ : BufTy).Contents (Elt F) → (⟨S100000x128, .f32⟩ : BufTy).Contents (Elt F) → (⟨S512x128, .f32⟩ : BufTy).Contents (Elt F)),
    binary main_v269 main_v173 main_v270 (addf : (⟨S512x128, .f32⟩ : BufTy).Contents (Elt F) → (⟨S512x128, .f32⟩ : BufTy).Contents (Elt F) → (⟨S512x128, .f32⟩ : BufTy).Contents (Elt F)),
    unary main_arg18 main_v271 ((extractStridedSlice S1x128x256 ![1, 0, 0] · slices_S4x128x256_S1x128x256_1_0_0) : (⟨S4x128x256, .f32⟩ : BufTy).Contents (Elt F) → (⟨S1x128x256, .f32⟩ : BufTy).Contents (Elt F)),
    reshape main_v271 main_v272 rfl shapeCasts_S1x128x256_S128x256,
    binary main_v270 main_v272 main_v273 ((fun l r => Host.dotGeneral dot_S512x128_S128x256_S512x256_1_0_0_1_n_n none l r) : (⟨S512x128, .f32⟩ : BufTy).Contents (Elt F) → (⟨S128x256, .f32⟩ : BufTy).Contents (Elt F) → (⟨S512x256, .f32⟩ : BufTy).Contents (Elt F)) ]

/-- Operations 312 … 373 of the program's 847, in order. -/
abbrev ops312_374 : List (HloOp τ sig (Elt F)) :=
  [ unary main_arg19 main_v274 ((extractStridedSlice S1x256 ![1, 0] · slices_S4x256_S1x256_1_0) : (⟨S4x256, .f32⟩ : BufTy).Contents (Elt F) → (⟨S1x256, .f32⟩ : BufTy).Contents (Elt F)),
    reshape main_v274 main_v275 rfl shapeCasts_S1x256_S256,
    unary main_v275 main_v276 (broadcastInDim S1x256 ![1] bcast_S256_S1x256_1 : (⟨S256, .f32⟩ : BufTy).Contents (Elt F) → (⟨S1x256, .f32⟩ : BufTy).Contents (Elt F)),
    unary main_v276 main_v277 (broadcastInDim S512x256 ![0, 1] bcast_S1x256_S512x256_0_1 : (⟨S1x256, .f32⟩ : BufTy).Contents (Elt F) → (⟨S512x256, .f32⟩ : BufTy).Contents (Elt F)),
    binary main_v273 main_v277 main_v278 (addf : (⟨S512x256, .f32⟩ : BufTy).Contents (Elt F) → (⟨S512x256, .f32⟩ : BufTy).Contents (Elt F) → (⟨S512x256, .f32⟩ : BufTy).Contents (Elt F)),
    unary main_arg20 main_v279 ((extractStridedSlice S1x256 ![1, 0] · slices_S4x256_S1x256_1_0) : (⟨S4x256, .f32⟩ : BufTy).Contents (Elt F) → (⟨S1x256, .f32⟩ : BufTy).Contents (Elt F)),
    reshape main_v279 main_v280 rfl shapeCasts_S1x256_S256,
    unary main_arg21 main_v281 ((extractStridedSlice S1x256 ![1, 0] · slices_S4x256_S1x256_1_0) : (⟨S4x256, .f32⟩ : BufTy).Contents (Elt F) → (⟨S1x256, .f32⟩ : BufTy).Contents (Elt F)),
    reshape main_v281 main_v282 rfl shapeCasts_S1x256_S256,
    unary main_arg22 main_v283 ((extractStridedSlice S1x256 ![1, 0] · slices_S4x256_S1x256_1_0) : (⟨S4x256, .f32⟩ : BufTy).Contents (Elt F) → (⟨S1x256, .f32⟩ : BufTy).Contents (Elt F)),
    reshape main_v283 main_v284 rfl shapeCasts_S1x256_S256,
    unary main_arg23 main_v285 ((extractStridedSlice S1x256 ![1, 0] · slices_S4x256_S1x256_1_0) : (⟨S4x256, .f32⟩ : BufTy).Contents (Elt F) → (⟨S1x256, .f32⟩ : BufTy).Contents (Elt F)),
    reshape main_v285 main_v286 rfl shapeCasts_S1x256_S256,
    unary main_v284 main_v287 (broadcastInDim S1x256 ![1] bcast_S256_S1x256_1 : (⟨S256, .f32⟩ : BufTy).Contents (Elt F) → (⟨S1x256, .f32⟩ : BufTy).Contents (Elt F)),
    unary main_v287 main_v288 (broadcastInDim S512x256 ![0, 1] bcast_S1x256_S512x256_0_1 : (⟨S1x256, .f32⟩ : BufTy).Contents (Elt F) → (⟨S512x256, .f32⟩ : BufTy).Contents (Elt F)),
    binary main_v278 main_v288 main_v289 (subf : (⟨S512x256, .f32⟩ : BufTy).Contents (Elt F) → (⟨S512x256, .f32⟩ : BufTy).Contents (Elt F) → (⟨S512x256, .f32⟩ : BufTy).Contents (Elt F)),
    nullary main_cst_24 (constant S_ .f32 0x3727C5AC#32),
    unary main_cst_24 main_v290 (broadcastInDim S256 ![] bcast_S_S256 : (⟨S_, .f32⟩ : BufTy).Contents (Elt F) → (⟨S256, .f32⟩ : BufTy).Contents (Elt F)),
    binary main_v286 main_v290 main_v291 (addf : (⟨S256, .f32⟩ : BufTy).Contents (Elt F) → (⟨S256, .f32⟩ : BufTy).Contents (Elt F) → (⟨S256, .f32⟩ : BufTy).Contents (Elt F)),
    unary main_v291 main_v292 (Host.rsqrt : (⟨S256, .f32⟩ : BufTy).Contents (Elt F) → (⟨S256, .f32⟩ : BufTy).Contents (Elt F)),
    unary main_v292 main_v293 (broadcastInDim S1x256 ![1] bcast_S256_S1x256_1 : (⟨S256, .f32⟩ : BufTy).Contents (Elt F) → (⟨S1x256, .f32⟩ : BufTy).Contents (Elt F)),
    unary main_v293 main_v294 (broadcastInDim S512x256 ![0, 1] bcast_S1x256_S512x256_0_1 : (⟨S1x256, .f32⟩ : BufTy).Contents (Elt F) → (⟨S512x256, .f32⟩ : BufTy).Contents (Elt F)),
    binary main_v289 main_v294 main_v295 (mulf : (⟨S512x256, .f32⟩ : BufTy).Contents (Elt F) → (⟨S512x256, .f32⟩ : BufTy).Contents (Elt F) → (⟨S512x256, .f32⟩ : BufTy).Contents (Elt F)),
    unary main_v280 main_v296 (broadcastInDim S1x256 ![1] bcast_S256_S1x256_1 : (⟨S256, .f32⟩ : BufTy).Contents (Elt F) → (⟨S1x256, .f32⟩ : BufTy).Contents (Elt F)),
    unary main_v296 main_v297 (broadcastInDim S512x256 ![0, 1] bcast_S1x256_S512x256_0_1 : (⟨S1x256, .f32⟩ : BufTy).Contents (Elt F) → (⟨S512x256, .f32⟩ : BufTy).Contents (Elt F)),
    binary main_v295 main_v297 main_v298 (mulf : (⟨S512x256, .f32⟩ : BufTy).Contents (Elt F) → (⟨S512x256, .f32⟩ : BufTy).Contents (Elt F) → (⟨S512x256, .f32⟩ : BufTy).Contents (Elt F)),
    unary main_v282 main_v299 (broadcastInDim S1x256 ![1] bcast_S256_S1x256_1 : (⟨S256, .f32⟩ : BufTy).Contents (Elt F) → (⟨S1x256, .f32⟩ : BufTy).Contents (Elt F)),
    unary main_v299 main_v300 (broadcastInDim S512x256 ![0, 1] bcast_S1x256_S512x256_0_1 : (⟨S1x256, .f32⟩ : BufTy).Contents (Elt F) → (⟨S512x256, .f32⟩ : BufTy).Contents (Elt F)),
    binary main_v298 main_v300 main_v301 (addf : (⟨S512x256, .f32⟩ : BufTy).Contents (Elt F) → (⟨S512x256, .f32⟩ : BufTy).Contents (Elt F) → (⟨S512x256, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S512x256, .f32⟩) main_call6_v0) (broadcastInDim S512x256 ![] bcast_S_S512x256),
    TRef.binary (TRef.of (T := ⟨S512x256, .f32⟩) main_v301) (TRef.of (T := ⟨S512x256, .f32⟩) main_call6_v0) (TRef.of (T := ⟨S512x256, .f32⟩) main_v302) maximumf,
    unary main_arg24 main_v303 ((extractStridedSlice S1x256x128 ![1, 0, 0] · slices_S4x256x128_S1x256x128_1_0_0) : (⟨S4x256x128, .f32⟩ : BufTy).Contents (Elt F) → (⟨S1x256x128, .f32⟩ : BufTy).Contents (Elt F)),
    reshape main_v303 main_v304 rfl shapeCasts_S1x256x128_S256x128,
    binary main_v302 main_v304 main_v305 ((fun l r => Host.dotGeneral dot_S512x256_S256x128_S512x128_1_0_0_1_n_n none l r) : (⟨S512x256, .f32⟩ : BufTy).Contents (Elt F) → (⟨S256x128, .f32⟩ : BufTy).Contents (Elt F) → (⟨S512x128, .f32⟩ : BufTy).Contents (Elt F)),
    unary main_arg25 main_v306 ((extractStridedSlice S1x128 ![1, 0] · slices_S4x128_S1x128_1_0) : (⟨S4x128, .f32⟩ : BufTy).Contents (Elt F) → (⟨S1x128, .f32⟩ : BufTy).Contents (Elt F)),
    reshape main_v306 main_v307 rfl shapeCasts_S1x128_S128,
    unary main_v307 main_v308 (broadcastInDim S1x128 ![1] bcast_S128_S1x128_1 : (⟨S128, .f32⟩ : BufTy).Contents (Elt F) → (⟨S1x128, .f32⟩ : BufTy).Contents (Elt F)),
    unary main_v308 main_v309 (broadcastInDim S512x128 ![0, 1] bcast_S1x128_S512x128_0_1 : (⟨S1x128, .f32⟩ : BufTy).Contents (Elt F) → (⟨S512x128, .f32⟩ : BufTy).Contents (Elt F)),
    binary main_v305 main_v309 main_v310 (addf : (⟨S512x128, .f32⟩ : BufTy).Contents (Elt F) → (⟨S512x128, .f32⟩ : BufTy).Contents (Elt F) → (⟨S512x128, .f32⟩ : BufTy).Contents (Elt F)),
    unary main_arg26 main_v311 ((extractStridedSlice S1x128 ![1, 0] · slices_S4x128_S1x128_1_0) : (⟨S4x128, .f32⟩ : BufTy).Contents (Elt F) → (⟨S1x128, .f32⟩ : BufTy).Contents (Elt F)),
    reshape main_v311 main_v312 rfl shapeCasts_S1x128_S128,
    unary main_arg27 main_v313 ((extractStridedSlice S1x128 ![1, 0] · slices_S4x128_S1x128_1_0) : (⟨S4x128, .f32⟩ : BufTy).Contents (Elt F) → (⟨S1x128, .f32⟩ : BufTy).Contents (Elt F)),
    reshape main_v313 main_v314 rfl shapeCasts_S1x128_S128,
    unary main_arg28 main_v315 ((extractStridedSlice S1x128 ![1, 0] · slices_S4x128_S1x128_1_0) : (⟨S4x128, .f32⟩ : BufTy).Contents (Elt F) → (⟨S1x128, .f32⟩ : BufTy).Contents (Elt F)),
    reshape main_v315 main_v316 rfl shapeCasts_S1x128_S128,
    unary main_arg29 main_v317 ((extractStridedSlice S1x128 ![1, 0] · slices_S4x128_S1x128_1_0) : (⟨S4x128, .f32⟩ : BufTy).Contents (Elt F) → (⟨S1x128, .f32⟩ : BufTy).Contents (Elt F)),
    reshape main_v317 main_v318 rfl shapeCasts_S1x128_S128,
    unary main_v316 main_v319 (broadcastInDim S1x128 ![1] bcast_S128_S1x128_1 : (⟨S128, .f32⟩ : BufTy).Contents (Elt F) → (⟨S1x128, .f32⟩ : BufTy).Contents (Elt F)),
    unary main_v319 main_v320 (broadcastInDim S512x128 ![0, 1] bcast_S1x128_S512x128_0_1 : (⟨S1x128, .f32⟩ : BufTy).Contents (Elt F) → (⟨S512x128, .f32⟩ : BufTy).Contents (Elt F)),
    binary main_v310 main_v320 main_v321 (subf : (⟨S512x128, .f32⟩ : BufTy).Contents (Elt F) → (⟨S512x128, .f32⟩ : BufTy).Contents (Elt F) → (⟨S512x128, .f32⟩ : BufTy).Contents (Elt F)),
    nullary main_cst_25 (constant S_ .f32 0x3727C5AC#32),
    unary main_cst_25 main_v322 (broadcastInDim S128 ![] bcast_S_S128 : (⟨S_, .f32⟩ : BufTy).Contents (Elt F) → (⟨S128, .f32⟩ : BufTy).Contents (Elt F)),
    binary main_v318 main_v322 main_v323 (addf : (⟨S128, .f32⟩ : BufTy).Contents (Elt F) → (⟨S128, .f32⟩ : BufTy).Contents (Elt F) → (⟨S128, .f32⟩ : BufTy).Contents (Elt F)),
    unary main_v323 main_v324 (Host.rsqrt : (⟨S128, .f32⟩ : BufTy).Contents (Elt F) → (⟨S128, .f32⟩ : BufTy).Contents (Elt F)),
    unary main_v324 main_v325 (broadcastInDim S1x128 ![1] bcast_S128_S1x128_1 : (⟨S128, .f32⟩ : BufTy).Contents (Elt F) → (⟨S1x128, .f32⟩ : BufTy).Contents (Elt F)),
    unary main_v325 main_v326 (broadcastInDim S512x128 ![0, 1] bcast_S1x128_S512x128_0_1 : (⟨S1x128, .f32⟩ : BufTy).Contents (Elt F) → (⟨S512x128, .f32⟩ : BufTy).Contents (Elt F)),
    binary main_v321 main_v326 main_v327 (mulf : (⟨S512x128, .f32⟩ : BufTy).Contents (Elt F) → (⟨S512x128, .f32⟩ : BufTy).Contents (Elt F) → (⟨S512x128, .f32⟩ : BufTy).Contents (Elt F)),
    unary main_v312 main_v328 (broadcastInDim S1x128 ![1] bcast_S128_S1x128_1 : (⟨S128, .f32⟩ : BufTy).Contents (Elt F) → (⟨S1x128, .f32⟩ : BufTy).Contents (Elt F)),
    unary main_v328 main_v329 (broadcastInDim S512x128 ![0, 1] bcast_S1x128_S512x128_0_1 : (⟨S1x128, .f32⟩ : BufTy).Contents (Elt F) → (⟨S512x128, .f32⟩ : BufTy).Contents (Elt F)),
    binary main_v327 main_v329 main_v330 (mulf : (⟨S512x128, .f32⟩ : BufTy).Contents (Elt F) → (⟨S512x128, .f32⟩ : BufTy).Contents (Elt F) → (⟨S512x128, .f32⟩ : BufTy).Contents (Elt F)),
    unary main_v314 main_v331 (broadcastInDim S1x128 ![1] bcast_S128_S1x128_1 : (⟨S128, .f32⟩ : BufTy).Contents (Elt F) → (⟨S1x128, .f32⟩ : BufTy).Contents (Elt F)) ]

/-- Operations 374 … 378 of the program's 847, in order. -/
abbrev ops374_379 : List (HloOp τ sig (Elt F)) :=
  [ unary main_v331 main_v332 (broadcastInDim S512x128 ![0, 1] bcast_S1x128_S512x128_0_1 : (⟨S1x128, .f32⟩ : BufTy).Contents (Elt F) → (⟨S512x128, .f32⟩ : BufTy).Contents (Elt F)),
    binary main_v330 main_v332 main_v333 (addf : (⟨S512x128, .f32⟩ : BufTy).Contents (Elt F) → (⟨S512x128, .f32⟩ : BufTy).Contents (Elt F) → (⟨S512x128, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S512x128, .f32⟩) main_call7_v0) (broadcastInDim S512x128 ![] bcast_S_S512x128),
    TRef.binary (TRef.of (T := ⟨S512x128, .f32⟩) main_v333) (TRef.of (T := ⟨S512x128, .f32⟩) main_call7_v0) (TRef.of (T := ⟨S512x128, .f32⟩) main_v334) maximumf ]

/-- The window: operations 304 … 378. -/
abbrev wTable1 : List (HloOp τ sig (Elt Ideal)) := ops304_312 (F := Ideal) ++ ops312_374 (F := Ideal) ++ ops374_379 (F := Ideal)

/-- The buffers the window's operations write, in order. -/
def wrTable1 : List (Ref sig .tc) :=
  [ main_cst_23, main_v267, main_v268, main_v269, main_v270, main_v271, main_v272, main_v273, main_v274, main_v275,
    main_v276, main_v277, main_v278, main_v279, main_v280, main_v281, main_v282, main_v283, main_v284, main_v285,
    main_v286, main_v287, main_v288, main_v289, main_cst_24, main_v290, main_v291, main_v292, main_v293, main_v294,
    main_v295, main_v296, main_v297, main_v298, main_v299, main_v300, main_v301, main_call6_cst, main_call6_v0, main_v302,
    main_v303, main_v304, main_v305, main_v306, main_v307, main_v308, main_v309, main_v310, main_v311, main_v312,
    main_v313, main_v314, main_v315, main_v316, main_v317, main_v318, main_v319, main_v320, main_v321, main_cst_25,
    main_v322, main_v323, main_v324, main_v325, main_v326, main_v327, main_v328, main_v329, main_v330, main_v331,
    main_v332, main_v333, main_call7_cst, main_call7_v0, main_v334 ]

/-- Operation by operation, the one buffer each writes. -/
theorem coversTable1 : Cert.SSA.Covers wTable1 wrTable1 := by
  unfold Cert.SSA.Covers
  dsimp only [wTable1, ops304_312, ops312_374, ops374_379, List.cons_append, List.nil_append, wrTable1]
  repeat (first | exact List.Forall₂.nil | refine List.Forall₂.cons (Finset.Subset.refl _) ?_)

/-- Every buffer the window names is a buffer of the core. -/
theorem subTable1 : ∀ op ∈ wTable1, op.bufs ⊆ tcRefs τ sig := by
  dsimp only [wTable1, ops304_312, ops312_374, ops374_379, List.cons_append, List.nil_append]
  exact List.forall_iff_forall_mem.1
    ⟨nullary_bufs_sub .., unary_bufs_sub .., unary_bufs_sub .., ternary_bufs_sub .., binary_bufs_sub .., unary_bufs_sub ..,
     reshape_bufs_sub .., binary_bufs_sub .., unary_bufs_sub .., reshape_bufs_sub .., unary_bufs_sub .., unary_bufs_sub ..,
     binary_bufs_sub .., unary_bufs_sub .., reshape_bufs_sub .., unary_bufs_sub .., reshape_bufs_sub .., unary_bufs_sub ..,
     reshape_bufs_sub .., unary_bufs_sub .., reshape_bufs_sub .., unary_bufs_sub .., unary_bufs_sub .., binary_bufs_sub ..,
     nullary_bufs_sub .., unary_bufs_sub .., binary_bufs_sub .., unary_bufs_sub .., unary_bufs_sub .., unary_bufs_sub ..,
     binary_bufs_sub .., unary_bufs_sub .., unary_bufs_sub .., binary_bufs_sub .., unary_bufs_sub .., unary_bufs_sub ..,
     binary_bufs_sub .., nullary_bufs_sub .., unary_bufs_sub .., binary_bufs_sub .., unary_bufs_sub .., reshape_bufs_sub ..,
     binary_bufs_sub .., unary_bufs_sub .., reshape_bufs_sub .., unary_bufs_sub .., unary_bufs_sub .., binary_bufs_sub ..,
     unary_bufs_sub .., reshape_bufs_sub .., unary_bufs_sub .., reshape_bufs_sub .., unary_bufs_sub .., reshape_bufs_sub ..,
     unary_bufs_sub .., reshape_bufs_sub .., unary_bufs_sub .., unary_bufs_sub .., binary_bufs_sub .., nullary_bufs_sub ..,
     unary_bufs_sub .., binary_bufs_sub .., unary_bufs_sub .., unary_bufs_sub .., unary_bufs_sub .., binary_bufs_sub ..,
     unary_bufs_sub .., unary_bufs_sub .., binary_bufs_sub .., unary_bufs_sub .., unary_bufs_sub .., binary_bufs_sub ..,
     nullary_bufs_sub .., unary_bufs_sub .., binary_bufs_sub ..⟩

/-- Every operation of the window determines its results. -/
theorem freshTable1 : ∀ op ∈ wTable1, op.fresh = ∅ := by
  dsimp only [wTable1, ops304_312, ops312_374, ops374_379, List.cons_append, List.nil_append]
  intro op h
  repeat (cases h with | head => rfl | tail _ h => ?_)
  exact nomatch h

set_option maxHeartbeats 4000000 in
/-- What the window leaves in its result buffer. -/
theorem valueTable1 [Cert.ReferenceIdeal.Facts] (V : Valuation τ sig (Elt Ideal)) :
    (after wTable1 V (Proc.devRef .tc main_v334) : FVec Ideal S512x128 .f32)
      = tableMap (argsV V) 1 (vtOf dims layout (V (Proc.devRef .tc main_v181)) (V (Proc.devRef .tc main_v173)) (argsV V).batch) := by
  dsimp only [wTable1, ops304_312, ops312_374, ops374_379, List.cons_append, List.nil_append]
  after_results_simp
  refine Eq.trans ?_ (table_host (argsV V) (tableLayout 1) dot_S512x128_S128x256_S512x256_1_0_0_1_n_n dot_S512x256_S256x128_S512x128_1_0_0_1_n_n rfl rfl _)
  rfl

end Cert.ReferenceIdeal.RefValue

end
-- ==== Proof.RefHin2.lean ====
/-
  Layer 2's node array with the graphs' rows added, in the reference program: operations 379 … 388.

  From the previous layer's node array, the renewed table and the nodes' graph numbers, the window gathers each node's
  graph's row and adds it. Read from arbitrary contents of the buffers, its result buffer holds that function of what
  the buffers it reads held; it writes none of the buffers it reads.
-/
import proofs.«116444_j64183991272049_2_alg».proof.Proof.RefBase

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx Cert.LibNormLayer Cert.LibSliceRead Cert.Net

variable {F : FTy → Type} [FloatOps F]

/-- Operations 379 … 388 of the program's 847, in order. -/
abbrev ops379_389 : List (HloOp τ sig (Elt F)) :=
  [ nullary main_c_26 (constantI S_ 32 0#32),
    unary main_c_26 main_v335 (broadcastInDim S100000 ![] bcast_S_S100000 : (⟨S_, .i32⟩ : BufTy).Contents (Elt F) → (⟨S100000, .i32⟩ : BufTy).Contents (Elt F)),
    binary main_arg2 main_v335 main_v336 (cmpi .slt : (⟨S100000, .i32⟩ : BufTy).Contents (Elt F) → (⟨S100000, .i32⟩ : BufTy).Contents (Elt F) → (⟨S100000, .i1⟩ : BufTy).Contents (Elt F)),
    nullary main_c_27 (constantI S_ 32 512#32),
    unary main_c_27 main_v337 (broadcastInDim S100000 ![] bcast_S_S100000 : (⟨S_, .i32⟩ : BufTy).Contents (Elt F) → (⟨S100000, .i32⟩ : BufTy).Contents (Elt F)),
    binary main_arg2 main_v337 main_v338 (addi : (⟨S100000, .i32⟩ : BufTy).Contents (Elt F) → (⟨S100000, .i32⟩ : BufTy).Contents (Elt F) → (⟨S100000, .i32⟩ : BufTy).Contents (Elt F)),
    ternary main_v336 main_v338 main_arg2 main_v339 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v339 main_v340 (broadcastInDim S100000x1 ![0] bcast_S100000_S100000x1_0 : (⟨S100000, .i32⟩ : BufTy).Contents (Elt F) → (⟨S100000x1, .i32⟩ : BufTy).Contents (Elt F)),
    binary main_v334 main_v340 main_v341 ((fun x i => Host.gather gather_S512x128_S100000x1_S100000x128_1_0_n_n_0_1_1128 x i) : (⟨S512x128, .f32⟩ : BufTy).Contents (Elt F) → (⟨S100000x1, .i32⟩ : BufTy).Contents (Elt F) → (⟨S100000x128, .f32⟩ : BufTy).Contents (Elt F)),
    binary main_v266 main_v341 main_v342 (addf : (⟨S100000x128, .f32⟩ : BufTy).Contents (Elt F) → (⟨S100000x128, .f32⟩ : BufTy).Contents (Elt F) → (⟨S100000x128, .f32⟩ : BufTy).Contents (Elt F)) ]

/-- The window: operations 379 … 388. -/
abbrev wHin2 : List (HloOp τ sig (Elt Ideal)) := ops379_389 (F := Ideal)

/-- The buffers the window's operations write, in order. -/
def wrHin2 : List (Ref sig .tc) :=
  [ main_c_26, main_v335, main_v336, main_c_27, main_v337, main_v338, main_v339, main_v340, main_v341, main_v342 ]

/-- Operation by operation, the one buffer each writes. -/
theorem coversHin2 : Cert.SSA.Covers wHin2 wrHin2 := by
  unfold Cert.SSA.Covers
  dsimp only [wHin2, ops379_389, List.cons_append, List.nil_append, wrHin2]
  repeat (first | exact List.Forall₂.nil | refine List.Forall₂.cons (Finset.Subset.refl _) ?_)

/-- Every buffer the window names is a buffer of the core. -/
theorem subHin2 : ∀ op ∈ wHin2, op.bufs ⊆ tcRefs τ sig := by
  dsimp only [wHin2, ops379_389, List.cons_append, List.nil_append]
  exact List.forall_iff_forall_mem.1
    ⟨nullary_bufs_sub .., unary_bufs_sub .., binary_bufs_sub .., nullary_bufs_sub .., unary_bufs_sub .., binary_bufs_sub ..,
     ternary_bufs_sub .., unary_bufs_sub .., binary_bufs_sub .., binary_bufs_sub ..⟩

/-- Every operation of the window determines its results. -/
theorem freshHin2 : ∀ op ∈ wHin2, op.fresh = ∅ := by
  dsimp only [wHin2, ops379_389, List.cons_append, List.nil_append]
  intro op h
  repeat (cases h with | head => rfl | tail _ h => ?_)
  exact nomatch h

/-- What the window leaves in its result buffer. -/
theorem valueHin2 [Cert.ReferenceIdeal.Facts] (V : Valuation τ sig (Elt Ideal)) :
    (after wHin2 V (Proc.devRef .tc main_v342) : FVec Ideal S100000x128 .f32)
      = hinOf dims layout (V (Proc.devRef .tc main_v266)) (V (Proc.devRef .tc main_v334)) (argsV V).batch := by
  dsimp only [wHin2, ops379_389, List.cons_append, List.nil_append]
  after_results_simp
  rfl

end Cert.ReferenceIdeal.RefValue

end
-- ==== Proof.RefConv2.lean ====
/-
  Layer 2's map of the node array, in the reference program: operations 389 … 485.

  From the layer's node array with the graphs' rows added (hin), the edges' start and end nodes and the arguments, the
  window computes z = (1 + ε) · hin plus the sums of hin's rows along the edges, and the two-layer normalised map of z, then the maximum with zero. Read from arbitrary contents of the buffers, its result buffer holds that function of what the
  buffers it reads held; it writes none of the buffers it reads.
-/
import proofs.«116444_j64183991272049_2_alg».proof.Proof.RefBase

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx Cert.LibNormLayer Cert.LibSliceRead Cert.Net

variable {F : FTy → Type} [FloatOps F]

/-- Operations 389 … 435 of the program's 847, in order. -/
abbrev ops389_436 : List (HloOp τ sig (Elt F)) :=
  [ nullary main_cst_28 (constant S_ .f32 0x00000000#32),
    unary main_cst_28 main_v343 (broadcastInDim S100000x128 ![] bcast_S_S100000x128 : (⟨S_, .f32⟩ : BufTy).Contents (Elt F) → (⟨S100000x128, .f32⟩ : BufTy).Contents (Elt F)),
    nullary main_c_29 (constantI S_ 32 0#32),
    unary main_c_29 main_v344 (broadcastInDim S600000 ![] bcast_S_S600000 : (⟨S_, .i32⟩ : BufTy).Contents (Elt F) → (⟨S600000, .i32⟩ : BufTy).Contents (Elt F)),
    binary main_v1 main_v344 main_v345 (cmpi .slt : (⟨S600000, .i32⟩ : BufTy).Contents (Elt F) → (⟨S600000, .i32⟩ : BufTy).Contents (Elt F) → (⟨S600000, .i1⟩ : BufTy).Contents (Elt F)),
    nullary main_c_30 (constantI S_ 32 100000#32),
    unary main_c_30 main_v346 (broadcastInDim S600000 ![] bcast_S_S600000 : (⟨S_, .i32⟩ : BufTy).Contents (Elt F) → (⟨S600000, .i32⟩ : BufTy).Contents (Elt F)),
    binary main_v1 main_v346 main_v347 (addi : (⟨S600000, .i32⟩ : BufTy).Contents (Elt F) → (⟨S600000, .i32⟩ : BufTy).Contents (Elt F) → (⟨S600000, .i32⟩ : BufTy).Contents (Elt F)),
    ternary main_v345 main_v347 main_v1 main_v348 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v348 main_v349 (broadcastInDim S600000x1 ![0] bcast_S600000_S600000x1_0 : (⟨S600000, .i32⟩ : BufTy).Contents (Elt F) → (⟨S600000x1, .i32⟩ : BufTy).Contents (Elt F)),
    binary main_v342 main_v349 main_v350 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    nullary main_c_31 (constantI S_ 32 0#32),
    unary main_c_31 main_v351 (broadcastInDim S600000 ![] bcast_S_S600000 : (⟨S_, .i32⟩ : BufTy).Contents (Elt F) → (⟨S600000, .i32⟩ : BufTy).Contents (Elt F)),
    binary main_v3 main_v351 main_v352 (cmpi .slt : (⟨S600000, .i32⟩ : BufTy).Contents (Elt F) → (⟨S600000, .i32⟩ : BufTy).Contents (Elt F) → (⟨S600000, .i1⟩ : BufTy).Contents (Elt F)),
    nullary main_c_32 (constantI S_ 32 100000#32),
    unary main_c_32 main_v353 (broadcastInDim S600000 ![] bcast_S_S600000 : (⟨S_, .i32⟩ : BufTy).Contents (Elt F) → (⟨S600000, .i32⟩ : BufTy).Contents (Elt F)),
    binary main_v3 main_v353 main_v354 (addi : (⟨S600000, .i32⟩ : BufTy).Contents (Elt F) → (⟨S600000, .i32⟩ : BufTy).Contents (Elt F) → (⟨S600000, .i32⟩ : BufTy).Contents (Elt F)),
    ternary main_v352 main_v354 main_v3 main_v355 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v355 main_v356 (broadcastInDim S600000x1 ![0] bcast_S600000_S600000x1_0 : (⟨S600000, .i32⟩ : BufTy).Contents (Elt F) → (⟨S600000x1, .i32⟩ : BufTy).Contents (Elt F)),
    ternary main_v343 main_v356 main_v350 main_v357 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    unary main_arg5 main_v358 ((extractStridedSlice S1 ![2] · slices_S5_S1_2) : (⟨S5, .f32⟩ : BufTy).Contents (Elt F) → (⟨S1, .f32⟩ : BufTy).Contents (Elt F)),
    reshape main_v358 main_v359 rfl shapeCasts_S1_S_,
    nullary main_cst_33 (constant S_ .f32 0x3F800000#32),
    binary main_cst_33 main_v359 main_v360 (addf : (⟨S_, .f32⟩ : BufTy).Contents (Elt F) → (⟨S_, .f32⟩ : BufTy).Contents (Elt F) → (⟨S_, .f32⟩ : BufTy).Contents (Elt F)),
    unary main_v360 main_v361 (broadcastInDim S100000x128 ![] bcast_S_S100000x128 : (⟨S_, .f32⟩ : BufTy).Contents (Elt F) → (⟨S100000x128, .f32⟩ : BufTy).Contents (Elt F)),
    binary main_v361 main_v342 main_v362 (mulf : (⟨S100000x128, .f32⟩ : BufTy).Contents (Elt F) → (⟨S100000x128, .f32⟩ : BufTy).Contents (Elt F) → (⟨S100000x128, .f32⟩ : BufTy).Contents (Elt F)),
    binary main_v362 main_v357 main_v363 (addf : (⟨S100000x128, .f32⟩ : BufTy).Contents (Elt F) → (⟨S100000x128, .f32⟩ : BufTy).Contents (Elt F) → (⟨S100000x128, .f32⟩ : BufTy).Contents (Elt F)),
    unary main_arg6 main_v364 ((extractStridedSlice S1x128x256 ![2, 0, 0] · slices_S5x128x256_S1x128x256_2_0_0) : (⟨S5x128x256, .f32⟩ : BufTy).Contents (Elt F) → (⟨S1x128x256, .f32⟩ : BufTy).Contents (Elt F)),
    reshape main_v364 main_v365 rfl shapeCasts_S1x128x256_S128x256,
    binary main_v363 main_v365 main_v366 ((fun l r => Host.dotGeneral dot_S100000x128_S128x256_S100000x256_1_0_0_1_n_n none l r) : (⟨S100000x128, .f32⟩ : BufTy).Contents (Elt F) → (⟨S128x256, .f32⟩ : BufTy).Contents (Elt F) → (⟨S100000x256, .f32⟩ : BufTy).Contents (Elt F)),
    unary main_arg7 main_v367 ((extractStridedSlice S1x256 ![2, 0] · slices_S5x256_S1x256_2_0) : (⟨S5x256, .f32⟩ : BufTy).Contents (Elt F) → (⟨S1x256, .f32⟩ : BufTy).Contents (Elt F)),
    reshape main_v367 main_v368 rfl shapeCasts_S1x256_S256,
    unary main_v368 main_v369 (broadcastInDim S1x256 ![1] bcast_S256_S1x256_1 : (⟨S256, .f32⟩ : BufTy).Contents (Elt F) → (⟨S1x256, .f32⟩ : BufTy).Contents (Elt F)),
    unary main_v369 main_v370 (broadcastInDim S100000x256 ![0, 1] bcast_S1x256_S100000x256_0_1 : (⟨S1x256, .f32⟩ : BufTy).Contents (Elt F) → (⟨S100000x256, .f32⟩ : BufTy).Contents (Elt F)),
    binary main_v366 main_v370 main_v371 (addf : (⟨S100000x256, .f32⟩ : BufTy).Contents (Elt F) → (⟨S100000x256, .f32⟩ : BufTy).Contents (Elt F) → (⟨S100000x256, .f32⟩ : BufTy).Contents (Elt F)),
    unary main_arg8 main_v372 ((extractStridedSlice S1x256 ![2, 0] · slices_S5x256_S1x256_2_0) : (⟨S5x256, .f32⟩ : BufTy).Contents (Elt F) → (⟨S1x256, .f32⟩ : BufTy).Contents (Elt F)),
    reshape main_v372 main_v373 rfl shapeCasts_S1x256_S256,
    unary main_arg9 main_v374 ((extractStridedSlice S1x256 ![2, 0] · slices_S5x256_S1x256_2_0) : (⟨S5x256, .f32⟩ : BufTy).Contents (Elt F) → (⟨S1x256, .f32⟩ : BufTy).Contents (Elt F)),
    reshape main_v374 main_v375 rfl shapeCasts_S1x256_S256,
    unary main_arg10 main_v376 ((extractStridedSlice S1x256 ![2, 0] · slices_S5x256_S1x256_2_0) : (⟨S5x256, .f32⟩ : BufTy).Contents (Elt F) → (⟨S1x256, .f32⟩ : BufTy).Contents (Elt F)),
    reshape main_v376 main_v377 rfl shapeCasts_S1x256_S256,
    unary main_arg11 main_v378 ((extractStridedSlice S1x256 ![2, 0] · slices_S5x256_S1x256_2_0) : (⟨S5x256, .f32⟩ : BufTy).Contents (Elt F) → (⟨S1x256, .f32⟩ : BufTy).Contents (Elt F)),
    reshape main_v378 main_v379 rfl shapeCasts_S1x256_S256,
    unary main_v377 main_v380 (broadcastInDim S1x256 ![1] bcast_S256_S1x256_1 : (⟨S256, .f32⟩ : BufTy).Contents (Elt F) → (⟨S1x256, .f32⟩ : BufTy).Contents (Elt F)),
    unary main_v380 main_v381 (broadcastInDim S100000x256 ![0, 1] bcast_S1x256_S100000x256_0_1 : (⟨S1x256, .f32⟩ : BufTy).Contents (Elt F) → (⟨S100000x256, .f32⟩ : BufTy).Contents (Elt F)),
    binary main_v371 main_v381 main_v382 (subf : (⟨S100000x256, .f32⟩ : BufTy).Contents (Elt F) → (⟨S100000x256, .f32⟩ : BufTy).Contents (Elt F) → (⟨S100000x256, .f32⟩ : BufTy).Contents (Elt F)),
    nullary main_cst_34 (constant S_ .f32 0x3727C5AC#32) ]

/-- Operations 436 … 485 of the program's 847, in order. -/
abbrev ops436_486 : List (HloOp τ sig (Elt F)) :=
  [ unary main_cst_34 main_v383 (broadcastInDim S256 ![] bcast_S_S256 : (⟨S_, .f32⟩ : BufTy).Contents (Elt F) → (⟨S256, .f32⟩ : BufTy).Contents (Elt F)),
    binary main_v379 main_v383 main_v384 (addf : (⟨S256, .f32⟩ : BufTy).Contents (Elt F) → (⟨S256, .f32⟩ : BufTy).Contents (Elt F) → (⟨S256, .f32⟩ : BufTy).Contents (Elt F)),
    unary main_v384 main_v385 (Host.rsqrt : (⟨S256, .f32⟩ : BufTy).Contents (Elt F) → (⟨S256, .f32⟩ : BufTy).Contents (Elt F)),
    unary main_v385 main_v386 (broadcastInDim S1x256 ![1] bcast_S256_S1x256_1 : (⟨S256, .f32⟩ : BufTy).Contents (Elt F) → (⟨S1x256, .f32⟩ : BufTy).Contents (Elt F)),
    unary main_v386 main_v387 (broadcastInDim S100000x256 ![0, 1] bcast_S1x256_S100000x256_0_1 : (⟨S1x256, .f32⟩ : BufTy).Contents (Elt F) → (⟨S100000x256, .f32⟩ : BufTy).Contents (Elt F)),
    binary main_v382 main_v387 main_v388 (mulf : (⟨S100000x256, .f32⟩ : BufTy).Contents (Elt F) → (⟨S100000x256, .f32⟩ : BufTy).Contents (Elt F) → (⟨S100000x256, .f32⟩ : BufTy).Contents (Elt F)),
    unary main_v373 main_v389 (broadcastInDim S1x256 ![1] bcast_S256_S1x256_1 : (⟨S256, .f32⟩ : BufTy).Contents (Elt F) → (⟨S1x256, .f32⟩ : BufTy).Contents (Elt F)),
    unary main_v389 main_v390 (broadcastInDim S100000x256 ![0, 1] bcast_S1x256_S100000x256_0_1 : (⟨S1x256, .f32⟩ : BufTy).Contents (Elt F) → (⟨S100000x256, .f32⟩ : BufTy).Contents (Elt F)),
    binary main_v388 main_v390 main_v391 (mulf : (⟨S100000x256, .f32⟩ : BufTy).Contents (Elt F) → (⟨S100000x256, .f32⟩ : BufTy).Contents (Elt F) → (⟨S100000x256, .f32⟩ : BufTy).Contents (Elt F)),
    unary main_v375 main_v392 (broadcastInDim S1x256 ![1] bcast_S256_S1x256_1 : (⟨S256, .f32⟩ : BufTy).Contents (Elt F) → (⟨S1x256, .f32⟩ : BufTy).Contents (Elt F)),
    unary main_v392 main_v393 (broadcastInDim S100000x256 ![0, 1] bcast_S1x256_S100000x256_0_1 : (⟨S1x256, .f32⟩ : BufTy).Contents (Elt F) → (⟨S100000x256, .f32⟩ : BufTy).Contents (Elt F)),
    binary main_v391 main_v393 main_v394 (addf : (⟨S100000x256, .f32⟩ : BufTy).Contents (Elt F) → (⟨S100000x256, .f32⟩ : BufTy).Contents (Elt F) → (⟨S100000x256, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S100000x256, .f32⟩) main_call8_v0) (broadcastInDim S100000x256 ![] bcast_S_S100000x256),
    TRef.binary (TRef.of (T := ⟨S100000x256, .f32⟩) main_v394) (TRef.of (T := ⟨S100000x256, .f32⟩) main_call8_v0) (TRef.of (T := ⟨S100000x256, .f32⟩) main_v395) maximumf,
    unary main_arg12 main_v396 ((extractStridedSlice S1x256x128 ![2, 0, 0] · slices_S5x256x128_S1x256x128_2_0_0) : (⟨S5x256x128, .f32⟩ : BufTy).Contents (Elt F) → (⟨S1x256x128, .f32⟩ : BufTy).Contents (Elt F)),
    reshape main_v396 main_v397 rfl shapeCasts_S1x256x128_S256x128,
    binary main_v395 main_v397 main_v398 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    unary main_arg13 main_v399 ((extractStridedSlice S1x128 ![2, 0] · slices_S5x128_S1x128_2_0) : (⟨S5x128, .f32⟩ : BufTy).Contents (Elt F) → (⟨S1x128, .f32⟩ : BufTy).Contents (Elt F)),
    reshape main_v399 main_v400 rfl shapeCasts_S1x128_S128,
    unary main_v400 main_v401 (broadcastInDim S1x128 ![1] bcast_S128_S1x128_1 : (⟨S128, .f32⟩ : BufTy).Contents (Elt F) → (⟨S1x128, .f32⟩ : BufTy).Contents (Elt F)),
    unary main_v401 main_v402 (broadcastInDim S100000x128 ![0, 1] bcast_S1x128_S100000x128_0_1 : (⟨S1x128, .f32⟩ : BufTy).Contents (Elt F) → (⟨S100000x128, .f32⟩ : BufTy).Contents (Elt F)),
    binary main_v398 main_v402 main_v403 (addf : (⟨S100000x128, .f32⟩ : BufTy).Contents (Elt F) → (⟨S100000x128, .f32⟩ : BufTy).Contents (Elt F) → (⟨S100000x128, .f32⟩ : BufTy).Contents (Elt F)),
    unary main_arg14 main_v404 ((extractStridedSlice S1x128 ![2, 0] · slices_S5x128_S1x128_2_0) : (⟨S5x128, .f32⟩ : BufTy).Contents (Elt F) → (⟨S1x128, .f32⟩ : BufTy).Contents (Elt F)),
    reshape main_v404 main_v405 rfl shapeCasts_S1x128_S128,
    unary main_arg15 main_v406 ((extractStridedSlice S1x128 ![2, 0] · slices_S5x128_S1x128_2_0) : (⟨S5x128, .f32⟩ : BufTy).Contents (Elt F) → (⟨S1x128, .f32⟩ : BufTy).Contents (Elt F)),
    reshape main_v406 main_v407 rfl shapeCasts_S1x128_S128,
    unary main_arg16 main_v408 ((extractStridedSlice S1x128 ![2, 0] · slices_S5x128_S1x128_2_0) : (⟨S5x128, .f32⟩ : BufTy).Contents (Elt F) → (⟨S1x128, .f32⟩ : BufTy).Contents (Elt F)),
    reshape main_v408 main_v409 rfl shapeCasts_S1x128_S128,
    unary main_arg17 main_v410 ((extractStridedSlice S1x128 ![2, 0] · slices_S5x128_S1x128_2_0) : (⟨S5x128, .f32⟩ : BufTy).Contents (Elt F) → (⟨S1x128, .f32⟩ : BufTy).Contents (Elt F)),
    reshape main_v410 main_v411 rfl shapeCasts_S1x128_S128,
    unary main_v409 main_v412 (broadcastInDim S1x128 ![1] bcast_S128_S1x128_1 : (⟨S128, .f32⟩ : BufTy).Contents (Elt F) → (⟨S1x128, .f32⟩ : BufTy).Contents (Elt F)),
    unary main_v412 main_v413 (broadcastInDim S100000x128 ![0, 1] bcast_S1x128_S100000x128_0_1 : (⟨S1x128, .f32⟩ : BufTy).Contents (Elt F) → (⟨S100000x128, .f32⟩ : BufTy).Contents (Elt F)),
    binary main_v403 main_v413 main_v414 (subf : (⟨S100000x128, .f32⟩ : BufTy).Contents (Elt F) → (⟨S100000x128, .f32⟩ : BufTy).Contents (Elt F) → (⟨S100000x128, .f32⟩ : BufTy).Contents (Elt F)),
    nullary main_cst_35 (constant S_ .f32 0x3727C5AC#32),
    unary main_cst_35 main_v415 (broadcastInDim S128 ![] bcast_S_S128 : (⟨S_, .f32⟩ : BufTy).Contents (Elt F) → (⟨S128, .f32⟩ : BufTy).Contents (Elt F)),
    binary main_v411 main_v415 main_v416 (addf : (⟨S128, .f32⟩ : BufTy).Contents (Elt F) → (⟨S128, .f32⟩ : BufTy).Contents (Elt F) → (⟨S128, .f32⟩ : BufTy).Contents (Elt F)),
    unary main_v416 main_v417 (Host.rsqrt : (⟨S128, .f32⟩ : BufTy).Contents (Elt F) → (⟨S128, .f32⟩ : BufTy).Contents (Elt F)),
    unary main_v417 main_v418 (broadcastInDim S1x128 ![1] bcast_S128_S1x128_1 : (⟨S128, .f32⟩ : BufTy).Contents (Elt F) → (⟨S1x128, .f32⟩ : BufTy).Contents (Elt F)),
    unary main_v418 main_v419 (broadcastInDim S100000x128 ![0, 1] bcast_S1x128_S100000x128_0_1 : (⟨S1x128, .f32⟩ : BufTy).Contents (Elt F) → (⟨S100000x128, .f32⟩ : BufTy).Contents (Elt F)),
    binary main_v414 main_v419 main_v420 (mulf : (⟨S100000x128, .f32⟩ : BufTy).Contents (Elt F) → (⟨S100000x128, .f32⟩ : BufTy).Contents (Elt F) → (⟨S100000x128, .f32⟩ : BufTy).Contents (Elt F)),
    unary main_v405 main_v421 (broadcastInDim S1x128 ![1] bcast_S128_S1x128_1 : (⟨S128, .f32⟩ : BufTy).Contents (Elt F) → (⟨S1x128, .f32⟩ : BufTy).Contents (Elt F)),
    unary main_v421 main_v422 (broadcastInDim S100000x128 ![0, 1] bcast_S1x128_S100000x128_0_1 : (⟨S1x128, .f32⟩ : BufTy).Contents (Elt F) → (⟨S100000x128, .f32⟩ : BufTy).Contents (Elt F)),
    binary main_v420 main_v422 main_v423 (mulf : (⟨S100000x128, .f32⟩ : BufTy).Contents (Elt F) → (⟨S100000x128, .f32⟩ : BufTy).Contents (Elt F) → (⟨S100000x128, .f32⟩ : BufTy).Contents (Elt F)),
    unary main_v407 main_v424 (broadcastInDim S1x128 ![1] bcast_S128_S1x128_1 : (⟨S128, .f32⟩ : BufTy).Contents (Elt F) → (⟨S1x128, .f32⟩ : BufTy).Contents (Elt F)),
    unary main_v424 main_v425 (broadcastInDim S100000x128 ![0, 1] bcast_S1x128_S100000x128_0_1 : (⟨S1x128, .f32⟩ : BufTy).Contents (Elt F) → (⟨S100000x128, .f32⟩ : BufTy).Contents (Elt F)),
    binary main_v423 main_v425 main_v426 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call9_cst) (constant S_ .f32 0x00000000#32),
    TRef.unary (TRef.of (T := ⟨S_, .f32⟩) main_call9_cst) (TRef.of (T := ⟨S100000x128, .f32⟩) main_call9_v0) (broadcastInDim S100000x128 ![] bcast_S_S100000x128),
    TRef.binary (TRef.of (T := ⟨S100000x128, .f32⟩) main_v426) (TRef.of (T := ⟨S100000x128, .f32⟩) main_call9_v0) (TRef.of (T := ⟨S100000x128, .f32⟩) main_v427) maximumf ]

/-- The window: operations 389 … 485. -/
abbrev wConv2 : List (HloOp τ sig (Elt Ideal)) := ops389_436 (F := Ideal) ++ ops436_486 (F := Ideal)

/-- The buffers the window's operations write, in order. -/
def wrConv2 : List (Ref sig .tc) :=
  [ main_cst_28, main_v343, main_c_29, main_v344, main_v345, main_c_30, main_v346, main_v347, main_v348, main_v349,
    main_v350, main_c_31, main_v351, main_v352, main_c_32, main_v353, main_v354, main_v355, main_v356, main_v357,
    main_v358, main_v359, main_cst_33, main_v360, main_v361, main_v362, main_v363, main_v364, main_v365, main_v366,
    main_v367, main_v368, main_v369, main_v370, main_v371, main_v372, main_v373, main_v374, main_v375, main_v376,
    main_v377, main_v378, main_v379, main_v380, main_v381, main_v382, main_cst_34, main_v383, main_v384, main_v385,
    main_v386, main_v387, main_v388, main_v389, main_v390, main_v391, main_v392, main_v393, main_v394, main_call8_cst,
    main_call8_v0, main_v395, main_v396, main_v397, main_v398, main_v399, main_v400, main_v401, main_v402, main_v403,
    main_v404, main_v405, main_v406, main_v407, main_v408, main_v409, main_v410, main_v411, main_v412, main_v413,
    main_v414, main_cst_35, main_v415, main_v416, main_v417, main_v418, main_v419, main_v420, main_v421, main_v422,
    main_v423, main_v424, main_v425, main_v426, main_call9_cst, main_call9_v0, main_v427 ]

/-- Operation by operation, the one buffer each writes. -/
theorem coversConv2 : Cert.SSA.Covers wConv2 wrConv2 := by
  unfold Cert.SSA.Covers
  dsimp only [wConv2, ops389_436, ops436_486, List.cons_append, List.nil_append, wrConv2]
  repeat (first | exact List.Forall₂.nil | refine List.Forall₂.cons (Finset.Subset.refl _) ?_)

/-- Every buffer the window names is a buffer of the core. -/
theorem subConv2 : ∀ op ∈ wConv2, op.bufs ⊆ tcRefs τ sig := by
  dsimp only [wConv2, ops389_436, ops436_486, List.cons_append, List.nil_append]
  exact List.forall_iff_forall_mem.1
    ⟨nullary_bufs_sub .., unary_bufs_sub .., nullary_bufs_sub .., unary_bufs_sub .., binary_bufs_sub .., nullary_bufs_sub ..,
     unary_bufs_sub .., binary_bufs_sub .., ternary_bufs_sub .., unary_bufs_sub .., binary_bufs_sub .., nullary_bufs_sub ..,
     unary_bufs_sub .., binary_bufs_sub .., nullary_bufs_sub .., unary_bufs_sub .., binary_bufs_sub .., ternary_bufs_sub ..,
     unary_bufs_sub .., ternary_bufs_sub .., unary_bufs_sub .., reshape_bufs_sub .., nullary_bufs_sub .., binary_bufs_sub ..,
     unary_bufs_sub .., binary_bufs_sub .., binary_bufs_sub .., unary_bufs_sub .., reshape_bufs_sub .., binary_bufs_sub ..,
     unary_bufs_sub .., reshape_bufs_sub .., unary_bufs_sub .., unary_bufs_sub .., binary_bufs_sub .., unary_bufs_sub ..,
     reshape_bufs_sub .., unary_bufs_sub .., reshape_bufs_sub .., unary_bufs_sub .., reshape_bufs_sub .., unary_bufs_sub ..,
     reshape_bufs_sub .., unary_bufs_sub .., unary_bufs_sub .., binary_bufs_sub .., nullary_bufs_sub .., unary_bufs_sub ..,
     binary_bufs_sub .., unary_bufs_sub .., unary_bufs_sub .., unary_bufs_sub .., binary_bufs_sub .., unary_bufs_sub ..,
     unary_bufs_sub .., binary_bufs_sub .., unary_bufs_sub .., unary_bufs_sub .., binary_bufs_sub .., nullary_bufs_sub ..,
     unary_bufs_sub .., binary_bufs_sub .., unary_bufs_sub .., reshape_bufs_sub .., binary_bufs_sub .., unary_bufs_sub ..,
     reshape_bufs_sub .., unary_bufs_sub .., unary_bufs_sub .., binary_bufs_sub .., unary_bufs_sub .., reshape_bufs_sub ..,
     unary_bufs_sub .., reshape_bufs_sub .., unary_bufs_sub .., reshape_bufs_sub .., unary_bufs_sub .., reshape_bufs_sub ..,
     unary_bufs_sub .., unary_bufs_sub .., binary_bufs_sub .., nullary_bufs_sub .., unary_bufs_sub .., binary_bufs_sub ..,
     unary_bufs_sub .., unary_bufs_sub .., unary_bufs_sub .., binary_bufs_sub .., unary_bufs_sub .., unary_bufs_sub ..,
     binary_bufs_sub .., unary_bufs_sub .., unary_bufs_sub .., binary_bufs_sub .., nullary_bufs_sub .., unary_bufs_sub ..,
     binary_bufs_sub ..⟩

/-- Every operation of the window determines its results. -/
theorem freshConv2 : ∀ op ∈ wConv2, op.fresh = ∅ := by
  dsimp only [wConv2, ops389_436, ops436_486, List.cons_append, List.nil_append]
  intro op h
  repeat (cases h with | head => rfl | tail _ h => ?_)
  exact nomatch h

set_option maxHeartbeats 4000000 in
/-- What the window leaves in its result buffer. -/
theorem valueConv2 [Cert.ReferenceIdeal.Facts] (V : Valuation τ sig (Elt Ideal)) :
    (after wConv2 V (Proc.devRef .tc main_v427) : FVec Ideal S100000x128 .f32)
      = ramp (convCore (argsV V) 2 (zOf dims layout (V (Proc.devRef .tc main_v342)) (V (Proc.devRef .tc main_v1)) (V (Proc.devRef .tc main_v3)) (scalarAt (argsV V).eps 2))) := by
  dsimp only [wConv2, ops389_436, ops436_486, List.cons_append, List.nil_append]
  after_results_simp
  refine Eq.trans ?_ (congrArg ramp (conv_host dims layout (argsV V) (convLayout 2) dot_S100000x128_S128x256_S100000x256_1_0_0_1_n_n dot_S100000x256_S256x128_S100000x128_1_0_0_1_n_n rfl rfl _ _ _))
  refine Eq.trans ?_ (host_ramp (convLayout 2).y2.hR _)
  rfl

end Cert.ReferenceIdeal.RefValue

end
-- ==== Proof.RefTable2.lean ====
/-
  Layer 2's renewal of the graph table, in the reference program: operations 486 … 560.

  From the layer's node array with the graphs' rows added (hin), the old table and the arguments, the window sums hin's
  rows per graph, adds the old table, and applies the two-layer normalised map with its last maximum with zero. Read
  from arbitrary contents of the buffers, its result buffer holds that function of what the buffers it reads held; it
  writes none of the buffers it reads.
-/
import proofs.«116444_j64183991272049_2_alg».proof.Proof.RefBase

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx Cert.LibNormLayer Cert.LibSliceRead Cert.Net

variable {F : FTy → Type} [FloatOps F]

/-- Operations 486 … 499 of the program's 847, in order. -/
abbrev ops486_500 : List (HloOp τ sig (Elt F)) :=
  [ nullary main_cst_36 (constant S_ .f32 0x00000000#32),
    unary main_cst_36 main_v428 (broadcastInDim S512x128 ![] bcast_S_S512x128 : (⟨S_, .f32⟩ : BufTy).Contents (Elt F) → (⟨S512x128, .f32⟩ : BufTy).Contents (Elt F)),
    unary main_arg2 main_v429 (broadcastInDim S100000x1 ![0] bcast_S100000_S100000x1_0 : (⟨S100000, .i32⟩ : BufTy).Contents (Elt F) → (⟨S100000x1, .i32⟩ : BufTy).Contents (Elt F)),
    ternary main_v428 main_v429 main_v342 main_v430 ((fun x i u => Host.scatterAdd scatter_S512x128_S100000x1_S100000x128_1_0_0_1 x i u) : (⟨S512x128, .f32⟩ : BufTy).Contents (Elt F) → (⟨S100000x1, .i32⟩ : BufTy).Contents (Elt F) → (⟨S100000x128, .f32⟩ : BufTy).Contents (Elt F) → (⟨S512x128, .f32⟩ : BufTy).Contents (Elt F)),
    binary main_v430 main_v334 main_v431 (addf : (⟨S512x128, .f32⟩ : BufTy).Contents (Elt F) → (⟨S512x128, .f32⟩ : BufTy).Contents (Elt F) → (⟨S512x128, .f32⟩ : BufTy).Contents (Elt F)),
    unary main_arg18 main_v432 ((extractStridedSlice S1x128x256 ![2, 0, 0] · slices_S4x128x256_S1x128x256_2_0_0) : (⟨S4x128x256, .f32⟩ : BufTy).Contents (Elt F) → (⟨S1x128x256, .f32⟩ : BufTy).Contents (Elt F)),
    reshape main_v432 main_v433 rfl shapeCasts_S1x128x256_S128x256,
    binary main_v431 main_v433 main_v434 ((fun l r => Host.dotGeneral dot_S512x128_S128x256_S512x256_1_0_0_1_n_n none l r) : (⟨S512x128, .f32⟩ : BufTy).Contents (Elt F) → (⟨S128x256, .f32⟩ : BufTy).Contents (Elt F) → (⟨S512x256, .f32⟩ : BufTy).Contents (Elt F)),
    unary main_arg19 main_v435 ((extractStridedSlice S1x256 ![2, 0] · slices_S4x256_S1x256_2_0) : (⟨S4x256, .f32⟩ : BufTy).Contents (Elt F) → (⟨S1x256, .f32⟩ : BufTy).Contents (Elt F)),
    reshape main_v435 main_v436 rfl shapeCasts_S1x256_S256,
    unary main_v436 main_v437 (broadcastInDim S1x256 ![1] bcast_S256_S1x256_1 : (⟨S256, .f32⟩ : BufTy).Contents (Elt F) → (⟨S1x256, .f32⟩ : BufTy).Contents (Elt F)),
    unary main_v437 main_v438 (broadcastInDim S512x256 ![0, 1] bcast_S1x256_S512x256_0_1 : (⟨S1x256, .f32⟩ : BufTy).Contents (Elt F) → (⟨S512x256, .f32⟩ : BufTy).Contents (Elt F)),
    binary main_v434 main_v438 main_v439 (addf : (⟨S512x256, .f32⟩ : BufTy).Contents (Elt F) → (⟨S512x256, .f32⟩ : BufTy).Contents (Elt F) → (⟨S512x256, .f32⟩ : BufTy).Contents (Elt F)),
    unary main_arg20 main_v440 ((extractStridedSlice S1x256 ![2, 0] · slices_S4x256_S1x256_2_0) : (⟨S4x256, .f32⟩ : BufTy).Contents (Elt F) → (⟨S1x256, .f32⟩ : BufTy).Contents (Elt F)) ]

/-- Operations 500 … 560 of the program's 847, in order. -/
abbrev ops500_561 : List (HloOp τ sig (Elt F)) :=
  [ reshape main_v440 main_v441 rfl shapeCasts_S1x256_S256,
    unary main_arg21 main_v442 ((extractStridedSlice S1x256 ![2, 0] · slices_S4x256_S1x256_2_0) : (⟨S4x256, .f32⟩ : BufTy).Contents (Elt F) → (⟨S1x256, .f32⟩ : BufTy).Contents (Elt F)),
    reshape main_v442 main_v443 rfl shapeCasts_S1x256_S256,
    unary main_arg22 main_v444 ((extractStridedSlice S1x256 ![2, 0] · slices_S4x256_S1x256_2_0) : (⟨S4x256, .f32⟩ : BufTy).Contents (Elt F) → (⟨S1x256, .f32⟩ : BufTy).Contents (Elt F)),
    reshape main_v444 main_v445 rfl shapeCasts_S1x256_S256,
    unary main_arg23 main_v446 ((extractStridedSlice S1x256 ![2, 0] · slices_S4x256_S1x256_2_0) : (⟨S4x256, .f32⟩ : BufTy).Contents (Elt F) → (⟨S1x256, .f32⟩ : BufTy).Contents (Elt F)),
    reshape main_v446 main_v447 rfl shapeCasts_S1x256_S256,
    unary main_v445 main_v448 (broadcastInDim S1x256 ![1] bcast_S256_S1x256_1 : (⟨S256, .f32⟩ : BufTy).Contents (Elt F) → (⟨S1x256, .f32⟩ : BufTy).Contents (Elt F)),
    unary main_v448 main_v449 (broadcastInDim S512x256 ![0, 1] bcast_S1x256_S512x256_0_1 : (⟨S1x256, .f32⟩ : BufTy).Contents (Elt F) → (⟨S512x256, .f32⟩ : BufTy).Contents (Elt F)),
    binary main_v439 main_v449 main_v450 (subf : (⟨S512x256, .f32⟩ : BufTy).Contents (Elt F) → (⟨S512x256, .f32⟩ : BufTy).Contents (Elt F) → (⟨S512x256, .f32⟩ : BufTy).Contents (Elt F)),
    nullary main_cst_37 (constant S_ .f32 0x3727C5AC#32),
    unary main_cst_37 main_v451 (broadcastInDim S256 ![] bcast_S_S256 : (⟨S_, .f32⟩ : BufTy).Contents (Elt F) → (⟨S256, .f32⟩ : BufTy).Contents (Elt F)),
    binary main_v447 main_v451 main_v452 (addf : (⟨S256, .f32⟩ : BufTy).Contents (Elt F) → (⟨S256, .f32⟩ : BufTy).Contents (Elt F) → (⟨S256, .f32⟩ : BufTy).Contents (Elt F)),
    unary main_v452 main_v453 (Host.rsqrt : (⟨S256, .f32⟩ : BufTy).Contents (Elt F) → (⟨S256, .f32⟩ : BufTy).Contents (Elt F)),
    unary main_v453 main_v454 (broadcastInDim S1x256 ![1] bcast_S256_S1x256_1 : (⟨S256, .f32⟩ : BufTy).Contents (Elt F) → (⟨S1x256, .f32⟩ : BufTy).Contents (Elt F)),
    unary main_v454 main_v455 (broadcastInDim S512x256 ![0, 1] bcast_S1x256_S512x256_0_1 : (⟨S1x256, .f32⟩ : BufTy).Contents (Elt F) → (⟨S512x256, .f32⟩ : BufTy).Contents (Elt F)),
    binary main_v450 main_v455 main_v456 (mulf : (⟨S512x256, .f32⟩ : BufTy).Contents (Elt F) → (⟨S512x256, .f32⟩ : BufTy).Contents (Elt F) → (⟨S512x256, .f32⟩ : BufTy).Contents (Elt F)),
    unary main_v441 main_v457 (broadcastInDim S1x256 ![1] bcast_S256_S1x256_1 : (⟨S256, .f32⟩ : BufTy).Contents (Elt F) → (⟨S1x256, .f32⟩ : BufTy).Contents (Elt F)),
    unary main_v457 main_v458 (broadcastInDim S512x256 ![0, 1] bcast_S1x256_S512x256_0_1 : (⟨S1x256, .f32⟩ : BufTy).Contents (Elt F) → (⟨S512x256, .f32⟩ : BufTy).Contents (Elt F)),
    binary main_v456 main_v458 main_v459 (mulf : (⟨S512x256, .f32⟩ : BufTy).Contents (Elt F) → (⟨S512x256, .f32⟩ : BufTy).Contents (Elt F) → (⟨S512x256, .f32⟩ : BufTy).Contents (Elt F)),
    unary main_v443 main_v460 (broadcastInDim S1x256 ![1] bcast_S256_S1x256_1 : (⟨S256, .f32⟩ : BufTy).Contents (Elt F) → (⟨S1x256, .f32⟩ : BufTy).Contents (Elt F)),
    unary main_v460 main_v461 (broadcastInDim S512x256 ![0, 1] bcast_S1x256_S512x256_0_1 : (⟨S1x256, .f32⟩ : BufTy).Contents (Elt F) → (⟨S512x256, .f32⟩ : BufTy).Contents (Elt F)),
    binary main_v459 main_v461 main_v462 (addf : (⟨S512x256, .f32⟩ : BufTy).Contents (Elt F) → (⟨S512x256, .f32⟩ : BufTy).Contents (Elt F) → (⟨S512x256, .f32⟩ : BufTy).Contents (Elt F)),
    TRef.nullary (TRef.of (T := ⟨S_, .f32⟩) main_call10_cst) (constant S_ .f32 0x00000000#32),
    TRef.unary (TRef.of (T := ⟨S_, .f32⟩) main_call10_cst) (TRef.of (T := ⟨S512x256, .f32⟩) main_call10_v0) (broadcastInDim S512x256 ![] bcast_S_S512x256),
    TRef.binary (TRef.of (T := ⟨S512x256, .f32⟩) main_v462) (TRef.of (T := ⟨S512x256, .f32⟩) main_call10_v0) (TRef.of (T := ⟨S512x256, .f32⟩) main_v463) maximumf,
    unary main_arg24 main_v464 ((extractStridedSlice S1x256x128 ![2, 0, 0] · slices_S4x256x128_S1x256x128_2_0_0) : (⟨S4x256x128, .f32⟩ : BufTy).Contents (Elt F) → (⟨S1x256x128, .f32⟩ : BufTy).Contents (Elt F)),
    reshape main_v464 main_v465 rfl shapeCasts_S1x256x128_S256x128,
    binary main_v463 main_v465 main_v466 ((fun l r => Host.dotGeneral dot_S512x256_S256x128_S512x128_1_0_0_1_n_n none l r) : (⟨S512x256, .f32⟩ : BufTy).Contents (Elt F) → (⟨S256x128, .f32⟩ : BufTy).Contents (Elt F) → (⟨S512x128, .f32⟩ : BufTy).Contents (Elt F)),
    unary main_arg25 main_v467 ((extractStridedSlice S1x128 ![2, 0] · slices_S4x128_S1x128_2_0) : (⟨S4x128, .f32⟩ : BufTy).Contents (Elt F) → (⟨S1x128, .f32⟩ : BufTy).Contents (Elt F)),
    reshape main_v467 main_v468 rfl shapeCasts_S1x128_S128,
    unary main_v468 main_v469 (broadcastInDim S1x128 ![1] bcast_S128_S1x128_1 : (⟨S128, .f32⟩ : BufTy).Contents (Elt F) → (⟨S1x128, .f32⟩ : BufTy).Contents (Elt F)),
    unary main_v469 main_v470 (broadcastInDim S512x128 ![0, 1] bcast_S1x128_S512x128_0_1 : (⟨S1x128, .f32⟩ : BufTy).Contents (Elt F) → (⟨S512x128, .f32⟩ : BufTy).Contents (Elt F)),
    binary main_v466 main_v470 main_v471 (addf : (⟨S512x128, .f32⟩ : BufTy).Contents (Elt F) → (⟨S512x128, .f32⟩ : BufTy).Contents (Elt F) → (⟨S512x128, .f32⟩ : BufTy).Contents (Elt F)),
    unary main_arg26 main_v472 ((extractStridedSlice S1x128 ![2, 0] · slices_S4x128_S1x128_2_0) : (⟨S4x128, .f32⟩ : BufTy).Contents (Elt F) → (⟨S1x128, .f32⟩ : BufTy).Contents (Elt F)),
    reshape main_v472 main_v473 rfl shapeCasts_S1x128_S128,
    unary main_arg27 main_v474 ((extractStridedSlice S1x128 ![2, 0] · slices_S4x128_S1x128_2_0) : (⟨S4x128, .f32⟩ : BufTy).Contents (Elt F) → (⟨S1x128, .f32⟩ : BufTy).Contents (Elt F)),
    reshape main_v474 main_v475 rfl shapeCasts_S1x128_S128,
    unary main_arg28 main_v476 ((extractStridedSlice S1x128 ![2, 0] · slices_S4x128_S1x128_2_0) : (⟨S4x128, .f32⟩ : BufTy).Contents (Elt F) → (⟨S1x128, .f32⟩ : BufTy).Contents (Elt F)),
    reshape main_v476 main_v477 rfl shapeCasts_S1x128_S128,
    unary main_arg29 main_v478 ((extractStridedSlice S1x128 ![2, 0] · slices_S4x128_S1x128_2_0) : (⟨S4x128, .f32⟩ : BufTy).Contents (Elt F) → (⟨S1x128, .f32⟩ : BufTy).Contents (Elt F)),
    reshape main_v478 main_v479 rfl shapeCasts_S1x128_S128,
    unary main_v477 main_v480 (broadcastInDim S1x128 ![1] bcast_S128_S1x128_1 : (⟨S128, .f32⟩ : BufTy).Contents (Elt F) → (⟨S1x128, .f32⟩ : BufTy).Contents (Elt F)),
    unary main_v480 main_v481 (broadcastInDim S512x128 ![0, 1] bcast_S1x128_S512x128_0_1 : (⟨S1x128, .f32⟩ : BufTy).Contents (Elt F) → (⟨S512x128, .f32⟩ : BufTy).Contents (Elt F)),
    binary main_v471 main_v481 main_v482 (subf : (⟨S512x128, .f32⟩ : BufTy).Contents (Elt F) → (⟨S512x128, .f32⟩ : BufTy).Contents (Elt F) → (⟨S512x128, .f32⟩ : BufTy).Contents (Elt F)),
    nullary main_cst_38 (constant S_ .f32 0x3727C5AC#32),
    unary main_cst_38 main_v483 (broadcastInDim S128 ![] bcast_S_S128 : (⟨S_, .f32⟩ : BufTy).Contents (Elt F) → (⟨S128, .f32⟩ : BufTy).Contents (Elt F)),
    binary main_v479 main_v483 main_v484 (addf : (⟨S128, .f32⟩ : BufTy).Contents (Elt F) → (⟨S128, .f32⟩ : BufTy).Contents (Elt F) → (⟨S128, .f32⟩ : BufTy).Contents (Elt F)),
    unary main_v484 main_v485 (Host.rsqrt : (⟨S128, .f32⟩ : BufTy).Contents (Elt F) → (⟨S128, .f32⟩ : BufTy).Contents (Elt F)),
    unary main_v485 main_v486 (broadcastInDim S1x128 ![1] bcast_S128_S1x128_1 : (⟨S128, .f32⟩ : BufTy).Contents (Elt F) → (⟨S1x128, .f32⟩ : BufTy).Contents (Elt F)),
    unary main_v486 main_v487 (broadcastInDim S512x128 ![0, 1] bcast_S1x128_S512x128_0_1 : (⟨S1x128, .f32⟩ : BufTy).Contents (Elt F) → (⟨S512x128, .f32⟩ : BufTy).Contents (Elt F)),
    binary main_v482 main_v487 main_v488 (mulf : (⟨S512x128, .f32⟩ : BufTy).Contents (Elt F) → (⟨S512x128, .f32⟩ : BufTy).Contents (Elt F) → (⟨S512x128, .f32⟩ : BufTy).Contents (Elt F)),
    unary main_v473 main_v489 (broadcastInDim S1x128 ![1] bcast_S128_S1x128_1 : (⟨S128, .f32⟩ : BufTy).Contents (Elt F) → (⟨S1x128, .f32⟩ : BufTy).Contents (Elt F)),
    unary main_v489 main_v490 (broadcastInDim S512x128 ![0, 1] bcast_S1x128_S512x128_0_1 : (⟨S1x128, .f32⟩ : BufTy).Contents (Elt F) → (⟨S512x128, .f32⟩ : BufTy).Contents (Elt F)),
    binary main_v488 main_v490 main_v491 (mulf : (⟨S512x128, .f32⟩ : BufTy).Contents (Elt F) → (⟨S512x128, .f32⟩ : BufTy).Contents (Elt F) → (⟨S512x128, .f32⟩ : BufTy).Contents (Elt F)),
    unary main_v475 main_v492 (broadcastInDim S1x128 ![1] bcast_S128_S1x128_1 : (⟨S128, .f32⟩ : BufTy).Contents (Elt F) → (⟨S1x128, .f32⟩ : BufTy).Contents (Elt F)),
    unary main_v492 main_v493 (broadcastInDim S512x128 ![0, 1] bcast_S1x128_S512x128_0_1 : (⟨S1x128, .f32⟩ : BufTy).Contents (Elt F) → (⟨S512x128, .f32⟩ : BufTy).Contents (Elt F)),
    binary main_v491 main_v493 main_v494 (addf : (⟨S512x128, .f32⟩ : BufTy).Contents (Elt F) → (⟨S512x128, .f32⟩ : BufTy).Contents (Elt F) → (⟨S512x128, .f32⟩ : BufTy).Contents (Elt F)),
    TRef.nullary (TRef.of (T := ⟨S_, .f32⟩) main_call11_cst) (constant S_ .f32 0x00000000#32),
    TRef.unary (TRef.of (T := ⟨S_, .f32⟩) main_call11_cst) (TRef.of (T := ⟨S512x128, .f32⟩) main_call11_v0) (broadcastInDim S512x128 ![] bcast_S_S512x128),
    TRef.binary (TRef.of (T := ⟨S512x128, .f32⟩) main_v494) (TRef.of (T := ⟨S512x128, .f32⟩) main_call11_v0) (TRef.of (T := ⟨S512x128, .f32⟩) main_v495) maximumf ]

/-- The window: operations 486 … 560. -/
abbrev wTable2 : List (HloOp τ sig (Elt Ideal)) := ops486_500 (F := Ideal) ++ ops500_561 (F := Ideal)

/-- The buffers the window's operations write, in order. -/
def wrTable2 : List (Ref sig .tc) :=
  [ main_cst_36, main_v428, main_v429, main_v430, main_v431, main_v432, main_v433, main_v434, main_v435, main_v436,
    main_v437, main_v438, main_v439, main_v440, main_v441, main_v442, main_v443, main_v444, main_v445, main_v446,
    main_v447, main_v448, main_v449, main_v450, main_cst_37, main_v451, main_v452, main_v453, main_v454, main_v455,
    main_v456, main_v457, main_v458, main_v459, main_v460, main_v461, main_v462, main_call10_cst, main_call10_v0, main_v463,
    main_v464, main_v465, main_v466, main_v467, main_v468, main_v469, main_v470, main_v471, main_v472, main_v473,
    main_v474, main_v475, main_v476, main_v477, main_v478, main_v479, main_v480, main_v481, main_v482, main_cst_38,
    main_v483, main_v484, main_v485, main_v486, main_v487, main_v488, main_v489, main_v490, main_v491, main_v492,
    main_v493, main_v494, main_call11_cst, main_call11_v0, main_v495 ]

/-- Operation by operation, the one buffer each writes. -/
theorem coversTable2 : Cert.SSA.Covers wTable2 wrTable2 := by
  unfold Cert.SSA.Covers
  dsimp only [wTable2, ops486_500, ops500_561, List.cons_append, List.nil_append, wrTable2]
  repeat (first | exact List.Forall₂.nil | refine List.Forall₂.cons (Finset.Subset.refl _) ?_)

/-- Every buffer the window names is a buffer of the core. -/
theorem subTable2 : ∀ op ∈ wTable2, op.bufs ⊆ tcRefs τ sig := by
  dsimp only [wTable2, ops486_500, ops500_561, List.cons_append, List.nil_append]
  exact List.forall_iff_forall_mem.1
    ⟨nullary_bufs_sub .., unary_bufs_sub .., unary_bufs_sub .., ternary_bufs_sub .., binary_bufs_sub .., unary_bufs_sub ..,
     reshape_bufs_sub .., binary_bufs_sub .., unary_bufs_sub .., reshape_bufs_sub .., unary_bufs_sub .., unary_bufs_sub ..,
     binary_bufs_sub .., unary_bufs_sub .., reshape_bufs_sub .., unary_bufs_sub .., reshape_bufs_sub .., unary_bufs_sub ..,
     reshape_bufs_sub .., unary_bufs_sub .., reshape_bufs_sub .., unary_bufs_sub .., unary_bufs_sub .., binary_bufs_sub ..,
     nullary_bufs_sub .., unary_bufs_sub .., binary_bufs_sub .., unary_bufs_sub .., unary_bufs_sub .., unary_bufs_sub ..,
     binary_bufs_sub .., unary_bufs_sub .., unary_bufs_sub .., binary_bufs_sub .., unary_bufs_sub .., unary_bufs_sub ..,
     binary_bufs_sub .., nullary_bufs_sub .., unary_bufs_sub .., binary_bufs_sub .., unary_bufs_sub .., reshape_bufs_sub ..,
     binary_bufs_sub .., unary_bufs_sub .., reshape_bufs_sub .., unary_bufs_sub .., unary_bufs_sub .., binary_bufs_sub ..,
     unary_bufs_sub .., reshape_bufs_sub .., unary_bufs_sub .., reshape_bufs_sub .., unary_bufs_sub .., reshape_bufs_sub ..,
     unary_bufs_sub .., reshape_bufs_sub .., unary_bufs_sub .., unary_bufs_sub .., binary_bufs_sub .., nullary_bufs_sub ..,
     unary_bufs_sub .., binary_bufs_sub .., unary_bufs_sub .., unary_bufs_sub .., unary_bufs_sub .., binary_bufs_sub ..,
     unary_bufs_sub .., unary_bufs_sub .., binary_bufs_sub .., unary_bufs_sub .., unary_bufs_sub .., binary_bufs_sub ..,
     nullary_bufs_sub .., unary_bufs_sub .., binary_bufs_sub ..⟩

/-- Every operation of the window determines its results. -/
theorem freshTable2 : ∀ op ∈ wTable2, op.fresh = ∅ := by
  dsimp only [wTable2, ops486_500, ops500_561, List.cons_append, List.nil_append]
  intro op h
  repeat (cases h with | head => rfl | tail _ h => ?_)
  exact nomatch h

set_option maxHeartbeats 4000000 in
/-- What the window leaves in its result buffer. -/
theorem valueTable2 [Cert.ReferenceIdeal.Facts] (V : Valuation τ sig (Elt Ideal)) :
    (after wTable2 V (Proc.devRef .tc main_v495) : FVec Ideal S512x128 .f32)
      = tableMap (argsV V) 2 (vtOf dims layout (V (Proc.devRef .tc main_v342)) (V (Proc.devRef .tc main_v334)) (argsV V).batch) := by
  dsimp only [wTable2, ops486_500, ops500_561, List.cons_append, List.nil_append]
  after_results_simp
  refine Eq.trans ?_ (table_host (argsV V) (tableLayout 2) dot_S512x128_S128x256_S512x256_1_0_0_1_n_n dot_S512x256_S256x128_S512x128_1_0_0_1_n_n rfl rfl _)
  rfl

end Cert.ReferenceIdeal.RefValue

end
-- ==== Proof.RefHin3.lean ====
/-
  Layer 3's node array with the graphs' rows added, in the reference program: operations 561 … 570.

  From the previous layer's node array, the renewed table and the nodes' graph numbers, the window gathers each node's
  graph's row and adds it. Read from arbitrary contents of the buffers, its result buffer holds that function of what
  the buffers it reads held; it writes none of the buffers it reads.
-/
import proofs.«116444_j64183991272049_2_alg».proof.Proof.RefBase

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx Cert.LibNormLayer Cert.LibSliceRead Cert.Net

variable {F : FTy → Type} [FloatOps F]

/-- Operations 561 … 563 of the program's 847, in order. -/
abbrev ops561_564 : List (HloOp τ sig (Elt F)) :=
  [ nullary main_c_39 (constantI S_ 32 0#32),
    unary main_c_39 main_v496 (broadcastInDim S100000 ![] bcast_S_S100000 : (⟨S_, .i32⟩ : BufTy).Contents (Elt F) → (⟨S100000, .i32⟩ : BufTy).Contents (Elt F)),
    binary main_arg2 main_v496 main_v497 (cmpi .slt : (⟨S100000, .i32⟩ : BufTy).Contents (Elt F) → (⟨S100000, .i32⟩ : BufTy).Contents (Elt F) → (⟨S100000, .i1⟩ : BufTy).Contents (Elt F)) ]

/-- Operations 564 … 570 of the program's 847, in order. -/
abbrev ops564_571 : List (HloOp τ sig (Elt F)) :=
  [ nullary main_c_40 (constantI S_ 32 512#32),
    unary main_c_40 main_v498 (broadcastInDim S100000 ![] bcast_S_S100000 : (⟨S_, .i32⟩ : BufTy).Contents (Elt F) → (⟨S100000, .i32⟩ : BufTy).Contents (Elt F)),
    binary main_arg2 main_v498 main_v499 (addi : (⟨S100000, .i32⟩ : BufTy).Contents (Elt F) → (⟨S100000, .i32⟩ : BufTy).Contents (Elt F) → (⟨S100000, .i32⟩ : BufTy).Contents (Elt F)),
    ternary main_v497 main_v499 main_arg2 main_v500 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v500 main_v501 (broadcastInDim S100000x1 ![0] bcast_S100000_S100000x1_0 : (⟨S100000, .i32⟩ : BufTy).Contents (Elt F) → (⟨S100000x1, .i32⟩ : BufTy).Contents (Elt F)),
    binary main_v495 main_v501 main_v502 ((fun x i => Host.gather gather_S512x128_S100000x1_S100000x128_1_0_n_n_0_1_1128 x i) : (⟨S512x128, .f32⟩ : BufTy).Contents (Elt F) → (⟨S100000x1, .i32⟩ : BufTy).Contents (Elt F) → (⟨S100000x128, .f32⟩ : BufTy).Contents (Elt F)),
    binary main_v427 main_v502 main_v503 (addf : (⟨S100000x128, .f32⟩ : BufTy).Contents (Elt F) → (⟨S100000x128, .f32⟩ : BufTy).Contents (Elt F) → (⟨S100000x128, .f32⟩ : BufTy).Contents (Elt F)) ]

/-- The window: operations 561 … 570. -/
abbrev wHin3 : List (HloOp τ sig (Elt Ideal)) := ops561_564 (F := Ideal) ++ ops564_571 (F := Ideal)

/-- The buffers the window's operations write, in order. -/
def wrHin3 : List (Ref sig .tc) :=
  [ main_c_39, main_v496, main_v497, main_c_40, main_v498, main_v499, main_v500, main_v501, main_v502, main_v503 ]

/-- Operation by operation, the one buffer each writes. -/
theorem coversHin3 : Cert.SSA.Covers wHin3 wrHin3 := by
  unfold Cert.SSA.Covers
  dsimp only [wHin3, ops561_564, ops564_571, List.cons_append, List.nil_append, wrHin3]
  repeat (first | exact List.Forall₂.nil | refine List.Forall₂.cons (Finset.Subset.refl _) ?_)

/-- Every buffer the window names is a buffer of the core. -/
theorem subHin3 : ∀ op ∈ wHin3, op.bufs ⊆ tcRefs τ sig := by
  dsimp only [wHin3, ops561_564, ops564_571, List.cons_append, List.nil_append]
  exact List.forall_iff_forall_mem.1
    ⟨nullary_bufs_sub .., unary_bufs_sub .., binary_bufs_sub .., nullary_bufs_sub .., unary_bufs_sub .., binary_bufs_sub ..,
     ternary_bufs_sub .., unary_bufs_sub .., binary_bufs_sub .., binary_bufs_sub ..⟩

/-- Every operation of the window determines its results. -/
theorem freshHin3 : ∀ op ∈ wHin3, op.fresh = ∅ := by
  dsimp only [wHin3, ops561_564, ops564_571, List.cons_append, List.nil_append]
  intro op h
  repeat (cases h with | head => rfl | tail _ h => ?_)
  exact nomatch h

/-- What the window leaves in its result buffer. -/
theorem valueHin3 [Cert.ReferenceIdeal.Facts] (V : Valuation τ sig (Elt Ideal)) :
    (after wHin3 V (Proc.devRef .tc main_v503) : FVec Ideal S100000x128 .f32)
      = hinOf dims layout (V (Proc.devRef .tc main_v427)) (V (Proc.devRef .tc main_v495)) (argsV V).batch := by
  dsimp only [wHin3, ops561_564, ops564_571, List.cons_append, List.nil_append]
  after_results_simp
  rfl

end Cert.ReferenceIdeal.RefValue

end
-- ==== Proof.RefConv3.lean ====
/-
  Layer 3's map of the node array, in the reference program: operations 571 … 667.

  From the layer's node array with the graphs' rows added (hin), the edges' start and end nodes and the arguments, the
  window computes z = (1 + ε) · hin plus the sums of hin's rows along the edges, and the two-layer normalised map of z, then the maximum with zero. Read from arbitrary contents of the buffers, its result buffer holds that function of what the
  buffers it reads held; it writes none of the buffers it reads.
-/
import proofs.«116444_j64183991272049_2_alg».proof.Proof.RefBase

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx Cert.LibNormLayer Cert.LibSliceRead Cert.Net

variable {F : FTy → Type} [FloatOps F]

/-- Operations 571 … 623 of the program's 847, in order. -/
abbrev ops571_624 : List (HloOp τ sig (Elt F)) :=
  [ nullary main_cst_41 (constant S_ .f32 0x00000000#32),
    unary main_cst_41 main_v504 (broadcastInDim S100000x128 ![] bcast_S_S100000x128 : (⟨S_, .f32⟩ : BufTy).Contents (Elt F) → (⟨S100000x128, .f32⟩ : BufTy).Contents (Elt F)),
    nullary main_c_42 (constantI S_ 32 0#32),
    unary main_c_42 main_v505 (broadcastInDim S600000 ![] bcast_S_S600000 : (⟨S_, .i32⟩ : BufTy).Contents (Elt F) → (⟨S600000, .i32⟩ : BufTy).Contents (Elt F)),
    binary main_v1 main_v505 main_v506 (cmpi .slt : (⟨S600000, .i32⟩ : BufTy).Contents (Elt F) → (⟨S600000, .i32⟩ : BufTy).Contents (Elt F) → (⟨S600000, .i1⟩ : BufTy).Contents (Elt F)),
    nullary main_c_43 (constantI S_ 32 100000#32),
    unary main_c_43 main_v507 (broadcastInDim S600000 ![] bcast_S_S600000 : (⟨S_, .i32⟩ : BufTy).Contents (Elt F) → (⟨S600000, .i32⟩ : BufTy).Contents (Elt F)),
    binary main_v1 main_v507 main_v508 (addi : (⟨S600000, .i32⟩ : BufTy).Contents (Elt F) → (⟨S600000, .i32⟩ : BufTy).Contents (Elt F) → (⟨S600000, .i32⟩ : BufTy).Contents (Elt F)),
    ternary main_v506 main_v508 main_v1 main_v509 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v509 main_v510 (broadcastInDim S600000x1 ![0] bcast_S600000_S600000x1_0 : (⟨S600000, .i32⟩ : BufTy).Contents (Elt F) → (⟨S600000x1, .i32⟩ : BufTy).Contents (Elt F)),
    binary main_v503 main_v510 main_v511 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    nullary main_c_44 (constantI S_ 32 0#32),
    unary main_c_44 main_v512 (broadcastInDim S600000 ![] bcast_S_S600000 : (⟨S_, .i32⟩ : BufTy).Contents (Elt F) → (⟨S600000, .i32⟩ : BufTy).Contents (Elt F)),
    binary main_v3 main_v512 main_v513 (cmpi .slt : (⟨S600000, .i32⟩ : BufTy).Contents (Elt F) → (⟨S600000, .i32⟩ : BufTy).Contents (Elt F) → (⟨S600000, .i1⟩ : BufTy).Contents (Elt F)),
    nullary main_c_45 (constantI S_ 32 100000#32),
    unary main_c_45 main_v514 (broadcastInDim S600000 ![] bcast_S_S600000 : (⟨S_, .i32⟩ : BufTy).Contents (Elt F) → (⟨S600000, .i32⟩ : BufTy).Contents (Elt F)),
    binary main_v3 main_v514 main_v515 (addi : (⟨S600000, .i32⟩ : BufTy).Contents (Elt F) → (⟨S600000, .i32⟩ : BufTy).Contents (Elt F) → (⟨S600000, .i32⟩ : BufTy).Contents (Elt F)),
    ternary main_v513 main_v515 main_v3 main_v516 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v516 main_v517 (broadcastInDim S600000x1 ![0] bcast_S600000_S600000x1_0 : (⟨S600000, .i32⟩ : BufTy).Contents (Elt F) → (⟨S600000x1, .i32⟩ : BufTy).Contents (Elt F)),
    ternary main_v504 main_v517 main_v511 main_v518 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    unary main_arg5 main_v519 ((extractStridedSlice S1 ![3] · slices_S5_S1_3) : (⟨S5, .f32⟩ : BufTy).Contents (Elt F) → (⟨S1, .f32⟩ : BufTy).Contents (Elt F)),
    reshape main_v519 main_v520 rfl shapeCasts_S1_S_,
    nullary main_cst_46 (constant S_ .f32 0x3F800000#32),
    binary main_cst_46 main_v520 main_v521 (addf : (⟨S_, .f32⟩ : BufTy).Contents (Elt F) → (⟨S_, .f32⟩ : BufTy).Contents (Elt F) → (⟨S_, .f32⟩ : BufTy).Contents (Elt F)),
    unary main_v521 main_v522 (broadcastInDim S100000x128 ![] bcast_S_S100000x128 : (⟨S_, .f32⟩ : BufTy).Contents (Elt F) → (⟨S100000x128, .f32⟩ : BufTy).Contents (Elt F)),
    binary main_v522 main_v503 main_v523 (mulf : (⟨S100000x128, .f32⟩ : BufTy).Contents (Elt F) → (⟨S100000x128, .f32⟩ : BufTy).Contents (Elt F) → (⟨S100000x128, .f32⟩ : BufTy).Contents (Elt F)),
    binary main_v523 main_v518 main_v524 (addf : (⟨S100000x128, .f32⟩ : BufTy).Contents (Elt F) → (⟨S100000x128, .f32⟩ : BufTy).Contents (Elt F) → (⟨S100000x128, .f32⟩ : BufTy).Contents (Elt F)),
    unary main_arg6 main_v525 ((extractStridedSlice S1x128x256 ![3, 0, 0] · slices_S5x128x256_S1x128x256_3_0_0) : (⟨S5x128x256, .f32⟩ : BufTy).Contents (Elt F) → (⟨S1x128x256, .f32⟩ : BufTy).Contents (Elt F)),
    reshape main_v525 main_v526 rfl shapeCasts_S1x128x256_S128x256,
    binary main_v524 main_v526 main_v527 ((fun l r => Host.dotGeneral dot_S100000x128_S128x256_S100000x256_1_0_0_1_n_n none l r) : (⟨S100000x128, .f32⟩ : BufTy).Contents (Elt F) → (⟨S128x256, .f32⟩ : BufTy).Contents (Elt F) → (⟨S100000x256, .f32⟩ : BufTy).Contents (Elt F)),
    unary main_arg7 main_v528 ((extractStridedSlice S1x256 ![3, 0] · slices_S5x256_S1x256_3_0) : (⟨S5x256, .f32⟩ : BufTy).Contents (Elt F) → (⟨S1x256, .f32⟩ : BufTy).Contents (Elt F)),
    reshape main_v528 main_v529 rfl shapeCasts_S1x256_S256,
    unary main_v529 main_v530 (broadcastInDim S1x256 ![1] bcast_S256_S1x256_1 : (⟨S256, .f32⟩ : BufTy).Contents (Elt F) → (⟨S1x256, .f32⟩ : BufTy).Contents (Elt F)),
    unary main_v530 main_v531 (broadcastInDim S100000x256 ![0, 1] bcast_S1x256_S100000x256_0_1 : (⟨S1x256, .f32⟩ : BufTy).Contents (Elt F) → (⟨S100000x256, .f32⟩ : BufTy).Contents (Elt F)),
    binary main_v527 main_v531 main_v532 (addf : (⟨S100000x256, .f32⟩ : BufTy).Contents (Elt F) → (⟨S100000x256, .f32⟩ : BufTy).Contents (Elt F) → (⟨S100000x256, .f32⟩ : BufTy).Contents (Elt F)),
    unary main_arg8 main_v533 ((extractStridedSlice S1x256 ![3, 0] · slices_S5x256_S1x256_3_0) : (⟨S5x256, .f32⟩ : BufTy).Contents (Elt F) → (⟨S1x256, .f32⟩ : BufTy).Contents (Elt F)),
    reshape main_v533 main_v534 rfl shapeCasts_S1x256_S256,
    unary main_arg9 main_v535 ((extractStridedSlice S1x256 ![3, 0] · slices_S5x256_S1x256_3_0) : (⟨S5x256, .f32⟩ : BufTy).Contents (Elt F) → (⟨S1x256, .f32⟩ : BufTy).Contents (Elt F)),
    reshape main_v535 main_v536 rfl shapeCasts_S1x256_S256,
    unary main_arg10 main_v537 ((extractStridedSlice S1x256 ![3, 0] · slices_S5x256_S1x256_3_0) : (⟨S5x256, .f32⟩ : BufTy).Contents (Elt F) → (⟨S1x256, .f32⟩ : BufTy).Contents (Elt F)),
    reshape main_v537 main_v538 rfl shapeCasts_S1x256_S256,
    unary main_arg11 main_v539 ((extractStridedSlice S1x256 ![3, 0] · slices_S5x256_S1x256_3_0) : (⟨S5x256, .f32⟩ : BufTy).Contents (Elt F) → (⟨S1x256, .f32⟩ : BufTy).Contents (Elt F)),
    reshape main_v539 main_v540 rfl shapeCasts_S1x256_S256,
    unary main_v538 main_v541 (broadcastInDim S1x256 ![1] bcast_S256_S1x256_1 : (⟨S256, .f32⟩ : BufTy).Contents (Elt F) → (⟨S1x256, .f32⟩ : BufTy).Contents (Elt F)),
    unary main_v541 main_v542 (broadcastInDim S100000x256 ![0, 1] bcast_S1x256_S100000x256_0_1 : (⟨S1x256, .f32⟩ : BufTy).Contents (Elt F) → (⟨S100000x256, .f32⟩ : BufTy).Contents (Elt F)),
    binary main_v532 main_v542 main_v543 (subf : (⟨S100000x256, .f32⟩ : BufTy).Contents (Elt F) → (⟨S100000x256, .f32⟩ : BufTy).Contents (Elt F) → (⟨S100000x256, .f32⟩ : BufTy).Contents (Elt F)),
    nullary main_cst_47 (constant S_ .f32 0x3727C5AC#32),
    unary main_cst_47 main_v544 (broadcastInDim S256 ![] bcast_S_S256 : (⟨S_, .f32⟩ : BufTy).Contents (Elt F) → (⟨S256, .f32⟩ : BufTy).Contents (Elt F)),
    binary main_v540 main_v544 main_v545 (addf : (⟨S256, .f32⟩ : BufTy).Contents (Elt F) → (⟨S256, .f32⟩ : BufTy).Contents (Elt F) → (⟨S256, .f32⟩ : BufTy).Contents (Elt F)),
    unary main_v545 main_v546 (Host.rsqrt : (⟨S256, .f32⟩ : BufTy).Contents (Elt F) → (⟨S256, .f32⟩ : BufTy).Contents (Elt F)),
    unary main_v546 main_v547 (broadcastInDim S1x256 ![1] bcast_S256_S1x256_1 : (⟨S256, .f32⟩ : BufTy).Contents (Elt F) → (⟨S1x256, .f32⟩ : BufTy).Contents (Elt F)),
    unary main_v547 main_v548 (broadcastInDim S100000x256 ![0, 1] bcast_S1x256_S100000x256_0_1 : (⟨S1x256, .f32⟩ : BufTy).Contents (Elt F) → (⟨S100000x256, .f32⟩ : BufTy).Contents (Elt F)),
    binary main_v543 main_v548 main_v549 (mulf : (⟨S100000x256, .f32⟩ : BufTy).Contents (Elt F) → (⟨S100000x256, .f32⟩ : BufTy).Contents (Elt F) → (⟨S100000x256, .f32⟩ : BufTy).Contents (Elt F)) ]

/-- Operations 624 … 667 of the program's 847, in order. -/
abbrev ops624_668 : List (HloOp τ sig (Elt F)) :=
  [ unary main_v534 main_v550 (broadcastInDim S1x256 ![1] bcast_S256_S1x256_1 : (⟨S256, .f32⟩ : BufTy).Contents (Elt F) → (⟨S1x256, .f32⟩ : BufTy).Contents (Elt F)),
    unary main_v550 main_v551 (broadcastInDim S100000x256 ![0, 1] bcast_S1x256_S100000x256_0_1 : (⟨S1x256, .f32⟩ : BufTy).Contents (Elt F) → (⟨S100000x256, .f32⟩ : BufTy).Contents (Elt F)),
    binary main_v549 main_v551 main_v552 (mulf : (⟨S100000x256, .f32⟩ : BufTy).Contents (Elt F) → (⟨S100000x256, .f32⟩ : BufTy).Contents (Elt F) → (⟨S100000x256, .f32⟩ : BufTy).Contents (Elt F)),
    unary main_v536 main_v553 (broadcastInDim S1x256 ![1] bcast_S256_S1x256_1 : (⟨S256, .f32⟩ : BufTy).Contents (Elt F) → (⟨S1x256, .f32⟩ : BufTy).Contents (Elt F)),
    unary main_v553 main_v554 (broadcastInDim S100000x256 ![0, 1] bcast_S1x256_S100000x256_0_1 : (⟨S1x256, .f32⟩ : BufTy).Contents (Elt F) → (⟨S100000x256, .f32⟩ : BufTy).Contents (Elt F)),
    binary main_v552 main_v554 main_v555 (addf : (⟨S100000x256, .f32⟩ : BufTy).Contents (Elt F) → (⟨S100000x256, .f32⟩ : BufTy).Contents (Elt F) → (⟨S100000x256, .f32⟩ : BufTy).Contents (Elt F)),
    TRef.nullary (TRef.of (T := ⟨S_, .f32⟩) main_call12_cst) (constant S_ .f32 0x00000000#32),
    TRef.unary (TRef.of (T := ⟨S_, .f32⟩) main_call12_cst) (TRef.of (T := ⟨S100000x256, .f32⟩) main_call12_v0) (broadcastInDim S100000x256 ![] bcast_S_S100000x256),
    TRef.binary (TRef.of (T := ⟨S100000x256, .f32⟩) main_v555) (TRef.of (T := ⟨S100000x256, .f32⟩) main_call12_v0) (TRef.of (T := ⟨S100000x256, .f32⟩) main_v556) maximumf,
    unary main_arg12 main_v557 ((extractStridedSlice S1x256x128 ![3, 0, 0] · slices_S5x256x128_S1x256x128_3_0_0) : (⟨S5x256x128, .f32⟩ : BufTy).Contents (Elt F) → (⟨S1x256x128, .f32⟩ : BufTy).Contents (Elt F)),
    reshape main_v557 main_v558 rfl shapeCasts_S1x256x128_S256x128,
    binary main_v556 main_v558 main_v559 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    unary main_arg13 main_v560 ((extractStridedSlice S1x128 ![3, 0] · slices_S5x128_S1x128_3_0) : (⟨S5x128, .f32⟩ : BufTy).Contents (Elt F) → (⟨S1x128, .f32⟩ : BufTy).Contents (Elt F)),
    reshape main_v560 main_v561 rfl shapeCasts_S1x128_S128,
    unary main_v561 main_v562 (broadcastInDim S1x128 ![1] bcast_S128_S1x128_1 : (⟨S128, .f32⟩ : BufTy).Contents (Elt F) → (⟨S1x128, .f32⟩ : BufTy).Contents (Elt F)),
    unary main_v562 main_v563 (broadcastInDim S100000x128 ![0, 1] bcast_S1x128_S100000x128_0_1 : (⟨S1x128, .f32⟩ : BufTy).Contents (Elt F) → (⟨S100000x128, .f32⟩ : BufTy).Contents (Elt F)),
    binary main_v559 main_v563 main_v564 (addf : (⟨S100000x128, .f32⟩ : BufTy).Contents (Elt F) → (⟨S100000x128, .f32⟩ : BufTy).Contents (Elt F) → (⟨S100000x128, .f32⟩ : BufTy).Contents (Elt F)),
    unary main_arg14 main_v565 ((extractStridedSlice S1x128 ![3, 0] · slices_S5x128_S1x128_3_0) : (⟨S5x128, .f32⟩ : BufTy).Contents (Elt F) → (⟨S1x128, .f32⟩ : BufTy).Contents (Elt F)),
    reshape main_v565 main_v566 rfl shapeCasts_S1x128_S128,
    unary main_arg15 main_v567 ((extractStridedSlice S1x128 ![3, 0] · slices_S5x128_S1x128_3_0) : (⟨S5x128, .f32⟩ : BufTy).Contents (Elt F) → (⟨S1x128, .f32⟩ : BufTy).Contents (Elt F)),
    reshape main_v567 main_v568 rfl shapeCasts_S1x128_S128,
    unary main_arg16 main_v569 ((extractStridedSlice S1x128 ![3, 0] · slices_S5x128_S1x128_3_0) : (⟨S5x128, .f32⟩ : BufTy).Contents (Elt F) → (⟨S1x128, .f32⟩ : BufTy).Contents (Elt F)),
    reshape main_v569 main_v570 rfl shapeCasts_S1x128_S128,
    unary main_arg17 main_v571 ((extractStridedSlice S1x128 ![3, 0] · slices_S5x128_S1x128_3_0) : (⟨S5x128, .f32⟩ : BufTy).Contents (Elt F) → (⟨S1x128, .f32⟩ : BufTy).Contents (Elt F)),
    reshape main_v571 main_v572 rfl shapeCasts_S1x128_S128,
    unary main_v570 main_v573 (broadcastInDim S1x128 ![1] bcast_S128_S1x128_1 : (⟨S128, .f32⟩ : BufTy).Contents (Elt F) → (⟨S1x128, .f32⟩ : BufTy).Contents (Elt F)),
    unary main_v573 main_v574 (broadcastInDim S100000x128 ![0, 1] bcast_S1x128_S100000x128_0_1 : (⟨S1x128, .f32⟩ : BufTy).Contents (Elt F) → (⟨S100000x128, .f32⟩ : BufTy).Contents (Elt F)),
    binary main_v564 main_v574 main_v575 (subf : (⟨S100000x128, .f32⟩ : BufTy).Contents (Elt F) → (⟨S100000x128, .f32⟩ : BufTy).Contents (Elt F) → (⟨S100000x128, .f32⟩ : BufTy).Contents (Elt F)),
    nullary main_cst_48 (constant S_ .f32 0x3727C5AC#32),
    unary main_cst_48 main_v576 (broadcastInDim S128 ![] bcast_S_S128 : (⟨S_, .f32⟩ : BufTy).Contents (Elt F) → (⟨S128, .f32⟩ : BufTy).Contents (Elt F)),
    binary main_v572 main_v576 main_v577 (addf : (⟨S128, .f32⟩ : BufTy).Contents (Elt F) → (⟨S128, .f32⟩ : BufTy).Contents (Elt F) → (⟨S128, .f32⟩ : BufTy).Contents (Elt F)),
    unary main_v577 main_v578 (Host.rsqrt : (⟨S128, .f32⟩ : BufTy).Contents (Elt F) → (⟨S128, .f32⟩ : BufTy).Contents (Elt F)),
    unary main_v578 main_v579 (broadcastInDim S1x128 ![1] bcast_S128_S1x128_1 : (⟨S128, .f32⟩ : BufTy).Contents (Elt F) → (⟨S1x128, .f32⟩ : BufTy).Contents (Elt F)),
    unary main_v579 main_v580 (broadcastInDim S100000x128 ![0, 1] bcast_S1x128_S100000x128_0_1 : (⟨S1x128, .f32⟩ : BufTy).Contents (Elt F) → (⟨S100000x128, .f32⟩ : BufTy).Contents (Elt F)),
    binary main_v575 main_v580 main_v581 (mulf : (⟨S100000x128, .f32⟩ : BufTy).Contents (Elt F) → (⟨S100000x128, .f32⟩ : BufTy).Contents (Elt F) → (⟨S100000x128, .f32⟩ : BufTy).Contents (Elt F)),
    unary main_v566 main_v582 (broadcastInDim S1x128 ![1] bcast_S128_S1x128_1 : (⟨S128, .f32⟩ : BufTy).Contents (Elt F) → (⟨S1x128, .f32⟩ : BufTy).Contents (Elt F)),
    unary main_v582 main_v583 (broadcastInDim S100000x128 ![0, 1] bcast_S1x128_S100000x128_0_1 : (⟨S1x128, .f32⟩ : BufTy).Contents (Elt F) → (⟨S100000x128, .f32⟩ : BufTy).Contents (Elt F)),
    binary main_v581 main_v583 main_v584 (mulf : (⟨S100000x128, .f32⟩ : BufTy).Contents (Elt F) → (⟨S100000x128, .f32⟩ : BufTy).Contents (Elt F) → (⟨S100000x128, .f32⟩ : BufTy).Contents (Elt F)),
    unary main_v568 main_v585 (broadcastInDim S1x128 ![1] bcast_S128_S1x128_1 : (⟨S128, .f32⟩ : BufTy).Contents (Elt F) → (⟨S1x128, .f32⟩ : BufTy).Contents (Elt F)),
    unary main_v585 main_v586 (broadcastInDim S100000x128 ![0, 1] bcast_S1x128_S100000x128_0_1 : (⟨S1x128, .f32⟩ : BufTy).Contents (Elt F) → (⟨S100000x128, .f32⟩ : BufTy).Contents (Elt F)),
    binary main_v584 main_v586 main_v587 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call13_cst) (constant S_ .f32 0x00000000#32),
    TRef.unary (TRef.of (T := ⟨S_, .f32⟩) main_call13_cst) (TRef.of (T := ⟨S100000x128, .f32⟩) main_call13_v0) (broadcastInDim S100000x128 ![] bcast_S_S100000x128),
    TRef.binary (TRef.of (T := ⟨S100000x128, .f32⟩) main_v587) (TRef.of (T := ⟨S100000x128, .f32⟩) main_call13_v0) (TRef.of (T := ⟨S100000x128, .f32⟩) main_v588) maximumf ]

/-- The window: operations 571 … 667. -/
abbrev wConv3 : List (HloOp τ sig (Elt Ideal)) := ops571_624 (F := Ideal) ++ ops624_668 (F := Ideal)

/-- The buffers the window's operations write, in order. -/
def wrConv3 : List (Ref sig .tc) :=
  [ main_cst_41, main_v504, main_c_42, main_v505, main_v506, main_c_43, main_v507, main_v508, main_v509, main_v510,
    main_v511, main_c_44, main_v512, main_v513, main_c_45, main_v514, main_v515, main_v516, main_v517, main_v518,
    main_v519, main_v520, main_cst_46, main_v521, main_v522, main_v523, main_v524, main_v525, main_v526, main_v527,
    main_v528, main_v529, main_v530, main_v531, main_v532, main_v533, main_v534, main_v535, main_v536, main_v537,
    main_v538, main_v539, main_v540, main_v541, main_v542, main_v543, main_cst_47, main_v544, main_v545, main_v546,
    main_v547, main_v548, main_v549, main_v550, main_v551, main_v552, main_v553, main_v554, main_v555, main_call12_cst,
    main_call12_v0, main_v556, main_v557, main_v558, main_v559, main_v560, main_v561, main_v562, main_v563, main_v564,
    main_v565, main_v566, main_v567, main_v568, main_v569, main_v570, main_v571, main_v572, main_v573, main_v574,
    main_v575, main_cst_48, main_v576, main_v577, main_v578, main_v579, main_v580, main_v581, main_v582, main_v583,
    main_v584, main_v585, main_v586, main_v587, main_call13_cst, main_call13_v0, main_v588 ]

/-- Operation by operation, the one buffer each writes. -/
theorem coversConv3 : Cert.SSA.Covers wConv3 wrConv3 := by
  unfold Cert.SSA.Covers
  dsimp only [wConv3, ops571_624, ops624_668, List.cons_append, List.nil_append, wrConv3]
  repeat (first | exact List.Forall₂.nil | refine List.Forall₂.cons (Finset.Subset.refl _) ?_)

/-- Every buffer the window names is a buffer of the core. -/
theorem subConv3 : ∀ op ∈ wConv3, op.bufs ⊆ tcRefs τ sig := by
  dsimp only [wConv3, ops571_624, ops624_668, List.cons_append, List.nil_append]
  exact List.forall_iff_forall_mem.1
    ⟨nullary_bufs_sub .., unary_bufs_sub .., nullary_bufs_sub .., unary_bufs_sub .., binary_bufs_sub .., nullary_bufs_sub ..,
     unary_bufs_sub .., binary_bufs_sub .., ternary_bufs_sub .., unary_bufs_sub .., binary_bufs_sub .., nullary_bufs_sub ..,
     unary_bufs_sub .., binary_bufs_sub .., nullary_bufs_sub .., unary_bufs_sub .., binary_bufs_sub .., ternary_bufs_sub ..,
     unary_bufs_sub .., ternary_bufs_sub .., unary_bufs_sub .., reshape_bufs_sub .., nullary_bufs_sub .., binary_bufs_sub ..,
     unary_bufs_sub .., binary_bufs_sub .., binary_bufs_sub .., unary_bufs_sub .., reshape_bufs_sub .., binary_bufs_sub ..,
     unary_bufs_sub .., reshape_bufs_sub .., unary_bufs_sub .., unary_bufs_sub .., binary_bufs_sub .., unary_bufs_sub ..,
     reshape_bufs_sub .., unary_bufs_sub .., reshape_bufs_sub .., unary_bufs_sub .., reshape_bufs_sub .., unary_bufs_sub ..,
     reshape_bufs_sub .., unary_bufs_sub .., unary_bufs_sub .., binary_bufs_sub .., nullary_bufs_sub .., unary_bufs_sub ..,
     binary_bufs_sub .., unary_bufs_sub .., unary_bufs_sub .., unary_bufs_sub .., binary_bufs_sub .., unary_bufs_sub ..,
     unary_bufs_sub .., binary_bufs_sub .., unary_bufs_sub .., unary_bufs_sub .., binary_bufs_sub .., nullary_bufs_sub ..,
     unary_bufs_sub .., binary_bufs_sub .., unary_bufs_sub .., reshape_bufs_sub .., binary_bufs_sub .., unary_bufs_sub ..,
     reshape_bufs_sub .., unary_bufs_sub .., unary_bufs_sub .., binary_bufs_sub .., unary_bufs_sub .., reshape_bufs_sub ..,
     unary_bufs_sub .., reshape_bufs_sub .., unary_bufs_sub .., reshape_bufs_sub .., unary_bufs_sub .., reshape_bufs_sub ..,
     unary_bufs_sub .., unary_bufs_sub .., binary_bufs_sub .., nullary_bufs_sub .., unary_bufs_sub .., binary_bufs_sub ..,
     unary_bufs_sub .., unary_bufs_sub .., unary_bufs_sub .., binary_bufs_sub .., unary_bufs_sub .., unary_bufs_sub ..,
     binary_bufs_sub .., unary_bufs_sub .., unary_bufs_sub .., binary_bufs_sub .., nullary_bufs_sub .., unary_bufs_sub ..,
     binary_bufs_sub ..⟩

/-- Every operation of the window determines its results. -/
theorem freshConv3 : ∀ op ∈ wConv3, op.fresh = ∅ := by
  dsimp only [wConv3, ops571_624, ops624_668, List.cons_append, List.nil_append]
  intro op h
  repeat (cases h with | head => rfl | tail _ h => ?_)
  exact nomatch h

set_option maxHeartbeats 4000000 in
/-- What the window leaves in its result buffer. -/
theorem valueConv3 [Cert.ReferenceIdeal.Facts] (V : Valuation τ sig (Elt Ideal)) :
    (after wConv3 V (Proc.devRef .tc main_v588) : FVec Ideal S100000x128 .f32)
      = ramp (convCore (argsV V) 3 (zOf dims layout (V (Proc.devRef .tc main_v503)) (V (Proc.devRef .tc main_v1)) (V (Proc.devRef .tc main_v3)) (scalarAt (argsV V).eps 3))) := by
  dsimp only [wConv3, ops571_624, ops624_668, List.cons_append, List.nil_append]
  after_results_simp
  refine Eq.trans ?_ (congrArg ramp (conv_host dims layout (argsV V) (convLayout 3) dot_S100000x128_S128x256_S100000x256_1_0_0_1_n_n dot_S100000x256_S256x128_S100000x128_1_0_0_1_n_n rfl rfl _ _ _))
  refine Eq.trans ?_ (host_ramp (convLayout 3).y2.hR _)
  rfl

end Cert.ReferenceIdeal.RefValue

end
-- ==== Proof.RefTable3.lean ====
/-
  Layer 3's renewal of the graph table, in the reference program: operations 668 … 742.

  From the layer's node array with the graphs' rows added (hin), the old table and the arguments, the window sums hin's
  rows per graph, adds the old table, and applies the two-layer normalised map with its last maximum with zero. Read
  from arbitrary contents of the buffers, its result buffer holds that function of what the buffers it reads held; it
  writes none of the buffers it reads.
-/
import proofs.«116444_j64183991272049_2_alg».proof.Proof.RefBase

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx Cert.LibNormLayer Cert.LibSliceRead Cert.Net

variable {F : FTy → Type} [FloatOps F]

/-- Operations 668 … 687 of the program's 847, in order. -/
abbrev ops668_688 : List (HloOp τ sig (Elt F)) :=
  [ nullary main_cst_49 (constant S_ .f32 0x00000000#32),
    unary main_cst_49 main_v589 (broadcastInDim S512x128 ![] bcast_S_S512x128 : (⟨S_, .f32⟩ : BufTy).Contents (Elt F) → (⟨S512x128, .f32⟩ : BufTy).Contents (Elt F)),
    unary main_arg2 main_v590 (broadcastInDim S100000x1 ![0] bcast_S100000_S100000x1_0 : (⟨S100000, .i32⟩ : BufTy).Contents (Elt F) → (⟨S100000x1, .i32⟩ : BufTy).Contents (Elt F)),
    ternary main_v589 main_v590 main_v503 main_v591 ((fun x i u => Host.scatterAdd scatter_S512x128_S100000x1_S100000x128_1_0_0_1 x i u) : (⟨S512x128, .f32⟩ : BufTy).Contents (Elt F) → (⟨S100000x1, .i32⟩ : BufTy).Contents (Elt F) → (⟨S100000x128, .f32⟩ : BufTy).Contents (Elt F) → (⟨S512x128, .f32⟩ : BufTy).Contents (Elt F)),
    binary main_v591 main_v495 main_v592 (addf : (⟨S512x128, .f32⟩ : BufTy).Contents (Elt F) → (⟨S512x128, .f32⟩ : BufTy).Contents (Elt F) → (⟨S512x128, .f32⟩ : BufTy).Contents (Elt F)),
    unary main_arg18 main_v593 ((extractStridedSlice S1x128x256 ![3, 0, 0] · slices_S4x128x256_S1x128x256_3_0_0) : (⟨S4x128x256, .f32⟩ : BufTy).Contents (Elt F) → (⟨S1x128x256, .f32⟩ : BufTy).Contents (Elt F)),
    reshape main_v593 main_v594 rfl shapeCasts_S1x128x256_S128x256,
    binary main_v592 main_v594 main_v595 ((fun l r => Host.dotGeneral dot_S512x128_S128x256_S512x256_1_0_0_1_n_n none l r) : (⟨S512x128, .f32⟩ : BufTy).Contents (Elt F) → (⟨S128x256, .f32⟩ : BufTy).Contents (Elt F) → (⟨S512x256, .f32⟩ : BufTy).Contents (Elt F)),
    unary main_arg19 main_v596 ((extractStridedSlice S1x256 ![3, 0] · slices_S4x256_S1x256_3_0) : (⟨S4x256, .f32⟩ : BufTy).Contents (Elt F) → (⟨S1x256, .f32⟩ : BufTy).Contents (Elt F)),
    reshape main_v596 main_v597 rfl shapeCasts_S1x256_S256,
    unary main_v597 main_v598 (broadcastInDim S1x256 ![1] bcast_S256_S1x256_1 : (⟨S256, .f32⟩ : BufTy).Contents (Elt F) → (⟨S1x256, .f32⟩ : BufTy).Contents (Elt F)),
    unary main_v598 main_v599 (broadcastInDim S512x256 ![0, 1] bcast_S1x256_S512x256_0_1 : (⟨S1x256, .f32⟩ : BufTy).Contents (Elt F) → (⟨S512x256, .f32⟩ : BufTy).Contents (Elt F)),
    binary main_v595 main_v599 main_v600 (addf : (⟨S512x256, .f32⟩ : BufTy).Contents (Elt F) → (⟨S512x256, .f32⟩ : BufTy).Contents (Elt F) → (⟨S512x256, .f32⟩ : BufTy).Contents (Elt F)),
    unary main_arg20 main_v601 ((extractStridedSlice S1x256 ![3, 0] · slices_S4x256_S1x256_3_0) : (⟨S4x256, .f32⟩ : BufTy).Contents (Elt F) → (⟨S1x256, .f32⟩ : BufTy).Contents (Elt F)),
    reshape main_v601 main_v602 rfl shapeCasts_S1x256_S256,
    unary main_arg21 main_v603 ((extractStridedSlice S1x256 ![3, 0] · slices_S4x256_S1x256_3_0) : (⟨S4x256, .f32⟩ : BufTy).Contents (Elt F) → (⟨S1x256, .f32⟩ : BufTy).Contents (Elt F)),
    reshape main_v603 main_v604 rfl shapeCasts_S1x256_S256,
    unary main_arg22 main_v605 ((extractStridedSlice S1x256 ![3, 0] · slices_S4x256_S1x256_3_0) : (⟨S4x256, .f32⟩ : BufTy).Contents (Elt F) → (⟨S1x256, .f32⟩ : BufTy).Contents (Elt F)),
    reshape main_v605 main_v606 rfl shapeCasts_S1x256_S256,
    unary main_arg23 main_v607 ((extractStridedSlice S1x256 ![3, 0] · slices_S4x256_S1x256_3_0) : (⟨S4x256, .f32⟩ : BufTy).Contents (Elt F) → (⟨S1x256, .f32⟩ : BufTy).Contents (Elt F)) ]

/-- Operations 688 … 742 of the program's 847, in order. -/
abbrev ops688_743 : List (HloOp τ sig (Elt F)) :=
  [ reshape main_v607 main_v608 rfl shapeCasts_S1x256_S256,
    unary main_v606 main_v609 (broadcastInDim S1x256 ![1] bcast_S256_S1x256_1 : (⟨S256, .f32⟩ : BufTy).Contents (Elt F) → (⟨S1x256, .f32⟩ : BufTy).Contents (Elt F)),
    unary main_v609 main_v610 (broadcastInDim S512x256 ![0, 1] bcast_S1x256_S512x256_0_1 : (⟨S1x256, .f32⟩ : BufTy).Contents (Elt F) → (⟨S512x256, .f32⟩ : BufTy).Contents (Elt F)),
    binary main_v600 main_v610 main_v611 (subf : (⟨S512x256, .f32⟩ : BufTy).Contents (Elt F) → (⟨S512x256, .f32⟩ : BufTy).Contents (Elt F) → (⟨S512x256, .f32⟩ : BufTy).Contents (Elt F)),
    nullary main_cst_50 (constant S_ .f32 0x3727C5AC#32),
    unary main_cst_50 main_v612 (broadcastInDim S256 ![] bcast_S_S256 : (⟨S_, .f32⟩ : BufTy).Contents (Elt F) → (⟨S256, .f32⟩ : BufTy).Contents (Elt F)),
    binary main_v608 main_v612 main_v613 (addf : (⟨S256, .f32⟩ : BufTy).Contents (Elt F) → (⟨S256, .f32⟩ : BufTy).Contents (Elt F) → (⟨S256, .f32⟩ : BufTy).Contents (Elt F)),
    unary main_v613 main_v614 (Host.rsqrt : (⟨S256, .f32⟩ : BufTy).Contents (Elt F) → (⟨S256, .f32⟩ : BufTy).Contents (Elt F)),
    unary main_v614 main_v615 (broadcastInDim S1x256 ![1] bcast_S256_S1x256_1 : (⟨S256, .f32⟩ : BufTy).Contents (Elt F) → (⟨S1x256, .f32⟩ : BufTy).Contents (Elt F)),
    unary main_v615 main_v616 (broadcastInDim S512x256 ![0, 1] bcast_S1x256_S512x256_0_1 : (⟨S1x256, .f32⟩ : BufTy).Contents (Elt F) → (⟨S512x256, .f32⟩ : BufTy).Contents (Elt F)),
    binary main_v611 main_v616 main_v617 (mulf : (⟨S512x256, .f32⟩ : BufTy).Contents (Elt F) → (⟨S512x256, .f32⟩ : BufTy).Contents (Elt F) → (⟨S512x256, .f32⟩ : BufTy).Contents (Elt F)),
    unary main_v602 main_v618 (broadcastInDim S1x256 ![1] bcast_S256_S1x256_1 : (⟨S256, .f32⟩ : BufTy).Contents (Elt F) → (⟨S1x256, .f32⟩ : BufTy).Contents (Elt F)),
    unary main_v618 main_v619 (broadcastInDim S512x256 ![0, 1] bcast_S1x256_S512x256_0_1 : (⟨S1x256, .f32⟩ : BufTy).Contents (Elt F) → (⟨S512x256, .f32⟩ : BufTy).Contents (Elt F)),
    binary main_v617 main_v619 main_v620 (mulf : (⟨S512x256, .f32⟩ : BufTy).Contents (Elt F) → (⟨S512x256, .f32⟩ : BufTy).Contents (Elt F) → (⟨S512x256, .f32⟩ : BufTy).Contents (Elt F)),
    unary main_v604 main_v621 (broadcastInDim S1x256 ![1] bcast_S256_S1x256_1 : (⟨S256, .f32⟩ : BufTy).Contents (Elt F) → (⟨S1x256, .f32⟩ : BufTy).Contents (Elt F)),
    unary main_v621 main_v622 (broadcastInDim S512x256 ![0, 1] bcast_S1x256_S512x256_0_1 : (⟨S1x256, .f32⟩ : BufTy).Contents (Elt F) → (⟨S512x256, .f32⟩ : BufTy).Contents (Elt F)),
    binary main_v620 main_v622 main_v623 (addf : (⟨S512x256, .f32⟩ : BufTy).Contents (Elt F) → (⟨S512x256, .f32⟩ : BufTy).Contents (Elt F) → (⟨S512x256, .f32⟩ : BufTy).Contents (Elt F)),
    TRef.nullary (TRef.of (T := ⟨S_, .f32⟩) main_call14_cst) (constant S_ .f32 0x00000000#32),
    TRef.unary (TRef.of (T := ⟨S_, .f32⟩) main_call14_cst) (TRef.of (T := ⟨S512x256, .f32⟩) main_call14_v0) (broadcastInDim S512x256 ![] bcast_S_S512x256),
    TRef.binary (TRef.of (T := ⟨S512x256, .f32⟩) main_v623) (TRef.of (T := ⟨S512x256, .f32⟩) main_call14_v0) (TRef.of (T := ⟨S512x256, .f32⟩) main_v624) maximumf,
    unary main_arg24 main_v625 ((extractStridedSlice S1x256x128 ![3, 0, 0] · slices_S4x256x128_S1x256x128_3_0_0) : (⟨S4x256x128, .f32⟩ : BufTy).Contents (Elt F) → (⟨S1x256x128, .f32⟩ : BufTy).Contents (Elt F)),
    reshape main_v625 main_v626 rfl shapeCasts_S1x256x128_S256x128,
    binary main_v624 main_v626 main_v627 ((fun l r => Host.dotGeneral dot_S512x256_S256x128_S512x128_1_0_0_1_n_n none l r) : (⟨S512x256, .f32⟩ : BufTy).Contents (Elt F) → (⟨S256x128, .f32⟩ : BufTy).Contents (Elt F) → (⟨S512x128, .f32⟩ : BufTy).Contents (Elt F)),
    unary main_arg25 main_v628 ((extractStridedSlice S1x128 ![3, 0] · slices_S4x128_S1x128_3_0) : (⟨S4x128, .f32⟩ : BufTy).Contents (Elt F) → (⟨S1x128, .f32⟩ : BufTy).Contents (Elt F)),
    reshape main_v628 main_v629 rfl shapeCasts_S1x128_S128,
    unary main_v629 main_v630 (broadcastInDim S1x128 ![1] bcast_S128_S1x128_1 : (⟨S128, .f32⟩ : BufTy).Contents (Elt F) → (⟨S1x128, .f32⟩ : BufTy).Contents (Elt F)),
    unary main_v630 main_v631 (broadcastInDim S512x128 ![0, 1] bcast_S1x128_S512x128_0_1 : (⟨S1x128, .f32⟩ : BufTy).Contents (Elt F) → (⟨S512x128, .f32⟩ : BufTy).Contents (Elt F)),
    binary main_v627 main_v631 main_v632 (addf : (⟨S512x128, .f32⟩ : BufTy).Contents (Elt F) → (⟨S512x128, .f32⟩ : BufTy).Contents (Elt F) → (⟨S512x128, .f32⟩ : BufTy).Contents (Elt F)),
    unary main_arg26 main_v633 ((extractStridedSlice S1x128 ![3, 0] · slices_S4x128_S1x128_3_0) : (⟨S4x128, .f32⟩ : BufTy).Contents (Elt F) → (⟨S1x128, .f32⟩ : BufTy).Contents (Elt F)),
    reshape main_v633 main_v634 rfl shapeCasts_S1x128_S128,
    unary main_arg27 main_v635 ((extractStridedSlice S1x128 ![3, 0] · slices_S4x128_S1x128_3_0) : (⟨S4x128, .f32⟩ : BufTy).Contents (Elt F) → (⟨S1x128, .f32⟩ : BufTy).Contents (Elt F)),
    reshape main_v635 main_v636 rfl shapeCasts_S1x128_S128,
    unary main_arg28 main_v637 ((extractStridedSlice S1x128 ![3, 0] · slices_S4x128_S1x128_3_0) : (⟨S4x128, .f32⟩ : BufTy).Contents (Elt F) → (⟨S1x128, .f32⟩ : BufTy).Contents (Elt F)),
    reshape main_v637 main_v638 rfl shapeCasts_S1x128_S128,
    unary main_arg29 main_v639 ((extractStridedSlice S1x128 ![3, 0] · slices_S4x128_S1x128_3_0) : (⟨S4x128, .f32⟩ : BufTy).Contents (Elt F) → (⟨S1x128, .f32⟩ : BufTy).Contents (Elt F)),
    reshape main_v639 main_v640 rfl shapeCasts_S1x128_S128,
    unary main_v638 main_v641 (broadcastInDim S1x128 ![1] bcast_S128_S1x128_1 : (⟨S128, .f32⟩ : BufTy).Contents (Elt F) → (⟨S1x128, .f32⟩ : BufTy).Contents (Elt F)),
    unary main_v641 main_v642 (broadcastInDim S512x128 ![0, 1] bcast_S1x128_S512x128_0_1 : (⟨S1x128, .f32⟩ : BufTy).Contents (Elt F) → (⟨S512x128, .f32⟩ : BufTy).Contents (Elt F)),
    binary main_v632 main_v642 main_v643 (subf : (⟨S512x128, .f32⟩ : BufTy).Contents (Elt F) → (⟨S512x128, .f32⟩ : BufTy).Contents (Elt F) → (⟨S512x128, .f32⟩ : BufTy).Contents (Elt F)),
    nullary main_cst_51 (constant S_ .f32 0x3727C5AC#32),
    unary main_cst_51 main_v644 (broadcastInDim S128 ![] bcast_S_S128 : (⟨S_, .f32⟩ : BufTy).Contents (Elt F) → (⟨S128, .f32⟩ : BufTy).Contents (Elt F)),
    binary main_v640 main_v644 main_v645 (addf : (⟨S128, .f32⟩ : BufTy).Contents (Elt F) → (⟨S128, .f32⟩ : BufTy).Contents (Elt F) → (⟨S128, .f32⟩ : BufTy).Contents (Elt F)),
    unary main_v645 main_v646 (Host.rsqrt : (⟨S128, .f32⟩ : BufTy).Contents (Elt F) → (⟨S128, .f32⟩ : BufTy).Contents (Elt F)),
    unary main_v646 main_v647 (broadcastInDim S1x128 ![1] bcast_S128_S1x128_1 : (⟨S128, .f32⟩ : BufTy).Contents (Elt F) → (⟨S1x128, .f32⟩ : BufTy).Contents (Elt F)),
    unary main_v647 main_v648 (broadcastInDim S512x128 ![0, 1] bcast_S1x128_S512x128_0_1 : (⟨S1x128, .f32⟩ : BufTy).Contents (Elt F) → (⟨S512x128, .f32⟩ : BufTy).Contents (Elt F)),
    binary main_v643 main_v648 main_v649 (mulf : (⟨S512x128, .f32⟩ : BufTy).Contents (Elt F) → (⟨S512x128, .f32⟩ : BufTy).Contents (Elt F) → (⟨S512x128, .f32⟩ : BufTy).Contents (Elt F)),
    unary main_v634 main_v650 (broadcastInDim S1x128 ![1] bcast_S128_S1x128_1 : (⟨S128, .f32⟩ : BufTy).Contents (Elt F) → (⟨S1x128, .f32⟩ : BufTy).Contents (Elt F)),
    unary main_v650 main_v651 (broadcastInDim S512x128 ![0, 1] bcast_S1x128_S512x128_0_1 : (⟨S1x128, .f32⟩ : BufTy).Contents (Elt F) → (⟨S512x128, .f32⟩ : BufTy).Contents (Elt F)),
    binary main_v649 main_v651 main_v652 (mulf : (⟨S512x128, .f32⟩ : BufTy).Contents (Elt F) → (⟨S512x128, .f32⟩ : BufTy).Contents (Elt F) → (⟨S512x128, .f32⟩ : BufTy).Contents (Elt F)),
    unary main_v636 main_v653 (broadcastInDim S1x128 ![1] bcast_S128_S1x128_1 : (⟨S128, .f32⟩ : BufTy).Contents (Elt F) → (⟨S1x128, .f32⟩ : BufTy).Contents (Elt F)),
    unary main_v653 main_v654 (broadcastInDim S512x128 ![0, 1] bcast_S1x128_S512x128_0_1 : (⟨S1x128, .f32⟩ : BufTy).Contents (Elt F) → (⟨S512x128, .f32⟩ : BufTy).Contents (Elt F)),
    binary main_v652 main_v654 main_v655 (addf : (⟨S512x128, .f32⟩ : BufTy).Contents (Elt F) → (⟨S512x128, .f32⟩ : BufTy).Contents (Elt F) → (⟨S512x128, .f32⟩ : BufTy).Contents (Elt F)),
    TRef.nullary (TRef.of (T := ⟨S_, .f32⟩) main_call15_cst) (constant S_ .f32 0x00000000#32),
    TRef.unary (TRef.of (T := ⟨S_, .f32⟩) main_call15_cst) (TRef.of (T := ⟨S512x128, .f32⟩) main_call15_v0) (broadcastInDim S512x128 ![] bcast_S_S512x128),
    TRef.binary (TRef.of (T := ⟨S512x128, .f32⟩) main_v655) (TRef.of (T := ⟨S512x128, .f32⟩) main_call15_v0) (TRef.of (T := ⟨S512x128, .f32⟩) main_v656) maximumf ]

/-- The window: operations 668 … 742. -/
abbrev wTable3 : List (HloOp τ sig (Elt Ideal)) := ops668_688 (F := Ideal) ++ ops688_743 (F := Ideal)

/-- The buffers the window's operations write, in order. -/
def wrTable3 : List (Ref sig .tc) :=
  [ main_cst_49, main_v589, main_v590, main_v591, main_v592, main_v593, main_v594, main_v595, main_v596, main_v597,
    main_v598, main_v599, main_v600, main_v601, main_v602, main_v603, main_v604, main_v605, main_v606, main_v607,
    main_v608, main_v609, main_v610, main_v611, main_cst_50, main_v612, main_v613, main_v614, main_v615, main_v616,
    main_v617, main_v618, main_v619, main_v620, main_v621, main_v622, main_v623, main_call14_cst, main_call14_v0, main_v624,
    main_v625, main_v626, main_v627, main_v628, main_v629, main_v630, main_v631, main_v632, main_v633, main_v634,
    main_v635, main_v636, main_v637, main_v638, main_v639, main_v640, main_v641, main_v642, main_v643, main_cst_51,
    main_v644, main_v645, main_v646, main_v647, main_v648, main_v649, main_v650, main_v651, main_v652, main_v653,
    main_v654, main_v655, main_call15_cst, main_call15_v0, main_v656 ]

/-- Operation by operation, the one buffer each writes. -/
theorem coversTable3 : Cert.SSA.Covers wTable3 wrTable3 := by
  unfold Cert.SSA.Covers
  dsimp only [wTable3, ops668_688, ops688_743, List.cons_append, List.nil_append, wrTable3]
  repeat (first | exact List.Forall₂.nil | refine List.Forall₂.cons (Finset.Subset.refl _) ?_)

/-- Every buffer the window names is a buffer of the core. -/
theorem subTable3 : ∀ op ∈ wTable3, op.bufs ⊆ tcRefs τ sig := by
  dsimp only [wTable3, ops668_688, ops688_743, List.cons_append, List.nil_append]
  exact List.forall_iff_forall_mem.1
    ⟨nullary_bufs_sub .., unary_bufs_sub .., unary_bufs_sub .., ternary_bufs_sub .., binary_bufs_sub .., unary_bufs_sub ..,
     reshape_bufs_sub .., binary_bufs_sub .., unary_bufs_sub .., reshape_bufs_sub .., unary_bufs_sub .., unary_bufs_sub ..,
     binary_bufs_sub .., unary_bufs_sub .., reshape_bufs_sub .., unary_bufs_sub .., reshape_bufs_sub .., unary_bufs_sub ..,
     reshape_bufs_sub .., unary_bufs_sub .., reshape_bufs_sub .., unary_bufs_sub .., unary_bufs_sub .., binary_bufs_sub ..,
     nullary_bufs_sub .., unary_bufs_sub .., binary_bufs_sub .., unary_bufs_sub .., unary_bufs_sub .., unary_bufs_sub ..,
     binary_bufs_sub .., unary_bufs_sub .., unary_bufs_sub .., binary_bufs_sub .., unary_bufs_sub .., unary_bufs_sub ..,
     binary_bufs_sub .., nullary_bufs_sub .., unary_bufs_sub .., binary_bufs_sub .., unary_bufs_sub .., reshape_bufs_sub ..,
     binary_bufs_sub .., unary_bufs_sub .., reshape_bufs_sub .., unary_bufs_sub .., unary_bufs_sub .., binary_bufs_sub ..,
     unary_bufs_sub .., reshape_bufs_sub .., unary_bufs_sub .., reshape_bufs_sub .., unary_bufs_sub .., reshape_bufs_sub ..,
     unary_bufs_sub .., reshape_bufs_sub .., unary_bufs_sub .., unary_bufs_sub .., binary_bufs_sub .., nullary_bufs_sub ..,
     unary_bufs_sub .., binary_bufs_sub .., unary_bufs_sub .., unary_bufs_sub .., unary_bufs_sub .., binary_bufs_sub ..,
     unary_bufs_sub .., unary_bufs_sub .., binary_bufs_sub .., unary_bufs_sub .., unary_bufs_sub .., binary_bufs_sub ..,
     nullary_bufs_sub .., unary_bufs_sub .., binary_bufs_sub ..⟩

/-- Every operation of the window determines its results. -/
theorem freshTable3 : ∀ op ∈ wTable3, op.fresh = ∅ := by
  dsimp only [wTable3, ops668_688, ops688_743, List.cons_append, List.nil_append]
  intro op h
  repeat (cases h with | head => rfl | tail _ h => ?_)
  exact nomatch h

set_option maxHeartbeats 4000000 in
/-- What the window leaves in its result buffer. -/
theorem valueTable3 [Cert.ReferenceIdeal.Facts] (V : Valuation τ sig (Elt Ideal)) :
    (after wTable3 V (Proc.devRef .tc main_v656) : FVec Ideal S512x128 .f32)
      = tableMap (argsV V) 3 (vtOf dims layout (V (Proc.devRef .tc main_v503)) (V (Proc.devRef .tc main_v495)) (argsV V).batch) := by
  dsimp only [wTable3, ops668_688, ops688_743, List.cons_append, List.nil_append]
  after_results_simp
  refine Eq.trans ?_ (table_host (argsV V) (tableLayout 3) dot_S512x128_S128x256_S512x256_1_0_0_1_n_n dot_S512x256_S256x128_S512x128_1_0_0_1_n_n rfl rfl _)
  rfl

end Cert.ReferenceIdeal.RefValue

end
-- ==== Proof.RefHin4.lean ====
/-
  Layer 4's node array with the graphs' rows added, in the reference program: operations 743 … 752.

  From the previous layer's node array, the renewed table and the nodes' graph numbers, the window gathers each node's
  graph's row and adds it. Read from arbitrary contents of the buffers, its result buffer holds that function of what
  the buffers it reads held; it writes none of the buffers it reads.
-/
import proofs.«116444_j64183991272049_2_alg».proof.Proof.RefBase

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx Cert.LibNormLayer Cert.LibSliceRead Cert.Net

variable {F : FTy → Type} [FloatOps F]

/-- Operations 743 … 751 of the program's 847, in order. -/
abbrev ops743_752 : List (HloOp τ sig (Elt F)) :=
  [ nullary main_c_52 (constantI S_ 32 0#32),
    unary main_c_52 main_v657 (broadcastInDim S100000 ![] bcast_S_S100000 : (⟨S_, .i32⟩ : BufTy).Contents (Elt F) → (⟨S100000, .i32⟩ : BufTy).Contents (Elt F)),
    binary main_arg2 main_v657 main_v658 (cmpi .slt : (⟨S100000, .i32⟩ : BufTy).Contents (Elt F) → (⟨S100000, .i32⟩ : BufTy).Contents (Elt F) → (⟨S100000, .i1⟩ : BufTy).Contents (Elt F)),
    nullary main_c_53 (constantI S_ 32 512#32),
    unary main_c_53 main_v659 (broadcastInDim S100000 ![] bcast_S_S100000 : (⟨S_, .i32⟩ : BufTy).Contents (Elt F) → (⟨S100000, .i32⟩ : BufTy).Contents (Elt F)),
    binary main_arg2 main_v659 main_v660 (addi : (⟨S100000, .i32⟩ : BufTy).Contents (Elt F) → (⟨S100000, .i32⟩ : BufTy).Contents (Elt F) → (⟨S100000, .i32⟩ : BufTy).Contents (Elt F)),
    ternary main_v658 main_v660 main_arg2 main_v661 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v661 main_v662 (broadcastInDim S100000x1 ![0] bcast_S100000_S100000x1_0 : (⟨S100000, .i32⟩ : BufTy).Contents (Elt F) → (⟨S100000x1, .i32⟩ : BufTy).Contents (Elt F)),
    binary main_v656 main_v662 main_v663 ((fun x i => Host.gather gather_S512x128_S100000x1_S100000x128_1_0_n_n_0_1_1128 x i) : (⟨S512x128, .f32⟩ : BufTy).Contents (Elt F) → (⟨S100000x1, .i32⟩ : BufTy).Contents (Elt F) → (⟨S100000x128, .f32⟩ : BufTy).Contents (Elt F)) ]

/-- Operations 752 … 752 of the program's 847, in order. -/
abbrev ops752_753 : List (HloOp τ sig (Elt F)) :=
  [ binary main_v588 main_v663 main_v664 (addf : (⟨S100000x128, .f32⟩ : BufTy).Contents (Elt F) → (⟨S100000x128, .f32⟩ : BufTy).Contents (Elt F) → (⟨S100000x128, .f32⟩ : BufTy).Contents (Elt F)) ]

/-- The window: operations 743 … 752. -/
abbrev wHin4 : List (HloOp τ sig (Elt Ideal)) := ops743_752 (F := Ideal) ++ ops752_753 (F := Ideal)

/-- The buffers the window's operations write, in order. -/
def wrHin4 : List (Ref sig .tc) :=
  [ main_c_52, main_v657, main_v658, main_c_53, main_v659, main_v660, main_v661, main_v662, main_v663, main_v664 ]

/-- Operation by operation, the one buffer each writes. -/
theorem coversHin4 : Cert.SSA.Covers wHin4 wrHin4 := by
  unfold Cert.SSA.Covers
  dsimp only [wHin4, ops743_752, ops752_753, List.cons_append, List.nil_append, wrHin4]
  repeat (first | exact List.Forall₂.nil | refine List.Forall₂.cons (Finset.Subset.refl _) ?_)

/-- Every buffer the window names is a buffer of the core. -/
theorem subHin4 : ∀ op ∈ wHin4, op.bufs ⊆ tcRefs τ sig := by
  dsimp only [wHin4, ops743_752, ops752_753, List.cons_append, List.nil_append]
  exact List.forall_iff_forall_mem.1
    ⟨nullary_bufs_sub .., unary_bufs_sub .., binary_bufs_sub .., nullary_bufs_sub .., unary_bufs_sub .., binary_bufs_sub ..,
     ternary_bufs_sub .., unary_bufs_sub .., binary_bufs_sub .., binary_bufs_sub ..⟩

/-- Every operation of the window determines its results. -/
theorem freshHin4 : ∀ op ∈ wHin4, op.fresh = ∅ := by
  dsimp only [wHin4, ops743_752, ops752_753, List.cons_append, List.nil_append]
  intro op h
  repeat (cases h with | head => rfl | tail _ h => ?_)
  exact nomatch h

/-- What the window leaves in its result buffer. -/
theorem valueHin4 [Cert.ReferenceIdeal.Facts] (V : Valuation τ sig (Elt Ideal)) :
    (after wHin4 V (Proc.devRef .tc main_v664) : FVec Ideal S100000x128 .f32)
      = hinOf dims layout (V (Proc.devRef .tc main_v588)) (V (Proc.devRef .tc main_v656)) (argsV V).batch := by
  dsimp only [wHin4, ops743_752, ops752_753, List.cons_append, List.nil_append]
  after_results_simp
  rfl

end Cert.ReferenceIdeal.RefValue

end
-- ==== Proof.RefConv4.lean ====
/-
  Layer 4's map of the node array, in the reference program: operations 753 … 846.

  From the layer's node array with the graphs' rows added (hin), the edges' start and end nodes and the arguments, the
  window computes z = (1 + ε) · hin plus the sums of hin's rows along the edges, and the two-layer normalised map of z. Read from arbitrary contents of the buffers, its result buffer holds that function of what the
  buffers it reads held; it writes none of the buffers it reads.
-/
import proofs.«116444_j64183991272049_2_alg».proof.Proof.RefBase

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx Cert.LibNormLayer Cert.LibSliceRead Cert.Net

variable {F : FTy → Type} [FloatOps F]

/-- Operations 753 … 811 of the program's 847, in order. -/
abbrev ops753_812 : List (HloOp τ sig (Elt F)) :=
  [ nullary main_cst_54 (constant S_ .f32 0x00000000#32),
    unary main_cst_54 main_v665 (broadcastInDim S100000x128 ![] bcast_S_S100000x128 : (⟨S_, .f32⟩ : BufTy).Contents (Elt F) → (⟨S100000x128, .f32⟩ : BufTy).Contents (Elt F)),
    nullary main_c_55 (constantI S_ 32 0#32),
    unary main_c_55 main_v666 (broadcastInDim S600000 ![] bcast_S_S600000 : (⟨S_, .i32⟩ : BufTy).Contents (Elt F) → (⟨S600000, .i32⟩ : BufTy).Contents (Elt F)),
    binary main_v1 main_v666 main_v667 (cmpi .slt : (⟨S600000, .i32⟩ : BufTy).Contents (Elt F) → (⟨S600000, .i32⟩ : BufTy).Contents (Elt F) → (⟨S600000, .i1⟩ : BufTy).Contents (Elt F)),
    nullary main_c_56 (constantI S_ 32 100000#32),
    unary main_c_56 main_v668 (broadcastInDim S600000 ![] bcast_S_S600000 : (⟨S_, .i32⟩ : BufTy).Contents (Elt F) → (⟨S600000, .i32⟩ : BufTy).Contents (Elt F)),
    binary main_v1 main_v668 main_v669 (addi : (⟨S600000, .i32⟩ : BufTy).Contents (Elt F) → (⟨S600000, .i32⟩ : BufTy).Contents (Elt F) → (⟨S600000, .i32⟩ : BufTy).Contents (Elt F)),
    ternary main_v667 main_v669 main_v1 main_v670 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v670 main_v671 (broadcastInDim S600000x1 ![0] bcast_S600000_S600000x1_0 : (⟨S600000, .i32⟩ : BufTy).Contents (Elt F) → (⟨S600000x1, .i32⟩ : BufTy).Contents (Elt F)),
    binary main_v664 main_v671 main_v672 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    nullary main_c_57 (constantI S_ 32 0#32),
    unary main_c_57 main_v673 (broadcastInDim S600000 ![] bcast_S_S600000 : (⟨S_, .i32⟩ : BufTy).Contents (Elt F) → (⟨S600000, .i32⟩ : BufTy).Contents (Elt F)),
    binary main_v3 main_v673 main_v674 (cmpi .slt : (⟨S600000, .i32⟩ : BufTy).Contents (Elt F) → (⟨S600000, .i32⟩ : BufTy).Contents (Elt F) → (⟨S600000, .i1⟩ : BufTy).Contents (Elt F)),
    nullary main_c_58 (constantI S_ 32 100000#32),
    unary main_c_58 main_v675 (broadcastInDim S600000 ![] bcast_S_S600000 : (⟨S_, .i32⟩ : BufTy).Contents (Elt F) → (⟨S600000, .i32⟩ : BufTy).Contents (Elt F)),
    binary main_v3 main_v675 main_v676 (addi : (⟨S600000, .i32⟩ : BufTy).Contents (Elt F) → (⟨S600000, .i32⟩ : BufTy).Contents (Elt F) → (⟨S600000, .i32⟩ : BufTy).Contents (Elt F)),
    ternary main_v674 main_v676 main_v3 main_v677 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v677 main_v678 (broadcastInDim S600000x1 ![0] bcast_S600000_S600000x1_0 : (⟨S600000, .i32⟩ : BufTy).Contents (Elt F) → (⟨S600000x1, .i32⟩ : BufTy).Contents (Elt F)),
    ternary main_v665 main_v678 main_v672 main_v679 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    unary main_arg5 main_v680 ((extractStridedSlice S1 ![4] · slices_S5_S1_4) : (⟨S5, .f32⟩ : BufTy).Contents (Elt F) → (⟨S1, .f32⟩ : BufTy).Contents (Elt F)),
    reshape main_v680 main_v681 rfl shapeCasts_S1_S_,
    nullary main_cst_59 (constant S_ .f32 0x3F800000#32),
    binary main_cst_59 main_v681 main_v682 (addf : (⟨S_, .f32⟩ : BufTy).Contents (Elt F) → (⟨S_, .f32⟩ : BufTy).Contents (Elt F) → (⟨S_, .f32⟩ : BufTy).Contents (Elt F)),
    unary main_v682 main_v683 (broadcastInDim S100000x128 ![] bcast_S_S100000x128 : (⟨S_, .f32⟩ : BufTy).Contents (Elt F) → (⟨S100000x128, .f32⟩ : BufTy).Contents (Elt F)),
    binary main_v683 main_v664 main_v684 (mulf : (⟨S100000x128, .f32⟩ : BufTy).Contents (Elt F) → (⟨S100000x128, .f32⟩ : BufTy).Contents (Elt F) → (⟨S100000x128, .f32⟩ : BufTy).Contents (Elt F)),
    binary main_v684 main_v679 main_v685 (addf : (⟨S100000x128, .f32⟩ : BufTy).Contents (Elt F) → (⟨S100000x128, .f32⟩ : BufTy).Contents (Elt F) → (⟨S100000x128, .f32⟩ : BufTy).Contents (Elt F)),
    unary main_arg6 main_v686 ((extractStridedSlice S1x128x256 ![4, 0, 0] · slices_S5x128x256_S1x128x256_4_0_0) : (⟨S5x128x256, .f32⟩ : BufTy).Contents (Elt F) → (⟨S1x128x256, .f32⟩ : BufTy).Contents (Elt F)),
    reshape main_v686 main_v687 rfl shapeCasts_S1x128x256_S128x256,
    binary main_v685 main_v687 main_v688 ((fun l r => Host.dotGeneral dot_S100000x128_S128x256_S100000x256_1_0_0_1_n_n none l r) : (⟨S100000x128, .f32⟩ : BufTy).Contents (Elt F) → (⟨S128x256, .f32⟩ : BufTy).Contents (Elt F) → (⟨S100000x256, .f32⟩ : BufTy).Contents (Elt F)),
    unary main_arg7 main_v689 ((extractStridedSlice S1x256 ![4, 0] · slices_S5x256_S1x256_4_0) : (⟨S5x256, .f32⟩ : BufTy).Contents (Elt F) → (⟨S1x256, .f32⟩ : BufTy).Contents (Elt F)),
    reshape main_v689 main_v690 rfl shapeCasts_S1x256_S256,
    unary main_v690 main_v691 (broadcastInDim S1x256 ![1] bcast_S256_S1x256_1 : (⟨S256, .f32⟩ : BufTy).Contents (Elt F) → (⟨S1x256, .f32⟩ : BufTy).Contents (Elt F)),
    unary main_v691 main_v692 (broadcastInDim S100000x256 ![0, 1] bcast_S1x256_S100000x256_0_1 : (⟨S1x256, .f32⟩ : BufTy).Contents (Elt F) → (⟨S100000x256, .f32⟩ : BufTy).Contents (Elt F)),
    binary main_v688 main_v692 main_v693 (addf : (⟨S100000x256, .f32⟩ : BufTy).Contents (Elt F) → (⟨S100000x256, .f32⟩ : BufTy).Contents (Elt F) → (⟨S100000x256, .f32⟩ : BufTy).Contents (Elt F)),
    unary main_arg8 main_v694 ((extractStridedSlice S1x256 ![4, 0] · slices_S5x256_S1x256_4_0) : (⟨S5x256, .f32⟩ : BufTy).Contents (Elt F) → (⟨S1x256, .f32⟩ : BufTy).Contents (Elt F)),
    reshape main_v694 main_v695 rfl shapeCasts_S1x256_S256,
    unary main_arg9 main_v696 ((extractStridedSlice S1x256 ![4, 0] · slices_S5x256_S1x256_4_0) : (⟨S5x256, .f32⟩ : BufTy).Contents (Elt F) → (⟨S1x256, .f32⟩ : BufTy).Contents (Elt F)),
    reshape main_v696 main_v697 rfl shapeCasts_S1x256_S256,
    unary main_arg10 main_v698 ((extractStridedSlice S1x256 ![4, 0] · slices_S5x256_S1x256_4_0) : (⟨S5x256, .f32⟩ : BufTy).Contents (Elt F) → (⟨S1x256, .f32⟩ : BufTy).Contents (Elt F)),
    reshape main_v698 main_v699 rfl shapeCasts_S1x256_S256,
    unary main_arg11 main_v700 ((extractStridedSlice S1x256 ![4, 0] · slices_S5x256_S1x256_4_0) : (⟨S5x256, .f32⟩ : BufTy).Contents (Elt F) → (⟨S1x256, .f32⟩ : BufTy).Contents (Elt F)),
    reshape main_v700 main_v701 rfl shapeCasts_S1x256_S256,
    unary main_v699 main_v702 (broadcastInDim S1x256 ![1] bcast_S256_S1x256_1 : (⟨S256, .f32⟩ : BufTy).Contents (Elt F) → (⟨S1x256, .f32⟩ : BufTy).Contents (Elt F)),
    unary main_v702 main_v703 (broadcastInDim S100000x256 ![0, 1] bcast_S1x256_S100000x256_0_1 : (⟨S1x256, .f32⟩ : BufTy).Contents (Elt F) → (⟨S100000x256, .f32⟩ : BufTy).Contents (Elt F)),
    binary main_v693 main_v703 main_v704 (subf : (⟨S100000x256, .f32⟩ : BufTy).Contents (Elt F) → (⟨S100000x256, .f32⟩ : BufTy).Contents (Elt F) → (⟨S100000x256, .f32⟩ : BufTy).Contents (Elt F)),
    nullary main_cst_60 (constant S_ .f32 0x3727C5AC#32),
    unary main_cst_60 main_v705 (broadcastInDim S256 ![] bcast_S_S256 : (⟨S_, .f32⟩ : BufTy).Contents (Elt F) → (⟨S256, .f32⟩ : BufTy).Contents (Elt F)),
    binary main_v701 main_v705 main_v706 (addf : (⟨S256, .f32⟩ : BufTy).Contents (Elt F) → (⟨S256, .f32⟩ : BufTy).Contents (Elt F) → (⟨S256, .f32⟩ : BufTy).Contents (Elt F)),
    unary main_v706 main_v707 (Host.rsqrt : (⟨S256, .f32⟩ : BufTy).Contents (Elt F) → (⟨S256, .f32⟩ : BufTy).Contents (Elt F)),
    unary main_v707 main_v708 (broadcastInDim S1x256 ![1] bcast_S256_S1x256_1 : (⟨S256, .f32⟩ : BufTy).Contents (Elt F) → (⟨S1x256, .f32⟩ : BufTy).Contents (Elt F)),
    unary main_v708 main_v709 (broadcastInDim S100000x256 ![0, 1] bcast_S1x256_S100000x256_0_1 : (⟨S1x256, .f32⟩ : BufTy).Contents (Elt F) → (⟨S100000x256, .f32⟩ : BufTy).Contents (Elt F)),
    binary main_v704 main_v709 main_v710 (mulf : (⟨S100000x256, .f32⟩ : BufTy).Contents (Elt F) → (⟨S100000x256, .f32⟩ : BufTy).Contents (Elt F) → (⟨S100000x256, .f32⟩ : BufTy).Contents (Elt F)),
    unary main_v695 main_v711 (broadcastInDim S1x256 ![1] bcast_S256_S1x256_1 : (⟨S256, .f32⟩ : BufTy).Contents (Elt F) → (⟨S1x256, .f32⟩ : BufTy).Contents (Elt F)),
    unary main_v711 main_v712 (broadcastInDim S100000x256 ![0, 1] bcast_S1x256_S100000x256_0_1 : (⟨S1x256, .f32⟩ : BufTy).Contents (Elt F) → (⟨S100000x256, .f32⟩ : BufTy).Contents (Elt F)),
    binary main_v710 main_v712 main_v713 (mulf : (⟨S100000x256, .f32⟩ : BufTy).Contents (Elt F) → (⟨S100000x256, .f32⟩ : BufTy).Contents (Elt F) → (⟨S100000x256, .f32⟩ : BufTy).Contents (Elt F)),
    unary main_v697 main_v714 (broadcastInDim S1x256 ![1] bcast_S256_S1x256_1 : (⟨S256, .f32⟩ : BufTy).Contents (Elt F) → (⟨S1x256, .f32⟩ : BufTy).Contents (Elt F)),
    unary main_v714 main_v715 (broadcastInDim S100000x256 ![0, 1] bcast_S1x256_S100000x256_0_1 : (⟨S1x256, .f32⟩ : BufTy).Contents (Elt F) → (⟨S100000x256, .f32⟩ : BufTy).Contents (Elt F)),
    binary main_v713 main_v715 main_v716 (addf : (⟨S100000x256, .f32⟩ : BufTy).Contents (Elt F) → (⟨S100000x256, .f32⟩ : BufTy).Contents (Elt F) → (⟨S100000x256, .f32⟩ : BufTy).Contents (Elt F)) ]

/-- Operations 812 … 846 of the program's 847, in order. -/
abbrev ops812_847 : List (HloOp τ sig (Elt F)) :=
  [ TRef.nullary (TRef.of (T := ⟨S_, .f32⟩) main_call16_cst) (constant S_ .f32 0x00000000#32),
    TRef.unary (TRef.of (T := ⟨S_, .f32⟩) main_call16_cst) (TRef.of (T := ⟨S100000x256, .f32⟩) main_call16_v0) (broadcastInDim S100000x256 ![] bcast_S_S100000x256),
    TRef.binary (TRef.of (T := ⟨S100000x256, .f32⟩) main_v716) (TRef.of (T := ⟨S100000x256, .f32⟩) main_call16_v0) (TRef.of (T := ⟨S100000x256, .f32⟩) main_v717) maximumf,
    unary main_arg12 main_v718 ((extractStridedSlice S1x256x128 ![4, 0, 0] · slices_S5x256x128_S1x256x128_4_0_0) : (⟨S5x256x128, .f32⟩ : BufTy).Contents (Elt F) → (⟨S1x256x128, .f32⟩ : BufTy).Contents (Elt F)),
    reshape main_v718 main_v719 rfl shapeCasts_S1x256x128_S256x128,
    binary main_v717 main_v719 main_v720 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    unary main_arg13 main_v721 ((extractStridedSlice S1x128 ![4, 0] · slices_S5x128_S1x128_4_0) : (⟨S5x128, .f32⟩ : BufTy).Contents (Elt F) → (⟨S1x128, .f32⟩ : BufTy).Contents (Elt F)),
    reshape main_v721 main_v722 rfl shapeCasts_S1x128_S128,
    unary main_v722 main_v723 (broadcastInDim S1x128 ![1] bcast_S128_S1x128_1 : (⟨S128, .f32⟩ : BufTy).Contents (Elt F) → (⟨S1x128, .f32⟩ : BufTy).Contents (Elt F)),
    unary main_v723 main_v724 (broadcastInDim S100000x128 ![0, 1] bcast_S1x128_S100000x128_0_1 : (⟨S1x128, .f32⟩ : BufTy).Contents (Elt F) → (⟨S100000x128, .f32⟩ : BufTy).Contents (Elt F)),
    binary main_v720 main_v724 main_v725 (addf : (⟨S100000x128, .f32⟩ : BufTy).Contents (Elt F) → (⟨S100000x128, .f32⟩ : BufTy).Contents (Elt F) → (⟨S100000x128, .f32⟩ : BufTy).Contents (Elt F)),
    unary main_arg14 main_v726 ((extractStridedSlice S1x128 ![4, 0] · slices_S5x128_S1x128_4_0) : (⟨S5x128, .f32⟩ : BufTy).Contents (Elt F) → (⟨S1x128, .f32⟩ : BufTy).Contents (Elt F)),
    reshape main_v726 main_v727 rfl shapeCasts_S1x128_S128,
    unary main_arg15 main_v728 ((extractStridedSlice S1x128 ![4, 0] · slices_S5x128_S1x128_4_0) : (⟨S5x128, .f32⟩ : BufTy).Contents (Elt F) → (⟨S1x128, .f32⟩ : BufTy).Contents (Elt F)),
    reshape main_v728 main_v729 rfl shapeCasts_S1x128_S128,
    unary main_arg16 main_v730 ((extractStridedSlice S1x128 ![4, 0] · slices_S5x128_S1x128_4_0) : (⟨S5x128, .f32⟩ : BufTy).Contents (Elt F) → (⟨S1x128, .f32⟩ : BufTy).Contents (Elt F)),
    reshape main_v730 main_v731 rfl shapeCasts_S1x128_S128,
    unary main_arg17 main_v732 ((extractStridedSlice S1x128 ![4, 0] · slices_S5x128_S1x128_4_0) : (⟨S5x128, .f32⟩ : BufTy).Contents (Elt F) → (⟨S1x128, .f32⟩ : BufTy).Contents (Elt F)),
    reshape main_v732 main_v733 rfl shapeCasts_S1x128_S128,
    unary main_v731 main_v734 (broadcastInDim S1x128 ![1] bcast_S128_S1x128_1 : (⟨S128, .f32⟩ : BufTy).Contents (Elt F) → (⟨S1x128, .f32⟩ : BufTy).Contents (Elt F)),
    unary main_v734 main_v735 (broadcastInDim S100000x128 ![0, 1] bcast_S1x128_S100000x128_0_1 : (⟨S1x128, .f32⟩ : BufTy).Contents (Elt F) → (⟨S100000x128, .f32⟩ : BufTy).Contents (Elt F)),
    binary main_v725 main_v735 main_v736 (subf : (⟨S100000x128, .f32⟩ : BufTy).Contents (Elt F) → (⟨S100000x128, .f32⟩ : BufTy).Contents (Elt F) → (⟨S100000x128, .f32⟩ : BufTy).Contents (Elt F)),
    nullary main_cst_61 (constant S_ .f32 0x3727C5AC#32),
    unary main_cst_61 main_v737 (broadcastInDim S128 ![] bcast_S_S128 : (⟨S_, .f32⟩ : BufTy).Contents (Elt F) → (⟨S128, .f32⟩ : BufTy).Contents (Elt F)),
    binary main_v733 main_v737 main_v738 (addf : (⟨S128, .f32⟩ : BufTy).Contents (Elt F) → (⟨S128, .f32⟩ : BufTy).Contents (Elt F) → (⟨S128, .f32⟩ : BufTy).Contents (Elt F)),
    unary main_v738 main_v739 (Host.rsqrt : (⟨S128, .f32⟩ : BufTy).Contents (Elt F) → (⟨S128, .f32⟩ : BufTy).Contents (Elt F)),
    unary main_v739 main_v740 (broadcastInDim S1x128 ![1] bcast_S128_S1x128_1 : (⟨S128, .f32⟩ : BufTy).Contents (Elt F) → (⟨S1x128, .f32⟩ : BufTy).Contents (Elt F)),
    unary main_v740 main_v741 (broadcastInDim S100000x128 ![0, 1] bcast_S1x128_S100000x128_0_1 : (⟨S1x128, .f32⟩ : BufTy).Contents (Elt F) → (⟨S100000x128, .f32⟩ : BufTy).Contents (Elt F)),
    binary main_v736 main_v741 main_v742 (mulf : (⟨S100000x128, .f32⟩ : BufTy).Contents (Elt F) → (⟨S100000x128, .f32⟩ : BufTy).Contents (Elt F) → (⟨S100000x128, .f32⟩ : BufTy).Contents (Elt F)),
    unary main_v727 main_v743 (broadcastInDim S1x128 ![1] bcast_S128_S1x128_1 : (⟨S128, .f32⟩ : BufTy).Contents (Elt F) → (⟨S1x128, .f32⟩ : BufTy).Contents (Elt F)),
    unary main_v743 main_v744 (broadcastInDim S100000x128 ![0, 1] bcast_S1x128_S100000x128_0_1 : (⟨S1x128, .f32⟩ : BufTy).Contents (Elt F) → (⟨S100000x128, .f32⟩ : BufTy).Contents (Elt F)),
    binary main_v742 main_v744 main_v745 (mulf : (⟨S100000x128, .f32⟩ : BufTy).Contents (Elt F) → (⟨S100000x128, .f32⟩ : BufTy).Contents (Elt F) → (⟨S100000x128, .f32⟩ : BufTy).Contents (Elt F)),
    unary main_v729 main_v746 (broadcastInDim S1x128 ![1] bcast_S128_S1x128_1 : (⟨S128, .f32⟩ : BufTy).Contents (Elt F) → (⟨S1x128, .f32⟩ : BufTy).Contents (Elt F)),
    unary main_v746 main_v747 (broadcastInDim S100000x128 ![0, 1] bcast_S1x128_S100000x128_0_1 : (⟨S1x128, .f32⟩ : BufTy).Contents (Elt F) → (⟨S100000x128, .f32⟩ : BufTy).Contents (Elt F)),
    binary main_v745 main_v747 main_v748 (addf : (⟨S100000x128, .f32⟩ : BufTy).Contents (Elt F) → (⟨S100000x128, .f32⟩ : BufTy).Contents (Elt F) → (⟨S100000x128, .f32⟩ : BufTy).Contents (Elt F)) ]

/-- The window: operations 753 … 846. -/
abbrev wConv4 : List (HloOp τ sig (Elt Ideal)) := ops753_812 (F := Ideal) ++ ops812_847 (F := Ideal)

/-- The buffers the window's operations write, in order. -/
def wrConv4 : List (Ref sig .tc) :=
  [ main_cst_54, main_v665, main_c_55, main_v666, main_v667, main_c_56, main_v668, main_v669, main_v670, main_v671,
    main_v672, main_c_57, main_v673, main_v674, main_c_58, main_v675, main_v676, main_v677, main_v678, main_v679,
    main_v680, main_v681, main_cst_59, main_v682, main_v683, main_v684, main_v685, main_v686, main_v687, main_v688,
    main_v689, main_v690, main_v691, main_v692, main_v693, main_v694, main_v695, main_v696, main_v697, main_v698,
    main_v699, main_v700, main_v701, main_v702, main_v703, main_v704, main_cst_60, main_v705, main_v706, main_v707,
    main_v708, main_v709, main_v710, main_v711, main_v712, main_v713, main_v714, main_v715, main_v716, main_call16_cst,
    main_call16_v0, main_v717, main_v718, main_v719, main_v720, main_v721, main_v722, main_v723, main_v724, main_v725,
    main_v726, main_v727, main_v728, main_v729, main_v730, main_v731, main_v732, main_v733, main_v734, main_v735,
    main_v736, main_cst_61, main_v737, main_v738, main_v739, main_v740, main_v741, main_v742, main_v743, main_v744,
    main_v745, main_v746, main_v747, main_v748 ]

/-- Operation by operation, the one buffer each writes. -/
theorem coversConv4 : Cert.SSA.Covers wConv4 wrConv4 := by
  unfold Cert.SSA.Covers
  dsimp only [wConv4, ops753_812, ops812_847, List.cons_append, List.nil_append, wrConv4]
  repeat (first | exact List.Forall₂.nil | refine List.Forall₂.cons (Finset.Subset.refl _) ?_)

/-- Every buffer the window names is a buffer of the core. -/
theorem subConv4 : ∀ op ∈ wConv4, op.bufs ⊆ tcRefs τ sig := by
  dsimp only [wConv4, ops753_812, ops812_847, List.cons_append, List.nil_append]
  exact List.forall_iff_forall_mem.1
    ⟨nullary_bufs_sub .., unary_bufs_sub .., nullary_bufs_sub .., unary_bufs_sub .., binary_bufs_sub .., nullary_bufs_sub ..,
     unary_bufs_sub .., binary_bufs_sub .., ternary_bufs_sub .., unary_bufs_sub .., binary_bufs_sub .., nullary_bufs_sub ..,
     unary_bufs_sub .., binary_bufs_sub .., nullary_bufs_sub .., unary_bufs_sub .., binary_bufs_sub .., ternary_bufs_sub ..,
     unary_bufs_sub .., ternary_bufs_sub .., unary_bufs_sub .., reshape_bufs_sub .., nullary_bufs_sub .., binary_bufs_sub ..,
     unary_bufs_sub .., binary_bufs_sub .., binary_bufs_sub .., unary_bufs_sub .., reshape_bufs_sub .., binary_bufs_sub ..,
     unary_bufs_sub .., reshape_bufs_sub .., unary_bufs_sub .., unary_bufs_sub .., binary_bufs_sub .., unary_bufs_sub ..,
     reshape_bufs_sub .., unary_bufs_sub .., reshape_bufs_sub .., unary_bufs_sub .., reshape_bufs_sub .., unary_bufs_sub ..,
     reshape_bufs_sub .., unary_bufs_sub .., unary_bufs_sub .., binary_bufs_sub .., nullary_bufs_sub .., unary_bufs_sub ..,
     binary_bufs_sub .., unary_bufs_sub .., unary_bufs_sub .., unary_bufs_sub .., binary_bufs_sub .., unary_bufs_sub ..,
     unary_bufs_sub .., binary_bufs_sub .., unary_bufs_sub .., unary_bufs_sub .., binary_bufs_sub .., nullary_bufs_sub ..,
     unary_bufs_sub .., binary_bufs_sub .., unary_bufs_sub .., reshape_bufs_sub .., binary_bufs_sub .., unary_bufs_sub ..,
     reshape_bufs_sub .., unary_bufs_sub .., unary_bufs_sub .., binary_bufs_sub .., unary_bufs_sub .., reshape_bufs_sub ..,
     unary_bufs_sub .., reshape_bufs_sub .., unary_bufs_sub .., reshape_bufs_sub .., unary_bufs_sub .., reshape_bufs_sub ..,
     unary_bufs_sub .., unary_bufs_sub .., binary_bufs_sub .., nullary_bufs_sub .., unary_bufs_sub .., binary_bufs_sub ..,
     unary_bufs_sub .., unary_bufs_sub .., unary_bufs_sub .., binary_bufs_sub .., unary_bufs_sub .., unary_bufs_sub ..,
     binary_bufs_sub .., unary_bufs_sub .., unary_bufs_sub .., binary_bufs_sub ..⟩

/-- Every operation of the window determines its results. -/
theorem freshConv4 : ∀ op ∈ wConv4, op.fresh = ∅ := by
  dsimp only [wConv4, ops753_812, ops812_847, List.cons_append, List.nil_append]
  intro op h
  repeat (cases h with | head => rfl | tail _ h => ?_)
  exact nomatch h

set_option maxHeartbeats 4000000 in
/-- What the window leaves in its result buffer. -/
theorem valueConv4 [Cert.ReferenceIdeal.Facts] (V : Valuation τ sig (Elt Ideal)) :
    (after wConv4 V (Proc.devRef .tc main_v748) : FVec Ideal S100000x128 .f32)
      = convCore (argsV V) 4 (zOf dims layout (V (Proc.devRef .tc main_v664)) (V (Proc.devRef .tc main_v1)) (V (Proc.devRef .tc main_v3)) (scalarAt (argsV V).eps 4)) := by
  dsimp only [wConv4, ops753_812, ops812_847, List.cons_append, List.nil_append]
  after_results_simp
  refine Eq.trans ?_ (conv_host dims layout (argsV V) (convLayout 4) dot_S100000x128_S128x256_S100000x256_1_0_0_1_n_n dot_S100000x256_S256x128_S100000x128_1_0_0_1_n_n rfl rfl _ _ _)
  rfl

end Cert.ReferenceIdeal.RefValue

end
-- ==== Proof.RefValue.lean ====
/-
  The reference program's run, read against the network.

  The program's 847 operations are taken in fourteen windows, cut where a value is used more than once: the first
  operations (the edges' ends, the starting table, layer 0's node array with the graphs' rows added), then for each
  layer the node array's map, the table's renewal and the next layer's node array with the graphs' rows added, and last
  layer 4's map. Each window is read by itself, from arbitrary contents of the buffers; here the windows are threaded:
  the program is the line of the windows' operations, the contents after each window are known through the window's
  result and through the buffers it leaves alone, and so the result buffer ends at the network's output of the argument
  arrays, every argument buffer as it was.
-/
import proofs.«116444_j64183991272049_2_alg».proof.Proof.RefInit
import proofs.«116444_j64183991272049_2_alg».proof.Proof.RefConv0
import proofs.«116444_j64183991272049_2_alg».proof.Proof.RefTable0
import proofs.«116444_j64183991272049_2_alg».proof.Proof.RefHin1
import proofs.«116444_j64183991272049_2_alg».proof.Proof.RefConv1
import proofs.«116444_j64183991272049_2_alg».proof.Proof.RefTable1
import proofs.«116444_j64183991272049_2_alg».proof.Proof.RefHin2
import proofs.«116444_j64183991272049_2_alg».proof.Proof.RefConv2
import proofs.«116444_j64183991272049_2_alg».proof.Proof.RefTable2
import proofs.«116444_j64183991272049_2_alg».proof.Proof.RefHin3
import proofs.«116444_j64183991272049_2_alg».proof.Proof.RefConv3
import proofs.«116444_j64183991272049_2_alg».proof.Proof.RefTable3
import proofs.«116444_j64183991272049_2_alg».proof.Proof.RefHin4
import proofs.«116444_j64183991272049_2_alg».proof.Proof.RefConv4

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx Cert.LibNormLayer Cert.LibSliceRead Cert.Net
set_option Elab.async false

variable [Cert.ReferenceIdeal.Facts]

/-- The program's operations, window by window. -/
abbrev opsR : List (HloOp τ sig (Elt Ideal)) :=
  wInit ++ (wConv0 ++ (wTable0 ++ (wHin1 ++ (wConv1 ++ (wTable1 ++ (wHin2 ++ (wConv2 ++ (wTable2 ++ (wHin3 ++ (wConv3 ++ (wTable3 ++ (wHin4 ++ (wConv4)))))))))))))

/-! ## The program is the line of these operations

The program is printed in fourteen parts; each part is the line of its operations by computation, and the parts run one
after the other are the line of the concatenation. -/

set_option maxRecDepth 16384 in
theorem part0_eq (d : Dev nD) :
    main_part0 (F := Ideal) d = seq (ops0_25 (F := Ideal) ++ ops25_60 (F := Ideal)) := rfl
set_option maxRecDepth 16384 in
theorem part1_eq (d : Dev nD) :
    main_part1 (F := Ideal) d = seq (ops60_122 (F := Ideal) ++ ops122_124 (F := Ideal)) := rfl
set_option maxRecDepth 16384 in
theorem part2_eq (d : Dev nD) :
    main_part2 (F := Ideal) d = seq (ops124_186 (F := Ideal)) := rfl
set_option maxRecDepth 16384 in
theorem part3_eq (d : Dev nD) :
    main_part3 (F := Ideal) d = seq (ops186_197 (F := Ideal) ++ ops197_207 (F := Ideal) ++ ops207_248 (F := Ideal)) := rfl
set_option maxRecDepth 16384 in
theorem part4_eq (d : Dev nD) :
    main_part4 (F := Ideal) d = seq (ops248_304 (F := Ideal) ++ ops304_312 (F := Ideal)) := rfl
set_option maxRecDepth 16384 in
theorem part5_eq (d : Dev nD) :
    main_part5 (F := Ideal) d = seq (ops312_374 (F := Ideal)) := rfl
set_option maxRecDepth 16384 in
theorem part6_eq (d : Dev nD) :
    main_part6 (F := Ideal) d = seq (ops374_379 (F := Ideal) ++ ops379_389 (F := Ideal) ++ ops389_436 (F := Ideal)) := rfl
set_option maxRecDepth 16384 in
theorem part7_eq (d : Dev nD) :
    main_part7 (F := Ideal) d = seq (ops436_486 (F := Ideal) ++ ops486_500 (F := Ideal)) := rfl
set_option maxRecDepth 16384 in
theorem part8_eq (d : Dev nD) :
    main_part8 (F := Ideal) d = seq (ops500_561 (F := Ideal) ++ ops561_564 (F := Ideal)) := rfl
set_option maxRecDepth 16384 in
theorem part9_eq (d : Dev nD) :
    main_part9 (F := Ideal) d = seq (ops564_571 (F := Ideal) ++ ops571_624 (F := Ideal)) := rfl
set_option maxRecDepth 16384 in
theorem part10_eq (d : Dev nD) :
    main_part10 (F := Ideal) d = seq (ops624_668 (F := Ideal) ++ ops668_688 (F := Ideal)) := rfl
set_option maxRecDepth 16384 in
theorem part11_eq (d : Dev nD) :
    main_part11 (F := Ideal) d = seq (ops688_743 (F := Ideal) ++ ops743_752 (F := Ideal)) := rfl
set_option maxRecDepth 16384 in
theorem part12_eq (d : Dev nD) :
    main_part12 (F := Ideal) d = seq (ops752_753 (F := Ideal) ++ ops753_812 (F := Ideal)) := rfl
set_option maxRecDepth 16384 in
theorem part13_eq (d : Dev nD) :
    main_part13 (F := Ideal) d = seq (ops812_847 (F := Ideal)) := rfl

theorem main_eq' (c : Dev nD) : main (F := Ideal) c = seq opsR := by
  unfold main
  rw [part0_eq, part1_eq, part2_eq, part3_eq, part4_eq, part5_eq, part6_eq, part7_eq, part8_eq, part9_eq, part10_eq, part11_eq, part12_eq, part13_eq]
  dsimp only [opsR, wInit, wConv0, wTable0, wHin1, wConv1, wTable1, wHin2, wConv2, wTable2, wHin3, wConv3, wTable3, wHin4, wConv4]
  simp only [seq_append, bind_assoc]

theorem scopedRefs_eq : (Finset.univ.filter fun b : Ref sig .tc => b.isScoped) = ∅ := by decide
theorem scopedSems_eq : (Finset.univ.filter fun sm : SemLoc sig => sm.isScoped .tc) = ∅ := by decide

theorem sub_opsR : (opsR).Forall fun op => op.bufs ⊆ tcRefs τ sig :=
  List.forall_iff_forall_mem.2 (forall_mem_append subInit (forall_mem_append subConv0 (forall_mem_append subTable0 (forall_mem_append subHin1 (forall_mem_append subConv1 (forall_mem_append subTable1 (forall_mem_append subHin2 (forall_mem_append subConv2 (forall_mem_append subTable2 (forall_mem_append subHin3 (forall_mem_append subConv3 (forall_mem_append subTable3 (forall_mem_append subHin4 (subConv4))))))))))))))

theorem fresh_opsR : ∀ op ∈ opsR, op.fresh = ∅ :=
  forall_mem_append freshInit (forall_mem_append freshConv0 (forall_mem_append freshTable0 (forall_mem_append freshHin1 (forall_mem_append freshConv1 (forall_mem_append freshTable1 (forall_mem_append freshHin2 (forall_mem_append freshConv2 (forall_mem_append freshTable2 (forall_mem_append freshHin3 (forall_mem_append freshConv3 (forall_mem_append freshTable3 (forall_mem_append freshHin4 (freshConv4)))))))))))))

/-! ## No operation writes an argument buffer -/

/-- A line of operations after which every argument buffer holds what it held before. -/
def KeepsArgs (w : List (HloOp τ sig (Elt Ideal))) : Prop :=
  ∀ (V : Valuation τ sig (Elt Ideal)), ∀ r ∈ argRefs, after w V (Proc.devRef .tc r) = V (Proc.devRef .tc r)

theorem keepsArgs_of_covers {w : List (HloOp τ sig (Elt Ideal))} {wr : List (Ref sig .tc)} (hc : Cert.SSA.Covers w wr)
    (hr : ∀ r ∈ argRefs, r ∉ wr) : KeepsArgs w :=
  fun V r hm => keep_of_covers hc V r (hr r hm)

theorem KeepsArgs.append {w₁ w₂ : List (HloOp τ sig (Elt Ideal))} (h₁ : KeepsArgs w₁) (h₂ : KeepsArgs w₂) :
    KeepsArgs (w₁ ++ w₂) :=
  fun V r hm => by rw [Cert.SSA.after_append, h₂ _ r hm, h₁ V r hm]

theorem KeepsArgs.argsV {w : List (HloOp τ sig (Elt Ideal))} (h : KeepsArgs w) (V : Valuation τ sig (Elt Ideal)) :
    argsV (after w V) = argsV V :=
  argsV_congr (h V)

theorem argsFreeInit : ∀ r ∈ argRefs, r ∉ wrInit := by
  intro r hr
  simp only [argRefs, List.mem_cons, List.mem_nil_iff, or_false] at hr
  rcases hr with rfl | rfl | rfl | rfl | rfl | rfl | rfl | rfl | rfl | rfl | rfl | rfl | rfl | rfl | rfl | rfl | rfl | rfl | rfl | rfl | rfl | rfl | rfl | rfl | rfl | rfl | rfl | rfl | rfl | rfl <;> decide
theorem keepsInit : KeepsArgs wInit := keepsArgs_of_covers coversInit argsFreeInit
theorem argsFreeConv0 : ∀ r ∈ argRefs, r ∉ wrConv0 := by
  intro r hr
  simp only [argRefs, List.mem_cons, List.mem_nil_iff, or_false] at hr
  rcases hr with rfl | rfl | rfl | rfl | rfl | rfl | rfl | rfl | rfl | rfl | rfl | rfl | rfl | rfl | rfl | rfl | rfl | rfl | rfl | rfl | rfl | rfl | rfl | rfl | rfl | rfl | rfl | rfl | rfl | rfl <;> decide
theorem keepsConv0 : KeepsArgs wConv0 := keepsArgs_of_covers coversConv0 argsFreeConv0
theorem argsFreeTable0 : ∀ r ∈ argRefs, r ∉ wrTable0 := by
  intro r hr
  simp only [argRefs, List.mem_cons, List.mem_nil_iff, or_false] at hr
  rcases hr with rfl | rfl | rfl | rfl | rfl | rfl | rfl | rfl | rfl | rfl | rfl | rfl | rfl | rfl | rfl | rfl | rfl | rfl | rfl | rfl | rfl | rfl | rfl | rfl | rfl | rfl | rfl | rfl | rfl | rfl <;> decide
theorem keepsTable0 : KeepsArgs wTable0 := keepsArgs_of_covers coversTable0 argsFreeTable0
theorem argsFreeHin1 : ∀ r ∈ argRefs, r ∉ wrHin1 := by
  intro r hr
  simp only [argRefs, List.mem_cons, List.mem_nil_iff, or_false] at hr
  rcases hr with rfl | rfl | rfl | rfl | rfl | rfl | rfl | rfl | rfl | rfl | rfl | rfl | rfl | rfl | rfl | rfl | rfl | rfl | rfl | rfl | rfl | rfl | rfl | rfl | rfl | rfl | rfl | rfl | rfl | rfl <;> decide
theorem keepsHin1 : KeepsArgs wHin1 := keepsArgs_of_covers coversHin1 argsFreeHin1
theorem argsFreeConv1 : ∀ r ∈ argRefs, r ∉ wrConv1 := by
  intro r hr
  simp only [argRefs, List.mem_cons, List.mem_nil_iff, or_false] at hr
  rcases hr with rfl | rfl | rfl | rfl | rfl | rfl | rfl | rfl | rfl | rfl | rfl | rfl | rfl | rfl | rfl | rfl | rfl | rfl | rfl | rfl | rfl | rfl | rfl | rfl | rfl | rfl | rfl | rfl | rfl | rfl <;> decide
theorem keepsConv1 : KeepsArgs wConv1 := keepsArgs_of_covers coversConv1 argsFreeConv1
theorem argsFreeTable1 : ∀ r ∈ argRefs, r ∉ wrTable1 := by
  intro r hr
  simp only [argRefs, List.mem_cons, List.mem_nil_iff, or_false] at hr
  rcases hr with rfl | rfl | rfl | rfl | rfl | rfl | rfl | rfl | rfl | rfl | rfl | rfl | rfl | rfl | rfl | rfl | rfl | rfl | rfl | rfl | rfl | rfl | rfl | rfl | rfl | rfl | rfl | rfl | rfl | rfl <;> decide
theorem keepsTable1 : KeepsArgs wTable1 := keepsArgs_of_covers coversTable1 argsFreeTable1
theorem argsFreeHin2 : ∀ r ∈ argRefs, r ∉ wrHin2 := by
  intro r hr
  simp only [argRefs, List.mem_cons, List.mem_nil_iff, or_false] at hr
  rcases hr with rfl | rfl | rfl | rfl | rfl | rfl | rfl | rfl | rfl | rfl | rfl | rfl | rfl | rfl | rfl | rfl | rfl | rfl | rfl | rfl | rfl | rfl | rfl | rfl | rfl | rfl | rfl | rfl | rfl | rfl <;> decide
theorem keepsHin2 : KeepsArgs wHin2 := keepsArgs_of_covers coversHin2 argsFreeHin2
theorem argsFreeConv2 : ∀ r ∈ argRefs, r ∉ wrConv2 := by
  intro r hr
  simp only [argRefs, List.mem_cons, List.mem_nil_iff, or_false] at hr
  rcases hr with rfl | rfl | rfl | rfl | rfl | rfl | rfl | rfl | rfl | rfl | rfl | rfl | rfl | rfl | rfl | rfl | rfl | rfl | rfl | rfl | rfl | rfl | rfl | rfl | rfl | rfl | rfl | rfl | rfl | rfl <;> decide
theorem keepsConv2 : KeepsArgs wConv2 := keepsArgs_of_covers coversConv2 argsFreeConv2
theorem argsFreeTable2 : ∀ r ∈ argRefs, r ∉ wrTable2 := by
  intro r hr
  simp only [argRefs, List.mem_cons, List.mem_nil_iff, or_false] at hr
  rcases hr with rfl | rfl | rfl | rfl | rfl | rfl | rfl | rfl | rfl | rfl | rfl | rfl | rfl | rfl | rfl | rfl | rfl | rfl | rfl | rfl | rfl | rfl | rfl | rfl | rfl | rfl | rfl | rfl | rfl | rfl <;> decide
theorem keepsTable2 : KeepsArgs wTable2 := keepsArgs_of_covers coversTable2 argsFreeTable2
theorem argsFreeHin3 : ∀ r ∈ argRefs, r ∉ wrHin3 := by
  intro r hr
  simp only [argRefs, List.mem_cons, List.mem_nil_iff, or_false] at hr
  rcases hr with rfl | rfl | rfl | rfl | rfl | rfl | rfl | rfl | rfl | rfl | rfl | rfl | rfl | rfl | rfl | rfl | rfl | rfl | rfl | rfl | rfl | rfl | rfl | rfl | rfl | rfl | rfl | rfl | rfl | rfl <;> decide
theorem keepsHin3 : KeepsArgs wHin3 := keepsArgs_of_covers coversHin3 argsFreeHin3
theorem argsFreeConv3 : ∀ r ∈ argRefs, r ∉ wrConv3 := by
  intro r hr
  simp only [argRefs, List.mem_cons, List.mem_nil_iff, or_false] at hr
  rcases hr with rfl | rfl | rfl | rfl | rfl | rfl | rfl | rfl | rfl | rfl | rfl | rfl | rfl | rfl | rfl | rfl | rfl | rfl | rfl | rfl | rfl | rfl | rfl | rfl | rfl | rfl | rfl | rfl | rfl | rfl <;> decide
theorem keepsConv3 : KeepsArgs wConv3 := keepsArgs_of_covers coversConv3 argsFreeConv3
theorem argsFreeTable3 : ∀ r ∈ argRefs, r ∉ wrTable3 := by
  intro r hr
  simp only [argRefs, List.mem_cons, List.mem_nil_iff, or_false] at hr
  rcases hr with rfl | rfl | rfl | rfl | rfl | rfl | rfl | rfl | rfl | rfl | rfl | rfl | rfl | rfl | rfl | rfl | rfl | rfl | rfl | rfl | rfl | rfl | rfl | rfl | rfl | rfl | rfl | rfl | rfl | rfl <;> decide
theorem keepsTable3 : KeepsArgs wTable3 := keepsArgs_of_covers coversTable3 argsFreeTable3
theorem argsFreeHin4 : ∀ r ∈ argRefs, r ∉ wrHin4 := by
  intro r hr
  simp only [argRefs, List.mem_cons, List.mem_nil_iff, or_false] at hr
  rcases hr with rfl | rfl | rfl | rfl | rfl | rfl | rfl | rfl | rfl | rfl | rfl | rfl | rfl | rfl | rfl | rfl | rfl | rfl | rfl | rfl | rfl | rfl | rfl | rfl | rfl | rfl | rfl | rfl | rfl | rfl <;> decide
theorem keepsHin4 : KeepsArgs wHin4 := keepsArgs_of_covers coversHin4 argsFreeHin4
theorem argsFreeConv4 : ∀ r ∈ argRefs, r ∉ wrConv4 := by
  intro r hr
  simp only [argRefs, List.mem_cons, List.mem_nil_iff, or_false] at hr
  rcases hr with rfl | rfl | rfl | rfl | rfl | rfl | rfl | rfl | rfl | rfl | rfl | rfl | rfl | rfl | rfl | rfl | rfl | rfl | rfl | rfl | rfl | rfl | rfl | rfl | rfl | rfl | rfl | rfl | rfl | rfl <;> decide
theorem keepsConv4 : KeepsArgs wConv4 := keepsArgs_of_covers coversConv4 argsFreeConv4

theorem keeps_opsR : KeepsArgs opsR :=
  keepsInit.append (keepsConv0.append (keepsTable0.append (keepsHin1.append (keepsConv1.append (keepsTable1.append (keepsHin2.append (keepsConv2.append (keepsTable2.append (keepsHin3.append (keepsConv3.append (keepsTable3.append (keepsHin4.append (keepsConv4)))))))))))))

/-! ## The result buffer after the whole line

The line is read window by window. The contents after each window are named, and known only through what the window
leaves in its result buffer — the network's function of that name, given the same of the buffers it reads — and through
the buffers it does not write, which keep what they held. -/

/-- (1) After the program's operations, from the launch contents, the result buffer holds the network's output at the
    argument arrays. -/
theorem value (m : (ℓ : Loc nD τ sig) → Buf (Elt Ideal) ℓ) (c : Dev nD) :
    (after opsR (launchContents m c) (Proc.devRef .tc main_v748) : FVec Ideal S100000x128 .f32)
      = Cert.Net.out dims layout (args m c) := by
  have hA0 : argsV (launchContents m c) = args m c := argsV_launch m c
  generalize launchContents m c = V0 at hA0 ⊢
  generalize args m c = A at hA0 ⊢
  -- after the window Init
  obtain ⟨W1, e1⟩ : ∃ W, after wInit V0 = W := ⟨_, rfl⟩
  have a1 : argsV W1 = A := by rw [← e1, (keepsInit).argsV V0]; exact hA0
  have h1_v1 : (W1 (Proc.devRef .tc main_v1) : IVec S600000 32) = srcOf layout A.edges := by
    rw [← e1, valueInitSrc V0, hA0] <;> rfl
  have h1_v3 : (W1 (Proc.devRef .tc main_v3) : IVec S600000 32) = dstOf layout A.edges := by
    rw [← e1, valueInitDst V0, hA0] <;> rfl
  have h1_v5 : (W1 (Proc.devRef .tc main_v5) : FVec Ideal S512x128 .f32) = vn0 layout A := by
    rw [← e1, valueInitVn V0, hA0] <;> rfl
  have h1_v20 : (W1 (Proc.devRef .tc main_v20) : FVec Ideal S100000x128 .f32) = hin0 dims layout A := by
    rw [← e1, valueInitHin V0, hA0] <;> rfl
  -- after the window Conv0
  obtain ⟨W2, e2⟩ : ∃ W, after wConv0 W1 = W := ⟨_, rfl⟩
  have a2 : argsV W2 = A := by rw [← e2, (keepsConv0).argsV W1]; exact a1
  have h2_v1 : (W2 (Proc.devRef .tc main_v1) : IVec S600000 32) = srcOf layout A.edges := by
    rw [← e2, keep_of_covers coversConv0 W1 main_v1 (by decide)]; exact h1_v1
  have h2_v3 : (W2 (Proc.devRef .tc main_v3) : IVec S600000 32) = dstOf layout A.edges := by
    rw [← e2, keep_of_covers coversConv0 W1 main_v3 (by decide)]; exact h1_v3
  have h2_v5 : (W2 (Proc.devRef .tc main_v5) : FVec Ideal S512x128 .f32) = vn0 layout A := by
    rw [← e2, keep_of_covers coversConv0 W1 main_v5 (by decide)]; exact h1_v5
  have h2_v20 : (W2 (Proc.devRef .tc main_v20) : FVec Ideal S100000x128 .f32) = hin0 dims layout A := by
    rw [← e2, keep_of_covers coversConv0 W1 main_v20 (by decide)]; exact h1_v20
  have h2_v105 : (W2 (Proc.devRef .tc main_v105) : FVec Ideal S100000x128 .f32) = h1 dims layout A := by
    rw [← e2, valueConv0 W1, a1, h1_v20, h1_v1, h1_v3] <;> rfl
  -- after the window Table0
  obtain ⟨W3, e3⟩ : ∃ W, after wTable0 W2 = W := ⟨_, rfl⟩
  have a3 : argsV W3 = A := by rw [← e3, (keepsTable0).argsV W2]; exact a2
  have h3_v1 : (W3 (Proc.devRef .tc main_v1) : IVec S600000 32) = srcOf layout A.edges := by
    rw [← e3, keep_of_covers coversTable0 W2 main_v1 (by decide)]; exact h2_v1
  have h3_v3 : (W3 (Proc.devRef .tc main_v3) : IVec S600000 32) = dstOf layout A.edges := by
    rw [← e3, keep_of_covers coversTable0 W2 main_v3 (by decide)]; exact h2_v3
  have h3_v105 : (W3 (Proc.devRef .tc main_v105) : FVec Ideal S100000x128 .f32) = h1 dims layout A := by
    rw [← e3, keep_of_covers coversTable0 W2 main_v105 (by decide)]; exact h2_v105
  have h3_v173 : (W3 (Proc.devRef .tc main_v173) : FVec Ideal S512x128 .f32) = vn1 dims layout A := by
    rw [← e3, valueTable0 W2, a2, h2_v20, h2_v5] <;> rfl
  -- after the window Hin1
  obtain ⟨W4, e4⟩ : ∃ W, after wHin1 W3 = W := ⟨_, rfl⟩
  have a4 : argsV W4 = A := by rw [← e4, (keepsHin1).argsV W3]; exact a3
  have h4_v1 : (W4 (Proc.devRef .tc main_v1) : IVec S600000 32) = srcOf layout A.edges := by
    rw [← e4, keep_of_covers coversHin1 W3 main_v1 (by decide)]; exact h3_v1
  have h4_v3 : (W4 (Proc.devRef .tc main_v3) : IVec S600000 32) = dstOf layout A.edges := by
    rw [← e4, keep_of_covers coversHin1 W3 main_v3 (by decide)]; exact h3_v3
  have h4_v173 : (W4 (Proc.devRef .tc main_v173) : FVec Ideal S512x128 .f32) = vn1 dims layout A := by
    rw [← e4, keep_of_covers coversHin1 W3 main_v173 (by decide)]; exact h3_v173
  have h4_v181 : (W4 (Proc.devRef .tc main_v181) : FVec Ideal S100000x128 .f32) = hin1 dims layout A := by
    rw [← e4, valueHin1 W3, a3, h3_v105, h3_v173] <;> rfl
  -- after the window Conv1
  obtain ⟨W5, e5⟩ : ∃ W, after wConv1 W4 = W := ⟨_, rfl⟩
  have a5 : argsV W5 = A := by rw [← e5, (keepsConv1).argsV W4]; exact a4
  have h5_v1 : (W5 (Proc.devRef .tc main_v1) : IVec S600000 32) = srcOf layout A.edges := by
    rw [← e5, keep_of_covers coversConv1 W4 main_v1 (by decide)]; exact h4_v1
  have h5_v3 : (W5 (Proc.devRef .tc main_v3) : IVec S600000 32) = dstOf layout A.edges := by
    rw [← e5, keep_of_covers coversConv1 W4 main_v3 (by decide)]; exact h4_v3
  have h5_v173 : (W5 (Proc.devRef .tc main_v173) : FVec Ideal S512x128 .f32) = vn1 dims layout A := by
    rw [← e5, keep_of_covers coversConv1 W4 main_v173 (by decide)]; exact h4_v173
  have h5_v181 : (W5 (Proc.devRef .tc main_v181) : FVec Ideal S100000x128 .f32) = hin1 dims layout A := by
    rw [← e5, keep_of_covers coversConv1 W4 main_v181 (by decide)]; exact h4_v181
  have h5_v266 : (W5 (Proc.devRef .tc main_v266) : FVec Ideal S100000x128 .f32) = h2 dims layout A := by
    rw [← e5, valueConv1 W4, a4, h4_v181, h4_v1, h4_v3] <;> rfl
  -- after the window Table1
  obtain ⟨W6, e6⟩ : ∃ W, after wTable1 W5 = W := ⟨_, rfl⟩
  have a6 : argsV W6 = A := by rw [← e6, (keepsTable1).argsV W5]; exact a5
  have h6_v1 : (W6 (Proc.devRef .tc main_v1) : IVec S600000 32) = srcOf layout A.edges := by
    rw [← e6, keep_of_covers coversTable1 W5 main_v1 (by decide)]; exact h5_v1
  have h6_v3 : (W6 (Proc.devRef .tc main_v3) : IVec S600000 32) = dstOf layout A.edges := by
    rw [← e6, keep_of_covers coversTable1 W5 main_v3 (by decide)]; exact h5_v3
  have h6_v266 : (W6 (Proc.devRef .tc main_v266) : FVec Ideal S100000x128 .f32) = h2 dims layout A := by
    rw [← e6, keep_of_covers coversTable1 W5 main_v266 (by decide)]; exact h5_v266
  have h6_v334 : (W6 (Proc.devRef .tc main_v334) : FVec Ideal S512x128 .f32) = vn2 dims layout A := by
    rw [← e6, valueTable1 W5, a5, h5_v181, h5_v173] <;> rfl
  -- after the window Hin2
  obtain ⟨W7, e7⟩ : ∃ W, after wHin2 W6 = W := ⟨_, rfl⟩
  have a7 : argsV W7 = A := by rw [← e7, (keepsHin2).argsV W6]; exact a6
  have h7_v1 : (W7 (Proc.devRef .tc main_v1) : IVec S600000 32) = srcOf layout A.edges := by
    rw [← e7, keep_of_covers coversHin2 W6 main_v1 (by decide)]; exact h6_v1
  have h7_v3 : (W7 (Proc.devRef .tc main_v3) : IVec S600000 32) = dstOf layout A.edges := by
    rw [← e7, keep_of_covers coversHin2 W6 main_v3 (by decide)]; exact h6_v3
  have h7_v334 : (W7 (Proc.devRef .tc main_v334) : FVec Ideal S512x128 .f32) = vn2 dims layout A := by
    rw [← e7, keep_of_covers coversHin2 W6 main_v334 (by decide)]; exact h6_v334
  have h7_v342 : (W7 (Proc.devRef .tc main_v342) : FVec Ideal S100000x128 .f32) = hin2 dims layout A := by
    rw [← e7, valueHin2 W6, a6, h6_v266, h6_v334] <;> rfl
  -- after the window Conv2
  obtain ⟨W8, e8⟩ : ∃ W, after wConv2 W7 = W := ⟨_, rfl⟩
  have a8 : argsV W8 = A := by rw [← e8, (keepsConv2).argsV W7]; exact a7
  have h8_v1 : (W8 (Proc.devRef .tc main_v1) : IVec S600000 32) = srcOf layout A.edges := by
    rw [← e8, keep_of_covers coversConv2 W7 main_v1 (by decide)]; exact h7_v1
  have h8_v3 : (W8 (Proc.devRef .tc main_v3) : IVec S600000 32) = dstOf layout A.edges := by
    rw [← e8, keep_of_covers coversConv2 W7 main_v3 (by decide)]; exact h7_v3
  have h8_v334 : (W8 (Proc.devRef .tc main_v334) : FVec Ideal S512x128 .f32) = vn2 dims layout A := by
    rw [← e8, keep_of_covers coversConv2 W7 main_v334 (by decide)]; exact h7_v334
  have h8_v342 : (W8 (Proc.devRef .tc main_v342) : FVec Ideal S100000x128 .f32) = hin2 dims layout A := by
    rw [← e8, keep_of_covers coversConv2 W7 main_v342 (by decide)]; exact h7_v342
  have h8_v427 : (W8 (Proc.devRef .tc main_v427) : FVec Ideal S100000x128 .f32) = h3 dims layout A := by
    rw [← e8, valueConv2 W7, a7, h7_v342, h7_v1, h7_v3] <;> rfl
  -- after the window Table2
  obtain ⟨W9, e9⟩ : ∃ W, after wTable2 W8 = W := ⟨_, rfl⟩
  have a9 : argsV W9 = A := by rw [← e9, (keepsTable2).argsV W8]; exact a8
  have h9_v1 : (W9 (Proc.devRef .tc main_v1) : IVec S600000 32) = srcOf layout A.edges := by
    rw [← e9, keep_of_covers coversTable2 W8 main_v1 (by decide)]; exact h8_v1
  have h9_v3 : (W9 (Proc.devRef .tc main_v3) : IVec S600000 32) = dstOf layout A.edges := by
    rw [← e9, keep_of_covers coversTable2 W8 main_v3 (by decide)]; exact h8_v3
  have h9_v427 : (W9 (Proc.devRef .tc main_v427) : FVec Ideal S100000x128 .f32) = h3 dims layout A := by
    rw [← e9, keep_of_covers coversTable2 W8 main_v427 (by decide)]; exact h8_v427
  have h9_v495 : (W9 (Proc.devRef .tc main_v495) : FVec Ideal S512x128 .f32) = vn3 dims layout A := by
    rw [← e9, valueTable2 W8, a8, h8_v342, h8_v334] <;> rfl
  -- after the window Hin3
  obtain ⟨W10, e10⟩ : ∃ W, after wHin3 W9 = W := ⟨_, rfl⟩
  have a10 : argsV W10 = A := by rw [← e10, (keepsHin3).argsV W9]; exact a9
  have h10_v1 : (W10 (Proc.devRef .tc main_v1) : IVec S600000 32) = srcOf layout A.edges := by
    rw [← e10, keep_of_covers coversHin3 W9 main_v1 (by decide)]; exact h9_v1
  have h10_v3 : (W10 (Proc.devRef .tc main_v3) : IVec S600000 32) = dstOf layout A.edges := by
    rw [← e10, keep_of_covers coversHin3 W9 main_v3 (by decide)]; exact h9_v3
  have h10_v495 : (W10 (Proc.devRef .tc main_v495) : FVec Ideal S512x128 .f32) = vn3 dims layout A := by
    rw [← e10, keep_of_covers coversHin3 W9 main_v495 (by decide)]; exact h9_v495
  have h10_v503 : (W10 (Proc.devRef .tc main_v503) : FVec Ideal S100000x128 .f32) = hin3 dims layout A := by
    rw [← e10, valueHin3 W9, a9, h9_v427, h9_v495] <;> rfl
  -- after the window Conv3
  obtain ⟨W11, e11⟩ : ∃ W, after wConv3 W10 = W := ⟨_, rfl⟩
  have a11 : argsV W11 = A := by rw [← e11, (keepsConv3).argsV W10]; exact a10
  have h11_v1 : (W11 (Proc.devRef .tc main_v1) : IVec S600000 32) = srcOf layout A.edges := by
    rw [← e11, keep_of_covers coversConv3 W10 main_v1 (by decide)]; exact h10_v1
  have h11_v3 : (W11 (Proc.devRef .tc main_v3) : IVec S600000 32) = dstOf layout A.edges := by
    rw [← e11, keep_of_covers coversConv3 W10 main_v3 (by decide)]; exact h10_v3
  have h11_v495 : (W11 (Proc.devRef .tc main_v495) : FVec Ideal S512x128 .f32) = vn3 dims layout A := by
    rw [← e11, keep_of_covers coversConv3 W10 main_v495 (by decide)]; exact h10_v495
  have h11_v503 : (W11 (Proc.devRef .tc main_v503) : FVec Ideal S100000x128 .f32) = hin3 dims layout A := by
    rw [← e11, keep_of_covers coversConv3 W10 main_v503 (by decide)]; exact h10_v503
  have h11_v588 : (W11 (Proc.devRef .tc main_v588) : FVec Ideal S100000x128 .f32) = h4 dims layout A := by
    rw [← e11, valueConv3 W10, a10, h10_v503, h10_v1, h10_v3] <;> rfl
  -- after the window Table3
  obtain ⟨W12, e12⟩ : ∃ W, after wTable3 W11 = W := ⟨_, rfl⟩
  have a12 : argsV W12 = A := by rw [← e12, (keepsTable3).argsV W11]; exact a11
  have h12_v1 : (W12 (Proc.devRef .tc main_v1) : IVec S600000 32) = srcOf layout A.edges := by
    rw [← e12, keep_of_covers coversTable3 W11 main_v1 (by decide)]; exact h11_v1
  have h12_v3 : (W12 (Proc.devRef .tc main_v3) : IVec S600000 32) = dstOf layout A.edges := by
    rw [← e12, keep_of_covers coversTable3 W11 main_v3 (by decide)]; exact h11_v3
  have h12_v588 : (W12 (Proc.devRef .tc main_v588) : FVec Ideal S100000x128 .f32) = h4 dims layout A := by
    rw [← e12, keep_of_covers coversTable3 W11 main_v588 (by decide)]; exact h11_v588
  have h12_v656 : (W12 (Proc.devRef .tc main_v656) : FVec Ideal S512x128 .f32) = vn4 dims layout A := by
    rw [← e12, valueTable3 W11, a11, h11_v503, h11_v495] <;> rfl
  -- after the window Hin4
  obtain ⟨W13, e13⟩ : ∃ W, after wHin4 W12 = W := ⟨_, rfl⟩
  have a13 : argsV W13 = A := by rw [← e13, (keepsHin4).argsV W12]; exact a12
  have h13_v1 : (W13 (Proc.devRef .tc main_v1) : IVec S600000 32) = srcOf layout A.edges := by
    rw [← e13, keep_of_covers coversHin4 W12 main_v1 (by decide)]; exact h12_v1
  have h13_v3 : (W13 (Proc.devRef .tc main_v3) : IVec S600000 32) = dstOf layout A.edges := by
    rw [← e13, keep_of_covers coversHin4 W12 main_v3 (by decide)]; exact h12_v3
  have h13_v664 : (W13 (Proc.devRef .tc main_v664) : FVec Ideal S100000x128 .f32) = hin4 dims layout A := by
    rw [← e13, valueHin4 W12, a12, h12_v588, h12_v656] <;> rfl
  -- the last window
  have e : after opsR V0 = after wConv4 W13 := by
    dsimp only [opsR]
    rw [Cert.SSA.after_append, e1, Cert.SSA.after_append, e2, Cert.SSA.after_append, e3, Cert.SSA.after_append, e4, Cert.SSA.after_append, e5, Cert.SSA.after_append, e6, Cert.SSA.after_append, e7, Cert.SSA.after_append, e8, Cert.SSA.after_append, e9, Cert.SSA.after_append, e10, Cert.SSA.after_append, e11, Cert.SSA.after_append, e12, Cert.SSA.after_append, e13]
  rw [e, valueConv4 W13, a13, h13_v664, h13_v1, h13_v3] <;> rfl

/-! ## The run -/

/-- Every weakly fair execution of the program ends with the result buffer at the network's output of the argument
    arrays and with every argument buffer as it was. -/
theorem run_both (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v748) = Cert.Net.out dims layout (args m c)
      ∧ ∀ b ∈ argRefs, r.2.mem ((c.tc : Thread nD τ).loc b) = m ((c.tc : Thread nD τ).loc b)) :=
  (θ_run defs _ _).mono (fun _ h c => ⟨(h c main_v748).trans (value m c),
      fun b hb => (h c b).trans (keeps_opsR (launchContents m c) b hb)⟩)
    (run_seq scopedRefs_eq scopedSems_eq defs main (fun _ => opsR) main_eq' (fun _ => sub_opsR) m ρ (fun _ => fresh_opsR))

/-- (2) The result. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩
      (fun r => ∀ c : Dev nD, r.2.mem ((c.tc : Thread nD τ).loc main_v748) = Cert.Net.out dims layout (args m c)) :=
  (θ_run defs _ _).mono (fun _ h c => (h c).1) (run_both m ρ)

/-- (3) The arguments. -/
theorem run_frame (m : (ℓ : Loc nD τ sig) → Buf (Elt Ideal) ℓ) (ρ : Dev nD → PrngReg) :
    θ_run (defs (F := Ideal)) (onTc (τ := τ) (main (F := Ideal))) ⟨m, fun _ => 0, ρ⟩
      (fun r => ∀ c : Dev nD, ∀ b ∈ argRefs, r.2.mem ((c.tc : Thread nD τ).loc b) = m ((c.tc : Thread nD τ).loc b)) :=
  (θ_run defs _ _).mono (fun _ h c => (h c).2) (run_both m ρ)

end Cert.ReferenceIdeal.RefValue

end
-- ==== Proof.lean ====
/- The proof of `Cert.Claim` for the five-layer graph network with a virtual node: its nine two-layer normalised maps are
   Pallas launches in the kernel program and plain jnp in the reference.

   Frames: the kernel programs' are the generated frame certificates; the reference's is its run with the result dropped.
   `preserves` is `True`: the idealization rewrote nothing. `algebraic`: both idealized programs end with the result array at
   ONE function of the argument arrays, `Cert.Net.out` — the kernel's run read off the fold of its eighteen segments
   (host stretches by their operations, launches tile by tile through the row-wise two-layer map), the reference's run read
   window by window —, and memories that agree on the arguments give that function the same arguments. No step needs the
   inputs finite: the two programs associate every sum and product alike. -/
import proofs.«116444_j64183991272049_2_alg».proof.Defs
import proofs.«116444_j64183991272049_2_alg».proof.Proof.Gen.Kernel
import proofs.«116444_j64183991272049_2_alg».proof.Proof.Gen.Kernel.Frame
import proofs.«116444_j64183991272049_2_alg».proof.Proof.Gen.KernelIdeal
import proofs.«116444_j64183991272049_2_alg».proof.Proof.Gen.KernelIdeal.Frame
import proofs.«116444_j64183991272049_2_alg».proof.Proof.Gen.ReferenceIdeal
import proofs.«116444_j64183991272049_2_alg».proof.Proof.Gen.Pre_finite_inputs
import proofs.«116444_j64183991272049_2_alg».proof.Proof.KernelRun
import proofs.«116444_j64183991272049_2_alg».proof.Proof.KChain
import proofs.«116444_j64183991272049_2_alg».proof.Proof.RefValue
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ

/-- The reference's run leaves every argument array as launched. -/
theorem frame_ri : Cert.frame_ReferenceIdeal := fun m ρ _ =>
  (θ_run Cert.ReferenceIdeal.defs _ _).mono (fun _ h c =>
    ⟨h c Cert.ReferenceIdeal.main_arg0 (by decide),
     h c Cert.ReferenceIdeal.main_arg1 (by decide),
     h c Cert.ReferenceIdeal.main_arg2 (by decide),
     h c Cert.ReferenceIdeal.main_arg3 (by decide),
     h c Cert.ReferenceIdeal.main_arg4 (by decide),
     h c Cert.ReferenceIdeal.main_arg5 (by decide),
     h c Cert.ReferenceIdeal.main_arg6 (by decide),
     h c Cert.ReferenceIdeal.main_arg7 (by decide),
     h c Cert.ReferenceIdeal.main_arg8 (by decide),
     h c Cert.ReferenceIdeal.main_arg9 (by decide),
     h c Cert.ReferenceIdeal.main_arg10 (by decide),
     h c Cert.ReferenceIdeal.main_arg11 (by decide),
     h c Cert.ReferenceIdeal.main_arg12 (by decide),
     h c Cert.ReferenceIdeal.main_arg13 (by decide),
     h c Cert.ReferenceIdeal.main_arg14 (by decide),
     h c Cert.ReferenceIdeal.main_arg15 (by decide),
     h c Cert.ReferenceIdeal.main_arg16 (by decide),
     h c Cert.ReferenceIdeal.main_arg17 (by decide),
     h c Cert.ReferenceIdeal.main_arg18 (by decide),
     h c Cert.ReferenceIdeal.main_arg19 (by decide),
     h c Cert.ReferenceIdeal.main_arg20 (by decide),
     h c Cert.ReferenceIdeal.main_arg21 (by decide),
     h c Cert.ReferenceIdeal.main_arg22 (by decide),
     h c Cert.ReferenceIdeal.main_arg23 (by decide),
     h c Cert.ReferenceIdeal.main_arg24 (by decide),
     h c Cert.ReferenceIdeal.main_arg25 (by decide),
     h c Cert.ReferenceIdeal.main_arg26 (by decide),
     h c Cert.ReferenceIdeal.main_arg27 (by decide),
     h c Cert.ReferenceIdeal.main_arg28 (by decide),
     h c Cert.ReferenceIdeal.main_arg29 (by decide)⟩)
    (Cert.ReferenceIdeal.RefValue.run_frame m ρ)

/-- The two programs' dimension numbers are the same records, and memories agreeing on the thirty arguments give the network
    the same arguments: the two sides' values of the network are one. -/
theorem net_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)) :
    Cert.Net.out Cert.ReferenceIdeal.RefValue.dims Cert.ReferenceIdeal.RefValue.layout (Cert.ReferenceIdeal.RefValue.args m' c)
      = Cert.Net.out Cert.KernelIdeal.Host.dims Cert.KernelIdeal.Host.layout (Cert.KernelIdeal.Host.args m c) := by
  obtain ⟨h0, h1, h2, h3, h4, h5, h6, h7, h8, h9, h10, h11, h12, h13, h14, h15, h16, h17, h18, h19, h20, h21, h22, h23, h24, h25, h26, h27, h28, h29⟩ := h
  have ea : Cert.ReferenceIdeal.RefValue.args m' c = Cert.KernelIdeal.Host.args m c := by
    unfold Cert.ReferenceIdeal.RefValue.args Cert.KernelIdeal.Host.args
    rw [h0, h1, h2, h3, h4, h5, h6, h7, h8, h9, h10, h11, h12, h13, h14, h15, h16, h17, h18, h19, h20, h21, h22, h23, h24, h25, h26, h27, h28, h29]
  rw [ea]
  rfl

/-- Both idealized programs end with the result array at the network's value of the argument arrays. -/
theorem algebraic : Cert.algebraic_KernelIdeal_ReferenceIdeal := by
  intro m g m' g' _ hagree
  refine ⟨fun c => Cert.Net.out Cert.KernelIdeal.Host.dims Cert.KernelIdeal.Host.layout (Cert.KernelIdeal.Host.args m c), ?_, ?_⟩
  · exact (θ_run Cert.KernelIdeal.defs _ _).mono
      (fun r h c => ⟨(h c).1.trans (Cert.KernelIdeal.Chain.out_at18 m g c), (h c).2⟩)
      (Cert.KernelIdeal.RunValue.run_named (F := Ideal) m g)
  · refine (θ_run Cert.ReferenceIdeal.defs _ _).mono (fun r h c => ?_) (Cert.ReferenceIdeal.RefValue.run_both m' g')
    exact ⟨(h c).1.trans (net_agree m m' c (hagree c)),
     (h c).2 Cert.ReferenceIdeal.main_arg0 (by decide),
     (h c).2 Cert.ReferenceIdeal.main_arg1 (by decide),
     (h c).2 Cert.ReferenceIdeal.main_arg2 (by decide),
     (h c).2 Cert.ReferenceIdeal.main_arg3 (by decide),
     (h c).2 Cert.ReferenceIdeal.main_arg4 (by decide),
     (h c).2 Cert.ReferenceIdeal.main_arg5 (by decide),
     (h c).2 Cert.ReferenceIdeal.main_arg6 (by decide),
     (h c).2 Cert.ReferenceIdeal.main_arg7 (by decide),
     (h c).2 Cert.ReferenceIdeal.main_arg8 (by decide),
     (h c).2 Cert.ReferenceIdeal.main_arg9 (by decide),
     (h c).2 Cert.ReferenceIdeal.main_arg10 (by decide),
     (h c).2 Cert.ReferenceIdeal.main_arg11 (by decide),
     (h c).2 Cert.ReferenceIdeal.main_arg12 (by decide),
     (h c).2 Cert.ReferenceIdeal.main_arg13 (by decide),
     (h c).2 Cert.ReferenceIdeal.main_arg14 (by decide),
     (h c).2 Cert.ReferenceIdeal.main_arg15 (by decide),
     (h c).2 Cert.ReferenceIdeal.main_arg16 (by decide),
     (h c).2 Cert.ReferenceIdeal.main_arg17 (by decide),
     (h c).2 Cert.ReferenceIdeal.main_arg18 (by decide),
     (h c).2 Cert.ReferenceIdeal.main_arg19 (by decide),
     (h c).2 Cert.ReferenceIdeal.main_arg20 (by decide),
     (h c).2 Cert.ReferenceIdeal.main_arg21 (by decide),
     (h c).2 Cert.ReferenceIdeal.main_arg22 (by decide),
     (h c).2 Cert.ReferenceIdeal.main_arg23 (by decide),
     (h c).2 Cert.ReferenceIdeal.main_arg24 (by decide),
     (h c).2 Cert.ReferenceIdeal.main_arg25 (by decide),
     (h c).2 Cert.ReferenceIdeal.main_arg26 (by decide),
     (h c).2 Cert.ReferenceIdeal.main_arg27 (by decide),
     (h c).2 Cert.ReferenceIdeal.main_arg28 (by decide),
     (h c).2 Cert.ReferenceIdeal.main_arg29 (by decide)⟩

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
